-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x512 : Shape := ⟨3, ![1, 512, 512]⟩
abbrev S_ : Shape := ⟨0, ![]⟩

class Facts : Prop where
  bcast_S_S1x512x512 : S_.BroadcastsInDim S1x512x512 (![] : Fin 0 → Fin S1x512x512.rank)
  reducesTo_S1x512x512_S_d0_1_2 : S1x512x512.ReducesTo [0, 1, 2] S_
  h_S_ : 0 < S_.numel

variable [Facts]

def fn {F : FTy → Type} [FloatOps F] (main_arg0 : FVec F S1x512x512 .f32) : IVec S_ 1 :=
  let main_v0 : FVec F S1x512x512 .f32 := Host.absf main_arg0
  let main_cst : FVec F S_ .f32 := constant S_ .f32 0x7F800000#32
  let main_v1 : FVec F S1x512x512 .f32 := broadcastInDim S1x512x512 ![] bcast_S_S1x512x512 main_cst
  let main_v2 : IVec S1x512x512 1 := cmpf .olt main_v0 main_v1
  let main_c : IVec S_ 1 := constantI S_ 1 1#1
  let main_v3 : IVec S_ 1 := (fun x v => Host.reduce IntOp.andi x v reducesTo_S1x512x512_S_d0_1_2 h_S_) main_v2 main_c
  main_v3
-- ==== Pre_finite_inputs_ReferenceIdeal.lean ====
abbrev S16x512x512 : Shape := ⟨3, ![16, 512, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x512x512 .f32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  main_v3
-- ==== Kernel.lean ====
abbrev S1x512x512 : Shape := ⟨3, ![1, 512, 512]⟩
abbrev S512x512 : Shape := ⟨2, ![512, 512]⟩
abbrev S640x512 : Shape := ⟨2, ![640, 512]⟩
abbrev S24 : Shape := ⟨1, ![24]⟩
abbrev S_ : Shape := ⟨0, ![]⟩
abbrev S1 : Shape := ⟨1, ![1]⟩
abbrev S64x512 : Shape := ⟨2, ![64, 512]⟩
abbrev S1x64x512 : Shape := ⟨3, ![1, 64, 512]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S640x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  { ofTc nBuf bufTy 1 50 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c1_i32_13 : BitVec 32 := 1#32
  let v34 : BitVec 32 := Scalar.xori v33 c1_i32_13
  let c0_i32_21 : BitVec 32 := 0#32
  let v46 : BitVec 1 := Scalar.cmpi .sgt v34 c0_i32_21
  let v47 : BitVec 32 := Scalar.extui v46
  let c0_i32_22 : BitVec 32 := 0#32
  let v48 : BitVec 1 := Scalar.cmpi .slt v34 c0_i32_22
  let v49 : BitVec 32 := Scalar.extui v48
  let v50 : BitVec 32 := Scalar.subi v47 v49
  let c4_i32_20 : BitVec 32 := 4#32
  let c0_i32_23 : BitVec 32 := 0#32
  let v51 : BitVec 1 := Scalar.cmpi .sgt c4_i32_20 c0_i32_23
  let v52 : BitVec 32 := Scalar.extui v51
  let c0_i32_24 : BitVec 32 := 0#32
  let v53 : BitVec 1 := Scalar.cmpi .slt c4_i32_20 c0_i32_24
  let v54 : BitVec 32 := Scalar.extui v53
  let v55 : BitVec 32 := Scalar.subi v52 v54
  let v56 : BitVec 1 := Scalar.cmpi .ne v50 v55
  let v57 : BitVec 32 := Scalar.remsi v34 c4_i32_20
  let c0_i32_25 : BitVec 32 := 0#32
  let v58 : BitVec 1 := Scalar.cmpi .ne v57 c0_i32_25
  let v59 : BitVec 1 := Scalar.andi v56 v58
  let v45 : BitVec 32 := Scalar.divsi v34 c4_i32_20
  let c1_i32_26 : BitVec 32 := 1#32
  let v60 : BitVec 32 := Scalar.subi v45 c1_i32_26
  let v61 : BitVec 32 := Scalar.select v59 v60 v45
  let c4_i32_27 : BitVec 32 := 4#32
  let v62 : BitVec 32 := Scalar.muli v61 c4_i32_27
  let c4_i32_14 : BitVec 32 := 4#32
  let c0_i32_15 : BitVec 32 := 0#32
  let v35 : BitVec 1 := Scalar.cmpi .eq c4_i32_14 c0_i32_15
  let c1_i32_16 : BitVec 32 := 1#32
  let v36 : BitVec 32 := Scalar.select v35 c1_i32_16 c4_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_28 : BitVec 32 := 1#32
  let v63 : BitVec 32 := Scalar.shrsi v44 c1_i32_28
  let v64 : BitVec 32 := Scalar.xori v44 v63
  let v65 : BitVec 32 := Scalar.addi v62 v64
  let c1_i32_83 : BitVec 32 := 1#32
  let v171 : BitVec 32 := Scalar.muli v65 c1_i32_83
  let v172 : BitVec 32 := Scalar.addi c0_i32_84 v171
  v172.toNat
def k0_dev2 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c2_i32 : BitVec 32 := 2#32
  let v66 : BitVec 32 := Scalar.xori v33 c2_i32
  let c0_i32_36 : BitVec 32 := 0#32
  let v78 : BitVec 1 := Scalar.cmpi .sgt v66 c0_i32_36
  let v79 : BitVec 32 := Scalar.extui v78
  let c0_i32_37 : BitVec 32 := 0#32
  let v80 : BitVec 1 := Scalar.cmpi .slt v66 c0_i32_37
  let v81 : BitVec 32 := Scalar.extui v80
  let v82 : BitVec 32 := Scalar.subi v79 v81
  let c4_i32_35 : BitVec 32 := 4#32
  let c0_i32_38 : BitVec 32 := 0#32
  let v83 : BitVec 1 := Scalar.cmpi .sgt c4_i32_35 c0_i32_38
  let v84 : BitVec 32 := Scalar.extui v83
  let c0_i32_39 : BitVec 32 := 0#32
  let v85 : BitVec 1 := Scalar.cmpi .slt c4_i32_35 c0_i32_39
  let v86 : BitVec 32 := Scalar.extui v85
  let v87 : BitVec 32 := Scalar.subi v84 v86
  let v88 : BitVec 1 := Scalar.cmpi .ne v82 v87
  let v89 : BitVec 32 := Scalar.remsi v66 c4_i32_35
  let c0_i32_40 : BitVec 32 := 0#32
  let v90 : BitVec 1 := Scalar.cmpi .ne v89 c0_i32_40
  let v91 : BitVec 1 := Scalar.andi v88 v90
  let v77 : BitVec 32 := Scalar.divsi v66 c4_i32_35
  let c1_i32_41 : BitVec 32 := 1#32
  let v92 : BitVec 32 := Scalar.subi v77 c1_i32_41
  let v93 : BitVec 32 := Scalar.select v91 v92 v77
  let c4_i32_42 : BitVec 32 := 4#32
  let v94 : BitVec 32 := Scalar.muli v93 c4_i32_42
  let c4_i32_29 : BitVec 32 := 4#32
  let c0_i32_30 : BitVec 32 := 0#32
  let v67 : BitVec 1 := Scalar.cmpi .eq c4_i32_29 c0_i32_30
  let c1_i32_31 : BitVec 32 := 1#32
  let v68 : BitVec 32 := Scalar.select v67 c1_i32_31 c4_i32_29
  let v69 : BitVec 32 := Scalar.remsi v66 v68
  let c0_i32_33 : BitVec 32 := 0#32
  let v71 : BitVec 1 := Scalar.cmpi .slt v69 c0_i32_33
  let c0_i32_34 : BitVec 32 := 0#32
  let v72 : BitVec 1 := Scalar.cmpi .slt v68 c0_i32_34
  let v73 : BitVec 1 := Scalar.xori v71 v72
  let c0_i32_32 : BitVec 32 := 0#32
  let v70 : BitVec 1 := Scalar.cmpi .ne v69 c0_i32_32
  let v74 : BitVec 1 := Scalar.andi v73 v70
  let v75 : BitVec 32 := Scalar.addi v69 v68
  let v76 : BitVec 32 := Scalar.select v74 v75 v69
  let c1_i32_43 : BitVec 32 := 1#32
  let v95 : BitVec 32 := Scalar.shrsi v76 c1_i32_43
  let v96 : BitVec 32 := Scalar.xori v76 v95
  let v97 : BitVec 32 := Scalar.addi v94 v96
  let c1_i32_86 : BitVec 32 := 1#32
  let v173 : BitVec 32 := Scalar.muli v97 c1_i32_86
  let v174 : BitVec 32 := Scalar.addi c0_i32_87 v173
  v174.toNat
def k0_dev3 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c4_i32_44 : BitVec 32 := 4#32
  let v98 : BitVec 32 := Scalar.xori v33 c4_i32_44
  let c0_i32_52 : BitVec 32 := 0#32
  let v110 : BitVec 1 := Scalar.cmpi .sgt v98 c0_i32_52
  let v111 : BitVec 32 := Scalar.extui v110
  let c0_i32_53 : BitVec 32 := 0#32
  let v112 : BitVec 1 := Scalar.cmpi .slt v98 c0_i32_53
  let v113 : BitVec 32 := Scalar.extui v112
  let v114 : BitVec 32 := Scalar.subi v111 v113
  let c4_i32_51 : BitVec 32 := 4#32
  let c0_i32_54 : BitVec 32 := 0#32
  let v115 : BitVec 1 := Scalar.cmpi .sgt c4_i32_51 c0_i32_54
  let v116 : BitVec 32 := Scalar.extui v115
  let c0_i32_55 : BitVec 32 := 0#32
  let v117 : BitVec 1 := Scalar.cmpi .slt c4_i32_51 c0_i32_55
  let v118 : BitVec 32 := Scalar.extui v117
  let v119 : BitVec 32 := Scalar.subi v116 v118
  let v120 : BitVec 1 := Scalar.cmpi .ne v114 v119
  let v121 : BitVec 32 := Scalar.remsi v98 c4_i32_51
  let c0_i32_56 : BitVec 32 := 0#32
  let v122 : BitVec 1 := Scalar.cmpi .ne v121 c0_i32_56
  let v123 : BitVec 1 := Scalar.andi v120 v122
  let v109 : BitVec 32 := Scalar.divsi v98 c4_i32_51
  let c1_i32_57 : BitVec 32 := 1#32
  let v124 : BitVec 32 := Scalar.subi v109 c1_i32_57
  let v125 : BitVec 32 := Scalar.select v123 v124 v109
  let c4_i32_58 : BitVec 32 := 4#32
  let v126 : BitVec 32 := Scalar.muli v125 c4_i32_58
  let c4_i32_45 : BitVec 32 := 4#32
  let c0_i32_46 : BitVec 32 := 0#32
  let v99 : BitVec 1 := Scalar.cmpi .eq c4_i32_45 c0_i32_46
  let c1_i32_47 : BitVec 32 := 1#32
  let v100 : BitVec 32 := Scalar.select v99 c1_i32_47 c4_i32_45
  let v101 : BitVec 32 := Scalar.remsi v98 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let c1_i32_59 : BitVec 32 := 1#32
  let v127 : BitVec 32 := Scalar.shrsi v108 c1_i32_59
  let v128 : BitVec 32 := Scalar.xori v108 v127
  let v129 : BitVec 32 := Scalar.addi v126 v128
  let c1_i32_89 : BitVec 32 := 1#32
  let v175 : BitVec 32 := Scalar.muli v129 c1_i32_89
  let v176 : BitVec 32 := Scalar.addi c0_i32_90 v175
  v176.toNat
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c8_i32 : BitVec 32 := 8#32
  let v130 : BitVec 32 := Scalar.xori v33 c8_i32
  let c0_i32_67 : BitVec 32 := 0#32
  let v142 : BitVec 1 := Scalar.cmpi .sgt v130 c0_i32_67
  let v143 : BitVec 32 := Scalar.extui v142
  let c0_i32_68 : BitVec 32 := 0#32
  let v144 : BitVec 1 := Scalar.cmpi .slt v130 c0_i32_68
  let v145 : BitVec 32 := Scalar.extui v144
  let v146 : BitVec 32 := Scalar.subi v143 v145
  let c4_i32_66 : BitVec 32 := 4#32
  let c0_i32_69 : BitVec 32 := 0#32
  let v147 : BitVec 1 := Scalar.cmpi .sgt c4_i32_66 c0_i32_69
  let v148 : BitVec 32 := Scalar.extui v147
  let c0_i32_70 : BitVec 32 := 0#32
  let v149 : BitVec 1 := Scalar.cmpi .slt c4_i32_66 c0_i32_70
  let v150 : BitVec 32 := Scalar.extui v149
  let v151 : BitVec 32 := Scalar.subi v148 v150
  let v152 : BitVec 1 := Scalar.cmpi .ne v146 v151
  let v153 : BitVec 32 := Scalar.remsi v130 c4_i32_66
  let c0_i32_71 : BitVec 32 := 0#32
  let v154 : BitVec 1 := Scalar.cmpi .ne v153 c0_i32_71
  let v155 : BitVec 1 := Scalar.andi v152 v154
  let v141 : BitVec 32 := Scalar.divsi v130 c4_i32_66
  let c1_i32_72 : BitVec 32 := 1#32
  let v156 : BitVec 32 := Scalar.subi v141 c1_i32_72
  let v157 : BitVec 32 := Scalar.select v155 v156 v141
  let c4_i32_73 : BitVec 32 := 4#32
  let v158 : BitVec 32 := Scalar.muli v157 c4_i32_73
  let c4_i32_60 : BitVec 32 := 4#32
  let c0_i32_61 : BitVec 32 := 0#32
  let v131 : BitVec 1 := Scalar.cmpi .eq c4_i32_60 c0_i32_61
  let c1_i32_62 : BitVec 32 := 1#32
  let v132 : BitVec 32 := Scalar.select v131 c1_i32_62 c4_i32_60
  let v133 : BitVec 32 := Scalar.remsi v130 v132
  let c0_i32_64 : BitVec 32 := 0#32
  let v135 : BitVec 1 := Scalar.cmpi .slt v133 c0_i32_64
  let c0_i32_65 : BitVec 32 := 0#32
  let v136 : BitVec 1 := Scalar.cmpi .slt v132 c0_i32_65
  let v137 : BitVec 1 := Scalar.xori v135 v136
  let c0_i32_63 : BitVec 32 := 0#32
  let v134 : BitVec 1 := Scalar.cmpi .ne v133 c0_i32_63
  let v138 : BitVec 1 := Scalar.andi v137 v134
  let v139 : BitVec 32 := Scalar.addi v133 v132
  let v140 : BitVec 32 := Scalar.select v138 v139 v133
  let c1_i32_74 : BitVec 32 := 1#32
  let v159 : BitVec 32 := Scalar.shrsi v140 c1_i32_74
  let v160 : BitVec 32 := Scalar.xori v140 v159
  let v161 : BitVec 32 := Scalar.addi v158 v160
  let c1_i32_92 : BitVec 32 := 1#32
  let v177 : BitVec 32 := Scalar.muli v161 c1_i32_92
  let v178 : BitVec 32 := Scalar.addi c0_i32_93 v177
  v178.toNat
def k0_off1 (d0 : Dev nD) (c0_i32_96 : BitVec 32) (c0_i32_75 : BitVec 32) : Fin 3 → Nat :=
  let c0_i32_99 : BitVec 32 := 0#32
  let c1_i32_95 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let v162 : BitVec 32 := Scalar.shrsi v33 c0_i32_75
  let c1_i32_76 : BitVec 32 := 1#32
  let v163 : BitVec 32 := Scalar.andi v162 c1_i32_76
  let v179 : BitVec 32 := Scalar.subi c1_i32_95 v163
  let c64_i32 : BitVec 32 := 64#32
  let v180 : BitVec 32 := Scalar.muli v179 c64_i32
  let v181 : BitVec 32 := Scalar.addi c0_i32_96 v180
  let c0_i32_106 : BitVec 32 := 0#32
  ![0, v181.toNat, 0]
def k0_off1_at (r : Fin 4) : BitVec 32 × BitVec 32 :=
  if r.val < 2 then
    if r.val < 1 then
      (0#32, 0#32)
    else
      (128#32, 1#32)
  else
    if r.val < 3 then
      (256#32, 2#32)
    else
      (384#32, 3#32)
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c1_i32_13 : BitVec 32 := 1#32
  let v34 : BitVec 32 := Scalar.xori v33 c1_i32_13
  let c0_i32_21 : BitVec 32 := 0#32
  let v46 : BitVec 1 := Scalar.cmpi .sgt v34 c0_i32_21
  let v47 : BitVec 32 := Scalar.extui v46
  let c0_i32_22 : BitVec 32 := 0#32
  let v48 : BitVec 1 := Scalar.cmpi .slt v34 c0_i32_22
  let v49 : BitVec 32 := Scalar.extui v48
  let v50 : BitVec 32 := Scalar.subi v47 v49
  let c4_i32_20 : BitVec 32 := 4#32
  let c0_i32_23 : BitVec 32 := 0#32
  let v51 : BitVec 1 := Scalar.cmpi .sgt c4_i32_20 c0_i32_23
  let v52 : BitVec 32 := Scalar.extui v51
  let c0_i32_24 : BitVec 32 := 0#32
  let v53 : BitVec 1 := Scalar.cmpi .slt c4_i32_20 c0_i32_24
  let v54 : BitVec 32 := Scalar.extui v53
  let v55 : BitVec 32 := Scalar.subi v52 v54
  let v56 : BitVec 1 := Scalar.cmpi .ne v50 v55
  let v57 : BitVec 32 := Scalar.remsi v34 c4_i32_20
  let c0_i32_25 : BitVec 32 := 0#32
  let v58 : BitVec 1 := Scalar.cmpi .ne v57 c0_i32_25
  let v59 : BitVec 1 := Scalar.andi v56 v58
  let v45 : BitVec 32 := Scalar.divsi v34 c4_i32_20
  let c1_i32_26 : BitVec 32 := 1#32
  let v60 : BitVec 32 := Scalar.subi v45 c1_i32_26
  let v61 : BitVec 32 := Scalar.select v59 v60 v45
  let c4_i32_27 : BitVec 32 := 4#32
  let v62 : BitVec 32 := Scalar.muli v61 c4_i32_27
  let c4_i32_14 : BitVec 32 := 4#32
  let c0_i32_15 : BitVec 32 := 0#32
  let v35 : BitVec 1 := Scalar.cmpi .eq c4_i32_14 c0_i32_15
  let c1_i32_16 : BitVec 32 := 1#32
  let v36 : BitVec 32 := Scalar.select v35 c1_i32_16 c4_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_28 : BitVec 32 := 1#32
  let v63 : BitVec 32 := Scalar.shrsi v44 c1_i32_28
  let v64 : BitVec 32 := Scalar.xori v44 v63
  let v65 : BitVec 32 := Scalar.addi v62 v64
  let c1_i32_102 : BitVec 32 := 1#32
  let v184 : BitVec 32 := Scalar.muli v65 c1_i32_102
  let v185 : BitVec 32 := Scalar.addi c0_i32_103 v184
  v185.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c2_i32 : BitVec 32 := 2#32
  let v66 : BitVec 32 := Scalar.xori v33 c2_i32
  let c0_i32_36 : BitVec 32 := 0#32
  let v78 : BitVec 1 := Scalar.cmpi .sgt v66 c0_i32_36
  let v79 : BitVec 32 := Scalar.extui v78
  let c0_i32_37 : BitVec 32 := 0#32
  let v80 : BitVec 1 := Scalar.cmpi .slt v66 c0_i32_37
  let v81 : BitVec 32 := Scalar.extui v80
  let v82 : BitVec 32 := Scalar.subi v79 v81
  let c4_i32_35 : BitVec 32 := 4#32
  let c0_i32_38 : BitVec 32 := 0#32
  let v83 : BitVec 1 := Scalar.cmpi .sgt c4_i32_35 c0_i32_38
  let v84 : BitVec 32 := Scalar.extui v83
  let c0_i32_39 : BitVec 32 := 0#32
  let v85 : BitVec 1 := Scalar.cmpi .slt c4_i32_35 c0_i32_39
  let v86 : BitVec 32 := Scalar.extui v85
  let v87 : BitVec 32 := Scalar.subi v84 v86
  let v88 : BitVec 1 := Scalar.cmpi .ne v82 v87
  let v89 : BitVec 32 := Scalar.remsi v66 c4_i32_35
  let c0_i32_40 : BitVec 32 := 0#32
  let v90 : BitVec 1 := Scalar.cmpi .ne v89 c0_i32_40
  let v91 : BitVec 1 := Scalar.andi v88 v90
  let v77 : BitVec 32 := Scalar.divsi v66 c4_i32_35
  let c1_i32_41 : BitVec 32 := 1#32
  let v92 : BitVec 32 := Scalar.subi v77 c1_i32_41
  let v93 : BitVec 32 := Scalar.select v91 v92 v77
  let c4_i32_42 : BitVec 32 := 4#32
  let v94 : BitVec 32 := Scalar.muli v93 c4_i32_42
  let c4_i32_29 : BitVec 32 := 4#32
  let c0_i32_30 : BitVec 32 := 0#32
  let v67 : BitVec 1 := Scalar.cmpi .eq c4_i32_29 c0_i32_30
  let c1_i32_31 : BitVec 32 := 1#32
  let v68 : BitVec 32 := Scalar.select v67 c1_i32_31 c4_i32_29
  let v69 : BitVec 32 := Scalar.remsi v66 v68
  let c0_i32_33 : BitVec 32 := 0#32
  let v71 : BitVec 1 := Scalar.cmpi .slt v69 c0_i32_33
  let c0_i32_34 : BitVec 32 := 0#32
  let v72 : BitVec 1 := Scalar.cmpi .slt v68 c0_i32_34
  let v73 : BitVec 1 := Scalar.xori v71 v72
  let c0_i32_32 : BitVec 32 := 0#32
  let v70 : BitVec 1 := Scalar.cmpi .ne v69 c0_i32_32
  let v74 : BitVec 1 := Scalar.andi v73 v70
  let v75 : BitVec 32 := Scalar.addi v69 v68
  let v76 : BitVec 32 := Scalar.select v74 v75 v69
  let c1_i32_43 : BitVec 32 := 1#32
  let v95 : BitVec 32 := Scalar.shrsi v76 c1_i32_43
  let v96 : BitVec 32 := Scalar.xori v76 v95
  let v97 : BitVec 32 := Scalar.addi v94 v96
  let c1_i32_113 : BitVec 32 := 1#32
  let v198 : BitVec 32 := Scalar.muli v97 c1_i32_113
  let v199 : BitVec 32 := Scalar.addi c0_i32_114 v198
  v199.toNat
def k0_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c4_i32_44 : BitVec 32 := 4#32
  let v98 : BitVec 32 := Scalar.xori v33 c4_i32_44
  let c0_i32_52 : BitVec 32 := 0#32
  let v110 : BitVec 1 := Scalar.cmpi .sgt v98 c0_i32_52
  let v111 : BitVec 32 := Scalar.extui v110
  let c0_i32_53 : BitVec 32 := 0#32
  let v112 : BitVec 1 := Scalar.cmpi .slt v98 c0_i32_53
  let v113 : BitVec 32 := Scalar.extui v112
  let v114 : BitVec 32 := Scalar.subi v111 v113
  let c4_i32_51 : BitVec 32 := 4#32
  let c0_i32_54 : BitVec 32 := 0#32
  let v115 : BitVec 1 := Scalar.cmpi .sgt c4_i32_51 c0_i32_54
  let v116 : BitVec 32 := Scalar.extui v115
  let c0_i32_55 : BitVec 32 := 0#32
  let v117 : BitVec 1 := Scalar.cmpi .slt c4_i32_51 c0_i32_55
  let v118 : BitVec 32 := Scalar.extui v117
  let v119 : BitVec 32 := Scalar.subi v116 v118
  let v120 : BitVec 1 := Scalar.cmpi .ne v114 v119
  let v121 : BitVec 32 := Scalar.remsi v98 c4_i32_51
  let c0_i32_56 : BitVec 32 := 0#32
  let v122 : BitVec 1 := Scalar.cmpi .ne v121 c0_i32_56
  let v123 : BitVec 1 := Scalar.andi v120 v122
  let v109 : BitVec 32 := Scalar.divsi v98 c4_i32_51
  let c1_i32_57 : BitVec 32 := 1#32
  let v124 : BitVec 32 := Scalar.subi v109 c1_i32_57
  let v125 : BitVec 32 := Scalar.select v123 v124 v109
  let c4_i32_58 : BitVec 32 := 4#32
  let v126 : BitVec 32 := Scalar.muli v125 c4_i32_58
  let c4_i32_45 : BitVec 32 := 4#32
  let c0_i32_46 : BitVec 32 := 0#32
  let v99 : BitVec 1 := Scalar.cmpi .eq c4_i32_45 c0_i32_46
  let c1_i32_47 : BitVec 32 := 1#32
  let v100 : BitVec 32 := Scalar.select v99 c1_i32_47 c4_i32_45
  let v101 : BitVec 32 := Scalar.remsi v98 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let c1_i32_59 : BitVec 32 := 1#32
  let v127 : BitVec 32 := Scalar.shrsi v108 c1_i32_59
  let v128 : BitVec 32 := Scalar.xori v108 v127
  let v129 : BitVec 32 := Scalar.addi v126 v128
  let c1_i32_123 : BitVec 32 := 1#32
  let v212 : BitVec 32 := Scalar.muli v129 c1_i32_123
  let v213 : BitVec 32 := Scalar.addi c0_i32_124 v212
  v213.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c8_i32 : BitVec 32 := 8#32
  let v130 : BitVec 32 := Scalar.xori v33 c8_i32
  let c0_i32_67 : BitVec 32 := 0#32
  let v142 : BitVec 1 := Scalar.cmpi .sgt v130 c0_i32_67
  let v143 : BitVec 32 := Scalar.extui v142
  let c0_i32_68 : BitVec 32 := 0#32
  let v144 : BitVec 1 := Scalar.cmpi .slt v130 c0_i32_68
  let v145 : BitVec 32 := Scalar.extui v144
  let v146 : BitVec 32 := Scalar.subi v143 v145
  let c4_i32_66 : BitVec 32 := 4#32
  let c0_i32_69 : BitVec 32 := 0#32
  let v147 : BitVec 1 := Scalar.cmpi .sgt c4_i32_66 c0_i32_69
  let v148 : BitVec 32 := Scalar.extui v147
  let c0_i32_70 : BitVec 32 := 0#32
  let v149 : BitVec 1 := Scalar.cmpi .slt c4_i32_66 c0_i32_70
  let v150 : BitVec 32 := Scalar.extui v149
  let v151 : BitVec 32 := Scalar.subi v148 v150
  let v152 : BitVec 1 := Scalar.cmpi .ne v146 v151
  let v153 : BitVec 32 := Scalar.remsi v130 c4_i32_66
  let c0_i32_71 : BitVec 32 := 0#32
  let v154 : BitVec 1 := Scalar.cmpi .ne v153 c0_i32_71
  let v155 : BitVec 1 := Scalar.andi v152 v154
  let v141 : BitVec 32 := Scalar.divsi v130 c4_i32_66
  let c1_i32_72 : BitVec 32 := 1#32
  let v156 : BitVec 32 := Scalar.subi v141 c1_i32_72
  let v157 : BitVec 32 := Scalar.select v155 v156 v141
  let c4_i32_73 : BitVec 32 := 4#32
  let v158 : BitVec 32 := Scalar.muli v157 c4_i32_73
  let c4_i32_60 : BitVec 32 := 4#32
  let c0_i32_61 : BitVec 32 := 0#32
  let v131 : BitVec 1 := Scalar.cmpi .eq c4_i32_60 c0_i32_61
  let c1_i32_62 : BitVec 32 := 1#32
  let v132 : BitVec 32 := Scalar.select v131 c1_i32_62 c4_i32_60
  let v133 : BitVec 32 := Scalar.remsi v130 v132
  let c0_i32_64 : BitVec 32 := 0#32
  let v135 : BitVec 1 := Scalar.cmpi .slt v133 c0_i32_64
  let c0_i32_65 : BitVec 32 := 0#32
  let v136 : BitVec 1 := Scalar.cmpi .slt v132 c0_i32_65
  let v137 : BitVec 1 := Scalar.xori v135 v136
  let c0_i32_63 : BitVec 32 := 0#32
  let v134 : BitVec 1 := Scalar.cmpi .ne v133 c0_i32_63
  let v138 : BitVec 1 := Scalar.andi v137 v134
  let v139 : BitVec 32 := Scalar.addi v133 v132
  let v140 : BitVec 32 := Scalar.select v138 v139 v133
  let c1_i32_74 : BitVec 32 := 1#32
  let v159 : BitVec 32 := Scalar.shrsi v140 c1_i32_74
  let v160 : BitVec 32 := Scalar.xori v140 v159
  let v161 : BitVec 32 := Scalar.addi v158 v160
  let c1_i32_133 : BitVec 32 := 1#32
  let v226 : BitVec 32 := Scalar.muli v161 c1_i32_133
  let v227 : BitVec 32 := Scalar.addi c0_i32_134 v226
  v227.toNat
def k0_off2 (d0 : Dev nD) (c0_i32_98 : BitVec 32) (c0_i32_75 : BitVec 32) : Fin 3 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let v162 : BitVec 32 := Scalar.shrsi v33 c0_i32_75
  let c1_i32_76 : BitVec 32 := 1#32
  let v163 : BitVec 32 := Scalar.andi v162 c1_i32_76
  let c64_i32_97 : BitVec 32 := 64#32
  let v182 : BitVec 32 := Scalar.muli v163 c64_i32_97
  let v183 : BitVec 32 := Scalar.addi c0_i32_98 v182
  let v242 : Index := Scalar.indexCast v183
  let c0_145 : Index := 0#32
  ![0, v242.toNat, 0]
def k0_off2_at (r : Fin 4) : BitVec 32 × BitVec 32 :=
  if r.val < 2 then
    if r.val < 1 then
      (0#32, 0#32)
    else
      (128#32, 1#32)
  else
    if r.val < 3 then
      (256#32, 2#32)
    else
      (384#32, 3#32)
def k0_off3 (d0 : Dev nD) (c0_i32_98 : BitVec 32) (c0_i32_75 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let v162 : BitVec 32 := Scalar.shrsi v33 c0_i32_75
  let c1_i32_76 : BitVec 32 := 1#32
  let v163 : BitVec 32 := Scalar.andi v162 c1_i32_76
  let c64_i32_97 : BitVec 32 := 64#32
  let v182 : BitVec 32 := Scalar.muli v163 c64_i32_97
  let v183 : BitVec 32 := Scalar.addi c0_i32_98 v182
  let v247 : Index := Scalar.indexCast v183
  let c0_148 : Index := 0#32
  ![v247.toNat, 0]
def k0_off3_at (r : Fin 4) : BitVec 32 × BitVec 32 :=
  if r.val < 2 then
    if r.val < 1 then
      (0#32, 0#32)
    else
      (128#32, 1#32)
  else
    if r.val < 3 then
      (256#32, 2#32)
    else
      (384#32, 3#32)
def k0_off4 (d0 : Dev nD) (c0_i32_98 : BitVec 32) (c0_i32_75 : BitVec 32) (c1_i32_77 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let v162 : BitVec 32 := Scalar.shrsi v33 c0_i32_75
  let c1_i32_76 : BitVec 32 := 1#32
  let v163 : BitVec 32 := Scalar.andi v162 c1_i32_76
  let c64_i32_97 : BitVec 32 := 64#32
  let v182 : BitVec 32 := Scalar.muli v163 c64_i32_97
  let v183 : BitVec 32 := Scalar.addi c0_i32_98 v182
  let c1_i32_149 : BitVec 32 := 1#32
  let v164 : BitVec 32 := Scalar.shrsi v33 c1_i32_77
  let c1_i32_78 : BitVec 32 := 1#32
  let v165 : BitVec 32 := Scalar.andi v164 c1_i32_78
  let v249 : BitVec 32 := Scalar.subi c1_i32_149 v165
  let c32_i32 : BitVec 32 := 32#32
  let v250 : BitVec 32 := Scalar.muli v249 c32_i32
  let v251 : BitVec 32 := Scalar.addi v183 v250
  let c0_i32_157 : BitVec 32 := 0#32
  ![v251.toNat, 0]
def k0_off4_at (r : Fin 4) : BitVec 32 × BitVec 32 × BitVec 32 :=
  if r.val < 2 then
    if r.val < 1 then
      (0#32, 0#32, 1#32)
    else
      (128#32, 1#32, 0#32)
  else
    if r.val < 3 then
      (256#32, 2#32, 3#32)
    else
      (384#32, 3#32, 2#32)
def k0_dev9 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c2_i32 : BitVec 32 := 2#32
  let v66 : BitVec 32 := Scalar.xori v33 c2_i32
  let c0_i32_36 : BitVec 32 := 0#32
  let v78 : BitVec 1 := Scalar.cmpi .sgt v66 c0_i32_36
  let v79 : BitVec 32 := Scalar.extui v78
  let c0_i32_37 : BitVec 32 := 0#32
  let v80 : BitVec 1 := Scalar.cmpi .slt v66 c0_i32_37
  let v81 : BitVec 32 := Scalar.extui v80
  let v82 : BitVec 32 := Scalar.subi v79 v81
  let c4_i32_35 : BitVec 32 := 4#32
  let c0_i32_38 : BitVec 32 := 0#32
  let v83 : BitVec 1 := Scalar.cmpi .sgt c4_i32_35 c0_i32_38
  let v84 : BitVec 32 := Scalar.extui v83
  let c0_i32_39 : BitVec 32 := 0#32
  let v85 : BitVec 1 := Scalar.cmpi .slt c4_i32_35 c0_i32_39
  let v86 : BitVec 32 := Scalar.extui v85
  let v87 : BitVec 32 := Scalar.subi v84 v86
  let v88 : BitVec 1 := Scalar.cmpi .ne v82 v87
  let v89 : BitVec 32 := Scalar.remsi v66 c4_i32_35
  let c0_i32_40 : BitVec 32 := 0#32
  let v90 : BitVec 1 := Scalar.cmpi .ne v89 c0_i32_40
  let v91 : BitVec 1 := Scalar.andi v88 v90
  let v77 : BitVec 32 := Scalar.divsi v66 c4_i32_35
  let c1_i32_41 : BitVec 32 := 1#32
  let v92 : BitVec 32 := Scalar.subi v77 c1_i32_41
  let v93 : BitVec 32 := Scalar.select v91 v92 v77
  let c4_i32_42 : BitVec 32 := 4#32
  let v94 : BitVec 32 := Scalar.muli v93 c4_i32_42
  let c4_i32_29 : BitVec 32 := 4#32
  let c0_i32_30 : BitVec 32 := 0#32
  let v67 : BitVec 1 := Scalar.cmpi .eq c4_i32_29 c0_i32_30
  let c1_i32_31 : BitVec 32 := 1#32
  let v68 : BitVec 32 := Scalar.select v67 c1_i32_31 c4_i32_29
  let v69 : BitVec 32 := Scalar.remsi v66 v68
  let c0_i32_33 : BitVec 32 := 0#32
  let v71 : BitVec 1 := Scalar.cmpi .slt v69 c0_i32_33
  let c0_i32_34 : BitVec 32 := 0#32
  let v72 : BitVec 1 := Scalar.cmpi .slt v68 c0_i32_34
  let v73 : BitVec 1 := Scalar.xori v71 v72
  let c0_i32_32 : BitVec 32 := 0#32
  let v70 : BitVec 1 := Scalar.cmpi .ne v69 c0_i32_32
  let v74 : BitVec 1 := Scalar.andi v73 v70
  let v75 : BitVec 32 := Scalar.addi v69 v68
  let v76 : BitVec 32 := Scalar.select v74 v75 v69
  let c1_i32_43 : BitVec 32 := 1#32
  let v95 : BitVec 32 := Scalar.shrsi v76 c1_i32_43
  let v96 : BitVec 32 := Scalar.xori v76 v95
  let v97 : BitVec 32 := Scalar.addi v94 v96
  let c1_i32_153 : BitVec 32 := 1#32
  let v254 : BitVec 32 := Scalar.muli v97 c1_i32_153
  let v255 : BitVec 32 := Scalar.addi c0_i32_154 v254
  v255.toNat
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c1_i32_13 : BitVec 32 := 1#32
  let v34 : BitVec 32 := Scalar.xori v33 c1_i32_13
  let c0_i32_21 : BitVec 32 := 0#32
  let v46 : BitVec 1 := Scalar.cmpi .sgt v34 c0_i32_21
  let v47 : BitVec 32 := Scalar.extui v46
  let c0_i32_22 : BitVec 32 := 0#32
  let v48 : BitVec 1 := Scalar.cmpi .slt v34 c0_i32_22
  let v49 : BitVec 32 := Scalar.extui v48
  let v50 : BitVec 32 := Scalar.subi v47 v49
  let c4_i32_20 : BitVec 32 := 4#32
  let c0_i32_23 : BitVec 32 := 0#32
  let v51 : BitVec 1 := Scalar.cmpi .sgt c4_i32_20 c0_i32_23
  let v52 : BitVec 32 := Scalar.extui v51
  let c0_i32_24 : BitVec 32 := 0#32
  let v53 : BitVec 1 := Scalar.cmpi .slt c4_i32_20 c0_i32_24
  let v54 : BitVec 32 := Scalar.extui v53
  let v55 : BitVec 32 := Scalar.subi v52 v54
  let v56 : BitVec 1 := Scalar.cmpi .ne v50 v55
  let v57 : BitVec 32 := Scalar.remsi v34 c4_i32_20
  let c0_i32_25 : BitVec 32 := 0#32
  let v58 : BitVec 1 := Scalar.cmpi .ne v57 c0_i32_25
  let v59 : BitVec 1 := Scalar.andi v56 v58
  let v45 : BitVec 32 := Scalar.divsi v34 c4_i32_20
  let c1_i32_26 : BitVec 32 := 1#32
  let v60 : BitVec 32 := Scalar.subi v45 c1_i32_26
  let v61 : BitVec 32 := Scalar.select v59 v60 v45
  let c4_i32_27 : BitVec 32 := 4#32
  let v62 : BitVec 32 := Scalar.muli v61 c4_i32_27
  let c4_i32_14 : BitVec 32 := 4#32
  let c0_i32_15 : BitVec 32 := 0#32
  let v35 : BitVec 1 := Scalar.cmpi .eq c4_i32_14 c0_i32_15
  let c1_i32_16 : BitVec 32 := 1#32
  let v36 : BitVec 32 := Scalar.select v35 c1_i32_16 c4_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_28 : BitVec 32 := 1#32
  let v63 : BitVec 32 := Scalar.shrsi v44 c1_i32_28
  let v64 : BitVec 32 := Scalar.xori v44 v63
  let v65 : BitVec 32 := Scalar.addi v62 v64
  let c1_i32_174 : BitVec 32 := 1#32
  let v281 : BitVec 32 := Scalar.muli v65 c1_i32_174
  let v282 : BitVec 32 := Scalar.addi c0_i32_175 v281
  v282.toNat
def k0_dev11 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c8_i32 : BitVec 32 := 8#32
  let v130 : BitVec 32 := Scalar.xori v33 c8_i32
  let c0_i32_67 : BitVec 32 := 0#32
  let v142 : BitVec 1 := Scalar.cmpi .sgt v130 c0_i32_67
  let v143 : BitVec 32 := Scalar.extui v142
  let c0_i32_68 : BitVec 32 := 0#32
  let v144 : BitVec 1 := Scalar.cmpi .slt v130 c0_i32_68
  let v145 : BitVec 32 := Scalar.extui v144
  let v146 : BitVec 32 := Scalar.subi v143 v145
  let c4_i32_66 : BitVec 32 := 4#32
  let c0_i32_69 : BitVec 32 := 0#32
  let v147 : BitVec 1 := Scalar.cmpi .sgt c4_i32_66 c0_i32_69
  let v148 : BitVec 32 := Scalar.extui v147
  let c0_i32_70 : BitVec 32 := 0#32
  let v149 : BitVec 1 := Scalar.cmpi .slt c4_i32_66 c0_i32_70
  let v150 : BitVec 32 := Scalar.extui v149
  let v151 : BitVec 32 := Scalar.subi v148 v150
  let v152 : BitVec 1 := Scalar.cmpi .ne v146 v151
  let v153 : BitVec 32 := Scalar.remsi v130 c4_i32_66
  let c0_i32_71 : BitVec 32 := 0#32
  let v154 : BitVec 1 := Scalar.cmpi .ne v153 c0_i32_71
  let v155 : BitVec 1 := Scalar.andi v152 v154
  let v141 : BitVec 32 := Scalar.divsi v130 c4_i32_66
  let c1_i32_72 : BitVec 32 := 1#32
  let v156 : BitVec 32 := Scalar.subi v141 c1_i32_72
  let v157 : BitVec 32 := Scalar.select v155 v156 v141
  let c4_i32_73 : BitVec 32 := 4#32
  let v158 : BitVec 32 := Scalar.muli v157 c4_i32_73
  let c4_i32_60 : BitVec 32 := 4#32
  let c0_i32_61 : BitVec 32 := 0#32
  let v131 : BitVec 1 := Scalar.cmpi .eq c4_i32_60 c0_i32_61
  let c1_i32_62 : BitVec 32 := 1#32
  let v132 : BitVec 32 := Scalar.select v131 c1_i32_62 c4_i32_60
  let v133 : BitVec 32 := Scalar.remsi v130 v132
  let c0_i32_64 : BitVec 32 := 0#32
  let v135 : BitVec 1 := Scalar.cmpi .slt v133 c0_i32_64
  let c0_i32_65 : BitVec 32 := 0#32
  let v136 : BitVec 1 := Scalar.cmpi .slt v132 c0_i32_65
  let v137 : BitVec 1 := Scalar.xori v135 v136
  let c0_i32_63 : BitVec 32 := 0#32
  let v134 : BitVec 1 := Scalar.cmpi .ne v133 c0_i32_63
  let v138 : BitVec 1 := Scalar.andi v137 v134
  let v139 : BitVec 32 := Scalar.addi v133 v132
  let v140 : BitVec 32 := Scalar.select v138 v139 v133
  let c1_i32_74 : BitVec 32 := 1#32
  let v159 : BitVec 32 := Scalar.shrsi v140 c1_i32_74
  let v160 : BitVec 32 := Scalar.xori v140 v159
  let v161 : BitVec 32 := Scalar.addi v158 v160
  let c1_i32_194 : BitVec 32 := 1#32
  let v308 : BitVec 32 := Scalar.muli v161 c1_i32_194
  let v309 : BitVec 32 := Scalar.addi c0_i32_195 v308
  v309.toNat
def k0_dev12 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c4_i32_44 : BitVec 32 := 4#32
  let v98 : BitVec 32 := Scalar.xori v33 c4_i32_44
  let c0_i32_52 : BitVec 32 := 0#32
  let v110 : BitVec 1 := Scalar.cmpi .sgt v98 c0_i32_52
  let v111 : BitVec 32 := Scalar.extui v110
  let c0_i32_53 : BitVec 32 := 0#32
  let v112 : BitVec 1 := Scalar.cmpi .slt v98 c0_i32_53
  let v113 : BitVec 32 := Scalar.extui v112
  let v114 : BitVec 32 := Scalar.subi v111 v113
  let c4_i32_51 : BitVec 32 := 4#32
  let c0_i32_54 : BitVec 32 := 0#32
  let v115 : BitVec 1 := Scalar.cmpi .sgt c4_i32_51 c0_i32_54
  let v116 : BitVec 32 := Scalar.extui v115
  let c0_i32_55 : BitVec 32 := 0#32
  let v117 : BitVec 1 := Scalar.cmpi .slt c4_i32_51 c0_i32_55
  let v118 : BitVec 32 := Scalar.extui v117
  let v119 : BitVec 32 := Scalar.subi v116 v118
  let v120 : BitVec 1 := Scalar.cmpi .ne v114 v119
  let v121 : BitVec 32 := Scalar.remsi v98 c4_i32_51
  let c0_i32_56 : BitVec 32 := 0#32
  let v122 : BitVec 1 := Scalar.cmpi .ne v121 c0_i32_56
  let v123 : BitVec 1 := Scalar.andi v120 v122
  let v109 : BitVec 32 := Scalar.divsi v98 c4_i32_51
  let c1_i32_57 : BitVec 32 := 1#32
  let v124 : BitVec 32 := Scalar.subi v109 c1_i32_57
  let v125 : BitVec 32 := Scalar.select v123 v124 v109
  let c4_i32_58 : BitVec 32 := 4#32
  let v126 : BitVec 32 := Scalar.muli v125 c4_i32_58
  let c4_i32_45 : BitVec 32 := 4#32
  let c0_i32_46 : BitVec 32 := 0#32
  let v99 : BitVec 1 := Scalar.cmpi .eq c4_i32_45 c0_i32_46
  let c1_i32_47 : BitVec 32 := 1#32
  let v100 : BitVec 32 := Scalar.select v99 c1_i32_47 c4_i32_45
  let v101 : BitVec 32 := Scalar.remsi v98 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let c1_i32_59 : BitVec 32 := 1#32
  let v127 : BitVec 32 := Scalar.shrsi v108 c1_i32_59
  let v128 : BitVec 32 := Scalar.xori v108 v127
  let v129 : BitVec 32 := Scalar.addi v126 v128
  let c1_i32_215 : BitVec 32 := 1#32
  let v335 : BitVec 32 := Scalar.muli v129 c1_i32_215
  let v336 : BitVec 32 := Scalar.addi c0_i32_216 v335
  v336.toNat
def k0_off5 (d0 : Dev nD) (c0_i32_98 : BitVec 32) (c0_i32_75 : BitVec 32) (c1_i32_77 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let v162 : BitVec 32 := Scalar.shrsi v33 c0_i32_75
  let c1_i32_76 : BitVec 32 := 1#32
  let v163 : BitVec 32 := Scalar.andi v162 c1_i32_76
  let c64_i32_97 : BitVec 32 := 64#32
  let v182 : BitVec 32 := Scalar.muli v163 c64_i32_97
  let v183 : BitVec 32 := Scalar.addi c0_i32_98 v182
  let v164 : BitVec 32 := Scalar.shrsi v33 c1_i32_77
  let c1_i32_78 : BitVec 32 := 1#32
  let v165 : BitVec 32 := Scalar.andi v164 c1_i32_78
  let c32_i32_150 : BitVec 32 := 32#32
  let v252 : BitVec 32 := Scalar.muli v165 c32_i32_150
  let v253 : BitVec 32 := Scalar.addi v183 v252
  let v349 : Index := Scalar.indexCast v253
  let c0_226 : Index := 0#32
  ![v349.toNat, 0]
def k0_off5_at (r : Fin 4) : BitVec 32 × BitVec 32 × BitVec 32 :=
  if r.val < 2 then
    if r.val < 1 then
      (0#32, 0#32, 1#32)
    else
      (128#32, 1#32, 0#32)
  else
    if r.val < 3 then
      (256#32, 2#32, 3#32)
    else
      (384#32, 3#32, 2#32)
def k0_off6 (d0 : Dev nD) (c0_i32_98 : BitVec 32) (c0_i32_75 : BitVec 32) (c1_i32_77 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let v162 : BitVec 32 := Scalar.shrsi v33 c0_i32_75
  let c1_i32_76 : BitVec 32 := 1#32
  let v163 : BitVec 32 := Scalar.andi v162 c1_i32_76
  let c64_i32_97 : BitVec 32 := 64#32
  let v182 : BitVec 32 := Scalar.muli v163 c64_i32_97
  let v183 : BitVec 32 := Scalar.addi c0_i32_98 v182
  let v164 : BitVec 32 := Scalar.shrsi v33 c1_i32_77
  let c1_i32_78 : BitVec 32 := 1#32
  let v165 : BitVec 32 := Scalar.andi v164 c1_i32_78
  let c32_i32_150 : BitVec 32 := 32#32
  let v252 : BitVec 32 := Scalar.muli v165 c32_i32_150
  let v253 : BitVec 32 := Scalar.addi v183 v252
  let c0_i32_234 : BitVec 32 := 0#32
  ![v253.toNat, 0]
def k0_off6_at (r : Fin 4) : BitVec 32 × BitVec 32 × BitVec 32 :=
  if r.val < 2 then
    if r.val < 1 then
      (0#32, 0#32, 1#32)
    else
      (128#32, 1#32, 0#32)
  else
    if r.val < 3 then
      (256#32, 2#32, 3#32)
    else
      (384#32, 3#32, 2#32)
def k0_dev13 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c4_i32_44 : BitVec 32 := 4#32
  let v98 : BitVec 32 := Scalar.xori v33 c4_i32_44
  let c0_i32_52 : BitVec 32 := 0#32
  let v110 : BitVec 1 := Scalar.cmpi .sgt v98 c0_i32_52
  let v111 : BitVec 32 := Scalar.extui v110
  let c0_i32_53 : BitVec 32 := 0#32
  let v112 : BitVec 1 := Scalar.cmpi .slt v98 c0_i32_53
  let v113 : BitVec 32 := Scalar.extui v112
  let v114 : BitVec 32 := Scalar.subi v111 v113
  let c4_i32_51 : BitVec 32 := 4#32
  let c0_i32_54 : BitVec 32 := 0#32
  let v115 : BitVec 1 := Scalar.cmpi .sgt c4_i32_51 c0_i32_54
  let v116 : BitVec 32 := Scalar.extui v115
  let c0_i32_55 : BitVec 32 := 0#32
  let v117 : BitVec 1 := Scalar.cmpi .slt c4_i32_51 c0_i32_55
  let v118 : BitVec 32 := Scalar.extui v117
  let v119 : BitVec 32 := Scalar.subi v116 v118
  let v120 : BitVec 1 := Scalar.cmpi .ne v114 v119
  let v121 : BitVec 32 := Scalar.remsi v98 c4_i32_51
  let c0_i32_56 : BitVec 32 := 0#32
  let v122 : BitVec 1 := Scalar.cmpi .ne v121 c0_i32_56
  let v123 : BitVec 1 := Scalar.andi v120 v122
  let v109 : BitVec 32 := Scalar.divsi v98 c4_i32_51
  let c1_i32_57 : BitVec 32 := 1#32
  let v124 : BitVec 32 := Scalar.subi v109 c1_i32_57
  let v125 : BitVec 32 := Scalar.select v123 v124 v109
  let c4_i32_58 : BitVec 32 := 4#32
  let v126 : BitVec 32 := Scalar.muli v125 c4_i32_58
  let c4_i32_45 : BitVec 32 := 4#32
  let c0_i32_46 : BitVec 32 := 0#32
  let v99 : BitVec 1 := Scalar.cmpi .eq c4_i32_45 c0_i32_46
  let c1_i32_47 : BitVec 32 := 1#32
  let v100 : BitVec 32 := Scalar.select v99 c1_i32_47 c4_i32_45
  let v101 : BitVec 32 := Scalar.remsi v98 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let c1_i32_59 : BitVec 32 := 1#32
  let v127 : BitVec 32 := Scalar.shrsi v108 c1_i32_59
  let v128 : BitVec 32 := Scalar.xori v108 v127
  let v129 : BitVec 32 := Scalar.addi v126 v128
  let c1_i32_231 : BitVec 32 := 1#32
  let v356 : BitVec 32 := Scalar.muli v129 c1_i32_231
  let v357 : BitVec 32 := Scalar.addi c0_i32_232 v356
  v357.toNat
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c8_i32 : BitVec 32 := 8#32
  let v130 : BitVec 32 := Scalar.xori v33 c8_i32
  let c0_i32_67 : BitVec 32 := 0#32
  let v142 : BitVec 1 := Scalar.cmpi .sgt v130 c0_i32_67
  let v143 : BitVec 32 := Scalar.extui v142
  let c0_i32_68 : BitVec 32 := 0#32
  let v144 : BitVec 1 := Scalar.cmpi .slt v130 c0_i32_68
  let v145 : BitVec 32 := Scalar.extui v144
  let v146 : BitVec 32 := Scalar.subi v143 v145
  let c4_i32_66 : BitVec 32 := 4#32
  let c0_i32_69 : BitVec 32 := 0#32
  let v147 : BitVec 1 := Scalar.cmpi .sgt c4_i32_66 c0_i32_69
  let v148 : BitVec 32 := Scalar.extui v147
  let c0_i32_70 : BitVec 32 := 0#32
  let v149 : BitVec 1 := Scalar.cmpi .slt c4_i32_66 c0_i32_70
  let v150 : BitVec 32 := Scalar.extui v149
  let v151 : BitVec 32 := Scalar.subi v148 v150
  let v152 : BitVec 1 := Scalar.cmpi .ne v146 v151
  let v153 : BitVec 32 := Scalar.remsi v130 c4_i32_66
  let c0_i32_71 : BitVec 32 := 0#32
  let v154 : BitVec 1 := Scalar.cmpi .ne v153 c0_i32_71
  let v155 : BitVec 1 := Scalar.andi v152 v154
  let v141 : BitVec 32 := Scalar.divsi v130 c4_i32_66
  let c1_i32_72 : BitVec 32 := 1#32
  let v156 : BitVec 32 := Scalar.subi v141 c1_i32_72
  let v157 : BitVec 32 := Scalar.select v155 v156 v141
  let c4_i32_73 : BitVec 32 := 4#32
  let v158 : BitVec 32 := Scalar.muli v157 c4_i32_73
  let c4_i32_60 : BitVec 32 := 4#32
  let c0_i32_61 : BitVec 32 := 0#32
  let v131 : BitVec 1 := Scalar.cmpi .eq c4_i32_60 c0_i32_61
  let c1_i32_62 : BitVec 32 := 1#32
  let v132 : BitVec 32 := Scalar.select v131 c1_i32_62 c4_i32_60
  let v133 : BitVec 32 := Scalar.remsi v130 v132
  let c0_i32_64 : BitVec 32 := 0#32
  let v135 : BitVec 1 := Scalar.cmpi .slt v133 c0_i32_64
  let c0_i32_65 : BitVec 32 := 0#32
  let v136 : BitVec 1 := Scalar.cmpi .slt v132 c0_i32_65
  let v137 : BitVec 1 := Scalar.xori v135 v136
  let c0_i32_63 : BitVec 32 := 0#32
  let v134 : BitVec 1 := Scalar.cmpi .ne v133 c0_i32_63
  let v138 : BitVec 1 := Scalar.andi v137 v134
  let v139 : BitVec 32 := Scalar.addi v133 v132
  let v140 : BitVec 32 := Scalar.select v138 v139 v133
  let c1_i32_74 : BitVec 32 := 1#32
  let v159 : BitVec 32 := Scalar.shrsi v140 c1_i32_74
  let v160 : BitVec 32 := Scalar.xori v140 v159
  let v161 : BitVec 32 := Scalar.addi v158 v160
  let c1_i32_247 : BitVec 32 := 1#32
  let v377 : BitVec 32 := Scalar.muli v161 c1_i32_247
  let v378 : BitVec 32 := Scalar.addi c0_i32_248 v377
  v378.toNat
def k0_dev15 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c1_i32_13 : BitVec 32 := 1#32
  let v34 : BitVec 32 := Scalar.xori v33 c1_i32_13
  let c0_i32_21 : BitVec 32 := 0#32
  let v46 : BitVec 1 := Scalar.cmpi .sgt v34 c0_i32_21
  let v47 : BitVec 32 := Scalar.extui v46
  let c0_i32_22 : BitVec 32 := 0#32
  let v48 : BitVec 1 := Scalar.cmpi .slt v34 c0_i32_22
  let v49 : BitVec 32 := Scalar.extui v48
  let v50 : BitVec 32 := Scalar.subi v47 v49
  let c4_i32_20 : BitVec 32 := 4#32
  let c0_i32_23 : BitVec 32 := 0#32
  let v51 : BitVec 1 := Scalar.cmpi .sgt c4_i32_20 c0_i32_23
  let v52 : BitVec 32 := Scalar.extui v51
  let c0_i32_24 : BitVec 32 := 0#32
  let v53 : BitVec 1 := Scalar.cmpi .slt c4_i32_20 c0_i32_24
  let v54 : BitVec 32 := Scalar.extui v53
  let v55 : BitVec 32 := Scalar.subi v52 v54
  let v56 : BitVec 1 := Scalar.cmpi .ne v50 v55
  let v57 : BitVec 32 := Scalar.remsi v34 c4_i32_20
  let c0_i32_25 : BitVec 32 := 0#32
  let v58 : BitVec 1 := Scalar.cmpi .ne v57 c0_i32_25
  let v59 : BitVec 1 := Scalar.andi v56 v58
  let v45 : BitVec 32 := Scalar.divsi v34 c4_i32_20
  let c1_i32_26 : BitVec 32 := 1#32
  let v60 : BitVec 32 := Scalar.subi v45 c1_i32_26
  let v61 : BitVec 32 := Scalar.select v59 v60 v45
  let c4_i32_27 : BitVec 32 := 4#32
  let v62 : BitVec 32 := Scalar.muli v61 c4_i32_27
  let c4_i32_14 : BitVec 32 := 4#32
  let c0_i32_15 : BitVec 32 := 0#32
  let v35 : BitVec 1 := Scalar.cmpi .eq c4_i32_14 c0_i32_15
  let c1_i32_16 : BitVec 32 := 1#32
  let v36 : BitVec 32 := Scalar.select v35 c1_i32_16 c4_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_28 : BitVec 32 := 1#32
  let v63 : BitVec 32 := Scalar.shrsi v44 c1_i32_28
  let v64 : BitVec 32 := Scalar.xori v44 v63
  let v65 : BitVec 32 := Scalar.addi v62 v64
  let c1_i32_263 : BitVec 32 := 1#32
  let v398 : BitVec 32 := Scalar.muli v65 c1_i32_263
  let v399 : BitVec 32 := Scalar.addi c0_i32_264 v398
  v399.toNat
def k0_dev16 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c2_i32 : BitVec 32 := 2#32
  let v66 : BitVec 32 := Scalar.xori v33 c2_i32
  let c0_i32_36 : BitVec 32 := 0#32
  let v78 : BitVec 1 := Scalar.cmpi .sgt v66 c0_i32_36
  let v79 : BitVec 32 := Scalar.extui v78
  let c0_i32_37 : BitVec 32 := 0#32
  let v80 : BitVec 1 := Scalar.cmpi .slt v66 c0_i32_37
  let v81 : BitVec 32 := Scalar.extui v80
  let v82 : BitVec 32 := Scalar.subi v79 v81
  let c4_i32_35 : BitVec 32 := 4#32
  let c0_i32_38 : BitVec 32 := 0#32
  let v83 : BitVec 1 := Scalar.cmpi .sgt c4_i32_35 c0_i32_38
  let v84 : BitVec 32 := Scalar.extui v83
  let c0_i32_39 : BitVec 32 := 0#32
  let v85 : BitVec 1 := Scalar.cmpi .slt c4_i32_35 c0_i32_39
  let v86 : BitVec 32 := Scalar.extui v85
  let v87 : BitVec 32 := Scalar.subi v84 v86
  let v88 : BitVec 1 := Scalar.cmpi .ne v82 v87
  let v89 : BitVec 32 := Scalar.remsi v66 c4_i32_35
  let c0_i32_40 : BitVec 32 := 0#32
  let v90 : BitVec 1 := Scalar.cmpi .ne v89 c0_i32_40
  let v91 : BitVec 1 := Scalar.andi v88 v90
  let v77 : BitVec 32 := Scalar.divsi v66 c4_i32_35
  let c1_i32_41 : BitVec 32 := 1#32
  let v92 : BitVec 32 := Scalar.subi v77 c1_i32_41
  let v93 : BitVec 32 := Scalar.select v91 v92 v77
  let c4_i32_42 : BitVec 32 := 4#32
  let v94 : BitVec 32 := Scalar.muli v93 c4_i32_42
  let c4_i32_29 : BitVec 32 := 4#32
  let c0_i32_30 : BitVec 32 := 0#32
  let v67 : BitVec 1 := Scalar.cmpi .eq c4_i32_29 c0_i32_30
  let c1_i32_31 : BitVec 32 := 1#32
  let v68 : BitVec 32 := Scalar.select v67 c1_i32_31 c4_i32_29
  let v69 : BitVec 32 := Scalar.remsi v66 v68
  let c0_i32_33 : BitVec 32 := 0#32
  let v71 : BitVec 1 := Scalar.cmpi .slt v69 c0_i32_33
  let c0_i32_34 : BitVec 32 := 0#32
  let v72 : BitVec 1 := Scalar.cmpi .slt v68 c0_i32_34
  let v73 : BitVec 1 := Scalar.xori v71 v72
  let c0_i32_32 : BitVec 32 := 0#32
  let v70 : BitVec 1 := Scalar.cmpi .ne v69 c0_i32_32
  let v74 : BitVec 1 := Scalar.andi v73 v70
  let v75 : BitVec 32 := Scalar.addi v69 v68
  let v76 : BitVec 32 := Scalar.select v74 v75 v69
  let c1_i32_43 : BitVec 32 := 1#32
  let v95 : BitVec 32 := Scalar.shrsi v76 c1_i32_43
  let v96 : BitVec 32 := Scalar.xori v76 v95
  let v97 : BitVec 32 := Scalar.addi v94 v96
  let c1_i32_278 : BitVec 32 := 1#32
  let v419 : BitVec 32 := Scalar.muli v97 c1_i32_278
  let v420 : BitVec 32 := Scalar.addi c0_i32_279 v419
  v420.toNat
def k0_dev17 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c8_i32 : BitVec 32 := 8#32
  let v130 : BitVec 32 := Scalar.xori v33 c8_i32
  let c0_i32_67 : BitVec 32 := 0#32
  let v142 : BitVec 1 := Scalar.cmpi .sgt v130 c0_i32_67
  let v143 : BitVec 32 := Scalar.extui v142
  let c0_i32_68 : BitVec 32 := 0#32
  let v144 : BitVec 1 := Scalar.cmpi .slt v130 c0_i32_68
  let v145 : BitVec 32 := Scalar.extui v144
  let v146 : BitVec 32 := Scalar.subi v143 v145
  let c4_i32_66 : BitVec 32 := 4#32
  let c0_i32_69 : BitVec 32 := 0#32
  let v147 : BitVec 1 := Scalar.cmpi .sgt c4_i32_66 c0_i32_69
  let v148 : BitVec 32 := Scalar.extui v147
  let c0_i32_70 : BitVec 32 := 0#32
  let v149 : BitVec 1 := Scalar.cmpi .slt c4_i32_66 c0_i32_70
  let v150 : BitVec 32 := Scalar.extui v149
  let v151 : BitVec 32 := Scalar.subi v148 v150
  let v152 : BitVec 1 := Scalar.cmpi .ne v146 v151
  let v153 : BitVec 32 := Scalar.remsi v130 c4_i32_66
  let c0_i32_71 : BitVec 32 := 0#32
  let v154 : BitVec 1 := Scalar.cmpi .ne v153 c0_i32_71
  let v155 : BitVec 1 := Scalar.andi v152 v154
  let v141 : BitVec 32 := Scalar.divsi v130 c4_i32_66
  let c1_i32_72 : BitVec 32 := 1#32
  let v156 : BitVec 32 := Scalar.subi v141 c1_i32_72
  let v157 : BitVec 32 := Scalar.select v155 v156 v141
  let c4_i32_73 : BitVec 32 := 4#32
  let v158 : BitVec 32 := Scalar.muli v157 c4_i32_73
  let c4_i32_60 : BitVec 32 := 4#32
  let c0_i32_61 : BitVec 32 := 0#32
  let v131 : BitVec 1 := Scalar.cmpi .eq c4_i32_60 c0_i32_61
  let c1_i32_62 : BitVec 32 := 1#32
  let v132 : BitVec 32 := Scalar.select v131 c1_i32_62 c4_i32_60
  let v133 : BitVec 32 := Scalar.remsi v130 v132
  let c0_i32_64 : BitVec 32 := 0#32
  let v135 : BitVec 1 := Scalar.cmpi .slt v133 c0_i32_64
  let c0_i32_65 : BitVec 32 := 0#32
  let v136 : BitVec 1 := Scalar.cmpi .slt v132 c0_i32_65
  let v137 : BitVec 1 := Scalar.xori v135 v136
  let c0_i32_63 : BitVec 32 := 0#32
  let v134 : BitVec 1 := Scalar.cmpi .ne v133 c0_i32_63
  let v138 : BitVec 1 := Scalar.andi v137 v134
  let v139 : BitVec 32 := Scalar.addi v133 v132
  let v140 : BitVec 32 := Scalar.select v138 v139 v133
  let c1_i32_74 : BitVec 32 := 1#32
  let v159 : BitVec 32 := Scalar.shrsi v140 c1_i32_74
  let v160 : BitVec 32 := Scalar.xori v140 v159
  let v161 : BitVec 32 := Scalar.addi v158 v160
  let c1_i32_300 : BitVec 32 := 1#32
  let v444 : BitVec 32 := Scalar.muli v161 c1_i32_300
  let v445 : BitVec 32 := Scalar.addi c0_i32_301 v444
  v445.toNat
def k0_dev18 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c4_i32_44 : BitVec 32 := 4#32
  let v98 : BitVec 32 := Scalar.xori v33 c4_i32_44
  let c0_i32_52 : BitVec 32 := 0#32
  let v110 : BitVec 1 := Scalar.cmpi .sgt v98 c0_i32_52
  let v111 : BitVec 32 := Scalar.extui v110
  let c0_i32_53 : BitVec 32 := 0#32
  let v112 : BitVec 1 := Scalar.cmpi .slt v98 c0_i32_53
  let v113 : BitVec 32 := Scalar.extui v112
  let v114 : BitVec 32 := Scalar.subi v111 v113
  let c4_i32_51 : BitVec 32 := 4#32
  let c0_i32_54 : BitVec 32 := 0#32
  let v115 : BitVec 1 := Scalar.cmpi .sgt c4_i32_51 c0_i32_54
  let v116 : BitVec 32 := Scalar.extui v115
  let c0_i32_55 : BitVec 32 := 0#32
  let v117 : BitVec 1 := Scalar.cmpi .slt c4_i32_51 c0_i32_55
  let v118 : BitVec 32 := Scalar.extui v117
  let v119 : BitVec 32 := Scalar.subi v116 v118
  let v120 : BitVec 1 := Scalar.cmpi .ne v114 v119
  let v121 : BitVec 32 := Scalar.remsi v98 c4_i32_51
  let c0_i32_56 : BitVec 32 := 0#32
  let v122 : BitVec 1 := Scalar.cmpi .ne v121 c0_i32_56
  let v123 : BitVec 1 := Scalar.andi v120 v122
  let v109 : BitVec 32 := Scalar.divsi v98 c4_i32_51
  let c1_i32_57 : BitVec 32 := 1#32
  let v124 : BitVec 32 := Scalar.subi v109 c1_i32_57
  let v125 : BitVec 32 := Scalar.select v123 v124 v109
  let c4_i32_58 : BitVec 32 := 4#32
  let v126 : BitVec 32 := Scalar.muli v125 c4_i32_58
  let c4_i32_45 : BitVec 32 := 4#32
  let c0_i32_46 : BitVec 32 := 0#32
  let v99 : BitVec 1 := Scalar.cmpi .eq c4_i32_45 c0_i32_46
  let c1_i32_47 : BitVec 32 := 1#32
  let v100 : BitVec 32 := Scalar.select v99 c1_i32_47 c4_i32_45
  let v101 : BitVec 32 := Scalar.remsi v98 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let c1_i32_59 : BitVec 32 := 1#32
  let v127 : BitVec 32 := Scalar.shrsi v108 c1_i32_59
  let v128 : BitVec 32 := Scalar.xori v108 v127
  let v129 : BitVec 32 := Scalar.addi v126 v128
  let c1_i32_322 : BitVec 32 := 1#32
  let v469 : BitVec 32 := Scalar.muli v129 c1_i32_322
  let v470 : BitVec 32 := Scalar.addi c0_i32_323 v469
  v470.toNat
def k0_dev19 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c2_i32 : BitVec 32 := 2#32
  let v66 : BitVec 32 := Scalar.xori v33 c2_i32
  let c0_i32_36 : BitVec 32 := 0#32
  let v78 : BitVec 1 := Scalar.cmpi .sgt v66 c0_i32_36
  let v79 : BitVec 32 := Scalar.extui v78
  let c0_i32_37 : BitVec 32 := 0#32
  let v80 : BitVec 1 := Scalar.cmpi .slt v66 c0_i32_37
  let v81 : BitVec 32 := Scalar.extui v80
  let v82 : BitVec 32 := Scalar.subi v79 v81
  let c4_i32_35 : BitVec 32 := 4#32
  let c0_i32_38 : BitVec 32 := 0#32
  let v83 : BitVec 1 := Scalar.cmpi .sgt c4_i32_35 c0_i32_38
  let v84 : BitVec 32 := Scalar.extui v83
  let c0_i32_39 : BitVec 32 := 0#32
  let v85 : BitVec 1 := Scalar.cmpi .slt c4_i32_35 c0_i32_39
  let v86 : BitVec 32 := Scalar.extui v85
  let v87 : BitVec 32 := Scalar.subi v84 v86
  let v88 : BitVec 1 := Scalar.cmpi .ne v82 v87
  let v89 : BitVec 32 := Scalar.remsi v66 c4_i32_35
  let c0_i32_40 : BitVec 32 := 0#32
  let v90 : BitVec 1 := Scalar.cmpi .ne v89 c0_i32_40
  let v91 : BitVec 1 := Scalar.andi v88 v90
  let v77 : BitVec 32 := Scalar.divsi v66 c4_i32_35
  let c1_i32_41 : BitVec 32 := 1#32
  let v92 : BitVec 32 := Scalar.subi v77 c1_i32_41
  let v93 : BitVec 32 := Scalar.select v91 v92 v77
  let c4_i32_42 : BitVec 32 := 4#32
  let v94 : BitVec 32 := Scalar.muli v93 c4_i32_42
  let c4_i32_29 : BitVec 32 := 4#32
  let c0_i32_30 : BitVec 32 := 0#32
  let v67 : BitVec 1 := Scalar.cmpi .eq c4_i32_29 c0_i32_30
  let c1_i32_31 : BitVec 32 := 1#32
  let v68 : BitVec 32 := Scalar.select v67 c1_i32_31 c4_i32_29
  let v69 : BitVec 32 := Scalar.remsi v66 v68
  let c0_i32_33 : BitVec 32 := 0#32
  let v71 : BitVec 1 := Scalar.cmpi .slt v69 c0_i32_33
  let c0_i32_34 : BitVec 32 := 0#32
  let v72 : BitVec 1 := Scalar.cmpi .slt v68 c0_i32_34
  let v73 : BitVec 1 := Scalar.xori v71 v72
  let c0_i32_32 : BitVec 32 := 0#32
  let v70 : BitVec 1 := Scalar.cmpi .ne v69 c0_i32_32
  let v74 : BitVec 1 := Scalar.andi v73 v70
  let v75 : BitVec 32 := Scalar.addi v69 v68
  let v76 : BitVec 32 := Scalar.select v74 v75 v69
  let c1_i32_43 : BitVec 32 := 1#32
  let v95 : BitVec 32 := Scalar.shrsi v76 c1_i32_43
  let v96 : BitVec 32 := Scalar.xori v76 v95
  let v97 : BitVec 32 := Scalar.addi v94 v96
  let c1_i32_343 : BitVec 32 := 1#32
  let v494 : BitVec 32 := Scalar.muli v97 c1_i32_343
  let v495 : BitVec 32 := Scalar.addi c0_i32_344 v494
  v495.toNat
def k0_dev20 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c1_i32_13 : BitVec 32 := 1#32
  let v34 : BitVec 32 := Scalar.xori v33 c1_i32_13
  let c0_i32_21 : BitVec 32 := 0#32
  let v46 : BitVec 1 := Scalar.cmpi .sgt v34 c0_i32_21
  let v47 : BitVec 32 := Scalar.extui v46
  let c0_i32_22 : BitVec 32 := 0#32
  let v48 : BitVec 1 := Scalar.cmpi .slt v34 c0_i32_22
  let v49 : BitVec 32 := Scalar.extui v48
  let v50 : BitVec 32 := Scalar.subi v47 v49
  let c4_i32_20 : BitVec 32 := 4#32
  let c0_i32_23 : BitVec 32 := 0#32
  let v51 : BitVec 1 := Scalar.cmpi .sgt c4_i32_20 c0_i32_23
  let v52 : BitVec 32 := Scalar.extui v51
  let c0_i32_24 : BitVec 32 := 0#32
  let v53 : BitVec 1 := Scalar.cmpi .slt c4_i32_20 c0_i32_24
  let v54 : BitVec 32 := Scalar.extui v53
  let v55 : BitVec 32 := Scalar.subi v52 v54
  let v56 : BitVec 1 := Scalar.cmpi .ne v50 v55
  let v57 : BitVec 32 := Scalar.remsi v34 c4_i32_20
  let c0_i32_25 : BitVec 32 := 0#32
  let v58 : BitVec 1 := Scalar.cmpi .ne v57 c0_i32_25
  let v59 : BitVec 1 := Scalar.andi v56 v58
  let v45 : BitVec 32 := Scalar.divsi v34 c4_i32_20
  let c1_i32_26 : BitVec 32 := 1#32
  let v60 : BitVec 32 := Scalar.subi v45 c1_i32_26
  let v61 : BitVec 32 := Scalar.select v59 v60 v45
  let c4_i32_27 : BitVec 32 := 4#32
  let v62 : BitVec 32 := Scalar.muli v61 c4_i32_27
  let c4_i32_14 : BitVec 32 := 4#32
  let c0_i32_15 : BitVec 32 := 0#32
  let v35 : BitVec 1 := Scalar.cmpi .eq c4_i32_14 c0_i32_15
  let c1_i32_16 : BitVec 32 := 1#32
  let v36 : BitVec 32 := Scalar.select v35 c1_i32_16 c4_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_28 : BitVec 32 := 1#32
  let v63 : BitVec 32 := Scalar.shrsi v44 c1_i32_28
  let v64 : BitVec 32 := Scalar.xori v44 v63
  let v65 : BitVec 32 := Scalar.addi v62 v64
  let c1_i32_364 : BitVec 32 := 1#32
  let v519 : BitVec 32 := Scalar.muli v65 c1_i32_364
  let v520 : BitVec 32 := Scalar.addi c0_i32_365 v519
  v520.toNat
def k0_dev21 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c2_i32 : BitVec 32 := 2#32
  let v66 : BitVec 32 := Scalar.xori v33 c2_i32
  let c0_i32_36 : BitVec 32 := 0#32
  let v78 : BitVec 1 := Scalar.cmpi .sgt v66 c0_i32_36
  let v79 : BitVec 32 := Scalar.extui v78
  let c0_i32_37 : BitVec 32 := 0#32
  let v80 : BitVec 1 := Scalar.cmpi .slt v66 c0_i32_37
  let v81 : BitVec 32 := Scalar.extui v80
  let v82 : BitVec 32 := Scalar.subi v79 v81
  let c4_i32_35 : BitVec 32 := 4#32
  let c0_i32_38 : BitVec 32 := 0#32
  let v83 : BitVec 1 := Scalar.cmpi .sgt c4_i32_35 c0_i32_38
  let v84 : BitVec 32 := Scalar.extui v83
  let c0_i32_39 : BitVec 32 := 0#32
  let v85 : BitVec 1 := Scalar.cmpi .slt c4_i32_35 c0_i32_39
  let v86 : BitVec 32 := Scalar.extui v85
  let v87 : BitVec 32 := Scalar.subi v84 v86
  let v88 : BitVec 1 := Scalar.cmpi .ne v82 v87
  let v89 : BitVec 32 := Scalar.remsi v66 c4_i32_35
  let c0_i32_40 : BitVec 32 := 0#32
  let v90 : BitVec 1 := Scalar.cmpi .ne v89 c0_i32_40
  let v91 : BitVec 1 := Scalar.andi v88 v90
  let v77 : BitVec 32 := Scalar.divsi v66 c4_i32_35
  let c1_i32_41 : BitVec 32 := 1#32
  let v92 : BitVec 32 := Scalar.subi v77 c1_i32_41
  let v93 : BitVec 32 := Scalar.select v91 v92 v77
  let c4_i32_42 : BitVec 32 := 4#32
  let v94 : BitVec 32 := Scalar.muli v93 c4_i32_42
  let c4_i32_29 : BitVec 32 := 4#32
  let c0_i32_30 : BitVec 32 := 0#32
  let v67 : BitVec 1 := Scalar.cmpi .eq c4_i32_29 c0_i32_30
  let c1_i32_31 : BitVec 32 := 1#32
  let v68 : BitVec 32 := Scalar.select v67 c1_i32_31 c4_i32_29
  let v69 : BitVec 32 := Scalar.remsi v66 v68
  let c0_i32_33 : BitVec 32 := 0#32
  let v71 : BitVec 1 := Scalar.cmpi .slt v69 c0_i32_33
  let c0_i32_34 : BitVec 32 := 0#32
  let v72 : BitVec 1 := Scalar.cmpi .slt v68 c0_i32_34
  let v73 : BitVec 1 := Scalar.xori v71 v72
  let c0_i32_32 : BitVec 32 := 0#32
  let v70 : BitVec 1 := Scalar.cmpi .ne v69 c0_i32_32
  let v74 : BitVec 1 := Scalar.andi v73 v70
  let v75 : BitVec 32 := Scalar.addi v69 v68
  let v76 : BitVec 32 := Scalar.select v74 v75 v69
  let c1_i32_43 : BitVec 32 := 1#32
  let v95 : BitVec 32 := Scalar.shrsi v76 c1_i32_43
  let v96 : BitVec 32 := Scalar.xori v76 v95
  let v97 : BitVec 32 := Scalar.addi v94 v96
  let c1_i32_386 : BitVec 32 := 1#32
  let v544 : BitVec 32 := Scalar.muli v97 c1_i32_386
  let v545 : BitVec 32 := Scalar.addi c0_i32_387 v544
  v545.toNat
def k0_dev22 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c1_i32_13 : BitVec 32 := 1#32
  let v34 : BitVec 32 := Scalar.xori v33 c1_i32_13
  let c0_i32_21 : BitVec 32 := 0#32
  let v46 : BitVec 1 := Scalar.cmpi .sgt v34 c0_i32_21
  let v47 : BitVec 32 := Scalar.extui v46
  let c0_i32_22 : BitVec 32 := 0#32
  let v48 : BitVec 1 := Scalar.cmpi .slt v34 c0_i32_22
  let v49 : BitVec 32 := Scalar.extui v48
  let v50 : BitVec 32 := Scalar.subi v47 v49
  let c4_i32_20 : BitVec 32 := 4#32
  let c0_i32_23 : BitVec 32 := 0#32
  let v51 : BitVec 1 := Scalar.cmpi .sgt c4_i32_20 c0_i32_23
  let v52 : BitVec 32 := Scalar.extui v51
  let c0_i32_24 : BitVec 32 := 0#32
  let v53 : BitVec 1 := Scalar.cmpi .slt c4_i32_20 c0_i32_24
  let v54 : BitVec 32 := Scalar.extui v53
  let v55 : BitVec 32 := Scalar.subi v52 v54
  let v56 : BitVec 1 := Scalar.cmpi .ne v50 v55
  let v57 : BitVec 32 := Scalar.remsi v34 c4_i32_20
  let c0_i32_25 : BitVec 32 := 0#32
  let v58 : BitVec 1 := Scalar.cmpi .ne v57 c0_i32_25
  let v59 : BitVec 1 := Scalar.andi v56 v58
  let v45 : BitVec 32 := Scalar.divsi v34 c4_i32_20
  let c1_i32_26 : BitVec 32 := 1#32
  let v60 : BitVec 32 := Scalar.subi v45 c1_i32_26
  let v61 : BitVec 32 := Scalar.select v59 v60 v45
  let c4_i32_27 : BitVec 32 := 4#32
  let v62 : BitVec 32 := Scalar.muli v61 c4_i32_27
  let c4_i32_14 : BitVec 32 := 4#32
  let c0_i32_15 : BitVec 32 := 0#32
  let v35 : BitVec 1 := Scalar.cmpi .eq c4_i32_14 c0_i32_15
  let c1_i32_16 : BitVec 32 := 1#32
  let v36 : BitVec 32 := Scalar.select v35 c1_i32_16 c4_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_28 : BitVec 32 := 1#32
  let v63 : BitVec 32 := Scalar.shrsi v44 c1_i32_28
  let v64 : BitVec 32 := Scalar.xori v44 v63
  let v65 : BitVec 32 := Scalar.addi v62 v64
  let c1_i32_407 : BitVec 32 := 1#32
  let v569 : BitVec 32 := Scalar.muli v65 c1_i32_407
  let v570 : BitVec 32 := Scalar.addi c0_i32_408 v569
  v570.toNat
def k0_dev23 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c8_i32 : BitVec 32 := 8#32
  let v130 : BitVec 32 := Scalar.xori v33 c8_i32
  let c0_i32_67 : BitVec 32 := 0#32
  let v142 : BitVec 1 := Scalar.cmpi .sgt v130 c0_i32_67
  let v143 : BitVec 32 := Scalar.extui v142
  let c0_i32_68 : BitVec 32 := 0#32
  let v144 : BitVec 1 := Scalar.cmpi .slt v130 c0_i32_68
  let v145 : BitVec 32 := Scalar.extui v144
  let v146 : BitVec 32 := Scalar.subi v143 v145
  let c4_i32_66 : BitVec 32 := 4#32
  let c0_i32_69 : BitVec 32 := 0#32
  let v147 : BitVec 1 := Scalar.cmpi .sgt c4_i32_66 c0_i32_69
  let v148 : BitVec 32 := Scalar.extui v147
  let c0_i32_70 : BitVec 32 := 0#32
  let v149 : BitVec 1 := Scalar.cmpi .slt c4_i32_66 c0_i32_70
  let v150 : BitVec 32 := Scalar.extui v149
  let v151 : BitVec 32 := Scalar.subi v148 v150
  let v152 : BitVec 1 := Scalar.cmpi .ne v146 v151
  let v153 : BitVec 32 := Scalar.remsi v130 c4_i32_66
  let c0_i32_71 : BitVec 32 := 0#32
  let v154 : BitVec 1 := Scalar.cmpi .ne v153 c0_i32_71
  let v155 : BitVec 1 := Scalar.andi v152 v154
  let v141 : BitVec 32 := Scalar.divsi v130 c4_i32_66
  let c1_i32_72 : BitVec 32 := 1#32
  let v156 : BitVec 32 := Scalar.subi v141 c1_i32_72
  let v157 : BitVec 32 := Scalar.select v155 v156 v141
  let c4_i32_73 : BitVec 32 := 4#32
  let v158 : BitVec 32 := Scalar.muli v157 c4_i32_73
  let c4_i32_60 : BitVec 32 := 4#32
  let c0_i32_61 : BitVec 32 := 0#32
  let v131 : BitVec 1 := Scalar.cmpi .eq c4_i32_60 c0_i32_61
  let c1_i32_62 : BitVec 32 := 1#32
  let v132 : BitVec 32 := Scalar.select v131 c1_i32_62 c4_i32_60
  let v133 : BitVec 32 := Scalar.remsi v130 v132
  let c0_i32_64 : BitVec 32 := 0#32
  let v135 : BitVec 1 := Scalar.cmpi .slt v133 c0_i32_64
  let c0_i32_65 : BitVec 32 := 0#32
  let v136 : BitVec 1 := Scalar.cmpi .slt v132 c0_i32_65
  let v137 : BitVec 1 := Scalar.xori v135 v136
  let c0_i32_63 : BitVec 32 := 0#32
  let v134 : BitVec 1 := Scalar.cmpi .ne v133 c0_i32_63
  let v138 : BitVec 1 := Scalar.andi v137 v134
  let v139 : BitVec 32 := Scalar.addi v133 v132
  let v140 : BitVec 32 := Scalar.select v138 v139 v133
  let c1_i32_74 : BitVec 32 := 1#32
  let v159 : BitVec 32 := Scalar.shrsi v140 c1_i32_74
  let v160 : BitVec 32 := Scalar.xori v140 v159
  let v161 : BitVec 32 := Scalar.addi v158 v160
  let c1_i32_429 : BitVec 32 := 1#32
  let v594 : BitVec 32 := Scalar.muli v161 c1_i32_429
  let v595 : BitVec 32 := Scalar.addi c0_i32_430 v594
  v595.toNat
def k0_dev24 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c4_i32_44 : BitVec 32 := 4#32
  let v98 : BitVec 32 := Scalar.xori v33 c4_i32_44
  let c0_i32_52 : BitVec 32 := 0#32
  let v110 : BitVec 1 := Scalar.cmpi .sgt v98 c0_i32_52
  let v111 : BitVec 32 := Scalar.extui v110
  let c0_i32_53 : BitVec 32 := 0#32
  let v112 : BitVec 1 := Scalar.cmpi .slt v98 c0_i32_53
  let v113 : BitVec 32 := Scalar.extui v112
  let v114 : BitVec 32 := Scalar.subi v111 v113
  let c4_i32_51 : BitVec 32 := 4#32
  let c0_i32_54 : BitVec 32 := 0#32
  let v115 : BitVec 1 := Scalar.cmpi .sgt c4_i32_51 c0_i32_54
  let v116 : BitVec 32 := Scalar.extui v115
  let c0_i32_55 : BitVec 32 := 0#32
  let v117 : BitVec 1 := Scalar.cmpi .slt c4_i32_51 c0_i32_55
  let v118 : BitVec 32 := Scalar.extui v117
  let v119 : BitVec 32 := Scalar.subi v116 v118
  let v120 : BitVec 1 := Scalar.cmpi .ne v114 v119
  let v121 : BitVec 32 := Scalar.remsi v98 c4_i32_51
  let c0_i32_56 : BitVec 32 := 0#32
  let v122 : BitVec 1 := Scalar.cmpi .ne v121 c0_i32_56
  let v123 : BitVec 1 := Scalar.andi v120 v122
  let v109 : BitVec 32 := Scalar.divsi v98 c4_i32_51
  let c1_i32_57 : BitVec 32 := 1#32
  let v124 : BitVec 32 := Scalar.subi v109 c1_i32_57
  let v125 : BitVec 32 := Scalar.select v123 v124 v109
  let c4_i32_58 : BitVec 32 := 4#32
  let v126 : BitVec 32 := Scalar.muli v125 c4_i32_58
  let c4_i32_45 : BitVec 32 := 4#32
  let c0_i32_46 : BitVec 32 := 0#32
  let v99 : BitVec 1 := Scalar.cmpi .eq c4_i32_45 c0_i32_46
  let c1_i32_47 : BitVec 32 := 1#32
  let v100 : BitVec 32 := Scalar.select v99 c1_i32_47 c4_i32_45
  let v101 : BitVec 32 := Scalar.remsi v98 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let c1_i32_59 : BitVec 32 := 1#32
  let v127 : BitVec 32 := Scalar.shrsi v108 c1_i32_59
  let v128 : BitVec 32 := Scalar.xori v108 v127
  let v129 : BitVec 32 := Scalar.addi v126 v128
  let c1_i32_450 : BitVec 32 := 1#32
  let v619 : BitVec 32 := Scalar.muli v129 c1_i32_450
  let v620 : BitVec 32 := Scalar.addi c0_i32_451 v619
  v620.toNat
def k0_off7 (d0 : Dev nD) (c0_i32_98 : BitVec 32) (c0_i32_75 : BitVec 32) (c1_i32_77 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let v162 : BitVec 32 := Scalar.shrsi v33 c0_i32_75
  let c1_i32_76 : BitVec 32 := 1#32
  let v163 : BitVec 32 := Scalar.andi v162 c1_i32_76
  let c64_i32_97 : BitVec 32 := 64#32
  let v182 : BitVec 32 := Scalar.muli v163 c64_i32_97
  let v183 : BitVec 32 := Scalar.addi c0_i32_98 v182
  let v164 : BitVec 32 := Scalar.shrsi v33 c1_i32_77
  let c1_i32_78 : BitVec 32 := 1#32
  let v165 : BitVec 32 := Scalar.andi v164 c1_i32_78
  let c32_i32_150 : BitVec 32 := 32#32
  let v252 : BitVec 32 := Scalar.muli v165 c32_i32_150
  let v253 : BitVec 32 := Scalar.addi v183 v252
  let c32_i32_460 : BitVec 32 := 32#32
  let v633 : BitVec 32 := Scalar.muli v165 c32_i32_460
  let v634 : BitVec 32 := Scalar.subi v253 v633
  let c0_i32_464 : BitVec 32 := 0#32
  ![v634.toNat, 0]
def k0_off7_at (r : Fin 4) : BitVec 32 × BitVec 32 × BitVec 32 :=
  if r.val < 2 then
    if r.val < 1 then
      (0#32, 0#32, 1#32)
    else
      (128#32, 1#32, 0#32)
  else
    if r.val < 3 then
      (256#32, 2#32, 3#32)
    else
      (384#32, 3#32, 2#32)
def k0_dev25 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c1_i32_13 : BitVec 32 := 1#32
  let v34 : BitVec 32 := Scalar.xori v33 c1_i32_13
  let c0_i32_21 : BitVec 32 := 0#32
  let v46 : BitVec 1 := Scalar.cmpi .sgt v34 c0_i32_21
  let v47 : BitVec 32 := Scalar.extui v46
  let c0_i32_22 : BitVec 32 := 0#32
  let v48 : BitVec 1 := Scalar.cmpi .slt v34 c0_i32_22
  let v49 : BitVec 32 := Scalar.extui v48
  let v50 : BitVec 32 := Scalar.subi v47 v49
  let c4_i32_20 : BitVec 32 := 4#32
  let c0_i32_23 : BitVec 32 := 0#32
  let v51 : BitVec 1 := Scalar.cmpi .sgt c4_i32_20 c0_i32_23
  let v52 : BitVec 32 := Scalar.extui v51
  let c0_i32_24 : BitVec 32 := 0#32
  let v53 : BitVec 1 := Scalar.cmpi .slt c4_i32_20 c0_i32_24
  let v54 : BitVec 32 := Scalar.extui v53
  let v55 : BitVec 32 := Scalar.subi v52 v54
  let v56 : BitVec 1 := Scalar.cmpi .ne v50 v55
  let v57 : BitVec 32 := Scalar.remsi v34 c4_i32_20
  let c0_i32_25 : BitVec 32 := 0#32
  let v58 : BitVec 1 := Scalar.cmpi .ne v57 c0_i32_25
  let v59 : BitVec 1 := Scalar.andi v56 v58
  let v45 : BitVec 32 := Scalar.divsi v34 c4_i32_20
  let c1_i32_26 : BitVec 32 := 1#32
  let v60 : BitVec 32 := Scalar.subi v45 c1_i32_26
  let v61 : BitVec 32 := Scalar.select v59 v60 v45
  let c4_i32_27 : BitVec 32 := 4#32
  let v62 : BitVec 32 := Scalar.muli v61 c4_i32_27
  let c4_i32_14 : BitVec 32 := 4#32
  let c0_i32_15 : BitVec 32 := 0#32
  let v35 : BitVec 1 := Scalar.cmpi .eq c4_i32_14 c0_i32_15
  let c1_i32_16 : BitVec 32 := 1#32
  let v36 : BitVec 32 := Scalar.select v35 c1_i32_16 c4_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_28 : BitVec 32 := 1#32
  let v63 : BitVec 32 := Scalar.shrsi v44 c1_i32_28
  let v64 : BitVec 32 := Scalar.xori v44 v63
  let v65 : BitVec 32 := Scalar.addi v62 v64
  let c1_i32_462 : BitVec 32 := 1#32
  let v635 : BitVec 32 := Scalar.muli v65 c1_i32_462
  let v636 : BitVec 32 := Scalar.addi c0_i32_463 v635
  v636.toNat
def k0_dev26 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c2_i32 : BitVec 32 := 2#32
  let v66 : BitVec 32 := Scalar.xori v33 c2_i32
  let c0_i32_36 : BitVec 32 := 0#32
  let v78 : BitVec 1 := Scalar.cmpi .sgt v66 c0_i32_36
  let v79 : BitVec 32 := Scalar.extui v78
  let c0_i32_37 : BitVec 32 := 0#32
  let v80 : BitVec 1 := Scalar.cmpi .slt v66 c0_i32_37
  let v81 : BitVec 32 := Scalar.extui v80
  let v82 : BitVec 32 := Scalar.subi v79 v81
  let c4_i32_35 : BitVec 32 := 4#32
  let c0_i32_38 : BitVec 32 := 0#32
  let v83 : BitVec 1 := Scalar.cmpi .sgt c4_i32_35 c0_i32_38
  let v84 : BitVec 32 := Scalar.extui v83
  let c0_i32_39 : BitVec 32 := 0#32
  let v85 : BitVec 1 := Scalar.cmpi .slt c4_i32_35 c0_i32_39
  let v86 : BitVec 32 := Scalar.extui v85
  let v87 : BitVec 32 := Scalar.subi v84 v86
  let v88 : BitVec 1 := Scalar.cmpi .ne v82 v87
  let v89 : BitVec 32 := Scalar.remsi v66 c4_i32_35
  let c0_i32_40 : BitVec 32 := 0#32
  let v90 : BitVec 1 := Scalar.cmpi .ne v89 c0_i32_40
  let v91 : BitVec 1 := Scalar.andi v88 v90
  let v77 : BitVec 32 := Scalar.divsi v66 c4_i32_35
  let c1_i32_41 : BitVec 32 := 1#32
  let v92 : BitVec 32 := Scalar.subi v77 c1_i32_41
  let v93 : BitVec 32 := Scalar.select v91 v92 v77
  let c4_i32_42 : BitVec 32 := 4#32
  let v94 : BitVec 32 := Scalar.muli v93 c4_i32_42
  let c4_i32_29 : BitVec 32 := 4#32
  let c0_i32_30 : BitVec 32 := 0#32
  let v67 : BitVec 1 := Scalar.cmpi .eq c4_i32_29 c0_i32_30
  let c1_i32_31 : BitVec 32 := 1#32
  let v68 : BitVec 32 := Scalar.select v67 c1_i32_31 c4_i32_29
  let v69 : BitVec 32 := Scalar.remsi v66 v68
  let c0_i32_33 : BitVec 32 := 0#32
  let v71 : BitVec 1 := Scalar.cmpi .slt v69 c0_i32_33
  let c0_i32_34 : BitVec 32 := 0#32
  let v72 : BitVec 1 := Scalar.cmpi .slt v68 c0_i32_34
  let v73 : BitVec 1 := Scalar.xori v71 v72
  let c0_i32_32 : BitVec 32 := 0#32
  let v70 : BitVec 1 := Scalar.cmpi .ne v69 c0_i32_32
  let v74 : BitVec 1 := Scalar.andi v73 v70
  let v75 : BitVec 32 := Scalar.addi v69 v68
  let v76 : BitVec 32 := Scalar.select v74 v75 v69
  let c1_i32_43 : BitVec 32 := 1#32
  let v95 : BitVec 32 := Scalar.shrsi v76 c1_i32_43
  let v96 : BitVec 32 := Scalar.xori v76 v95
  let v97 : BitVec 32 := Scalar.addi v94 v96
  let c1_i32_474 : BitVec 32 := 1#32
  let v651 : BitVec 32 := Scalar.muli v97 c1_i32_474
  let v652 : BitVec 32 := Scalar.addi c0_i32_475 v651
  v652.toNat
def k0_dev27 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c4_i32_44 : BitVec 32 := 4#32
  let v98 : BitVec 32 := Scalar.xori v33 c4_i32_44
  let c0_i32_52 : BitVec 32 := 0#32
  let v110 : BitVec 1 := Scalar.cmpi .sgt v98 c0_i32_52
  let v111 : BitVec 32 := Scalar.extui v110
  let c0_i32_53 : BitVec 32 := 0#32
  let v112 : BitVec 1 := Scalar.cmpi .slt v98 c0_i32_53
  let v113 : BitVec 32 := Scalar.extui v112
  let v114 : BitVec 32 := Scalar.subi v111 v113
  let c4_i32_51 : BitVec 32 := 4#32
  let c0_i32_54 : BitVec 32 := 0#32
  let v115 : BitVec 1 := Scalar.cmpi .sgt c4_i32_51 c0_i32_54
  let v116 : BitVec 32 := Scalar.extui v115
  let c0_i32_55 : BitVec 32 := 0#32
  let v117 : BitVec 1 := Scalar.cmpi .slt c4_i32_51 c0_i32_55
  let v118 : BitVec 32 := Scalar.extui v117
  let v119 : BitVec 32 := Scalar.subi v116 v118
  let v120 : BitVec 1 := Scalar.cmpi .ne v114 v119
  let v121 : BitVec 32 := Scalar.remsi v98 c4_i32_51
  let c0_i32_56 : BitVec 32 := 0#32
  let v122 : BitVec 1 := Scalar.cmpi .ne v121 c0_i32_56
  let v123 : BitVec 1 := Scalar.andi v120 v122
  let v109 : BitVec 32 := Scalar.divsi v98 c4_i32_51
  let c1_i32_57 : BitVec 32 := 1#32
  let v124 : BitVec 32 := Scalar.subi v109 c1_i32_57
  let v125 : BitVec 32 := Scalar.select v123 v124 v109
  let c4_i32_58 : BitVec 32 := 4#32
  let v126 : BitVec 32 := Scalar.muli v125 c4_i32_58
  let c4_i32_45 : BitVec 32 := 4#32
  let c0_i32_46 : BitVec 32 := 0#32
  let v99 : BitVec 1 := Scalar.cmpi .eq c4_i32_45 c0_i32_46
  let c1_i32_47 : BitVec 32 := 1#32
  let v100 : BitVec 32 := Scalar.select v99 c1_i32_47 c4_i32_45
  let v101 : BitVec 32 := Scalar.remsi v98 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let c1_i32_59 : BitVec 32 := 1#32
  let v127 : BitVec 32 := Scalar.shrsi v108 c1_i32_59
  let v128 : BitVec 32 := Scalar.xori v108 v127
  let v129 : BitVec 32 := Scalar.addi v126 v128
  let c1_i32_486 : BitVec 32 := 1#32
  let v667 : BitVec 32 := Scalar.muli v129 c1_i32_486
  let v668 : BitVec 32 := Scalar.addi c0_i32_487 v667
  v668.toNat
def k0_dev28 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.shrsi v30 c1_i32_12
  let v32 : BitVec 32 := Scalar.xori v30 v31
  let v33 : BitVec 32 := Scalar.addi v20 v32
  let c8_i32 : BitVec 32 := 8#32
  let v130 : BitVec 32 := Scalar.xori v33 c8_i32
  let c0_i32_67 : BitVec 32 := 0#32
  let v142 : BitVec 1 := Scalar.cmpi .sgt v130 c0_i32_67
  let v143 : BitVec 32 := Scalar.extui v142
  let c0_i32_68 : BitVec 32 := 0#32
  let v144 : BitVec 1 := Scalar.cmpi .slt v130 c0_i32_68
  let v145 : BitVec 32 := Scalar.extui v144
  let v146 : BitVec 32 := Scalar.subi v143 v145
  let c4_i32_66 : BitVec 32 := 4#32
  let c0_i32_69 : BitVec 32 := 0#32
  let v147 : BitVec 1 := Scalar.cmpi .sgt c4_i32_66 c0_i32_69
  let v148 : BitVec 32 := Scalar.extui v147
  let c0_i32_70 : BitVec 32 := 0#32
  let v149 : BitVec 1 := Scalar.cmpi .slt c4_i32_66 c0_i32_70
  let v150 : BitVec 32 := Scalar.extui v149
  let v151 : BitVec 32 := Scalar.subi v148 v150
  let v152 : BitVec 1 := Scalar.cmpi .ne v146 v151
  let v153 : BitVec 32 := Scalar.remsi v130 c4_i32_66
  let c0_i32_71 : BitVec 32 := 0#32
  let v154 : BitVec 1 := Scalar.cmpi .ne v153 c0_i32_71
  let v155 : BitVec 1 := Scalar.andi v152 v154
  let v141 : BitVec 32 := Scalar.divsi v130 c4_i32_66
  let c1_i32_72 : BitVec 32 := 1#32
  let v156 : BitVec 32 := Scalar.subi v141 c1_i32_72
  let v157 : BitVec 32 := Scalar.select v155 v156 v141
  let c4_i32_73 : BitVec 32 := 4#32
  let v158 : BitVec 32 := Scalar.muli v157 c4_i32_73
  let c4_i32_60 : BitVec 32 := 4#32
  let c0_i32_61 : BitVec 32 := 0#32
  let v131 : BitVec 1 := Scalar.cmpi .eq c4_i32_60 c0_i32_61
  let c1_i32_62 : BitVec 32 := 1#32
  let v132 : BitVec 32 := Scalar.select v131 c1_i32_62 c4_i32_60
  let v133 : BitVec 32 := Scalar.remsi v130 v132
  let c0_i32_64 : BitVec 32 := 0#32
  let v135 : BitVec 1 := Scalar.cmpi .slt v133 c0_i32_64
  let c0_i32_65 : BitVec 32 := 0#32
  let v136 : BitVec 1 := Scalar.cmpi .slt v132 c0_i32_65
  let v137 : BitVec 1 := Scalar.xori v135 v136
  let c0_i32_63 : BitVec 32 := 0#32
  let v134 : BitVec 1 := Scalar.cmpi .ne v133 c0_i32_63
  let v138 : BitVec 1 := Scalar.andi v137 v134
  let v139 : BitVec 32 := Scalar.addi v133 v132
  let v140 : BitVec 32 := Scalar.select v138 v139 v133
  let c1_i32_74 : BitVec 32 := 1#32
  let v159 : BitVec 32 := Scalar.shrsi v140 c1_i32_74
  let v160 : BitVec 32 := Scalar.xori v140 v159
  let v161 : BitVec 32 := Scalar.addi v158 v160
  let c1_i32_498 : BitVec 32 := 1#32
  let v683 : BitVec 32 := Scalar.muli v161 c1_i32_498
  let v684 : BitVec 32 := Scalar.addi c0_i32_499 v683
  v684.toNat
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_4 : (4#32 : BitVec 32).msb = false
  inb_S24_S1_0 : ∀ a, (![0] : Fin 1 → Nat) a + S1.size a ≤ S24.size a
  squeezes_S1_S_ : S1.Squeezes S_
  inb_S640x512_S64x512_0_0 : ∀ a, (![0, 0] : Fin 2 → Nat) a + S64x512.size a ≤ S640x512.size a
  squeezes_S1x64x512_S64x512 : S1x64x512.Squeezes S64x512
  inb_S24_S1_6 : ∀ a, (![6] : Fin 1 → Nat) a + S1.size a ≤ S24.size a
  inb_S640x512_S64x512_160_0 : ∀ a, (![160, 0] : Fin 2 → Nat) a + S64x512.size a ≤ S640x512.size a
  inb_S24_S1_12 : ∀ a, (![12] : Fin 1 → Nat) a + S1.size a ≤ S24.size a
  inb_S640x512_S64x512_320_0 : ∀ a, (![320, 0] : Fin 2 → Nat) a + S64x512.size a ≤ S640x512.size a
  inb_S24_S1_18 : ∀ a, (![18] : Fin 1 → Nat) a + S1.size a ≤ S24.size a
  inb_S640x512_S64x512_480_0 : ∀ a, (![480, 0] : Fin 2 → Nat) a + S64x512.size a ≤ S640x512.size a
  h_S1x64x512 : 0 < S1x64x512.numel
  shapeCasts_S1x64x512_S64x512 : S1x64x512.ShapeCasts S64x512
  h_S64x512 : 0 < S64x512.numel
  inb_S24_S1_1 : ∀ a, (![1] : Fin 1 → Nat) a + S1.size a ≤ S24.size a
  inb_S640x512_S32x512_64_0 : ∀ a, (![64, 0] : Fin 2 → Nat) a + S32x512.size a ≤ S640x512.size a
  inb_S24_S1_7 : ∀ a, (![7] : Fin 1 → Nat) a + S1.size a ≤ S24.size a
  inb_S640x512_S32x512_224_0 : ∀ a, (![224, 0] : Fin 2 → Nat) a + S32x512.size a ≤ S640x512.size a
  inb_S24_S1_13 : ∀ a, (![13] : Fin 1 → Nat) a + S1.size a ≤ S24.size a
  inb_S640x512_S32x512_384_0 : ∀ a, (![384, 0] : Fin 2 → Nat) a + S32x512.size a ≤ S640x512.size a
  inb_S24_S1_19 : ∀ a, (![19] : Fin 1 → Nat) a + S1.size a ≤ S24.size a
  inb_S640x512_S32x512_544_0 : ∀ a, (![544, 0] : Fin 2 → Nat) a + S32x512.size a ≤ S640x512.size a
  h_S32x512 : 0 < S32x512.numel
  shapeCasts_S32x512_S32x512 : S32x512.ShapeCasts S32x512
  inb_S24_S1_2 : ∀ a, (![2] : Fin 1 → Nat) a + S1.size a ≤ S24.size a
  inb_S640x512_S32x512_96_0 : ∀ a, (![96, 0] : Fin 2 → Nat) a + S32x512.size a ≤ S640x512.size a
  inb_S24_S1_8 : ∀ a, (![8] : Fin 1 → Nat) a + S1.size a ≤ S24.size a
  inb_S640x512_S32x512_256_0 : ∀ a, (![256, 0] : Fin 2 → Nat) a + S32x512.size a ≤ S640x512.size a
  inb_S24_S1_14 : ∀ a, (![14] : Fin 1 → Nat) a + S1.size a ≤ S24.size a
  inb_S640x512_S32x512_416_0 : ∀ a, (![416, 0] : Fin 2 → Nat) a + S32x512.size a ≤ S640x512.size a
  inb_S24_S1_20 : ∀ a, (![20] : Fin 1 → Nat) a + S1.size a ≤ S24.size a
  inb_S640x512_S32x512_576_0 : ∀ a, (![576, 0] : Fin 2 → Nat) a + S32x512.size a ≤ S640x512.size a
  inb_S24_S1_3 : ∀ a, (![3] : Fin 1 → Nat) a + S1.size a ≤ S24.size a
  inb_S640x512_S32x512_128_0 : ∀ a, (![128, 0] : Fin 2 → Nat) a + S32x512.size a ≤ S640x512.size a
  inb_S24_S1_9 : ∀ a, (![9] : Fin 1 → Nat) a + S1.size a ≤ S24.size a
  inb_S640x512_S32x512_288_0 : ∀ a, (![288, 0] : Fin 2 → Nat) a + S32x512.size a ≤ S640x512.size a
  inb_S24_S1_15 : ∀ a, (![15] : Fin 1 → Nat) a + S1.size a ≤ S24.size a
  inb_S640x512_S32x512_448_0 : ∀ a, (![448, 0] : Fin 2 → Nat) a + S32x512.size a ≤ S640x512.size a
  inb_S24_S1_21 : ∀ a, (![21] : Fin 1 → Nat) a + S1.size a ≤ S24.size a
  inb_S640x512_S32x512_608_0 : ∀ a, (![608, 0] : Fin 2 → Nat) a + S32x512.size a ≤ S640x512.size a
  inb_S24_S1_4 : ∀ a, (![4] : Fin 1 → Nat) a + S1.size a ≤ S24.size a
  inb_S24_S1_10 : ∀ a, (![10] : Fin 1 → Nat) a + S1.size a ≤ S24.size a
  inb_S24_S1_16 : ∀ a, (![16] : Fin 1 → Nat) a + S1.size a ≤ S24.size a
  inb_S24_S1_22 : ∀ a, (![22] : Fin 1 → Nat) a + S1.size a ≤ S24.size a
  inb_S24_S1_5 : ∀ a, (![5] : Fin 1 → Nat) a + S1.size a ≤ S24.size a
  inb_S24_S1_11 : ∀ a, (![11] : Fin 1 → Nat) a + S1.size a ≤ S24.size a
  inb_S24_S1_17 : ∀ a, (![17] : Fin 1 → Nat) a + S1.size a ≤ S24.size a
  inb_S24_S1_23 : ∀ a, (![23] : Fin 1 → Nat) a + S1.size a ≤ S24.size a
  hcc0_scratch1 : 2 + S24.numel ≤ 50
  hcc0_scratch2 : 26 + S24.numel ≤ 50
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off1_inb : ∀ d0 : Dev nD, ∀ (r : Fin 4), ∀ a, (k0_off1 d0 (k0_off1_at r).1 (k0_off1_at r).2) a + S1x64x512.size a ≤ S1x512x512.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off2_inb : ∀ d0 : Dev nD, ∀ (r : Fin 4), ∀ a, (k0_off2 d0 (k0_off2_at r).1 (k0_off2_at r).2) a + S1x64x512.size a ≤ S1x512x512.size a
  k0_off3_inb : ∀ d0 : Dev nD, ∀ (r : Fin 4), ∀ a, (k0_off3 d0 (k0_off3_at r).1 (k0_off3_at r).2) a + S64x512.size a ≤ S512x512.size a
  k0_off4_inb : ∀ d0 : Dev nD, ∀ (r : Fin 4), ∀ a, (k0_off4 d0 (k0_off4_at r).1 (k0_off4_at r).2.1 (k0_off4_at r).2.2) a + S32x512.size a ≤ S512x512.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off5_inb : ∀ d0 : Dev nD, ∀ (r : Fin 4), ∀ a, (k0_off5 d0 (k0_off5_at r).1 (k0_off5_at r).2.1 (k0_off5_at r).2.2) a + S32x512.size a ≤ S512x512.size a
  k0_off6_inb : ∀ d0 : Dev nD, ∀ (r : Fin 4), ∀ a, (k0_off6 d0 (k0_off6_at r).1 (k0_off6_at r).2.1 (k0_off6_at r).2.2) a + S32x512.size a ≤ S512x512.size a
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off7_inb : ∀ d0 : Dev nD, ∀ (r : Fin 4), ∀ a, (k0_off7 d0 (k0_off7_at r).1 (k0_off7_at r).2.1 (k0_off7_at r).2.2) a + S64x512.size a ≤ S512x512.size a
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  hstage0_0 : ∀ j, (stage0_0 j).IsWhole
  hstage0_1 : ∀ j, (stage0_1 j).IsWhole

variable [Facts₀]

abbrev cc0_scratch1 : DmaSems sig S24 := SemArray.consecutive 2 S24 hcc0_scratch1
abbrev cc0_scratch2 : DmaSems sig S24 := SemArray.consecutive 26 S24 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x512x512 : Shape := ⟨3, ![16, 512, 512]⟩
abbrev S_ : Shape := ⟨0, ![]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S_, .f32⟩
  | .hbm, ⟨2, _⟩ => ⟨S512x512, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S16x512x512_S512x512_d0 : S16x512x512.ReducesTo [0] S512x512
  h_S_ : 0 < S_.numel

variable [Facts₀]

class Facts : Prop extends Facts₀ where

variable [Facts]
-- ==== Proof.Cube.lean ====
/-
  The sixteen devices as a four-dimensional hypercube.

  A device `c : Fin 16` carries the LABEL `(c / 4) * 4 + gray (c % 4)`, where `gray s = s xor (s >> 1)` is the two-bit
  Gray code (0, 1, 3, 2: an involution on 0..3). Two devices are PARTNERS along dimension `b` when their labels
  differ exactly in bit `b`; `lbit b c` is bit `b` of `c`'s label. Along dimensions 0 and 1 the partner lies in
  the same group of four consecutive devices, along 2 and 3 it is `c xor 4` and `c xor 8`.

  Everything here is decided over the sixteen devices; no program is imported.
-/
import Mathlib.Data.Fin.Basic
import Mathlib.Tactic.DeriveFintype

namespace Cert.Cube

/-- The two-bit Gray code: 0, 1, 3, 2. -/
def gray (s : Nat) : Nat := s ^^^ (s >>> 1)

/-- A device's label: its group of four kept, its place in the group Gray-coded. -/
def label (c : Nat) : Nat := (c / 4) * 4 + gray (c % 4)

/-- The device along dimension `b`: the one whose label differs from `c`'s in bit `b` only. (`label` is its own
    inverse on 0..15, so the device with a given label is the label of that label.) -/
def partner (b : Fin 4) (c : Fin 16) : Fin 16 := ⟨label (label c.val ^^^ (1 <<< b.val)) % 16, Nat.mod_lt _ (by decide)⟩

/-- Bit `b` of a device's label, as 0 or 1. -/
def lbit (b : Fin 4) (c : Fin 16) : Nat := (label c.val >>> b.val) &&& 1

theorem label_label : ∀ c : Fin 16, label (label c.val) = c.val := by decide
theorem label_lt : ∀ c : Fin 16, label c.val < 16 := by decide

theorem partner_partner : ∀ (b : Fin 4) (c : Fin 16), partner b (partner b c) = c := by decide
theorem partner_ne : ∀ (b : Fin 4) (c : Fin 16), partner b c ≠ c := by decide
theorem partner_comm : ∀ (b b' : Fin 4) (c : Fin 16), partner b (partner b' c) = partner b' (partner b c) := by decide
theorem partner_inj_dim : ∀ (b b' : Fin 4) (c : Fin 16), partner b c = partner b' c → b = b' := by decide

theorem lbit_le : ∀ (b : Fin 4) (c : Fin 16), lbit b c ≤ 1 := by decide
theorem lbit_partner_self : ∀ (b : Fin 4) (c : Fin 16), lbit b (partner b c) = 1 - lbit b c := by decide
theorem lbit_partner_other : ∀ (b b' : Fin 4) (c : Fin 16), b ≠ b' → lbit b' (partner b c) = lbit b' c := by decide

/-- The partner as an equivalence of the devices (an involution). -/
def partnerEquiv (b : Fin 4) : Fin 16 ≃ Fin 16 := ⟨partner b, partner b, partner_partner b, partner_partner b⟩

/-- Stream `s` (rows `128 s .. 128 s + 127`) visits the dimensions in the order `s xor 0, s xor 1, s xor 2, s xor 3`. -/
def dimOf (s k : Fin 4) : Fin 4 := ⟨s.val ^^^ k.val, by revert s k; decide⟩

theorem dimOf_inj : ∀ (s k k' : Fin 4), dimOf s k = dimOf s k' → k = k' := by decide
theorem dimOf_stream : ∀ (s s' k : Fin 4), dimOf s k = dimOf s' k → s = s' := by decide

/-! ## What the exchange computes

Stream `s` runs four exchange steps, step `k` along dimension `dimOf s k`: each device adds to what it holds what its
partner along that dimension holds (its own term first). After `k` steps a device holds the sum over the `2^k` devices
of its subcube, grouped as the steps grouped it. -/

/-- What device `c` holds of one entry after `k` exchange steps of stream `s`, from the devices' own values `x`. -/
def acc {α : Type} (add : α → α → α) (x : Fin 16 → α) (s : Fin 4) : Nat → Fin 16 → α
  | 0, c => x c
  | k + 1, c => add (acc add x s k c) (acc add x s k (partner (dimOf s ⟨k % 4, Nat.mod_lt _ (by decide)⟩) c))

/-- Rows are kept by halves then quarters: of stream `s`'s 128 rows device `c` keeps, after the two scatter steps, the
    32 rows starting at `64 * lbit (dimOf s 0) c + 32 * lbit (dimOf s 1) c`. The device of `c`'s square (dimensions
    `dimOf s 0`, `dimOf s 1`) that keeps local row `r`: -/
def owner (s : Fin 4) (c : Fin 16) (r : Nat) : Fin 16 :=
  let c₁ := if lbit (dimOf s 0) c = r / 64 % 2 then c else partner (dimOf s 0) c
  if lbit (dimOf s 1) c₁ = r / 32 % 2 then c₁ else partner (dimOf s 1) c₁

/-- The start of the 32 rows of stream `s` that device `c` keeps, within the stream. -/
def keepRow (s : Fin 4) (c : Fin 16) : Nat := 64 * lbit (dimOf s 0) c + 32 * lbit (dimOf s 1) c

theorem owner_keeps : ∀ (s : Fin 4) (c : Fin 16) (r : Fin 128), keepRow s (owner s c r.val) = r.val / 32 * 32 := by decide

end Cert.Cube
-- ==== Proof.Sched.lean ====
/-
  The exchange protocol of the tree reduction, as a schedule of the rounds discipline.

  Sixteen devices, a four-dimensional hypercube (Cube.lean). Stream `s` (rows `128 s ..`) runs six slots; slot `t`
  goes along dimension `dimOf s (slotDim t)` with `slotDim = 0, 1, 2, 3, 1, 0`:
    slot 0  sends the half of the stream's rows of `x` the device does not keep into the partner's receive buffer,
            and the device adds what it receives to the half it keeps (into `out`);
    slot 1  the same with quarters, out of `out`; the source rows travel to the partner WITH the landing, because
            slot 4 of the partner overwrites them before the sender has waited for its own send;
    slots 2, 3  exchange the kept quarter whole and add;
    slot 4  sends the kept quarter into the partner's `out` (the rows the partner gave away in slot 1);
    slot 5  sends the kept half into the partner's `out` (the rows the partner never touched).
  Every semaphore cell has one round. A device's barrier cell has four duties, one per dimension, paid by the
  partner along it; duty `b` hands over what the device will write into on that partner: the partner's receive
  rows of the slots that go along `b`, and the half of the partner's `out` rows slot 5 fills.
  A send or receive cell `(s, t)` has the one duty `0`.
-/
import proofs.«900484_g7700000000000485_dist_treered_v7x_i16_m512_n512_f32_1_alg».proof.Proof.Gen.KernelIdeal.Frame
import proofs.«900484_g7700000000000485_dist_treered_v7x_i16_m512_n512_f32_1_alg».proof.Proof.Cube
import Idealize.ShloMosaic.Lib.Pipeline.Launch
import Idealize.ShloMosaic.Lib.Pipeline.Kit
import Idealize.ShloMosaic.Lib.Tactic
import Idealize.ShloMosaic.Lib.ValueIdx
import Idealize.ShloMosaic.Lib.Pipeline.Value

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Slots, cells -/

/-- The dimension position slot `t` uses: 0, 1, 2, 3, 1, 0. -/
def slotDim (t : Fin 6) : Fin 4 := match t with | 0 => 0 | 1 => 1 | 2 => 2 | 3 => 3 | 4 => 1 | 5 => 0
/-- The dimension slot `t` of stream `s` goes along. -/
def dimAt (s : Fin 4) (t : Fin 6) : Fin 4 := dimOf s (slotDim t)
/-- The device slot `t` of stream `s` exchanges with. -/
def peer (s : Fin 4) (t : Fin 6) (c : Dev nD) : Dev nD := partner (dimAt s t) c

abbrev xM : Memref sig .tc .vmem S1x512x512 .f32 := Memref.whole cc0_stg0_0
abbrev oM : Memref sig .tc .vmem S512x512 .f32 := Memref.whole cc0_stg1_0
abbrev rM : Memref sig .tc .vmem S640x512 .f32 := Memref.whole cc0_scratch0

/-- The runtime's barrier semaphore of collective id 0 (unscoped). -/
abbrev barS : Sem sig := (SemArray.scalar (sig.barrier 0 rfl) : Sems sig S_).sem
/-- Send and receive DMA semaphores of slot `t` of stream `s`: entries `6 s + t` of the two scratch arrays. -/
def sendQ (s : Fin 4) (t : Fin 6) : DmaSem sig := ⟨2 + (6 * s.val + t.val), by have := s.isLt; have := t.isLt; show _ < 50; omega⟩
def recvQ (s : Fin 4) (t : Fin 6) : DmaSem sig := ⟨26 + (6 * s.val + t.val), by have := s.isLt; have := t.isLt; show _ < 50; omega⟩

abbrev barCell (c : Dev nD) : GSem nD τ sig := ((c : Thread nD τ), .reg barS)
abbrev sendCell (c : Dev nD) (s : Fin 4) (t : Fin 6) : GSem nD τ sig := ((c : Thread nD τ), .dma (sendQ s t))
abbrev recvCell (c : Dev nD) (s : Fin 4) (t : Fin 6) : GSem nD τ sig := ((c : Thread nD τ), .dma (recvQ s t))

/-- What a semaphore is to the protocol. -/
inductive Kind
  | bar
  | send (s : Fin 4) (t : Fin 6)
  | recv (s : Fin 4) (t : Fin 6)
  | other
  deriving DecidableEq

def kindOf : SemLoc sig → Kind
  | .reg _ => .bar
  | .dma q =>
      if h : 2 ≤ q.val ∧ q.val < 26 then .send ⟨(q.val - 2) / 6, by omega⟩ ⟨(q.val - 2) % 6, Nat.mod_lt _ (by decide)⟩
      else if h' : 26 ≤ q.val ∧ q.val < 50 then .recv ⟨(q.val - 26) / 6, by omega⟩ ⟨(q.val - 26) % 6, Nat.mod_lt _ (by decide)⟩
      else .other

theorem kindOf_send : ∀ (s : Fin 4) (t : Fin 6), kindOf (.dma (sendQ s t)) = .send s t := by decide
theorem kindOf_recv : ∀ (s : Fin 4) (t : Fin 6), kindOf (.dma (recvQ s t)) = .recv s t := by decide
theorem kindOf_bar (q : Sem sig) : kindOf (.reg q) = .bar := rfl

/-! ## Contents -/

/-- Device `d`'s block of `x` as its staging buffer holds it. -/
def xstg (d : Dev nD) : (cc0_stg0_0 : Ref sig .tc).ty.Contents (Elt F) :=
  (win0_0.blk (0 : Fin 1)).view.read (Elt F) ((s₀ m ρ).mem ((d : Thread nD τ).loc main_arg0))

/-- Entry `(R, l)` on device `d` after `k` exchange steps of the stream row `R` belongs to. -/
def lvl (k : Nat) (d : Dev nD) (R : Fin 512) (l : Fin 512) : Elt F (.f32 : EltTy) :=
  acc (fun a b => FloatOps.addf (F := F) a b) (fun d' => xstg m ρ d' (ValueIdx.ix3 (0 : Fin 1) R l))
    ⟨R.val / 128, by have := R.isLt; omega⟩ k d

/-- The whole `out`-shaped array of level `k` of device `d`. -/
def outLvl (k : Nat) (d : Dev nD) : (cc0_stg1_0 : Ref sig .tc).ty.Contents (Elt F) := fun i => lvl m ρ k d (i 0) (i 1)

/-! ## The rows a slot moves, as views of the three buffers

Stated through the printed offset functions of the device (`k0_offJ c` at stream `s`'s literal arguments), so that
each unrolled transfer of the body is an instance by unfolding. -/

section Views
variable (c : Dev nD) (s : Fin 4)

/-- The half of stream `s`'s rows of `x` device `c` gives away in slot 0 (64 rows). -/
abbrev xGive : Memref sig .tc .vmem S64x512 .f32 :=
  ((xM.slice (Rect.unit (s := S1x512x512) (k0_off1 c (k0_off1_at s).1 (k0_off1_at s).2) S1x64x512.size (k0_off1_inb c s)) (fun _ => rfl)).squeeze S64x512 squeezes_S1x64x512_S64x512)
/-- The half it keeps, in `out` (64 rows: the rows slot 0 stores, slot 5 sends). -/
abbrev oHalf : Memref sig .tc .vmem S64x512 .f32 :=
  oM.slice (Rect.unit (s := S512x512) (k0_off7 c (k0_off7_at s).1 (k0_off7_at s).2.1 (k0_off7_at s).2.2) S64x512.size (k0_off7_inb c s)) (fun _ => rfl)
/-- The quarter of `out` it gives away in slot 1 (32 rows). -/
abbrev oGive : Memref sig .tc .vmem S32x512 .f32 :=
  oM.slice (Rect.unit (s := S512x512) (k0_off4 c (k0_off4_at s).1 (k0_off4_at s).2.1 (k0_off4_at s).2.2) S32x512.size (k0_off4_inb c s)) (fun _ => rfl)
/-- The quarter it keeps (32 rows: slots 2, 3, 4 send it). -/
abbrev oKeep : Memref sig .tc .vmem S32x512 .f32 :=
  oM.slice (Rect.unit (s := S512x512) (k0_off6 c (k0_off6_at s).1 (k0_off6_at s).2.1 (k0_off6_at s).2.2) S32x512.size (k0_off6_inb c s)) (fun _ => rfl)

end Views

/-- The first receive row of slot `t` (`t < 4`) of stream `s`: 160 s + 0, 64, 96, 128. -/
def rRow (s : Fin 4) (t : Fin 6) : Nat := 160 * s.val + (match t with | 0 => 0 | 1 => 64 | 2 => 96 | 3 => 128 | _ => 0)

theorem rRow64_inb (s : Fin 4) : ∀ a, (![rRow s 0, 0] : Fin 2 → Nat) a + S64x512.size a ≤ S640x512.size a := by
  revert s; decide
theorem rRow32_inb (s : Fin 4) (t : Fin 6) (ht : t = 1 ∨ t = 2 ∨ t = 3) : ∀ a, (![rRow s t, 0] : Fin 2 → Nat) a + S32x512.size a ≤ S640x512.size a := by
  revert s t; decide

/-- The receive rows of slot 0 (64 rows) and of slots 1, 2, 3 (32 rows). -/
abbrev rSlot0 (s : Fin 4) : Memref sig .tc .vmem S64x512 .f32 :=
  rM.slice (Rect.unit (s := S640x512) ![rRow s 0, 0] S64x512.size (rRow64_inb s)) (fun _ => rfl)
abbrev rSlot (s : Fin 4) (t : Fin 6) (ht : t = 1 ∨ t = 2 ∨ t = 3) : Memref sig .tc .vmem S32x512 .f32 :=
  rM.slice (Rect.unit (s := S640x512) ![rRow s t, 0] S32x512.size (rRow32_inb s t ht)) (fun _ => rfl)

/-- What the receive buffer of device `c` holds in the end: slot `t` of stream `s` holds the level-`t` rows of the
    partner along the slot's dimension, at the rows `c` keeps. -/
def recvFinal (c : Dev nD) : (cc0_scratch0 : Ref sig .tc).ty.Contents (Elt F) := fun i =>
  let ρr : Nat := (i 0).val
  let s : Fin 4 := ⟨ρr / 160, by have h640 : (i 0).val < 640 := (i 0).isLt; omega⟩
  let o : Nat := ρr % 160
  let t : Fin 6 := if o < 64 then 0 else if o < 96 then 1 else if o < 128 then 2 else 3
  let R : Nat := 128 * s.val + 64 * lbit (dimOf s 0) c + (if o < 64 then o else 32 * lbit (dimOf s 1) c + (o - 64) % 32)
  if h : R < 512 then lvl m ρ t.val (peer s t c) ⟨R, h⟩ (i 1) else lvl m ρ 0 c ⟨0, by decide⟩ (i 1)

/-- The amount a transfer of `n` rows credits: the view's own count. -/
abbrev N64 : ℕ := (rSlot0 0).view.dmaCredit
abbrev N32 : ℕ := (rSlot 0 1 (.inl rfl)).view.dmaCredit
theorem N64_pos : 0 < N64 := View.dmaCredit_pos _ (by decide)
theorem N32_pos : 0 < N32 := View.dmaCredit_pos _ (by decide)

/-- The credit of slot `t`: slots 0 and 5 move 64 rows, the others 32. -/
def slotN (t : Fin 6) : ℕ := if t = 0 ∨ t = 5 then N64 else N32
theorem slotN_pos (t : Fin 6) : 0 < slotN t := by unfold slotN; split; exact N64_pos; exact N32_pos

/-- What `out` of device `c` holds in the end: every row at level 4 of the device of `c`'s square that kept it. -/
def outFinal (c : Dev nD) : (cc0_stg1_0 : Ref sig .tc).ty.Contents (Elt F) := fun i =>
  lvl m ρ 4 (owner ⟨(i 0).val / 128, by have h512 : (i 0).val < 512 := (i 0).isLt; omega⟩ c ((i 0).val % 128)) (i 0) (i 1)

/-! ## The payloads

`own M c q f`: device `c` holds the rows of view `M` of its buffer at share `q` with contents `f`. -/

abbrev own {sh : Shape} (M : Memref sig .tc .vmem sh .f32) (c : Dev nD) (q : PosShare TreeShare)
    (f : Buf (Elt F) (M.view.loc (c : Thread nD τ))) : sProp 𝕄 :=
  M.view.loc (c : Thread nD τ) ↦[M.view.set]{q} f

/-- What landing of slot `t` of stream `s` hands device `c` (the owner of the receive cell): the rows written, at their
    final contents; in slot 1 also the rows of the SENDER's `out` the transfer read (they come back with the landing). -/
def recvPay (c : Dev nD) (s : Fin 4) (t : Fin 6) : sProp 𝕄 :=
  match t with
  | 0 => own (rSlot0 s) c fullShare (recvFinal m ρ c)
  | 1 => iprop(own (rSlot s 1 (.inl rfl)) c fullShare (recvFinal m ρ c)
               ∗ own (oGive (peer s 1 c) s) (peer s 1 c) fullShare (outLvl m ρ 1 (peer s 1 c)))
  | 2 => own (rSlot s 2 (.inr (.inl rfl))) c fullShare (recvFinal m ρ c)
  | 3 => own (rSlot s 3 (.inr (.inr rfl))) c fullShare (recvFinal m ρ c)
  | 4 => own (oKeep (peer s 4 c) s) c fullShare (outFinal m ρ c)
  | 5 => own (oHalf (peer s 5 c) s) c fullShare (outFinal m ρ c)

/-- What the send cell of slot `t` hands back to its own device: the source rows (nothing in slot 1). Slots 4 and 5
    read overlapping rows while both are pending, so they lend halves of shares. -/
def sendPay (c : Dev nD) (s : Fin 4) (t : Fin 6) : sProp 𝕄 :=
  match t with
  | 0 => own (xGive c s) c fullShare (xstg m ρ c)
  | 1 => iprop(emp)
  | 2 => own (oKeep c s) c fullShare (outLvl m ρ 2 c)
  | 3 => own (oKeep c s) c fullShare (outLvl m ρ 3 c)
  | 4 => own (oKeep c s) c fullShare.right (outFinal m ρ c)
  | 5 => own (oHalf c s) c fullShare.left.right (outFinal m ρ c)

/-- What the partner `p` along dimension `b` hands device `c` at the barrier: the rows of `p`'s buffers `c` will write
    — the receive rows of the four slots that go along `b` (slot `k` of stream `dimOf b k`) and the half of stream `b`'s
    rows of `p`'s `out` that slot 5 fills —, at whatever they hold. -/
def barPay (c : Dev nD) (b : Fin 4) : sProp 𝕄 :=
  iprop((∃ f, own (rSlot0 (dimOf b 0)) (partner b c) fullShare f)
      ∗ (∃ f, own (rSlot (dimOf b 1) 1 (.inl rfl)) (partner b c) fullShare f)
      ∗ (∃ f, own (rSlot (dimOf b 2) 2 (.inr (.inl rfl))) (partner b c) fullShare f)
      ∗ (∃ f, own (rSlot (dimOf b 3) 3 (.inr (.inr rfl))) (partner b c) fullShare f)
      ∗ (∃ f, own (oHalf c b) (partner b c) fullShare f))

/-! ## The schedule: one round per cell -/

def cubeRd : Rounds.Schedule (GSem nD τ sig) (Fin 4) 𝕄 where
  duties g r := if r = 0 ∧ g.1.2 = .tc then
      (match kindOf g.2 with | .bar => Finset.univ | .send _ _ => {0} | .recv _ _ => {0} | .other => ∅) else ∅
  unitless _ := False
  amount g _ _ := match kindOf g.2 with | .bar => 1 | .send _ t => slotN t | .recv _ t => slotN t | .other => 1
  payload g _ d := match kindOf g.2 with
    | .bar => barPay g.1.1 d
    | .send s t => sendPay m ρ g.1.1 s t
    | .recv s t => recvPay m ρ g.1.1 s t
    | .other => iprop(emp)
  amount_pos g _ _ _ := by
    cases kindOf g.2 with
    | bar => exact Nat.one_pos
    | send _ t => exact slotN_pos t
    | recv _ t => exact slotN_pos t
    | other => exact Nat.one_pos

end Cert.KernelIdeal.Proto

end
-- ==== Proof.Data.lean ====
/-
  The proof data of the exchange: what each device holds when its body starts and ends, what it owes in the order
  it pays, and the levels that order the waits.

  A device pays, in program order: one unit to each partner's barrier cell (dimensions 0, 1, 2, 3), then one
  transfer per slot, slots in the order (0, s) for s = 0..3, then (1, s), …, (5, s), each to the receive cell of the
  same slot on the partner along the slot's dimension. A barrier cell sits at level 1, the receive cell of slot
  `t` of stream `s` at level `2 + 4 t + s`: when a device waits on a receive cell it has issued every transfer of
  a lower level, so a wait is always below what the waiter still owes.
-/
import proofs.«900484_g7700000000000485_dist_treered_v7x_i16_m512_n512_f32_1_alg».proof.Proof.Sched
import Mathlib.Tactic.DeriveFintype

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells, indexed -/

/-- A device's 49 cells: its barrier cell, and a send and a receive cell per slot. -/
inductive CellK
  | bar
  | send (s : Fin 4) (t : Fin 6)
  | recv (s : Fin 4) (t : Fin 6)
  deriving DecidableEq, Fintype

def csem : CellK → SemLoc sig
  | .bar => .reg barS
  | .send s t => .dma (sendQ s t)
  | .recv s t => .dma (recvQ s t)

abbrev kcell (ck : Dev nD × CellK) : GSem nD τ sig := ((ck.1 : Thread nD τ), csem ck.2)

/-- A slot: stream and position. -/
abbrev Slot : Type := Fin 4 × Fin 6

/-! ## What a device owes, in the order it pays -/

/-- The slots in the order their transfers are issued. -/
def slotOrder : List Slot :=
  [(0,0),(1,0),(2,0),(3,0), (0,1),(1,1),(2,1),(3,1), (0,2),(1,2),(2,2),(3,2),
   (0,3),(1,3),(2,3),(3,3), (0,4),(1,4),(2,4),(3,4), (0,5),(1,5),(2,5),(3,5)]

/-- Device `c`'s payments in program order: the cell paid and the amount. -/
def pays (c : Dev nD) : List (GSem nD τ sig × ℕ) :=
  [(barCell (partner 0 c), 1), (barCell (partner 1 c), 1), (barCell (partner 2 c), 1), (barCell (partner 3 c), 1)]
    ++ slotOrder.map fun st => (recvCell (peer st.1 st.2 c) st.1 st.2, slotN st.2)

/-- What device `c` still owes when it has made its first `k` payments. -/
def owedFrom (c : Dev nD) (k : ℕ) : CellTallies nD τ sig Unit :=
  ((pays c).drop k).foldr (fun p acc => acc + tallyAt p.1 () p.2) 0

/-- What it owes at launch. -/
def O₀ (c : Dev nD) : CellTallies nD τ sig Unit := owedFrom c 0

def L (g : GSem nD τ sig) : Finset Unit := if g.1.2 = .tc then {()} else ∅
/-- Barrier cells at 1, the receive cell of slot `t` of stream `s` at `2 + 4 t + s`, everything else at 0. -/
def lv (g : GSem nD τ sig) (_ : Unit) : ℕ :=
  match kindOf g.2 with | .bar => 1 | .recv s t => 2 + 4 * t.val + s.val | _ => 0

/-! ## The ghost state a device's body starts from -/

/-- The invariants of the cells device `c`'s body opens, at the names `K`: its own 49, its four partners' barrier
    cells, and the receive cell of each slot on the slot's partner. -/
def invs (K : Dev nD × CellK → ℕ) (c : Dev nD) : sProp 𝕄 :=
  iprop((bigSep Finset.univ fun k : CellK => cellInv ER (cubeRd m ρ) (K (c, k)) (kcell (c, k)))
    ∗ (bigSep Finset.univ fun b : Fin 4 => cellInv ER (cubeRd m ρ) (K (partner b c, .bar)) (barCell (partner b c)))
    ∗ (bigSep Finset.univ fun st : Slot => cellInv ER (cubeRd m ρ) (K (peer st.1 st.2 c, .recv st.1 st.2)) (recvCell (peer st.1 st.2 c) st.1 st.2)))

instance invs_persistent (K : Dev nD × CellK → ℕ) (c : Dev nD) : BI.Persistent (invs m ρ K c) := by unfold invs; infer_instance

/-- That every cell the device pays, and each of its own, is at round 0. -/
def marks (c : Dev nD) : sProp 𝕄 :=
  iprop((bigSep Finset.univ fun k : CellK => reached ER (kcell (c, k)) 0)
    ∗ (bigSep Finset.univ fun b : Fin 4 => reached ER (barCell (partner b c)) 0)
    ∗ (bigSep Finset.univ fun st : Slot => reached ER (recvCell (peer st.1 st.2 c) st.1 st.2) 0))

instance marks_persistent (c : Dev nD) : BI.Persistent (marks (F := F) c) := by unfold marks; infer_instance

/-- The duty tokens device `c` pays with: duty `b` of the barrier cell of its partner along `b`; the one duty of the
    receive cell of each slot on the slot's partner; the one duty of each of its own send cells. -/
def payToks (c : Dev nD) : sProp 𝕄 :=
  iprop((bigSep Finset.univ fun b : Fin 4 => dutyTok ER (barCell (partner b c)) 0 b)
    ∗ (bigSep Finset.univ fun st : Slot => dutyTok ER (recvCell (peer st.1 st.2 c) st.1 st.2) 0 (0 : Fin 4))
    ∗ (bigSep Finset.univ fun st : Slot => dutyTok ER (sendCell c st.1 st.2) 0 (0 : Fin 4)))

/-- Its positions: round 0, nothing taken, of each of its own cells. -/
def positions (c : Dev nD) : sProp 𝕄 := bigSep Finset.univ fun k : CellK => atPos ER (kcell (c, k)) 0 ∅ 0

def ghost (K : Dev nD × CellK → ℕ) (c : Dev nD) : sProp 𝕄 :=
  iprop(invs m ρ K c ∗ marks c ∗ positions c ∗ payToks c)

/-- The launch credit of its own cells that others pay: the barrier's four units and each receive cell's amount. -/
def creds (c : Dev nD) : sProp 𝕄 :=
  iprop(cred (tallyAt (barCell c) () 4) ∗ bigSep Finset.univ fun st : Slot => cred (tallyAt (recvCell c st.1 st.2) () (slotN st.2)))

/-- What the body starts from besides its buffers. -/
def start (c : Dev nD) : sProp 𝕄 := iprop((∃ K, ghost m ρ K c) ∗ creds c ∗ levAts L lv)

/-- Before the point: that, and the receive buffer whole at whatever it holds. -/
def Φ₀ (c : Dev nD) : sProp 𝕄 := iprop(start m ρ c ∗ ∃ f, (((c : Thread nD τ).loc cc0_scratch0) ↦{fullShare} f))
/-- After it: the receive buffer whole at its final contents, and the 48 own cells closed, their counters at zero. -/
def Φ₁ (c : Dev nD) : sProp 𝕄 :=
  iprop((((c : Thread nD τ).loc cc0_scratch0) ↦{fullShare} recvFinal m ρ c)
    ∗ bigSep Finset.univ fun st : Slot => iprop(semVal (sendCell c st.1 st.2) 0 ∗ semVal (recvCell c st.1 st.2) 0))

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outFinal m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands the body. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it must return. -/
def bodyPost (c : Dev nD) : sProp 𝕄 :=
  iprop(Φ₁ m ρ c ∗ (dats m ρ 0 c).owesAt () t₀.succ ∗ stg c cc0_stg0_0 (xstg m ρ c) ∗ stg c cc0_stg1_0 (outFinal m ρ c))

end Cert.KernelIdeal.Proto

end
-- ==== Proof.Tables.lean ====
/-
  The tables of the exchange schedule, cell by cell.

  Each device has one barrier cell (four duties of one unit, one per dimension of the cube) and, for each of the
  twenty-four (stream, slot) pairs, a send cell and a receive cell (one duty, of the slot's credit). Every cell has the
  single round 0. Here: the duties, amounts, expected totals and payloads of each kind of cell as rewrite rules, the
  rest of a round no duty of which has been taken, that the semaphores of different cells differ, and the spelling of
  the forty-eight transfer semaphores as entries of the two semaphore arrays.
-/
import proofs.«900484_g7700000000000485_dist_treered_v7x_i16_m512_n512_f32_1_alg».proof.Proof.Sched

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Every payload can be stored in an invariant -/

omit [FloatOps F] in
/-- A region of a buffer held at a share with given contents can be stored, whatever the view. -/
theorem own_storable {sh : Shape} (M : Memref sig .tc .vmem sh .f32) (c : Dev nD) (q : PosShare TreeShare)
    (f : Buf (Elt F) (M.view.loc (c : Thread nD τ))) : BI.Storable (upEmb : UEmb _ 𝕄) (own M c q f) := inferInstance

omit [FloatOps F] in
/-- The same at some contents. -/
theorem ownEx_storable {sh : Shape} (M : Memref sig .tc .vmem sh .f32) (c : Dev nD) (q : PosShare TreeShare) :
    BI.Storable (upEmb : UEmb _ 𝕄) iprop(∃ f, own (F := F) M c q f) := inferInstance

omit [FloatOps F] in
theorem sep_storable {P Q : sProp 𝕄} (hP : BI.Storable (upEmb : UEmb _ 𝕄) P) (hQ : BI.Storable (upEmb : UEmb _ 𝕄) Q) :
    BI.Storable (upEmb : UEmb _ 𝕄) iprop(P ∗ Q) := inferInstance

omit [FloatOps F] in
instance barPay_storable (c : Dev nD) (b : Fin 4) : BI.Storable (upEmb : UEmb _ 𝕄) (barPay (F := F) c b) := by
  unfold barPay
  exact sep_storable (ownEx_storable _ _ _) (sep_storable (ownEx_storable _ _ _) (sep_storable (ownEx_storable _ _ _)
    (sep_storable (ownEx_storable _ _ _) (ownEx_storable _ _ _))))

instance sendPay_storable (c : Dev nD) (s : Fin 4) (t : Fin 6) : BI.Storable (upEmb : UEmb _ 𝕄) (sendPay (F := F) m ρ c s t) := by
  unfold sendPay
  split
  · exact own_storable _ _ _ _
  · infer_instance
  · exact own_storable _ _ _ _
  · exact own_storable _ _ _ _
  · exact own_storable _ _ _ _
  · exact own_storable _ _ _ _

instance recvPay_storable (c : Dev nD) (s : Fin 4) (t : Fin 6) : BI.Storable (upEmb : UEmb _ 𝕄) (recvPay (F := F) m ρ c s t) := by
  unfold recvPay
  split
  · exact own_storable _ _ _ _
  · exact sep_storable (own_storable _ _ _ _) (own_storable _ _ _ _)
  · exact own_storable _ _ _ _
  · exact own_storable _ _ _ _
  · exact own_storable _ _ _ _
  · exact own_storable _ _ _ _

instance payload_storable (g : GSem nD τ sig) (r : ℕ) (d : Fin 4) :
    BI.Storable (upEmb : UEmb _ 𝕄) ((cubeRd (F := F) m ρ).payload g r d) := by
  show BI.Storable upEmb (match kindOf g.2 with
    | .bar => barPay g.1.1 d
    | .send s t => sendPay m ρ g.1.1 s t
    | .recv s t => recvPay m ρ g.1.1 s t
    | .other => iprop(emp))
  split
  · exact barPay_storable _ _
  · exact sendPay_storable m ρ _ _ _
  · exact recvPay_storable m ρ _ _ _
  · infer_instance

/-! ## The semaphores of different cells differ -/

theorem send_ne_recv (s : Fin 4) (t : Fin 6) (s' : Fin 4) (t' : Fin 6) : (SemLoc.dma (sendQ s t) : SemLoc sig) ≠ .dma (recvQ s' t') := by
  revert s t s' t'; decide
theorem recv_ne_send (s : Fin 4) (t : Fin 6) (s' : Fin 4) (t' : Fin 6) : (SemLoc.dma (recvQ s t) : SemLoc sig) ≠ .dma (sendQ s' t') := by
  revert s t s' t'; decide
theorem sendQ_inj (s : Fin 4) (t : Fin 6) (s' : Fin 4) (t' : Fin 6) : sendQ s t = sendQ s' t' → s = s' ∧ t = t' := by
  revert s t s' t'; decide
theorem recvQ_inj (s : Fin 4) (t : Fin 6) (s' : Fin 4) (t' : Fin 6) : recvQ s t = recvQ s' t' → s = s' ∧ t = t' := by
  revert s t s' t'; decide
theorem dma_ne_bar (q : DmaSem sig) : (SemLoc.dma q : SemLoc sig) ≠ .reg barS := fun h => by cases h

/-! ## Duties -/

section Sched

theorem duties_bar (c : Dev nD) : (cubeRd (F := F) m ρ).duties (barCell c) 0 = Finset.univ := by
  dsimp only [cubeRd]; exact if_pos ⟨rfl, rfl⟩
theorem duties_send (c : Dev nD) (s : Fin 4) (t : Fin 6) : (cubeRd (F := F) m ρ).duties (sendCell c s t) 0 = {0} := by
  dsimp only [cubeRd]; rw [kindOf_send]; exact if_pos ⟨rfl, rfl⟩
theorem duties_recv (c : Dev nD) (s : Fin 4) (t : Fin 6) : (cubeRd (F := F) m ρ).duties (recvCell c s t) 0 = {0} := by
  dsimp only [cubeRd]; rw [kindOf_recv]; exact if_pos ⟨rfl, rfl⟩
theorem duties_later (g : GSem nD τ sig) : ∀ r, 1 ≤ r → (cubeRd (F := F) m ρ).duties g r = ∅ :=
  fun r hr => by dsimp only [cubeRd]; rw [if_neg fun h => by omega]

/-! ## Amounts and expected totals -/

theorem amount_bar (c : Dev nD) (d : Fin 4) : (cubeRd (F := F) m ρ).amount (barCell c) 0 d = 1 := rfl
theorem amount_send (c : Dev nD) (s : Fin 4) (t : Fin 6) (d : Fin 4) : (cubeRd (F := F) m ρ).amount (sendCell c s t) 0 d = slotN t := by
  dsimp only [cubeRd]; rw [kindOf_send]
theorem amount_recv (c : Dev nD) (s : Fin 4) (t : Fin 6) (d : Fin 4) : (cubeRd (F := F) m ρ).amount (recvCell c s t) 0 d = slotN t := by
  dsimp only [cubeRd]; rw [kindOf_recv]

theorem expect_bar (c : Dev nD) : (cubeRd (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_send (c : Dev nD) (s : Fin 4) (t : Fin 6) : (cubeRd (F := F) m ρ).expect (sendCell c s t) 0 = slotN t := by
  unfold Schedule.expect Schedule.amountOf; rw [duties_send, Finset.sum_singleton, amount_send]
theorem expect_recv (c : Dev nD) (s : Fin 4) (t : Fin 6) : (cubeRd (F := F) m ρ).expect (recvCell c s t) 0 = slotN t := by
  unfold Schedule.expect Schedule.amountOf; rw [duties_recv, Finset.sum_singleton, amount_recv]

/-! ## Payloads -/

theorem payload_bar (c : Dev nD) (d : Fin 4) : (cubeRd (F := F) m ρ).payload (barCell c) 0 d = barPay c d := rfl
theorem payload_send (c : Dev nD) (s : Fin 4) (t : Fin 6) (d : Fin 4) : (cubeRd (F := F) m ρ).payload (sendCell c s t) 0 d = sendPay m ρ c s t := by
  dsimp only [cubeRd]; rw [kindOf_send]
theorem payload_recv (c : Dev nD) (s : Fin 4) (t : Fin 6) (d : Fin 4) : (cubeRd (F := F) m ρ).payload (recvCell c s t) 0 d = recvPay m ρ c s t := by
  dsimp only [cubeRd]; rw [kindOf_recv]

/-! ## The rest of a round of which no duty has been taken -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The barrier cell's round, no duty taken: the four partners' payloads. -/
theorem rest_bar (c : Dev nD) : bigSep ((cubeRd (F := F) m ρ).duties (barCell c) 0 \ ∅) (fun d => (cubeRd (F := F) m ρ).payload (barCell c) 0 d)
    = iprop(barPay c 0 ∗ barPay c 1 ∗ barPay c 2 ∗ barPay c 3) := by
  rw [Finset.sdiff_empty, duties_bar, bigSep_fin4]
  rfl
theorem rest_send (c : Dev nD) (s : Fin 4) (t : Fin 6) : bigSep ((cubeRd (F := F) m ρ).duties (sendCell c s t) 0 \ ∅) (fun d => (cubeRd (F := F) m ρ).payload (sendCell c s t) 0 d)
    = sendPay m ρ c s t := by
  rw [Finset.sdiff_empty, duties_send, bigSep_singleton, payload_send]
theorem rest_recv (c : Dev nD) (s : Fin 4) (t : Fin 6) : bigSep ((cubeRd (F := F) m ρ).duties (recvCell c s t) 0 \ ∅) (fun d => (cubeRd (F := F) m ρ).payload (recvCell c s t) 0 d)
    = recvPay m ρ c s t := by
  rw [Finset.sdiff_empty, duties_recv, bigSep_singleton, payload_recv]

end Sched

/-! ## The transfer semaphores as the body spells them

Entry `6 s + t` of the first semaphore array is the send semaphore of slot `t` of stream `s`, the same entry of the
second array the receive semaphore. The extent of the one-entry slice is written out (`![1]`, the size of the shape
of one entry); with the shape's size named instead it is the same term up to unfolding. -/

theorem sendSem_eq_0 : ((cc0_scratch1.slice (Rect.unit (s := S24) ![0] ![1] inb_S24_S1_0)).squeeze S_ squeezes_S1_S_).sem = sendQ 0 0 := by decide
theorem sendSem_eq_1 : ((cc0_scratch1.slice (Rect.unit (s := S24) ![1] ![1] inb_S24_S1_1)).squeeze S_ squeezes_S1_S_).sem = sendQ 0 1 := by decide
theorem sendSem_eq_2 : ((cc0_scratch1.slice (Rect.unit (s := S24) ![2] ![1] inb_S24_S1_2)).squeeze S_ squeezes_S1_S_).sem = sendQ 0 2 := by decide
theorem sendSem_eq_3 : ((cc0_scratch1.slice (Rect.unit (s := S24) ![3] ![1] inb_S24_S1_3)).squeeze S_ squeezes_S1_S_).sem = sendQ 0 3 := by decide
theorem sendSem_eq_4 : ((cc0_scratch1.slice (Rect.unit (s := S24) ![4] ![1] inb_S24_S1_4)).squeeze S_ squeezes_S1_S_).sem = sendQ 0 4 := by decide
theorem sendSem_eq_5 : ((cc0_scratch1.slice (Rect.unit (s := S24) ![5] ![1] inb_S24_S1_5)).squeeze S_ squeezes_S1_S_).sem = sendQ 0 5 := by decide
theorem sendSem_eq_6 : ((cc0_scratch1.slice (Rect.unit (s := S24) ![6] ![1] inb_S24_S1_6)).squeeze S_ squeezes_S1_S_).sem = sendQ 1 0 := by decide
theorem sendSem_eq_7 : ((cc0_scratch1.slice (Rect.unit (s := S24) ![7] ![1] inb_S24_S1_7)).squeeze S_ squeezes_S1_S_).sem = sendQ 1 1 := by decide
theorem sendSem_eq_8 : ((cc0_scratch1.slice (Rect.unit (s := S24) ![8] ![1] inb_S24_S1_8)).squeeze S_ squeezes_S1_S_).sem = sendQ 1 2 := by decide
theorem sendSem_eq_9 : ((cc0_scratch1.slice (Rect.unit (s := S24) ![9] ![1] inb_S24_S1_9)).squeeze S_ squeezes_S1_S_).sem = sendQ 1 3 := by decide
theorem sendSem_eq_10 : ((cc0_scratch1.slice (Rect.unit (s := S24) ![10] ![1] inb_S24_S1_10)).squeeze S_ squeezes_S1_S_).sem = sendQ 1 4 := by decide
theorem sendSem_eq_11 : ((cc0_scratch1.slice (Rect.unit (s := S24) ![11] ![1] inb_S24_S1_11)).squeeze S_ squeezes_S1_S_).sem = sendQ 1 5 := by decide
theorem sendSem_eq_12 : ((cc0_scratch1.slice (Rect.unit (s := S24) ![12] ![1] inb_S24_S1_12)).squeeze S_ squeezes_S1_S_).sem = sendQ 2 0 := by decide
theorem sendSem_eq_13 : ((cc0_scratch1.slice (Rect.unit (s := S24) ![13] ![1] inb_S24_S1_13)).squeeze S_ squeezes_S1_S_).sem = sendQ 2 1 := by decide
theorem sendSem_eq_14 : ((cc0_scratch1.slice (Rect.unit (s := S24) ![14] ![1] inb_S24_S1_14)).squeeze S_ squeezes_S1_S_).sem = sendQ 2 2 := by decide
theorem sendSem_eq_15 : ((cc0_scratch1.slice (Rect.unit (s := S24) ![15] ![1] inb_S24_S1_15)).squeeze S_ squeezes_S1_S_).sem = sendQ 2 3 := by decide
theorem sendSem_eq_16 : ((cc0_scratch1.slice (Rect.unit (s := S24) ![16] ![1] inb_S24_S1_16)).squeeze S_ squeezes_S1_S_).sem = sendQ 2 4 := by decide
theorem sendSem_eq_17 : ((cc0_scratch1.slice (Rect.unit (s := S24) ![17] ![1] inb_S24_S1_17)).squeeze S_ squeezes_S1_S_).sem = sendQ 2 5 := by decide
theorem sendSem_eq_18 : ((cc0_scratch1.slice (Rect.unit (s := S24) ![18] ![1] inb_S24_S1_18)).squeeze S_ squeezes_S1_S_).sem = sendQ 3 0 := by decide
theorem sendSem_eq_19 : ((cc0_scratch1.slice (Rect.unit (s := S24) ![19] ![1] inb_S24_S1_19)).squeeze S_ squeezes_S1_S_).sem = sendQ 3 1 := by decide
theorem sendSem_eq_20 : ((cc0_scratch1.slice (Rect.unit (s := S24) ![20] ![1] inb_S24_S1_20)).squeeze S_ squeezes_S1_S_).sem = sendQ 3 2 := by decide
theorem sendSem_eq_21 : ((cc0_scratch1.slice (Rect.unit (s := S24) ![21] ![1] inb_S24_S1_21)).squeeze S_ squeezes_S1_S_).sem = sendQ 3 3 := by decide
theorem sendSem_eq_22 : ((cc0_scratch1.slice (Rect.unit (s := S24) ![22] ![1] inb_S24_S1_22)).squeeze S_ squeezes_S1_S_).sem = sendQ 3 4 := by decide
theorem sendSem_eq_23 : ((cc0_scratch1.slice (Rect.unit (s := S24) ![23] ![1] inb_S24_S1_23)).squeeze S_ squeezes_S1_S_).sem = sendQ 3 5 := by decide

theorem recvSem_eq_0 : ((cc0_scratch2.slice (Rect.unit (s := S24) ![0] ![1] inb_S24_S1_0)).squeeze S_ squeezes_S1_S_).sem = recvQ 0 0 := by decide
theorem recvSem_eq_1 : ((cc0_scratch2.slice (Rect.unit (s := S24) ![1] ![1] inb_S24_S1_1)).squeeze S_ squeezes_S1_S_).sem = recvQ 0 1 := by decide
theorem recvSem_eq_2 : ((cc0_scratch2.slice (Rect.unit (s := S24) ![2] ![1] inb_S24_S1_2)).squeeze S_ squeezes_S1_S_).sem = recvQ 0 2 := by decide
theorem recvSem_eq_3 : ((cc0_scratch2.slice (Rect.unit (s := S24) ![3] ![1] inb_S24_S1_3)).squeeze S_ squeezes_S1_S_).sem = recvQ 0 3 := by decide
theorem recvSem_eq_4 : ((cc0_scratch2.slice (Rect.unit (s := S24) ![4] ![1] inb_S24_S1_4)).squeeze S_ squeezes_S1_S_).sem = recvQ 0 4 := by decide
theorem recvSem_eq_5 : ((cc0_scratch2.slice (Rect.unit (s := S24) ![5] ![1] inb_S24_S1_5)).squeeze S_ squeezes_S1_S_).sem = recvQ 0 5 := by decide
theorem recvSem_eq_6 : ((cc0_scratch2.slice (Rect.unit (s := S24) ![6] ![1] inb_S24_S1_6)).squeeze S_ squeezes_S1_S_).sem = recvQ 1 0 := by decide
theorem recvSem_eq_7 : ((cc0_scratch2.slice (Rect.unit (s := S24) ![7] ![1] inb_S24_S1_7)).squeeze S_ squeezes_S1_S_).sem = recvQ 1 1 := by decide
theorem recvSem_eq_8 : ((cc0_scratch2.slice (Rect.unit (s := S24) ![8] ![1] inb_S24_S1_8)).squeeze S_ squeezes_S1_S_).sem = recvQ 1 2 := by decide
theorem recvSem_eq_9 : ((cc0_scratch2.slice (Rect.unit (s := S24) ![9] ![1] inb_S24_S1_9)).squeeze S_ squeezes_S1_S_).sem = recvQ 1 3 := by decide
theorem recvSem_eq_10 : ((cc0_scratch2.slice (Rect.unit (s := S24) ![10] ![1] inb_S24_S1_10)).squeeze S_ squeezes_S1_S_).sem = recvQ 1 4 := by decide
theorem recvSem_eq_11 : ((cc0_scratch2.slice (Rect.unit (s := S24) ![11] ![1] inb_S24_S1_11)).squeeze S_ squeezes_S1_S_).sem = recvQ 1 5 := by decide
theorem recvSem_eq_12 : ((cc0_scratch2.slice (Rect.unit (s := S24) ![12] ![1] inb_S24_S1_12)).squeeze S_ squeezes_S1_S_).sem = recvQ 2 0 := by decide
theorem recvSem_eq_13 : ((cc0_scratch2.slice (Rect.unit (s := S24) ![13] ![1] inb_S24_S1_13)).squeeze S_ squeezes_S1_S_).sem = recvQ 2 1 := by decide
theorem recvSem_eq_14 : ((cc0_scratch2.slice (Rect.unit (s := S24) ![14] ![1] inb_S24_S1_14)).squeeze S_ squeezes_S1_S_).sem = recvQ 2 2 := by decide
theorem recvSem_eq_15 : ((cc0_scratch2.slice (Rect.unit (s := S24) ![15] ![1] inb_S24_S1_15)).squeeze S_ squeezes_S1_S_).sem = recvQ 2 3 := by decide
theorem recvSem_eq_16 : ((cc0_scratch2.slice (Rect.unit (s := S24) ![16] ![1] inb_S24_S1_16)).squeeze S_ squeezes_S1_S_).sem = recvQ 2 4 := by decide
theorem recvSem_eq_17 : ((cc0_scratch2.slice (Rect.unit (s := S24) ![17] ![1] inb_S24_S1_17)).squeeze S_ squeezes_S1_S_).sem = recvQ 2 5 := by decide
theorem recvSem_eq_18 : ((cc0_scratch2.slice (Rect.unit (s := S24) ![18] ![1] inb_S24_S1_18)).squeeze S_ squeezes_S1_S_).sem = recvQ 3 0 := by decide
theorem recvSem_eq_19 : ((cc0_scratch2.slice (Rect.unit (s := S24) ![19] ![1] inb_S24_S1_19)).squeeze S_ squeezes_S1_S_).sem = recvQ 3 1 := by decide
theorem recvSem_eq_20 : ((cc0_scratch2.slice (Rect.unit (s := S24) ![20] ![1] inb_S24_S1_20)).squeeze S_ squeezes_S1_S_).sem = recvQ 3 2 := by decide
theorem recvSem_eq_21 : ((cc0_scratch2.slice (Rect.unit (s := S24) ![21] ![1] inb_S24_S1_21)).squeeze S_ squeezes_S1_S_).sem = recvQ 3 3 := by decide
theorem recvSem_eq_22 : ((cc0_scratch2.slice (Rect.unit (s := S24) ![22] ![1] inb_S24_S1_22)).squeeze S_ squeezes_S1_S_).sem = recvQ 3 4 := by decide
theorem recvSem_eq_23 : ((cc0_scratch2.slice (Rect.unit (s := S24) ![23] ![1] inb_S24_S1_23)).squeeze S_ squeezes_S1_S_).sem = recvQ 3 5 := by decide

/-- info: 'Cert.KernelIdeal.Proto.payload_storable' depends on axioms: [propext, Classical.choice, Quot.sound] -/
#guard_msgs in #print axioms payload_storable

/-- info: 'Cert.KernelIdeal.Proto.rest_bar' depends on axioms: [propext, Classical.choice, Quot.sound] -/
#guard_msgs in #print axioms rest_bar

end Cert.KernelIdeal.Proto

end
-- ==== Proof.Launch.lean ====
/-
  The launch of the exchange: from the body obligation of every device to the run of the whole program.

  The launch element funds, for each of the sixteen devices, its forty-nine cells (the barrier cell, a send and a
  receive cell per slot) at round 0 and one token per duty: four for the barrier cell, one for each send and each
  receive cell. A token is held by the device that PAYS the duty: duty `b` of a barrier cell by the partner along
  `b`, the duty of the receive cell of slot `t` of stream `s` by the partner along the slot's dimension, the duty of
  a send cell by its own device. Both maps are involutions of the devices, so dealing the tokens is a reindexing.
  The launch credit of a cell is what all devices together owe it: four units at a barrier cell (one from each
  partner), the slot's amount at a receive cell (from the slot's partner alone).
-/
import proofs.«900484_g7700000000000485_dist_treered_v7x_i16_m512_n512_f32_1_alg».proof.Proof.Data
import proofs.«900484_g7700000000000485_dist_treered_v7x_i16_m512_n512_f32_1_alg».proof.Proof.Tables

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! Everything up to the run is set-up of the launch; it lives in its own namespace. -/
namespace LaunchSetup

/-! ## The kernel's own semaphores, and the cells indexed -/

/-- The scoped semaphores the body names besides the staging ones: a send and a receive semaphore per slot. -/
abbrev osem : Slot ⊕ Slot → SemLoc sig :=
  Sum.elim (fun st => .dma (sendQ st.1 st.2)) (fun st => .dma (recvQ st.1 st.2))

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CellK → SemLoc sig) := by
  intro k k' h
  cases k with
  | bar =>
    cases k' with
    | bar => rfl
    | send s' t' => exact absurd h.symm (dma_ne_bar _)
    | recv s' t' => exact absurd h.symm (dma_ne_bar _)
  | send s t =>
    cases k' with
    | bar => exact absurd h (dma_ne_bar _)
    | send s' t' => obtain ⟨rfl, rfl⟩ := sendQ_inj s t s' t' (SemLoc.dma.inj h); rfl
    | recv s' t' => exact absurd h (send_ne_recv s t s' t')
  | recv s t =>
    cases k' with
    | bar => exact absurd h (dma_ne_bar _)
    | send s' t' => exact absurd h (recv_ne_send s t s' t')
    | recv s' t' => obtain ⟨rfl, rfl⟩ := recvQ_inj s t s' t' (SemLoc.dma.inj h); rfl

theorem kcell_injective : Function.Injective (kcell : Dev nD × CellK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's forty-nine cells. -/
def cubeCells : Finset (GSem nD τ sig) := Finset.univ.map ⟨kcell, kcell_injective⟩

/-- The cells of one device as a sum: the barrier cell, the send cells, the receive cells. -/
def cellEquiv : Unit ⊕ (Slot ⊕ Slot) ≃ CellK where
  toFun := fun
    | .inl _ => .bar
    | .inr (.inl st) => .send st.1 st.2
    | .inr (.inr st) => .recv st.1 st.2
  invFun := fun
    | .bar => .inl ()
    | .send s t => .inr (.inl (s, t))
    | .recv s t => .inr (.inr (s, t))
  left_inv := by rintro (_ | _ | _) <;> rfl
  right_inv := by rintro (_ | _ | _) <;> rfl

omit [FloatOps F] in
/-- A conjunction over a device's cells, kind by kind. -/
theorem bigSep_cellK (Φ : CellK → sProp 𝕄) :
    bigSep Finset.univ Φ = iprop(Φ .bar ∗ (bigSep Finset.univ fun st : Slot => Φ (.send st.1 st.2))
      ∗ (bigSep Finset.univ fun st : Slot => Φ (.recv st.1 st.2))) := by
  rw [bigSep_univ_equiv cellEquiv Φ, bigSep_univ_sum, bigSep_univ_sum, bigSep_univ_of_subsingleton ()]
  rfl

/-! ## The duty tokens as minted -/

/-- The duties of one device's cells: the barrier cell's four, one per send cell, one per receive cell. -/
abbrev TokK : Type := Fin 4 ⊕ (Slot ⊕ Slot)

abbrev tokOf (cj : Dev nD × TokK) : GSem nD τ sig × ℕ × Fin 4 := match cj.2 with
  | .inl b => (barCell cj.1, 0, b)
  | .inr (.inl st) => (sendCell cj.1 st.1 st.2, 0, 0)
  | .inr (.inr st) => (recvCell cj.1 st.1 st.2, 0, 0)

theorem tokOf_injective : Function.Injective (tokOf : Dev nD × TokK → GSem nD τ sig × ℕ × Fin 4) := by
  rintro ⟨c, j⟩ ⟨c', j'⟩ h
  have h1 : c = c' := by
    have := congrArg (fun x : GSem nD τ sig × ℕ × Fin 4 => x.1.1.1) h
    rcases j with b | st | st <;> rcases j' with b' | st' | st' <;> exact this
  subst h1
  have hs := congrArg (fun x : GSem nD τ sig × ℕ × Fin 4 => x.1.2) h
  have hd := congrArg (fun x : GSem nD τ sig × ℕ × Fin 4 => x.2.2) h
  rcases j with b | st | st <;> rcases j' with b' | st' | st'
  · have hb : b = b' := hd
    subst hb; rfl
  · exact absurd hs.symm (dma_ne_bar _)
  · exact absurd hs.symm (dma_ne_bar _)
  · exact absurd hs (dma_ne_bar _)
  · have hq := sendQ_inj st.1 st.2 st'.1 st'.2 (SemLoc.dma.inj hs)
    have hst : st = st' := Prod.ext hq.1 hq.2
    subst hst; rfl
  · exact absurd hs (send_ne_recv _ _ _ _)
  · exact absurd hs (dma_ne_bar _)
  · exact absurd hs (recv_ne_send _ _ _ _)
  · have hq := recvQ_inj st.1 st.2 st'.1 st'.2 (SemLoc.dma.inj hs)
    have hst : st = st' := Prod.ext hq.1 hq.2
    subst hst; rfl

def cubeToks : Finset (GSem nD τ sig × ℕ × Fin 4) := Finset.univ.map ⟨tokOf, tokOf_injective⟩

/-- The launch element: the pipeline's own beside the protocol's. -/
def u₀ : UU :=
  (initOf (Pipeline.cells cfgs cellOf_inj) (Pipeline.launchToks cfgs cellOf_inj), initOf cubeCells cubeToks)

/-- The duty tokens of device `c`'s own cells. -/
def toks (c : Dev nD) : sProp 𝕄 :=
  iprop((bigSep Finset.univ fun b : Fin 4 => dutyTok ER (barCell c) 0 b)
    ∗ (bigSep Finset.univ fun st : Slot => dutyTok ER (sendCell c st.1 st.2) 0 (0 : Fin 4))
    ∗ (bigSep Finset.univ fun st : Slot => dutyTok ER (recvCell c st.1 st.2) 0 (0 : Fin 4)))

/-- What the launch element deals device `c`. -/
def G (c : Dev nD) : sProp 𝕄 :=
  iprop((bigSep Finset.univ fun k : CellK => roundState ER (cubeRd m ρ) (kcell (c, k)) 0)
    ∗ (bigSep Finset.univ fun k : CellK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_cube : BI.own (ER (initOf cubeCells cubeToks)) ⊢ (|==> bigSep Finset.univ (G m ρ) : sProp 𝕄) := by
  have hX (Φ : GSem nD τ sig → sProp 𝕄) : bigSep cubeCells Φ = bigSep Finset.univ fun c : Dev nD => bigSep Finset.univ fun k : CellK => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum, bigSep_univ_sum]; rfl
  iintro HX
  imod (Rounds.fund ER (cubeRd m ρ) cubeCells cubeToks) $$ HX with ⟨Hst, Hr, Hat, Htok⟩
  imodintro
  ihave Hst' := (Entails.of_eq (hX fun g => roundState ER (cubeRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the cells' invariants allocated, the tokens dealt to the devices that pay -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun st : Slot => semVal (sendCell c st.1 st.2) 0) ∗ (bigSep Finset.univ fun st : Slot => semVal (recvCell c st.1 st.2) 0)) := by
  unfold Pipeline.ownSems0; rw [bigSep_univ_sum]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellK => semVal (kcell (c, k)) 0 : sProp 𝕄) := by
  rw [ownSems0_eq, unscopedSems0_eq, bigSep_cellK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellK => iprop(∃ κ : ℕ, cellInv ER (cubeRd m ρ) κ (kcell (c, k))))
          ∗ (bigSep Finset.univ fun k : CellK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellK => semVal (kcell (c, k)) 0) ∗ bigSep Finset.univ fun k : CellK => roundState ER (cubeRd m ρ) (kcell (c, k)) 0)
      ⊢ (|={Set.univ}=> bigSep Finset.univ fun k : CellK => iprop(∃ κ : ℕ, cellInv ER (cubeRd m ρ) κ (kcell (c, k))) : sProp 𝕄) from by
        rw [← bigSep_sep']
        exact (bigSep_mono fun k _ => (Rounds.body_intro ER (cubeRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all the cells at the names `K`, and that each is at round 0. -/
def records (K : Dev nD × CellK → ℕ) : sProp 𝕄 :=
  iprop((bigSep Finset.univ fun ck : Dev nD × CellK => cellInv ER (cubeRd m ρ) (K ck) (kcell ck))
    ∗ bigSep Finset.univ fun ck : Dev nD × CellK => reached ER (kcell ck) 0)

instance records_persistent (K : Dev nD × CellK → ℕ) : BI.Persistent (records m ρ K) := by unfold records; infer_instance

theorem inv_at (K : Dev nD × CellK → ℕ) (ck : Dev nD × CellK) :
    (bigSep Finset.univ fun ck : Dev nD × CellK => (cellInv ER (cubeRd m ρ) (K ck) (kcell ck) : sProp 𝕄)) ⊢ cellInv ER (cubeRd m ρ) (K ck) (kcell ck) :=
  bigSep_elim (Finset.mem_univ ck)
omit [FloatOps F] in
theorem reached_at (ck : Dev nD × CellK) :
    (bigSep Finset.univ fun ck : Dev nD × CellK => (reached ER (kcell ck) 0 : sProp 𝕄)) ⊢ reached ER (kcell ck) 0 :=
  bigSep_elim (Finset.mem_univ ck)

/-- Every invariant a device's body opens is one of the records. -/
theorem invs_intro (K : Dev nD × CellK → ℕ) (c : Dev nD) :
    (bigSep Finset.univ fun ck : Dev nD × CellK => (cellInv ER (cubeRd m ρ) (K ck) (kcell ck) : sProp 𝕄)) ⊢ invs m ρ K c := by
  unfold invs
  iintro #HI
  isplitr
  · iapply (show (bigSep Finset.univ fun ck : Dev nD × CellK => (cellInv ER (cubeRd m ρ) (K ck) (kcell ck) : sProp 𝕄))
        ⊢ bigSep Finset.univ fun k : CellK => cellInv ER (cubeRd m ρ) (K (c, k)) (kcell (c, k))
      from BI.bigSep_intro_persistent fun k _ => inv_at m ρ K (c, k))
    iexact HI
  isplitr
  · iapply (show (bigSep Finset.univ fun ck : Dev nD × CellK => (cellInv ER (cubeRd m ρ) (K ck) (kcell ck) : sProp 𝕄))
        ⊢ bigSep Finset.univ fun b : Fin 4 => cellInv ER (cubeRd m ρ) (K (partner b c, .bar)) (barCell (partner b c))
      from BI.bigSep_intro_persistent fun b _ => inv_at m ρ K (partner b c, .bar))
    iexact HI
  · iapply (show (bigSep Finset.univ fun ck : Dev nD × CellK => (cellInv ER (cubeRd m ρ) (K ck) (kcell ck) : sProp 𝕄))
        ⊢ bigSep Finset.univ fun st : Slot => cellInv ER (cubeRd m ρ) (K (peer st.1 st.2 c, .recv st.1 st.2)) (recvCell (peer st.1 st.2 c) st.1 st.2)
      from BI.bigSep_intro_persistent fun st _ => inv_at m ρ K (peer st.1 st.2 c, .recv st.1 st.2))
    iexact HI

omit [FloatOps F] in
/-- Likewise the round-0 marks. -/
theorem marks_intro (c : Dev nD) :
    (bigSep Finset.univ fun ck : Dev nD × CellK => (reached ER (kcell ck) 0 : sProp 𝕄)) ⊢ marks c := by
  unfold marks
  iintro #HR
  isplitr
  · iapply (show (bigSep Finset.univ fun ck : Dev nD × CellK => (reached ER (kcell ck) 0 : sProp 𝕄))
        ⊢ bigSep Finset.univ fun k : CellK => reached ER (kcell (c, k)) 0
      from BI.bigSep_intro_persistent fun k _ => reached_at (F := F) (c, k))
    iexact HR
  isplitr
  · iapply (show (bigSep Finset.univ fun ck : Dev nD × CellK => (reached ER (kcell ck) 0 : sProp 𝕄))
        ⊢ bigSep Finset.univ fun b : Fin 4 => reached ER (barCell (partner b c)) 0
      from BI.bigSep_intro_persistent fun b _ => reached_at (F := F) (partner b c, .bar))
    iexact HR
  · iapply (show (bigSep Finset.univ fun ck : Dev nD × CellK => (reached ER (kcell ck) 0 : sProp 𝕄))
        ⊢ bigSep Finset.univ fun st : Slot => reached ER (recvCell (peer st.1 st.2 c) st.1 st.2) 0
      from BI.bigSep_intro_persistent fun st _ => reached_at (F := F) (peer st.1 st.2 c, .recv st.1 st.2))
    iexact HR

/-- What stays with device `c`: its positions, and the tokens of the duties it pays. -/
abbrev linear (c : Dev nD) : sProp 𝕄 := iprop(positions c ∗ payToks c)

theorem ghost_intro (K : Dev nD × CellK → ℕ) (c : Dev nD) : iprop(records m ρ K ∗ linear c) ⊢ G' m ρ c := by
  unfold records G' ghost
  iintro ⟨⟨#HI, #HR⟩, Hpos, Htok⟩
  iexists K
  isplitr; · iapply (invs_intro m ρ K c); iexact HI
  isplitr; · iapply (marks_intro (F := F) c); iexact HR
  isplitl [Hpos]; · iexact Hpos
  iexact Htok

omit [FloatOps F] in
/-- Duty `b` of every barrier cell goes to the cell's partner along `b`: a reindexing of the devices per dimension. -/
theorem bar_around :
    (bigSep Finset.univ fun c : Dev nD => bigSep Finset.univ fun b : Fin 4 => (dutyTok ER (barCell c) 0 b : sProp 𝕄))
      = bigSep Finset.univ fun c : Dev nD => bigSep Finset.univ fun b : Fin 4 => dutyTok ER (barCell (partner b c)) 0 b :=
  (bigSep_univ_comm (fun (c : Dev nD) (b : Fin 4) => (dutyTok ER (barCell c) 0 b : sProp 𝕄))).trans
    ((bigSep_congr fun b _ => bigSep_univ_equiv (partnerEquiv b) fun c : Dev nD => (dutyTok ER (barCell c) 0 b : sProp 𝕄)).trans
      (bigSep_univ_comm (fun (c : Dev nD) (b : Fin 4) => (dutyTok ER (barCell (partner b c)) 0 b : sProp 𝕄))).symm)

omit [FloatOps F] in
/-- The duty of every receive cell goes to the slot's partner of the cell's device: a reindexing per slot. -/
theorem recv_around :
    (bigSep Finset.univ fun c : Dev nD => bigSep Finset.univ fun st : Slot => (dutyTok ER (recvCell c st.1 st.2) 0 (0 : Fin 4) : sProp 𝕄))
      = bigSep Finset.univ fun c : Dev nD => bigSep Finset.univ fun st : Slot => dutyTok ER (recvCell (peer st.1 st.2 c) st.1 st.2) 0 (0 : Fin 4) :=
  (bigSep_univ_comm (fun (c : Dev nD) (st : Slot) => (dutyTok ER (recvCell c st.1 st.2) 0 (0 : Fin 4) : sProp 𝕄))).trans
    ((bigSep_congr fun st _ => bigSep_univ_equiv (partnerEquiv (dimAt st.1 st.2)) fun c : Dev nD => (dutyTok ER (recvCell c st.1 st.2) 0 (0 : Fin 4) : sProp 𝕄)).trans
      (bigSep_univ_comm (fun (c : Dev nD) (st : Slot) => (dutyTok ER (recvCell (peer st.1 st.2 c) st.1 st.2) 0 (0 : Fin 4) : sProp 𝕄))).symm)

omit [FloatOps F] in
/-- The tokens dealt to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, recv_around]
  iintro ⟨H1, H2, H3⟩
  isplitl [H1]; · iexact H1
  isplitl [H3]; · iexact H3
  iexact H2

theorem regroup :
    (bigSep Finset.univ fun c : Dev nD => iprop((bigSep Finset.univ fun k : CellK => iprop(∃ κ : ℕ, cellInv ER (cubeRd m ρ) κ (kcell (c, k))))
          ∗ (bigSep Finset.univ fun k : CellK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellK => iprop(∃ κ : ℕ, cellInv ER (cubeRd m ρ) κ (kcell ck))),
    bigSep_congr (s := Finset.univ) (fun (c : Dev nD) _ => bigSep_sep' Finset.univ (fun k : CellK => (atPos ER (kcell (c, k)) 0 ∅ 0 : sProp 𝕄)) (fun k => reached ER (kcell (c, k)) 0)),
    bigSep_sep', ← bigSep_univ_prod (fun ck : Dev nD × CellK => (reached ER (kcell ck) 0 : sProp 𝕄))]
  iintro ⟨HI, ⟨Hat, #HR⟩, Htok⟩
  ihave HK := (BI.bigSep_exists_pi Finset.univ (fun (ck : Dev nD × CellK) (κ : ℕ) => (cellInv ER (cubeRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {s s' : Fin 4} {t t' : Fin 6} : Iff (recvCell a s t = recvCell b s' t') (a = b ∧ s = s' ∧ t = t') :=
  ⟨fun h => ⟨Fin.ext (congrArg (fun g : GSem nD τ sig => g.1.1.val) h), recvQ_inj s t s' t' (SemLoc.dma.inj (congrArg Prod.snd h))⟩,
    fun ⟨h1, h2, h3⟩ => by subst h1 h2 h3; rfl⟩
theorem recv_ne_barCell (a b : Dev nD) (s : Fin 4) (t : Fin 6) : recvCell a s t ≠ barCell b := fun h => dma_ne_bar _ (congrArg Prod.snd h)
theorem bar_eq_recv_iff {a b : Dev nD} {s : Fin 4} {t : Fin 6} : Iff (barCell b = recvCell a s t) False :=
  ⟨fun h => recv_ne_barCell a b s t h.symm, False.elim⟩

theorem peer_peer (s : Fin 4) (t : Fin 6) (c : Dev nD) : peer s t (peer s t c) = c := partner_partner _ c
theorem eq_partner_iff (b : Fin 4) (d c : Dev nD) : Iff (partner b d = c) (d = partner b c) :=
  ⟨fun h => by rw [← h, partner_partner], fun h => by rw [h, partner_partner]⟩

/-- A tally summed up payment by payment, read at one cell: the amounts of the payments to that cell. -/
theorem foldr_tally_apply (l : List (GSem nD τ sig × ℕ)) (g : GSem nD τ sig) :
    (l.foldr (fun p acc => acc + tallyAt p.1 () p.2) (0 : CellTallies nD τ sig Unit)) g () = (l.map fun p => if p.1 = g then p.2 else 0).sum := by
  induction l with
  | nil => rfl
  | cons p l ih =>
    rw [List.foldr_cons, Pi.add_apply, Finsupp.add_apply, ih, tallyAt_apply, List.map_cons, List.sum_cons, Nat.add_comm]
    congr 1
    by_cases h : p.1 = g
    · rw [if_pos h, if_pos ⟨h.symm, rfl⟩]
    · rw [if_neg h, if_neg fun h' => h h'.1.symm]

/-- It is positive only at a cell some payment goes to. -/
theorem foldr_tally_pos {l : List (GSem nD τ sig × ℕ)} {g : GSem nD τ sig} {u : Unit}
    (h : 0 < (l.foldr (fun p acc => acc + tallyAt p.1 () p.2) (0 : CellTallies nD τ sig Unit)) g u) : ∃ p ∈ l, g = p.1 := by
  induction l with
  | nil => exact absurd h (Nat.lt_irrefl 0)
  | cons p l ih =>
    rw [List.foldr_cons] at h
    rcases Pipeline.add_pos_cases h with h' | h'
    · obtain ⟨q, hq, rfl⟩ := ih h'; exact ⟨q, List.mem_cons_of_mem _ hq, rfl⟩
    · exact ⟨p, List.mem_cons_self, (Pipeline.tallyAt_pos h').1⟩

theorem owed_eq (d : Dev nD) (g : GSem nD τ sig) : O₀ d g () = ((pays d).map fun p => if p.1 = g then p.2 else 0).sum := by
  unfold O₀ owedFrom; rw [List.drop_zero]; exact foldr_tally_apply _ g

theorem slotOrder_nodup : slotOrder.Nodup := by decide
theorem slotOrder_univ : slotOrder.toFinset = Finset.univ := by decide
theorem sum_slotOrder (f : Slot → ℕ) : (slotOrder.map f).sum = ∑ st : Slot, f st := by
  rw [← List.sum_toFinset f slotOrder_nodup, slotOrder_univ]

/-- What device `d` owes device `c`'s barrier cell: a unit for each dimension along which it is `c`'s partner. -/
theorem owed_bar (d c : Dev nD) : O₀ d (barCell c) () = ∑ b : Fin 4, if d = partner b c then 1 else 0 := by
  have hz : ((slotOrder.map fun st : Slot => ((recvCell (peer st.1 st.2 d) st.1 st.2, slotN st.2) : GSem nD τ sig × ℕ)).map
      fun p : GSem nD τ sig × ℕ => if p.1 = barCell c then p.2 else 0).sum = 0 := by
    refine List.sum_eq_zero fun x hx => ?_
    obtain ⟨p, hp, rfl⟩ := List.mem_map.mp hx
    obtain ⟨st, -, rfl⟩ := List.mem_map.mp hp
    exact if_neg (recv_ne_barCell _ _ _ _)
  rw [owed_eq]; unfold pays
  rw [List.map_append, List.sum_append, hz, Nat.add_zero, Fin.sum_univ_four]
  simp only [List.map_cons, List.map_nil, List.sum_cons, List.sum_nil, Nat.add_zero, bar_eq_iff, eq_partner_iff, Nat.add_assoc]

/-- What it owes the receive cell of slot `t` of stream `s` of device `c`: the slot's amount if it is the slot's partner of `c`. -/
theorem owed_recv (d c : Dev nD) (s : Fin 4) (t : Fin 6) : O₀ d (recvCell c s t) () = if d = peer s t c then slotN t else 0 := by
  have h4 : (([(barCell (partner 0 d), 1), (barCell (partner 1 d), 1), (barCell (partner 2 d), 1), (barCell (partner 3 d), 1)] : List (GSem nD τ sig × ℕ)).map
      fun p => if p.1 = recvCell c s t then p.2 else 0).sum = 0 := by
    simp only [List.map_cons, List.map_nil, List.sum_cons, List.sum_nil, bar_eq_recv_iff, if_false, Nat.add_zero]
  have hterm : ∀ st : Slot, ((fun p : GSem nD τ sig × ℕ => if p.1 = recvCell c s t then p.2 else 0) ∘
        fun st : Slot => ((recvCell (peer st.1 st.2 d) st.1 st.2, slotN st.2) : GSem nD τ sig × ℕ)) st
      = if st = (s, t) then (if d = peer s t c then slotN t else 0) else 0 := by
    rintro ⟨s', t'⟩
    show (if recvCell (peer s' t' d) s' t' = recvCell c s t then slotN t' else 0) = _
    by_cases hst : (s', t') = (s, t)
    · obtain ⟨rfl, rfl⟩ := Prod.mk.inj hst
      rw [if_pos rfl]
      by_cases hd : d = peer s' t' c
      · rw [if_pos hd, if_pos (by rw [hd, peer_peer])]
      · rw [if_neg hd, if_neg fun h => hd (by rw [← (recv_eq_iff.mp h).1, peer_peer])]
    · rw [if_neg hst, if_neg fun h => hst (by obtain ⟨-, h2, h3⟩ := recv_eq_iff.mp h; rw [h2, h3])]
  rw [owed_eq]; unfold pays
  rw [List.map_append, List.sum_append, h4, Nat.zero_add, List.map_map, sum_slotOrder, Finset.sum_congr rfl fun st _ => hterm st,
    Finset.sum_ite_eq' Finset.univ (s, t) fun _ => if d = peer s t c then slotN t else 0, if_pos (Finset.mem_univ _)]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  simp only [Finset.sum_ite_eq', Finset.mem_univ, if_true, Finset.sum_const, Finset.card_univ, Fintype.card_fin, smul_eq_mul, Nat.mul_one]

theorem launch_recv (c : Dev nD) (s : Fin 4) (t : Fin 6) :
    tallyOn (recvCell c s t) (launchCredit (Pipeline.owing O₀) 0 (recvCell c s t)) = (tallyAt (recvCell c s t) () (slotN t) : CellTallies nD τ sig Unit) := by
  unfold tallyAt; refine congrArg _ (Finsupp.ext fun u => ?_); cases u
  rw [Pipeline.launchCredit_owing, Finsupp.single_eq_same, Finset.sum_congr rfl fun d _ => owed_recv d c s t,
    Finset.sum_ite_eq' Finset.univ (peer s t c) fun _ => slotN t, if_pos (Finset.mem_univ _)]

/-- The receive semaphores among a core's semaphores. -/
def recvEmb : Slot ↪ SemLoc sig :=
  ⟨fun st => .dma (recvQ st.1 st.2), fun a b h => Prod.ext (recvQ_inj _ _ _ _ (SemLoc.dma.inj h)).1 (recvQ_inj _ _ _ _ (SemLoc.dma.inj h)).2⟩

omit [FloatOps F] in
/-- A device's launch credit holds the credit of its barrier cell and of each of its receive cells. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) fun sm h => ?_).trans ?_
  · obtain ⟨st, -, rfl⟩ := Finset.mem_map.mp h
    exact Finset.mem_erase.mpr ⟨dma_ne_bar _, Finset.mem_univ _⟩
  · rw [bigSep_map]
    exact bigSep_mono fun st _ => Entails.of_eq (congrArg cred (launch_recv c st.1 st.2))

/-! ## The levels: every wait of the pipeline is below what the device owes -/

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (s : Fin 4) (t : Fin 6) : lv (recvCell c s t) () = 2 + 4 * t.val + s.val := by
  simp only [lv, kindOf_recv]

theorem O₀_pos {c : Dev nD} {g : GSem nD τ sig} {u : Unit} (h : 0 < O₀ c g u) :
    (∃ b : Fin 4, g = barCell (partner b c)) ∨ ∃ st : Slot, g = recvCell (peer st.1 st.2 c) st.1 st.2 := by
  unfold O₀ owedFrom at h; rw [List.drop_zero] at h
  obtain ⟨p, hp, rfl⟩ := foldr_tally_pos h
  unfold pays at hp
  rcases List.mem_append.mp hp with hp | hp
  · simp only [List.mem_cons, List.not_mem_nil, or_false] at hp
    rcases hp with rfl | rfl | rfl | rfl
    exacts [.inl ⟨0, rfl⟩, .inl ⟨1, rfl⟩, .inl ⟨2, rfl⟩, .inl ⟨3, rfl⟩]
  · obtain ⟨st, -, rfl⟩ := List.mem_map.mp hp
    exact .inr ⟨st, rfl⟩

theorem lv_other (c : Dev nD) (q : DmaSem sig) (hq : kindOf (SemLoc.dma q : SemLoc sig) = Kind.other) : lv ((c : Thread nD τ), .dma q) () = 0 := by
  simp only [lv, hq]

omit [FloatOps F] in
/-- A wait on a cell of level 0 is below everything a device owes at launch. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨b, rfl⟩ | ⟨st, rfl⟩ <;> exact Finset.mem_singleton_self _)
      (fun p hp => by rw [Finset.mem_singleton.mp hp]; exact Nat.le_of_eq hq)
      (fun g u hg => by
        cases u
        rcases O₀_pos hg with ⟨b, rfl⟩ | ⟨st, rfl⟩
        · exact Nat.one_pos
        · rw [lv_recv]; omega)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_other c _ (by fin_cases w <;> fin_cases s <;> decide)) _ (by
      rcases t with ⟨_ | _, ht⟩
      · exact Or.inl rfl
      · exact Or.inr rfl)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  rw [bigSep_sep']
  iintro ⟨Hr, HzS, HzV⟩
  isplitr; · iempintro
  isplitl [HzS HzV]
  · isplitl [HzS]; · iexact HzS
    iexact HzV
  iexists (recvFinal m ρ c); iexact Hr

end LaunchSetup

open LaunchSetup

/-! ## The run -/

/-- What every window's array holds on device `c` in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, given the body
    obligation of every device: every weakly fair execution of the program — the sixteen kernels meeting at the barrier,
    then exchanging along the four dimensions of the cube — terminates, and every final state has each device's
    arrays at the contents the proof data names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cube m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array holds in the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array holds in the end what the body leaves in its staging buffer: the one write-back writes the whole array. -/
theorem finalA_out (c : Dev nD) : finalA m ρ c (1 : Fin 2) = outFinal m ρ c := by
  unfold finalA
  rw [show cfg0.N = (t₀ : Fin cfg0.N).val + 1 from rfl, Dat.arrAt_succ, if_pos (flush0_1 _)]
  exact Memref.write_access_unit_zero_univ (Elt F) main_v1 (funext fun a => Nat.zero_mul _) _ _ _

/-- info: 'Cert.KernelIdeal.Proto.finalA_x' depends on axioms: [propext, Classical.choice, Quot.sound] -/
#guard_msgs in #print axioms finalA_x

/-- info: 'Cert.KernelIdeal.Proto.finalA_out' depends on axioms: [propext, Classical.choice, Quot.sound] -/
#guard_msgs in #print axioms finalA_out

/-- info: 'Cert.KernelIdeal.Proto.run_main' depends on axioms: [propext, Classical.choice, Quot.sound] -/
#guard_msgs in #print axioms run_main

end Cert.KernelIdeal.Proto

end
-- ==== Proof.Res.lean ====
/-
  The pieces of the three buffers a stream's slots pass around, under one spelling each.

  Stream `s` of device `c` works on 128 rows of `x` and of `out` and on 160 rows of the receive buffer:
    x    : the given half (slot 0 sends it) and the kept half (slot 0 loads it);
    out  : the kept half = kept quarter + given quarter; the other half of the stream's rows belongs, from the
           barrier on, to the partner along the stream's first dimension, and comes back filled by slot 5;
    recv : one block of rows per slot 0..3, each written once by the slot's partner.
-/
import proofs.«900484_g7700000000000485_dist_treered_v7x_i16_m512_n512_f32_1_alg».proof.Proof.Data

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Pieces
variable (c : Dev nD) (s : Fin 4)

/-- The kept half of stream `s`'s rows of `x` (64 rows, rank 3 as slot 0 loads it). -/
abbrev xKeep : Memref sig .tc .vmem S1x64x512 .f32 :=
  xM.slice (Rect.unit (s := S1x512x512) (k0_off2 c (k0_off2_at s).1 (k0_off2_at s).2) S1x64x512.size (k0_off2_inb c s)) (fun _ => rfl)
/-- The kept half of `out` as slot 0 loads and stores it (the rows of `oHalf`, through the other printed offset). -/
abbrev oHalf' : Memref sig .tc .vmem S64x512 .f32 :=
  oM.slice (Rect.unit (s := S512x512) (k0_off3 c (k0_off3_at s).1 (k0_off3_at s).2) S64x512.size (k0_off3_inb c s)) (fun _ => rfl)
/-- The kept quarter of `out` as slots 1, 2, 3 load and store it (the rows of `oKeep`, through the other printed offset). -/
abbrev oKeep' : Memref sig .tc .vmem S32x512 .f32 :=
  oM.slice (Rect.unit (s := S512x512) (k0_off5 c (k0_off5_at s).1 (k0_off5_at s).2.1 (k0_off5_at s).2.2) S32x512.size (k0_off5_inb c s)) (fun _ => rfl)

/-- `x`: the given half and the kept half, as staged. -/
abbrev XG : sProp 𝕄 := own (xGive c s) c fullShare (xstg m ρ c)
abbrev XK : sProp 𝕄 := own (xKeep c s) c fullShare (xstg m ρ c)
/-- `out`: the kept half, the kept quarter, the given quarter of device `c`, at a share and contents. -/
abbrev OH (q : PosShare TreeShare) (f : Buf (Elt F) (((c : Dev nD) : Thread nD τ).loc cc0_stg1_0)) : sProp 𝕄 := own (oHalf c s) c q f
abbrev OK (q : PosShare TreeShare) (f : Buf (Elt F) (((c : Dev nD) : Thread nD τ).loc cc0_stg1_0)) : sProp 𝕄 := own (oKeep c s) c q f
abbrev OG (q : PosShare TreeShare) (f : Buf (Elt F) (((c : Dev nD) : Thread nD τ).loc cc0_stg1_0)) : sProp 𝕄 := own (oGive c s) c q f
/-- The receive rows of slot `t` on device `c`, landed: at the final contents. -/
abbrev RV0 : sProp 𝕄 := own (rSlot0 s) c fullShare (recvFinal m ρ c)
abbrev RV (t : Fin 6) (ht : t = 1 ∨ t = 2 ∨ t = 3) : sProp 𝕄 := own (rSlot s t ht) c fullShare (recvFinal m ρ c)
/-- The receive rows of slot `t` on the slot's partner, as the barrier handed them over: at whatever they hold. -/
abbrev RP0 : sProp 𝕄 := iprop(∃ f, own (rSlot0 s) (peer s 0 c) fullShare f)
abbrev RP (t : Fin 6) (ht : t = 1 ∨ t = 2 ∨ t = 3) : sProp 𝕄 := iprop(∃ f, own (rSlot s t ht) (peer s t c) fullShare f)
/-- The half of the partner's `out` slot 5 fills, as the barrier handed it over. -/
abbrev OP5 : sProp 𝕄 := iprop(∃ f, own (oHalf c s) (peer s 5 c) fullShare f)

/-- The linear ghost state of slot `t`: the two duty tokens the device pays with, its two positions, and the launch
    credit of its receive cell. -/
def slotGhost (t : Fin 6) : sProp 𝕄 :=
  iprop(dutyTok ER (recvCell (peer s t c) s t) 0 (0 : Fin 4) ∗ dutyTok ER (sendCell c s t) 0 (0 : Fin 4)
    ∗ atPos ER (sendCell c s t) 0 ∅ 0 ∗ atPos ER (recvCell c s t) 0 ∅ 0 ∗ cred (tallyAt (recvCell c s t) () (slotN t)))

end Pieces

/-- The program's monad context of device `c`'s body. -/
abbrev wpC (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.KernelIdeal.Proto

end
-- ==== Proof.Wrap.lean ====
/-
  From the body's run on one device to the run of the whole program, with its values.

  The pipeline asks, of every device, that the kernel's body — called on the two whole staging buffers, the receive
  buffer and the two semaphore arrays — runs from what the proof data says the device then holds to what it says the
  body leaves. Given that, the launch runs the program: every device's result array ends holding what the protocol
  leaves in the result's staging buffer, and its argument array what it held.
-/
import proofs.«900484_g7700000000000485_dist_treered_v7x_i16_m512_n512_f32_1_alg».proof.Proof.Launch
import proofs.«900484_g7700000000000485_dist_treered_v7x_i16_m512_n512_f32_1_alg».proof.Proof.Res

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace LaunchSetup

omit [FloatOps F] in
/-- A whole buffer held at given contents: at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end LaunchSetup

open LaunchSetup

set_option maxRecDepth 20000 in
/-- The pipeline's body obligation on device `c`, from the body's run there. -/
theorem body_obligation (m : (ℓ : Loc nD τ sig) → Buf (Elt F) ℓ) (ρ : Dev nD → PrngReg)
    (hsound : ∀ c : Dev nD, bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c))
    (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c)
  exact hsound c

/-- THE RUN WITH ITS VALUES, at any float instance: from any memory with zero counters, if the body runs on every
    device from what it is handed to what it must return, every weakly fair execution of the program terminates, and
    in every final state each device's result array holds what the protocol leaves in the result's staging buffer
    and its argument array what it held. -/
theorem run_values
    (hsound : ∀ (m : (ℓ : Loc nD τ sig) → Buf (Elt F) ℓ) (ρ : Dev nD → PrngReg) (c : Dev nD), bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outFinal m ρ c
      ∧ r.2.mem ((c.tc : Thread nD τ).loc main_arg0) = m ((c.tc : Thread nD τ).loc main_arg0)) :=
  (θ_run defs _ _).mono (fun _ h c => ⟨(h c 1).trans (finalA_out m ρ c), (h c 0).trans (finalA_x m ρ c)⟩)
    (run_main m ρ (body_obligation m ρ (hsound m ρ)))

/-- The frame: the program runs and every device's argument array ends as it was. -/
theorem frame_of_sound
    (hsound : ∀ (m : (ℓ : Loc nD τ sig) → Buf (Elt F) ℓ) (ρ : Dev nD → PrngReg) (c : Dev nD), bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_values hsound m ρ)

/-- info: 'Cert.KernelIdeal.Proto.body_obligation' depends on axioms: [propext, Classical.choice, Quot.sound] -/
#guard_msgs in #print axioms body_obligation

/-- info: 'Cert.KernelIdeal.Proto.run_values' depends on axioms: [propext, Classical.choice, Quot.sound] -/
#guard_msgs in #print axioms run_values

/-- info: 'Cert.KernelIdeal.Proto.frame_of_sound' depends on axioms: [propext, Classical.choice, Quot.sound] -/
#guard_msgs in #print axioms frame_of_sound

end Cert.KernelIdeal.Proto

end
-- ==== Proof.TreeSum.lean ====
/-
  What the four exchange steps of one stream add up to.

  After `k` steps of stream `s`, device `c` holds the sum of the devices' own values over its SUBCUBE: the `2^k`
  devices reached from `c` by moving along any of the first `k` dimensions the stream visits. The subcube of step
  `k + 1` is the disjoint union of `c`'s subcube of step `k` and that of its partner along the step's dimension;
  after four steps it is every device. So over any commutative additive monoid the value a device ends with is the sum
  of all sixteen values, whatever the stream and whatever the device.
-/
import proofs.«900484_g7700000000000485_dist_treered_v7x_i16_m512_n512_f32_1_alg».proof.Proof.Cube
import Mathlib.Algebra.BigOperators.Group.Finset.Basic
import Mathlib.Data.Fintype.Basic
import Mathlib.Data.Fin.Basic

namespace Cert.TreeSum

open Cert.Cube

/-- The devices whose values device `c` has gathered after `k` steps of stream `s`. -/
def sub (s : Fin 4) : Nat → Fin 16 → Finset (Fin 16)
  | 0, c => {c}
  | k + 1, c => sub s k c ∪ sub s k (partner (dimOf s ⟨k % 4, Nat.mod_lt _ (by decide)⟩) c)

/-- A device's subcube and its partner's, along the next dimension, share no device. -/
theorem sub_disjoint : ∀ (s k : Fin 4) (c : Fin 16),
    Disjoint (sub s k.val c) (sub s k.val (partner (dimOf s ⟨k.val % 4, Nat.mod_lt _ (by decide)⟩) c)) := by
  decide +kernel

/-- After four steps the subcube is the whole cube. -/
theorem sub_four : ∀ (s : Fin 4) (c : Fin 16), sub s 4 c = Finset.univ := by decide +kernel

/-- After `k ≤ 4` steps a device holds the sum over its subcube. -/
theorem acc_eq_sub {M : Type} [AddCommMonoid M] (x : Fin 16 → M) (s : Fin 4) :
    ∀ (k : Nat), k ≤ 4 → ∀ c : Fin 16, acc (· + ·) x s k c = ∑ d ∈ sub s k c, x d
  | 0, _, c => by simp only [acc, sub, Finset.sum_singleton]
  | k + 1, h, c => by
    have hk : k < 4 := by omega
    rw [acc, sub, Finset.sum_union (sub_disjoint s ⟨k, hk⟩ c), acc_eq_sub x s k (by omega) c,
      acc_eq_sub x s k (by omega) _]

/-- Every device ends every stream with the sum of the sixteen values. -/
theorem acc_eq_sum {M : Type} [AddCommMonoid M] (x : Fin 16 → M) (s : Fin 4) (c : Fin 16) :
    acc (· + ·) x s 4 c = ∑ d : Fin 16, x d := by
  rw [acc_eq_sub x s 4 (le_refl 4) c, sub_four s c]

/-- The same at the device that keeps a given row. -/
theorem acc_owner_eq_sum {M : Type} [AddCommMonoid M] (x : Fin 16 → M) (s : Fin 4) (c : Fin 16) (r : Nat) :
    acc (· + ·) x s 4 (owner s c r) = ∑ d : Fin 16, x d :=
  acc_eq_sum x s (owner s c r)

end Cert.TreeSum

/-- info: 'Cert.TreeSum.acc_owner_eq_sum' depends on axioms: [propext, Classical.choice, Quot.sound] -/
#guard_msgs in #print axioms Cert.TreeSum.acc_owner_eq_sum
-- ==== Proof.RefSide.lean ====
/-
  The reference's side of the value, and the bridge to the tree's.

  The reference adds, entry by entry, the sixteen slices of its argument along the first axis: `refSum`. Its run ends
  with its result holding `refSum` of its argument (the zero word it starts the sum from is the extended real 0).
  Device `d`'s argument buffer is slice `d` of that array, so what the tree leaves at an entry — the four exchange
  steps of the entry's stream over the sixteen devices' own entries, read at whichever device keeps the entry's row —
  is, by the sum over the cube, the same `refSum`.
-/
import proofs.«900484_g7700000000000485_dist_treered_v7x_i16_m512_n512_f32_1_alg».proof.Proof.Gen.ReferenceIdeal.Run
import proofs.«900484_g7700000000000485_dist_treered_v7x_i16_m512_n512_f32_1_alg».proof.Proof.Gen.ReferenceIdeal.Read
import proofs.«900484_g7700000000000485_dist_treered_v7x_i16_m512_n512_f32_1_alg».proof.Proof.Cube
import proofs.«900484_g7700000000000485_dist_treered_v7x_i16_m512_n512_f32_1_alg».proof.Proof.TreeSum
import proofs.«900484_g7700000000000485_dist_treered_v7x_i16_m512_n512_f32_1_alg».proof.Proof.Gen.Pre_finite_inputs_ReferenceIdeal
import proofs.«900484_g7700000000000485_dist_treered_v7x_i16_m512_n512_f32_1_alg».proof.Defs
import Idealize.ShloMosaic.Lib.ValueIdx
import Idealize.ShloMosaic.Lib.Layout
import Idealize.ShloMosaic.PureOps.Ideal.Laws

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-- The sum of the sixteen slices, entry by entry. -/
def refSum (X : S16x512x512.Idx → EReal) : S512x512.Idx → EReal :=
  fun i => ∑ d : Fin 16, X (ix3 d (i 0 : Fin 512) (i 1 : Fin 512))

theorem refSum_apply (X : S16x512x512.Idx → EReal) (i : S512x512.Idx) :
    refSum X i = ∑ d : Fin 16, X (ix3 d (i 0 : Fin 512) (i 1 : Fin 512)) := rfl

/-- The index the reference's sum reads slice `k` at, by coordinates. -/
theorem idx_main_v0_eq (i : S512x512.Idx) (k : Fin 16) :
    Read.idx_main_v0 i k = ix3 k (i 0 : Fin 512) (i 1 : Fin 512) := by
  funext a; match a with | ⟨0, _⟩ => rfl | ⟨1, _⟩ => rfl | ⟨2, _⟩ => rfl

/-- The reference's one stage is the sum of the slices. -/
theorem ref_stage (X : (⟨S16x512x512, .f32⟩ : BufTy).Contents (Elt Ideal)) :
    Read.val_main_v0 (F := Ideal) X = refSum X := by
  funext i
  rw [Read.val_main_v0_apply, Read.val_main_cst_apply]
  show Ideal.ofBits .f32 0x00000000#32 + _ = _
  rw [Ideal.ofBits_zero_f32, zero_add]
  exact Finset.sum_congr rfl fun k _ => congrArg X (idx_main_v0_eq i k)

/-- The term the reference's run states for its result is the sum of the slices. -/
theorem ref_val (X : (⟨S16x512x512, .f32⟩ : BufTy).Contents (Elt Ideal)) :
    Host.reduceAdd (F := Ideal) X (constant S_ .f32 0x00000000#32) reducesTo_S16x512x512_S512x512_d0 h_S_ = refSum X :=
  (Read.val_main_v0_eq (F := Ideal) X).trans (ref_stage X)

/-- The reference's run, its result named: it ends holding the sum of the slices of its argument, the argument
    unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = refSum (m ((c.tc : Thread nD τ).loc main_arg0))
      ∧ r.2.mem ((c.tc : Thread nD τ).loc main_arg0) = m ((c.tc : Thread nD τ).loc main_arg0) :=
  (θ_run defs _ _).mono (fun _ h c => ⟨(h c).1.trans (ref_val _), (h c).2⟩)
    (Cert.ReferenceIdeal.Value.run (F := Ideal) m ρ)

/-- The reference runs and leaves its argument as it found it. -/
theorem ref_frame : Cert.frame_ReferenceIdeal :=
  fun m ρ _ => (θ_run Cert.ReferenceIdeal.defs _ _).mono (fun _ h c => (h c).2)
    (Cert.ReferenceIdeal.Value.run (F := Ideal) m ρ)

/-- Entry `(0, r, l)` of slice `c` is entry `(c, r, l)` of the whole array. -/
theorem block_entry (X : S16x512x512.Idx → EReal) (c : Fin 16) (r : Fin 512) (l : Fin 512) :
    (Layout.block ⟨3, ![1, 512, 512]⟩ ⟨3, ![16, 512, 512]⟩ 0 16 c X) (ix3 (0 : Fin 1) r l) = X (ix3 c r l) := by
  rw [Layout.block_apply]
  refine congrArg X (funext fun a => Fin.ext ?_)
  rw [Layout.Tiles.idx_val]
  match a with
  | ⟨0, _⟩ => simp
  | ⟨1, _⟩ => simp
  | ⟨2, _⟩ => simp

/-- What the tree leaves at an entry on device `c`, from the devices' own blocks `xs`: the entry's row `i 0` lies in
    stream `i 0 / 128`, at row `i 0 % 128` of it; the value is the stream's four exchange steps over the sixteen
    devices' entries, as held by the device of `c`'s square that keeps that row. -/
def treeOut (xs : Fin 16 → (Cert.KernelIdeal.S1x512x512.Idx → EReal)) (c : Fin 16) :
    Cert.KernelIdeal.S512x512.Idx → EReal :=
  fun i => Cert.Cube.acc (· + ·) (fun d => xs d (ix3 (0 : Fin 1) (i 0 : Fin 512) (i 1 : Fin 512)))
    ⟨(i 0).val / 128, by have := idx2_lt0 i; omega⟩ 4
    (Cert.Cube.owner ⟨(i 0).val / 128, by have := idx2_lt0 i; omega⟩ c ((i 0).val % 128))

/-- When the devices' blocks are the slices of one array, the tree leaves the sum of the slices on every device. -/
theorem treeOut_block (X : S16x512x512.Idx → EReal) (c : Fin 16) :
    treeOut (fun d => Layout.block ⟨3, ![1, 512, 512]⟩ ⟨3, ![16, 512, 512]⟩ 0 16 d X) c = refSum X := by
  funext i
  exact (Cert.TreeSum.acc_owner_eq_sum _ _ _ _).trans
    (Finset.sum_congr rfl fun d _ => block_entry X d (i 0) (i 1))

end Cert.RefSide

end

/-- info: 'Cert.RefSide.treeOut_block' depends on axioms: [propext, Classical.choice, Quot.sound] -/
#guard_msgs in #print axioms Cert.RefSide.treeOut_block
/-- info: 'Cert.RefSide.ref_run' depends on axioms: [propext, Classical.choice, Quot.sound] -/
#guard_msgs in #print axioms Cert.RefSide.ref_run
-- ==== Proof.ValueBridge.lean ====
/-
  From the protocol's final contents to the reference's sum.

  Each device's staging buffer of the argument holds the device's whole block (the one window is the whole array at
  block index 0). What the protocol leaves in a device's result at an entry is the entry's stream's four exchange
  steps over those sixteen blocks, read at the device that keeps the entry's row; at the extended reals the exchange's
  addition is `+`. When the blocks are the sixteen slices of one array, that is the sum of the slices: the reference's
  result.
-/
import proofs.«900484_g7700000000000485_dist_treered_v7x_i16_m512_n512_f32_1_alg».proof.Proof.Sched
import proofs.«900484_g7700000000000485_dist_treered_v7x_i16_m512_n512_f32_1_alg».proof.Proof.RefSide
import proofs.«900484_g7700000000000485_dist_treered_v7x_i16_m512_n512_f32_1_alg».proof.Proof.TreeSum
import proofs.«900484_g7700000000000485_dist_treered_v7x_i16_m512_n512_f32_1_alg».proof.Defs

noncomputable section

namespace Cert.KernelIdeal.ValueBridge

open Cert.KernelIdeal Cert.KernelIdeal.Gen Cert.Cube
open Idealize.ShloMosaic Idealize.ShloMosaic.TcCoe Idealize.SL.Sem

/-- A device's staged block of the argument is its argument buffer as launched: the window's one block is the whole
    array. For every float instance. -/
theorem xstg_eq {F : FTy → Type} [FloatOps F] (m : (ℓ : Loc nD τ sig) → Buf (Elt F) ℓ) (ρ : Dev nD → PrngReg)
    (d : Dev nD) : Proto.xstg (F := F) m ρ d = m ((d : Thread nD τ).loc main_arg0) := by
  unfold Proto.xstg
  exact Memref.read_access_unit_zero (Elt F) main_arg0 (funext fun a => Nat.zero_mul _) _ _

/-- At the extended reals the protocol's final contents are the tree's output over the staged blocks. -/
theorem outFinal_eq_treeOut (m : (ℓ : Loc nD τ sig) → Buf (Elt Ideal) ℓ) (ρ : Dev nD → PrngReg) (c : Dev nD) :
    Proto.outFinal (F := Ideal) m ρ c = Cert.RefSide.treeOut (fun d => Proto.xstg (F := Ideal) m ρ d) c := rfl

/-- When every device's argument buffer is its slice of one array `X`, every device's result ends as the sum of the
    sixteen slices of `X`. -/
theorem outFinal_eq_refSum (m : (ℓ : Loc nD τ sig) → Buf (Elt Ideal) ℓ) (ρ : Dev nD → PrngReg)
    (X : Cert.ReferenceIdeal.S16x512x512.Idx → EReal)
    (hX : ∀ d : Dev nD, m ((d.tc : Thread nD τ).loc main_arg0)
      = Layout.block ⟨3, ![1, 512, 512]⟩ ⟨3, ![16, 512, 512]⟩ 0 16 d X)
    (c : Dev nD) : Proto.outFinal (F := Ideal) m ρ c = Cert.RefSide.refSum X := by
  rw [outFinal_eq_treeOut]
  have hx : (fun d : Dev nD => Proto.xstg (F := Ideal) m ρ d)
      = fun d => Layout.block ⟨3, ![1, 512, 512]⟩ ⟨3, ![16, 512, 512]⟩ 0 16 d X :=
    funext fun d => (xstg_eq m ρ d).trans (hX d)
  rw [hx]
  exact Cert.RefSide.treeOut_block X c

end Cert.KernelIdeal.ValueBridge

end

/-- info: 'Cert.KernelIdeal.ValueBridge.outFinal_eq_refSum' depends on axioms: [propext, Classical.choice, Quot.sound] -/
#guard_msgs in #print axioms Cert.KernelIdeal.ValueBridge.outFinal_eq_refSum
-- ==== Proof.Claims.lean ====
/-
  The value claim against the reference, from the body's run.

  At the extended reals, with every device's argument buffer its slice of the reference's argument array, what the
  protocol leaves in every device's result is the sum of the sixteen slices: the value the reference's run ends
  holding. Both programs run, and both leave their arguments as they found them.
-/
import proofs.«900484_g7700000000000485_dist_treered_v7x_i16_m512_n512_f32_1_alg».proof.Proof.Wrap
import proofs.«900484_g7700000000000485_dist_treered_v7x_i16_m512_n512_f32_1_alg».proof.Proof.ValueBridge
import proofs.«900484_g7700000000000485_dist_treered_v7x_i16_m512_n512_f32_1_alg».proof.Proof.RefSide
import proofs.«900484_g7700000000000485_dist_treered_v7x_i16_m512_n512_f32_1_alg».proof.Proof.Gen.Pre_finite_inputs_Kernel
import proofs.«900484_g7700000000000485_dist_treered_v7x_i16_m512_n512_f32_1_alg».proof.Defs

noncomputable section

namespace Cert.KernelIdeal.Claims

open Cert.KernelIdeal Cert.KernelIdeal.Gen Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The kernel at the extended reals runs and leaves every device's argument array as it was. -/
theorem frame_of_sound_ideal
    (hsound : ∀ (m : (ℓ : Loc nD τ sig) → Buf (Elt Ideal) ℓ) (ρ : Dev nD → PrngReg) (c : Dev nD), bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c)) :
    Cert.frame_KernelIdeal :=
  fun m ρ _ => Proto.frame_of_sound (F := Ideal) hsound m ρ

/-- The kernel on sixteen devices against the reference on one: every device's result ends as the reference's, the sum
    of the sixteen slices of the reference's argument. -/
theorem algebraic_of_sound
    (hsound : ∀ (m : (ℓ : Loc nD τ sig) → Buf (Elt Ideal) ℓ) (ρ : Dev nD → PrngReg) (c : Dev nD), bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c)) :
    Cert.algebraic_KernelIdeal_ReferenceIdeal :=
  fun m ρ m' ρ' _ hagree =>
    ⟨Cert.RefSide.refSum (m' (((0 : Dev Cert.ReferenceIdeal.nD).tc : Thread Cert.ReferenceIdeal.nD Cert.ReferenceIdeal.τ).loc Cert.ReferenceIdeal.main_arg0)),
      (θ_run defs _ _).mono
        (fun _ h c => ⟨(h c).1.trans (Cert.KernelIdeal.ValueBridge.outFinal_eq_refSum m ρ _ hagree c), (h c).2⟩)
        (Proto.run_values (F := Ideal) hsound m ρ),
      (θ_run Cert.ReferenceIdeal.defs _ _).mono (fun _ h => h 0) (Cert.RefSide.ref_run m' ρ')⟩

end Cert.KernelIdeal.Claims

end

/-- info: 'Cert.KernelIdeal.Claims.frame_of_sound_ideal' depends on axioms: [propext, Classical.choice, Quot.sound] -/
#guard_msgs in #print axioms Cert.KernelIdeal.Claims.frame_of_sound_ideal

/-- info: 'Cert.KernelIdeal.Claims.algebraic_of_sound' depends on axioms: [propext, Classical.choice, Quot.sound] -/
#guard_msgs in #print axioms Cert.KernelIdeal.Claims.algebraic_of_sound
-- ==== Proof.Stream.lean ====
/-
  A stream's progress as a sequence of phases.

  Stream `s` of device `c` passes through 22 resource-changing steps (in its own order: the six transfers, their
  receive waits, the four stores, the send waits); `StreamSt c s g p` is what the device holds of the stream after
  the first `p` of them — duty tokens not yet spent, positions, credits, and the pieces of the three buffers with
  their contents. `g` is what `out` held at entry.
-/
import proofs.«900484_g7700000000000485_dist_treered_v7x_i16_m512_n512_f32_1_alg».proof.Proof.Res

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Phases
variable (c : Dev nD) (s : Fin 4) (g : Buf (Elt F) (((c : Dev nD) : Thread nD τ).loc cc0_stg1_0))

/-- After the barrier, before the stream's first transfer. -/
def StreamSt0 : sProp 𝕄 :=
  iprop(dutyTok ER (recvCell (peer s 0 c) s 0) 0 (0 : Fin 4)
    ∗ dutyTok ER (sendCell c s 0) 0 (0 : Fin 4)
    ∗ atPos ER (sendCell c s 0) 0 ∅ 0
    ∗ atPos ER (recvCell c s 0) 0 ∅ 0
    ∗ cred (tallyAt (recvCell c s 0) () (slotN 0))
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XG m ρ c s
    ∗ XK m ρ c s
    ∗ own (oHalf' c s) c fullShare g
    ∗ RP0 c s
    ∗ RP c s 1 (.inl rfl)
    ∗ RP c s 2 (.inr (.inl rfl))
    ∗ RP c s 3 (.inr (.inr rfl))
    ∗ OP5 c s)

/-- After step 1 (ENQ0). -/
def StreamSt1 : sProp 𝕄 :=
  iprop(atPos ER (sendCell c s 0) 0 ∅ 0
    ∗ atPos ER (recvCell c s 0) 0 ∅ 0
    ∗ cred (tallyAt (recvCell c s 0) () (slotN 0))
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ own (oHalf' c s) c fullShare g
    ∗ RP c s 1 (.inl rfl)
    ∗ RP c s 2 (.inr (.inl rfl))
    ∗ RP c s 3 (.inr (.inr rfl))
    ∗ OP5 c s
    ∗ cred (tallyAt (sendCell c s 0) () (slotN 0)))

/-- After step 2 (WAITR0). -/
def StreamSt2 : sProp 𝕄 :=
  iprop(atPos ER (sendCell c s 0) 0 ∅ 0
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ own (oHalf' c s) c fullShare g
    ∗ RP c s 1 (.inl rfl)
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s)

/-- After step 3 (STORE0). -/
def StreamSt3 : sProp 𝕄 :=
  iprop(atPos ER (sendCell c s 0) 0 ∅ 0
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 1 (.inl rfl)
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ own (oHalf' c s) c fullShare (outLvl m ρ 1 c))

/-- After step 4 (ENQ1). -/
def StreamSt4 : sProp 𝕄 :=
  iprop(atPos ER (sendCell c s 0) 0 ∅ 0
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ own (oKeep' c s) c fullShare (outLvl m ρ 1 c))

/-- After step 5 (WAITR1). -/
def StreamSt5 : sProp 𝕄 :=
  iprop(atPos ER (sendCell c s 0) 0 ∅ 0
    ∗ atPos ER (sendCell c s 1) 0 ∅ 0
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ own (oKeep' c s) c fullShare (outLvl m ρ 1 c)
    ∗ atPos ER (recvCell c s 1) (0 + 1) ∅ 0
    ∗ RV m ρ c s 1 (.inl rfl)
    ∗ own (oGive (peer s 1 c) s) (peer s 1 c) fullShare (outLvl m ρ 1 (peer s 1 c)))

/-- After step 6 (STORE1). -/
def StreamSt6 : sProp 𝕄 :=
  iprop(atPos ER (sendCell c s 0) 0 ∅ 0
    ∗ atPos ER (sendCell c s 1) 0 ∅ 0
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ own (oKeep' c s) c fullShare (outLvl m ρ 2 c))

/-- After step 7 (ENQ2). -/
def StreamSt7 : sProp 𝕄 :=
  iprop(atPos ER (sendCell c s 0) 0 ∅ 0
    ∗ atPos ER (sendCell c s 1) 0 ∅ 0
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ cred (tallyAt (sendCell c s 2) () (slotN 2)))

/-- After step 8 (WAITS2). -/
def StreamSt8 : sProp 𝕄 :=
  iprop(atPos ER (sendCell c s 0) 0 ∅ 0
    ∗ atPos ER (sendCell c s 1) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ own (oKeep' c s) c fullShare (outLvl m ρ 2 c))

/-- After step 9 (WAITR2). -/
def StreamSt9 : sProp 𝕄 :=
  iprop(atPos ER (sendCell c s 0) 0 ∅ 0
    ∗ atPos ER (sendCell c s 1) 0 ∅ 0
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ own (oKeep' c s) c fullShare (outLvl m ρ 2 c)
    ∗ atPos ER (recvCell c s 2) (0 + 1) ∅ 0
    ∗ RV m ρ c s 2 (.inr (.inl rfl)))

/-- After step 10 (STORE2). -/
def StreamSt10 : sProp 𝕄 :=
  iprop(atPos ER (sendCell c s 0) 0 ∅ 0
    ∗ atPos ER (sendCell c s 1) 0 ∅ 0
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ own (oKeep' c s) c fullShare (outLvl m ρ 3 c))

/-- After step 11 (ENQ3). -/
def StreamSt11 : sProp 𝕄 :=
  iprop(atPos ER (sendCell c s 0) 0 ∅ 0
    ∗ atPos ER (sendCell c s 1) 0 ∅ 0
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ cred (tallyAt (sendCell c s 3) () (slotN 3)))

/-- After step 12 (WAITS3). -/
def StreamSt12 : sProp 𝕄 :=
  iprop(atPos ER (sendCell c s 0) 0 ∅ 0
    ∗ atPos ER (sendCell c s 1) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ own (oKeep' c s) c fullShare (outLvl m ρ 3 c))

/-- After step 13 (WAITR3). -/
def StreamSt13 : sProp 𝕄 :=
  iprop(atPos ER (sendCell c s 0) 0 ∅ 0
    ∗ atPos ER (sendCell c s 1) 0 ∅ 0
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ own (oKeep' c s) c fullShare (outLvl m ρ 3 c)
    ∗ atPos ER (recvCell c s 3) (0 + 1) ∅ 0
    ∗ RV m ρ c s 3 (.inr (.inr rfl)))

/-- After step 14 (STORE3). -/
def StreamSt14 : sProp 𝕄 :=
  iprop(atPos ER (sendCell c s 0) 0 ∅ 0
    ∗ atPos ER (sendCell c s 1) 0 ∅ 0
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ own (oKeep' c s) c fullShare (outLvl m ρ 4 c))

/-- After step 15 (ENQ4). -/
def StreamSt15 : sProp 𝕄 :=
  iprop(atPos ER (sendCell c s 0) 0 ∅ 0
    ∗ atPos ER (sendCell c s 1) 0 ∅ 0
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ own (oKeep c s) c fullShare.left (outFinal m ρ c))

/-- After step 16 (WAITR4). -/
def StreamSt16 : sProp 𝕄 :=
  iprop(atPos ER (sendCell c s 0) 0 ∅ 0
    ∗ atPos ER (sendCell c s 1) 0 ∅ 0
    ∗ atPos ER (sendCell c s 4) 0 ∅ 0
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ own (oKeep c s) c fullShare.left (outFinal m ρ c)
    ∗ atPos ER (recvCell c s 4) (0 + 1) ∅ 0
    ∗ own (oGive c s) c fullShare (outFinal m ρ c))

/-- After step 17 (ENQ5). -/
def StreamSt17 : sProp 𝕄 :=
  iprop(atPos ER (sendCell c s 0) 0 ∅ 0
    ∗ atPos ER (sendCell c s 1) 0 ∅ 0
    ∗ atPos ER (sendCell c s 4) 0 ∅ 0
    ∗ atPos ER (sendCell c s 5) 0 ∅ 0
    ∗ atPos ER (recvCell c s 5) 0 ∅ 0
    ∗ cred (tallyAt (recvCell c s 5) () (slotN 5))
    ∗ XK m ρ c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c))

/-- After step 18 (WAITR5). -/
def StreamSt18 : sProp 𝕄 :=
  iprop(atPos ER (sendCell c s 0) 0 ∅ 0
    ∗ atPos ER (sendCell c s 1) 0 ∅ 0
    ∗ atPos ER (sendCell c s 4) 0 ∅ 0
    ∗ atPos ER (sendCell c s 5) 0 ∅ 0
    ∗ XK m ρ c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c))

/-- After step 19 (WAITS0). -/
def StreamSt19 : sProp 𝕄 :=
  iprop(atPos ER (sendCell c s 1) 0 ∅ 0
    ∗ atPos ER (sendCell c s 4) 0 ∅ 0
    ∗ atPos ER (sendCell c s 5) 0 ∅ 0
    ∗ XK m ρ c s
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c)
    ∗ atPos ER (sendCell c s 0) (0 + 1) ∅ 0
    ∗ XG m ρ c s)

/-- After step 20 (WAITS1). -/
def StreamSt20 : sProp 𝕄 :=
  iprop(atPos ER (sendCell c s 4) 0 ∅ 0
    ∗ atPos ER (sendCell c s 5) 0 ∅ 0
    ∗ XK m ρ c s
    ∗ atPos ER (recvCell c s 0) (0 + 1) ∅ 0
    ∗ RV0 m ρ c s
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c)
    ∗ atPos ER (sendCell c s 0) (0 + 1) ∅ 0
    ∗ XG m ρ c s
    ∗ atPos ER (sendCell c s 1) (0 + 1) ∅ 0)

/-- After step 21 (WAITS4). -/
def StreamSt21 : sProp 𝕄 :=
  iprop(atPos ER (sendCell c s 5) 0 ∅ 0
    ∗ XK m ρ c s
    ∗ atPos ER (recvCell c s 0) (0 + 1) ∅ 0
    ∗ RV0 m ρ c s
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c)
    ∗ atPos ER (sendCell c s 0) (0 + 1) ∅ 0
    ∗ XG m ρ c s
    ∗ atPos ER (sendCell c s 1) (0 + 1) ∅ 0
    ∗ atPos ER (sendCell c s 4) (0 + 1) ∅ 0
    ∗ own (oKeep c s) c fullShare.right (outFinal m ρ c))

/-- After step 22 (WAITS5). -/
def StreamSt22 : sProp 𝕄 :=
  iprop(XK m ρ c s
    ∗ atPos ER (recvCell c s 0) (0 + 1) ∅ 0
    ∗ RV0 m ρ c s
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ atPos ER (recvCell c s 4) (0 + 1) ∅ 0
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c)
    ∗ atPos ER (sendCell c s 0) (0 + 1) ∅ 0
    ∗ XG m ρ c s
    ∗ atPos ER (sendCell c s 1) (0 + 1) ∅ 0
    ∗ atPos ER (sendCell c s 4) (0 + 1) ∅ 0
    ∗ own (oKeep c s) c fullShare.right (outFinal m ρ c)
    ∗ atPos ER (sendCell c s 5) (0 + 1) ∅ 0
    ∗ own (oHalf c s) c fullShare.left.right (outFinal m ρ c))

end Phases

end Cert.KernelIdeal.Proto

end
-- ==== Proof.PartsDefs.lean ====
/-
  What stays fixed, and what is shared by the four streams, between the printed parts of the body.
-/
import proofs.«900484_g7700000000000485_dist_treered_v7x_i16_m512_n512_f32_1_alg».proof.Proof.Stream

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The persistent part of a device's ghost state: the invariants, the reached marks, the levels. -/
abbrev Pers (K : Dev nD × CellK → ℕ) (c : Dev nD) : sProp 𝕄 := iprop(invs m ρ K c ∗ marks c ∗ levAts L lv)

/-- What the device still owes after its first `k` payments, with whatever waits it has recorded. -/
abbrev GSt (c : Dev nD) (k : ℕ) : sProp 𝕄 := iprop(∃ W, owes (c : Thread nD τ) (owedFrom c k) W)

end Cert.KernelIdeal.Proto

end
-- ==== Proof.Chains.lean ====
/-
  Closed forms of the device chains and of the row offsets the program computes.

  Each device a signal or a copy addresses is computed by the program as a chain of 32-bit integer operations on
  the device's own number: its label (group of four kept, place in the group Gray-coded), one bit of the label
  flipped, and the label read back as a device number. Over the sixteen devices each chain is the hypercube partner
  along one dimension: the four barrier signals go along dimensions 0, 1, 2, 3, and the copy of slot `t` of stream
  `s` goes along dimension `s xor k` with `k = 0, 1, 2, 3, 1, 0` for `t = 0, …, 5`.

  Each row offset is likewise a chain ending in `lo + 64 * b₀ + 32 * b₁`-like sums, `lo = 128 * s` the stream's first
  row, `b₀`, `b₁` the label's bits along the stream's first and second dimension: the half given away and the half
  kept at the first step, the quarter given away and the quarter kept at the second, and the kept half again when
  the quarters are gathered back.

  Everything is decided by evaluation over the sixteen devices (and the four streams).
-/
import proofs.«900484_g7700000000000485_dist_treered_v7x_i16_m512_n512_f32_1_alg».proof.Proof.Gen.KernelIdeal
import proofs.«900484_g7700000000000485_dist_treered_v7x_i16_m512_n512_f32_1_alg».proof.Proof.Cube

set_option Elab.async false

namespace Cert.KernelIdeal.Chains

open Cert.KernelIdeal
open Cert.KernelIdeal.Gen
open Cert.Cube Idealize.ShloMosaic

/-! ## The devices addressed

`k0_dev1 … k0_dev4` are the barrier signals, one per dimension; `k0_dev(5 + 4 t + s)` is the copy of slot `t`
(`t = 0 … 5`) of stream `s` (`s = 0 … 3`). -/

/-- The barrier signal along dimension 0. -/
theorem k0_dev1_eq : ∀ c : Dev nD, k0_dev1 c = (partner 0 c).val := by decide +kernel
/-- The barrier signal along dimension 1. -/
theorem k0_dev2_eq : ∀ c : Dev nD, k0_dev2 c = (partner 1 c).val := by decide +kernel
/-- The barrier signal along dimension 2. -/
theorem k0_dev3_eq : ∀ c : Dev nD, k0_dev3 c = (partner 2 c).val := by decide +kernel
/-- The barrier signal along dimension 3. -/
theorem k0_dev4_eq : ∀ c : Dev nD, k0_dev4 c = (partner 3 c).val := by decide +kernel
/-- Slot 0, stream 0: dimension 0 xor 0 = 0. -/
theorem k0_dev5_eq : ∀ c : Dev nD, k0_dev5 c = (partner 0 c).val := by decide +kernel
/-- Slot 0, stream 1: dimension 1 xor 0 = 1. -/
theorem k0_dev6_eq : ∀ c : Dev nD, k0_dev6 c = (partner 1 c).val := by decide +kernel
/-- Slot 0, stream 2: dimension 2 xor 0 = 2. -/
theorem k0_dev7_eq : ∀ c : Dev nD, k0_dev7 c = (partner 2 c).val := by decide +kernel
/-- Slot 0, stream 3: dimension 3 xor 0 = 3. -/
theorem k0_dev8_eq : ∀ c : Dev nD, k0_dev8 c = (partner 3 c).val := by decide +kernel
/-- Slot 1, stream 0: dimension 0 xor 1 = 1. -/
theorem k0_dev9_eq : ∀ c : Dev nD, k0_dev9 c = (partner 1 c).val := by decide +kernel
/-- Slot 1, stream 1: dimension 1 xor 1 = 0. -/
theorem k0_dev10_eq : ∀ c : Dev nD, k0_dev10 c = (partner 0 c).val := by decide +kernel
/-- Slot 1, stream 2: dimension 2 xor 1 = 3. -/
theorem k0_dev11_eq : ∀ c : Dev nD, k0_dev11 c = (partner 3 c).val := by decide +kernel
/-- Slot 1, stream 3: dimension 3 xor 1 = 2. -/
theorem k0_dev12_eq : ∀ c : Dev nD, k0_dev12 c = (partner 2 c).val := by decide +kernel
/-- Slot 2, stream 0: dimension 0 xor 2 = 2. -/
theorem k0_dev13_eq : ∀ c : Dev nD, k0_dev13 c = (partner 2 c).val := by decide +kernel
/-- Slot 2, stream 1: dimension 1 xor 2 = 3. -/
theorem k0_dev14_eq : ∀ c : Dev nD, k0_dev14 c = (partner 3 c).val := by decide +kernel
/-- Slot 2, stream 2: dimension 2 xor 2 = 0. -/
theorem k0_dev15_eq : ∀ c : Dev nD, k0_dev15 c = (partner 0 c).val := by decide +kernel
/-- Slot 2, stream 3: dimension 3 xor 2 = 1. -/
theorem k0_dev16_eq : ∀ c : Dev nD, k0_dev16 c = (partner 1 c).val := by decide +kernel
/-- Slot 3, stream 0: dimension 0 xor 3 = 3. -/
theorem k0_dev17_eq : ∀ c : Dev nD, k0_dev17 c = (partner 3 c).val := by decide +kernel
/-- Slot 3, stream 1: dimension 1 xor 3 = 2. -/
theorem k0_dev18_eq : ∀ c : Dev nD, k0_dev18 c = (partner 2 c).val := by decide +kernel
/-- Slot 3, stream 2: dimension 2 xor 3 = 1. -/
theorem k0_dev19_eq : ∀ c : Dev nD, k0_dev19 c = (partner 1 c).val := by decide +kernel
/-- Slot 3, stream 3: dimension 3 xor 3 = 0. -/
theorem k0_dev20_eq : ∀ c : Dev nD, k0_dev20 c = (partner 0 c).val := by decide +kernel
/-- Slot 4, stream 0: dimension 0 xor 1 = 1. -/
theorem k0_dev21_eq : ∀ c : Dev nD, k0_dev21 c = (partner 1 c).val := by decide +kernel
/-- Slot 4, stream 1: dimension 1 xor 1 = 0. -/
theorem k0_dev22_eq : ∀ c : Dev nD, k0_dev22 c = (partner 0 c).val := by decide +kernel
/-- Slot 4, stream 2: dimension 2 xor 1 = 3. -/
theorem k0_dev23_eq : ∀ c : Dev nD, k0_dev23 c = (partner 3 c).val := by decide +kernel
/-- Slot 4, stream 3: dimension 3 xor 1 = 2. -/
theorem k0_dev24_eq : ∀ c : Dev nD, k0_dev24 c = (partner 2 c).val := by decide +kernel
/-- Slot 5, stream 0: dimension 0 xor 0 = 0. -/
theorem k0_dev25_eq : ∀ c : Dev nD, k0_dev25 c = (partner 0 c).val := by decide +kernel
/-- Slot 5, stream 1: dimension 1 xor 0 = 1. -/
theorem k0_dev26_eq : ∀ c : Dev nD, k0_dev26 c = (partner 1 c).val := by decide +kernel
/-- Slot 5, stream 2: dimension 2 xor 0 = 2. -/
theorem k0_dev27_eq : ∀ c : Dev nD, k0_dev27 c = (partner 2 c).val := by decide +kernel
/-- Slot 5, stream 3: dimension 3 xor 0 = 3. -/
theorem k0_dev28_eq : ∀ c : Dev nD, k0_dev28 c = (partner 3 c).val := by decide +kernel

/-! The same as equations between devices: the device the program builds from its chain and the bound on it is
the partner. -/

theorem dev1_eq (c : Dev nD) : (⟨k0_dev1 c, k0_dev1_lt c⟩ : Dev nD) = partner 0 c := Fin.ext (k0_dev1_eq c)
theorem dev2_eq (c : Dev nD) : (⟨k0_dev2 c, k0_dev2_lt c⟩ : Dev nD) = partner 1 c := Fin.ext (k0_dev2_eq c)
theorem dev3_eq (c : Dev nD) : (⟨k0_dev3 c, k0_dev3_lt c⟩ : Dev nD) = partner 2 c := Fin.ext (k0_dev3_eq c)
theorem dev4_eq (c : Dev nD) : (⟨k0_dev4 c, k0_dev4_lt c⟩ : Dev nD) = partner 3 c := Fin.ext (k0_dev4_eq c)
theorem dev5_eq (c : Dev nD) : (⟨k0_dev5 c, k0_dev5_lt c⟩ : Dev nD) = partner 0 c := Fin.ext (k0_dev5_eq c)
theorem dev6_eq (c : Dev nD) : (⟨k0_dev6 c, k0_dev6_lt c⟩ : Dev nD) = partner 1 c := Fin.ext (k0_dev6_eq c)
theorem dev7_eq (c : Dev nD) : (⟨k0_dev7 c, k0_dev7_lt c⟩ : Dev nD) = partner 2 c := Fin.ext (k0_dev7_eq c)
theorem dev8_eq (c : Dev nD) : (⟨k0_dev8 c, k0_dev8_lt c⟩ : Dev nD) = partner 3 c := Fin.ext (k0_dev8_eq c)
theorem dev9_eq (c : Dev nD) : (⟨k0_dev9 c, k0_dev9_lt c⟩ : Dev nD) = partner 1 c := Fin.ext (k0_dev9_eq c)
theorem dev10_eq (c : Dev nD) : (⟨k0_dev10 c, k0_dev10_lt c⟩ : Dev nD) = partner 0 c := Fin.ext (k0_dev10_eq c)
theorem dev11_eq (c : Dev nD) : (⟨k0_dev11 c, k0_dev11_lt c⟩ : Dev nD) = partner 3 c := Fin.ext (k0_dev11_eq c)
theorem dev12_eq (c : Dev nD) : (⟨k0_dev12 c, k0_dev12_lt c⟩ : Dev nD) = partner 2 c := Fin.ext (k0_dev12_eq c)
theorem dev13_eq (c : Dev nD) : (⟨k0_dev13 c, k0_dev13_lt c⟩ : Dev nD) = partner 2 c := Fin.ext (k0_dev13_eq c)
theorem dev14_eq (c : Dev nD) : (⟨k0_dev14 c, k0_dev14_lt c⟩ : Dev nD) = partner 3 c := Fin.ext (k0_dev14_eq c)
theorem dev15_eq (c : Dev nD) : (⟨k0_dev15 c, k0_dev15_lt c⟩ : Dev nD) = partner 0 c := Fin.ext (k0_dev15_eq c)
theorem dev16_eq (c : Dev nD) : (⟨k0_dev16 c, k0_dev16_lt c⟩ : Dev nD) = partner 1 c := Fin.ext (k0_dev16_eq c)
theorem dev17_eq (c : Dev nD) : (⟨k0_dev17 c, k0_dev17_lt c⟩ : Dev nD) = partner 3 c := Fin.ext (k0_dev17_eq c)
theorem dev18_eq (c : Dev nD) : (⟨k0_dev18 c, k0_dev18_lt c⟩ : Dev nD) = partner 2 c := Fin.ext (k0_dev18_eq c)
theorem dev19_eq (c : Dev nD) : (⟨k0_dev19 c, k0_dev19_lt c⟩ : Dev nD) = partner 1 c := Fin.ext (k0_dev19_eq c)
theorem dev20_eq (c : Dev nD) : (⟨k0_dev20 c, k0_dev20_lt c⟩ : Dev nD) = partner 0 c := Fin.ext (k0_dev20_eq c)
theorem dev21_eq (c : Dev nD) : (⟨k0_dev21 c, k0_dev21_lt c⟩ : Dev nD) = partner 1 c := Fin.ext (k0_dev21_eq c)
theorem dev22_eq (c : Dev nD) : (⟨k0_dev22 c, k0_dev22_lt c⟩ : Dev nD) = partner 0 c := Fin.ext (k0_dev22_eq c)
theorem dev23_eq (c : Dev nD) : (⟨k0_dev23 c, k0_dev23_lt c⟩ : Dev nD) = partner 3 c := Fin.ext (k0_dev23_eq c)
theorem dev24_eq (c : Dev nD) : (⟨k0_dev24 c, k0_dev24_lt c⟩ : Dev nD) = partner 2 c := Fin.ext (k0_dev24_eq c)
theorem dev25_eq (c : Dev nD) : (⟨k0_dev25 c, k0_dev25_lt c⟩ : Dev nD) = partner 0 c := Fin.ext (k0_dev25_eq c)
theorem dev26_eq (c : Dev nD) : (⟨k0_dev26 c, k0_dev26_lt c⟩ : Dev nD) = partner 1 c := Fin.ext (k0_dev26_eq c)
theorem dev27_eq (c : Dev nD) : (⟨k0_dev27 c, k0_dev27_lt c⟩ : Dev nD) = partner 2 c := Fin.ext (k0_dev27_eq c)
theorem dev28_eq (c : Dev nD) : (⟨k0_dev28 c, k0_dev28_lt c⟩ : Dev nD) = partner 3 c := Fin.ext (k0_dev28_eq c)

/-! And with the dimension written as the stream's `k`-th: `dimOf s k = s xor k`. -/

theorem dev5_eq_dimOf (c : Dev nD) : (⟨k0_dev5 c, k0_dev5_lt c⟩ : Dev nD) = partner (dimOf 0 0) c := dev5_eq c
theorem dev6_eq_dimOf (c : Dev nD) : (⟨k0_dev6 c, k0_dev6_lt c⟩ : Dev nD) = partner (dimOf 1 0) c := dev6_eq c
theorem dev7_eq_dimOf (c : Dev nD) : (⟨k0_dev7 c, k0_dev7_lt c⟩ : Dev nD) = partner (dimOf 2 0) c := dev7_eq c
theorem dev8_eq_dimOf (c : Dev nD) : (⟨k0_dev8 c, k0_dev8_lt c⟩ : Dev nD) = partner (dimOf 3 0) c := dev8_eq c
theorem dev9_eq_dimOf (c : Dev nD) : (⟨k0_dev9 c, k0_dev9_lt c⟩ : Dev nD) = partner (dimOf 0 1) c := dev9_eq c
theorem dev10_eq_dimOf (c : Dev nD) : (⟨k0_dev10 c, k0_dev10_lt c⟩ : Dev nD) = partner (dimOf 1 1) c := dev10_eq c
theorem dev11_eq_dimOf (c : Dev nD) : (⟨k0_dev11 c, k0_dev11_lt c⟩ : Dev nD) = partner (dimOf 2 1) c := dev11_eq c
theorem dev12_eq_dimOf (c : Dev nD) : (⟨k0_dev12 c, k0_dev12_lt c⟩ : Dev nD) = partner (dimOf 3 1) c := dev12_eq c
theorem dev13_eq_dimOf (c : Dev nD) : (⟨k0_dev13 c, k0_dev13_lt c⟩ : Dev nD) = partner (dimOf 0 2) c := dev13_eq c
theorem dev14_eq_dimOf (c : Dev nD) : (⟨k0_dev14 c, k0_dev14_lt c⟩ : Dev nD) = partner (dimOf 1 2) c := dev14_eq c
theorem dev15_eq_dimOf (c : Dev nD) : (⟨k0_dev15 c, k0_dev15_lt c⟩ : Dev nD) = partner (dimOf 2 2) c := dev15_eq c
theorem dev16_eq_dimOf (c : Dev nD) : (⟨k0_dev16 c, k0_dev16_lt c⟩ : Dev nD) = partner (dimOf 3 2) c := dev16_eq c
theorem dev17_eq_dimOf (c : Dev nD) : (⟨k0_dev17 c, k0_dev17_lt c⟩ : Dev nD) = partner (dimOf 0 3) c := dev17_eq c
theorem dev18_eq_dimOf (c : Dev nD) : (⟨k0_dev18 c, k0_dev18_lt c⟩ : Dev nD) = partner (dimOf 1 3) c := dev18_eq c
theorem dev19_eq_dimOf (c : Dev nD) : (⟨k0_dev19 c, k0_dev19_lt c⟩ : Dev nD) = partner (dimOf 2 3) c := dev19_eq c
theorem dev20_eq_dimOf (c : Dev nD) : (⟨k0_dev20 c, k0_dev20_lt c⟩ : Dev nD) = partner (dimOf 3 3) c := dev20_eq c
theorem dev21_eq_dimOf (c : Dev nD) : (⟨k0_dev21 c, k0_dev21_lt c⟩ : Dev nD) = partner (dimOf 0 1) c := dev21_eq c
theorem dev22_eq_dimOf (c : Dev nD) : (⟨k0_dev22 c, k0_dev22_lt c⟩ : Dev nD) = partner (dimOf 1 1) c := dev22_eq c
theorem dev23_eq_dimOf (c : Dev nD) : (⟨k0_dev23 c, k0_dev23_lt c⟩ : Dev nD) = partner (dimOf 2 1) c := dev23_eq c
theorem dev24_eq_dimOf (c : Dev nD) : (⟨k0_dev24 c, k0_dev24_lt c⟩ : Dev nD) = partner (dimOf 3 1) c := dev24_eq c
theorem dev25_eq_dimOf (c : Dev nD) : (⟨k0_dev25 c, k0_dev25_lt c⟩ : Dev nD) = partner (dimOf 0 0) c := dev25_eq c
theorem dev26_eq_dimOf (c : Dev nD) : (⟨k0_dev26 c, k0_dev26_lt c⟩ : Dev nD) = partner (dimOf 1 0) c := dev26_eq c
theorem dev27_eq_dimOf (c : Dev nD) : (⟨k0_dev27 c, k0_dev27_lt c⟩ : Dev nD) = partner (dimOf 2 0) c := dev27_eq c
theorem dev28_eq_dimOf (c : Dev nD) : (⟨k0_dev28 c, k0_dev28_lt c⟩ : Dev nD) = partner (dimOf 3 0) c := dev28_eq c

/-! ## The row offsets

Stream `r` owns rows `128 r … 128 r + 127`; `k0_offJ_at r` lists the constants the `r`-th access passes: the stream's
first row and its first (and second) dimension. -/

/-- The first step's source in the device's block: the half of the stream's 128 rows given away, the one the device's bit along the stream's first dimension does NOT select. -/
theorem k0_off1_eq : ∀ (c : Dev nD) (r : Fin 4), k0_off1 c (k0_off1_at r).1 (k0_off1_at r).2 = ![0, 128 * r.val + 64 * (1 - lbit (dimOf r 0) c), 0] := by decide +kernel
/-- The half kept at the first step, read from the device's block. -/
theorem k0_off2_eq : ∀ (c : Dev nD) (r : Fin 4), k0_off2 c (k0_off2_at r).1 (k0_off2_at r).2 = ![0, 128 * r.val + 64 * lbit (dimOf r 0) c, 0] := by decide +kernel
/-- The half kept at the first step, in the result. -/
theorem k0_off3_eq : ∀ (c : Dev nD) (r : Fin 4), k0_off3 c (k0_off3_at r).1 (k0_off3_at r).2 = ![128 * r.val + 64 * lbit (dimOf r 0) c, 0] := by decide +kernel
/-- The second step's source: of the kept half, the quarter given away. -/
theorem k0_off4_eq : ∀ (c : Dev nD) (r : Fin 4), k0_off4 c (k0_off4_at r).1 (k0_off4_at r).2.1 (k0_off4_at r).2.2 = ![128 * r.val + 64 * lbit (dimOf r 0) c + 32 * (1 - lbit (dimOf r 1) c), 0] := by decide +kernel
/-- The quarter kept at the second step (as the loads and stores index it). -/
theorem k0_off5_eq : ∀ (c : Dev nD) (r : Fin 4), k0_off5 c (k0_off5_at r).1 (k0_off5_at r).2.1 (k0_off5_at r).2.2 = ![128 * r.val + 64 * lbit (dimOf r 0) c + 32 * lbit (dimOf r 1) c, 0] := by decide +kernel
/-- The kept quarter again (as the slices of the later copies take it): the same rows as `k0_off5`. -/
theorem k0_off6_eq : ∀ (c : Dev nD) (r : Fin 4), k0_off6 c (k0_off6_at r).1 (k0_off6_at r).2.1 (k0_off6_at r).2.2 = ![128 * r.val + 64 * lbit (dimOf r 0) c + 32 * lbit (dimOf r 1) c, 0] := by decide +kernel
/-- The kept half again, once the quarters are gathered back: the last step's source and destination. -/
theorem k0_off7_eq : ∀ (c : Dev nD) (r : Fin 4), k0_off7 c (k0_off7_at r).1 (k0_off7_at r).2.1 (k0_off7_at r).2.2 = ![128 * r.val + 64 * lbit (dimOf r 0) c, 0] := by decide +kernel

/-! The same at each stream, with the constants as the program writes them. -/

theorem k0_off1_eq_s0 (c : Dev nD) : k0_off1 c 0#32 0#32 = ![0, 128 * (0 : Fin 4).val + 64 * (1 - lbit (dimOf (0 : Fin 4) 0) c), 0] := k0_off1_eq c 0
theorem k0_off1_eq_s1 (c : Dev nD) : k0_off1 c 128#32 1#32 = ![0, 128 * (1 : Fin 4).val + 64 * (1 - lbit (dimOf (1 : Fin 4) 0) c), 0] := k0_off1_eq c 1
theorem k0_off1_eq_s2 (c : Dev nD) : k0_off1 c 256#32 2#32 = ![0, 128 * (2 : Fin 4).val + 64 * (1 - lbit (dimOf (2 : Fin 4) 0) c), 0] := k0_off1_eq c 2
theorem k0_off1_eq_s3 (c : Dev nD) : k0_off1 c 384#32 3#32 = ![0, 128 * (3 : Fin 4).val + 64 * (1 - lbit (dimOf (3 : Fin 4) 0) c), 0] := k0_off1_eq c 3
theorem k0_off2_eq_s0 (c : Dev nD) : k0_off2 c 0#32 0#32 = ![0, 128 * (0 : Fin 4).val + 64 * lbit (dimOf (0 : Fin 4) 0) c, 0] := k0_off2_eq c 0
theorem k0_off2_eq_s1 (c : Dev nD) : k0_off2 c 128#32 1#32 = ![0, 128 * (1 : Fin 4).val + 64 * lbit (dimOf (1 : Fin 4) 0) c, 0] := k0_off2_eq c 1
theorem k0_off2_eq_s2 (c : Dev nD) : k0_off2 c 256#32 2#32 = ![0, 128 * (2 : Fin 4).val + 64 * lbit (dimOf (2 : Fin 4) 0) c, 0] := k0_off2_eq c 2
theorem k0_off2_eq_s3 (c : Dev nD) : k0_off2 c 384#32 3#32 = ![0, 128 * (3 : Fin 4).val + 64 * lbit (dimOf (3 : Fin 4) 0) c, 0] := k0_off2_eq c 3
theorem k0_off3_eq_s0 (c : Dev nD) : k0_off3 c 0#32 0#32 = ![128 * (0 : Fin 4).val + 64 * lbit (dimOf (0 : Fin 4) 0) c, 0] := k0_off3_eq c 0
theorem k0_off3_eq_s1 (c : Dev nD) : k0_off3 c 128#32 1#32 = ![128 * (1 : Fin 4).val + 64 * lbit (dimOf (1 : Fin 4) 0) c, 0] := k0_off3_eq c 1
theorem k0_off3_eq_s2 (c : Dev nD) : k0_off3 c 256#32 2#32 = ![128 * (2 : Fin 4).val + 64 * lbit (dimOf (2 : Fin 4) 0) c, 0] := k0_off3_eq c 2
theorem k0_off3_eq_s3 (c : Dev nD) : k0_off3 c 384#32 3#32 = ![128 * (3 : Fin 4).val + 64 * lbit (dimOf (3 : Fin 4) 0) c, 0] := k0_off3_eq c 3
theorem k0_off4_eq_s0 (c : Dev nD) : k0_off4 c 0#32 0#32 1#32 = ![128 * (0 : Fin 4).val + 64 * lbit (dimOf (0 : Fin 4) 0) c + 32 * (1 - lbit (dimOf (0 : Fin 4) 1) c), 0] := k0_off4_eq c 0
theorem k0_off4_eq_s1 (c : Dev nD) : k0_off4 c 128#32 1#32 0#32 = ![128 * (1 : Fin 4).val + 64 * lbit (dimOf (1 : Fin 4) 0) c + 32 * (1 - lbit (dimOf (1 : Fin 4) 1) c), 0] := k0_off4_eq c 1
theorem k0_off4_eq_s2 (c : Dev nD) : k0_off4 c 256#32 2#32 3#32 = ![128 * (2 : Fin 4).val + 64 * lbit (dimOf (2 : Fin 4) 0) c + 32 * (1 - lbit (dimOf (2 : Fin 4) 1) c), 0] := k0_off4_eq c 2
theorem k0_off4_eq_s3 (c : Dev nD) : k0_off4 c 384#32 3#32 2#32 = ![128 * (3 : Fin 4).val + 64 * lbit (dimOf (3 : Fin 4) 0) c + 32 * (1 - lbit (dimOf (3 : Fin 4) 1) c), 0] := k0_off4_eq c 3
theorem k0_off5_eq_s0 (c : Dev nD) : k0_off5 c 0#32 0#32 1#32 = ![128 * (0 : Fin 4).val + 64 * lbit (dimOf (0 : Fin 4) 0) c + 32 * lbit (dimOf (0 : Fin 4) 1) c, 0] := k0_off5_eq c 0
theorem k0_off5_eq_s1 (c : Dev nD) : k0_off5 c 128#32 1#32 0#32 = ![128 * (1 : Fin 4).val + 64 * lbit (dimOf (1 : Fin 4) 0) c + 32 * lbit (dimOf (1 : Fin 4) 1) c, 0] := k0_off5_eq c 1
theorem k0_off5_eq_s2 (c : Dev nD) : k0_off5 c 256#32 2#32 3#32 = ![128 * (2 : Fin 4).val + 64 * lbit (dimOf (2 : Fin 4) 0) c + 32 * lbit (dimOf (2 : Fin 4) 1) c, 0] := k0_off5_eq c 2
theorem k0_off5_eq_s3 (c : Dev nD) : k0_off5 c 384#32 3#32 2#32 = ![128 * (3 : Fin 4).val + 64 * lbit (dimOf (3 : Fin 4) 0) c + 32 * lbit (dimOf (3 : Fin 4) 1) c, 0] := k0_off5_eq c 3
theorem k0_off6_eq_s0 (c : Dev nD) : k0_off6 c 0#32 0#32 1#32 = ![128 * (0 : Fin 4).val + 64 * lbit (dimOf (0 : Fin 4) 0) c + 32 * lbit (dimOf (0 : Fin 4) 1) c, 0] := k0_off6_eq c 0
theorem k0_off6_eq_s1 (c : Dev nD) : k0_off6 c 128#32 1#32 0#32 = ![128 * (1 : Fin 4).val + 64 * lbit (dimOf (1 : Fin 4) 0) c + 32 * lbit (dimOf (1 : Fin 4) 1) c, 0] := k0_off6_eq c 1
theorem k0_off6_eq_s2 (c : Dev nD) : k0_off6 c 256#32 2#32 3#32 = ![128 * (2 : Fin 4).val + 64 * lbit (dimOf (2 : Fin 4) 0) c + 32 * lbit (dimOf (2 : Fin 4) 1) c, 0] := k0_off6_eq c 2
theorem k0_off6_eq_s3 (c : Dev nD) : k0_off6 c 384#32 3#32 2#32 = ![128 * (3 : Fin 4).val + 64 * lbit (dimOf (3 : Fin 4) 0) c + 32 * lbit (dimOf (3 : Fin 4) 1) c, 0] := k0_off6_eq c 3
theorem k0_off7_eq_s0 (c : Dev nD) : k0_off7 c 0#32 0#32 1#32 = ![128 * (0 : Fin 4).val + 64 * lbit (dimOf (0 : Fin 4) 0) c, 0] := k0_off7_eq c 0
theorem k0_off7_eq_s1 (c : Dev nD) : k0_off7 c 128#32 1#32 0#32 = ![128 * (1 : Fin 4).val + 64 * lbit (dimOf (1 : Fin 4) 0) c, 0] := k0_off7_eq c 1
theorem k0_off7_eq_s2 (c : Dev nD) : k0_off7 c 256#32 2#32 3#32 = ![128 * (2 : Fin 4).val + 64 * lbit (dimOf (2 : Fin 4) 0) c, 0] := k0_off7_eq c 2
theorem k0_off7_eq_s3 (c : Dev nD) : k0_off7 c 384#32 3#32 2#32 = ![128 * (3 : Fin 4).val + 64 * lbit (dimOf (3 : Fin 4) 0) c, 0] := k0_off7_eq c 3

/-! ## The rows, through `keepRow` and the partner

The kept quarter starts `keepRow r c` rows into the stream; what a device gives away at a step is what its partner
along that step's dimension keeps. -/

theorem k0_off5_row : ∀ (c : Dev nD) (r : Fin 4), k0_off5 c (k0_off5_at r).1 (k0_off5_at r).2.1 (k0_off5_at r).2.2 0 = 128 * r.val + keepRow r c := by decide +kernel
theorem k0_off6_row : ∀ (c : Dev nD) (r : Fin 4), k0_off6 c (k0_off6_at r).1 (k0_off6_at r).2.1 (k0_off6_at r).2.2 0 = 128 * r.val + keepRow r c := by decide +kernel
theorem k0_off6_eq_off5 : ∀ (c : Dev nD) (r : Fin 4), k0_off6 c (k0_off6_at r).1 (k0_off6_at r).2.1 (k0_off6_at r).2.2 = k0_off5 c (k0_off5_at r).1 (k0_off5_at r).2.1 (k0_off5_at r).2.2 := by decide +kernel
theorem k0_off7_eq_off3 : ∀ (c : Dev nD) (r : Fin 4), k0_off7 c (k0_off7_at r).1 (k0_off7_at r).2.1 (k0_off7_at r).2.2 = k0_off3 c (k0_off3_at r).1 (k0_off3_at r).2 := by decide +kernel
/-- The half a device gives away at the first step is the half its partner along the stream's first dimension keeps. -/
theorem k0_off1_eq_partner : ∀ (c : Dev nD) (r : Fin 4), k0_off1 c (k0_off1_at r).1 (k0_off1_at r).2 = k0_off2 (partner (dimOf r 0) c) (k0_off2_at r).1 (k0_off2_at r).2 := by decide +kernel
/-- The quarter a device gives away at the second step is the quarter its partner along the stream's second dimension keeps. -/
theorem k0_off4_eq_partner : ∀ (c : Dev nD) (r : Fin 4), k0_off4 c (k0_off4_at r).1 (k0_off4_at r).2.1 (k0_off4_at r).2.2 = k0_off5 (partner (dimOf r 1) c) (k0_off5_at r).1 (k0_off5_at r).2.1 (k0_off5_at r).2.2 := by decide +kernel
/-- Along the stream's third and fourth dimension the partner keeps the same quarter. -/
theorem k0_off6_partner_far : ∀ (c : Dev nD) (r k : Fin 4), 2 ≤ k.val → k0_off6 (partner (dimOf r k) c) (k0_off6_at r).1 (k0_off6_at r).2.1 (k0_off6_at r).2.2 = k0_off6 c (k0_off6_at r).1 (k0_off6_at r).2.1 (k0_off6_at r).2.2 := by decide +kernel
/-- Along the stream's second dimension the partner keeps the other quarter of the same half. -/
theorem k0_off7_partner_second : ∀ (c : Dev nD) (r : Fin 4), k0_off7 (partner (dimOf r 1) c) (k0_off7_at r).1 (k0_off7_at r).2.1 (k0_off7_at r).2.2 = k0_off7 c (k0_off7_at r).1 (k0_off7_at r).2.1 (k0_off7_at r).2.2 := by decide +kernel

/-- info: 'Cert.KernelIdeal.Chains.k0_off7_partner_second' depends on axioms: [propext, Classical.choice, Quot.sound] -/
#guard_msgs in #print axioms k0_off7_partner_second

end Cert.KernelIdeal.Chains
-- ==== Proof.Regions.lean ====
/-
  Splitting and rejoining the three buffers of a device.

  Every piece a slot passes around is a band of consecutive rows, whole in the other coordinates: of `x` and of
  `out` stream `s` owns rows `128 s .. 128 s + 127`, cut into the half the device keeps (`64` rows from
  `128 s + 64 b₀`, `b₀` the bit of the device's label along the stream's first dimension) and the other half; the
  kept half of `out` is cut again into the kept quarter (`32` rows from `+ 32 b₁`) and the given quarter. Of the
  receive buffer stream `s` owns rows `160 s .. 160 s + 159`: `64` rows for slot 0 and `32` for each of slots 1, 2, 3.
  Here: the same rows under their different spellings, each piece's element set as a band, and the equations that
  cut a buffer into its pieces and put it back, along rows and along shares.

  An equation `P = Q` between assertions is used in either direction (`Entails.of_eq`), or rewritten with.
-/
import proofs.«900484_g7700000000000485_dist_treered_v7x_i16_m512_n512_f32_1_alg».proof.Proof.Res
import proofs.«900484_g7700000000000485_dist_treered_v7x_i16_m512_n512_f32_1_alg».proof.Proof.Chains

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The same rows, other spellings -/

/-- Two unit-stride slices of one memref at equal offsets are one memref. -/
theorem slice_unit_congr {sh : Shape} (M : Memref sig .tc .vmem sh .f32) {off off' : Fin sh.rank → Nat} (size : Fin sh.rank → Nat)
    (h : off = off') (inb : ∀ a, off a + size a ≤ sh.size a) (inb' : ∀ a, off' a + size a ≤ sh.size a) :
    M.slice (Rect.unit off size inb) (fun _ => rfl) = M.slice (Rect.unit off' size inb') (fun _ => rfl) := by
  subst h; rfl

theorem dimOf_zero : ∀ b : Fin 4, dimOf b 0 = b := by decide
theorem dimOf_dimOf : ∀ b k : Fin 4, dimOf (dimOf b k) k = b := by decide

/-- The partner of slots 0 and 5 of stream `s` is the one along the stream's first dimension, of slots 1 and 4 along its second. -/
theorem peer0_eq (s : Fin 4) (c : Dev nD) : peer s 0 c = partner (dimOf s 0) c := rfl
theorem peer1_eq (s : Fin 4) (c : Dev nD) : peer s 1 c = partner (dimOf s 1) c := rfl
theorem peer2_eq (s : Fin 4) (c : Dev nD) : peer s 2 c = partner (dimOf s 2) c := rfl
theorem peer3_eq (s : Fin 4) (c : Dev nD) : peer s 3 c = partner (dimOf s 3) c := rfl
theorem peer4_eq (s : Fin 4) (c : Dev nD) : peer s 4 c = partner (dimOf s 1) c := rfl
theorem peer5_eq (s : Fin 4) (c : Dev nD) : peer s 5 c = partner (dimOf s 0) c := rfl
/-- Along dimension `b` the partner of slot 5 of stream `b` is the partner along `b`. -/
theorem peer5_self (b : Fin 4) (c : Dev nD) : peer b 5 c = partner b c := by rw [peer5_eq, dimOf_zero]
theorem peer_peer (s : Fin 4) (t : Fin 6) (c : Dev nD) : peer s t (peer s t c) = c := partner_partner _ c

/-- The kept half of `out` under its two printed offsets. -/
theorem oHalf'_eq (c : Dev nD) (s : Fin 4) : oHalf' c s = oHalf c s :=
  slice_unit_congr oM S64x512.size (Chains.k0_off7_eq_off3 c s).symm _ _
/-- The kept quarter of `out` under its two printed offsets. -/
theorem oKeep'_eq (c : Dev nD) (s : Fin 4) : oKeep' c s = oKeep c s :=
  slice_unit_congr oM S32x512.size (Chains.k0_off6_eq_off5 c s).symm _ _
/-- What the partner of slot 1 gives away is what the device keeps. -/
theorem oGive_peer1_eq (c : Dev nD) (s : Fin 4) : oGive (peer s 1 c) s = oKeep c s :=
  slice_unit_congr oM S32x512.size
    (by rw [peer1_eq, Chains.k0_off4_eq_partner, partner_partner, Chains.k0_off6_eq_off5]) _ _
/-- What the partner of slot 4 keeps is what the device gave away in slot 1. -/
theorem oKeep_peer4_eq (c : Dev nD) (s : Fin 4) : oKeep (peer s 4 c) s = oGive c s :=
  slice_unit_congr oM S32x512.size
    (by rw [peer4_eq, Chains.k0_off6_eq_off5, Chains.k0_off4_eq_partner]) _ _
/-- The partners of slots 2 and 3 keep the same quarter. -/
theorem oKeep_peer2_eq (c : Dev nD) (s : Fin 4) : oKeep (peer s 2 c) s = oKeep c s :=
  slice_unit_congr oM S32x512.size (by rw [peer2_eq]; exact Chains.k0_off6_partner_far c s 2 (by decide)) _ _
theorem oKeep_peer3_eq (c : Dev nD) (s : Fin 4) : oKeep (peer s 3 c) s = oKeep c s :=
  slice_unit_congr oM S32x512.size (by rw [peer3_eq]; exact Chains.k0_off6_partner_far c s 3 (by decide)) _ _
/-- The partners of slots 1 and 4 keep the same half. -/
theorem oHalf_peer1_eq (c : Dev nD) (s : Fin 4) : oHalf (peer s 1 c) s = oHalf c s :=
  slice_unit_congr oM S64x512.size (by rw [peer1_eq]; exact Chains.k0_off7_partner_second c s) _ _
theorem oHalf_peer4_eq (c : Dev nD) (s : Fin 4) : oHalf (peer s 4 c) s = oHalf c s :=
  slice_unit_congr oM S64x512.size (by rw [peer4_eq]; exact Chains.k0_off7_partner_second c s) _ _

/-! ## Bands of rows -/

/-- The elements of a shape whose coordinate on axis `ax` lies in `a ≤ · < b`. -/
def band (sh : Shape) (ax : Fin sh.rank) (a b : Nat) : Finset sh.Idx :=
  Finset.univ.filter fun i => a ≤ (i ax : Nat) ∧ (i ax : Nat) < b

theorem mem_band {sh : Shape} {ax : Fin sh.rank} {a b : Nat} {i : sh.Idx} :
    i ∈ band sh ax a b ↔ a ≤ (i ax : Nat) ∧ (i ax : Nat) < b := by
  simp only [band, Finset.mem_filter, Finset.mem_univ, true_and]

theorem band_union {sh : Shape} {ax : Fin sh.rank} {a b d : Nat} (hab : a ≤ b) (hbd : b ≤ d) :
    band sh ax a b ∪ band sh ax b d = band sh ax a d := by
  ext i; simp only [Finset.mem_union, mem_band]; omega

theorem band_disjoint {sh : Shape} {ax : Fin sh.rank} {a b b' d : Nat} (h : b ≤ b') :
    Disjoint (band sh ax a b) (band sh ax b' d) := by
  rw [Finset.disjoint_left]; intro i hi hj; rw [mem_band] at hi hj; omega

theorem band_univ (sh : Shape) (ax : Fin sh.rank) : band sh ax 0 (sh.size ax) = Finset.univ := by
  ext i; simp only [mem_band, Finset.mem_univ, iff_true]; exact ⟨Nat.zero_le _, (i ax).isLt⟩

/-- A unit-stride rectangle that is whole on every axis but `ax` is a band. -/
theorem set_unit_band {sh : Shape} (ax : Fin sh.rank) (off size : Fin sh.rank → Nat) (inb : ∀ a, off a + size a ≤ sh.size a)
    (h : ∀ a, a ≠ ax → off a = 0 ∧ size a = sh.size a) :
    (Rect.unit (s := sh) off size inb).set = band sh ax (off ax) (off ax + size ax) := by
  ext i
  rw [Rect.mem_set_unit, mem_band]
  constructor
  · intro hi; exact hi ax
  · intro hi a
    by_cases ha : a = ax
    · subst ha; exact hi
    · obtain ⟨h0, h1⟩ := h a ha
      rw [h0, h1]; exact ⟨Nat.zero_le _, by have := (i a).isLt; omega⟩

/-- The same for a slice of a whole buffer. -/
theorem set_slice_band (b : Ref sig .tc) (ax : Fin b.ty.shape.rank) (off size : Fin b.ty.shape.rank → Nat)
    (inb : ∀ a, off a + size a ≤ b.ty.shape.size a) (h : ∀ a, a ≠ ax → off a = 0 ∧ size a = b.ty.shape.size a) :
    ((Memref.whole b).slice (Rect.unit off size inb) (fun _ => rfl)).view.set = band b.ty.shape ax (off ax) (off ax + size ax) := by
  exact (View.set_slice_whole b _).trans (set_unit_band ax off size inb h)

/-! ## Each piece's elements -/

theorem band_congr {sh : Shape} {ax : Fin sh.rank} {a a' b b' : Nat} (ha : a = a') (hb : b = b') :
    band sh ax a b = band sh ax a' b' := by rw [ha, hb]

theorem set_oHalf (c : Dev nD) (s : Fin 4) : (oHalf c s).view.set
    = band S512x512 0 (128 * s.val + 64 * lbit (dimOf s 0) c) (128 * s.val + 64 * lbit (dimOf s 0) c + 64) := by
  refine (set_slice_band cc0_stg1_0 0 _ _ _ ?_).trans ?_
  · intro a ha; rw [Chains.k0_off7_eq]; fin_cases a
    · exact absurd rfl ha
    · exact ⟨rfl, rfl⟩
  · rw [Chains.k0_off7_eq]; rfl

theorem set_oKeep (c : Dev nD) (s : Fin 4) : (oKeep c s).view.set
    = band S512x512 0 (128 * s.val + 64 * lbit (dimOf s 0) c + 32 * lbit (dimOf s 1) c)
        (128 * s.val + 64 * lbit (dimOf s 0) c + 32 * lbit (dimOf s 1) c + 32) := by
  refine (set_slice_band cc0_stg1_0 0 _ _ _ ?_).trans ?_
  · intro a ha; rw [Chains.k0_off6_eq]; fin_cases a
    · exact absurd rfl ha
    · exact ⟨rfl, rfl⟩
  · rw [Chains.k0_off6_eq]; rfl

theorem set_oGive (c : Dev nD) (s : Fin 4) : (oGive c s).view.set
    = band S512x512 0 (128 * s.val + 64 * lbit (dimOf s 0) c + 32 * (1 - lbit (dimOf s 1) c))
        (128 * s.val + 64 * lbit (dimOf s 0) c + 32 * (1 - lbit (dimOf s 1) c) + 32) := by
  refine (set_slice_band cc0_stg1_0 0 _ _ _ ?_).trans ?_
  · intro a ha; rw [Chains.k0_off4_eq]; fin_cases a
    · exact absurd rfl ha
    · exact ⟨rfl, rfl⟩
  · rw [Chains.k0_off4_eq]; rfl

/-- The half of stream `s`'s rows of `out` the device does NOT keep: the rows its partner along the stream's first
    dimension keeps. -/
theorem set_oHalf_peer5 (c : Dev nD) (s : Fin 4) : (oHalf (peer s 5 c) s).view.set
    = band S512x512 0 (128 * s.val + 64 * (1 - lbit (dimOf s 0) c)) (128 * s.val + 64 * (1 - lbit (dimOf s 0) c) + 64) := by
  rw [set_oHalf (peer s 5 c) s, peer5_eq, lbit_partner_self]

theorem set_xGive (c : Dev nD) (s : Fin 4) : (xGive c s).view.set
    = band S1x512x512 1 (128 * s.val + 64 * (1 - lbit (dimOf s 0) c)) (128 * s.val + 64 * (1 - lbit (dimOf s 0) c) + 64) := by
  refine (View.set_reshape _ _).trans ?_
  refine (set_slice_band cc0_stg0_0 1 _ _ _ ?_).trans ?_
  · intro a ha; rw [Chains.k0_off1_eq]; fin_cases a
    · exact ⟨rfl, rfl⟩
    · exact absurd rfl ha
    · exact ⟨rfl, rfl⟩
  · rw [Chains.k0_off1_eq]; rfl

theorem set_xKeep (c : Dev nD) (s : Fin 4) : (xKeep c s).view.set
    = band S1x512x512 1 (128 * s.val + 64 * lbit (dimOf s 0) c) (128 * s.val + 64 * lbit (dimOf s 0) c + 64) := by
  refine (set_slice_band cc0_stg0_0 1 _ _ _ ?_).trans ?_
  · intro a ha; rw [Chains.k0_off2_eq]; fin_cases a
    · exact ⟨rfl, rfl⟩
    · exact absurd rfl ha
    · exact ⟨rfl, rfl⟩
  · rw [Chains.k0_off2_eq]; rfl

theorem set_rSlot0 (s : Fin 4) : (rSlot0 s).view.set = band S640x512 0 (160 * s.val) (160 * s.val + 64) := by
  refine (set_slice_band cc0_scratch0 0 _ _ _ ?_).trans rfl
  intro a ha; fin_cases a
  · exact absurd rfl ha
  · exact ⟨rfl, rfl⟩

theorem set_rSlot1 (s : Fin 4) : (rSlot s 1 (.inl rfl)).view.set = band S640x512 0 (160 * s.val + 64) (160 * s.val + 96) := by
  refine (set_slice_band cc0_scratch0 0 _ _ _ ?_).trans (band_congr rfl (by show 160 * s.val + 64 + 32 = _; omega))
  intro a ha; fin_cases a
  · exact absurd rfl ha
  · exact ⟨rfl, rfl⟩

theorem set_rSlot2 (s : Fin 4) : (rSlot s 2 (.inr (.inl rfl))).view.set = band S640x512 0 (160 * s.val + 96) (160 * s.val + 128) := by
  refine (set_slice_band cc0_scratch0 0 _ _ _ ?_).trans (band_congr rfl (by show 160 * s.val + 96 + 32 = _; omega))
  intro a ha; fin_cases a
  · exact absurd rfl ha
  · exact ⟨rfl, rfl⟩

theorem set_rSlot3 (s : Fin 4) : (rSlot s 3 (.inr (.inr rfl))).view.set = band S640x512 0 (160 * s.val + 128) (160 * s.val + 160) := by
  refine (set_slice_band cc0_scratch0 0 _ _ _ ?_).trans (band_congr rfl (by show 160 * s.val + 128 + 32 = _; omega))
  intro a ha; fin_cases a
  · exact absurd rfl ha
  · exact ⟨rfl, rfl⟩

/-! ## Cutting a band of a buffer -/

/-- Two assertions that entail each other are equal. -/
theorem eq_of_bi {F : FTy → Type} [FloatOps F] {P Q : sProp (MT nD τ sig Unit (Elt F) ℕ UU ℕ)} (h : P ⊣⊢ Q) : P = Q :=
  BI.equiv_iff.mp ⟨h.1, h.2⟩

theorem sep_comm_eq {F : FTy → Type} [FloatOps F] (P Q : sProp (MT nD τ sig Unit (Elt F) ℕ UU ℕ)) : iprop(P ∗ Q) = iprop(Q ∗ P) :=
  eq_of_bi sep_comm

theorem sep_assoc_eq {F : FTy → Type} [FloatOps F] (P Q R : sProp (MT nD τ sig Unit (Elt F) ℕ UU ℕ)) : iprop((P ∗ Q) ∗ R) = iprop(P ∗ Q ∗ R) :=
  eq_of_bi sep_assoc

/-- A band cut at a row. -/
theorem pt_band_split {F : FTy → Type} [FloatOps F] {ℓ : Loc nD τ sig} (ax : Fin ℓ.ty.shape.rank) {a b d : Nat}
    (hab : a ≤ b) (hbd : b ≤ d) (q : PosShare TreeShare) (f : Buf (Elt F) ℓ) :
    (ℓ ↦[band ℓ.ty.shape ax a d]{q} f : sProp (MT nD τ sig Unit (Elt F) ℕ UU ℕ))
      = iprop((ℓ ↦[band ℓ.ty.shape ax a b]{q} f) ∗ ℓ ↦[band ℓ.ty.shape ax b d]{q} f) := by
  rw [← band_union hab hbd]; exact eq_of_bi (pointsTo_union (band_disjoint (Nat.le_refl b)))

/-- A band cut into two adjacent bands named in either order. -/
theorem pt_band_two {F : FTy → Type} [FloatOps F] {ℓ : Loc nD τ sig} (ax : Fin ℓ.ty.shape.rank) {a d a₁ d₁ a₂ d₂ : Nat}
    (h : (a₁ = a ∧ d₁ = a₂ ∧ d₂ = d ∧ a ≤ d₁ ∧ d₁ ≤ d) ∨ (a₂ = a ∧ d₂ = a₁ ∧ d₁ = d ∧ a ≤ d₂ ∧ d₂ ≤ d))
    (q : PosShare TreeShare) (f : Buf (Elt F) ℓ) :
    (ℓ ↦[band ℓ.ty.shape ax a d]{q} f : sProp (MT nD τ sig Unit (Elt F) ℕ UU ℕ))
      = iprop((ℓ ↦[band ℓ.ty.shape ax a₁ d₁]{q} f) ∗ ℓ ↦[band ℓ.ty.shape ax a₂ d₂]{q} f) := by
  rcases h with ⟨h1, h2, h3, h4, h5⟩ | ⟨h1, h2, h3, h4, h5⟩
  · subst h1 h2 h3; exact pt_band_split ax h4 h5 q f
  · subst h1 h2 h3; rw [pt_band_split ax h4 h5 q f]; exact sep_comm_eq _ _

/-- A band cut into four adjacent bands. -/
theorem pt_band_four {F : FTy → Type} [FloatOps F] {ℓ : Loc nD τ sig} (ax : Fin ℓ.ty.shape.rank) {a₀ a₁ a₂ a₃ a₄ : Nat}
    (h01 : a₀ ≤ a₁) (h12 : a₁ ≤ a₂) (h23 : a₂ ≤ a₃) (h34 : a₃ ≤ a₄) (q : PosShare TreeShare) (f : Buf (Elt F) ℓ) :
    (ℓ ↦[band ℓ.ty.shape ax a₀ a₄]{q} f : sProp (MT nD τ sig Unit (Elt F) ℕ UU ℕ))
      = iprop((ℓ ↦[band ℓ.ty.shape ax a₀ a₁]{q} f) ∗ (ℓ ↦[band ℓ.ty.shape ax a₁ a₂]{q} f)
          ∗ (ℓ ↦[band ℓ.ty.shape ax a₂ a₃]{q} f) ∗ ℓ ↦[band ℓ.ty.shape ax a₃ a₄]{q} f) := by
  rw [pt_band_split ax h01 (h12.trans (h23.trans h34)) q f, pt_band_split ax h12 (h23.trans h34) q f,
    pt_band_split ax h23 h34 q f]

/-- A piece at a share is its two half shares. -/
theorem own_halves {F : FTy → Type} [FloatOps F] {sh : Shape} (M : Memref sig .tc .vmem sh .f32) (d : Dev nD)
    (q : PosShare TreeShare) (f : Buf (Elt F) (M.view.loc (d : Thread nD τ))) :
    own M d q f = iprop(own M d q.left f ∗ own M d q.right f) :=
  eq_of_bi (pointsTo_share (PosShare.mem_left_op_right q))

/-! ## Each piece, on any device's buffer, as a band of that buffer -/

theorem own_oHalf {F : FTy → Type} [FloatOps F] (c d : Dev nD) (s : Fin 4) (q : PosShare TreeShare)
    (f : Buf (Elt F) ((d : Thread nD τ).loc cc0_stg1_0)) :
    own (oHalf c s) d q f = (((d : Thread nD τ).loc cc0_stg1_0)
      ↦[band S512x512 0 (128 * s.val + 64 * lbit (dimOf s 0) c) (128 * s.val + 64 * lbit (dimOf s 0) c + 64)]{q} f) :=
  congrArg (fun I => pointsTo ((d : Thread nD τ).loc cc0_stg1_0) I q f) (set_oHalf c s)

theorem own_oKeep {F : FTy → Type} [FloatOps F] (c d : Dev nD) (s : Fin 4) (q : PosShare TreeShare)
    (f : Buf (Elt F) ((d : Thread nD τ).loc cc0_stg1_0)) :
    own (oKeep c s) d q f = (((d : Thread nD τ).loc cc0_stg1_0)
      ↦[band S512x512 0 (128 * s.val + 64 * lbit (dimOf s 0) c + 32 * lbit (dimOf s 1) c)
          (128 * s.val + 64 * lbit (dimOf s 0) c + 32 * lbit (dimOf s 1) c + 32)]{q} f) :=
  congrArg (fun I => pointsTo ((d : Thread nD τ).loc cc0_stg1_0) I q f) (set_oKeep c s)

theorem own_oGive {F : FTy → Type} [FloatOps F] (c d : Dev nD) (s : Fin 4) (q : PosShare TreeShare)
    (f : Buf (Elt F) ((d : Thread nD τ).loc cc0_stg1_0)) :
    own (oGive c s) d q f = (((d : Thread nD τ).loc cc0_stg1_0)
      ↦[band S512x512 0 (128 * s.val + 64 * lbit (dimOf s 0) c + 32 * (1 - lbit (dimOf s 1) c))
          (128 * s.val + 64 * lbit (dimOf s 0) c + 32 * (1 - lbit (dimOf s 1) c) + 32)]{q} f) :=
  congrArg (fun I => pointsTo ((d : Thread nD τ).loc cc0_stg1_0) I q f) (set_oGive c s)

theorem own_oHalf_peer5 {F : FTy → Type} [FloatOps F] (c d : Dev nD) (s : Fin 4) (q : PosShare TreeShare)
    (f : Buf (Elt F) ((d : Thread nD τ).loc cc0_stg1_0)) :
    own (oHalf (peer s 5 c) s) d q f = (((d : Thread nD τ).loc cc0_stg1_0)
      ↦[band S512x512 0 (128 * s.val + 64 * (1 - lbit (dimOf s 0) c)) (128 * s.val + 64 * (1 - lbit (dimOf s 0) c) + 64)]{q} f) :=
  congrArg (fun I => pointsTo ((d : Thread nD τ).loc cc0_stg1_0) I q f) (set_oHalf_peer5 c s)

theorem own_xGive {F : FTy → Type} [FloatOps F] (c d : Dev nD) (s : Fin 4) (q : PosShare TreeShare)
    (f : Buf (Elt F) ((d : Thread nD τ).loc cc0_stg0_0)) :
    own (xGive c s) d q f = (((d : Thread nD τ).loc cc0_stg0_0)
      ↦[band S1x512x512 1 (128 * s.val + 64 * (1 - lbit (dimOf s 0) c)) (128 * s.val + 64 * (1 - lbit (dimOf s 0) c) + 64)]{q} f) :=
  congrArg (fun I => pointsTo ((d : Thread nD τ).loc cc0_stg0_0) I q f) (set_xGive c s)

theorem own_xKeep {F : FTy → Type} [FloatOps F] (c d : Dev nD) (s : Fin 4) (q : PosShare TreeShare)
    (f : Buf (Elt F) ((d : Thread nD τ).loc cc0_stg0_0)) :
    own (xKeep c s) d q f = (((d : Thread nD τ).loc cc0_stg0_0)
      ↦[band S1x512x512 1 (128 * s.val + 64 * lbit (dimOf s 0) c) (128 * s.val + 64 * lbit (dimOf s 0) c + 64)]{q} f) :=
  congrArg (fun I => pointsTo ((d : Thread nD τ).loc cc0_stg0_0) I q f) (set_xKeep c s)

theorem own_rSlot0 {F : FTy → Type} [FloatOps F] (d : Dev nD) (s : Fin 4) (q : PosShare TreeShare)
    (f : Buf (Elt F) ((d : Thread nD τ).loc cc0_scratch0)) :
    own (rSlot0 s) d q f = (((d : Thread nD τ).loc cc0_scratch0) ↦[band S640x512 0 (160 * s.val) (160 * s.val + 64)]{q} f) :=
  congrArg (fun I => pointsTo ((d : Thread nD τ).loc cc0_scratch0) I q f) (set_rSlot0 s)

theorem own_rSlot1 {F : FTy → Type} [FloatOps F] (d : Dev nD) (s : Fin 4) (q : PosShare TreeShare)
    (f : Buf (Elt F) ((d : Thread nD τ).loc cc0_scratch0)) :
    own (rSlot s 1 (.inl rfl)) d q f = (((d : Thread nD τ).loc cc0_scratch0) ↦[band S640x512 0 (160 * s.val + 64) (160 * s.val + 96)]{q} f) :=
  congrArg (fun I => pointsTo ((d : Thread nD τ).loc cc0_scratch0) I q f) (set_rSlot1 s)

theorem own_rSlot2 {F : FTy → Type} [FloatOps F] (d : Dev nD) (s : Fin 4) (q : PosShare TreeShare)
    (f : Buf (Elt F) ((d : Thread nD τ).loc cc0_scratch0)) :
    own (rSlot s 2 (.inr (.inl rfl))) d q f = (((d : Thread nD τ).loc cc0_scratch0) ↦[band S640x512 0 (160 * s.val + 96) (160 * s.val + 128)]{q} f) :=
  congrArg (fun I => pointsTo ((d : Thread nD τ).loc cc0_scratch0) I q f) (set_rSlot2 s)

theorem own_rSlot3 {F : FTy → Type} [FloatOps F] (d : Dev nD) (s : Fin 4) (q : PosShare TreeShare)
    (f : Buf (Elt F) ((d : Thread nD τ).loc cc0_scratch0)) :
    own (rSlot s 3 (.inr (.inr rfl))) d q f = (((d : Thread nD τ).loc cc0_scratch0) ↦[band S640x512 0 (160 * s.val + 128) (160 * s.val + 160)]{q} f) :=
  congrArg (fun I => pointsTo ((d : Thread nD τ).loc cc0_scratch0) I q f) (set_rSlot3 s)

/-! ## One stream's rows into its pieces -/

/-- Stream `s`'s 128 rows of `x`: the half given away and the half kept. -/
theorem x_stream {F : FTy → Type} [FloatOps F] (c d : Dev nD) (s : Fin 4) (q : PosShare TreeShare)
    (f : Buf (Elt F) ((d : Thread nD τ).loc cc0_stg0_0)) (A B : Nat) (hA : A = 128 * s.val) (hB : B = 128 * s.val + 128) :
    (((d : Thread nD τ).loc cc0_stg0_0) ↦[band S1x512x512 1 A B]{q} f)
      = iprop(own (xGive c s) d q f ∗ own (xKeep c s) d q f) := by
  rw [own_xGive, own_xKeep]
  exact pt_band_two (ℓ := (d : Thread nD τ).loc cc0_stg0_0) 1 (by have := lbit_le (dimOf s 0) c; omega) q f

/-- Stream `s`'s 128 rows of `out`: the half the device keeps and the half its partner along the stream's first
    dimension keeps. -/
theorem out_stream {F : FTy → Type} [FloatOps F] (c d : Dev nD) (s : Fin 4) (q : PosShare TreeShare)
    (f : Buf (Elt F) ((d : Thread nD τ).loc cc0_stg1_0)) (A B : Nat) (hA : A = 128 * s.val) (hB : B = 128 * s.val + 128) :
    (((d : Thread nD τ).loc cc0_stg1_0) ↦[band S512x512 0 A B]{q} f)
      = iprop(own (oHalf c s) d q f ∗ own (oHalf (peer s 5 c) s) d q f) := by
  rw [own_oHalf, own_oHalf_peer5]
  exact pt_band_two (ℓ := (d : Thread nD τ).loc cc0_stg1_0) 0 (by have := lbit_le (dimOf s 0) c; omega) q f

/-- Stream `s`'s 160 rows of the receive buffer: the rows of slots 0, 1, 2, 3. -/
theorem recv_stream {F : FTy → Type} [FloatOps F] (d : Dev nD) (s : Fin 4) (q : PosShare TreeShare)
    (f : Buf (Elt F) ((d : Thread nD τ).loc cc0_scratch0)) (A B : Nat) (hA : A = 160 * s.val) (hB : B = 160 * s.val + 160) :
    (((d : Thread nD τ).loc cc0_scratch0) ↦[band S640x512 0 A B]{q} f)
      = iprop(own (rSlot0 s) d q f ∗ own (rSlot s 1 (.inl rfl)) d q f ∗ own (rSlot s 2 (.inr (.inl rfl))) d q f
          ∗ own (rSlot s 3 (.inr (.inr rfl))) d q f) := by
  rw [own_rSlot0, own_rSlot1, own_rSlot2, own_rSlot3, hA, hB]
  exact pt_band_four (ℓ := (d : Thread nD τ).loc cc0_scratch0) 0 (by omega) (by omega) (by omega) (by omega) q f

/-- The kept half of `out`: the kept quarter and the given quarter. -/
theorem oHalf_quarters {F : FTy → Type} [FloatOps F] (c d : Dev nD) (s : Fin 4) (q : PosShare TreeShare)
    (f : Buf (Elt F) ((d : Thread nD τ).loc cc0_stg1_0)) :
    own (oHalf c s) d q f = iprop(own (oKeep c s) d q f ∗ own (oGive c s) d q f) := by
  rw [own_oHalf, own_oKeep, own_oGive]
  exact pt_band_two (ℓ := (d : Thread nD τ).loc cc0_stg1_0) 0 (by have := lbit_le (dimOf s 1) c; omega) q f

/-! ## A whole buffer into the pieces of its four streams -/

/-- `x` of device `d`, whole: per stream the half `c` gives away and the half it keeps. -/
theorem x_pieces {F : FTy → Type} [FloatOps F] (c d : Dev nD) (q : PosShare TreeShare)
    (f : Buf (Elt F) ((d : Thread nD τ).loc cc0_stg0_0)) :
    (((d : Thread nD τ).loc cc0_stg0_0) ↦{q} f)
      = iprop((own (xGive c 0) d q f ∗ own (xKeep c 0) d q f) ∗ (own (xGive c 1) d q f ∗ own (xKeep c 1) d q f)
          ∗ (own (xGive c 2) d q f ∗ own (xKeep c 2) d q f) ∗ (own (xGive c 3) d q f ∗ own (xKeep c 3) d q f)) := by
  rw [← x_stream c d 0 q f 0 128 rfl rfl, ← x_stream c d 1 q f 128 256 rfl rfl, ← x_stream c d 2 q f 256 384 rfl rfl,
    ← x_stream c d 3 q f 384 512 rfl rfl]
  refine Eq.trans ?_ (pt_band_four (ℓ := (d : Thread nD τ).loc cc0_stg0_0) 1 (a₀ := 0) (a₁ := 128) (a₂ := 256) (a₃ := 384) (a₄ := 512)
    (by omega) (by omega) (by omega) (by omega) q f)
  exact congrArg (fun I => pointsTo ((d : Thread nD τ).loc cc0_stg0_0) I q f) (band_univ S1x512x512 1).symm

/-- `out` of device `d`, whole: per stream the half `c` keeps and the half its partner along the stream's first
    dimension keeps. -/
theorem out_pieces {F : FTy → Type} [FloatOps F] (c d : Dev nD) (q : PosShare TreeShare)
    (f : Buf (Elt F) ((d : Thread nD τ).loc cc0_stg1_0)) :
    (((d : Thread nD τ).loc cc0_stg1_0) ↦{q} f)
      = iprop((own (oHalf c 0) d q f ∗ own (oHalf (peer 0 5 c) 0) d q f) ∗ (own (oHalf c 1) d q f ∗ own (oHalf (peer 1 5 c) 1) d q f)
          ∗ (own (oHalf c 2) d q f ∗ own (oHalf (peer 2 5 c) 2) d q f) ∗ (own (oHalf c 3) d q f ∗ own (oHalf (peer 3 5 c) 3) d q f)) := by
  rw [← out_stream c d 0 q f 0 128 rfl rfl, ← out_stream c d 1 q f 128 256 rfl rfl, ← out_stream c d 2 q f 256 384 rfl rfl,
    ← out_stream c d 3 q f 384 512 rfl rfl]
  refine Eq.trans ?_ (pt_band_four (ℓ := (d : Thread nD τ).loc cc0_stg1_0) 0 (a₀ := 0) (a₁ := 128) (a₂ := 256) (a₃ := 384) (a₄ := 512)
    (by omega) (by omega) (by omega) (by omega) q f)
  exact congrArg (fun I => pointsTo ((d : Thread nD τ).loc cc0_stg1_0) I q f) (band_univ S512x512 0).symm

/-- The receive buffer of device `d`, whole: per stream the rows of slots 0, 1, 2, 3. -/
theorem recv_pieces {F : FTy → Type} [FloatOps F] (d : Dev nD) (q : PosShare TreeShare)
    (f : Buf (Elt F) ((d : Thread nD τ).loc cc0_scratch0)) :
    (((d : Thread nD τ).loc cc0_scratch0) ↦{q} f)
      = iprop((own (rSlot0 0) d q f ∗ own (rSlot 0 1 (.inl rfl)) d q f ∗ own (rSlot 0 2 (.inr (.inl rfl))) d q f ∗ own (rSlot 0 3 (.inr (.inr rfl))) d q f)
          ∗ (own (rSlot0 1) d q f ∗ own (rSlot 1 1 (.inl rfl)) d q f ∗ own (rSlot 1 2 (.inr (.inl rfl))) d q f ∗ own (rSlot 1 3 (.inr (.inr rfl))) d q f)
          ∗ (own (rSlot0 2) d q f ∗ own (rSlot 2 1 (.inl rfl)) d q f ∗ own (rSlot 2 2 (.inr (.inl rfl))) d q f ∗ own (rSlot 2 3 (.inr (.inr rfl))) d q f)
          ∗ (own (rSlot0 3) d q f ∗ own (rSlot 3 1 (.inl rfl)) d q f ∗ own (rSlot 3 2 (.inr (.inl rfl))) d q f ∗ own (rSlot 3 3 (.inr (.inr rfl))) d q f)) := by
  rw [← recv_stream d 0 q f 0 160 rfl rfl, ← recv_stream d 1 q f 160 320 rfl rfl, ← recv_stream d 2 q f 320 480 rfl rfl,
    ← recv_stream d 3 q f 480 640 rfl rfl]
  refine Eq.trans ?_ (pt_band_four (ℓ := (d : Thread nD τ).loc cc0_scratch0) 0 (a₀ := 0) (a₁ := 160) (a₂ := 320) (a₃ := 480) (a₄ := 640)
    (by omega) (by omega) (by omega) (by omega) q f)
  exact congrArg (fun I => pointsTo ((d : Thread nD τ).loc cc0_scratch0) I q f) (band_univ S640x512 0).symm

/-- The separating conjunction over the four streams, written out. -/
theorem bigSep_fin_four {F : FTy → Type} [FloatOps F] (Φ : Fin 4 → sProp (MT nD τ sig Unit (Elt F) ℕ UU ℕ)) :
    bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

/-- The three buffers over the streams. -/
theorem x_pieces_big {F : FTy → Type} [FloatOps F] (c d : Dev nD) (q : PosShare TreeShare)
    (f : Buf (Elt F) ((d : Thread nD τ).loc cc0_stg0_0)) :
    (((d : Thread nD τ).loc cc0_stg0_0) ↦{q} f)
      = bigSep Finset.univ fun s : Fin 4 => iprop(own (xGive c s) d q f ∗ own (xKeep c s) d q f) := by
  rw [bigSep_fin_four]; exact x_pieces c d q f

theorem out_pieces_big {F : FTy → Type} [FloatOps F] (c d : Dev nD) (q : PosShare TreeShare)
    (f : Buf (Elt F) ((d : Thread nD τ).loc cc0_stg1_0)) :
    (((d : Thread nD τ).loc cc0_stg1_0) ↦{q} f)
      = bigSep Finset.univ fun s : Fin 4 => iprop(own (oHalf c s) d q f ∗ own (oHalf (peer s 5 c) s) d q f) := by
  rw [bigSep_fin_four]; exact out_pieces c d q f

theorem recv_pieces_big {F : FTy → Type} [FloatOps F] (d : Dev nD) (q : PosShare TreeShare)
    (f : Buf (Elt F) ((d : Thread nD τ).loc cc0_scratch0)) :
    (((d : Thread nD τ).loc cc0_scratch0) ↦{q} f)
      = bigSep Finset.univ fun s : Fin 4 => iprop(own (rSlot0 s) d q f ∗ own (rSlot s 1 (.inl rfl)) d q f
          ∗ own (rSlot s 2 (.inr (.inl rfl))) d q f ∗ own (rSlot s 3 (.inr (.inr rfl))) d q f) := by
  rw [bigSep_fin_four]; exact recv_pieces d q f

/-! ## What a device hands its partner at the barrier -/

/-- Device `c` pays duty `b` of its partner's barrier cell with five of its own pieces: the receive rows of the four
    slots that go along `b` and, of `out`, the half of stream `b`'s rows it does not keep. -/
theorem barPay_intro {F : FTy → Type} [FloatOps F] (c : Dev nD) (b : Fin 4)
    (f₀ f₁ f₂ f₃ : Buf (Elt F) ((c : Thread nD τ).loc cc0_scratch0)) (g : Buf (Elt F) ((c : Thread nD τ).loc cc0_stg1_0)) :
    iprop(own (rSlot0 (dimOf b 0)) c fullShare f₀ ∗ own (rSlot (dimOf b 1) 1 (.inl rfl)) c fullShare f₁
        ∗ own (rSlot (dimOf b 2) 2 (.inr (.inl rfl))) c fullShare f₂ ∗ own (rSlot (dimOf b 3) 3 (.inr (.inr rfl))) c fullShare f₃
        ∗ own (oHalf (peer b 5 c) b) c fullShare g)
      ⊢ barPay (F := F) (partner b c) b := by
  unfold barPay
  rw [partner_partner, peer5_self]
  iintro ⟨H0, H1, H2, H3, H4⟩
  isplitl [H0]; · iexists f₀; iexact H0
  isplitl [H1]; · iexists f₁; iexact H1
  isplitl [H2]; · iexists f₂; iexact H2
  isplitl [H3]; · iexists f₃; iexact H3
  iexists g; iexact H4

/-! ## Quarters and shares of the kept half -/

/-- Before slot 5 is issued: the kept quarter's kept half share and the given quarter (come back whole from slot 4's
    landing) make the kept half at a half share, and leave a half share of the given quarter. -/
theorem oHalf_lend {F : FTy → Type} [FloatOps F] (c d : Dev nD) (s : Fin 4) (q : PosShare TreeShare)
    (f : Buf (Elt F) ((d : Thread nD τ).loc cc0_stg1_0)) :
    iprop(own (oKeep c s) d q.left f ∗ own (oGive c s) d q f)
      = iprop(own (oHalf c s) d q.left f ∗ own (oGive c s) d q.right f) := by
  rw [own_halves (oGive c s) d q f, oHalf_quarters c d s q.left f, sep_assoc_eq]

/-- At the end: the two quarter shares of the kept half, the other half share of the kept quarter and of the given
    quarter are the kept half whole. -/
theorem oHalf_rejoin {F : FTy → Type} [FloatOps F] (c d : Dev nD) (s : Fin 4) (q : PosShare TreeShare)
    (f : Buf (Elt F) ((d : Thread nD τ).loc cc0_stg1_0)) :
    iprop(own (oHalf c s) d q.left.left f ∗ own (oHalf c s) d q.left.right f ∗ own (oKeep c s) d q.right f ∗ own (oGive c s) d q.right f)
      = own (oHalf c s) d q f := by
  rw [← oHalf_quarters c d s q.right f, ← sep_assoc_eq, ← own_halves (oHalf c s) d q.left f, ← own_halves (oHalf c s) d q f]

/-! ## The buffers at the contents the body starts from and ends with -/

/-- `x` as staged, into the eight pieces the slots use. -/
theorem x_entry {F : FTy → Type} [FloatOps F] (m : (ℓ : Loc nD τ sig) → Buf (Elt F) ℓ) (ρ : Dev nD → PrngReg) (c : Dev nD) :
    (((c : Thread nD τ).loc cc0_stg0_0) ↦{fullShare} xstg m ρ c)
      = iprop((XG m ρ c 0 ∗ XK m ρ c 0) ∗ (XG m ρ c 1 ∗ XK m ρ c 1) ∗ (XG m ρ c 2 ∗ XK m ρ c 2) ∗ (XG m ρ c 3 ∗ XK m ρ c 3)) :=
  x_pieces c c fullShare (xstg m ρ c)

/-- The eight pieces of `x`, come back, are `x` whole as staged. -/
theorem x_exit {F : FTy → Type} [FloatOps F] (m : (ℓ : Loc nD τ sig) → Buf (Elt F) ℓ) (ρ : Dev nD → PrngReg) (c : Dev nD) :
    iprop((XG m ρ c 0 ∗ XK m ρ c 0) ∗ (XG m ρ c 1 ∗ XK m ρ c 1) ∗ (XG m ρ c 2 ∗ XK m ρ c 2) ∗ (XG m ρ c 3 ∗ XK m ρ c 3))
      ⊢ (((c : Thread nD τ).loc cc0_stg0_0) ↦{fullShare} xstg m ρ c) :=
  Entails.of_eq (x_entry m ρ c).symm

/-- `out` at its final contents from, per stream, the kept half and the half slot 5 filled. -/
theorem out_exit {F : FTy → Type} [FloatOps F] (m : (ℓ : Loc nD τ sig) → Buf (Elt F) ℓ) (ρ : Dev nD → PrngReg) (c : Dev nD) :
    iprop((own (oHalf c 0) c fullShare (outFinal m ρ c) ∗ own (oHalf (peer 0 5 c) 0) c fullShare (outFinal m ρ c))
        ∗ (own (oHalf c 1) c fullShare (outFinal m ρ c) ∗ own (oHalf (peer 1 5 c) 1) c fullShare (outFinal m ρ c))
        ∗ (own (oHalf c 2) c fullShare (outFinal m ρ c) ∗ own (oHalf (peer 2 5 c) 2) c fullShare (outFinal m ρ c))
        ∗ (own (oHalf c 3) c fullShare (outFinal m ρ c) ∗ own (oHalf (peer 3 5 c) 3) c fullShare (outFinal m ρ c)))
      ⊢ (((c : Thread nD τ).loc cc0_stg1_0) ↦{fullShare} outFinal m ρ c) :=
  Entails.of_eq (out_pieces c c fullShare (outFinal m ρ c)).symm

/-- The receive buffer at its final contents from its sixteen landed slots. -/
theorem recv_exit {F : FTy → Type} [FloatOps F] (m : (ℓ : Loc nD τ sig) → Buf (Elt F) ℓ) (ρ : Dev nD → PrngReg) (c : Dev nD) :
    iprop((RV0 m ρ c 0 ∗ RV m ρ c 0 1 (.inl rfl) ∗ RV m ρ c 0 2 (.inr (.inl rfl)) ∗ RV m ρ c 0 3 (.inr (.inr rfl)))
        ∗ (RV0 m ρ c 1 ∗ RV m ρ c 1 1 (.inl rfl) ∗ RV m ρ c 1 2 (.inr (.inl rfl)) ∗ RV m ρ c 1 3 (.inr (.inr rfl)))
        ∗ (RV0 m ρ c 2 ∗ RV m ρ c 2 1 (.inl rfl) ∗ RV m ρ c 2 2 (.inr (.inl rfl)) ∗ RV m ρ c 2 3 (.inr (.inr rfl)))
        ∗ (RV0 m ρ c 3 ∗ RV m ρ c 3 1 (.inl rfl) ∗ RV m ρ c 3 2 (.inr (.inl rfl)) ∗ RV m ρ c 3 3 (.inr (.inr rfl))))
      ⊢ (((c : Thread nD τ).loc cc0_scratch0) ↦{fullShare} recvFinal m ρ c) :=
  Entails.of_eq (recv_pieces c fullShare (recvFinal m ρ c)).symm

/-! ## The barrier, all four duties at once -/

/-- The duties written out at each dimension (stream `b xor k` for slot `k`). -/
theorem barPay_intro0 {F : FTy → Type} [FloatOps F] (c : Dev nD)
    (f₀ f₁ f₂ f₃ : Buf (Elt F) ((c : Thread nD τ).loc cc0_scratch0)) (g : Buf (Elt F) ((c : Thread nD τ).loc cc0_stg1_0)) :
    iprop(own (rSlot0 0) c fullShare f₀ ∗ own (rSlot 1 1 (.inl rfl)) c fullShare f₁
        ∗ own (rSlot 2 2 (.inr (.inl rfl))) c fullShare f₂ ∗ own (rSlot 3 3 (.inr (.inr rfl))) c fullShare f₃
        ∗ own (oHalf (peer 0 5 c) 0) c fullShare g)
      ⊢ barPay (F := F) (partner 0 c) 0 := barPay_intro c 0 f₀ f₁ f₂ f₃ g
theorem barPay_intro1 {F : FTy → Type} [FloatOps F] (c : Dev nD)
    (f₀ f₁ f₂ f₃ : Buf (Elt F) ((c : Thread nD τ).loc cc0_scratch0)) (g : Buf (Elt F) ((c : Thread nD τ).loc cc0_stg1_0)) :
    iprop(own (rSlot0 1) c fullShare f₀ ∗ own (rSlot 0 1 (.inl rfl)) c fullShare f₁
        ∗ own (rSlot 3 2 (.inr (.inl rfl))) c fullShare f₂ ∗ own (rSlot 2 3 (.inr (.inr rfl))) c fullShare f₃
        ∗ own (oHalf (peer 1 5 c) 1) c fullShare g)
      ⊢ barPay (F := F) (partner 1 c) 1 := barPay_intro c 1 f₀ f₁ f₂ f₃ g
theorem barPay_intro2 {F : FTy → Type} [FloatOps F] (c : Dev nD)
    (f₀ f₁ f₂ f₃ : Buf (Elt F) ((c : Thread nD τ).loc cc0_scratch0)) (g : Buf (Elt F) ((c : Thread nD τ).loc cc0_stg1_0)) :
    iprop(own (rSlot0 2) c fullShare f₀ ∗ own (rSlot 3 1 (.inl rfl)) c fullShare f₁
        ∗ own (rSlot 0 2 (.inr (.inl rfl))) c fullShare f₂ ∗ own (rSlot 1 3 (.inr (.inr rfl))) c fullShare f₃
        ∗ own (oHalf (peer 2 5 c) 2) c fullShare g)
      ⊢ barPay (F := F) (partner 2 c) 2 := barPay_intro c 2 f₀ f₁ f₂ f₃ g
theorem barPay_intro3 {F : FTy → Type} [FloatOps F] (c : Dev nD)
    (f₀ f₁ f₂ f₃ : Buf (Elt F) ((c : Thread nD τ).loc cc0_scratch0)) (g : Buf (Elt F) ((c : Thread nD τ).loc cc0_stg1_0)) :
    iprop(own (rSlot0 3) c fullShare f₀ ∗ own (rSlot 2 1 (.inl rfl)) c fullShare f₁
        ∗ own (rSlot 1 2 (.inr (.inl rfl))) c fullShare f₂ ∗ own (rSlot 0 3 (.inr (.inr rfl))) c fullShare f₃
        ∗ own (oHalf (peer 3 5 c) 3) c fullShare g)
      ⊢ barPay (F := F) (partner 3 c) 3 := barPay_intro c 3 f₀ f₁ f₂ f₃ g

/-- At entry: the receive buffer and `out`, whole, are what the device hands its four partners at the barrier and
    the four halves of `out` it keeps. -/
theorem entry_barPays {F : FTy → Type} [FloatOps F] (c : Dev nD)
    (f : Buf (Elt F) ((c : Thread nD τ).loc cc0_scratch0)) (g : Buf (Elt F) ((c : Thread nD τ).loc cc0_stg1_0)) :
    iprop((((c : Thread nD τ).loc cc0_scratch0) ↦{fullShare} f) ∗ (((c : Thread nD τ).loc cc0_stg1_0) ↦{fullShare} g))
      ⊢ iprop(barPay (F := F) (partner 0 c) 0 ∗ barPay (F := F) (partner 1 c) 1 ∗ barPay (F := F) (partner 2 c) 2
          ∗ barPay (F := F) (partner 3 c) 3
          ∗ own (oHalf c 0) c fullShare g ∗ own (oHalf c 1) c fullShare g ∗ own (oHalf c 2) c fullShare g ∗ own (oHalf c 3) c fullShare g) := by
  rw [recv_pieces c fullShare f, out_pieces c c fullShare g]
  iintro ⟨⟨⟨R00, R01, R02, R03⟩, ⟨R10, R11, R12, R13⟩, ⟨R20, R21, R22, R23⟩, ⟨R30, R31, R32, R33⟩⟩, ⟨⟨H0, P0⟩, ⟨H1, P1⟩, ⟨H2, P2⟩, ⟨H3, P3⟩⟩⟩
  isplitl [R00 R11 R22 R33 P0]
  · iapply (barPay_intro0 c f f f f g)
    isplitl [R00]; · iexact R00
    isplitl [R11]; · iexact R11
    isplitl [R22]; · iexact R22
    isplitl [R33]; · iexact R33
    iexact P0
  isplitl [R10 R01 R32 R23 P1]
  · iapply (barPay_intro1 c f f f f g)
    isplitl [R10]; · iexact R10
    isplitl [R01]; · iexact R01
    isplitl [R32]; · iexact R32
    isplitl [R23]; · iexact R23
    iexact P1
  isplitl [R20 R31 R02 R13 P2]
  · iapply (barPay_intro2 c f f f f g)
    isplitl [R20]; · iexact R20
    isplitl [R31]; · iexact R31
    isplitl [R02]; · iexact R02
    isplitl [R13]; · iexact R13
    iexact P2
  isplitl [R30 R21 R12 R03 P3]
  · iapply (barPay_intro3 c f f f f g)
    isplitl [R30]; · iexact R30
    isplitl [R21]; · iexact R21
    isplitl [R12]; · iexact R12
    isplitl [R03]; · iexact R03
    iexact P3
  isplitl [H0]; · iexact H0
  isplitl [H1]; · iexact H1
  isplitl [H2]; · iexact H2
  iexact H3

/-- What a device's barrier cell hands it, duty by duty, written out with the streams and partners evaluated. -/
theorem barPay_eq0 {F : FTy → Type} [FloatOps F] (c : Dev nD) :
    barPay (F := F) c 0 = iprop(RP0 (F := F) c 0 ∗ RP (F := F) c 1 1 (.inl rfl) ∗ RP (F := F) c 2 2 (.inr (.inl rfl))
      ∗ RP (F := F) c 3 3 (.inr (.inr rfl)) ∗ OP5 (F := F) c 0) := rfl
theorem barPay_eq1 {F : FTy → Type} [FloatOps F] (c : Dev nD) :
    barPay (F := F) c 1 = iprop(RP0 (F := F) c 1 ∗ RP (F := F) c 0 1 (.inl rfl) ∗ RP (F := F) c 3 2 (.inr (.inl rfl))
      ∗ RP (F := F) c 2 3 (.inr (.inr rfl)) ∗ OP5 (F := F) c 1) := rfl
theorem barPay_eq2 {F : FTy → Type} [FloatOps F] (c : Dev nD) :
    barPay (F := F) c 2 = iprop(RP0 (F := F) c 2 ∗ RP (F := F) c 3 1 (.inl rfl) ∗ RP (F := F) c 0 2 (.inr (.inl rfl))
      ∗ RP (F := F) c 1 3 (.inr (.inr rfl)) ∗ OP5 (F := F) c 2) := rfl
theorem barPay_eq3 {F : FTy → Type} [FloatOps F] (c : Dev nD) :
    barPay (F := F) c 3 = iprop(RP0 (F := F) c 3 ∗ RP (F := F) c 2 1 (.inl rfl) ∗ RP (F := F) c 1 2 (.inr (.inl rfl))
      ∗ RP (F := F) c 0 3 (.inr (.inr rfl)) ∗ OP5 (F := F) c 3) := rfl

/-- After the barrier wait: the four duties' payloads, regrouped by stream: per stream the receive rows of slots
    0, 1, 2, 3 on the slot's partner and the half of the partner's `out` slot 5 fills. -/
theorem barPays_elim {F : FTy → Type} [FloatOps F] (c : Dev nD) :
    iprop(barPay (F := F) c 0 ∗ barPay (F := F) c 1 ∗ barPay (F := F) c 2 ∗ barPay (F := F) c 3)
      ⊢ iprop((RP0 (F := F) c 0 ∗ RP (F := F) c 0 1 (.inl rfl) ∗ RP (F := F) c 0 2 (.inr (.inl rfl)) ∗ RP (F := F) c 0 3 (.inr (.inr rfl)) ∗ OP5 (F := F) c 0)
          ∗ (RP0 (F := F) c 1 ∗ RP (F := F) c 1 1 (.inl rfl) ∗ RP (F := F) c 1 2 (.inr (.inl rfl)) ∗ RP (F := F) c 1 3 (.inr (.inr rfl)) ∗ OP5 (F := F) c 1)
          ∗ (RP0 (F := F) c 2 ∗ RP (F := F) c 2 1 (.inl rfl) ∗ RP (F := F) c 2 2 (.inr (.inl rfl)) ∗ RP (F := F) c 2 3 (.inr (.inr rfl)) ∗ OP5 (F := F) c 2)
          ∗ (RP0 (F := F) c 3 ∗ RP (F := F) c 3 1 (.inl rfl) ∗ RP (F := F) c 3 2 (.inr (.inl rfl)) ∗ RP (F := F) c 3 3 (.inr (.inr rfl)) ∗ OP5 (F := F) c 3)) := by
  rw [barPay_eq0, barPay_eq1, barPay_eq2, barPay_eq3]
  iintro ⟨⟨A00, A11, A22, A33, Q0⟩, ⟨A10, A01, A32, A23, Q1⟩, ⟨A20, A31, A02, A13, Q2⟩, ⟨A30, A21, A12, A03, Q3⟩⟩
  isplitl [A00 A01 A02 A03 Q0]
  · isplitl [A00]; · iexact A00
    isplitl [A01]; · iexact A01
    isplitl [A02]; · iexact A02
    isplitl [A03]; · iexact A03
    iexact Q0
  isplitl [A10 A11 A12 A13 Q1]
  · isplitl [A10]; · iexact A10
    isplitl [A11]; · iexact A11
    isplitl [A12]; · iexact A12
    isplitl [A13]; · iexact A13
    iexact Q1
  isplitl [A20 A21 A22 A23 Q2]
  · isplitl [A20]; · iexact A20
    isplitl [A21]; · iexact A21
    isplitl [A22]; · iexact A22
    isplitl [A23]; · iexact A23
    iexact Q2
  isplitl [A30]; · iexact A30
  isplitl [A31]; · iexact A31
  isplitl [A32]; · iexact A32
  isplitl [A33]; · iexact A33
  iexact Q3

/-! ## Named instances of the share equations -/

/-- The kept quarter whole is its two half shares (slot 4 lends the right one). -/
theorem oKeep_halves {F : FTy → Type} [FloatOps F] (c d : Dev nD) (s : Fin 4) (f : Buf (Elt F) ((d : Thread nD τ).loc cc0_stg1_0)) :
    own (oKeep c s) d fullShare f = iprop(own (oKeep c s) d fullShare.left f ∗ own (oKeep c s) d fullShare.right f) :=
  own_halves (oKeep c s) d fullShare f
/-- The kept half at the left half share is its two quarter shares (slot 5 lends the right one). -/
theorem oHalf_left_halves {F : FTy → Type} [FloatOps F] (c d : Dev nD) (s : Fin 4) (f : Buf (Elt F) ((d : Thread nD τ).loc cc0_stg1_0)) :
    own (oHalf c s) d fullShare.left f = iprop(own (oHalf c s) d fullShare.left.left f ∗ own (oHalf c s) d fullShare.left.right f) :=
  own_halves (oHalf c s) d fullShare.left f

/-- The rows of `x` a device gives away in slot 0 are the rows its partner keeps. -/
theorem set_xGive_eq_xKeep_peer (c : Dev nD) (s : Fin 4) : (xGive c s).view.set = (xKeep (peer s 0 c) s).view.set := by
  rw [set_xGive, set_xKeep, peer0_eq, lbit_partner_self]

/-! ## The spellings, at the level of the pieces -/

/-- Two unit-stride slices of one buffer at equal offsets are one piece, on any device. -/
theorem own_slice_congr {F : FTy → Type} [FloatOps F] (b : Ref sig .tc) {off off' : Fin b.ty.shape.rank → Nat}
    (size : Fin b.ty.shape.rank → Nat) (h : off = off') (inb : ∀ a, off a + size a ≤ b.ty.shape.size a)
    (inb' : ∀ a, off' a + size a ≤ b.ty.shape.size a) (d : Dev nD) (q : PosShare TreeShare)
    (f : Buf (Elt F) ((d : Thread nD τ).loc b)) :
    (((d : Thread nD τ).loc b) ↦[((Memref.whole b).slice (Rect.unit off size inb) (fun _ => rfl)).view.set]{q} f
        : sProp (MT nD τ sig Unit (Elt F) ℕ UU ℕ))
      = (((d : Thread nD τ).loc b) ↦[((Memref.whole b).slice (Rect.unit off' size inb') (fun _ => rfl)).view.set]{q} f) := by
  subst h; rfl

theorem own_oHalf' {F : FTy → Type} [FloatOps F] (c d : Dev nD) (s : Fin 4) (q : PosShare TreeShare)
    (f : Buf (Elt F) ((d : Thread nD τ).loc cc0_stg1_0)) : own (oHalf' c s) d q f = own (oHalf c s) d q f :=
  own_slice_congr cc0_stg1_0 S64x512.size (Chains.k0_off7_eq_off3 c s).symm _ _ d q f
theorem own_oKeep' {F : FTy → Type} [FloatOps F] (c d : Dev nD) (s : Fin 4) (q : PosShare TreeShare)
    (f : Buf (Elt F) ((d : Thread nD τ).loc cc0_stg1_0)) : own (oKeep' c s) d q f = own (oKeep c s) d q f :=
  own_slice_congr cc0_stg1_0 S32x512.size (Chains.k0_off6_eq_off5 c s).symm _ _ d q f
/-- The source rows of the partner's slot 1, on any device: the rows the device keeps. -/
theorem own_oGive_peer1 {F : FTy → Type} [FloatOps F] (c d : Dev nD) (s : Fin 4) (q : PosShare TreeShare)
    (f : Buf (Elt F) ((d : Thread nD τ).loc cc0_stg1_0)) : own (oGive (peer s 1 c) s) d q f = own (oKeep c s) d q f :=
  own_slice_congr cc0_stg1_0 S32x512.size
    (by rw [peer1_eq, Chains.k0_off4_eq_partner, partner_partner, Chains.k0_off6_eq_off5]) _ _ d q f
/-- The rows slot 4 lands on: the quarter the device gave away in slot 1. -/
theorem own_oKeep_peer4 {F : FTy → Type} [FloatOps F] (c d : Dev nD) (s : Fin 4) (q : PosShare TreeShare)
    (f : Buf (Elt F) ((d : Thread nD τ).loc cc0_stg1_0)) : own (oKeep (peer s 4 c) s) d q f = own (oGive c s) d q f :=
  own_slice_congr cc0_stg1_0 S32x512.size
    (by rw [peer4_eq, Chains.k0_off6_eq_off5, Chains.k0_off4_eq_partner]) _ _ d q f
theorem own_oKeep_peer2 {F : FTy → Type} [FloatOps F] (c d : Dev nD) (s : Fin 4) (q : PosShare TreeShare)
    (f : Buf (Elt F) ((d : Thread nD τ).loc cc0_stg1_0)) : own (oKeep (peer s 2 c) s) d q f = own (oKeep c s) d q f :=
  own_slice_congr cc0_stg1_0 S32x512.size (by rw [peer2_eq]; exact Chains.k0_off6_partner_far c s 2 (by decide)) _ _ d q f
theorem own_oKeep_peer3 {F : FTy → Type} [FloatOps F] (c d : Dev nD) (s : Fin 4) (q : PosShare TreeShare)
    (f : Buf (Elt F) ((d : Thread nD τ).loc cc0_stg1_0)) : own (oKeep (peer s 3 c) s) d q f = own (oKeep c s) d q f :=
  own_slice_congr cc0_stg1_0 S32x512.size (by rw [peer3_eq]; exact Chains.k0_off6_partner_far c s 3 (by decide)) _ _ d q f
theorem own_oHalf_peer1 {F : FTy → Type} [FloatOps F] (c d : Dev nD) (s : Fin 4) (q : PosShare TreeShare)
    (f : Buf (Elt F) ((d : Thread nD τ).loc cc0_stg1_0)) : own (oHalf (peer s 1 c) s) d q f = own (oHalf c s) d q f :=
  own_slice_congr cc0_stg1_0 S64x512.size (by rw [peer1_eq]; exact Chains.k0_off7_partner_second c s) _ _ d q f
theorem own_oHalf_peer4 {F : FTy → Type} [FloatOps F] (c d : Dev nD) (s : Fin 4) (q : PosShare TreeShare)
    (f : Buf (Elt F) ((d : Thread nD τ).loc cc0_stg1_0)) : own (oHalf (peer s 4 c) s) d q f = own (oHalf c s) d q f :=
  own_slice_congr cc0_stg1_0 S64x512.size (by rw [peer4_eq]; exact Chains.k0_off7_partner_second c s) _ _ d q f

/-! ## The same equations under the spellings `OH`, `OK`, `OG` (a device's own pieces) -/

theorem OH_quarters {F : FTy → Type} [FloatOps F] (c : Dev nD) (s : Fin 4) (q : PosShare TreeShare)
    (f : Buf (Elt F) ((c : Thread nD τ).loc cc0_stg1_0)) : OH c s q f = iprop(OK c s q f ∗ OG c s q f) :=
  oHalf_quarters c c s q f
theorem OH_halves {F : FTy → Type} [FloatOps F] (c : Dev nD) (s : Fin 4) (q : PosShare TreeShare)
    (f : Buf (Elt F) ((c : Thread nD τ).loc cc0_stg1_0)) : OH c s q f = iprop(OH c s q.left f ∗ OH c s q.right f) :=
  own_halves (oHalf c s) c q f
theorem OK_halves {F : FTy → Type} [FloatOps F] (c : Dev nD) (s : Fin 4) (q : PosShare TreeShare)
    (f : Buf (Elt F) ((c : Thread nD τ).loc cc0_stg1_0)) : OK c s q f = iprop(OK c s q.left f ∗ OK c s q.right f) :=
  own_halves (oKeep c s) c q f
theorem OG_halves {F : FTy → Type} [FloatOps F] (c : Dev nD) (s : Fin 4) (q : PosShare TreeShare)
    (f : Buf (Elt F) ((c : Thread nD τ).loc cc0_stg1_0)) : OG c s q f = iprop(OG c s q.left f ∗ OG c s q.right f) :=
  own_halves (oGive c s) c q f
theorem OH_lend {F : FTy → Type} [FloatOps F] (c : Dev nD) (s : Fin 4) (q : PosShare TreeShare)
    (f : Buf (Elt F) ((c : Thread nD τ).loc cc0_stg1_0)) :
    iprop(OK c s q.left f ∗ OG c s q f) = iprop(OH c s q.left f ∗ OG c s q.right f) := oHalf_lend c c s q f
theorem OH_rejoin {F : FTy → Type} [FloatOps F] (c : Dev nD) (s : Fin 4) (q : PosShare TreeShare)
    (f : Buf (Elt F) ((c : Thread nD τ).loc cc0_stg1_0)) :
    iprop(OH c s q.left.left f ∗ OH c s q.left.right f ∗ OK c s q.right f ∗ OG c s q.right f) = OH c s q f :=
  oHalf_rejoin c c s q f
/-- info: 'Cert.KernelIdeal.Proto.barPay_intro' depends on axioms: [propext, Classical.choice, Quot.sound] -/
#guard_msgs in #print axioms barPay_intro

/-- info: 'Cert.KernelIdeal.Proto.oHalf_rejoin' depends on axioms: [propext, Classical.choice, Quot.sound] -/
#guard_msgs in #print axioms oHalf_rejoin

/-- info: 'Cert.KernelIdeal.Proto.out_exit' depends on axioms: [propext, Classical.choice, Quot.sound] -/
#guard_msgs in #print axioms out_exit

/-- info: 'Cert.KernelIdeal.Proto.recv_exit' depends on axioms: [propext, Classical.choice, Quot.sound] -/
#guard_msgs in #print axioms recv_exit

/-- info: 'Cert.KernelIdeal.Proto.entry_barPays' depends on axioms: [propext, Classical.choice, Quot.sound] -/
#guard_msgs in #print axioms entry_barPays

/-- info: 'Cert.KernelIdeal.Proto.barPays_elim' depends on axioms: [propext, Classical.choice, Quot.sound] -/
#guard_msgs in #print axioms barPays_elim

/-- info: 'Cert.KernelIdeal.Proto.own_oKeep_peer4' depends on axioms: [propext, Classical.choice, Quot.sound] -/
#guard_msgs in #print axioms own_oKeep_peer4

/-- info: 'Cert.KernelIdeal.Proto.OH_rejoin' depends on axioms: [propext, Classical.choice, Quot.sound] -/
#guard_msgs in #print axioms OH_rejoin

end Cert.KernelIdeal.Proto

end
-- ==== Proof.StepsEnq.lean ====
/-
  The six remote copies of a stream, each as one step of the device's program.

  Slot `t` of stream `s` is one copy from device `c` to its partner along the slot's dimension: it pays the one duty of
  `c`'s own send cell and the one duty of the partner's receive cell, each with the slot's credit. The rows written
  go to the partner at the contents the partner ends with — that what lands IS those contents is the arithmetic of
  the rows: the half (quarter) a device gives away is the half (quarter) its partner keeps, the receive buffer files
  what arrives in slot `t` under the partner's level-`t` rows, and on the rows a device keeps the level-4 rows are
  final, for the device and for the partners that receive them in slots 4 and 5.
-/
import proofs.«900484_g7700000000000485_dist_treered_v7x_i16_m512_n512_f32_1_alg».proof.Proof.Res
import proofs.«900484_g7700000000000485_dist_treered_v7x_i16_m512_n512_f32_1_alg».proof.Proof.Tables
import proofs.«900484_g7700000000000485_dist_treered_v7x_i16_m512_n512_f32_1_alg».proof.Proof.Chains
import proofs.«900484_g7700000000000485_dist_treered_v7x_i16_m512_n512_f32_1_alg».proof.Proof.Regions

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The transfer of a slot, over any source and destination rows -/

/-- Slot `t` of stream `s`: device `c` copies rows `src` of its own, held at share `q` with contents `fs`, into rows
    `dst` of its partner's, which it holds whole; the source rows come back with the send cell's credit, the rows written
    go to the partner with the landing. -/
theorem step_enq (m : (ℓ : Loc nD τ sig) → Buf (Elt F) ℓ) (ρ : Dev nD → PrngReg)
    (K : Dev nD × CellK → ℕ) (c : Dev nD) (s : Fin 4) (t : Fin 6) {sh : Shape}
    (src dst : Memref sig .tc .vmem sh .f32) (q : PosShare TreeShare)
    (fs : Buf (Elt F) (src.view.loc ((c : Dev nD) : Thread nD τ)))
    (fd : Buf (Elt F) (dst.view.loc ((peer s t c : Dev nD) : Thread nD τ)))
    (hN : dst.view.dmaCredit = slotN t)
    {O' : CellTallies nD τ sig Unit} (O : CellTallies nD τ sig Unit) {W : Waits sig Unit}
    (hO : O' = O + tallyAt (recvCell (peer s t c) s t) () (slotN t))
    (hpay₁ : own src c q fs ⊢ sendPay m ρ c s t)
    (hpay₂ : own dst (peer s t c) fullShare (dst.view.write (Elt F) fd (src.view.read (Elt F) fs) Finset.univ)
      ⊢ recvPay m ρ (peer s t c) s t)
    {hsc : dst.view.ref.isScScratch = false} {hsrc : src.view.WordExact} {hdst : dst.view.WordExact}
    {hsem : (DmaTarget.remote (Dev.tc (peer s t c)) dst (.dma (sendQ s t)) hsc : DmaTarget nD τ sig .tc .vmem sh .f32).Typed .vmem (.dma (recvQ s t))}
    {α : Type} {Q : α → sProp 𝕄} {k : PUnit → Prog (TpuEff nD τ sig (Elt F) Λ₀ .tc) α} :
    iprop(cellInv ER (cubeRd m ρ) (K (c, .send s t)) (sendCell c s t)
        ∗ cellInv ER (cubeRd m ρ) (K (peer s t c, .recv s t)) (recvCell (peer s t c) s t)
        ∗ reached ER (sendCell c s t) 0 ∗ reached ER (recvCell (peer s t c) s t) 0
        ∗ own src c q fs ∗ own dst (peer s t c) fullShare fd ∗ owes (c : Thread nD τ) O' W
        ∗ dutyTok ER (sendCell c s t) 0 (0 : Fin 4) ∗ dutyTok ER (recvCell (peer s t c) s t) 0 (0 : Fin 4))
    ⊢ iprop(((cred (tallyAt (sendCell c s t) () (slotN t)) ∗ owes (c : Thread nD τ) O W) -∗ wpC c (k ⟨⟩) Q)
        -∗ wpC c (.op (.enqueueDma src (.remote (Dev.tc (peer s t c)) dst (.dma (sendQ s t)) hsc) (.dma (recvQ s t)) hsrc hdst hsem) k) Q) := by
  iintro ⟨Hg₁, Hg₂, Hr₁, Hr₂, Hsrc, Hdst, HL, Htok₁, Htok₂⟩ Hk
  have h := Rounds.wp_send_pointsTo (Γ := .empty) (defs := defs₀ (F := F)) 𝒱₀ ER (cubeRd m ρ) (c : Thread nD τ) none
    (hsc := hsc) (hsrc := hsrc) (hdst := hdst) (hsem := hsem) (Es := Set.univ) (Q := Q)
    (src := src) (dst := dst) (c' := ((peer s t c : Dev nD) : Thread nD τ))
    (sS := .dma (sendQ s t)) (sem := .dma (recvQ s t)) (k := k) (q := q) (fs := fs) (fd := fd) (W := W)
    (r₁ := 0) (r₂ := 0) (d₁ := (0 : Fin 4)) (d₂ := (0 : Fin 4)) (κ₁ := K (c, .send s t)) (κ₂ := K (peer s t c, .recv s t))
    (by rw [duties_send]; exact Finset.mem_singleton_self _) (by rw [duties_recv]; exact Finset.mem_singleton_self _)
    () () (slotN t) hN (amount_send m ρ c s t 0) (amount_recv m ρ (peer s t c) s t 0)
    (O₀ := O') O hO
    (by rw [payload_send]; exact hpay₁)
    (by rw [payload_recv]; exact hpay₂)
  iapply h $$ [Hg₁ Hg₂ Hsrc Hdst HL Htok₁ Hr₁ Htok₂ Hr₂]
  · isplitl [Hg₁]; · iexact Hg₁
    isplitl [Hg₂]; · iexact Hg₂
    isplitl [Hsrc]; · iexact Hsrc
    isplitl [Hdst]; · iexact Hdst
    isplitl [HL]; · iexact HL
    isplitl [Htok₁]; · iexact Htok₁
    isplitl [Hr₁]; · iexact Hr₁
    isplitl [Htok₂]; · iexact Htok₂
    iexact Hr₂
  iexact Hk

/-- The same when the source rows travel to the partner with the landing (slot 1): the send cell hands back nothing. -/
theorem step_enq_landing (m : (ℓ : Loc nD τ sig) → Buf (Elt F) ℓ) (ρ : Dev nD → PrngReg)
    (K : Dev nD × CellK → ℕ) (c : Dev nD) (s : Fin 4) (t : Fin 6) {sh : Shape}
    (src dst : Memref sig .tc .vmem sh .f32) (q : PosShare TreeShare)
    (fs : Buf (Elt F) (src.view.loc ((c : Dev nD) : Thread nD τ)))
    (fd : Buf (Elt F) (dst.view.loc ((peer s t c : Dev nD) : Thread nD τ)))
    (hN : dst.view.dmaCredit = slotN t)
    {O' : CellTallies nD τ sig Unit} (O : CellTallies nD τ sig Unit) {W : Waits sig Unit}
    (hO : O' = O + tallyAt (recvCell (peer s t c) s t) () (slotN t))
    (hpay₁ : (emp : sProp 𝕄) ⊢ sendPay m ρ c s t)
    (hpay₂ : iprop(own dst (peer s t c) fullShare (dst.view.write (Elt F) fd (src.view.read (Elt F) fs) Finset.univ) ∗ own src c q fs)
      ⊢ recvPay m ρ (peer s t c) s t)
    {hsc : dst.view.ref.isScScratch = false} {hsrc : src.view.WordExact} {hdst : dst.view.WordExact}
    {hsem : (DmaTarget.remote (Dev.tc (peer s t c)) dst (.dma (sendQ s t)) hsc : DmaTarget nD τ sig .tc .vmem sh .f32).Typed .vmem (.dma (recvQ s t))}
    {α : Type} {Q : α → sProp 𝕄} {k : PUnit → Prog (TpuEff nD τ sig (Elt F) Λ₀ .tc) α} :
    iprop(cellInv ER (cubeRd m ρ) (K (c, .send s t)) (sendCell c s t)
        ∗ cellInv ER (cubeRd m ρ) (K (peer s t c, .recv s t)) (recvCell (peer s t c) s t)
        ∗ reached ER (sendCell c s t) 0 ∗ reached ER (recvCell (peer s t c) s t) 0
        ∗ own src c q fs ∗ own dst (peer s t c) fullShare fd ∗ owes (c : Thread nD τ) O' W
        ∗ dutyTok ER (sendCell c s t) 0 (0 : Fin 4) ∗ dutyTok ER (recvCell (peer s t c) s t) 0 (0 : Fin 4))
    ⊢ iprop(((cred (tallyAt (sendCell c s t) () (slotN t)) ∗ owes (c : Thread nD τ) O W) -∗ wpC c (k ⟨⟩) Q)
        -∗ wpC c (.op (.enqueueDma src (.remote (Dev.tc (peer s t c)) dst (.dma (sendQ s t)) hsc) (.dma (recvQ s t)) hsrc hdst hsem) k) Q) := by
  iintro ⟨Hg₁, Hg₂, Hr₁, Hr₂, Hsrc, Hdst, HL, Htok₁, Htok₂⟩ Hk
  have h := Rounds.wp_send_landing_pointsTo (Γ := .empty) (defs := defs₀ (F := F)) 𝒱₀ ER (cubeRd m ρ) (c : Thread nD τ) none
    (hsc := hsc) (hsrc := hsrc) (hdst := hdst) (hsem := hsem) (Es := Set.univ) (Q := Q)
    (src := src) (dst := dst) (c' := ((peer s t c : Dev nD) : Thread nD τ))
    (sS := .dma (sendQ s t)) (sem := .dma (recvQ s t)) (k := k) (q := q) (fs := fs) (fd := fd) (W := W)
    (r₁ := 0) (r₂ := 0) (d₁ := (0 : Fin 4)) (d₂ := (0 : Fin 4)) (κ₁ := K (c, .send s t)) (κ₂ := K (peer s t c, .recv s t))
    (by rw [duties_send]; exact Finset.mem_singleton_self _) (by rw [duties_recv]; exact Finset.mem_singleton_self _)
    () () (slotN t) hN (amount_send m ρ c s t 0) (amount_recv m ρ (peer s t c) s t 0)
    (O₀ := O') O hO
    (by rw [payload_send]; exact hpay₁)
    (by rw [payload_recv]; exact hpay₂)
  iapply h $$ [Hg₁ Hg₂ Hsrc Hdst HL Htok₁ Hr₁ Htok₂ Hr₂]
  · isplitl [Hg₁]; · iexact Hg₁
    isplitl [Hg₂]; · iexact Hg₂
    isplitl [Hsrc]; · iexact Hsrc
    isplitl [Hdst]; · iexact Hdst
    isplitl [HL]; · iexact HL
    isplitl [Htok₁]; · iexact Htok₁
    isplitl [Hr₁]; · iexact Hr₁
    isplitl [Htok₂]; · iexact Htok₂
    iexact Hr₂
  iexact Hk

variable (m : (ℓ : Loc nD τ sig) → Buf (Elt F) ℓ) (ρ : Dev nD → PrngReg)

/-! ## The final contents at a row -/

/-- The final receive buffer at a row: stream, slot and source row given by arithmetic on the row. -/
theorem recvFinal_at (c' : Dev nD) (i : S640x512.Idx) (s : Fin 4) (t : Fin 6) (R : Fin 512)
    (hs : (i 0).val / 160 = s.val)
    (ht : t = if (i 0).val % 160 < 64 then 0 else if (i 0).val % 160 < 96 then 1 else if (i 0).val % 160 < 128 then 2 else 3)
    (hR : R.val = 128 * s.val + 64 * lbit (dimOf s 0) c'
      + (if (i 0).val % 160 < 64 then (i 0).val % 160 else 32 * lbit (dimOf s 1) c' + ((i 0).val % 160 - 64) % 32)) :
    recvFinal m ρ c' i = lvl m ρ t.val (peer s t c') R (i 1) := by
  have hb : (i 0).val / 160 < 4 := by clear hs hR ht; have h640 : (i 0).val < 640 := (i 0).isLt; omega
  obtain rfl : s = ⟨(i 0).val / 160, hb⟩ := Fin.ext hs.symm
  subst ht
  unfold recvFinal
  dsimp only
  refine (dif_pos ?_).trans ?_
  · have := R.isLt; rw [hR] at this; exact this
  · congr 1; exact Fin.ext hR.symm

/-- The first receive block of stream `s` (64 rows from `160 s`) holds the partner's own rows. -/
theorem recvFinal_slot0 (p : Dev nD) (s : Fin 4) (i : S640x512.Idx) (r : Nat) (hr : r < 64) (hi : (i 0).val = 160 * s.val + r)
    (R : Fin 512) (hR : R.val = 128 * s.val + 64 * lbit (dimOf s 0) p + r) :
    recvFinal m ρ p i = lvl m ρ 0 (peer s 0 p) R (i 1) :=
  recvFinal_at m ρ p i s 0 R (by rw [hi]; have := s.isLt; omega) (by rw [hi, if_pos (by omega)])
    (by rw [hi, if_pos (by omega), hR]; omega)

/-- The later receive blocks (32 rows from `160 s + 64, + 96, + 128`) hold the partner's rows of level 1, 2, 3. -/
theorem recvFinal_slot (p : Dev nD) (s : Fin 4) (t : Fin 6) (ht : t = 1 ∨ t = 2 ∨ t = 3) (i : S640x512.Idx) (r : Nat) (hr : r < 32)
    (hi : (i 0).val = 160 * s.val + 32 * (t.val + 1) + r)
    (R : Fin 512) (hR : R.val = 128 * s.val + 64 * lbit (dimOf s 0) p + 32 * lbit (dimOf s 1) p + r) :
    recvFinal m ρ p i = lvl m ρ t.val (peer s t p) R (i 1) := by
  rcases ht with rfl | rfl | rfl
  · exact recvFinal_at m ρ p i s 1 R (by rw [hi]; show (160 * s.val + 32 * (1 + 1) + r) / 160 = _; have := s.isLt; omega)
      (by rw [hi]; show _ = if (160 * s.val + 32 * (1 + 1) + r) % 160 < 64 then _ else _
          rw [if_neg (by omega), if_pos (by omega)])
      (by rw [hi]; show _ = _ + if (160 * s.val + 32 * (1 + 1) + r) % 160 < 64 then _ else _
          rw [if_neg (by omega), hR]; omega)
  · exact recvFinal_at m ρ p i s 2 R (by rw [hi]; show (160 * s.val + 32 * (2 + 1) + r) / 160 = _; have := s.isLt; omega)
      (by rw [hi]; show _ = if (160 * s.val + 32 * (2 + 1) + r) % 160 < 64 then _ else _
          rw [if_neg (by omega), if_neg (by omega), if_pos (by omega)])
      (by rw [hi]; show _ = _ + if (160 * s.val + 32 * (2 + 1) + r) % 160 < 64 then _ else _
          rw [if_neg (by omega), hR]; omega)
  · exact recvFinal_at m ρ p i s 3 R (by rw [hi]; show (160 * s.val + 32 * (3 + 1) + r) / 160 = _; have := s.isLt; omega)
      (by rw [hi]; show _ = if (160 * s.val + 32 * (3 + 1) + r) % 160 < 64 then _ else _
          rw [if_neg (by omega), if_neg (by omega), if_neg (by omega)])
      (by rw [hi]; show _ = _ + if (160 * s.val + 32 * (3 + 1) + r) % 160 < 64 then _ else _
          rw [if_neg (by omega), hR]; omega)

/-- The final result at a row of stream `s`. -/
theorem outFinal_at (c' : Dev nD) (i : S512x512.Idx) (s : Fin 4) (hs : (i 0).val / 128 = s.val) :
    outFinal m ρ c' i = lvl m ρ 4 (owner s c' ((i 0).val % 128)) (i 0) (i 1) := by
  have hb : (i 0).val / 128 < 4 := by clear hs; have := ValueIdx.idx2_lt0 i; omega
  obtain rfl : s = ⟨(i 0).val / 128, hb⟩ := Fin.ext hs.symm
  rfl

/-! ## Where the rows of each piece lie -/

omit [FloatOps F] in
/-- A unit-stride slice of a whole buffer places its indices at the offsets. -/
theorem slice_emb_val (b : Ref sig .tc) (off size : Fin b.ty.shape.rank → Nat) (inb : ∀ a, off a + size a ≤ b.ty.shape.size a)
    (y : (⟨b.ty.shape.rank, size⟩ : Shape).Idx) (a : Fin b.ty.shape.rank) :
    ((((Memref.whole b).slice (Rect.unit off size inb) (fun _ => rfl)).view.emb y) a).val = off a + (y a).val := by
  show off a + 1 * (y a).val = _; omega

omit [FloatOps F] in
theorem rSlot0_emb (s : Fin 4) (y : S64x512.Idx) :
    ((rSlot0 s).view.emb y (0 : Fin 2)).val = 160 * s.val + (y 0).val ∧ ((rSlot0 s).view.emb y (1 : Fin 2)).val = (y 1).val := by
  constructor
  · refine (slice_emb_val cc0_scratch0 _ _ _ y (0 : Fin 2)).trans ?_
    show rRow s 0 + (y 0).val = _; unfold rRow; simp
  · refine (slice_emb_val cc0_scratch0 _ _ _ y (1 : Fin 2)).trans ?_
    show 0 + (y 1).val = _; omega

omit [FloatOps F] in
theorem rSlot_emb (s : Fin 4) (t : Fin 6) (ht : t = 1 ∨ t = 2 ∨ t = 3) (y : S32x512.Idx) :
    ((rSlot s t ht).view.emb y (0 : Fin 2)).val = 160 * s.val + 32 * (t.val + 1) + (y 0).val
      ∧ ((rSlot s t ht).view.emb y (1 : Fin 2)).val = (y 1).val := by
  constructor
  · refine (slice_emb_val cc0_scratch0 _ _ _ y (0 : Fin 2)).trans ?_
    show rRow s t + (y 0).val = _
    rcases ht with rfl | rfl | rfl <;> (unfold rRow; simp)
  · refine (slice_emb_val cc0_scratch0 _ _ _ y (1 : Fin 2)).trans ?_
    show 0 + (y 1).val = _; omega

omit [FloatOps F] in
theorem oGive_emb (c : Dev nD) (s : Fin 4) (y : S32x512.Idx) :
    ((oGive c s).view.emb y (0 : Fin 2)).val = 128 * s.val + 64 * lbit (dimOf s 0) c + 32 * (1 - lbit (dimOf s 1) c) + (y 0).val
      ∧ ((oGive c s).view.emb y (1 : Fin 2)).val = (y 1).val := by
  constructor
  · refine (slice_emb_val cc0_stg1_0 _ _ _ y (0 : Fin 2)).trans ?_
    rw [Chains.k0_off4_eq]; rfl
  · refine (slice_emb_val cc0_stg1_0 _ _ _ y (1 : Fin 2)).trans ?_
    rw [Chains.k0_off4_eq]; show 0 + (y 1).val = _; omega

omit [FloatOps F] in
theorem oKeep_emb (c : Dev nD) (s : Fin 4) (y : S32x512.Idx) :
    ((oKeep c s).view.emb y (0 : Fin 2)).val = 128 * s.val + 64 * lbit (dimOf s 0) c + 32 * lbit (dimOf s 1) c + (y 0).val
      ∧ ((oKeep c s).view.emb y (1 : Fin 2)).val = (y 1).val := by
  constructor
  · refine (slice_emb_val cc0_stg1_0 _ _ _ y (0 : Fin 2)).trans ?_
    rw [Chains.k0_off6_eq]; rfl
  · refine (slice_emb_val cc0_stg1_0 _ _ _ y (1 : Fin 2)).trans ?_
    rw [Chains.k0_off6_eq]; show 0 + (y 1).val = _; omega

omit [FloatOps F] in
theorem oHalf_emb (c : Dev nD) (s : Fin 4) (y : S64x512.Idx) :
    ((oHalf c s).view.emb y (0 : Fin 2)).val = 128 * s.val + 64 * lbit (dimOf s 0) c + (y 0).val
      ∧ ((oHalf c s).view.emb y (1 : Fin 2)).val = (y 1).val := by
  constructor
  · refine (slice_emb_val cc0_stg1_0 _ _ _ y (0 : Fin 2)).trans ?_
    rw [Chains.k0_off7_eq]; rfl
  · refine (slice_emb_val cc0_stg1_0 _ _ _ y (1 : Fin 2)).trans ?_
    rw [Chains.k0_off7_eq]; show 0 + (y 1).val = _; omega

omit [FloatOps F] in
/-- Where the rows of the given half of `x` lie. -/
theorem xGive_emb (c : Dev nD) (s : Fin 4) (y : S64x512.Idx) :
    (xGive c s).view.emb y = ValueIdx.ix3 (0 : Fin 1)
      (⟨128 * s.val + 64 * (1 - lbit (dimOf s 0) c) + (y 0).val, by
        have := lbit_le (dimOf s 0) c; have := s.isLt; have := ValueIdx.idx2_lt0 y; omega⟩ : Fin 512) (y 1 : Fin 512) := by
  have hq : Shape.reshapeEquiv (Shape.Squeezes.numel_eq squeezes_S1x64x512_S64x512) y
      = (ValueIdx.ix3 (0 : Fin 1) (y 0 : Fin 64) (y 1 : Fin 512) : S1x64x512.Idx) :=
    Shape.reshapeEquiv_eq_of_rowMajor _ (by
      rw [Shape.rowMajor_val_three, Shape.rowMajor_val_two]
      show (0 * 64 + (y 0).val) * 512 + (y 1).val = (y 0).val * 512 + (y 1).val
      omega)
  funext a
  refine Fin.ext ?_
  simp only [Memref.view_squeeze, Memref.view_slice, Memref.view_whole, View.emb_reshape, View.emb_slice, View.emb_whole,
    Function.Embedding.trans_apply, Function.Embedding.refl_apply, Equiv.coe_toEmbedding, Rect.emb_apply]
  rw [hq]
  show (k0_off1 c (k0_off1_at s).1 (k0_off1_at s).2) a + 1 * (ValueIdx.ix3 (0 : Fin 1) (y 0 : Fin 64) (y 1 : Fin 512) a).val = _
  have hk := Chains.k0_off1_eq c s
  have hk0 : k0_off1 c (k0_off1_at s).1 (k0_off1_at s).2 0 = 0 := by rw [hk]; rfl
  have hk1 : k0_off1 c (k0_off1_at s).1 (k0_off1_at s).2 1 = 128 * s.val + 64 * (1 - lbit (dimOf s 0) c) := by rw [hk]; rfl
  have hk2 : k0_off1 c (k0_off1_at s).1 (k0_off1_at s).2 2 = 0 := by rw [hk]; rfl
  match a with
  | ⟨0, _⟩ => show k0_off1 c (k0_off1_at s).1 (k0_off1_at s).2 0 + 1 * 0 = 0; omega
  | ⟨1, _⟩ => show k0_off1 c (k0_off1_at s).1 (k0_off1_at s).2 1 + 1 * (y 0).val = 128 * s.val + 64 * (1 - lbit (dimOf s 0) c) + (y 0).val; omega
  | ⟨2, _⟩ => show k0_off1 c (k0_off1_at s).1 (k0_off1_at s).2 2 + 1 * (y 1).val = (y 1).val; omega

/-! ## The label bits of the partners, and who keeps a row -/

theorem lb0_p0 : ∀ (s : Fin 4) (c : Fin 16), lbit (dimOf s 0) (partner (dimOf s 0) c) = 1 - lbit (dimOf s 0) c := by decide
theorem lb0_p1 : ∀ (s : Fin 4) (c : Fin 16), lbit (dimOf s 0) (partner (dimOf s 1) c) = lbit (dimOf s 0) c := by decide
theorem lb1_p1 : ∀ (s : Fin 4) (c : Fin 16), lbit (dimOf s 1) (partner (dimOf s 1) c) = 1 - lbit (dimOf s 1) c := by decide
theorem lb0_p2 : ∀ (s : Fin 4) (c : Fin 16), lbit (dimOf s 0) (partner (dimOf s 2) c) = lbit (dimOf s 0) c := by decide
theorem lb1_p2 : ∀ (s : Fin 4) (c : Fin 16), lbit (dimOf s 1) (partner (dimOf s 2) c) = lbit (dimOf s 1) c := by decide
theorem lb0_p3 : ∀ (s : Fin 4) (c : Fin 16), lbit (dimOf s 0) (partner (dimOf s 3) c) = lbit (dimOf s 0) c := by decide
theorem lb1_p3 : ∀ (s : Fin 4) (c : Fin 16), lbit (dimOf s 1) (partner (dimOf s 3) c) = lbit (dimOf s 1) c := by decide

/-- A device keeps the rows of its own kept quarter, -/
theorem owner_self : ∀ (s : Fin 4) (c : Fin 16) (r : Fin 128), r.val / 64 % 2 = lbit (dimOf s 0) c → r.val / 32 % 2 = lbit (dimOf s 1) c →
    owner s c r.val = c := by decide +kernel
/-- its partner along the stream's second dimension finds them kept by the device, -/
theorem owner_p1 : ∀ (s : Fin 4) (c : Fin 16) (r : Fin 128), r.val / 64 % 2 = lbit (dimOf s 0) c → r.val / 32 % 2 = lbit (dimOf s 1) c →
    owner s (partner (dimOf s 1) c) r.val = c := by decide +kernel
/-- and for the rows of the device's kept half, its partner along the first dimension finds what the device finds. -/
theorem owner_p0 : ∀ (s : Fin 4) (c : Fin 16) (r : Fin 128), r.val / 64 % 2 = lbit (dimOf s 0) c →
    owner s (partner (dimOf s 0) c) r.val = owner s c r.val := by decide +kernel

/-! ## What lands is the partner's final contents -/

/-- Slot 0: the given half of `x` is the partner's first receive block. -/
theorem landed0_eq (c : Dev nD) (s : Fin 4) (fd : Buf (Elt F) ((rSlot0 s).view.loc ((peer s 0 c : Dev nD) : Thread nD τ))) :
    ∀ i ∈ (rSlot0 s).view.set, (rSlot0 s).view.write (Elt F) fd ((xGive c s).view.read (Elt F) (xstg m ρ c)) Finset.univ i
        = recvFinal m ρ (peer s 0 c) i := by
  intro i hi
  obtain ⟨y, rfl⟩ := View.exists_emb_of_mem_set _ hi
  rw [View.write_emb_of_mem _ _ (Finset.mem_univ y)]
  obtain ⟨h0, h1⟩ := rSlot0_emb s y
  have hy := ValueIdx.idx2_lt0 y
  have hle := lbit_le (dimOf s 0) c
  rw [recvFinal_slot0 m ρ (peer s 0 c) s _ (y 0).val hy h0
    ⟨128 * s.val + 64 * (1 - lbit (dimOf s 0) c) + (y 0).val, by have := s.isLt; omega⟩
    (by show _ = 128 * s.val + 64 * lbit (dimOf s 0) (partner (dimOf s 0) c) + _; rw [lb0_p0])]
  rw [peer_peer]
  show xstg m ρ c ((xGive c s).view.emb y) = xstg m ρ c _
  rw [xGive_emb]
  exact congrArg (xstg m ρ c) (funext fun a => by
    match a with
    | ⟨0, _⟩ => rfl
    | ⟨1, _⟩ => rfl
    | ⟨2, _⟩ => exact Fin.ext h1.symm)

/-- Slot 1: the given quarter at level 1 is the partner's second receive block. -/
theorem landed1_eq (c : Dev nD) (s : Fin 4) (fd : Buf (Elt F) ((rSlot s 1 (.inl rfl)).view.loc ((peer s 1 c : Dev nD) : Thread nD τ))) :
    ∀ i ∈ (rSlot s 1 (.inl rfl)).view.set,
      (rSlot s 1 (.inl rfl)).view.write (Elt F) fd ((oGive c s).view.read (Elt F) (outLvl m ρ 1 c)) Finset.univ i
        = recvFinal m ρ (peer s 1 c) i := by
  intro i hi
  obtain ⟨y, rfl⟩ := View.exists_emb_of_mem_set _ hi
  rw [View.write_emb_of_mem _ _ (Finset.mem_univ y)]
  obtain ⟨h0, h1⟩ := rSlot_emb s 1 (.inl rfl) y
  obtain ⟨g0, g1⟩ := oGive_emb c s y
  have hy := ValueIdx.idx2_lt0 y
  rw [recvFinal_slot m ρ (peer s 1 c) s 1 (.inl rfl) _ (y 0).val hy h0 ((oGive c s).view.emb y (0 : Fin 2))
    (by rw [g0]; show _ = 128 * s.val + 64 * lbit (dimOf s 0) (partner (dimOf s 1) c) + 32 * lbit (dimOf s 1) (partner (dimOf s 1) c) + _
        rw [lb0_p1, lb1_p1])]
  rw [peer_peer]
  show lvl m ρ 1 c ((oGive c s).view.emb y (0 : Fin 2)) ((oGive c s).view.emb y (1 : Fin 2)) = _
  exact congrArg (lvl m ρ 1 c _) (Fin.ext (g1.trans h1.symm))

/-- Slot 2: the kept quarter at level 2 is the partner's third receive block. -/
theorem landed2_eq (c : Dev nD) (s : Fin 4) (fd : Buf (Elt F) ((rSlot s 2 (.inr (.inl rfl))).view.loc ((peer s 2 c : Dev nD) : Thread nD τ))) :
    ∀ i ∈ (rSlot s 2 (.inr (.inl rfl))).view.set,
      (rSlot s 2 (.inr (.inl rfl))).view.write (Elt F) fd ((oKeep c s).view.read (Elt F) (outLvl m ρ 2 c)) Finset.univ i
        = recvFinal m ρ (peer s 2 c) i := by
  intro i hi
  obtain ⟨y, rfl⟩ := View.exists_emb_of_mem_set _ hi
  rw [View.write_emb_of_mem _ _ (Finset.mem_univ y)]
  obtain ⟨h0, h1⟩ := rSlot_emb s 2 (.inr (.inl rfl)) y
  obtain ⟨g0, g1⟩ := oKeep_emb c s y
  have hy := ValueIdx.idx2_lt0 y
  rw [recvFinal_slot m ρ (peer s 2 c) s 2 (.inr (.inl rfl)) _ (y 0).val hy h0 ((oKeep c s).view.emb y (0 : Fin 2))
    (by rw [g0]; show _ = 128 * s.val + 64 * lbit (dimOf s 0) (partner (dimOf s 2) c) + 32 * lbit (dimOf s 1) (partner (dimOf s 2) c) + _
        rw [lb0_p2, lb1_p2])]
  rw [peer_peer]
  show lvl m ρ 2 c ((oKeep c s).view.emb y (0 : Fin 2)) ((oKeep c s).view.emb y (1 : Fin 2)) = _
  exact congrArg (lvl m ρ 2 c _) (Fin.ext (g1.trans h1.symm))

/-- Slot 3: the kept quarter at level 3 is the partner's fourth receive block. -/
theorem landed3_eq (c : Dev nD) (s : Fin 4) (fd : Buf (Elt F) ((rSlot s 3 (.inr (.inr rfl))).view.loc ((peer s 3 c : Dev nD) : Thread nD τ))) :
    ∀ i ∈ (rSlot s 3 (.inr (.inr rfl))).view.set,
      (rSlot s 3 (.inr (.inr rfl))).view.write (Elt F) fd ((oKeep c s).view.read (Elt F) (outLvl m ρ 3 c)) Finset.univ i
        = recvFinal m ρ (peer s 3 c) i := by
  intro i hi
  obtain ⟨y, rfl⟩ := View.exists_emb_of_mem_set _ hi
  rw [View.write_emb_of_mem _ _ (Finset.mem_univ y)]
  obtain ⟨h0, h1⟩ := rSlot_emb s 3 (.inr (.inr rfl)) y
  obtain ⟨g0, g1⟩ := oKeep_emb c s y
  have hy := ValueIdx.idx2_lt0 y
  rw [recvFinal_slot m ρ (peer s 3 c) s 3 (.inr (.inr rfl)) _ (y 0).val hy h0 ((oKeep c s).view.emb y (0 : Fin 2))
    (by rw [g0]; show _ = 128 * s.val + 64 * lbit (dimOf s 0) (partner (dimOf s 3) c) + 32 * lbit (dimOf s 1) (partner (dimOf s 3) c) + _
        rw [lb0_p3, lb1_p3])]
  rw [peer_peer]
  show lvl m ρ 3 c ((oKeep c s).view.emb y (0 : Fin 2)) ((oKeep c s).view.emb y (1 : Fin 2)) = _
  exact congrArg (lvl m ρ 3 c _) (Fin.ext (g1.trans h1.symm))

/-- On a device's kept quarter the level-4 rows are the final rows. -/
theorem outLvl4_eq_outFinal (c : Dev nD) (s : Fin 4) : ∀ i ∈ (oKeep c s).view.set, outLvl m ρ 4 c i = outFinal m ρ c i := by
  intro i hi
  obtain ⟨y, rfl⟩ := View.exists_emb_of_mem_set _ hi
  obtain ⟨k0, k1⟩ := oKeep_emb c s y
  have hy := ValueIdx.idx2_lt0 y
  have hl0 := lbit_le (dimOf s 0) c
  have hl1 := lbit_le (dimOf s 1) c
  have hs : ((oKeep c s).view.emb y (0 : Fin 2)).val / 128 = s.val := by rw [k0]; have := s.isLt; omega
  rw [outFinal_at m ρ c _ s hs]
  have e := owner_self s c ⟨((oKeep c s).view.emb y (0 : Fin 2)).val % 128, Nat.mod_lt _ (by decide)⟩
    (by show _ % 128 / 64 % 2 = _; rw [k0]; omega) (by show _ % 128 / 32 % 2 = _; rw [k0]; omega)
  exact (congrArg (fun d => lvl m ρ 4 d ((oKeep c s).view.emb y (0 : Fin 2)) ((oKeep c s).view.emb y (1 : Fin 2))) e).symm

/-- Slot 4: the kept quarter at its final contents is final on the partner too. -/
theorem landed4_eq (c : Dev nD) (s : Fin 4) (fd : Buf (Elt F) ((oKeep c s).view.loc ((peer s 4 c : Dev nD) : Thread nD τ))) :
    ∀ i ∈ (oKeep c s).view.set, (oKeep c s).view.write (Elt F) fd ((oKeep c s).view.read (Elt F) (outFinal m ρ c)) Finset.univ i
        = outFinal m ρ (peer s 4 c) i := by
  intro i hi
  obtain ⟨y, rfl⟩ := View.exists_emb_of_mem_set _ hi
  rw [View.write_emb_of_mem _ _ (Finset.mem_univ y)]
  obtain ⟨k0, k1⟩ := oKeep_emb c s y
  have hy := ValueIdx.idx2_lt0 y
  have hl0 := lbit_le (dimOf s 0) c
  have hl1 := lbit_le (dimOf s 1) c
  show outFinal m ρ c ((oKeep c s).view.emb y) = _
  have hs : ((oKeep c s).view.emb y (0 : Fin 2)).val / 128 = s.val := by rw [k0]; have := s.isLt; omega
  rw [outFinal_at m ρ c _ s hs, outFinal_at m ρ (peer s 4 c) _ s hs]
  have e := owner_self s c ⟨((oKeep c s).view.emb y (0 : Fin 2)).val % 128, Nat.mod_lt _ (by decide)⟩
    (by show _ % 128 / 64 % 2 = _; rw [k0]; omega) (by show _ % 128 / 32 % 2 = _; rw [k0]; omega)
  have e' := owner_p1 s c ⟨((oKeep c s).view.emb y (0 : Fin 2)).val % 128, Nat.mod_lt _ (by decide)⟩
    (by show _ % 128 / 64 % 2 = _; rw [k0]; omega) (by show _ % 128 / 32 % 2 = _; rw [k0]; omega)
  exact (congrArg (fun d => lvl m ρ 4 d ((oKeep c s).view.emb y (0 : Fin 2)) ((oKeep c s).view.emb y (1 : Fin 2))) e).trans
    (congrArg (fun d => lvl m ρ 4 d ((oKeep c s).view.emb y (0 : Fin 2)) ((oKeep c s).view.emb y (1 : Fin 2))) e').symm

/-- Slot 5: the kept half at its final contents is final on the partner too. -/
theorem landed5_eq (c : Dev nD) (s : Fin 4) (fd : Buf (Elt F) ((oHalf c s).view.loc ((peer s 5 c : Dev nD) : Thread nD τ))) :
    ∀ i ∈ (oHalf c s).view.set, (oHalf c s).view.write (Elt F) fd ((oHalf c s).view.read (Elt F) (outFinal m ρ c)) Finset.univ i
        = outFinal m ρ (peer s 5 c) i := by
  intro i hi
  obtain ⟨y, rfl⟩ := View.exists_emb_of_mem_set _ hi
  rw [View.write_emb_of_mem _ _ (Finset.mem_univ y)]
  obtain ⟨k0, k1⟩ := oHalf_emb c s y
  have hy := ValueIdx.idx2_lt0 y
  have hl0 := lbit_le (dimOf s 0) c
  show outFinal m ρ c ((oHalf c s).view.emb y) = _
  have hs : ((oHalf c s).view.emb y (0 : Fin 2)).val / 128 = s.val := by rw [k0]; have := s.isLt; omega
  rw [outFinal_at m ρ c _ s hs, outFinal_at m ρ (peer s 5 c) _ s hs]
  have e := owner_p0 s c ⟨((oHalf c s).view.emb y (0 : Fin 2)).val % 128, Nat.mod_lt _ (by decide)⟩
    (by show _ % 128 / 64 % 2 = _; rw [k0]; omega)
  exact (congrArg (fun d => lvl m ρ 4 d ((oHalf c s).view.emb y (0 : Fin 2)) ((oHalf c s).view.emb y (1 : Fin 2))) e).symm

/-! ## The six transfers of a stream -/

section Six
variable (K : Dev nD × CellK → ℕ) (c : Dev nD) (s : Fin 4)

/-- Slot 0: the given half of `x` into the partner's first receive block. -/
theorem step_enq0 (fd : Buf (Elt F) ((rSlot0 s).view.loc ((peer s 0 c : Dev nD) : Thread nD τ)))
    {O' : CellTallies nD τ sig Unit} (O : CellTallies nD τ sig Unit) {W : Waits sig Unit}
    (hO : O' = O + tallyAt (recvCell (peer s 0 c) s 0) () (slotN 0))
    {hsc : (rSlot0 s).view.ref.isScScratch = false} {hsrc : (xGive c s).view.WordExact} {hdst : (rSlot0 s).view.WordExact}
    {hsem : (DmaTarget.remote (Dev.tc (peer s 0 c)) (rSlot0 s) (.dma (sendQ s 0)) hsc : DmaTarget nD τ sig .tc .vmem S64x512 .f32).Typed .vmem (.dma (recvQ s 0))}
    {α : Type} {Q : α → sProp 𝕄} {k : PUnit → Prog (TpuEff nD τ sig (Elt F) Λ₀ .tc) α} :
    iprop(cellInv ER (cubeRd m ρ) (K (c, .send s 0)) (sendCell c s 0)
        ∗ cellInv ER (cubeRd m ρ) (K (peer s 0 c, .recv s 0)) (recvCell (peer s 0 c) s 0)
        ∗ reached ER (sendCell c s 0) 0 ∗ reached ER (recvCell (peer s 0 c) s 0) 0
        ∗ XG m ρ c s ∗ own (rSlot0 s) (peer s 0 c) fullShare fd ∗ owes (c : Thread nD τ) O' W
        ∗ dutyTok ER (sendCell c s 0) 0 (0 : Fin 4) ∗ dutyTok ER (recvCell (peer s 0 c) s 0) 0 (0 : Fin 4))
    ⊢ iprop(((cred (tallyAt (sendCell c s 0) () (slotN 0)) ∗ owes (c : Thread nD τ) O W) -∗ wpC c (k ⟨⟩) Q)
        -∗ wpC c (.op (.enqueueDma (xGive c s) (.remote (Dev.tc (peer s 0 c)) (rSlot0 s) (.dma (sendQ s 0)) hsc) (.dma (recvQ s 0)) hsrc hdst hsem) k) Q) :=
  step_enq m ρ K c s 0 (xGive c s) (rSlot0 s) fullShare (xstg m ρ c) fd rfl O hO BIBase.Entails.rfl
    (BIBase.Entails.of_eq (pointsTo_congr (landed0_eq m ρ c s fd)))

/-- Slot 1: the given quarter of `out` into the partner's second receive block; the source rows go with the landing. -/
theorem step_enq1 (fd : Buf (Elt F) ((rSlot s 1 (.inl rfl)).view.loc ((peer s 1 c : Dev nD) : Thread nD τ)))
    {O' : CellTallies nD τ sig Unit} (O : CellTallies nD τ sig Unit) {W : Waits sig Unit}
    (hO : O' = O + tallyAt (recvCell (peer s 1 c) s 1) () (slotN 1))
    {hsc : (rSlot s 1 (.inl rfl)).view.ref.isScScratch = false} {hsrc : (oGive c s).view.WordExact} {hdst : (rSlot s 1 (.inl rfl)).view.WordExact}
    {hsem : (DmaTarget.remote (Dev.tc (peer s 1 c)) (rSlot s 1 (.inl rfl)) (.dma (sendQ s 1)) hsc : DmaTarget nD τ sig .tc .vmem S32x512 .f32).Typed .vmem (.dma (recvQ s 1))}
    {α : Type} {Q : α → sProp 𝕄} {k : PUnit → Prog (TpuEff nD τ sig (Elt F) Λ₀ .tc) α} :
    iprop(cellInv ER (cubeRd m ρ) (K (c, .send s 1)) (sendCell c s 1)
        ∗ cellInv ER (cubeRd m ρ) (K (peer s 1 c, .recv s 1)) (recvCell (peer s 1 c) s 1)
        ∗ reached ER (sendCell c s 1) 0 ∗ reached ER (recvCell (peer s 1 c) s 1) 0
        ∗ own (oGive c s) c fullShare (outLvl m ρ 1 c) ∗ own (rSlot s 1 (.inl rfl)) (peer s 1 c) fullShare fd ∗ owes (c : Thread nD τ) O' W
        ∗ dutyTok ER (sendCell c s 1) 0 (0 : Fin 4) ∗ dutyTok ER (recvCell (peer s 1 c) s 1) 0 (0 : Fin 4))
    ⊢ iprop(((cred (tallyAt (sendCell c s 1) () (slotN 1)) ∗ owes (c : Thread nD τ) O W) -∗ wpC c (k ⟨⟩) Q)
        -∗ wpC c (.op (.enqueueDma (oGive c s) (.remote (Dev.tc (peer s 1 c)) (rSlot s 1 (.inl rfl)) (.dma (sendQ s 1)) hsc) (.dma (recvQ s 1)) hsrc hdst hsem) k) Q) :=
  step_enq_landing m ρ K c s 1 (oGive c s) (rSlot s 1 (.inl rfl)) fullShare (outLvl m ρ 1 c) fd rfl O hO BIBase.Entails.rfl
    (by
      show iprop(_ ∗ _) ⊢ iprop(own (rSlot s 1 (.inl rfl)) (peer s 1 c) fullShare (recvFinal m ρ (peer s 1 c))
        ∗ own (oGive (peer s 1 (peer s 1 c)) s) (peer s 1 (peer s 1 c)) fullShare (outLvl m ρ 1 (peer s 1 (peer s 1 c))))
      rw [peer_peer]
      exact sep_mono_left (BIBase.Entails.of_eq (pointsTo_congr (landed1_eq m ρ c s fd))))

/-- Slot 2: the kept quarter at level 2 into the partner's third receive block. -/
theorem step_enq2 (fd : Buf (Elt F) ((rSlot s 2 (.inr (.inl rfl))).view.loc ((peer s 2 c : Dev nD) : Thread nD τ)))
    {O' : CellTallies nD τ sig Unit} (O : CellTallies nD τ sig Unit) {W : Waits sig Unit}
    (hO : O' = O + tallyAt (recvCell (peer s 2 c) s 2) () (slotN 2))
    {hsc : (rSlot s 2 (.inr (.inl rfl))).view.ref.isScScratch = false} {hsrc : (oKeep c s).view.WordExact} {hdst : (rSlot s 2 (.inr (.inl rfl))).view.WordExact}
    {hsem : (DmaTarget.remote (Dev.tc (peer s 2 c)) (rSlot s 2 (.inr (.inl rfl))) (.dma (sendQ s 2)) hsc : DmaTarget nD τ sig .tc .vmem S32x512 .f32).Typed .vmem (.dma (recvQ s 2))}
    {α : Type} {Q : α → sProp 𝕄} {k : PUnit → Prog (TpuEff nD τ sig (Elt F) Λ₀ .tc) α} :
    iprop(cellInv ER (cubeRd m ρ) (K (c, .send s 2)) (sendCell c s 2)
        ∗ cellInv ER (cubeRd m ρ) (K (peer s 2 c, .recv s 2)) (recvCell (peer s 2 c) s 2)
        ∗ reached ER (sendCell c s 2) 0 ∗ reached ER (recvCell (peer s 2 c) s 2) 0
        ∗ own (oKeep c s) c fullShare (outLvl m ρ 2 c) ∗ own (rSlot s 2 (.inr (.inl rfl))) (peer s 2 c) fullShare fd ∗ owes (c : Thread nD τ) O' W
        ∗ dutyTok ER (sendCell c s 2) 0 (0 : Fin 4) ∗ dutyTok ER (recvCell (peer s 2 c) s 2) 0 (0 : Fin 4))
    ⊢ iprop(((cred (tallyAt (sendCell c s 2) () (slotN 2)) ∗ owes (c : Thread nD τ) O W) -∗ wpC c (k ⟨⟩) Q)
        -∗ wpC c (.op (.enqueueDma (oKeep c s) (.remote (Dev.tc (peer s 2 c)) (rSlot s 2 (.inr (.inl rfl))) (.dma (sendQ s 2)) hsc) (.dma (recvQ s 2)) hsrc hdst hsem) k) Q) :=
  step_enq m ρ K c s 2 (oKeep c s) (rSlot s 2 (.inr (.inl rfl))) fullShare (outLvl m ρ 2 c) fd rfl O hO BIBase.Entails.rfl
    (BIBase.Entails.of_eq (pointsTo_congr (landed2_eq m ρ c s fd)))

/-- Slot 3: the kept quarter at level 3 into the partner's fourth receive block. -/
theorem step_enq3 (fd : Buf (Elt F) ((rSlot s 3 (.inr (.inr rfl))).view.loc ((peer s 3 c : Dev nD) : Thread nD τ)))
    {O' : CellTallies nD τ sig Unit} (O : CellTallies nD τ sig Unit) {W : Waits sig Unit}
    (hO : O' = O + tallyAt (recvCell (peer s 3 c) s 3) () (slotN 3))
    {hsc : (rSlot s 3 (.inr (.inr rfl))).view.ref.isScScratch = false} {hsrc : (oKeep c s).view.WordExact} {hdst : (rSlot s 3 (.inr (.inr rfl))).view.WordExact}
    {hsem : (DmaTarget.remote (Dev.tc (peer s 3 c)) (rSlot s 3 (.inr (.inr rfl))) (.dma (sendQ s 3)) hsc : DmaTarget nD τ sig .tc .vmem S32x512 .f32).Typed .vmem (.dma (recvQ s 3))}
    {α : Type} {Q : α → sProp 𝕄} {k : PUnit → Prog (TpuEff nD τ sig (Elt F) Λ₀ .tc) α} :
    iprop(cellInv ER (cubeRd m ρ) (K (c, .send s 3)) (sendCell c s 3)
        ∗ cellInv ER (cubeRd m ρ) (K (peer s 3 c, .recv s 3)) (recvCell (peer s 3 c) s 3)
        ∗ reached ER (sendCell c s 3) 0 ∗ reached ER (recvCell (peer s 3 c) s 3) 0
        ∗ own (oKeep c s) c fullShare (outLvl m ρ 3 c) ∗ own (rSlot s 3 (.inr (.inr rfl))) (peer s 3 c) fullShare fd ∗ owes (c : Thread nD τ) O' W
        ∗ dutyTok ER (sendCell c s 3) 0 (0 : Fin 4) ∗ dutyTok ER (recvCell (peer s 3 c) s 3) 0 (0 : Fin 4))
    ⊢ iprop(((cred (tallyAt (sendCell c s 3) () (slotN 3)) ∗ owes (c : Thread nD τ) O W) -∗ wpC c (k ⟨⟩) Q)
        -∗ wpC c (.op (.enqueueDma (oKeep c s) (.remote (Dev.tc (peer s 3 c)) (rSlot s 3 (.inr (.inr rfl))) (.dma (sendQ s 3)) hsc) (.dma (recvQ s 3)) hsrc hdst hsem) k) Q) :=
  step_enq m ρ K c s 3 (oKeep c s) (rSlot s 3 (.inr (.inr rfl))) fullShare (outLvl m ρ 3 c) fd rfl O hO BIBase.Entails.rfl
    (BIBase.Entails.of_eq (pointsTo_congr (landed3_eq m ρ c s fd)))

/-- Slot 4: the kept quarter, final, into the same rows of the partner's `out`; a half share of the source is lent. -/
theorem step_enq4 (fd : Buf (Elt F) ((oKeep c s).view.loc ((peer s 4 c : Dev nD) : Thread nD τ)))
    {O' : CellTallies nD τ sig Unit} (O : CellTallies nD τ sig Unit) {W : Waits sig Unit}
    (hO : O' = O + tallyAt (recvCell (peer s 4 c) s 4) () (slotN 4))
    {hsc : (oKeep c s).view.ref.isScScratch = false} {hsrc : (oKeep c s).view.WordExact} {hdst : (oKeep c s).view.WordExact}
    {hsem : (DmaTarget.remote (Dev.tc (peer s 4 c)) (oKeep c s) (.dma (sendQ s 4)) hsc : DmaTarget nD τ sig .tc .vmem S32x512 .f32).Typed .vmem (.dma (recvQ s 4))}
    {α : Type} {Q : α → sProp 𝕄} {k : PUnit → Prog (TpuEff nD τ sig (Elt F) Λ₀ .tc) α} :
    iprop(cellInv ER (cubeRd m ρ) (K (c, .send s 4)) (sendCell c s 4)
        ∗ cellInv ER (cubeRd m ρ) (K (peer s 4 c, .recv s 4)) (recvCell (peer s 4 c) s 4)
        ∗ reached ER (sendCell c s 4) 0 ∗ reached ER (recvCell (peer s 4 c) s 4) 0
        ∗ own (oKeep c s) c fullShare.right (outFinal m ρ c) ∗ own (oKeep c s) (peer s 4 c) fullShare fd ∗ owes (c : Thread nD τ) O' W
        ∗ dutyTok ER (sendCell c s 4) 0 (0 : Fin 4) ∗ dutyTok ER (recvCell (peer s 4 c) s 4) 0 (0 : Fin 4))
    ⊢ iprop(((cred (tallyAt (sendCell c s 4) () (slotN 4)) ∗ owes (c : Thread nD τ) O W) -∗ wpC c (k ⟨⟩) Q)
        -∗ wpC c (.op (.enqueueDma (oKeep c s) (.remote (Dev.tc (peer s 4 c)) (oKeep c s) (.dma (sendQ s 4)) hsc) (.dma (recvQ s 4)) hsrc hdst hsem) k) Q) :=
  step_enq m ρ K c s 4 (oKeep c s) (oKeep c s) fullShare.right (outFinal m ρ c) fd rfl O hO BIBase.Entails.rfl
    (by
      show _ ⊢ own (oKeep (peer s 4 (peer s 4 c)) s) (peer s 4 c) fullShare (outFinal m ρ (peer s 4 c))
      rw [peer_peer]
      exact BIBase.Entails.of_eq (pointsTo_congr (landed4_eq m ρ c s fd)))

/-- Slot 5: the kept half, final, into the same rows of the partner's `out`; a quarter share of the source is lent. -/
theorem step_enq5 (fd : Buf (Elt F) ((oHalf c s).view.loc ((peer s 5 c : Dev nD) : Thread nD τ)))
    {O' : CellTallies nD τ sig Unit} (O : CellTallies nD τ sig Unit) {W : Waits sig Unit}
    (hO : O' = O + tallyAt (recvCell (peer s 5 c) s 5) () (slotN 5))
    {hsc : (oHalf c s).view.ref.isScScratch = false} {hsrc : (oHalf c s).view.WordExact} {hdst : (oHalf c s).view.WordExact}
    {hsem : (DmaTarget.remote (Dev.tc (peer s 5 c)) (oHalf c s) (.dma (sendQ s 5)) hsc : DmaTarget nD τ sig .tc .vmem S64x512 .f32).Typed .vmem (.dma (recvQ s 5))}
    {α : Type} {Q : α → sProp 𝕄} {k : PUnit → Prog (TpuEff nD τ sig (Elt F) Λ₀ .tc) α} :
    iprop(cellInv ER (cubeRd m ρ) (K (c, .send s 5)) (sendCell c s 5)
        ∗ cellInv ER (cubeRd m ρ) (K (peer s 5 c, .recv s 5)) (recvCell (peer s 5 c) s 5)
        ∗ reached ER (sendCell c s 5) 0 ∗ reached ER (recvCell (peer s 5 c) s 5) 0
        ∗ own (oHalf c s) c fullShare.left.right (outFinal m ρ c) ∗ own (oHalf c s) (peer s 5 c) fullShare fd ∗ owes (c : Thread nD τ) O' W
        ∗ dutyTok ER (sendCell c s 5) 0 (0 : Fin 4) ∗ dutyTok ER (recvCell (peer s 5 c) s 5) 0 (0 : Fin 4))
    ⊢ iprop(((cred (tallyAt (sendCell c s 5) () (slotN 5)) ∗ owes (c : Thread nD τ) O W) -∗ wpC c (k ⟨⟩) Q)
        -∗ wpC c (.op (.enqueueDma (oHalf c s) (.remote (Dev.tc (peer s 5 c)) (oHalf c s) (.dma (sendQ s 5)) hsc) (.dma (recvQ s 5)) hsrc hdst hsem) k) Q) :=
  step_enq m ρ K c s 5 (oHalf c s) (oHalf c s) fullShare.left.right (outFinal m ρ c) fd rfl O hO BIBase.Entails.rfl
    (by
      show _ ⊢ own (oHalf (peer s 5 (peer s 5 c)) s) (peer s 5 c) fullShare (outFinal m ρ (peer s 5 c))
      rw [peer_peer]
      exact BIBase.Entails.of_eq (pointsTo_congr (landed5_eq m ρ c s fd)))

end Six

/-- info: 'Cert.KernelIdeal.Proto.step_enq5' depends on axioms: [propext, Classical.choice, Quot.sound] -/
#guard_msgs in #print axioms step_enq5

end Cert.KernelIdeal.Proto
end
-- ==== Proof.Waits.lean ====
/-
  The order of a device's payments, and why each of its waits is allowed.

  A device pays twenty-eight times, in program order: one unit to the barrier cell of each of its four partners,
  then one transfer per slot to the receive cell of that slot on the slot's partner. What it still owes after its
  first `k` payments is the sum over the remaining ones; each payment peels one summand.

  Levels order the waits: a barrier cell sits at 1, the receive cell of slot `t` of stream `s` at `2 + 4 t + s`,
  every other cell at 0. Payment `j` goes to a cell of level 1 for `j < 4` and of level `j - 2` from then on, so the
  levels of the payments still to be made never fall below that of the next one. A device waits on its barrier cell
  when only transfers are left to pay, on the receive cell of a slot when every transfer up to that slot's own has
  been issued, and on a send cell at any time: each time the cell waited on lies strictly below everything owed.
-/
import proofs.«900484_g7700000000000485_dist_treered_v7x_i16_m512_n512_f32_1_alg».proof.Proof.Data
import proofs.«900484_g7700000000000485_dist_treered_v7x_i16_m512_n512_f32_1_alg».proof.Proof.Chains

noncomputable section

namespace Cert.KernelIdeal.Proto

open Cert.KernelIdeal
open Cert.KernelIdeal.Gen
open Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## One payment at a time

`owedFrom c k` is the sum over the payments from the `k`-th on; the `k`-th is its last summand. -/

theorem owedFrom_0 (c : Dev nD) : owedFrom c 0 = owedFrom c 1 + tallyAt (barCell (partner 0 c)) () 1 := rfl
theorem owedFrom_1 (c : Dev nD) : owedFrom c 1 = owedFrom c 2 + tallyAt (barCell (partner 1 c)) () 1 := rfl
theorem owedFrom_2 (c : Dev nD) : owedFrom c 2 = owedFrom c 3 + tallyAt (barCell (partner 2 c)) () 1 := rfl
theorem owedFrom_3 (c : Dev nD) : owedFrom c 3 = owedFrom c 4 + tallyAt (barCell (partner 3 c)) () 1 := rfl
theorem owedFrom_4 (c : Dev nD) : owedFrom c 4 = owedFrom c 5 + tallyAt (recvCell (peer 0 0 c) 0 0) () (slotN 0) := rfl
theorem owedFrom_5 (c : Dev nD) : owedFrom c 5 = owedFrom c 6 + tallyAt (recvCell (peer 1 0 c) 1 0) () (slotN 0) := rfl
theorem owedFrom_6 (c : Dev nD) : owedFrom c 6 = owedFrom c 7 + tallyAt (recvCell (peer 2 0 c) 2 0) () (slotN 0) := rfl
theorem owedFrom_7 (c : Dev nD) : owedFrom c 7 = owedFrom c 8 + tallyAt (recvCell (peer 3 0 c) 3 0) () (slotN 0) := rfl
theorem owedFrom_8 (c : Dev nD) : owedFrom c 8 = owedFrom c 9 + tallyAt (recvCell (peer 0 1 c) 0 1) () (slotN 1) := rfl
theorem owedFrom_9 (c : Dev nD) : owedFrom c 9 = owedFrom c 10 + tallyAt (recvCell (peer 1 1 c) 1 1) () (slotN 1) := rfl
theorem owedFrom_10 (c : Dev nD) : owedFrom c 10 = owedFrom c 11 + tallyAt (recvCell (peer 2 1 c) 2 1) () (slotN 1) := rfl
theorem owedFrom_11 (c : Dev nD) : owedFrom c 11 = owedFrom c 12 + tallyAt (recvCell (peer 3 1 c) 3 1) () (slotN 1) := rfl
theorem owedFrom_12 (c : Dev nD) : owedFrom c 12 = owedFrom c 13 + tallyAt (recvCell (peer 0 2 c) 0 2) () (slotN 2) := rfl
theorem owedFrom_13 (c : Dev nD) : owedFrom c 13 = owedFrom c 14 + tallyAt (recvCell (peer 1 2 c) 1 2) () (slotN 2) := rfl
theorem owedFrom_14 (c : Dev nD) : owedFrom c 14 = owedFrom c 15 + tallyAt (recvCell (peer 2 2 c) 2 2) () (slotN 2) := rfl
theorem owedFrom_15 (c : Dev nD) : owedFrom c 15 = owedFrom c 16 + tallyAt (recvCell (peer 3 2 c) 3 2) () (slotN 2) := rfl
theorem owedFrom_16 (c : Dev nD) : owedFrom c 16 = owedFrom c 17 + tallyAt (recvCell (peer 0 3 c) 0 3) () (slotN 3) := rfl
theorem owedFrom_17 (c : Dev nD) : owedFrom c 17 = owedFrom c 18 + tallyAt (recvCell (peer 1 3 c) 1 3) () (slotN 3) := rfl
theorem owedFrom_18 (c : Dev nD) : owedFrom c 18 = owedFrom c 19 + tallyAt (recvCell (peer 2 3 c) 2 3) () (slotN 3) := rfl
theorem owedFrom_19 (c : Dev nD) : owedFrom c 19 = owedFrom c 20 + tallyAt (recvCell (peer 3 3 c) 3 3) () (slotN 3) := rfl
theorem owedFrom_20 (c : Dev nD) : owedFrom c 20 = owedFrom c 21 + tallyAt (recvCell (peer 0 4 c) 0 4) () (slotN 4) := rfl
theorem owedFrom_21 (c : Dev nD) : owedFrom c 21 = owedFrom c 22 + tallyAt (recvCell (peer 1 4 c) 1 4) () (slotN 4) := rfl
theorem owedFrom_22 (c : Dev nD) : owedFrom c 22 = owedFrom c 23 + tallyAt (recvCell (peer 2 4 c) 2 4) () (slotN 4) := rfl
theorem owedFrom_23 (c : Dev nD) : owedFrom c 23 = owedFrom c 24 + tallyAt (recvCell (peer 3 4 c) 3 4) () (slotN 4) := rfl
theorem owedFrom_24 (c : Dev nD) : owedFrom c 24 = owedFrom c 25 + tallyAt (recvCell (peer 0 5 c) 0 5) () (slotN 5) := rfl
theorem owedFrom_25 (c : Dev nD) : owedFrom c 25 = owedFrom c 26 + tallyAt (recvCell (peer 1 5 c) 1 5) () (slotN 5) := rfl
theorem owedFrom_26 (c : Dev nD) : owedFrom c 26 = owedFrom c 27 + tallyAt (recvCell (peer 2 5 c) 2 5) () (slotN 5) := rfl
theorem owedFrom_27 (c : Dev nD) : owedFrom c 27 = owedFrom c 28 + tallyAt (recvCell (peer 3 5 c) 3 5) () (slotN 5) := rfl
theorem owedFrom_28 (c : Dev nD) : owedFrom c 28 = 0 := rfl

/-! ## Where the payments go -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv ((c : Thread nD τ), .reg barS) () = 1 := rfl
theorem lv_recv (c : Dev nD) (s : Fin 4) (t : Fin 6) : lv ((c : Thread nD τ), .dma (recvQ s t)) () = 2 + 4 * t.val + s.val := by
  simp only [lv, kindOf_recv]
theorem lv_send (c : Dev nD) (s : Fin 4) (t : Fin 6) : lv ((c : Thread nD τ), .dma (sendQ s t)) () = 0 := by
  simp only [lv, kindOf_send]

/-- The level of the cell the `j`-th payment goes to. -/
def payLv (j : ℕ) : ℕ := if j < 4 then 1 else j - 2

theorem payLv_mono {j k : ℕ} (h : j ≤ k) : payLv j ≤ payLv k := by
  unfold payLv; split_ifs <;> omega

theorem pays_length (c : Dev nD) : (pays c).length = 28 := rfl

/-- The `j`-th payment goes to a cell of a TensorCore thread, at level `payLv j`. -/
theorem pays_getElem (c : Dev nD) (j : ℕ) (hj : j < (pays c).length) :
    ((pays c)[j]).1.1.2 = .tc ∧ lv ((pays c)[j]).1 () = payLv j := by
  have hj' : j < 28 := hj
  interval_cases j <;> exact ⟨rfl, rfl⟩

/-- A sum of tallies is positive only at a cell of one of its summands. -/
theorem foldr_tally_pos {l : List (GSem nD τ sig × ℕ)} {g : GSem nD τ sig} {u : Unit}
    (h : 0 < (l.foldr (fun p acc => acc + tallyAt p.1 () p.2) (0 : CellTallies nD τ sig Unit)) g u) : ∃ p ∈ l, g = p.1 := by
  induction l with
  | nil => exact absurd h (Nat.lt_irrefl 0)
  | cons p l ih =>
    simp only [List.foldr_cons, Pi.add_apply, Finsupp.add_apply] at h
    rw [tallyAt_apply] at h
    by_cases hg : g = p.1 ∧ u = ()
    · exact ⟨p, List.mem_cons_self, hg.1⟩
    · rw [if_neg hg, Nat.add_zero] at h
      obtain ⟨q, hq, e⟩ := ih h
      exact ⟨q, List.mem_cons_of_mem _ hq, e⟩

/-- What a device still owes after `k` payments it owes to the cell of a payment from the `k`-th on. -/
theorem owedFrom_pos {c : Dev nD} {k : ℕ} {g : GSem nD τ sig} {u : Unit} (h : 0 < owedFrom c k g u) :
    ∃ (j : ℕ) (hj : j < (pays c).length), k ≤ j ∧ g = ((pays c)[j]).1 := by
  unfold owedFrom at h
  obtain ⟨p, hp, rfl⟩ := foldr_tally_pos h
  obtain ⟨i, hi, rfl⟩ := List.mem_drop_iff_getElem.mp hp
  exact ⟨k + i, by omega, Nat.le_add_right _ _, rfl⟩

/-- … so to a TensorCore thread's cell, at a level no lower than the `k`-th payment's. -/
theorem owedFrom_pos_lv {c : Dev nD} {k : ℕ} {g : GSem nD τ sig} {u : Unit} (h : 0 < owedFrom c k g u) :
    u ∈ L g ∧ payLv k ≤ lv g u := by
  obtain ⟨j, hj, hkj, rfl⟩ := owedFrom_pos h
  obtain ⟨h1, h2⟩ := pays_getElem c j hj
  cases u
  refine ⟨?_, ?_⟩
  · rw [L, if_pos h1]; exact Finset.mem_singleton_self _
  · rw [h2]; exact payLv_mono hkj

/-! ## The waits -/

/-- At its barrier wait a device has paid the four barrier units: everything it still owes is a transfer, to a
    receive cell, above every barrier cell. -/
theorem mayWait_bar {F : FTy → Type} (c : Dev nD) :
    (levAts L lv : sProp (MT nD τ sig Unit (Elt F) ℕ UU ℕ)) ⊢ MayWait (c : Thread nD τ) (.reg barS) () (owedFrom c 4) :=
  MayOwe.of_cut (L := L) (lev := lv) 1
    (fun p hp => by rw [Finset.mem_singleton.mp hp, L_tc]; exact Finset.mem_singleton_self _)
    (fun g u hg => (owedFrom_pos_lv hg).1)
    (fun p hp => by rw [Finset.mem_singleton.mp hp]; exact (lv_bar c).le)
    (fun g u hg => lt_of_lt_of_le (by decide : 1 < payLv 4) (owedFrom_pos_lv hg).2)

/-- At the wait for slot `t` of stream `s` a device has issued that slot's own transfer (payment `4 + 4 t + s`) and
    every earlier one: what it still owes goes to receive cells of later slots, at higher levels. -/
theorem mayWait_recv {F : FTy → Type} (c : Dev nD) (s : Fin 4) (t : Fin 6) (k : ℕ) (hk : 4 + 4 * t.val + s.val < k) :
    (levAts L lv : sProp (MT nD τ sig Unit (Elt F) ℕ UU ℕ)) ⊢ MayWait (c : Thread nD τ) (.dma (recvQ s t)) () (owedFrom c k) :=
  MayOwe.of_cut (L := L) (lev := lv) (2 + 4 * t.val + s.val)
    (fun p hp => by rw [Finset.mem_singleton.mp hp, L_tc]; exact Finset.mem_singleton_self _)
    (fun g u hg => (owedFrom_pos_lv hg).1)
    (fun p hp => by rw [Finset.mem_singleton.mp hp]; exact (lv_recv c s t).le)
    (fun g u hg => lt_of_lt_of_le (by unfold payLv; split_ifs <;> omega) (owedFrom_pos_lv hg).2)

/-- A send cell sits at level 0, below every cell a device ever owes. -/
theorem mayWait_send {F : FTy → Type} (c : Dev nD) (s : Fin 4) (t : Fin 6) (k : ℕ) :
    (levAts L lv : sProp (MT nD τ sig Unit (Elt F) ℕ UU ℕ)) ⊢ MayWait (c : Thread nD τ) (.dma (sendQ s t)) () (owedFrom c k) :=
  MayOwe.of_cut (L := L) (lev := lv) 0
    (fun p hp => by rw [Finset.mem_singleton.mp hp, L_tc]; exact Finset.mem_singleton_self _)
    (fun g u hg => (owedFrom_pos_lv hg).1)
    (fun p hp => by rw [Finset.mem_singleton.mp hp]; exact (lv_send c s t).le)
    (fun g u hg => lt_of_lt_of_le (by unfold payLv; split_ifs <;> omega) (owedFrom_pos_lv hg).2)

/-- info: 'Cert.KernelIdeal.Proto.mayWait_recv' depends on axioms: [propext, Classical.choice, Quot.sound] -/
#guard_msgs in #print axioms mayWait_recv

end Cert.KernelIdeal.Proto

end
-- ==== Proof.Entry.lean ====
/-
  What a device's body starts from, taken apart.

  At entry a device holds, besides its buffers: the invariants of the cells it touches and the facts that they are at
  round 0 (persistent), the levels (persistent), and linearly its duty tokens, its positions and the launch credit of
  its own cells. The big conjunctions over the twenty-four slots, the forty-nine cells and the four dimensions are
  written out as chains and regrouped by stream: the barrier's part, and for each stream the thirty atoms of its six
  slots in the order the stream's first phase lists them.
-/
import proofs.«900484_g7700000000000485_dist_treered_v7x_i16_m512_n512_f32_1_alg».proof.Proof.Stream
import proofs.«900484_g7700000000000485_dist_treered_v7x_i16_m512_n512_f32_1_alg».proof.Proof.Waits

noncomputable section

namespace Cert.KernelIdeal.Proto

open Cert.KernelIdeal
open Cert.KernelIdeal.Gen
open Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## One payment, by slot -/

/-- The transfer of slot `t` of stream `s` is payment `4 + 4 t + s`. -/
theorem owedFrom_slot (c : Dev nD) (s : Fin 4) (t : Fin 6) :
    owedFrom c (4 + 4 * t.val + s.val) = owedFrom c (4 + 4 * t.val + s.val + 1) + tallyAt (recvCell (peer s t c) s t) () (slotN t) := by
  fin_cases s <;> fin_cases t <;> rfl

/-! ## Conjunctions over the index types, written out -/

omit [FloatOps F] in
theorem sep_assoc_chain (P Q R : sProp 𝕄) : iprop((P ∗ Q) ∗ R) = iprop(P ∗ Q ∗ R) :=
  equiv_iff.mp ⟨Idealize.SL.BI.sep_assoc, Idealize.SL.BI.sep_assoc'⟩

omit [FloatOps F] in
/-- Two conjunctions over one index set, joined. -/
theorem bigSep_sep_eq {I : Type} (S : Finset I) (Φ Ψ : I → sProp 𝕄) :
    iprop(bigSep S Φ ∗ bigSep S Ψ) = bigSep S fun i => iprop(Φ i ∗ Ψ i) := (bigSep_sep S Φ Ψ).symm

omit [FloatOps F] in
/-- Over the four dimensions. -/
theorem bigSep_dim4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Over the twenty-four slots, stream by stream. -/
theorem bigSep_slot (Φ : Slot → sProp 𝕄) :
    bigSep Finset.univ Φ = iprop(Φ (0,0) ∗ Φ (0,1) ∗ Φ (0,2) ∗ Φ (0,3) ∗ Φ (0,4) ∗ Φ (0,5) ∗ Φ (1,0) ∗ Φ (1,1) ∗ Φ (1,2) ∗ Φ (1,3) ∗ Φ (1,4) ∗ Φ (1,5) ∗ Φ (2,0) ∗ Φ (2,1) ∗ Φ (2,2) ∗ Φ (2,3) ∗ Φ (2,4) ∗ Φ (2,5) ∗ Φ (3,0) ∗ Φ (3,1) ∗ Φ (3,2) ∗ Φ (3,3) ∗ Φ (3,4) ∗ Φ (3,5)) :=
  bigSep_univ_eq_bigSepL [(0,0), (0,1), (0,2), (0,3), (0,4), (0,5), (1,0), (1,1), (1,2), (1,3), (1,4), (1,5), (2,0), (2,1), (2,2), (2,3), (2,4), (2,5), (3,0), (3,1), (3,2), (3,3), (3,4), (3,5)] (by decide) (by decide) Φ

omit [FloatOps F] in
/-- Over a device's forty-nine cells: the barrier cell, the send cells, the receive cells. -/
theorem bigSep_cellK_kinds (Φ : CellK → sProp 𝕄) :
    bigSep Finset.univ Φ = iprop(Φ .bar ∗ (bigSep Finset.univ fun st : Slot => Φ (.send st.1 st.2))
      ∗ (bigSep Finset.univ fun st : Slot => Φ (.recv st.1 st.2))) := by
  rw [bigSep_univ_eq_bigSepL ([CellK.bar] ++ [CellK.send 0 0, CellK.send 0 1, CellK.send 0 2, CellK.send 0 3, CellK.send 0 4, CellK.send 0 5, CellK.send 1 0, CellK.send 1 1, CellK.send 1 2, CellK.send 1 3, CellK.send 1 4, CellK.send 1 5, CellK.send 2 0, CellK.send 2 1, CellK.send 2 2, CellK.send 2 3, CellK.send 2 4, CellK.send 2 5, CellK.send 3 0, CellK.send 3 1, CellK.send 3 2, CellK.send 3 3, CellK.send 3 4, CellK.send 3 5] ++ [CellK.recv 0 0, CellK.recv 0 1, CellK.recv 0 2, CellK.recv 0 3, CellK.recv 0 4, CellK.recv 0 5, CellK.recv 1 0, CellK.recv 1 1, CellK.recv 1 2, CellK.recv 1 3, CellK.recv 1 4, CellK.recv 1 5, CellK.recv 2 0, CellK.recv 2 1, CellK.recv 2 2, CellK.recv 2 3, CellK.recv 2 4, CellK.recv 2 5, CellK.recv 3 0, CellK.recv 3 1, CellK.recv 3 2, CellK.recv 3 3, CellK.recv 3 4, CellK.recv 3 5]) (by decide) (by decide) Φ, bigSep_slot, bigSep_slot]
  simp only [List.cons_append, List.nil_append, bigSepL_cons_cons, bigSepL_singleton, sep_assoc_chain]
  rfl

/-! ## A stream's share of the linear ghost state -/

/-- The thirty atoms of stream `s`: for each slot the two duty tokens the device pays with, its two positions, and the
    launch credit of its receive cell. -/
def slotAtoms (c : Dev nD) (s : Fin 4) : sProp 𝕄 :=
  iprop(dutyTok ER (recvCell (peer s 0 c) s 0) 0 (0 : Fin 4)
    ∗ dutyTok ER (sendCell c s 0) 0 (0 : Fin 4)
    ∗ atPos ER (sendCell c s 0) 0 ∅ 0
    ∗ atPos ER (recvCell c s 0) 0 ∅ 0
    ∗ cred (tallyAt (recvCell c s 0) () (slotN 0))
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5)))

omit [FloatOps F] in
/-- The five conjunctions over the slots, regrouped by stream. -/
theorem slots_regroup (c : Dev nD) :
    (iprop((bigSep Finset.univ fun st : Slot => dutyTok ER (recvCell (peer st.1 st.2 c) st.1 st.2) 0 (0 : Fin 4))
      ∗ (bigSep Finset.univ fun st : Slot => dutyTok ER (sendCell c st.1 st.2) 0 (0 : Fin 4))
      ∗ (bigSep Finset.univ fun st : Slot => atPos ER (sendCell c st.1 st.2) 0 ∅ 0)
      ∗ (bigSep Finset.univ fun st : Slot => atPos ER (recvCell c st.1 st.2) 0 ∅ 0)
      ∗ (bigSep Finset.univ fun st : Slot => cred (tallyAt (recvCell c st.1 st.2) () (slotN st.2)))) : sProp 𝕄)
    = iprop(slotAtoms c 0 ∗ slotAtoms c 1 ∗ slotAtoms c 2 ∗ slotAtoms c 3) := by
  rw [bigSep_sep_eq, bigSep_sep_eq, bigSep_sep_eq, bigSep_sep_eq, bigSep_slot]
  unfold slotAtoms
  simp only [sep_assoc_chain]

/-! ## The entry split -/

/-- What the body starts from: the persistent part (invariants, round marks, levels), the barrier's linear part
    (the four duty tokens, the position, the four units of launch credit), and each stream's thirty atoms. -/
theorem start_split (c : Dev nD) :
    start m ρ c ⊢ iprop(∃ K, (□ (invs m ρ K c ∗ marks c ∗ levAts L lv))
      ∗ (dutyTok ER (barCell (partner 0 c)) 0 (0 : Fin 4) ∗ dutyTok ER (barCell (partner 1 c)) 0 (1 : Fin 4)
          ∗ dutyTok ER (barCell (partner 2 c)) 0 (2 : Fin 4) ∗ dutyTok ER (barCell (partner 3 c)) 0 (3 : Fin 4))
      ∗ atPos ER (barCell c) 0 ∅ 0 ∗ cred (tallyAt (barCell c) () 4)
      ∗ slotAtoms c 0 ∗ slotAtoms c 1 ∗ slotAtoms c 2 ∗ slotAtoms c 3) := by
  unfold start ghost payToks positions creds
  rw [bigSep_cellK_kinds, bigSep_dim4, ← slots_regroup c]
  iintro ⟨⟨%K, #Hinv, #Hmarks, ⟨Hpb, Hps, Hpr⟩, ⟨Htb0, Htb1, Htb2, Htb3⟩, Htr, Hts⟩, ⟨Hcb, Hcr⟩, #Hlev⟩
  iexists K
  isplitr
  · imodintro
    isplitr; · iexact Hinv
    isplitr; · iexact Hmarks
    iexact Hlev
  isplitl [Htb0 Htb1 Htb2 Htb3]
  · isplitl [Htb0]; · iexact Htb0
    isplitl [Htb1]; · iexact Htb1
    isplitl [Htb2]; · iexact Htb2
    iexact Htb3
  isplitl [Hpb]; · iexact Hpb
  isplitl [Hcb]; · iexact Hcb
  isplitl [Htr]; · iexact Htr
  isplitl [Hts]; · iexact Hts
  isplitl [Hps]; · iexact Hps
  isplitl [Hpr]; · iexact Hpr
  iexact Hcr

/-! ## Out of the persistent part -/

omit [FloatOps F] in
/-- One conjunct out of a conjunction over a whole index type. -/
theorem bigSep_pick {I : Type} [Fintype I] [DecidableEq I] (Φ : I → sProp 𝕄) (i : I) : bigSep Finset.univ Φ ⊢ Φ i :=
  bigSep_elim (Finset.mem_univ i)

theorem invs_own (K : Dev nD × CellK → ℕ) (c : Dev nD) (k : CellK) :
    invs m ρ K c ⊢ cellInv ER (cubeRd m ρ) (K (c, k)) (kcell (c, k)) := by
  unfold invs
  iintro ⟨H, -, -⟩
  iapply (bigSep_pick (fun k : CellK => cellInv ER (cubeRd m ρ) (K (c, k)) (kcell (c, k))) k)
  iexact H

theorem invs_bar (K : Dev nD × CellK → ℕ) (c : Dev nD) (b : Fin 4) :
    invs m ρ K c ⊢ cellInv ER (cubeRd m ρ) (K (partner b c, .bar)) (barCell (partner b c)) := by
  unfold invs
  iintro ⟨-, H, -⟩
  iapply (bigSep_pick (fun b : Fin 4 => cellInv ER (cubeRd m ρ) (K (partner b c, .bar)) (barCell (partner b c))) b)
  iexact H

theorem invs_recv (K : Dev nD × CellK → ℕ) (c : Dev nD) (s : Fin 4) (t : Fin 6) :
    invs m ρ K c ⊢ cellInv ER (cubeRd m ρ) (K (peer s t c, .recv s t)) (recvCell (peer s t c) s t) := by
  unfold invs
  iintro ⟨-, -, H⟩
  iapply (bigSep_pick (fun st : Slot => cellInv ER (cubeRd m ρ) (K (peer st.1 st.2 c, .recv st.1 st.2)) (recvCell (peer st.1 st.2 c) st.1 st.2)) (s, t))
  iexact H

omit [FloatOps F] in
theorem marks_own (c : Dev nD) (k : CellK) : (marks c : sProp 𝕄) ⊢ reached ER (kcell (c, k)) 0 := by
  unfold marks
  iintro ⟨H, -, -⟩
  iapply (bigSep_pick (fun k : CellK => reached ER (kcell (c, k)) 0) k)
  iexact H

omit [FloatOps F] in
theorem marks_bar (c : Dev nD) (b : Fin 4) : (marks c : sProp 𝕄) ⊢ reached ER (barCell (partner b c)) 0 := by
  unfold marks
  iintro ⟨-, H, -⟩
  iapply (bigSep_pick (fun b : Fin 4 => reached ER (barCell (partner b c)) 0) b)
  iexact H

omit [FloatOps F] in
theorem marks_recv (c : Dev nD) (s : Fin 4) (t : Fin 6) : (marks c : sProp 𝕄) ⊢ reached ER (recvCell (peer s t c) s t) 0 := by
  unfold marks
  iintro ⟨-, -, H⟩
  iapply (bigSep_pick (fun st : Slot => reached ER (recvCell (peer st.1 st.2 c) st.1 st.2) 0) (s, t))
  iexact H

/-! ## Into a stream's first phase -/

theorem streamSt0_intro (c : Dev nD) (s : Fin 4) (g : Buf (Elt F) (((c : Dev nD) : Thread nD τ).loc cc0_stg1_0)) :
    iprop(slotAtoms c s ∗ XG m ρ c s ∗ XK m ρ c s ∗ own (oHalf' c s) c fullShare g ∗ RP0 c s ∗ RP c s 1 (.inl rfl)
      ∗ RP c s 2 (.inr (.inl rfl)) ∗ RP c s 3 (.inr (.inr rfl)) ∗ OP5 c s) ⊢ StreamSt0 m ρ c s g := by
  unfold StreamSt0 slotAtoms
  simp only [sep_assoc_chain]
  exact .rfl

/-- info: 'Cert.KernelIdeal.Proto.start_split' depends on axioms: [propext, Classical.choice, Quot.sound] -/
#guard_msgs in #print axioms start_split

end Cert.KernelIdeal.Proto

end
-- ==== Proof.TransEnq.lean ====
/-
  The first two transfers of a stream as transitions between its phases.

  The transfer of slot 0 spends the slot's two duty tokens, the given half of `x` and the partner's first receive
  block, and leaves the send cell's credit. The transfer of slot 1 first cuts the kept half of `out` (at level 1) into
  the kept quarter, which stays, and the given quarter, which is the source and travels to the partner with the
  landing.
-/
import proofs.«900484_g7700000000000485_dist_treered_v7x_i16_m512_n512_f32_1_alg».proof.Proof.PartsDefs
import proofs.«900484_g7700000000000485_dist_treered_v7x_i16_m512_n512_f32_1_alg».proof.Proof.StepsEnq
import proofs.«900484_g7700000000000485_dist_treered_v7x_i16_m512_n512_f32_1_alg».proof.Proof.Entry
import proofs.«900484_g7700000000000485_dist_treered_v7x_i16_m512_n512_f32_1_alg».proof.Proof.Regions
import proofs.«900484_g7700000000000485_dist_treered_v7x_i16_m512_n512_f32_1_alg».proof.Proof.Waits

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem tr_ENQ0 (K : Dev nD × CellK → ℕ) (c : Dev nD) (s : Fin 4) (g : Buf (Elt F) (((c : Dev nD) : Thread nD τ).loc cc0_stg1_0)) (k : ℕ) (hk : k = 4 + 4 * 0 + s.val) (d : Dev nD) (hd : d = peer s 0 c)
    {hsc : ((rSlot0 s : Memref sig (Dev.tc d : Thread nD τ).2.kind .vmem S64x512 .f32)).view.ref.isScScratch = false}
    {hsrc : (xGive c s).view.WordExact} {hdst : (rSlot0 s).view.WordExact}
    {hsem : DmaTarget.Typed .vmem (.dma (recvQ s 0)) (.remote (Dev.tc d : Thread nD τ) (rSlot0 s) (.dma (sendQ s 0)) hsc)} {α : Type} {Q : α → sProp 𝕄} {kont : PUnit → Prog (TpuEff nD τ sig (Elt F) Λ₀ .tc) α} :
    iprop(□ Pers m ρ K c ∗ GSt c k ∗ StreamSt0 m ρ c s g)
      ⊢ iprop(((GSt c (k + 1) ∗ StreamSt1 m ρ c s g) -∗ wpC c (kont ⟨⟩) Q)
          -∗ wpC c (.op (.enqueueDma (xGive c s) (.remote (Dev.tc d : Thread nD τ) (rSlot0 s) (.dma (sendQ s 0)) hsc) (.dma (recvQ s 0)) hsrc hdst hsem) kont) Q) := by
  subst hk hd
  unfold StreamSt0 StreamSt1
  iintro ⟨#⟨Hinv, Hmarks, -⟩, ⟨%W, HO⟩, A1, A2, A3, A4, A5, A6, A7, A8, A9, A10, A11, A12, A13, A14, A15, A16, A17, A18, A19, A20, A21, A22, A23, A24, A25, A26, A27, A28, A29, A30, A31, A32, A33, A34, A35, A36, A37, A38⟩ Hk
  have hg1 : invs m ρ K c ⊢ cellInv ER (cubeRd m ρ) (K (c, .send s 0)) (sendCell c s 0) := invs_own m ρ K c (.send s 0)
  have hg2 : invs m ρ K c ⊢ cellInv ER (cubeRd m ρ) (K (peer s 0 c, .recv s 0)) (recvCell (peer s 0 c) s 0) := invs_recv m ρ K c s 0
  have hr1 : (marks c : sProp 𝕄) ⊢ reached ER (sendCell c s 0) 0 := marks_own c (.send s 0)
  have hr2 : (marks c : sProp 𝕄) ⊢ reached ER (recvCell (peer s 0 c) s 0) 0 := marks_recv c s 0
  ihave Hg1 := hg1 $$ Hinv
  ihave Hg2 := hg2 $$ Hinv
  ihave Hr1 := hr1 $$ Hmarks
  ihave Hr2 := hr2 $$ Hmarks
  icases A34 with ⟨%fd, A34⟩
  iapply (step_enq0 m ρ K c s fd (owedFrom c (4 + 4 * 0 + s.val + 1)) (owedFrom_slot c s 0)) $$ [Hg1 Hg2 Hr1 Hr2 A31 A34 HO A2 A1]
  · isplitl [Hg1]; · iexact Hg1
    isplitl [Hg2]; · iexact Hg2
    isplitl [Hr1]; · iexact Hr1
    isplitl [Hr2]; · iexact Hr2
    isplitl [A31]; · iexact A31
    isplitl [A34]; · iexact A34
    isplitl [HO]; · iexact HO
    isplitl [A2]; · iexact A2
    iexact A1
  iintro ⟨Hcred, HO⟩
  iapply Hk
  isplitl [HO]; · iexists W; iexact HO
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A32]; · iexact A32
  isplitl [A33]; · iexact A33
  isplitl [A35]; · iexact A35
  isplitl [A36]; · iexact A36
  isplitl [A37]; · iexact A37
  isplitl [A38]; · iexact A38
  iexact Hcred

theorem tr_ENQ1 (K : Dev nD × CellK → ℕ) (c : Dev nD) (s : Fin 4) (g : Buf (Elt F) (((c : Dev nD) : Thread nD τ).loc cc0_stg1_0)) (k : ℕ) (hk : k = 4 + 4 * 1 + s.val) (d : Dev nD) (hd : d = peer s 1 c)
    {hsc : ((rSlot s 1 (.inl rfl) : Memref sig (Dev.tc d : Thread nD τ).2.kind .vmem S32x512 .f32)).view.ref.isScScratch = false}
    {hsrc : (oGive c s).view.WordExact} {hdst : (rSlot s 1 (.inl rfl)).view.WordExact}
    {hsem : DmaTarget.Typed .vmem (.dma (recvQ s 1)) (.remote (Dev.tc d : Thread nD τ) (rSlot s 1 (.inl rfl)) (.dma (sendQ s 1)) hsc)} {α : Type} {Q : α → sProp 𝕄} {kont : PUnit → Prog (TpuEff nD τ sig (Elt F) Λ₀ .tc) α} :
    iprop(□ Pers m ρ K c ∗ GSt c k ∗ StreamSt3 m ρ c s)
      ⊢ iprop(((GSt c (k + 1) ∗ StreamSt4 m ρ c s) -∗ wpC c (kont ⟨⟩) Q)
          -∗ wpC c (.op (.enqueueDma (oGive c s) (.remote (Dev.tc d : Thread nD τ) (rSlot s 1 (.inl rfl)) (.dma (sendQ s 1)) hsc) (.dma (recvQ s 1)) hsrc hdst hsem) kont) Q) := by
  subst hk hd
  unfold StreamSt3 StreamSt4
  iintro ⟨#⟨Hinv, Hmarks, -⟩, ⟨%W, HO⟩, A1, A2, A3, A4, A5, A6, A7, A8, A9, A10, A11, A12, A13, A14, A15, A16, A17, A18, A19, A20, A21, A22, A23, A24, A25, A26, A27, A28, A29, A30, A31, A32, A33, A34, A35⟩ Hk
  have hg1 : invs m ρ K c ⊢ cellInv ER (cubeRd m ρ) (K (c, .send s 1)) (sendCell c s 1) := invs_own m ρ K c (.send s 1)
  have hg2 : invs m ρ K c ⊢ cellInv ER (cubeRd m ρ) (K (peer s 1 c, .recv s 1)) (recvCell (peer s 1 c) s 1) := invs_recv m ρ K c s 1
  have hr1 : (marks c : sProp 𝕄) ⊢ reached ER (sendCell c s 1) 0 := marks_own c (.send s 1)
  have hr2 : (marks c : sProp 𝕄) ⊢ reached ER (recvCell (peer s 1 c) s 1) 0 := marks_recv c s 1
  ihave Hg1 := hg1 $$ Hinv
  ihave Hg2 := hg2 $$ Hinv
  ihave Hr1 := hr1 $$ Hmarks
  ihave Hr2 := hr2 $$ Hmarks
  icases A28 with ⟨%fd, A28⟩
  have hsplit : own (oHalf' c s) c fullShare (outLvl m ρ 1 c) ⊢ iprop(own (oKeep' c s) c fullShare (outLvl m ρ 1 c) ∗ own (oGive c s) c fullShare (outLvl m ρ 1 c)) := by
    rw [own_oHalf', own_oKeep', oHalf_quarters]
  ihave AH := hsplit $$ A35
  icases AH with ⟨AK, AG⟩
  iapply (step_enq1 m ρ K c s fd (owedFrom c (4 + 4 * 1 + s.val + 1)) (owedFrom_slot c s 1)) $$ [Hg1 Hg2 Hr1 Hr2 AG A28 HO A3 A2]
  · isplitl [Hg1]; · iexact Hg1
    isplitl [Hg2]; · iexact Hg2
    isplitl [Hr1]; · iexact Hr1
    isplitl [Hr2]; · iexact Hr2
    isplitl [AG]; · iexact AG
    isplitl [A28]; · iexact A28
    isplitl [HO]; · iexact HO
    isplitl [A3]; · iexact A3
    iexact A2
  iintro ⟨Hcred, HO⟩
  iapply Hk
  isplitl [HO]; · iexists W; iexact HO
  isplitl [A1]; · iexact A1
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A29]; · iexact A29
  isplitl [A30]; · iexact A30
  isplitl [A31]; · iexact A31
  isplitl [A32]; · iexact A32
  isplitl [A33]; · iexact A33
  isplitl [A34]; · iexact A34
  isplitl [Hcred]; · iexact Hcred
  iexact AK

/-- info: 'Cert.KernelIdeal.Proto.tr_ENQ1' depends on axioms: [propext, Classical.choice, Quot.sound] -/
#guard_msgs in #print axioms tr_ENQ1

end Cert.KernelIdeal.Proto
end
-- ==== Proof.TransEnq23.lean ====
/-
  The transfers of slots 2 and 3 of a stream, as phase transitions.

  Slot 2 (slot 3) sends the quarter of `out` the device keeps, at level 2 (3), into the third (fourth) block of the
  receive rows of its partner along the stream's third (fourth) dimension. The transfer spends the device's two duty
  tokens of the slot — the one of its own send cell and the one of the partner's receive cell —, takes the kept quarter
  and the partner's receive rows (handed over at the barrier), and leaves the credit of the send cell; the device then
  owes one payment less.
-/
import proofs.«900484_g7700000000000485_dist_treered_v7x_i16_m512_n512_f32_1_alg».proof.Proof.PartsDefs
import proofs.«900484_g7700000000000485_dist_treered_v7x_i16_m512_n512_f32_1_alg».proof.Proof.StepsEnq
import proofs.«900484_g7700000000000485_dist_treered_v7x_i16_m512_n512_f32_1_alg».proof.Proof.Regions
import proofs.«900484_g7700000000000485_dist_treered_v7x_i16_m512_n512_f32_1_alg».proof.Proof.Waits
import proofs.«900484_g7700000000000485_dist_treered_v7x_i16_m512_n512_f32_1_alg».proof.Proof.Entry

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The transfer of slot 2 on the resources it touches: the two duty tokens, the kept quarter (under the offset the
    stores use) at level 2 and the partner's receive rows go in; the send cell's credit comes out, and the device owes one
    payment less. -/
theorem enq23_core2 (K : Dev nD × CellK → ℕ) (c : Dev nD) (s : Fin 4) (k : ℕ) (hk : k = 4 + 4 * 2 + s.val) (d : Dev nD) (hd : d = peer s 2 c)
    {hsc : ((rSlot s 2 (.inr (.inl rfl)) : Memref sig (Dev.tc d : Thread nD τ).2.kind .vmem S32x512 .f32)).view.ref.isScScratch = false}
    {hsrc : (oKeep c s).view.WordExact} {hdst : (rSlot s 2 (.inr (.inl rfl))).view.WordExact}
    {hsem : DmaTarget.Typed .vmem (.dma (recvQ s 2)) (.remote (Dev.tc d : Thread nD τ) (rSlot s 2 (.inr (.inl rfl))) (.dma (sendQ s 2)) hsc)} {α : Type} {Q : α → sProp 𝕄} {kont : PUnit → Prog (TpuEff nD τ sig (Elt F) Λ₀ .tc) α} :
    iprop(□ Pers m ρ K c ∗ GSt c k ∗ dutyTok ER (recvCell (peer s 2 c) s 2) 0 (0 : Fin 4) ∗ dutyTok ER (sendCell c s 2) 0 (0 : Fin 4)
        ∗ RP c s 2 (.inr (.inl rfl)) ∗ own (oKeep' c s) c fullShare (outLvl m ρ 2 c))
      ⊢ iprop(((GSt c (k + 1) ∗ cred (tallyAt (sendCell c s 2) () (slotN 2))) -∗ wpC c (kont ⟨⟩) Q)
          -∗ wpC c (.op (.enqueueDma (oKeep c s) (.remote (Dev.tc d : Thread nD τ) (rSlot s 2 (.inr (.inl rfl))) (.dma (sendQ s 2)) hsc) (.dma (recvQ s 2)) hsrc hdst hsem) kont) Q) := by
  subst hd hk
  iintro ⟨#HP, ⟨%W, HO⟩, Ht₂, Ht₁, ⟨%fd, Hd⟩, Hs⟩ Hk
  icases HP with ⟨#HI, #HM, #HL⟩
  iapply (step_enq2 m ρ K c s fd (owedFrom c (4 + 4 * 2 + s.val + 1)) (owedFrom_slot c s 2) (W := W)) $$ [HO Ht₁ Ht₂ Hd Hs]
  · isplitr; · iapply (invs_own m ρ K c (.send s 2)); iexact HI
    isplitr; · iapply (invs_recv m ρ K c s 2); iexact HI
    isplitr; · iapply (marks_own c (.send s 2)); iexact HM
    isplitr; · iapply (marks_recv c s 2); iexact HM
    isplitl [Hs]; · iapply (Entails.of_eq (own_oKeep' c c s fullShare (outLvl m ρ 2 c))); iexact Hs
    isplitl [Hd]; · iexact Hd
    isplitl [HO]; · iexact HO
    isplitl [Ht₁]; · iexact Ht₁
    iexact Ht₂
  iintro ⟨Hc, HO⟩
  iapply Hk
  isplitl [HO]; · iexists _; iexact HO
  iexact Hc

theorem tr_ENQ2 (K : Dev nD × CellK → ℕ) (c : Dev nD) (s : Fin 4) (g : Buf (Elt F) (((c : Dev nD) : Thread nD τ).loc cc0_stg1_0)) (k : ℕ) (hk : k = 4 + 4 * 2 + s.val) (d : Dev nD) (hd : d = peer s 2 c)
    {hsc : ((rSlot s 2 (.inr (.inl rfl)) : Memref sig (Dev.tc d : Thread nD τ).2.kind .vmem S32x512 .f32)).view.ref.isScScratch = false}
    {hsrc : (oKeep c s).view.WordExact} {hdst : (rSlot s 2 (.inr (.inl rfl))).view.WordExact}
    {hsem : DmaTarget.Typed .vmem (.dma (recvQ s 2)) (.remote (Dev.tc d : Thread nD τ) (rSlot s 2 (.inr (.inl rfl))) (.dma (sendQ s 2)) hsc)} {α : Type} {Q : α → sProp 𝕄} {kont : PUnit → Prog (TpuEff nD τ sig (Elt F) Λ₀ .tc) α} :
    iprop(□ Pers m ρ K c ∗ GSt c k ∗ StreamSt6 m ρ c s)
      ⊢ iprop(((GSt c (k + 1) ∗ StreamSt7 m ρ c s) -∗ wpC c (kont ⟨⟩) Q)
          -∗ wpC c (.op (.enqueueDma (oKeep c s) (.remote (Dev.tc d : Thread nD τ) (rSlot s 2 (.inr (.inl rfl))) (.dma (sendQ s 2)) hsc) (.dma (recvQ s 2)) hsrc hdst hsem) kont) Q) := by
  unfold StreamSt6 StreamSt7
  iintro ⟨#HP, HG, A1, A2, A3, A4, A5, A6, A7, A8, A9, A10, A11, A12, A13, A14, A15, A16, A17, A18, A19, A20, A21, A22, A23, A24, A25, A26, A27, A28, A29, A30, A31, A32, A33, A34⟩ Hk
  iapply (enq23_core2 m ρ K c s k hk d hd) $$ [HG A3 A4 A24 A34]
  · isplitr; · iexact HP
    isplitl [HG]; · iexact HG
    isplitl [A3]; · iexact A3
    isplitl [A4]; · iexact A4
    isplitl [A24]; · iexact A24
    iexact A34
  iintro ⟨HG, Hc⟩
  iapply Hk
  isplitl [HG]; · iexact HG
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact Hc

/-- The transfer of slot 3 on the resources it touches: the two duty tokens, the kept quarter (under the offset the
    stores use) at level 3 and the partner's receive rows go in; the send cell's credit comes out, and the device owes one
    payment less. -/
theorem enq23_core3 (K : Dev nD × CellK → ℕ) (c : Dev nD) (s : Fin 4) (k : ℕ) (hk : k = 4 + 4 * 3 + s.val) (d : Dev nD) (hd : d = peer s 3 c)
    {hsc : ((rSlot s 3 (.inr (.inr rfl)) : Memref sig (Dev.tc d : Thread nD τ).2.kind .vmem S32x512 .f32)).view.ref.isScScratch = false}
    {hsrc : (oKeep c s).view.WordExact} {hdst : (rSlot s 3 (.inr (.inr rfl))).view.WordExact}
    {hsem : DmaTarget.Typed .vmem (.dma (recvQ s 3)) (.remote (Dev.tc d : Thread nD τ) (rSlot s 3 (.inr (.inr rfl))) (.dma (sendQ s 3)) hsc)} {α : Type} {Q : α → sProp 𝕄} {kont : PUnit → Prog (TpuEff nD τ sig (Elt F) Λ₀ .tc) α} :
    iprop(□ Pers m ρ K c ∗ GSt c k ∗ dutyTok ER (recvCell (peer s 3 c) s 3) 0 (0 : Fin 4) ∗ dutyTok ER (sendCell c s 3) 0 (0 : Fin 4)
        ∗ RP c s 3 (.inr (.inr rfl)) ∗ own (oKeep' c s) c fullShare (outLvl m ρ 3 c))
      ⊢ iprop(((GSt c (k + 1) ∗ cred (tallyAt (sendCell c s 3) () (slotN 3))) -∗ wpC c (kont ⟨⟩) Q)
          -∗ wpC c (.op (.enqueueDma (oKeep c s) (.remote (Dev.tc d : Thread nD τ) (rSlot s 3 (.inr (.inr rfl))) (.dma (sendQ s 3)) hsc) (.dma (recvQ s 3)) hsrc hdst hsem) kont) Q) := by
  subst hd hk
  iintro ⟨#HP, ⟨%W, HO⟩, Ht₂, Ht₁, ⟨%fd, Hd⟩, Hs⟩ Hk
  icases HP with ⟨#HI, #HM, #HL⟩
  iapply (step_enq3 m ρ K c s fd (owedFrom c (4 + 4 * 3 + s.val + 1)) (owedFrom_slot c s 3) (W := W)) $$ [HO Ht₁ Ht₂ Hd Hs]
  · isplitr; · iapply (invs_own m ρ K c (.send s 3)); iexact HI
    isplitr; · iapply (invs_recv m ρ K c s 3); iexact HI
    isplitr; · iapply (marks_own c (.send s 3)); iexact HM
    isplitr; · iapply (marks_recv c s 3); iexact HM
    isplitl [Hs]; · iapply (Entails.of_eq (own_oKeep' c c s fullShare (outLvl m ρ 3 c))); iexact Hs
    isplitl [Hd]; · iexact Hd
    isplitl [HO]; · iexact HO
    isplitl [Ht₁]; · iexact Ht₁
    iexact Ht₂
  iintro ⟨Hc, HO⟩
  iapply Hk
  isplitl [HO]; · iexists _; iexact HO
  iexact Hc

theorem tr_ENQ3 (K : Dev nD × CellK → ℕ) (c : Dev nD) (s : Fin 4) (g : Buf (Elt F) (((c : Dev nD) : Thread nD τ).loc cc0_stg1_0)) (k : ℕ) (hk : k = 4 + 4 * 3 + s.val) (d : Dev nD) (hd : d = peer s 3 c)
    {hsc : ((rSlot s 3 (.inr (.inr rfl)) : Memref sig (Dev.tc d : Thread nD τ).2.kind .vmem S32x512 .f32)).view.ref.isScScratch = false}
    {hsrc : (oKeep c s).view.WordExact} {hdst : (rSlot s 3 (.inr (.inr rfl))).view.WordExact}
    {hsem : DmaTarget.Typed .vmem (.dma (recvQ s 3)) (.remote (Dev.tc d : Thread nD τ) (rSlot s 3 (.inr (.inr rfl))) (.dma (sendQ s 3)) hsc)} {α : Type} {Q : α → sProp 𝕄} {kont : PUnit → Prog (TpuEff nD τ sig (Elt F) Λ₀ .tc) α} :
    iprop(□ Pers m ρ K c ∗ GSt c k ∗ StreamSt10 m ρ c s)
      ⊢ iprop(((GSt c (k + 1) ∗ StreamSt11 m ρ c s) -∗ wpC c (kont ⟨⟩) Q)
          -∗ wpC c (.op (.enqueueDma (oKeep c s) (.remote (Dev.tc d : Thread nD τ) (rSlot s 3 (.inr (.inr rfl))) (.dma (sendQ s 3)) hsc) (.dma (recvQ s 3)) hsrc hdst hsem) kont) Q) := by
  unfold StreamSt10 StreamSt11
  iintro ⟨#HP, HG, A1, A2, A3, A4, A5, A6, A7, A8, A9, A10, A11, A12, A13, A14, A15, A16, A17, A18, A19, A20, A21, A22, A23, A24, A25, A26, A27, A28, A29, A30, A31⟩ Hk
  iapply (enq23_core3 m ρ K c s k hk d hd) $$ [HG A3 A4 A19 A31]
  · isplitr; · iexact HP
    isplitl [HG]; · iexact HG
    isplitl [A3]; · iexact A3
    isplitl [A4]; · iexact A4
    isplitl [A19]; · iexact A19
    iexact A31
  iintro ⟨HG, Hc⟩
  iapply Hk
  isplitl [HG]; · iexact HG
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact Hc

/-- info: 'Cert.KernelIdeal.Proto.tr_ENQ2' depends on axioms: [propext, Classical.choice, Quot.sound] -/
#guard_msgs in #print axioms tr_ENQ2

/-- info: 'Cert.KernelIdeal.Proto.tr_ENQ3' depends on axioms: [propext, Classical.choice, Quot.sound] -/
#guard_msgs in #print axioms tr_ENQ3

end Cert.KernelIdeal.Proto

end
-- ==== Proof.TransEnq45.lean ====
/-
  The two last transfers of a stream.

  Slot 4 sends the quarter of `out` the device keeps, by now at its final contents, into the same rows of the partner
  along the stream's second dimension (the quarter that partner gave away in slot 1, whose rows came to the device with
  slot 1's landing); slot 5 sends the kept half into the same rows of the partner along the stream's first dimension
  (rows that partner never touched and handed over at the barrier). Both sources are read while the device goes on
  reading them itself, so only a share is lent: of the kept quarter its right half share, of the kept half the right
  half of its left half share. Each transfer pays the one duty of its own send cell and the one duty of the partner's
  receive cell, and takes its amount off what the device owes.
-/
import proofs.«900484_g7700000000000485_dist_treered_v7x_i16_m512_n512_f32_1_alg».proof.Proof.Stream
import proofs.«900484_g7700000000000485_dist_treered_v7x_i16_m512_n512_f32_1_alg».proof.Proof.PartsDefs
import proofs.«900484_g7700000000000485_dist_treered_v7x_i16_m512_n512_f32_1_alg».proof.Proof.Entry
import proofs.«900484_g7700000000000485_dist_treered_v7x_i16_m512_n512_f32_1_alg».proof.Proof.Tables
import proofs.«900484_g7700000000000485_dist_treered_v7x_i16_m512_n512_f32_1_alg».proof.Proof.Waits
import proofs.«900484_g7700000000000485_dist_treered_v7x_i16_m512_n512_f32_1_alg».proof.Proof.Regions
import proofs.«900484_g7700000000000485_dist_treered_v7x_i16_m512_n512_f32_1_alg».proof.Proof.Chains
import proofs.«900484_g7700000000000485_dist_treered_v7x_i16_m512_n512_f32_1_alg».proof.Proof.StepsEnq

noncomputable section

namespace Cert.KernelIdeal.Proto

open Cert.KernelIdeal
open Cert.KernelIdeal.Gen
open Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slot 4: the kept quarter, final, into the partner's `out` -/

theorem tr_ENQ4 (K : Dev nD × CellK → ℕ) (c : Dev nD) (s : Fin 4) (g : Buf (Elt F) (((c : Dev nD) : Thread nD τ).loc cc0_stg1_0)) (k : ℕ) (hk : k = 4 + 4 * 4 + s.val) (d : Dev nD) (hd : d = peer s 4 c)
    {hsc : ((oKeep c s : Memref sig (Dev.tc d : Thread nD τ).2.kind .vmem S32x512 .f32)).view.ref.isScScratch = false}
    {hsrc : (oKeep c s).view.WordExact} {hdst : (oKeep c s).view.WordExact}
    {hsem : DmaTarget.Typed .vmem (.dma (recvQ s 4)) (.remote (Dev.tc d : Thread nD τ) (oKeep c s) (.dma (sendQ s 4)) hsc)} {α : Type} {Q : α → sProp 𝕄} {kont : PUnit → Prog (TpuEff nD τ sig (Elt F) Λ₀ .tc) α} :
    iprop(□ Pers m ρ K c ∗ GSt c k ∗ StreamSt14 m ρ c s)
      ⊢ iprop(((GSt c (k + 1) ∗ StreamSt15 m ρ c s) -∗ wpC c (kont ⟨⟩) Q)
          -∗ wpC c (.op (.enqueueDma (oKeep c s) (.remote (Dev.tc d : Thread nD τ) (oKeep c s) (.dma (sendQ s 4)) hsc) (.dma (recvQ s 4)) hsrc hdst hsem) kont) Q) := by
  subst hd; subst hk
  unfold StreamSt14 StreamSt15
  iintro ⟨#HP, ⟨%W, HO⟩, A0, A1, T4r, T4s, P4s, P4r, C4r, T5r, T5s, P5s, P5r, C5r, HXK, HOP5, C0s, P0r, HRV0, C1s, P1r, HRV1, HPG, P2s, P2r, HRV2, P3s, P3r, HRV3, HK⟩ Hk
  icases HP with ⟨#Hinv, #Hmarks, #Hlev⟩
  -- the source: the kept quarter under its other spelling, at its final contents, in two half shares
  ihave HK1 := (Entails.of_eq (own_oKeep' c c s fullShare (outLvl m ρ 4 c))) $$ HK
  ihave HK2 := (Entails.of_eq (pointsTo_congr (outLvl4_eq_outFinal m ρ c s))) $$ HK1
  ihave HK3 := (Entails.of_eq (oKeep_halves c c s (outFinal m ρ c))) $$ HK2
  icases HK3 with ⟨HKl, HKr⟩
  -- the destination: the partner's rows that came with slot 1's landing are the same rows
  ihave HD := (Entails.of_eq (own_oGive_peer1 c (peer s 1 c) s fullShare (outLvl m ρ 1 (peer s 1 c)))) $$ HPG
  iapply (step_enq4 m ρ K c s (outLvl m ρ 1 (peer s 1 c)) (owedFrom c (4 + 4 * 4 + s.val + 1)) (owedFrom_slot c s 4)) $$ [HKr HD HO T4s T4r]
  · isplitr; · iapply (invs_own m ρ K c (.send s 4)); iexact Hinv
    isplitr; · iapply (invs_recv m ρ K c s 4); iexact Hinv
    isplitr; · iapply (marks_own c (.send s 4)); iexact Hmarks
    isplitr; · iapply (marks_recv c s 4); iexact Hmarks
    isplitl [HKr]; · iexact HKr
    isplitl [HD]; · iexact HD
    isplitl [HO]; · iexact HO
    isplitl [T4s]; · iexact T4s
    iexact T4r
  iintro ⟨C4s, HO⟩
  iapply Hk
  isplitl [HO]; · iexists W; iexact HO
  isplitl [A0]; · iexact A0
  isplitl [A1]; · iexact A1
  isplitl [P4s]; · iexact P4s
  isplitl [P4r]; · iexact P4r
  isplitl [C4r]; · iexact C4r
  isplitl [T5r]; · iexact T5r
  isplitl [T5s]; · iexact T5s
  isplitl [P5s]; · iexact P5s
  isplitl [P5r]; · iexact P5r
  isplitl [C5r]; · iexact C5r
  isplitl [HXK]; · iexact HXK
  isplitl [HOP5]; · iexact HOP5
  isplitl [C0s]; · iexact C0s
  isplitl [P0r]; · iexact P0r
  isplitl [HRV0]; · iexact HRV0
  isplitl [C1s]; · iexact C1s
  isplitl [P1r]; · iexact P1r
  isplitl [HRV1]; · iexact HRV1
  isplitl [P2s]; · iexact P2s
  isplitl [P2r]; · iexact P2r
  isplitl [HRV2]; · iexact HRV2
  isplitl [P3s]; · iexact P3s
  isplitl [P3r]; · iexact P3r
  isplitl [HRV3]; · iexact HRV3
  isplitl [C4s]; · iexact C4s
  iexact HKl

/-! ## Slot 5: the kept half, final, into the partner's `out` -/

theorem tr_ENQ5 (K : Dev nD × CellK → ℕ) (c : Dev nD) (s : Fin 4) (g : Buf (Elt F) (((c : Dev nD) : Thread nD τ).loc cc0_stg1_0)) (k : ℕ) (hk : k = 4 + 4 * 5 + s.val) (d : Dev nD) (hd : d = peer s 5 c)
    {hsc : ((oHalf c s : Memref sig (Dev.tc d : Thread nD τ).2.kind .vmem S64x512 .f32)).view.ref.isScScratch = false}
    {hsrc : (oHalf c s).view.WordExact} {hdst : (oHalf c s).view.WordExact}
    {hsem : DmaTarget.Typed .vmem (.dma (recvQ s 5)) (.remote (Dev.tc d : Thread nD τ) (oHalf c s) (.dma (sendQ s 5)) hsc)} {α : Type} {Q : α → sProp 𝕄} {kont : PUnit → Prog (TpuEff nD τ sig (Elt F) Λ₀ .tc) α} :
    iprop(□ Pers m ρ K c ∗ GSt c k ∗ StreamSt16 m ρ c s)
      ⊢ iprop(((GSt c (k + 1) ∗ StreamSt17 m ρ c s) -∗ wpC c (kont ⟨⟩) Q)
          -∗ wpC c (.op (.enqueueDma (oHalf c s) (.remote (Dev.tc d : Thread nD τ) (oHalf c s) (.dma (sendQ s 5)) hsc) (.dma (recvQ s 5)) hsrc hdst hsem) kont) Q) := by
  subst hd; subst hk
  unfold StreamSt16 StreamSt17
  iintro ⟨#HP, ⟨%W, HO⟩, A0, A1, P4s, T5r, T5s, P5s, P5r, C5r, HXK, HOP5, C0s, P0r, HRV0, C1s, P1r, HRV1, P2s, P2r, HRV2, P3s, P3r, HRV3, C4s, HKl, P4r, HG⟩ Hk
  icases HP with ⟨#Hinv, #Hmarks, #Hlev⟩
  -- the source: kept quarter (left share) and given quarter (whole) are the kept half (left share) and the given
  -- quarter's right share; of the kept half's left share the right half is lent
  ihave HH := (Entails.of_eq (oHalf_lend c c s fullShare (outFinal m ρ c))) $$ [HKl HG]
  · isplitl [HKl]; · iexact HKl
    iexact HG
  icases HH with ⟨HHl, HGr⟩
  ihave HH2 := (Entails.of_eq (oHalf_left_halves c c s (outFinal m ρ c))) $$ HHl
  icases HH2 with ⟨HHll, HHlr⟩
  icases HOP5 with ⟨%fd, HD⟩
  iapply (step_enq5 m ρ K c s fd (owedFrom c (4 + 4 * 5 + s.val + 1)) (owedFrom_slot c s 5)) $$ [HHlr HD HO T5s T5r]
  · isplitr; · iapply (invs_own m ρ K c (.send s 5)); iexact Hinv
    isplitr; · iapply (invs_recv m ρ K c s 5); iexact Hinv
    isplitr; · iapply (marks_own c (.send s 5)); iexact Hmarks
    isplitr; · iapply (marks_recv c s 5); iexact Hmarks
    isplitl [HHlr]; · iexact HHlr
    isplitl [HD]; · iexact HD
    isplitl [HO]; · iexact HO
    isplitl [T5s]; · iexact T5s
    iexact T5r
  iintro ⟨C5s, HO⟩
  iapply Hk
  isplitl [HO]; · iexists W; iexact HO
  isplitl [A0]; · iexact A0
  isplitl [A1]; · iexact A1
  isplitl [P4s]; · iexact P4s
  isplitl [P5s]; · iexact P5s
  isplitl [P5r]; · iexact P5r
  isplitl [C5r]; · iexact C5r
  isplitl [HXK]; · iexact HXK
  isplitl [C0s]; · iexact C0s
  isplitl [P0r]; · iexact P0r
  isplitl [HRV0]; · iexact HRV0
  isplitl [C1s]; · iexact C1s
  isplitl [P1r]; · iexact P1r
  isplitl [HRV1]; · iexact HRV1
  isplitl [P2s]; · iexact P2s
  isplitl [P2r]; · iexact P2r
  isplitl [HRV2]; · iexact HRV2
  isplitl [P3s]; · iexact P3s
  isplitl [P3r]; · iexact P3r
  isplitl [HRV3]; · iexact HRV3
  isplitl [C4s]; · iexact C4s
  isplitl [P4r]; · iexact P4r
  isplitl [C5s]; · iexact C5s
  isplitl [HHll]; · iexact HHll
  iexact HGr

/-- info: 'Cert.KernelIdeal.Proto.tr_ENQ4' depends on axioms: [propext, Classical.choice, Quot.sound] -/
#guard_msgs in #print axioms tr_ENQ4

/-- info: 'Cert.KernelIdeal.Proto.tr_ENQ5' depends on axioms: [propext, Classical.choice, Quot.sound] -/
#guard_msgs in #print axioms tr_ENQ5

end Cert.KernelIdeal.Proto

end
-- ==== Proof.StepsSync.lean ====
/-
  The synchronisation steps of a device's body: the four barrier signals and the barrier wait, the waits of a
  slot for its landing and for its own transfer to have left, and the closing of a cell.

  Each step is one effect of the program against the exchange schedule: a signal pays one duty of a partner's
  barrier cell with one unit of what the device owes; a wait takes the whole of the one round of one of the device's
  own cells, covered by credit for the round's total and by the evidence that the cell lies below everything still
  owed, and returns the round's payloads; a cell whose one round has been taken is closed with its counter at zero.
  A wait on a transfer semaphore takes the credit of the destination view it names and nothing else of its two
  views, so one statement covers every spelling of the views.
-/
import proofs.«900484_g7700000000000485_dist_treered_v7x_i16_m512_n512_f32_1_alg».proof.Proof.Res
import proofs.«900484_g7700000000000485_dist_treered_v7x_i16_m512_n512_f32_1_alg».proof.Proof.Tables

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

attribute [local sl_rounds] duties_bar duties_send duties_recv amount_bar amount_send amount_recv expect_bar expect_send expect_recv
  payload_bar payload_send payload_recv

/-! ## The barrier: four signals, one wait -/

/-- The signal along dimension `b`: pays duty `b` of the partner's barrier cell, one unit off what the device owes,
    handing over the rows the partner will write into. -/
theorem step_signal (m : (ℓ : Loc nD τ sig) → Buf (Elt F) ℓ) (ρ : Dev nD → PrngReg) (K : Dev nD × CellK → ℕ) (c : Dev nD) (b : Fin 4) (d : Dev nD) (hd : d = partner b c)
    {O' O : CellTallies nD τ sig Unit} {W : Waits sig Unit} (hO : O' = O + tallyAt (barCell (partner b c)) () 1)
    {α : Type} {Q : α → sProp 𝕄} {k : PUnit → Prog (TpuEff nD τ sig (Elt F) Λ₀ .tc) α} :
    iprop(cellInv ER (cubeRd m ρ) (K (partner b c, .bar)) (barCell (partner b c)) ∗ reached ER (barCell (partner b c)) 0
        ∗ owes (c : Thread nD τ) O' W ∗ dutyTok ER (barCell (partner b c)) 0 b ∗ barPay (F := F) (partner b c) b)
      ⊢ iprop((owes (c : Thread nD τ) O W -∗ wpC c (k ⟨⟩) Q) -∗ wpC c (.op (.semSignal (d : Thread nD τ) barS 1) k) Q) := by
  subst hO
  iintro ⟨#HI, #Hr, HO, Htok, Hpay⟩ Hk
  dsimp only [wpC]
  sl_exec
  iapply Hk
  iexact HO

/-- The barrier wait: the four units the partners pay, for the four partners' rows. -/
theorem step_wait_bar (m : (ℓ : Loc nD τ sig) → Buf (Elt F) ℓ) (ρ : Dev nD → PrngReg) (K : Dev nD × CellK → ℕ) (c : Dev nD)
    {O : CellTallies nD τ sig Unit} {W : Waits sig Unit}
    {α : Type} {Q : α → sProp 𝕄} {k : PUnit → Prog (TpuEff nD τ sig (Elt F) Λ₀ .tc) α} :
    iprop(cellInv ER (cubeRd m ρ) (K (c, .bar)) (barCell c) ∗ MayWait (c : Thread nD τ) (.reg barS) () O
        ∗ cred (tallyAt (barCell c) () 4) ∗ atPos ER (barCell c) 0 ∅ 0 ∗ owes (c : Thread nD τ) O W)
      ⊢ iprop(((owes (c : Thread nD τ) O (insert (.reg barS, ()) W) ∗ atPos ER (barCell c) 1 ∅ 0 ∗ reached ER (barCell c) 1
              ∗ barPay (F := F) c 0 ∗ barPay (F := F) c 1 ∗ barPay (F := F) c 2 ∗ barPay (F := F) c 3) -∗ wpC c (k ⟨⟩) Q)
          -∗ wpC c (.op (.semWait barS 4) k) Q) := by
  iintro ⟨#HI, #HM, Hc, Hat, HO⟩ Hk
  dsimp only [wpC]
  sl_exec
  iapply Hk
  isplitl [HO]; · iexact HO
  isplitl [Hat]; · iexact Hat
  isplitl [Hat_reached]; · iexact Hat_reached
  iapply (Entails.of_eq (bigSep_fin4 (fun d => barPay (F := F) c d)))
  iexact Hat_pay1

/-! ## The payloads of the slots, spelled out -/

theorem recvPay_0 (m : (ℓ : Loc nD τ sig) → Buf (Elt F) ℓ) (ρ : Dev nD → PrngReg) (c : Dev nD) (s : Fin 4) :
    recvPay m ρ c s 0 = own (rSlot0 s) c fullShare (recvFinal m ρ c) := rfl
theorem recvPay_1 (m : (ℓ : Loc nD τ sig) → Buf (Elt F) ℓ) (ρ : Dev nD → PrngReg) (c : Dev nD) (s : Fin 4) :
    recvPay m ρ c s 1 = iprop(own (rSlot s 1 (.inl rfl)) c fullShare (recvFinal m ρ c)
      ∗ own (oGive (peer s 1 c) s) (peer s 1 c) fullShare (outLvl m ρ 1 (peer s 1 c))) := rfl
theorem recvPay_2 (m : (ℓ : Loc nD τ sig) → Buf (Elt F) ℓ) (ρ : Dev nD → PrngReg) (c : Dev nD) (s : Fin 4) :
    recvPay m ρ c s 2 = own (rSlot s 2 (.inr (.inl rfl))) c fullShare (recvFinal m ρ c) := rfl
theorem recvPay_3 (m : (ℓ : Loc nD τ sig) → Buf (Elt F) ℓ) (ρ : Dev nD → PrngReg) (c : Dev nD) (s : Fin 4) :
    recvPay m ρ c s 3 = own (rSlot s 3 (.inr (.inr rfl))) c fullShare (recvFinal m ρ c) := rfl
theorem recvPay_4 (m : (ℓ : Loc nD τ sig) → Buf (Elt F) ℓ) (ρ : Dev nD → PrngReg) (c : Dev nD) (s : Fin 4) :
    recvPay m ρ c s 4 = own (oKeep (peer s 4 c) s) c fullShare (outFinal m ρ c) := rfl
theorem recvPay_5 (m : (ℓ : Loc nD τ sig) → Buf (Elt F) ℓ) (ρ : Dev nD → PrngReg) (c : Dev nD) (s : Fin 4) :
    recvPay m ρ c s 5 = own (oHalf (peer s 5 c) s) c fullShare (outFinal m ρ c) := rfl

theorem sendPay_0 (m : (ℓ : Loc nD τ sig) → Buf (Elt F) ℓ) (ρ : Dev nD → PrngReg) (c : Dev nD) (s : Fin 4) :
    sendPay m ρ c s 0 = own (xGive c s) c fullShare (xstg m ρ c) := rfl
theorem sendPay_1 (m : (ℓ : Loc nD τ sig) → Buf (Elt F) ℓ) (ρ : Dev nD → PrngReg) (c : Dev nD) (s : Fin 4) :
    sendPay m ρ c s 1 = iprop(emp) := rfl
theorem sendPay_2 (m : (ℓ : Loc nD τ sig) → Buf (Elt F) ℓ) (ρ : Dev nD → PrngReg) (c : Dev nD) (s : Fin 4) :
    sendPay m ρ c s 2 = own (oKeep c s) c fullShare (outLvl m ρ 2 c) := rfl
theorem sendPay_3 (m : (ℓ : Loc nD τ sig) → Buf (Elt F) ℓ) (ρ : Dev nD → PrngReg) (c : Dev nD) (s : Fin 4) :
    sendPay m ρ c s 3 = own (oKeep c s) c fullShare (outLvl m ρ 3 c) := rfl
theorem sendPay_4 (m : (ℓ : Loc nD τ sig) → Buf (Elt F) ℓ) (ρ : Dev nD → PrngReg) (c : Dev nD) (s : Fin 4) :
    sendPay m ρ c s 4 = own (oKeep c s) c fullShare.right (outFinal m ρ c) := rfl
theorem sendPay_5 (m : (ℓ : Loc nD τ sig) → Buf (Elt F) ℓ) (ρ : Dev nD → PrngReg) (c : Dev nD) (s : Fin 4) :
    sendPay m ρ c s 5 = own (oHalf c s) c fullShare.left.right (outFinal m ρ c) := rfl

/-! ## The credit of a slot's views

Slots 0 and 5 move 64 rows, the others 32; a view's credit depends on its buffer's kind, its shape and its element
type only, so every 64-row (32-row) view of the three buffers has the credit of the 64-row (32-row) receive view. -/

theorem slotN_0 : slotN 0 = N64 := if_pos (Or.inl rfl)
theorem slotN_1 : slotN 1 = N32 := if_neg (by decide)
theorem slotN_2 : slotN 2 = N32 := if_neg (by decide)
theorem slotN_3 : slotN 3 = N32 := if_neg (by decide)
theorem slotN_4 : slotN 4 = N32 := if_neg (by decide)
theorem slotN_5 : slotN 5 = N64 := if_pos (Or.inr rfl)

theorem credit_rSlot0 (s : Fin 4) : (rSlot0 s).view.dmaCredit = N64 := rfl
theorem credit_rSlot (s : Fin 4) (t : Fin 6) (ht : t = 1 ∨ t = 2 ∨ t = 3) : (rSlot s t ht).view.dmaCredit = N32 := rfl
theorem credit_xGive (c : Dev nD) (s : Fin 4) : (xGive c s).view.dmaCredit = N64 := rfl
theorem credit_oHalf (c : Dev nD) (s : Fin 4) : (oHalf c s).view.dmaCredit = N64 := rfl
theorem credit_oKeep (c : Dev nD) (s : Fin 4) : (oKeep c s).view.dmaCredit = N32 := rfl
theorem credit_oGive (c : Dev nD) (s : Fin 4) : (oGive c s).view.dmaCredit = N32 := rfl

/-- The destination view of the receive wait of slot `t` has the slot's credit. -/
theorem credR_0 (s : Fin 4) : (rSlot0 s).view.dmaCredit = slotN 0 := (credit_rSlot0 s).trans slotN_0.symm
theorem credR_1 (s : Fin 4) : (rSlot s 1 (.inl rfl)).view.dmaCredit = slotN 1 := (credit_rSlot s 1 _).trans slotN_1.symm
theorem credR_2 (s : Fin 4) : (rSlot s 2 (.inr (.inl rfl))).view.dmaCredit = slotN 2 := (credit_rSlot s 2 _).trans slotN_2.symm
theorem credR_3 (s : Fin 4) : (rSlot s 3 (.inr (.inr rfl))).view.dmaCredit = slotN 3 := (credit_rSlot s 3 _).trans slotN_3.symm
theorem credR_4 (c : Dev nD) (s : Fin 4) : (oKeep c s).view.dmaCredit = slotN 4 := (credit_oKeep c s).trans slotN_4.symm
theorem credR_5 (c : Dev nD) (s : Fin 4) : (oHalf c s).view.dmaCredit = slotN 5 := (credit_oHalf c s).trans slotN_5.symm
/-- The destination view of the send wait of slot `t` (the transfer's source rows) has the slot's credit. -/
theorem credS_0 (c : Dev nD) (s : Fin 4) : (xGive c s).view.dmaCredit = slotN 0 := (credit_xGive c s).trans slotN_0.symm
theorem credS_1 (c : Dev nD) (s : Fin 4) : (oGive c s).view.dmaCredit = slotN 1 := (credit_oGive c s).trans slotN_1.symm
theorem credS_2 (c : Dev nD) (s : Fin 4) : (oKeep c s).view.dmaCredit = slotN 2 := (credit_oKeep c s).trans slotN_2.symm
theorem credS_3 (c : Dev nD) (s : Fin 4) : (oKeep c s).view.dmaCredit = slotN 3 := (credit_oKeep c s).trans slotN_3.symm
theorem credS_4 (c : Dev nD) (s : Fin 4) : (oKeep c s).view.dmaCredit = slotN 4 := (credit_oKeep c s).trans slotN_4.symm
theorem credS_5 (c : Dev nD) (s : Fin 4) : (oHalf c s).view.dmaCredit = slotN 5 := (credit_oHalf c s).trans slotN_5.symm

/-! ## The waits of a slot -/

/-- The wait for the landing of slot `t` of stream `s`: whatever views the statement names, it takes the credit of its
    destination view off the receive cell. -/
theorem step_wait_recv (m : (ℓ : Loc nD τ sig) → Buf (Elt F) ℓ) (ρ : Dev nD → PrngReg) (K : Dev nD × CellK → ℕ) (c : Dev nD) (s : Fin 4) (t : Fin 6)
    {sp sp' : Space} {sh sh' : Shape} {e e' : EltTy} {κ' : Idealize.ShloMosaic.Kind} (q : DmaSem sig) (hq : q = recvQ s t)
    {src : Memref sig .tc sp' sh' e'} {dst : Memref sig κ' sp sh e} {hsrc : src.view.WordExact} {hdst : dst.view.WordExact}
    (hcred : dst.view.dmaCredit = slotN t)
    {O : CellTallies nD τ sig Unit} {W : Waits sig Unit}
    {α : Type} {Q : α → sProp 𝕄} {k : PUnit → Prog (TpuEff nD τ sig (Elt F) Λ₀ .tc) α} :
    iprop(cellInv ER (cubeRd m ρ) (K (c, .recv s t)) (recvCell c s t) ∗ MayWait (c : Thread nD τ) (.dma (recvQ s t)) () O
        ∗ cred (tallyAt (recvCell c s t) () (slotN t)) ∗ atPos ER (recvCell c s t) 0 ∅ 0 ∗ owes (c : Thread nD τ) O W)
      ⊢ iprop(((owes (c : Thread nD τ) O (insert (.dma (recvQ s t), ()) W) ∗ atPos ER (recvCell c s t) 1 ∅ 0 ∗ reached ER (recvCell c s t) 1
              ∗ recvPay m ρ c s t) -∗ wpC c (k ⟨⟩) Q)
          -∗ wpC c (.op (.waitDma2 q src dst hsrc hdst) k) Q) := by
  subst hq
  rw [← hcred]
  iintro ⟨#HI, #HM, Hc, Hat, HO⟩ Hk
  dsimp only [wpC]
  sl_exec
  iapply Hk
  isplitl [HO]; · iexact HO
  isplitl [Hat]; · iexact Hat
  isplitl [Hat_reached]; · iexact Hat_reached
  iexact Hat_pay1

/-- The wait for slot `t`'s own transfer to have left: the source rows come back. -/
theorem step_wait_send (m : (ℓ : Loc nD τ sig) → Buf (Elt F) ℓ) (ρ : Dev nD → PrngReg) (K : Dev nD × CellK → ℕ) (c : Dev nD) (s : Fin 4) (t : Fin 6)
    {sp sp' : Space} {sh sh' : Shape} {e e' : EltTy} {κ' : Idealize.ShloMosaic.Kind} (q : DmaSem sig) (hq : q = sendQ s t)
    {src : Memref sig .tc sp' sh' e'} {dst : Memref sig κ' sp sh e} {hsrc : src.view.WordExact} {hdst : dst.view.WordExact}
    (hcred : dst.view.dmaCredit = slotN t)
    {O : CellTallies nD τ sig Unit} {W : Waits sig Unit}
    {α : Type} {Q : α → sProp 𝕄} {k : PUnit → Prog (TpuEff nD τ sig (Elt F) Λ₀ .tc) α} :
    iprop(cellInv ER (cubeRd m ρ) (K (c, .send s t)) (sendCell c s t) ∗ MayWait (c : Thread nD τ) (.dma (sendQ s t)) () O
        ∗ cred (tallyAt (sendCell c s t) () (slotN t)) ∗ atPos ER (sendCell c s t) 0 ∅ 0 ∗ owes (c : Thread nD τ) O W)
      ⊢ iprop(((owes (c : Thread nD τ) O (insert (.dma (sendQ s t), ()) W) ∗ atPos ER (sendCell c s t) 1 ∅ 0 ∗ reached ER (sendCell c s t) 1
              ∗ sendPay m ρ c s t) -∗ wpC c (k ⟨⟩) Q)
          -∗ wpC c (.op (.waitDma2 q src dst hsrc hdst) k) Q) := by
  subst hq
  rw [← hcred]
  iintro ⟨#HI, #HM, Hc, Hat, HO⟩ Hk
  dsimp only [wpC]
  sl_exec
  iapply Hk
  isplitl [HO]; · iexact HO
  isplitl [Hat]; · iexact Hat
  isplitl [Hat_reached]; · iexact Hat_reached
  iexact Hat_pay1

/-! ## Closing a cell

Every cell has the one round 0: from round 1 on nothing lands, and the owner, back from its wait, closes the cell
and keeps the counter at zero. -/

theorem step_close (m : (ℓ : Loc nD τ sig) → Buf (Elt F) ℓ) (ρ : Dev nD → PrngReg) (K : Dev nD × CellK → ℕ) (c : Dev nD) (k : CellK) :
    iprop(cellInv ER (cubeRd m ρ) (K (c, k)) (kcell (c, k)) ∗ atPos ER (kcell (c, k)) 1 ∅ 0)
      ⊢ iprop(|={Set.univ}=> semVal (kcell (c, k)) 0) :=
  cell_close ER (cubeRd m ρ) (Set.mem_univ _) (fun h => h) (duties_later m ρ (kcell (c, k)))

/-- info: 'Cert.KernelIdeal.Proto.step_signal' depends on axioms: [propext, Classical.choice, Quot.sound] -/
#guard_msgs in #print axioms step_signal

/-- info: 'Cert.KernelIdeal.Proto.step_wait_bar' depends on axioms: [propext, Classical.choice, Quot.sound] -/
#guard_msgs in #print axioms step_wait_bar

/-- info: 'Cert.KernelIdeal.Proto.step_wait_recv' depends on axioms: [propext, Classical.choice, Quot.sound] -/
#guard_msgs in #print axioms step_wait_recv

/-- info: 'Cert.KernelIdeal.Proto.step_wait_send' depends on axioms: [propext, Classical.choice, Quot.sound] -/
#guard_msgs in #print axioms step_wait_send

/-- info: 'Cert.KernelIdeal.Proto.step_close' depends on axioms: [propext, Classical.choice, Quot.sound] -/
#guard_msgs in #print axioms step_close

end Cert.KernelIdeal.Proto

end
-- ==== Proof.TransWait.lean ====
/-
  The receive waits of slots 0 to 3 as steps between a stream's phases.

  Waiting for the landing of slot `t` takes the receive cell's position at round 0 and its launch credit out of the
  phase and puts back the position at round 1 and the rows landed, at their final contents; in slot 1 the rows the
  partner's transfer read come with them. What the device owes is unchanged; the wait is allowed because every
  transfer up to the slot's own has been issued.
-/
import proofs.«900484_g7700000000000485_dist_treered_v7x_i16_m512_n512_f32_1_alg».proof.Proof.PartsDefs
import proofs.«900484_g7700000000000485_dist_treered_v7x_i16_m512_n512_f32_1_alg».proof.Proof.StepsSync
import proofs.«900484_g7700000000000485_dist_treered_v7x_i16_m512_n512_f32_1_alg».proof.Proof.Entry

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem tr_WAITR0 (K : Dev nD × CellK → ℕ) (c : Dev nD) (s : Fin 4) (g : Buf (Elt F) (((c : Dev nD) : Thread nD τ).loc cc0_stg1_0)) (k : ℕ) (hk : 4 + 4 * 0 + s.val < k) {hsrc : (xGive c s).view.WordExact} {hdst : (rSlot0 s).view.WordExact} {α : Type} {Q : α → sProp 𝕄} {kont : PUnit → Prog (TpuEff nD τ sig (Elt F) Λ₀ .tc) α} :
    iprop(□ Pers m ρ K c ∗ GSt c k ∗ StreamSt1 m ρ c s g)
      ⊢ iprop(((GSt c k ∗ StreamSt2 m ρ c s g) -∗ wpC c (kont ⟨⟩) Q)
          -∗ wpC c (.op (.waitDma2 (recvQ s 0) (xGive c s) (rSlot0 s) hsrc hdst) kont) Q) := by
  unfold StreamSt1 StreamSt2
  iintro ⟨#HP, ⟨%W, HO⟩, A1, A2, A3, A4, A5, A6, A7, A8, A9, A10, A11, A12, A13, A14, A15, A16, A17, A18, A19, A20, A21, A22, A23, A24, A25, A26, A27, A28, A29, A30, A31, A32, A33, A34, A35⟩ Hk
  icases HP with ⟨#Hinv, -, #Hlev⟩
  ihave #HI := (invs_own m ρ K c (.recv s 0)) $$ Hinv
  ihave #HM := (mayWait_recv (F := F) c s 0 k hk) $$ Hlev
  iapply (step_wait_recv m ρ K c s 0 (recvQ s 0) rfl (credR_0 s) (O := owedFrom c k) (W := W)) $$ [HO A2 A3]
  · isplitr; · iexact HI
    isplitr; · iexact HM
    isplitl [A3]; · iexact A3
    isplitl [A2]; · iexact A2
    iexact HO
  iintro ⟨HO, Hat, -, Hpay⟩
  ihave Hp := (Entails.of_eq (recvPay_0 m ρ c s)) $$ Hpay
  iapply Hk
  isplitl [HO]; · iexists _; iexact HO
  isplitl [A1]; · iexact A1
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [A34]; · iexact A34
  isplitl [A35]; · iexact A35
  isplitl [Hat]; · iexact Hat
  iexact Hp

theorem tr_WAITR1 (K : Dev nD × CellK → ℕ) (c : Dev nD) (s : Fin 4) (g : Buf (Elt F) (((c : Dev nD) : Thread nD τ).loc cc0_stg1_0)) (k : ℕ) (hk : 4 + 4 * 1 + s.val < k) {hsrc : (oGive c s).view.WordExact} {hdst : (rSlot s 1 (.inl rfl)).view.WordExact} {α : Type} {Q : α → sProp 𝕄} {kont : PUnit → Prog (TpuEff nD τ sig (Elt F) Λ₀ .tc) α} :
    iprop(□ Pers m ρ K c ∗ GSt c k ∗ StreamSt4 m ρ c s)
      ⊢ iprop(((GSt c k ∗ StreamSt5 m ρ c s) -∗ wpC c (kont ⟨⟩) Q)
          -∗ wpC c (.op (.waitDma2 (recvQ s 1) (oGive c s) (rSlot s 1 (.inl rfl)) hsrc hdst) kont) Q) := by
  unfold StreamSt4 StreamSt5
  iintro ⟨#HP, ⟨%W, HO⟩, A1, A2, A3, A4, A5, A6, A7, A8, A9, A10, A11, A12, A13, A14, A15, A16, A17, A18, A19, A20, A21, A22, A23, A24, A25, A26, A27, A28, A29, A30, A31, A32, A33⟩ Hk
  icases HP with ⟨#Hinv, -, #Hlev⟩
  ihave #HI := (invs_own m ρ K c (.recv s 1)) $$ Hinv
  ihave #HM := (mayWait_recv (F := F) c s 1 k hk) $$ Hlev
  iapply (step_wait_recv m ρ K c s 1 (recvQ s 1) rfl (credR_1 s) (O := owedFrom c k) (W := W)) $$ [HO A3 A4]
  · isplitr; · iexact HI
    isplitr; · iexact HM
    isplitl [A4]; · iexact A4
    isplitl [A3]; · iexact A3
    iexact HO
  iintro ⟨HO, Hat, -, Hpay⟩
  ihave Hp := (Entails.of_eq (recvPay_1 m ρ c s)) $$ Hpay
  icases Hp with ⟨Hp1, Hp2⟩
  iapply Hk
  isplitl [HO]; · iexists _; iexact HO
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [Hat]; · iexact Hat
  isplitl [Hp1]; · iexact Hp1
  iexact Hp2

theorem tr_WAITR2 (K : Dev nD × CellK → ℕ) (c : Dev nD) (s : Fin 4) (g : Buf (Elt F) (((c : Dev nD) : Thread nD τ).loc cc0_stg1_0)) (k : ℕ) (hk : 4 + 4 * 2 + s.val < k) {hsrc : (oKeep c s).view.WordExact} {hdst : (rSlot s 2 (.inr (.inl rfl))).view.WordExact} {α : Type} {Q : α → sProp 𝕄} {kont : PUnit → Prog (TpuEff nD τ sig (Elt F) Λ₀ .tc) α} :
    iprop(□ Pers m ρ K c ∗ GSt c k ∗ StreamSt8 m ρ c s)
      ⊢ iprop(((GSt c k ∗ StreamSt9 m ρ c s) -∗ wpC c (kont ⟨⟩) Q)
          -∗ wpC c (.op (.waitDma2 (recvQ s 2) (oKeep c s) (rSlot s 2 (.inr (.inl rfl))) hsrc hdst) kont) Q) := by
  unfold StreamSt8 StreamSt9
  iintro ⟨#HP, ⟨%W, HO⟩, A1, A2, A3, A4, A5, A6, A7, A8, A9, A10, A11, A12, A13, A14, A15, A16, A17, A18, A19, A20, A21, A22, A23, A24, A25, A26, A27, A28, A29, A30, A31⟩ Hk
  icases HP with ⟨#Hinv, -, #Hlev⟩
  ihave #HI := (invs_own m ρ K c (.recv s 2)) $$ Hinv
  ihave #HM := (mayWait_recv (F := F) c s 2 k hk) $$ Hlev
  iapply (step_wait_recv m ρ K c s 2 (recvQ s 2) rfl (credR_2 s) (O := owedFrom c k) (W := W)) $$ [HO A3 A4]
  · isplitr; · iexact HI
    isplitr; · iexact HM
    isplitl [A4]; · iexact A4
    isplitl [A3]; · iexact A3
    iexact HO
  iintro ⟨HO, Hat, -, Hpay⟩
  ihave Hp := (Entails.of_eq (recvPay_2 m ρ c s)) $$ Hpay
  iapply Hk
  isplitl [HO]; · iexists _; iexact HO
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [Hat]; · iexact Hat
  iexact Hp

theorem tr_WAITR3 (K : Dev nD × CellK → ℕ) (c : Dev nD) (s : Fin 4) (g : Buf (Elt F) (((c : Dev nD) : Thread nD τ).loc cc0_stg1_0)) (k : ℕ) (hk : 4 + 4 * 3 + s.val < k) {hsrc : (oKeep c s).view.WordExact} {hdst : (rSlot s 3 (.inr (.inr rfl))).view.WordExact} {α : Type} {Q : α → sProp 𝕄} {kont : PUnit → Prog (TpuEff nD τ sig (Elt F) Λ₀ .tc) α} :
    iprop(□ Pers m ρ K c ∗ GSt c k ∗ StreamSt12 m ρ c s)
      ⊢ iprop(((GSt c k ∗ StreamSt13 m ρ c s) -∗ wpC c (kont ⟨⟩) Q)
          -∗ wpC c (.op (.waitDma2 (recvQ s 3) (oKeep c s) (rSlot s 3 (.inr (.inr rfl))) hsrc hdst) kont) Q) := by
  unfold StreamSt12 StreamSt13
  iintro ⟨#HP, ⟨%W, HO⟩, A1, A2, A3, A4, A5, A6, A7, A8, A9, A10, A11, A12, A13, A14, A15, A16, A17, A18, A19, A20, A21, A22, A23, A24, A25, A26, A27, A28⟩ Hk
  icases HP with ⟨#Hinv, -, #Hlev⟩
  ihave #HI := (invs_own m ρ K c (.recv s 3)) $$ Hinv
  ihave #HM := (mayWait_recv (F := F) c s 3 k hk) $$ Hlev
  iapply (step_wait_recv m ρ K c s 3 (recvQ s 3) rfl (credR_3 s) (O := owedFrom c k) (W := W)) $$ [HO A3 A4]
  · isplitr; · iexact HI
    isplitr; · iexact HM
    isplitl [A4]; · iexact A4
    isplitl [A3]; · iexact A3
    iexact HO
  iintro ⟨HO, Hat, -, Hpay⟩
  ihave Hp := (Entails.of_eq (recvPay_3 m ρ c s)) $$ Hpay
  iapply Hk
  isplitl [HO]; · iexists _; iexact HO
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [Hat]; · iexact Hat
  iexact Hp

/-- info: 'Cert.KernelIdeal.Proto.tr_WAITR0' depends on axioms: [propext, Classical.choice, Quot.sound] -/
#guard_msgs in #print axioms tr_WAITR0

/-- info: 'Cert.KernelIdeal.Proto.tr_WAITR1' depends on axioms: [propext, Classical.choice, Quot.sound] -/
#guard_msgs in #print axioms tr_WAITR1

/-- info: 'Cert.KernelIdeal.Proto.tr_WAITR2' depends on axioms: [propext, Classical.choice, Quot.sound] -/
#guard_msgs in #print axioms tr_WAITR2

/-- info: 'Cert.KernelIdeal.Proto.tr_WAITR3' depends on axioms: [propext, Classical.choice, Quot.sound] -/
#guard_msgs in #print axioms tr_WAITR3

end Cert.KernelIdeal.Proto

end
-- ==== Proof.TransWaitR45.lean ====
/-
  The receive waits of slots 4 and 5 as steps between a stream's phases.

  Slots 4 and 5 land in `out`: slot 4 fills the quarter the device gave away in slot 1 (the rows its partner of
  that dimension keeps), slot 5 the half it never touched. Waiting for either takes the receive cell's position at
  round 0 and its launch credit out of the phase and puts back the position at round 1 and the rows landed, at
  the final contents of `out`. What the device owes is unchanged.
-/
import proofs.«900484_g7700000000000485_dist_treered_v7x_i16_m512_n512_f32_1_alg».proof.Proof.PartsDefs
import proofs.«900484_g7700000000000485_dist_treered_v7x_i16_m512_n512_f32_1_alg».proof.Proof.StepsSync
import proofs.«900484_g7700000000000485_dist_treered_v7x_i16_m512_n512_f32_1_alg».proof.Proof.Entry
import proofs.«900484_g7700000000000485_dist_treered_v7x_i16_m512_n512_f32_1_alg».proof.Proof.Regions

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem tr_WAITR4 (K : Dev nD × CellK → ℕ) (c : Dev nD) (s : Fin 4) (g : Buf (Elt F) (((c : Dev nD) : Thread nD τ).loc cc0_stg1_0)) (k : ℕ) (hk : 4 + 4 * 4 + s.val < k) {hsrc : (oKeep c s).view.WordExact} {hdst : (oKeep c s).view.WordExact} {α : Type} {Q : α → sProp 𝕄} {kont : PUnit → Prog (TpuEff nD τ sig (Elt F) Λ₀ .tc) α} :
    iprop(□ Pers m ρ K c ∗ GSt c k ∗ StreamSt15 m ρ c s)
      ⊢ iprop(((GSt c k ∗ StreamSt16 m ρ c s) -∗ wpC c (kont ⟨⟩) Q)
          -∗ wpC c (.op (.waitDma2 (recvQ s 4) (oKeep c s) (oKeep c s) hsrc hdst) kont) Q) := by
  unfold StreamSt15 StreamSt16
  iintro ⟨#HP, ⟨%W, HO⟩, A1, A2, A3, A4, A5, A6, A7, A8, A9, A10, A11, A12, A13, A14, A15, A16, A17, A18, A19, A20, A21, A22, A23, A24, A25, A26⟩ Hk
  icases HP with ⟨#Hinv, -, #Hlev⟩
  ihave #HI := (invs_own m ρ K c (.recv s 4)) $$ Hinv
  ihave #HM := (mayWait_recv (F := F) c s 4 k hk) $$ Hlev
  iapply (step_wait_recv m ρ K c s 4 (recvQ s 4) rfl (credR_4 c s) (O := owedFrom c k) (W := W)) $$ [HO A4 A5]
  · isplitr; · iexact HI
    isplitr; · iexact HM
    isplitl [A5]; · iexact A5
    isplitl [A4]; · iexact A4
    iexact HO
  iintro ⟨HO, Hat, -, Hpay⟩
  ihave Hp := (Entails.of_eq (recvPay_4 m ρ c s)) $$ Hpay
  ihave Hq := (Entails.of_eq (own_oKeep_peer4 c c s fullShare (outFinal m ρ c))) $$ Hp
  iapply Hk
  isplitl [HO]; · iexists _; iexact HO
  isplitl [A1]; · iexact A1
  isplitl [A2]; · iexact A2
  isplitl [A3]; · iexact A3
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [Hat]; · iexact Hat
  iexact Hq

theorem tr_WAITR5 (K : Dev nD × CellK → ℕ) (c : Dev nD) (s : Fin 4) (g : Buf (Elt F) (((c : Dev nD) : Thread nD τ).loc cc0_stg1_0)) (k : ℕ) (hk : 4 + 4 * 5 + s.val < k) {hsrc : (oHalf c s).view.WordExact} {hdst : (oHalf c s).view.WordExact} {α : Type} {Q : α → sProp 𝕄} {kont : PUnit → Prog (TpuEff nD τ sig (Elt F) Λ₀ .tc) α} :
    iprop(□ Pers m ρ K c ∗ GSt c k ∗ StreamSt17 m ρ c s)
      ⊢ iprop(((GSt c k ∗ StreamSt18 m ρ c s) -∗ wpC c (kont ⟨⟩) Q)
          -∗ wpC c (.op (.waitDma2 (recvQ s 5) (oHalf c s) (oHalf c s) hsrc hdst) kont) Q) := by
  unfold StreamSt17 StreamSt18
  iintro ⟨#HP, ⟨%W, HO⟩, A1, A2, A3, A4, A5, A6, A7, A8, A9, A10, A11, A12, A13, A14, A15, A16, A17, A18, A19, A20, A21, A22, A23, A24⟩ Hk
  icases HP with ⟨#Hinv, -, #Hlev⟩
  ihave #HI := (invs_own m ρ K c (.recv s 5)) $$ Hinv
  ihave #HM := (mayWait_recv (F := F) c s 5 k hk) $$ Hlev
  iapply (step_wait_recv m ρ K c s 5 (recvQ s 5) rfl (credR_5 c s) (O := owedFrom c k) (W := W)) $$ [HO A5 A6]
  · isplitr; · iexact HI
    isplitr; · iexact HM
    isplitl [A6]; · iexact A6
    isplitl [A5]; · iexact A5
    iexact HO
  iintro ⟨HO, Hat, -, Hpay⟩
  ihave Hp := (Entails.of_eq (recvPay_5 m ρ c s)) $$ Hpay
  iapply Hk
  isplitl [HO]; · iexists _; iexact HO
  isplitl [A1]; · iexact A1
  isplitl [A2]; · iexact A2
  isplitl [A3]; · iexact A3
  isplitl [A4]; · iexact A4
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [Hat]; · iexact Hat
  iexact Hp

/-- info: 'Cert.KernelIdeal.Proto.tr_WAITR4' depends on axioms: [propext, Classical.choice, Quot.sound] -/
#guard_msgs in #print axioms tr_WAITR4

/-- info: 'Cert.KernelIdeal.Proto.tr_WAITR5' depends on axioms: [propext, Classical.choice, Quot.sound] -/
#guard_msgs in #print axioms tr_WAITR5

end Cert.KernelIdeal.Proto

end
-- ==== Proof.TransWaitS.lean ====
/-
  The six waits of a stream for its own transfers to have left, as phase transitions.

  The wait on the send cell of slot `t` takes the cell's one round whole: it is covered by the credit the transfer
  left for it and lies below everything the device still owes (a send cell is at level 0). It moves the device's
  position in the cell to round 1 and returns the round's one payload — the source rows of the transfer, at the
  share and contents they were lent at (nothing for slot 1, whose source rows travelled with the landing).
-/
import proofs.«900484_g7700000000000485_dist_treered_v7x_i16_m512_n512_f32_1_alg».proof.Proof.PartsDefs
import proofs.«900484_g7700000000000485_dist_treered_v7x_i16_m512_n512_f32_1_alg».proof.Proof.StepsSync
import proofs.«900484_g7700000000000485_dist_treered_v7x_i16_m512_n512_f32_1_alg».proof.Proof.Regions
import proofs.«900484_g7700000000000485_dist_treered_v7x_i16_m512_n512_f32_1_alg».proof.Proof.Waits
import proofs.«900484_g7700000000000485_dist_treered_v7x_i16_m512_n512_f32_1_alg».proof.Proof.Entry

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The wait on the send cell of slot `t`, on the resources it touches: from the position at round 0 and the credit of
    the round, to the position at round 1 and the round's payload; what the device owes is unchanged. The two views
    the wait names matter only through the credit of the second. -/
theorem waitS_core (K : Dev nD × CellK → ℕ) (c : Dev nD) (s : Fin 4) (t : Fin 6) (k : ℕ)
    {sp sp' : Space} {sh sh' : Shape} {e e' : EltTy} {κ' : Idealize.ShloMosaic.Kind}
    {src : Memref sig .tc sp' sh' e'} {dst : Memref sig κ' sp sh e} {hsrc : src.view.WordExact} {hdst : dst.view.WordExact}
    (hcred : dst.view.dmaCredit = slotN t)
    {α : Type} {Q : α → sProp 𝕄} {kont : PUnit → Prog (TpuEff nD τ sig (Elt F) Λ₀ .tc) α} :
    iprop(□ Pers m ρ K c ∗ GSt c k ∗ atPos ER (sendCell c s t) 0 ∅ 0 ∗ cred (tallyAt (sendCell c s t) () (slotN t)))
      ⊢ iprop(((GSt c k ∗ atPos ER (sendCell c s t) (0 + 1) ∅ 0 ∗ sendPay m ρ c s t) -∗ wpC c (kont ⟨⟩) Q)
          -∗ wpC c (.op (.waitDma2 (sendQ s t) src dst hsrc hdst) kont) Q) := by
  iintro ⟨#HP, ⟨%W, HO⟩, Hat, Hc⟩ Hk
  icases HP with ⟨#HI, #HM, #HL⟩
  iapply (step_wait_send m ρ K c s t (sendQ s t) rfl hcred (O := owedFrom c k) (W := W)) $$ [HO Hat Hc]
  · isplitr; · iapply (invs_own m ρ K c (.send s t)); iexact HI
    isplitr; · iapply (mayWait_send (F := F) c s t k); iexact HL
    isplitl [Hc]; · iexact Hc
    isplitl [Hat]; · iexact Hat
    iexact HO
  iintro ⟨HO, Hat, -, Hpay⟩
  iapply Hk
  isplitl [HO]; · iexists _; iexact HO
  isplitl [Hat]; · iexact Hat
  iexact Hpay

theorem tr_WAITS2 (K : Dev nD × CellK → ℕ) (c : Dev nD) (s : Fin 4) (g : Buf (Elt F) (((c : Dev nD) : Thread nD τ).loc cc0_stg1_0)) (k : ℕ) {hsrc : (rSlot s 2 (.inr (.inl rfl))).view.WordExact} {hdst : (oKeep c s).view.WordExact} {α : Type} {Q : α → sProp 𝕄} {kont : PUnit → Prog (TpuEff nD τ sig (Elt F) Λ₀ .tc) α} :
    iprop(□ Pers m ρ K c ∗ GSt c k ∗ StreamSt7 m ρ c s)
      ⊢ iprop(((GSt c k ∗ StreamSt8 m ρ c s) -∗ wpC c (kont ⟨⟩) Q)
          -∗ wpC c (.op (.waitDma2 (sendQ s 2) (rSlot s 2 (.inr (.inl rfl))) (oKeep c s) hsrc hdst) kont) Q) := by
  unfold StreamSt7 StreamSt8
  iintro ⟨#HP, HG, A1, A2, A3, A4, A5, A6, A7, A8, A9, A10, A11, A12, A13, A14, A15, A16, A17, A18, A19, A20, A21, A22, A23, A24, A25, A26, A27, A28, A29, A30, A31⟩ Hk
  iapply (waitS_core m ρ K c s 2 k (credS_2 c s)) $$ [HG A3 A31]
  · isplitr; · iexact HP
    isplitl [HG]; · iexact HG
    isplitl [A3]; · iexact A3
    iexact A31
  iintro ⟨HG, Hat, Hpay⟩
  iapply Hk
  isplitl [HG]; · iexact HG
  isplitl [A1]; · iexact A1
  isplitl [A2]; · iexact A2
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [Hat]; · iexact Hat
  iapply (Entails.of_eq (own_oKeep' c c s fullShare (outLvl m ρ 2 c)).symm); iapply (Entails.of_eq (sendPay_2 m ρ c s)); iexact Hpay

theorem tr_WAITS3 (K : Dev nD × CellK → ℕ) (c : Dev nD) (s : Fin 4) (g : Buf (Elt F) (((c : Dev nD) : Thread nD τ).loc cc0_stg1_0)) (k : ℕ) {hsrc : (rSlot s 3 (.inr (.inr rfl))).view.WordExact} {hdst : (oKeep c s).view.WordExact} {α : Type} {Q : α → sProp 𝕄} {kont : PUnit → Prog (TpuEff nD τ sig (Elt F) Λ₀ .tc) α} :
    iprop(□ Pers m ρ K c ∗ GSt c k ∗ StreamSt11 m ρ c s)
      ⊢ iprop(((GSt c k ∗ StreamSt12 m ρ c s) -∗ wpC c (kont ⟨⟩) Q)
          -∗ wpC c (.op (.waitDma2 (sendQ s 3) (rSlot s 3 (.inr (.inr rfl))) (oKeep c s) hsrc hdst) kont) Q) := by
  unfold StreamSt11 StreamSt12
  iintro ⟨#HP, HG, A1, A2, A3, A4, A5, A6, A7, A8, A9, A10, A11, A12, A13, A14, A15, A16, A17, A18, A19, A20, A21, A22, A23, A24, A25, A26, A27, A28⟩ Hk
  iapply (waitS_core m ρ K c s 3 k (credS_3 c s)) $$ [HG A3 A28]
  · isplitr; · iexact HP
    isplitl [HG]; · iexact HG
    isplitl [A3]; · iexact A3
    iexact A28
  iintro ⟨HG, Hat, Hpay⟩
  iapply Hk
  isplitl [HG]; · iexact HG
  isplitl [A1]; · iexact A1
  isplitl [A2]; · iexact A2
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [Hat]; · iexact Hat
  iapply (Entails.of_eq (own_oKeep' c c s fullShare (outLvl m ρ 3 c)).symm); iapply (Entails.of_eq (sendPay_3 m ρ c s)); iexact Hpay

theorem tr_WAITS0 (K : Dev nD × CellK → ℕ) (c : Dev nD) (s : Fin 4) (g : Buf (Elt F) (((c : Dev nD) : Thread nD τ).loc cc0_stg1_0)) (k : ℕ) {hsrc : (rSlot0 s).view.WordExact} {hdst : (xGive c s).view.WordExact} {α : Type} {Q : α → sProp 𝕄} {kont : PUnit → Prog (TpuEff nD τ sig (Elt F) Λ₀ .tc) α} :
    iprop(□ Pers m ρ K c ∗ GSt c k ∗ StreamSt18 m ρ c s)
      ⊢ iprop(((GSt c k ∗ StreamSt19 m ρ c s) -∗ wpC c (kont ⟨⟩) Q)
          -∗ wpC c (.op (.waitDma2 (sendQ s 0) (rSlot0 s) (xGive c s) hsrc hdst) kont) Q) := by
  unfold StreamSt18 StreamSt19
  iintro ⟨#HP, HG, A1, A2, A3, A4, A5, A6, A7, A8, A9, A10, A11, A12, A13, A14, A15, A16, A17, A18, A19, A20, A21, A22, A23, A24⟩ Hk
  iapply (waitS_core m ρ K c s 0 k (credS_0 c s)) $$ [HG A1 A6]
  · isplitr; · iexact HP
    isplitl [HG]; · iexact HG
    isplitl [A1]; · iexact A1
    iexact A6
  iintro ⟨HG, Hat, Hpay⟩
  iapply Hk
  isplitl [HG]; · iexact HG
  isplitl [A2]; · iexact A2
  isplitl [A3]; · iexact A3
  isplitl [A4]; · iexact A4
  isplitl [A5]; · iexact A5
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [Hat]; · iexact Hat
  iapply (Entails.of_eq (sendPay_0 m ρ c s)); iexact Hpay

theorem tr_WAITS1 (K : Dev nD × CellK → ℕ) (c : Dev nD) (s : Fin 4) (g : Buf (Elt F) (((c : Dev nD) : Thread nD τ).loc cc0_stg1_0)) (k : ℕ) {hsrc : (rSlot s 1 (.inl rfl)).view.WordExact} {hdst : (oGive c s).view.WordExact} {α : Type} {Q : α → sProp 𝕄} {kont : PUnit → Prog (TpuEff nD τ sig (Elt F) Λ₀ .tc) α} :
    iprop(□ Pers m ρ K c ∗ GSt c k ∗ StreamSt19 m ρ c s)
      ⊢ iprop(((GSt c k ∗ StreamSt20 m ρ c s) -∗ wpC c (kont ⟨⟩) Q)
          -∗ wpC c (.op (.waitDma2 (sendQ s 1) (rSlot s 1 (.inl rfl)) (oGive c s) hsrc hdst) kont) Q) := by
  unfold StreamSt19 StreamSt20
  iintro ⟨#HP, HG, A1, A2, A3, A4, A5, A6, A7, A8, A9, A10, A11, A12, A13, A14, A15, A16, A17, A18, A19, A20, A21, A22, A23, A24⟩ Hk
  iapply (waitS_core m ρ K c s 1 k (credS_1 c s)) $$ [HG A1 A7]
  · isplitr; · iexact HP
    isplitl [HG]; · iexact HG
    isplitl [A1]; · iexact A1
    iexact A7
  iintro ⟨HG, Hat, -⟩
  iapply Hk
  isplitl [HG]; · iexact HG
  isplitl [A2]; · iexact A2
  isplitl [A3]; · iexact A3
  isplitl [A4]; · iexact A4
  isplitl [A5]; · iexact A5
  isplitl [A6]; · iexact A6
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  iexact Hat

theorem tr_WAITS4 (K : Dev nD × CellK → ℕ) (c : Dev nD) (s : Fin 4) (g : Buf (Elt F) (((c : Dev nD) : Thread nD τ).loc cc0_stg1_0)) (k : ℕ) {hsrc : (oKeep c s).view.WordExact} {hdst : (oKeep c s).view.WordExact} {α : Type} {Q : α → sProp 𝕄} {kont : PUnit → Prog (TpuEff nD τ sig (Elt F) Λ₀ .tc) α} :
    iprop(□ Pers m ρ K c ∗ GSt c k ∗ StreamSt20 m ρ c s)
      ⊢ iprop(((GSt c k ∗ StreamSt21 m ρ c s) -∗ wpC c (kont ⟨⟩) Q)
          -∗ wpC c (.op (.waitDma2 (sendQ s 4) (oKeep c s) (oKeep c s) hsrc hdst) kont) Q) := by
  unfold StreamSt20 StreamSt21
  iintro ⟨#HP, HG, A1, A2, A3, A4, A5, A6, A7, A8, A9, A10, A11, A12, A13, A14, A15, A16, A17, A18, A19, A20, A21, A22, A23⟩ Hk
  iapply (waitS_core m ρ K c s 4 k (credS_4 c s)) $$ [HG A1 A14]
  · isplitr; · iexact HP
    isplitl [HG]; · iexact HG
    isplitl [A1]; · iexact A1
    iexact A14
  iintro ⟨HG, Hat, Hpay⟩
  iapply Hk
  isplitl [HG]; · iexact HG
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [Hat]; · iexact Hat
  iapply (Entails.of_eq (sendPay_4 m ρ c s)); iexact Hpay

theorem tr_WAITS5 (K : Dev nD × CellK → ℕ) (c : Dev nD) (s : Fin 4) (g : Buf (Elt F) (((c : Dev nD) : Thread nD τ).loc cc0_stg1_0)) (k : ℕ) {hsrc : (oHalf c s).view.WordExact} {hdst : (oHalf c s).view.WordExact} {α : Type} {Q : α → sProp 𝕄} {kont : PUnit → Prog (TpuEff nD τ sig (Elt F) Λ₀ .tc) α} :
    iprop(□ Pers m ρ K c ∗ GSt c k ∗ StreamSt21 m ρ c s)
      ⊢ iprop(((GSt c k ∗ StreamSt22 m ρ c s) -∗ wpC c (kont ⟨⟩) Q)
          -∗ wpC c (.op (.waitDma2 (sendQ s 5) (oHalf c s) (oHalf c s) hsrc hdst) kont) Q) := by
  unfold StreamSt21 StreamSt22
  iintro ⟨#HP, HG, A1, A2, A3, A4, A5, A6, A7, A8, A9, A10, A11, A12, A13, A14, A15, A16, A17, A18, A19, A20, A21, A22, A23⟩ Hk
  iapply (waitS_core m ρ K c s 5 k (credS_5 c s)) $$ [HG A1 A14]
  · isplitr; · iexact HP
    isplitl [HG]; · iexact HG
    isplitl [A1]; · iexact A1
    iexact A14
  iintro ⟨HG, Hat, Hpay⟩
  iapply Hk
  isplitl [HG]; · iexact HG
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [Hat]; · iexact Hat
  iapply (Entails.of_eq (sendPay_5 m ρ c s)); iexact Hpay

/-- info: 'Cert.KernelIdeal.Proto.tr_WAITS5' depends on axioms: [propext, Classical.choice, Quot.sound] -/
#guard_msgs in #print axioms tr_WAITS5

end Cert.KernelIdeal.Proto

end
-- ==== Proof.StepsAdd.lean ====
/-
  The add steps of the exchange: after the receive wait of slot `t < 4` of stream `s` the device loads the rows it
  keeps ("mine"), loads the rows received, loads once more the rows it is about to overwrite (a value the program
  never uses) and stores the sum of the first two.

    slot 0      mine = the kept half of the stream's rows of `x` (64 rows, rank 3), received = the 64 receive rows of
                slot 0, the store goes to the kept half of `out`;
    slots 1–3   mine = the kept quarter of `out` (32 rows), received = the 32 receive rows of slot `t`, the store goes
                back to the kept quarter.

  Each load gives its rows back as they were and continues at what they hold; each store needs its rows in full
  and leaves them holding what was stored. The value lemmas say what was stored: with the kept rows at level `t` and
  the received rows at the partner's level `t`, the sum is level `t + 1`.
-/
import proofs.«900484_g7700000000000485_dist_treered_v7x_i16_m512_n512_f32_1_alg».proof.Proof.Res
import proofs.«900484_g7700000000000485_dist_treered_v7x_i16_m512_n512_f32_1_alg».proof.Proof.Chains
import Idealize.ShloMosaic.Lib.ValueLayout

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The four effects of slot 0 and the three of slots 1, 2, 3 -/

/-- Slot 0, first load: the kept half of the stream's rows of `x`, read through the whole staging buffer. The rows
    come back as they were; the program continues at what they hold. -/
theorem step_load_x0 (c : Dev nD) (s : Fin 4) (q : PosShare TreeShare)
    (f : Buf (Elt F) ((xKeep c s).view.loc (c : Thread nD τ)))
    {α : Type} {Q : α → sProp 𝕄} {k : Vec F S1x64x512 .f32 → Prog (TpuEff nD τ sig (Elt F) Λ₀ .tc) α} :
    own (xKeep c s) c q f
      ⊢ iprop((own (xKeep c s) c q f -∗ wpC c (k ((xKeep c s).view.read (Elt F) f)) Q)
        -∗ wpC c (.op (.load (Memref.whole cc0_stg0_0) (Rect.unit (s := S1x512x512) (k0_off2 c (k0_off2_at s).1 (k0_off2_at s).2) S1x64x512.size (k0_off2_inb c s)).toLoadRect (View.loadsAt_vmem h_S1x64x512)) k) Q) := by
  iintro HV Hk
  unfold wpC
  have hS : ((Memref.whole cc0_stg0_0).access (Rect.unit (s := S1x512x512) (k0_off2 c (k0_off2_at s).1 (k0_off2_at s).2) S1x64x512.size (k0_off2_inb c s)) : View sig .tc .vmem _ _).set ⊆ (xKeep c s).view.set :=
    Finset.Subset.refl _
  sl_exec
  iapply Hk $$ HV

/-- Slot 0, second load: the 64 receive rows of slot 0. -/
theorem step_load_r0 (c : Dev nD) (s : Fin 4) (q : PosShare TreeShare)
    (f : Buf (Elt F) ((rSlot0 s).view.loc (c : Thread nD τ)))
    {α : Type} {Q : α → sProp 𝕄} {k : Vec F S64x512 .f32 → Prog (TpuEff nD τ sig (Elt F) Λ₀ .tc) α} :
    own (rSlot0 s) c q f
      ⊢ iprop((own (rSlot0 s) c q f -∗ wpC c (k ((rSlot0 s).view.read (Elt F) f)) Q)
        -∗ wpC c (.op (.load (Memref.whole cc0_scratch0) (Rect.unit (s := S640x512) ![rRow s 0, 0] S64x512.size (rRow64_inb s)).toLoadRect (View.loadsAt_vmem h_S64x512)) k) Q) := by
  iintro HV Hk
  unfold wpC
  have hS : ((Memref.whole cc0_scratch0).access (Rect.unit (s := S640x512) ![rRow s 0, 0] S64x512.size (rRow64_inb s)) : View sig .tc .vmem _ _).set ⊆ (rSlot0 s).view.set :=
    Finset.Subset.refl _
  sl_exec
  iapply Hk $$ HV

/-- Slot 0, third load: the kept half of `out` (its value is not used by the program). -/
theorem step_load_o0 (c : Dev nD) (s : Fin 4) (q : PosShare TreeShare)
    (f : Buf (Elt F) ((oHalf' c s).view.loc (c : Thread nD τ)))
    {α : Type} {Q : α → sProp 𝕄} {k : Vec F S64x512 .f32 → Prog (TpuEff nD τ sig (Elt F) Λ₀ .tc) α} :
    own (oHalf' c s) c q f
      ⊢ iprop((own (oHalf' c s) c q f -∗ wpC c (k ((oHalf' c s).view.read (Elt F) f)) Q)
        -∗ wpC c (.op (.load (Memref.whole cc0_stg1_0) (Rect.unit (s := S512x512) (k0_off3 c (k0_off3_at s).1 (k0_off3_at s).2) S64x512.size (k0_off3_inb c s)).toLoadRect (View.loadsAt_vmem h_S64x512)) k) Q) := by
  iintro HV Hk
  unfold wpC
  have hS : ((Memref.whole cc0_stg1_0).access (Rect.unit (s := S512x512) (k0_off3 c (k0_off3_at s).1 (k0_off3_at s).2) S64x512.size (k0_off3_inb c s)) : View sig .tc .vmem _ _).set ⊆ (oHalf' c s).view.set :=
    Finset.Subset.refl _
  sl_exec
  iapply Hk $$ HV

/-- Slot 0, the store: the kept half of `out`, held in full, ends holding what is stored. -/
theorem step_store0 (c : Dev nD) (s : Fin 4)
    (g : Buf (Elt F) ((oHalf' c s).view.loc (c : Thread nD τ))) (w : FVec F S64x512 .f32)
    {α : Type} {Q : α → sProp 𝕄} {k : PUnit → Prog (TpuEff nD τ sig (Elt F) Λ₀ .tc) α} :
    own (oHalf' c s) c fullShare g
      ⊢ iprop((own (oHalf' c s) c fullShare ((oHalf' c s).view.write (Elt F) g w Finset.univ) -∗ wpC c (k ⟨⟩) Q)
        -∗ wpC c (.op (.store (Memref.whole cc0_stg1_0) (Rect.unit (s := S512x512) (k0_off3 c (k0_off3_at s).1 (k0_off3_at s).2) S64x512.size (k0_off3_inb c s)) w Finset.univ (View.stores_vmem_bits_univ h_S64x512 rfl) (.inl rfl)) k) Q) := by
  iintro HV Hk
  unfold wpC
  have hS : ((Memref.whole cc0_stg1_0).access (Rect.unit (s := S512x512) (k0_off3 c (k0_off3_at s).1 (k0_off3_at s).2) S64x512.size (k0_off3_inb c s)) : View sig .tc .vmem _ _).setOn Finset.univ ⊆ (oHalf' c s).view.set :=
    Finset.Subset.refl _
  sl_exec
  iapply Hk
  iexact HV

/-- Slots 1, 2, 3, first and third load: the kept quarter of `out`. -/
theorem step_load_m (c : Dev nD) (s : Fin 4) (q : PosShare TreeShare)
    (f : Buf (Elt F) ((oKeep' c s).view.loc (c : Thread nD τ)))
    {α : Type} {Q : α → sProp 𝕄} {k : Vec F S32x512 .f32 → Prog (TpuEff nD τ sig (Elt F) Λ₀ .tc) α} :
    own (oKeep' c s) c q f
      ⊢ iprop((own (oKeep' c s) c q f -∗ wpC c (k ((oKeep' c s).view.read (Elt F) f)) Q)
        -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) k) Q) := by
  iintro HV Hk
  unfold wpC
  have hS : ((Memref.whole cc0_stg1_0).access (Rect.unit (s := S512x512) (k0_off5 c (k0_off5_at s).1 (k0_off5_at s).2.1 (k0_off5_at s).2.2) S32x512.size (k0_off5_inb c s)) : View sig .tc .vmem _ _).set ⊆ (oKeep' c s).view.set :=
    Finset.Subset.refl _
  sl_exec
  iapply Hk $$ HV

/-- Slots 1, 2, 3, second load: the 32 receive rows of slot `t`. -/
theorem step_load_r (c : Dev nD) (s : Fin 4) (t : Fin 6) (ht : t = 1 ∨ t = 2 ∨ t = 3) (q : PosShare TreeShare)
    (f : Buf (Elt F) ((rSlot s t ht).view.loc (c : Thread nD τ)))
    {α : Type} {Q : α → sProp 𝕄} {k : Vec F S32x512 .f32 → Prog (TpuEff nD τ sig (Elt F) Λ₀ .tc) α} :
    own (rSlot s t ht) c q f
      ⊢ iprop((own (rSlot s t ht) c q f -∗ wpC c (k ((rSlot s t ht).view.read (Elt F) f)) Q)
        -∗ wpC c (.op (.load (Memref.whole cc0_scratch0) (Rect.unit (s := S640x512) ![rRow s t, 0] S32x512.size (rRow32_inb s t ht)).toLoadRect (View.loadsAt_vmem h_S32x512)) k) Q) := by
  iintro HV Hk
  unfold wpC
  have hS : ((Memref.whole cc0_scratch0).access (Rect.unit (s := S640x512) ![rRow s t, 0] S32x512.size (rRow32_inb s t ht)) : View sig .tc .vmem _ _).set ⊆ (rSlot s t ht).view.set :=
    Finset.Subset.refl _
  sl_exec
  iapply Hk $$ HV

/-- Slots 1, 2, 3, the store: the kept quarter of `out`, held in full, ends holding what is stored. -/
theorem step_store (c : Dev nD) (s : Fin 4)
    (g : Buf (Elt F) ((oKeep' c s).view.loc (c : Thread nD τ))) (w : FVec F S32x512 .f32)
    {α : Type} {Q : α → sProp 𝕄} {k : PUnit → Prog (TpuEff nD τ sig (Elt F) Λ₀ .tc) α} :
    own (oKeep' c s) c fullShare g
      ⊢ iprop((own (oKeep' c s) c fullShare ((oKeep' c s).view.write (Elt F) g w Finset.univ) -∗ wpC c (k ⟨⟩) Q)
        -∗ wpC c (.op (.store (Memref.whole cc0_stg1_0) (Rect.unit (s := S512x512) (k0_off5 c (k0_off5_at s).1 (k0_off5_at s).2.1 (k0_off5_at s).2.2) S32x512.size (k0_off5_inb c s)) w Finset.univ (View.stores_vmem_bits_univ h_S32x512 rfl) (.inl rfl)) k) Q) := by
  iintro HV Hk
  unfold wpC
  have hS : ((Memref.whole cc0_stg1_0).access (Rect.unit (s := S512x512) (k0_off5 c (k0_off5_at s).1 (k0_off5_at s).2.1 (k0_off5_at s).2.2) S32x512.size (k0_off5_inb c s)) : View sig .tc .vmem _ _).setOn Finset.univ ⊆ (oKeep' c s).view.set :=
    Finset.Subset.refl _
  sl_exec
  iapply Hk
  iexact HV

variable (m : (ℓ : Loc nD τ sig) → Buf (Elt F) ℓ) (ρ : Dev nD → PrngReg)

/-! ## What the loads read -/

/-- Slot 0, "mine": the kept half of the stream's rows of `x`, as staged. -/
def ldX (c : Dev nD) (s : Fin 4) : Vec F S1x64x512 .f32 := (xKeep c s).view.read (Elt F) (xstg m ρ c)
/-- Slot 0, "received": the receive rows of slot 0 at their final contents. -/
def ldR0 (c : Dev nD) (s : Fin 4) : Vec F S64x512 .f32 := (rSlot0 s).view.read (Elt F) (recvFinal m ρ c)
/-- Slot 0, the third load: the kept half of `out` at whatever it holds. -/
def ldD0 (m : (ℓ : Loc nD τ sig) → Buf (Elt F) ℓ) (ρ : Dev nD → PrngReg) (c : Dev nD) (s : Fin 4)
    (g : Buf (Elt F) (((c : Dev nD) : Thread nD τ).loc cc0_stg1_0)) : Vec F S64x512 .f32 :=
  (oHalf' c s).view.read (Elt F) g
/-- Slot `t ≥ 1`, "mine": the kept quarter of `out` at level `t`. -/
def ldM (c : Dev nD) (s : Fin 4) (t : Fin 6) : Vec F S32x512 .f32 := (oKeep' c s).view.read (Elt F) (outLvl m ρ t.val c)
/-- Slot `t ≥ 1`, "received": the receive rows of slot `t` at their final contents. -/
def ldR (c : Dev nD) (s : Fin 4) (t : Fin 6) (ht : t = 1 ∨ t = 2 ∨ t = 3) : Vec F S32x512 .f32 :=
  (rSlot s t ht).view.read (Elt F) (recvFinal m ρ c)
/-- Slot `t ≥ 1`, the third load: the kept quarter again. -/
def ldD (c : Dev nD) (s : Fin 4) (t : Fin 6) : Vec F S32x512 .f32 := ldM m ρ c s t

namespace Add

/-! ## Levels, one step at a time -/

theorem lvl_zero (m : (ℓ : Loc nD τ sig) → Buf (Elt F) ℓ) (ρ : Dev nD → PrngReg) (d : Dev nD) (R l : Fin 512) :
    lvl m ρ 0 d R l = xstg m ρ d (ValueIdx.ix3 (0 : Fin 1) R l) := rfl

/-- Level `k + 1` of a device is its level `k` plus the level `k` of its partner along the `k`-th dimension of the row's
    stream. -/
theorem lvl_succ (m : (ℓ : Loc nD τ sig) → Buf (Elt F) ℓ) (ρ : Dev nD → PrngReg) (k : ℕ) (d : Dev nD) (R l : Fin 512)
    (s kk : Fin 4) (hs : R.val / 128 = s.val) (hk : k % 4 = kk.val) :
    lvl m ρ (k + 1) d R l = FloatOps.addf (lvl m ρ k d R l) (lvl m ρ k (partner (dimOf s kk) d) R l) := by
  have hb : R.val / 128 < 4 := by have := R.isLt; clear hs hk; omega
  obtain rfl : s = ⟨R.val / 128, hb⟩ := Fin.ext hs.symm
  obtain rfl : kk = ⟨k % 4, Nat.mod_lt _ (by decide)⟩ := Fin.ext hk.symm
  rfl

/-- The receive buffer's final contents at a row of stream `s`, slot `t`: the partner's level `t` at the row `R` the device
    keeps. -/
theorem recvFinal_eq (m : (ℓ : Loc nD τ sig) → Buf (Elt F) ℓ) (ρ : Dev nD → PrngReg) (c : Dev nD) (i : S640x512.Idx)
    (s : Fin 4) (t : Fin 6) (R : Fin 512)
    (hs : (i 0).val / 160 = s.val)
    (ht : (if (i 0).val % 160 < 64 then (0 : Fin 6) else if (i 0).val % 160 < 96 then 1 else if (i 0).val % 160 < 128 then 2 else 3) = t)
    (hR : 128 * s.val + 64 * lbit (dimOf s 0) c
        + (if (i 0).val % 160 < 64 then (i 0).val % 160 else 32 * lbit (dimOf s 1) c + ((i 0).val % 160 - 64) % 32) = R.val) :
    recvFinal m ρ c i = lvl m ρ t.val (peer s t c) R (i 1) := by
  have hb : (i 0).val / 160 < 4 := by have h640 : (i 0).val < 640 := (i 0).isLt; clear hs ht hR; omega
  obtain rfl : s = ⟨(i 0).val / 160, hb⟩ := Fin.ext hs.symm
  subst ht
  have hlt := R.isLt
  rw [← hR] at hlt
  obtain rfl : R = ⟨_, hlt⟩ := Fin.ext hR.symm
  unfold recvFinal
  exact dif_pos hlt

/-! ## Where the rows sit -/

/-- The first row of the half of stream `s` device `c` keeps, and of the quarter. -/
def row0 (c : Dev nD) (s : Fin 4) : ℕ := 128 * s.val + 64 * lbit (dimOf s 0) c
def rowK (c : Dev nD) (s : Fin 4) : ℕ := 128 * s.val + 64 * lbit (dimOf s 0) c + 32 * lbit (dimOf s 1) c

theorem row0_add_lt (c : Dev nD) (s : Fin 4) (a : ℕ) (ha : a < 64) : row0 c s + a < 512 := by
  have h0 := lbit_le (dimOf s 0) c; have := s.isLt; unfold row0; omega
theorem rowK_add_lt (c : Dev nD) (s : Fin 4) (a : ℕ) (ha : a < 32) : rowK c s + a < 512 := by
  have h0 := lbit_le (dimOf s 0) c; have h1 := lbit_le (dimOf s 1) c; have := s.isLt; unfold rowK; omega
theorem row0_div (c : Dev nD) (s : Fin 4) (a : ℕ) (ha : a < 64) : (row0 c s + a) / 128 = s.val := by
  have h0 := lbit_le (dimOf s 0) c; unfold row0; omega
theorem rowK_div (c : Dev nD) (s : Fin 4) (a : ℕ) (ha : a < 32) : (rowK c s + a) / 128 = s.val := by
  have h0 := lbit_le (dimOf s 0) c; have h1 := lbit_le (dimOf s 1) c; unfold rowK; omega

/-- An entry of the kept half of `out` sits at row `row0 + ` its row, same lane. -/
theorem oHalf'_emb (c : Dev nD) (s : Fin 4) (x : S64x512.Idx) :
    (((oHalf' c s).view.emb x) 0).val = row0 c s + (x 0).val ∧ (((oHalf' c s).view.emb x) 1).val = (x 1).val := by
  have h := Chains.k0_off3_eq c s
  constructor
  · show k0_off3 c (k0_off3_at s).1 (k0_off3_at s).2 0 + 1 * (x 0).val = _
    rw [h]; show 128 * s.val + 64 * lbit (dimOf s 0) c + 1 * (x 0).val = _; unfold row0; omega
  · show k0_off3 c (k0_off3_at s).1 (k0_off3_at s).2 1 + 1 * (x 1).val = _
    rw [h]; show 0 + 1 * (x 1).val = _; omega

theorem oKeep'_emb (c : Dev nD) (s : Fin 4) (x : S32x512.Idx) :
    (((oKeep' c s).view.emb x) 0).val = rowK c s + (x 0).val ∧ (((oKeep' c s).view.emb x) 1).val = (x 1).val := by
  have h := Chains.k0_off5_eq c s
  constructor
  · show k0_off5 c (k0_off5_at s).1 (k0_off5_at s).2.1 (k0_off5_at s).2.2 0 + 1 * (x 0).val = _
    rw [h]; show 128 * s.val + 64 * lbit (dimOf s 0) c + 32 * lbit (dimOf s 1) c + 1 * (x 0).val = _; unfold rowK; omega
  · show k0_off5 c (k0_off5_at s).1 (k0_off5_at s).2.1 (k0_off5_at s).2.2 1 + 1 * (x 1).val = _
    rw [h]; show 0 + 1 * (x 1).val = _; omega

theorem xKeep_emb (c : Dev nD) (s : Fin 4) (y : S1x64x512.Idx) :
    (((xKeep c s).view.emb y) 0).val = 0 ∧ (((xKeep c s).view.emb y) 1).val = row0 c s + (y 1).val
      ∧ (((xKeep c s).view.emb y) 2).val = (y 2).val := by
  have h := Chains.k0_off2_eq c s
  have hy0 : (y 0).val < 1 := (y 0).isLt
  refine ⟨?_, ?_, ?_⟩
  · show k0_off2 c (k0_off2_at s).1 (k0_off2_at s).2 0 + 1 * (y 0).val = _
    rw [h]; show 0 + 1 * (y 0).val = _; omega
  · show k0_off2 c (k0_off2_at s).1 (k0_off2_at s).2 1 + 1 * (y 1).val = _
    rw [h]; show 128 * s.val + 64 * lbit (dimOf s 0) c + 1 * (y 1).val = _; unfold row0; omega
  · show k0_off2 c (k0_off2_at s).1 (k0_off2_at s).2 2 + 1 * (y 2).val = _
    rw [h]; show 0 + 1 * (y 2).val = _; omega

theorem rSlot0_emb (s : Fin 4) (x : S64x512.Idx) :
    (((rSlot0 s).view.emb x) 0).val = 160 * s.val + (x 0).val ∧ (((rSlot0 s).view.emb x) 1).val = (x 1).val := by
  constructor
  · show rRow s 0 + 1 * (x 0).val = _; unfold rRow; simp only []; omega
  · show 0 + 1 * (x 1).val = _; omega

theorem rRow_one (s : Fin 4) : rRow s 1 = 160 * s.val + 64 := rfl
theorem rRow_two (s : Fin 4) : rRow s 2 = 160 * s.val + 96 := rfl
theorem rRow_three (s : Fin 4) : rRow s 3 = 160 * s.val + 128 := rfl

theorem rSlot_emb (s : Fin 4) (t : Fin 6) (ht : t = 1 ∨ t = 2 ∨ t = 3) (x : S32x512.Idx) :
    (((rSlot s t ht).view.emb x) 0).val = rRow s t + (x 0).val ∧ (((rSlot s t ht).view.emb x) 1).val = (x 1).val := by
  constructor
  · show rRow s t + 1 * (x 0).val = _; omega
  · show 0 + 1 * (x 1).val = _; omega

/-! ## What the loads read, entry by entry -/

theorem ldX_apply (m : (ℓ : Loc nD τ sig) → Buf (Elt F) ℓ) (ρ : Dev nD → PrngReg) (c : Dev nD) (s : Fin 4)
    (i : Fin 64) (j : Fin 512) (h : row0 c s + i.val < 512) :
    ldX m ρ c s (ValueIdx.ix3 (0 : Fin 1) i j) = lvl m ρ 0 c ⟨row0 c s + i.val, h⟩ j := by
  obtain ⟨e0, e1, e2⟩ := xKeep_emb c s (ValueIdx.ix3 (0 : Fin 1) i j)
  unfold ldX
  rw [View.read_apply, lvl_zero]
  show xstg m ρ c ((xKeep c s).view.emb (ValueIdx.ix3 (0 : Fin 1) i j)) = _
  congr 1
  funext a
  match a with
  | ⟨0, _⟩ => exact Fin.ext e0
  | ⟨1, _⟩ => exact Fin.ext e1
  | ⟨2, _⟩ => exact Fin.ext e2

theorem ldR0_apply (m : (ℓ : Loc nD τ sig) → Buf (Elt F) ℓ) (ρ : Dev nD → PrngReg) (c : Dev nD) (s : Fin 4)
    (x : S64x512.Idx) (h : row0 c s + (x 0).val < 512) :
    ldR0 m ρ c s x = lvl m ρ 0 (peer s 0 c) ⟨row0 c s + (x 0).val, h⟩ (x 1) := by
  obtain ⟨e0, e1⟩ := rSlot0_emb s x
  have hx0 : (x 0).val < 64 := (x 0).isLt
  have hm : (160 * s.val + (x 0).val) % 160 = (x 0).val := by omega
  unfold ldR0
  rw [View.read_apply]
  show recvFinal m ρ c ((rSlot0 s).view.emb x) = _
  rw [recvFinal_eq m ρ c ((rSlot0 s).view.emb x) s 0 ⟨row0 c s + (x 0).val, h⟩
    (by rw [e0]; omega) (by rw [e0, hm, if_pos hx0]) (by rw [e0, hm, if_pos hx0]; rfl)]
  exact congrArg (lvl m ρ 0 (peer s 0 c) ⟨row0 c s + (x 0).val, h⟩) (Fin.ext e1)

theorem ldM_apply (m : (ℓ : Loc nD τ sig) → Buf (Elt F) ℓ) (ρ : Dev nD → PrngReg) (c : Dev nD) (s : Fin 4) (t : Fin 6)
    (x : S32x512.Idx) (h : rowK c s + (x 0).val < 512) :
    ldM m ρ c s t x = lvl m ρ t.val c ⟨rowK c s + (x 0).val, h⟩ (x 1) := by
  obtain ⟨e0, e1⟩ := oKeep'_emb c s x
  unfold ldM
  rw [View.read_apply]
  show lvl m ρ t.val c (((oKeep' c s).view.emb x) 0) (((oKeep' c s).view.emb x) 1) = _
  exact congrArg₂ (lvl m ρ t.val c) (Fin.ext e0) (Fin.ext e1)

theorem ldR_apply (m : (ℓ : Loc nD τ sig) → Buf (Elt F) ℓ) (ρ : Dev nD → PrngReg) (c : Dev nD) (s : Fin 4) (t : Fin 6)
    (ht : t = 1 ∨ t = 2 ∨ t = 3) (x : S32x512.Idx) (h : rowK c s + (x 0).val < 512) :
    ldR m ρ c s t ht x = lvl m ρ t.val (peer s t c) ⟨rowK c s + (x 0).val, h⟩ (x 1) := by
  obtain ⟨e0, e1⟩ := rSlot_emb s t ht x
  have hx0 : (x 0).val < 32 := (x 0).isLt
  unfold ldR
  rw [View.read_apply]
  show recvFinal m ρ c ((rSlot s t ht).view.emb x) = _
  have key : recvFinal m ρ c ((rSlot s t ht).view.emb x)
      = lvl m ρ t.val (peer s t c) ⟨rowK c s + (x 0).val, h⟩ (((rSlot s t ht).view.emb x) 1) := by
    rcases ht with rfl | rfl | rfl
    · rw [rRow_one] at e0
      have hm : (160 * s.val + 64 + (x 0).val) % 160 = 64 + (x 0).val := by omega
      exact recvFinal_eq m ρ c _ s 1 _ (by rw [e0]; omega)
        (by rw [e0, hm, if_neg (by omega), if_pos (by omega)])
        (by rw [e0, hm, if_neg (by omega)]; show _ = rowK c s + (x 0).val; unfold rowK; omega)
    · rw [rRow_two] at e0
      have hm : (160 * s.val + 96 + (x 0).val) % 160 = 96 + (x 0).val := by omega
      exact recvFinal_eq m ρ c _ s 2 _ (by rw [e0]; omega)
        (by rw [e0, hm, if_neg (by omega), if_neg (by omega), if_pos (by omega)])
        (by rw [e0, hm, if_neg (by omega)]; show _ = rowK c s + (x 0).val; unfold rowK; omega)
    · rw [rRow_three] at e0
      have hm : (160 * s.val + 128 + (x 0).val) % 160 = 128 + (x 0).val := by omega
      exact recvFinal_eq m ρ c _ s 3 _ (by rw [e0]; omega)
        (by rw [e0, hm, if_neg (by omega), if_neg (by omega), if_neg (by omega)])
        (by rw [e0, hm, if_neg (by omega)]; show _ = rowK c s + (x 0).val; unfold rowK; omega)
  rw [key]
  exact congrArg (lvl m ρ t.val (peer s t c) ⟨rowK c s + (x 0).val, h⟩) (Fin.ext e1)

/-! ## What the stores leave

On the rows stored, the sum of the kept rows at level `t` and the received rows — the partner's level `t` — is the
device's level `t + 1`. -/

theorem add0_value (m : (ℓ : Loc nD τ sig) → Buf (Elt F) ℓ) (ρ : Dev nD → PrngReg) (c : Dev nD) (s : Fin 4)
    (g : Buf (Elt F) (((c : Dev nD) : Thread nD τ).loc cc0_stg1_0)) (w : FVec F S64x512 .f32)
    (hw : w = addf (shapeCast S64x512 (ldX m ρ c s) shapeCasts_S1x64x512_S64x512) (ldR0 m ρ c s)) :
    ∀ i ∈ (oHalf' c s).view.set, (oHalf' c s).view.write (Elt F) g w Finset.univ i = outLvl m ρ 1 c i := by
  intro i hi
  obtain ⟨x, rfl⟩ := View.exists_emb_of_mem_set _ hi
  subst hw
  obtain ⟨e0, e1⟩ := oHalf'_emb c s x
  have hx0 : (x 0).val < 64 := (x 0).isLt
  have hlt : row0 c s + (x 0).val < 512 := row0_add_lt c s _ hx0
  have hR : ((oHalf' c s).view.emb x) 0 = ⟨row0 c s + (x 0).val, hlt⟩ := Fin.ext e0
  have hL : ((oHalf' c s).view.emb x) 1 = x 1 := Fin.ext e1
  have h1 : shapeCast S64x512 (ldX m ρ c s) shapeCasts_S1x64x512_S64x512 x = lvl m ρ 0 c ⟨row0 c s + (x 0).val, hlt⟩ (x 1) :=
    ((congrArg (shapeCast S64x512 (ldX m ρ c s) shapeCasts_S1x64x512_S64x512) (ValueIdx.eq_ix2 x)).trans
      (ValueIdx.shapeCast_1ab_ab_apply (ldX m ρ c s) shapeCasts_S1x64x512_S64x512 (x 0) (x 1))).trans
      (ldX_apply m ρ c s (x 0) (x 1) hlt)
  have h2 := ldR0_apply m ρ c s x hlt
  have h3 := lvl_succ m ρ 0 c ⟨row0 c s + (x 0).val, hlt⟩ (x 1) s 0 (row0_div c s _ hx0) rfl
  rw [View.write_emb_of_mem _ _ (Finset.mem_univ x)]
  show FloatOps.addf (shapeCast S64x512 (ldX m ρ c s) shapeCasts_S1x64x512_S64x512 x) (ldR0 m ρ c s x)
      = lvl m ρ 1 c (((oHalf' c s).view.emb x) 0) (((oHalf' c s).view.emb x) 1)
  rw [h1, h2, hR, hL]
  exact h3.symm

theorem add_value (m : (ℓ : Loc nD τ sig) → Buf (Elt F) ℓ) (ρ : Dev nD → PrngReg) (c : Dev nD) (s : Fin 4) (t : Fin 6)
    (ht : t = 1 ∨ t = 2 ∨ t = 3)
    (g : Buf (Elt F) (((c : Dev nD) : Thread nD τ).loc cc0_stg1_0)) (w : FVec F S32x512 .f32)
    (hw : w = addf (shapeCast S32x512 (ldM m ρ c s t) shapeCasts_S32x512_S32x512) (ldR m ρ c s t ht)) :
    ∀ i ∈ (oKeep' c s).view.set, (oKeep' c s).view.write (Elt F) g w Finset.univ i = outLvl m ρ (t.val + 1) c i := by
  intro i hi
  obtain ⟨x, rfl⟩ := View.exists_emb_of_mem_set _ hi
  subst hw
  obtain ⟨e0, e1⟩ := oKeep'_emb c s x
  have hx0 : (x 0).val < 32 := (x 0).isLt
  have hlt : rowK c s + (x 0).val < 512 := rowK_add_lt c s _ hx0
  have hR : ((oKeep' c s).view.emb x) 0 = ⟨rowK c s + (x 0).val, hlt⟩ := Fin.ext e0
  have hL : ((oKeep' c s).view.emb x) 1 = x 1 := Fin.ext e1
  have h1 : shapeCast S32x512 (ldM m ρ c s t) shapeCasts_S32x512_S32x512 x = lvl m ρ t.val c ⟨rowK c s + (x 0).val, hlt⟩ (x 1) := by
    rw [shapeCast_self]; exact ldM_apply m ρ c s t x hlt
  have h2 := ldR_apply m ρ c s t ht x hlt
  have h3 := lvl_succ m ρ t.val c ⟨rowK c s + (x 0).val, hlt⟩ (x 1) s ⟨t.val % 4, Nat.mod_lt _ (by decide)⟩ (rowK_div c s _ hx0) rfl
  rw [View.write_emb_of_mem _ _ (Finset.mem_univ x)]
  show FloatOps.addf (shapeCast S32x512 (ldM m ρ c s t) shapeCasts_S32x512_S32x512 x) (ldR m ρ c s t ht x)
      = lvl m ρ (t.val + 1) c (((oKeep' c s).view.emb x) 0) (((oKeep' c s).view.emb x) 1)
  rw [h1, h2, hR, hL]
  refine Eq.trans ?_ h3.symm
  rcases ht with rfl | rfl | rfl <;> rfl

end Add

/-! ## The rows stored, restated at their level -/

/-- Slot 0: the kept half of `out` after the store holds level 1. -/
theorem add0_restate (m : (ℓ : Loc nD τ sig) → Buf (Elt F) ℓ) (ρ : Dev nD → PrngReg) (c : Dev nD) (s : Fin 4)
    (g : Buf (Elt F) (((c : Dev nD) : Thread nD τ).loc cc0_stg1_0)) (w : FVec F S64x512 .f32)
    (hw : w = addf (shapeCast S64x512 (ldX m ρ c s) shapeCasts_S1x64x512_S64x512) (ldR0 m ρ c s)) :
    (own (oHalf' c s) c fullShare ((oHalf' c s).view.write (Elt F) g w Finset.univ) : sProp 𝕄)
      = own (oHalf' c s) c fullShare (outLvl m ρ 1 c) :=
  BI.Region.is_congr (Add.add0_value m ρ c s g w hw)

/-- Slots 1, 2, 3: the kept quarter of `out` after the store of slot `t` holds level `t + 1`. -/
theorem add_restate (m : (ℓ : Loc nD τ sig) → Buf (Elt F) ℓ) (ρ : Dev nD → PrngReg) (c : Dev nD) (s : Fin 4) (t : Fin 6)
    (ht : t = 1 ∨ t = 2 ∨ t = 3)
    (g : Buf (Elt F) (((c : Dev nD) : Thread nD τ).loc cc0_stg1_0)) (w : FVec F S32x512 .f32)
    (hw : w = addf (shapeCast S32x512 (ldM m ρ c s t) shapeCasts_S32x512_S32x512) (ldR m ρ c s t ht)) :
    (own (oKeep' c s) c fullShare ((oKeep' c s).view.write (Elt F) g w Finset.univ) : sProp 𝕄)
      = own (oKeep' c s) c fullShare (outLvl m ρ (t.val + 1) c) :=
  BI.Region.is_congr (Add.add_value m ρ c s t ht g w hw)

/-- info: 'Cert.KernelIdeal.Proto.step_load_x0' depends on axioms: [propext, Classical.choice, Quot.sound] -/
#guard_msgs in #print axioms step_load_x0
/-- info: 'Cert.KernelIdeal.Proto.step_load_r0' depends on axioms: [propext, Classical.choice, Quot.sound] -/
#guard_msgs in #print axioms step_load_r0
/-- info: 'Cert.KernelIdeal.Proto.step_load_o0' depends on axioms: [propext, Classical.choice, Quot.sound] -/
#guard_msgs in #print axioms step_load_o0
/-- info: 'Cert.KernelIdeal.Proto.step_store0' depends on axioms: [propext, Classical.choice, Quot.sound] -/
#guard_msgs in #print axioms step_store0
/-- info: 'Cert.KernelIdeal.Proto.step_load_m' depends on axioms: [propext, Classical.choice, Quot.sound] -/
#guard_msgs in #print axioms step_load_m
/-- info: 'Cert.KernelIdeal.Proto.step_load_r' depends on axioms: [propext, Classical.choice, Quot.sound] -/
#guard_msgs in #print axioms step_load_r
/-- info: 'Cert.KernelIdeal.Proto.step_store' depends on axioms: [propext, Classical.choice, Quot.sound] -/
#guard_msgs in #print axioms step_store
/-- info: 'Cert.KernelIdeal.Proto.add0_restate' depends on axioms: [propext, Classical.choice, Quot.sound] -/
#guard_msgs in #print axioms add0_restate
/-- info: 'Cert.KernelIdeal.Proto.add_restate' depends on axioms: [propext, Classical.choice, Quot.sound] -/
#guard_msgs in #print axioms add_restate

end Cert.KernelIdeal.Proto

end
-- ==== Proof.TransAdd.lean ====
/-
  The add steps as phase transitions of a stream: in the phase after the receive wait of slot `t < 4` the three loads
  leave the phase as it is and continue at what they read; the store replaces the kept rows of `out` by the next
  level and moves the stream to the next phase.
-/
import proofs.«900484_g7700000000000485_dist_treered_v7x_i16_m512_n512_f32_1_alg».proof.Proof.PartsDefs
import proofs.«900484_g7700000000000485_dist_treered_v7x_i16_m512_n512_f32_1_alg».proof.Proof.StepsAdd

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem tr_LOADx0 (K : Dev nD × CellK → ℕ) (c : Dev nD) (s : Fin 4) (g : Buf (Elt F) (((c : Dev nD) : Thread nD τ).loc cc0_stg1_0)) {α : Type} {Q : α → sProp 𝕄} {kont : Vec F S1x64x512 .f32 → Prog (TpuEff nD τ sig (Elt F) Λ₀ .tc) α} :
    iprop(□ Pers m ρ K c ∗ StreamSt2 m ρ c s g)
      ⊢ iprop((StreamSt2 m ρ c s g -∗ wpC c (kont (ldX m ρ c s)) Q)
          -∗ wpC c (.op (.load (Memref.whole cc0_stg0_0) (Rect.unit (s := S1x512x512) (k0_off2 c (k0_off2_at s).1 (k0_off2_at s).2) S1x64x512.size (k0_off2_inb c s)).toLoadRect (View.loadsAt_vmem h_S1x64x512)) kont) Q) := by
  unfold StreamSt2 ldX
  iintro ⟨#HP, A1, A2, A3, A4, A5, A6, A7, A8, A9, A10, A11, A12, A13, A14, A15, A16, A17, A18, A19, A20, A21, A22, A23, A24, A25, A26, A27, A28, A29, A30, A31, A32, A33, A34, A35⟩ Hk
  iapply (step_load_x0 c s fullShare (xstg m ρ c)) $$ A27
  iintro A27
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [A34]; · iexact A34
  iexact A35

theorem tr_LOADr0 (K : Dev nD × CellK → ℕ) (c : Dev nD) (s : Fin 4) (g : Buf (Elt F) (((c : Dev nD) : Thread nD τ).loc cc0_stg1_0)) {α : Type} {Q : α → sProp 𝕄} {kont : Vec F S64x512 .f32 → Prog (TpuEff nD τ sig (Elt F) Λ₀ .tc) α} :
    iprop(□ Pers m ρ K c ∗ StreamSt2 m ρ c s g)
      ⊢ iprop((StreamSt2 m ρ c s g -∗ wpC c (kont (ldR0 m ρ c s)) Q)
          -∗ wpC c (.op (.load (Memref.whole cc0_scratch0) (Rect.unit (s := S640x512) ![rRow s 0, 0] S64x512.size (rRow64_inb s)).toLoadRect (View.loadsAt_vmem h_S64x512)) kont) Q) := by
  unfold StreamSt2 ldR0
  iintro ⟨#HP, A1, A2, A3, A4, A5, A6, A7, A8, A9, A10, A11, A12, A13, A14, A15, A16, A17, A18, A19, A20, A21, A22, A23, A24, A25, A26, A27, A28, A29, A30, A31, A32, A33, A34, A35⟩ Hk
  iapply (step_load_r0 c s fullShare (recvFinal m ρ c)) $$ A35
  iintro A35
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [A34]; · iexact A34
  iexact A35

theorem tr_LOADo0 (K : Dev nD × CellK → ℕ) (c : Dev nD) (s : Fin 4) (g : Buf (Elt F) (((c : Dev nD) : Thread nD τ).loc cc0_stg1_0)) {α : Type} {Q : α → sProp 𝕄} {kont : Vec F S64x512 .f32 → Prog (TpuEff nD τ sig (Elt F) Λ₀ .tc) α} :
    iprop(□ Pers m ρ K c ∗ StreamSt2 m ρ c s g)
      ⊢ iprop((StreamSt2 m ρ c s g -∗ wpC c (kont (ldD0 m ρ c s g)) Q)
          -∗ wpC c (.op (.load (Memref.whole cc0_stg1_0) (Rect.unit (s := S512x512) (k0_off3 c (k0_off3_at s).1 (k0_off3_at s).2) S64x512.size (k0_off3_inb c s)).toLoadRect (View.loadsAt_vmem h_S64x512)) kont) Q) := by
  unfold StreamSt2 ldD0
  iintro ⟨#HP, A1, A2, A3, A4, A5, A6, A7, A8, A9, A10, A11, A12, A13, A14, A15, A16, A17, A18, A19, A20, A21, A22, A23, A24, A25, A26, A27, A28, A29, A30, A31, A32, A33, A34, A35⟩ Hk
  iapply (step_load_o0 c s fullShare g) $$ A28
  iintro A28
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [A34]; · iexact A34
  iexact A35

theorem tr_LOADm1 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt5 m ρ c s)
      ⊢ iprop((StreamSt5 m ρ c s -∗ wpC c (kont (ldM m ρ c s 1)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt5 ldM
  iintro ⟨#HP, A1, A2, A3, A4, A5, A6, A7, A8, A9, A10, A11, A12, A13, A14, A15, A16, A17, A18, A19, A20, A21, A22, A23, A24, A25, A26, A27, A28, A29, A30, A31, A32, A33, A34⟩ Hk
  iapply (step_load_m c s fullShare (outLvl m ρ 1 c)) $$ A31
  iintro A31
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact A34

theorem tr_LOADr1 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt5 m ρ c s)
      ⊢ iprop((StreamSt5 m ρ c s -∗ wpC c (kont (ldR m ρ c s 1 (.inl rfl))) Q)
          -∗ wpC c (.op (.load (Memref.whole cc0_scratch0) (Rect.unit (s := S640x512) ![rRow s 1, 0] S32x512.size (rRow32_inb s 1 (.inl rfl))).toLoadRect (View.loadsAt_vmem h_S32x512)) kont) Q) := by
  unfold StreamSt5 ldR
  iintro ⟨#HP, A1, A2, A3, A4, A5, A6, A7, A8, A9, A10, A11, A12, A13, A14, A15, A16, A17, A18, A19, A20, A21, A22, A23, A24, A25, A26, A27, A28, A29, A30, A31, A32, A33, A34⟩ Hk
  iapply (step_load_r c s 1 (.inl rfl) fullShare (recvFinal m ρ c)) $$ A33
  iintro A33
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact A34

theorem tr_LOADd1 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt5 m ρ c s)
      ⊢ iprop((StreamSt5 m ρ c s -∗ wpC c (kont (ldM m ρ c s 1)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt5 ldM
  iintro ⟨#HP, A1, A2, A3, A4, A5, A6, A7, A8, A9, A10, A11, A12, A13, A14, A15, A16, A17, A18, A19, A20, A21, A22, A23, A24, A25, A26, A27, A28, A29, A30, A31, A32, A33, A34⟩ Hk
  iapply (step_load_m c s fullShare (outLvl m ρ 1 c)) $$ A31
  iintro A31
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact A34

theorem tr_LOADm2 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt9 m ρ c s)
      ⊢ iprop((StreamSt9 m ρ c s -∗ wpC c (kont (ldM m ρ c s 2)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt9 ldM
  iintro ⟨#HP, A1, A2, A3, A4, A5, A6, A7, A8, A9, A10, A11, A12, A13, A14, A15, A16, A17, A18, A19, A20, A21, A22, A23, A24, A25, A26, A27, A28, A29, A30, A31⟩ Hk
  iapply (step_load_m c s fullShare (outLvl m ρ 2 c)) $$ A29
  iintro A29
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

theorem tr_LOADr2 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt9 m ρ c s)
      ⊢ iprop((StreamSt9 m ρ c s -∗ wpC c (kont (ldR m ρ c s 2 (.inr (.inl rfl)))) Q)
          -∗ wpC c (.op (.load (Memref.whole cc0_scratch0) (Rect.unit (s := S640x512) ![rRow s 2, 0] S32x512.size (rRow32_inb s 2 (.inr (.inl rfl)))).toLoadRect (View.loadsAt_vmem h_S32x512)) kont) Q) := by
  unfold StreamSt9 ldR
  iintro ⟨#HP, A1, A2, A3, A4, A5, A6, A7, A8, A9, A10, A11, A12, A13, A14, A15, A16, A17, A18, A19, A20, A21, A22, A23, A24, A25, A26, A27, A28, A29, A30, A31⟩ Hk
  iapply (step_load_r c s 2 (.inr (.inl rfl)) fullShare (recvFinal m ρ c)) $$ A31
  iintro A31
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

theorem tr_LOADd2 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt9 m ρ c s)
      ⊢ iprop((StreamSt9 m ρ c s -∗ wpC c (kont (ldM m ρ c s 2)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt9 ldM
  iintro ⟨#HP, A1, A2, A3, A4, A5, A6, A7, A8, A9, A10, A11, A12, A13, A14, A15, A16, A17, A18, A19, A20, A21, A22, A23, A24, A25, A26, A27, A28, A29, A30, A31⟩ Hk
  iapply (step_load_m c s fullShare (outLvl m ρ 2 c)) $$ A29
  iintro A29
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

theorem tr_LOADm3 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt13 m ρ c s)
      ⊢ iprop((StreamSt13 m ρ c s -∗ wpC c (kont (ldM m ρ c s 3)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt13 ldM
  iintro ⟨#HP, A1, A2, A3, A4, A5, A6, A7, A8, A9, A10, A11, A12, A13, A14, A15, A16, A17, A18, A19, A20, A21, A22, A23, A24, A25, A26, A27, A28⟩ Hk
  iapply (step_load_m c s fullShare (outLvl m ρ 3 c)) $$ A26
  iintro A26
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  iexact A28

theorem tr_LOADr3 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt13 m ρ c s)
      ⊢ iprop((StreamSt13 m ρ c s -∗ wpC c (kont (ldR m ρ c s 3 (.inr (.inr rfl)))) Q)
          -∗ wpC c (.op (.load (Memref.whole cc0_scratch0) (Rect.unit (s := S640x512) ![rRow s 3, 0] S32x512.size (rRow32_inb s 3 (.inr (.inr rfl)))).toLoadRect (View.loadsAt_vmem h_S32x512)) kont) Q) := by
  unfold StreamSt13 ldR
  iintro ⟨#HP, A1, A2, A3, A4, A5, A6, A7, A8, A9, A10, A11, A12, A13, A14, A15, A16, A17, A18, A19, A20, A21, A22, A23, A24, A25, A26, A27, A28⟩ Hk
  iapply (step_load_r c s 3 (.inr (.inr rfl)) fullShare (recvFinal m ρ c)) $$ A28
  iintro A28
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  iexact A28

theorem tr_LOADd3 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt13 m ρ c s)
      ⊢ iprop((StreamSt13 m ρ c s -∗ wpC c (kont (ldM m ρ c s 3)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt13 ldM
  iintro ⟨#HP, A1, A2, A3, A4, A5, A6, A7, A8, A9, A10, A11, A12, A13, A14, A15, A16, A17, A18, A19, A20, A21, A22, A23, A24, A25, A26, A27, A28⟩ Hk
  iapply (step_load_m c s fullShare (outLvl m ρ 3 c)) $$ A26
  iintro A26
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  iexact A28

theorem tr_STORE0 (K : Dev nD × CellK → ℕ) (c : Dev nD) (s : Fin 4) (g : Buf (Elt F) (((c : Dev nD) : Thread nD τ).loc cc0_stg1_0)) (w : FVec F S64x512 .f32) (hw : w = addf (shapeCast S64x512 (ldX m ρ c s) shapeCasts_S1x64x512_S64x512) (ldR0 m ρ c s)) {α : Type} {Q : α → sProp 𝕄} {kont : PUnit → Prog (TpuEff nD τ sig (Elt F) Λ₀ .tc) α} :
    iprop(□ Pers m ρ K c ∗ StreamSt2 m ρ c s g)
      ⊢ iprop((StreamSt3 m ρ c s -∗ wpC c (kont ⟨⟩) Q)
          -∗ wpC c (.op (.store (Memref.whole cc0_stg1_0) (Rect.unit (s := S512x512) (k0_off3 c (k0_off3_at s).1 (k0_off3_at s).2) S64x512.size (k0_off3_inb c s)) w Finset.univ (View.stores_vmem_bits_univ h_S64x512 rfl) (.inl rfl)) kont) Q) := by
  unfold StreamSt2 StreamSt3
  iintro ⟨#HP, A1, A2, A3, A4, A5, A6, A7, A8, A9, A10, A11, A12, A13, A14, A15, A16, A17, A18, A19, A20, A21, A22, A23, A24, A25, A26, A27, A28, A29, A30, A31, A32, A33, A34, A35⟩ Hk
  iapply (step_store0 c s g w) $$ A28
  rw [add0_restate m ρ c s g w hw]
  iintro A28
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A29]; · iexact A29
  isplitl [A30]; · iexact A30
  isplitl [A31]; · iexact A31
  isplitl [A32]; · iexact A32
  isplitl [A33]; · iexact A33
  isplitl [A34]; · iexact A34
  isplitl [A35]; · iexact A35
  iexact A28

theorem tr_STORE1 (K : Dev nD × CellK → ℕ) (c : Dev nD) (s : Fin 4) (g : Buf (Elt F) (((c : Dev nD) : Thread nD τ).loc cc0_stg1_0)) (w : FVec F S32x512 .f32) (hw : w = addf (shapeCast S32x512 (ldM m ρ c s 1) shapeCasts_S32x512_S32x512) (ldR m ρ c s 1 (.inl rfl))) {α : Type} {Q : α → sProp 𝕄} {kont : PUnit → Prog (TpuEff nD τ sig (Elt F) Λ₀ .tc) α} :
    iprop(□ Pers m ρ K c ∗ StreamSt5 m ρ c s)
      ⊢ iprop((StreamSt6 m ρ c s -∗ wpC c (kont ⟨⟩) Q)
          -∗ wpC c (.op (.store (Memref.whole cc0_stg1_0) (Rect.unit (s := S512x512) (k0_off5 c (k0_off5_at s).1 (k0_off5_at s).2.1 (k0_off5_at s).2.2) S32x512.size (k0_off5_inb c s)) w Finset.univ (View.stores_vmem_bits_univ h_S32x512 rfl) (.inl rfl)) kont) Q) := by
  unfold StreamSt5 StreamSt6
  iintro ⟨#HP, A1, A2, A3, A4, A5, A6, A7, A8, A9, A10, A11, A12, A13, A14, A15, A16, A17, A18, A19, A20, A21, A22, A23, A24, A25, A26, A27, A28, A29, A30, A31, A32, A33, A34⟩ Hk
  iapply (step_store c s (outLvl m ρ 1 c) w) $$ A31
  rw [add_restate m ρ c s 1 (.inl rfl) (outLvl m ρ 1 c) w hw]
  iintro A31
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A32]; · iexact A32
  isplitl [A33]; · iexact A33
  isplitl [A34]; · iexact A34
  iexact A31

theorem tr_STORE2 (K : Dev nD × CellK → ℕ) (c : Dev nD) (s : Fin 4) (g : Buf (Elt F) (((c : Dev nD) : Thread nD τ).loc cc0_stg1_0)) (w : FVec F S32x512 .f32) (hw : w = addf (shapeCast S32x512 (ldM m ρ c s 2) shapeCasts_S32x512_S32x512) (ldR m ρ c s 2 (.inr (.inl rfl)))) {α : Type} {Q : α → sProp 𝕄} {kont : PUnit → Prog (TpuEff nD τ sig (Elt F) Λ₀ .tc) α} :
    iprop(□ Pers m ρ K c ∗ StreamSt9 m ρ c s)
      ⊢ iprop((StreamSt10 m ρ c s -∗ wpC c (kont ⟨⟩) Q)
          -∗ wpC c (.op (.store (Memref.whole cc0_stg1_0) (Rect.unit (s := S512x512) (k0_off5 c (k0_off5_at s).1 (k0_off5_at s).2.1 (k0_off5_at s).2.2) S32x512.size (k0_off5_inb c s)) w Finset.univ (View.stores_vmem_bits_univ h_S32x512 rfl) (.inl rfl)) kont) Q) := by
  unfold StreamSt9 StreamSt10
  iintro ⟨#HP, A1, A2, A3, A4, A5, A6, A7, A8, A9, A10, A11, A12, A13, A14, A15, A16, A17, A18, A19, A20, A21, A22, A23, A24, A25, A26, A27, A28, A29, A30, A31⟩ Hk
  iapply (step_store c s (outLvl m ρ 2 c) w) $$ A29
  rw [add_restate m ρ c s 2 (.inr (.inl rfl)) (outLvl m ρ 2 c) w hw]
  iintro A29
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A30]; · iexact A30
  isplitl [A31]; · iexact A31
  iexact A29

theorem tr_STORE3 (K : Dev nD × CellK → ℕ) (c : Dev nD) (s : Fin 4) (g : Buf (Elt F) (((c : Dev nD) : Thread nD τ).loc cc0_stg1_0)) (w : FVec F S32x512 .f32) (hw : w = addf (shapeCast S32x512 (ldM m ρ c s 3) shapeCasts_S32x512_S32x512) (ldR m ρ c s 3 (.inr (.inr rfl)))) {α : Type} {Q : α → sProp 𝕄} {kont : PUnit → Prog (TpuEff nD τ sig (Elt F) Λ₀ .tc) α} :
    iprop(□ Pers m ρ K c ∗ StreamSt13 m ρ c s)
      ⊢ iprop((StreamSt14 m ρ c s -∗ wpC c (kont ⟨⟩) Q)
          -∗ wpC c (.op (.store (Memref.whole cc0_stg1_0) (Rect.unit (s := S512x512) (k0_off5 c (k0_off5_at s).1 (k0_off5_at s).2.1 (k0_off5_at s).2.2) S32x512.size (k0_off5_inb c s)) w Finset.univ (View.stores_vmem_bits_univ h_S32x512 rfl) (.inl rfl)) kont) Q) := by
  unfold StreamSt13 StreamSt14
  iintro ⟨#HP, A1, A2, A3, A4, A5, A6, A7, A8, A9, A10, A11, A12, A13, A14, A15, A16, A17, A18, A19, A20, A21, A22, A23, A24, A25, A26, A27, A28⟩ Hk
  iapply (step_store c s (outLvl m ρ 3 c) w) $$ A26
  rw [add_restate m ρ c s 3 (.inr (.inr rfl)) (outLvl m ρ 3 c) w hw]
  iintro A26
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A27]; · iexact A27
  isplitl [A28]; · iexact A28
  iexact A26

/-- info: 'Cert.KernelIdeal.Proto.tr_STORE3' depends on axioms: [propext, Classical.choice, Quot.sound] -/
#guard_msgs in #print axioms tr_STORE3

end Cert.KernelIdeal.Proto

end
-- ==== Proof.PartsA.lean ====
/-
  The printed parts 6–10 of the body, each run from the four streams' phases before it to their phases after it:
  every effect of a part is one transition of the stream it belongs to (or a load, which leaves the phase alone).
-/
import proofs.«900484_g7700000000000485_dist_treered_v7x_i16_m512_n512_f32_1_alg».proof.Proof.TransEnq
import proofs.«900484_g7700000000000485_dist_treered_v7x_i16_m512_n512_f32_1_alg».proof.Proof.TransEnq23
import proofs.«900484_g7700000000000485_dist_treered_v7x_i16_m512_n512_f32_1_alg».proof.Proof.TransEnq45
import proofs.«900484_g7700000000000485_dist_treered_v7x_i16_m512_n512_f32_1_alg».proof.Proof.TransWait
import proofs.«900484_g7700000000000485_dist_treered_v7x_i16_m512_n512_f32_1_alg».proof.Proof.TransWaitR45
import proofs.«900484_g7700000000000485_dist_treered_v7x_i16_m512_n512_f32_1_alg».proof.Proof.TransWaitS
import proofs.«900484_g7700000000000485_dist_treered_v7x_i16_m512_n512_f32_1_alg».proof.Proof.TransAdd
import proofs.«900484_g7700000000000485_dist_treered_v7x_i16_m512_n512_f32_1_alg».proof.Proof.PartsDefs
import proofs.«900484_g7700000000000485_dist_treered_v7x_i16_m512_n512_f32_1_alg».proof.Proof.Chains
import proofs.«900484_g7700000000000485_dist_treered_v7x_i16_m512_n512_f32_1_alg».proof.Proof.Gen.KernelIdeal.Skeleton

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Chains

theorem part6_spec (K : Dev nD × CellK → ℕ) (c : Dev nD) (g0 g1 g2 g3 : Buf (Elt F) (((c : Dev nD) : Thread nD τ).loc cc0_stg1_0)) (v65 : BitVec 32) (v97 : BitVec 32) (v129 : BitVec 32) (v165 : BitVec 32) (v167 : BitVec 32)  :
    iprop(□ Pers m ρ K c ∗ GSt c 4 ∗ StreamSt0 m ρ c 0 g0 ∗ StreamSt0 m ρ c 1 g1 ∗ StreamSt0 m ρ c 2 g2 ∗ StreamSt0 m ρ c 3 g3)
      ⊢ wpC c (k0_part6 (Memref.whole cc0_stg0_0) (Memref.isWhole_whole _) (Memref.whole cc0_stg1_0) (Memref.isWhole_whole _) (Memref.whole cc0_scratch0) (Memref.isWhole_whole _) cc0_scratch1 cc0_scratch2 c v65 v97 v129 v165 v167) (fun r => iprop(GSt c 6 ∗ StreamSt1 m ρ c 0 g0 ∗ StreamSt1 m ρ c 1 g1 ∗ StreamSt0 m ρ c 2 g2 ∗ StreamSt0 m ρ c 3 g3)) := by
  rw [k0_part6_eq_skeleton]; unfold k0_part6_skel
  simp only [Prog.lift, Prog.bind_op, Prog.bind_ret, Prog.pure_eq_ret]
  iintro ⟨#HP, HG, H0, H1, H2, H3⟩
  iapply (tr_ENQ0 m ρ K c 0 g0 4 (by decide) _ (Chains.dev5_eq_dimOf c)) $$ [HG H0]
  · isplitr; · iexact HP
    isplitl [HG]; · iexact HG
    iexact H0
  iintro ⟨HG, H0⟩
  iapply (tr_ENQ0 m ρ K c 1 g1 5 (by decide) _ (Chains.dev6_eq_dimOf c)) $$ [HG H1]
  · isplitr; · iexact HP
    isplitl [HG]; · iexact HG
    iexact H1
  iintro ⟨HG, H1⟩
  simp only [wp_ret]; imodintro
  isplitl [HG]; · iexact HG
  isplitl [H0]; · iexact H0
  isplitl [H1]; · iexact H1
  isplitl [H2]; · iexact H2
  iexact H3

theorem part7_spec (K : Dev nD × CellK → ℕ) (c : Dev nD) (g0 g1 g2 g3 : Buf (Elt F) (((c : Dev nD) : Thread nD τ).loc cc0_stg1_0)) (v65 : BitVec 32) (v161 : BitVec 32) (v169 : BitVec 32) (v183 : BitVec 32) (v212 : BitVec 32) (c0_i32_124 : BitVec 32)  :
    iprop(□ Pers m ρ K c ∗ GSt c 6 ∗ StreamSt1 m ρ c 0 g0 ∗ StreamSt1 m ρ c 1 g1 ∗ StreamSt0 m ρ c 2 g2 ∗ StreamSt0 m ρ c 3 g3)
      ⊢ wpC c (k0_part7 (Memref.whole cc0_stg0_0) (Memref.isWhole_whole _) (Memref.whole cc0_stg1_0) (Memref.isWhole_whole _) (Memref.whole cc0_scratch0) (Memref.isWhole_whole _) cc0_scratch1 cc0_scratch2 c v65 v161 v169 v183 v212 c0_i32_124) (fun r => iprop(⌜r.2 = ldX m ρ c 0⌝ ∗ GSt c 8 ∗ StreamSt2 m ρ c 0 g0 ∗ StreamSt1 m ρ c 1 g1 ∗ StreamSt1 m ρ c 2 g2 ∗ StreamSt1 m ρ c 3 g3)) := by
  rw [k0_part7_eq_skeleton]; unfold k0_part7_skel
  simp only [Prog.lift, Prog.bind_op, Prog.bind_ret, Prog.pure_eq_ret]
  iintro ⟨#HP, HG, H0, H1, H2, H3⟩
  iapply (tr_ENQ0 m ρ K c 2 g2 6 (by decide) _ (Chains.dev7_eq_dimOf c)) $$ [HG H2]
  · isplitr; · iexact HP
    isplitl [HG]; · iexact HG
    iexact H2
  iintro ⟨HG, H2⟩
  iapply (tr_ENQ0 m ρ K c 3 g3 7 (by decide) _ (Chains.dev8_eq_dimOf c)) $$ [HG H3]
  · isplitr; · iexact HP
    isplitl [HG]; · iexact HG
    iexact H3
  iintro ⟨HG, H3⟩
  iapply (tr_WAITR0 m ρ K c 0 g0 8 (by decide)) $$ [HG H0]
  · isplitr; · iexact HP
    isplitl [HG]; · iexact HG
    iexact H0
  iintro ⟨HG, H0⟩
  iapply (tr_LOADx0 m ρ K c 0 g0) $$ [H0]
  · isplitr; · iexact HP
    iexact H0
  iintro H0
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part8_spec (K : Dev nD × CellK → ℕ) (c : Dev nD) (g0 g1 g2 g3 : Buf (Elt F) (((c : Dev nD) : Thread nD τ).loc cc0_stg1_0)) (v97 : BitVec 32) (v165 : BitVec 32) (v183 : BitVec 32) (v197 : BitVec 32) (v243 : Vec F S1x64x512 .f32) (hv243 : v243 = ldX m ρ c 0) :
    iprop(□ Pers m ρ K c ∗ GSt c 8 ∗ StreamSt2 m ρ c 0 g0 ∗ StreamSt1 m ρ c 1 g1 ∗ StreamSt1 m ρ c 2 g2 ∗ StreamSt1 m ρ c 3 g3)
      ⊢ wpC c (k0_part8 (Memref.whole cc0_stg0_0) (Memref.isWhole_whole _) (Memref.whole cc0_stg1_0) (Memref.isWhole_whole _) (Memref.whole cc0_scratch0) (Memref.isWhole_whole _) cc0_scratch1 cc0_scratch2 c v97 v165 v183 v197 v243) (fun r => iprop(⌜r.2 = k0_pay2 (ldX m ρ c 1) (ldR0 m ρ c 1)⌝ ∗ GSt c 9 ∗ StreamSt4 m ρ c 0 ∗ StreamSt2 m ρ c 1 g1 ∗ StreamSt1 m ρ c 2 g2 ∗ StreamSt1 m ρ c 3 g3)) := by
  rw [k0_part8_eq_skeleton]; unfold k0_part8_skel
  simp only [Prog.lift, Prog.bind_op, Prog.bind_ret, Prog.pure_eq_ret]
  iintro ⟨#HP, HG, H0, H1, H2, H3⟩
  iapply (tr_LOADr0 m ρ K c 0 g0) $$ [H0]
  · isplitr; · iexact HP
    iexact H0
  iintro H0
  iapply (tr_LOADo0 m ρ K c 0 g0) $$ [H0]
  · isplitr; · iexact HP
    iexact H0
  iintro H0
  iapply (tr_STORE0 m ρ K c 0 g0 _ (by first | rfl | (subst hv243; rfl))) $$ [H0]
  · isplitr; · iexact HP
    iexact H0
  iintro H0
  iapply (tr_ENQ1 m ρ K c 0 g0 8 (by decide) _ (Chains.dev9_eq_dimOf c)) $$ [HG H0]
  · isplitr; · iexact HP
    isplitl [HG]; · iexact HG
    iexact H0
  iintro ⟨HG, H0⟩
  iapply (tr_WAITR0 m ρ K c 1 g1 9 (by decide)) $$ [HG H1]
  · isplitr; · iexact HP
    isplitl [HG]; · iexact HG
    iexact H1
  iintro ⟨HG, H1⟩
  iapply (tr_LOADx0 m ρ K c 1 g1) $$ [H1]
  · isplitr; · iexact HP
    iexact H1
  iintro H1
  iapply (tr_LOADr0 m ρ K c 1 g1) $$ [H1]
  · isplitr; · iexact HP
    iexact H1
  iintro H1
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part9_spec (K : Dev nD × CellK → ℕ) (c : Dev nD) (g0 g1 g2 g3 : Buf (Elt F) (((c : Dev nD) : Thread nD τ).loc cc0_stg1_0)) (v65 : BitVec 32) (v129 : BitVec 32) (v163 : BitVec 32) (v169 : BitVec 32) (v197 : BitVec 32) (v211 : BitVec 32) (v273 : FVec F S64x512 .f32) (hv273 : v273 = k0_pay2 (ldX m ρ c 1) (ldR0 m ρ c 1)) :
    iprop(□ Pers m ρ K c ∗ GSt c 9 ∗ StreamSt4 m ρ c 0 ∗ StreamSt2 m ρ c 1 g1 ∗ StreamSt1 m ρ c 2 g2 ∗ StreamSt1 m ρ c 3 g3)
      ⊢ wpC c (k0_part9 (Memref.whole cc0_stg0_0) (Memref.isWhole_whole _) (Memref.whole cc0_stg1_0) (Memref.isWhole_whole _) (Memref.whole cc0_scratch0) (Memref.isWhole_whole _) cc0_scratch1 cc0_scratch2 c v65 v129 v163 v169 v197 v211 v273) (fun r => iprop(GSt c 10 ∗ StreamSt4 m ρ c 0 ∗ StreamSt4 m ρ c 1 ∗ StreamSt3 m ρ c 2 ∗ StreamSt1 m ρ c 3 g3)) := by
  rw [k0_part9_eq_skeleton]; unfold k0_part9_skel
  simp only [Prog.lift, Prog.bind_op, Prog.bind_ret, Prog.pure_eq_ret]
  iintro ⟨#HP, HG, H0, H1, H2, H3⟩
  iapply (tr_LOADo0 m ρ K c 1 g1) $$ [H1]
  · isplitr; · iexact HP
    iexact H1
  iintro H1
  iapply (tr_STORE0 m ρ K c 1 g1 _ (by first | rfl | (subst hv273; rfl))) $$ [H1]
  · isplitr; · iexact HP
    iexact H1
  iintro H1
  iapply (tr_ENQ1 m ρ K c 1 g1 9 (by decide) _ (Chains.dev10_eq_dimOf c)) $$ [HG H1]
  · isplitr; · iexact HP
    isplitl [HG]; · iexact HG
    iexact H1
  iintro ⟨HG, H1⟩
  iapply (tr_WAITR0 m ρ K c 2 g2 10 (by decide)) $$ [HG H2]
  · isplitr; · iexact HP
    isplitl [HG]; · iexact HG
    iexact H2
  iintro ⟨HG, H2⟩
  iapply (tr_LOADx0 m ρ K c 2 g2) $$ [H2]
  · isplitr; · iexact HP
    iexact H2
  iintro H2
  iapply (tr_LOADr0 m ρ K c 2 g2) $$ [H2]
  · isplitr; · iexact HP
    iexact H2
  iintro H2
  iapply (tr_LOADo0 m ρ K c 2 g2) $$ [H2]
  · isplitr; · iexact HP
    iexact H2
  iintro H2
  iapply (tr_STORE0 m ρ K c 2 g2 _ (by first | rfl | (subst hv273; rfl))) $$ [H2]
  · isplitr; · iexact HP
    iexact H2
  iintro H2
  simp only [wp_ret]; imodintro
  isplitl [HG]; · iexact HG
  isplitl [H0]; · iexact H0
  isplitl [H1]; · iexact H1
  isplitl [H2]; · iexact H2
  iexact H3

theorem part10_spec (K : Dev nD × CellK → ℕ) (c : Dev nD) (g0 g1 g2 g3 : Buf (Elt F) (((c : Dev nD) : Thread nD τ).loc cc0_stg1_0)) (v129 : BitVec 32) (v161 : BitVec 32) (v167 : BitVec 32) (v169 : BitVec 32) (v211 : BitVec 32) (v225 : BitVec 32)  :
    iprop(□ Pers m ρ K c ∗ GSt c 10 ∗ StreamSt4 m ρ c 0 ∗ StreamSt4 m ρ c 1 ∗ StreamSt3 m ρ c 2 ∗ StreamSt1 m ρ c 3 g3)
      ⊢ wpC c (k0_part10 (Memref.whole cc0_stg0_0) (Memref.isWhole_whole _) (Memref.whole cc0_stg1_0) (Memref.isWhole_whole _) (Memref.whole cc0_scratch0) (Memref.isWhole_whole _) cc0_scratch1 cc0_scratch2 c v129 v161 v167 v169 v211 v225) (fun r => iprop(GSt c 11 ∗ StreamSt4 m ρ c 0 ∗ StreamSt4 m ρ c 1 ∗ StreamSt4 m ρ c 2 ∗ StreamSt3 m ρ c 3)) := by
  rw [k0_part10_eq_skeleton]; unfold k0_part10_skel
  simp only [Prog.lift, Prog.bind_op, Prog.bind_ret, Prog.pure_eq_ret]
  iintro ⟨#HP, HG, H0, H1, H2, H3⟩
  iapply (tr_ENQ1 m ρ K c 2 g2 10 (by decide) _ (Chains.dev11_eq_dimOf c)) $$ [HG H2]
  · isplitr; · iexact HP
    isplitl [HG]; · iexact HG
    iexact H2
  iintro ⟨HG, H2⟩
  iapply (tr_WAITR0 m ρ K c 3 g3 11 (by decide)) $$ [HG H3]
  · isplitr; · iexact HP
    isplitl [HG]; · iexact HG
    iexact H3
  iintro ⟨HG, H3⟩
  iapply (tr_LOADx0 m ρ K c 3 g3) $$ [H3]
  · isplitr; · iexact HP
    iexact H3
  iintro H3
  iapply (tr_LOADr0 m ρ K c 3 g3) $$ [H3]
  · isplitr; · iexact HP
    iexact H3
  iintro H3
  iapply (tr_LOADo0 m ρ K c 3 g3) $$ [H3]
  · isplitr; · iexact HP
    iexact H3
  iintro H3
  iapply (tr_STORE0 m ρ K c 3 g3 _ rfl) $$ [H3]
  · isplitr; · iexact HP
    iexact H3
  iintro H3
  simp only [wp_ret]; imodintro
  isplitl [HG]; · iexact HG
  isplitl [H0]; · iexact H0
  isplitl [H1]; · iexact H1
  isplitl [H2]; · iexact H2
  iexact H3

/-- info: 'Cert.KernelIdeal.Proto.part10_spec' depends on axioms: [propext, Classical.choice, Quot.sound] -/
#guard_msgs in #print axioms part10_spec

end Cert.KernelIdeal.Proto

end
-- ==== Proof.PartsB.lean ====
/-
  The printed parts 11–15 of the body, each run from the four streams' phases before it to their phases after it:
  every effect of a part is one transition of the stream it belongs to (or a load, which leaves the phase alone).
-/
import proofs.«900484_g7700000000000485_dist_treered_v7x_i16_m512_n512_f32_1_alg».proof.Proof.TransEnq
import proofs.«900484_g7700000000000485_dist_treered_v7x_i16_m512_n512_f32_1_alg».proof.Proof.TransEnq23
import proofs.«900484_g7700000000000485_dist_treered_v7x_i16_m512_n512_f32_1_alg».proof.Proof.TransEnq45
import proofs.«900484_g7700000000000485_dist_treered_v7x_i16_m512_n512_f32_1_alg».proof.Proof.TransWait
import proofs.«900484_g7700000000000485_dist_treered_v7x_i16_m512_n512_f32_1_alg».proof.Proof.TransWaitR45
import proofs.«900484_g7700000000000485_dist_treered_v7x_i16_m512_n512_f32_1_alg».proof.Proof.TransWaitS
import proofs.«900484_g7700000000000485_dist_treered_v7x_i16_m512_n512_f32_1_alg».proof.Proof.TransAdd
import proofs.«900484_g7700000000000485_dist_treered_v7x_i16_m512_n512_f32_1_alg».proof.Proof.PartsDefs
import proofs.«900484_g7700000000000485_dist_treered_v7x_i16_m512_n512_f32_1_alg».proof.Proof.Chains
import proofs.«900484_g7700000000000485_dist_treered_v7x_i16_m512_n512_f32_1_alg».proof.Proof.Gen.KernelIdeal.Skeleton

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Chains

theorem part11_spec (K : Dev nD × CellK → ℕ) (c : Dev nD) (g0 g1 g2 g3 : Buf (Elt F) (((c : Dev nD) : Thread nD τ).loc cc0_stg1_0)) (v65 : BitVec 32) (v97 : BitVec 32) (v129 : BitVec 32) (v253 : BitVec 32) (v335 : BitVec 32)  :
    iprop(□ Pers m ρ K c ∗ GSt c 11 ∗ StreamSt4 m ρ c 0 ∗ StreamSt4 m ρ c 1 ∗ StreamSt4 m ρ c 2 ∗ StreamSt3 m ρ c 3)
      ⊢ wpC c (k0_part11 (Memref.whole cc0_stg0_0) (Memref.isWhole_whole _) (Memref.whole cc0_stg1_0) (Memref.isWhole_whole _) (Memref.whole cc0_scratch0) (Memref.isWhole_whole _) cc0_scratch1 cc0_scratch2 c v65 v97 v129 v253 v335) (fun r => iprop(GSt c 13 ∗ StreamSt7 m ρ c 0 ∗ StreamSt4 m ρ c 1 ∗ StreamSt4 m ρ c 2 ∗ StreamSt4 m ρ c 3)) := by
  rw [k0_part11_eq_skeleton]; unfold k0_part11_skel
  simp only [Prog.lift, Prog.bind_op, Prog.bind_ret, Prog.pure_eq_ret]
  iintro ⟨#HP, HG, H0, H1, H2, H3⟩
  iapply (tr_ENQ1 m ρ K c 3 g3 11 (by decide) _ (Chains.dev12_eq_dimOf c)) $$ [HG H3]
  · isplitr; · iexact HP
    isplitl [HG]; · iexact HG
    iexact H3
  iintro ⟨HG, H3⟩
  iapply (tr_WAITR1 m ρ K c 0 g0 12 (by decide)) $$ [HG H0]
  · isplitr; · iexact HP
    isplitl [HG]; · iexact HG
    iexact H0
  iintro ⟨HG, H0⟩
  iapply (tr_LOADm1 m ρ K c 0 g0) $$ [H0]
  · isplitr; · iexact HP
    iexact H0
  iintro H0
  iapply (tr_LOADr1 m ρ K c 0 g0) $$ [H0]
  · isplitr; · iexact HP
    iexact H0
  iintro H0
  iapply (tr_LOADd1 m ρ K c 0 g0) $$ [H0]
  · isplitr; · iexact HP
    iexact H0
  iintro H0
  iapply (tr_STORE1 m ρ K c 0 g0 _ rfl) $$ [H0]
  · isplitr; · iexact HP
    iexact H0
  iintro H0
  iapply (tr_ENQ2 m ρ K c 0 g0 12 (by decide) _ (Chains.dev13_eq_dimOf c)) $$ [HG H0]
  · isplitr; · iexact HP
    isplitl [HG]; · iexact HG
    iexact H0
  iintro ⟨HG, H0⟩
  simp only [wp_ret]; imodintro
  isplitl [HG]; · iexact HG
  isplitl [H0]; · iexact H0
  isplitl [H1]; · iexact H1
  isplitl [H2]; · iexact H2
  iexact H3

theorem part12_spec (K : Dev nD × CellK → ℕ) (c : Dev nD) (g0 g1 g2 g3 : Buf (Elt F) (((c : Dev nD) : Thread nD τ).loc cc0_stg1_0)) (v161 : BitVec 32) (v280 : BitVec 32) (v307 : BitVec 32)  :
    iprop(□ Pers m ρ K c ∗ GSt c 13 ∗ StreamSt7 m ρ c 0 ∗ StreamSt4 m ρ c 1 ∗ StreamSt4 m ρ c 2 ∗ StreamSt4 m ρ c 3)
      ⊢ wpC c (k0_part12 (Memref.whole cc0_stg0_0) (Memref.isWhole_whole _) (Memref.whole cc0_stg1_0) (Memref.isWhole_whole _) (Memref.whole cc0_scratch0) (Memref.isWhole_whole _) cc0_scratch1 cc0_scratch2 c v161 v280 v307) (fun r => iprop(⌜r = k0_pay7 (ldM m ρ c 2 1) (ldR m ρ c 2 1 (.inl rfl))⌝ ∗ GSt c 14 ∗ StreamSt7 m ρ c 0 ∗ StreamSt7 m ρ c 1 ∗ StreamSt5 m ρ c 2 ∗ StreamSt4 m ρ c 3)) := by
  rw [k0_part12_eq_skeleton]; unfold k0_part12_skel
  simp only [Prog.lift, Prog.bind_op, Prog.bind_ret, Prog.pure_eq_ret]
  iintro ⟨#HP, HG, H0, H1, H2, H3⟩
  iapply (tr_WAITR1 m ρ K c 1 g1 13 (by decide)) $$ [HG H1]
  · isplitr; · iexact HP
    isplitl [HG]; · iexact HG
    iexact H1
  iintro ⟨HG, H1⟩
  iapply (tr_LOADm1 m ρ K c 1 g1) $$ [H1]
  · isplitr; · iexact HP
    iexact H1
  iintro H1
  iapply (tr_LOADr1 m ρ K c 1 g1) $$ [H1]
  · isplitr; · iexact HP
    iexact H1
  iintro H1
  iapply (tr_LOADd1 m ρ K c 1 g1) $$ [H1]
  · isplitr; · iexact HP
    iexact H1
  iintro H1
  iapply (tr_STORE1 m ρ K c 1 g1 _ rfl) $$ [H1]
  · isplitr; · iexact HP
    iexact H1
  iintro H1
  iapply (tr_ENQ2 m ρ K c 1 g1 13 (by decide) _ (Chains.dev14_eq_dimOf c)) $$ [HG H1]
  · isplitr; · iexact HP
    isplitl [HG]; · iexact HG
    iexact H1
  iintro ⟨HG, H1⟩
  iapply (tr_WAITR1 m ρ K c 2 g2 14 (by decide)) $$ [HG H2]
  · isplitr; · iexact HP
    isplitl [HG]; · iexact HG
    iexact H2
  iintro ⟨HG, H2⟩
  iapply (tr_LOADm1 m ρ K c 2 g2) $$ [H2]
  · isplitr; · iexact HP
    iexact H2
  iintro H2
  iapply (tr_LOADr1 m ρ K c 2 g2) $$ [H2]
  · isplitr; · iexact HP
    iexact H2
  iintro H2
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part13_spec (K : Dev nD × CellK → ℕ) (c : Dev nD) (g0 g1 g2 g3 : Buf (Elt F) (((c : Dev nD) : Thread nD τ).loc cc0_stg1_0)) (v65 : BitVec 32) (v97 : BitVec 32) (v129 : BitVec 32) (v334 : BitVec 32) (v395 : FVec F S32x512 .f32) (hv395 : v395 = k0_pay7 (ldM m ρ c 2 1) (ldR m ρ c 2 1 (.inl rfl))) :
    iprop(□ Pers m ρ K c ∗ GSt c 14 ∗ StreamSt7 m ρ c 0 ∗ StreamSt7 m ρ c 1 ∗ StreamSt5 m ρ c 2 ∗ StreamSt4 m ρ c 3)
      ⊢ wpC c (k0_part13 (Memref.whole cc0_stg0_0) (Memref.isWhole_whole _) (Memref.whole cc0_stg1_0) (Memref.isWhole_whole _) (Memref.whole cc0_scratch0) (Memref.isWhole_whole _) cc0_scratch1 cc0_scratch2 c v65 v97 v129 v334 v395) (fun r => iprop(GSt c 16 ∗ StreamSt7 m ρ c 0 ∗ StreamSt7 m ρ c 1 ∗ StreamSt7 m ρ c 2 ∗ StreamSt7 m ρ c 3)) := by
  rw [k0_part13_eq_skeleton]; unfold k0_part13_skel
  simp only [Prog.lift, Prog.bind_op, Prog.bind_ret, Prog.pure_eq_ret]
  iintro ⟨#HP, HG, H0, H1, H2, H3⟩
  iapply (tr_LOADd1 m ρ K c 2 g2) $$ [H2]
  · isplitr; · iexact HP
    iexact H2
  iintro H2
  iapply (tr_STORE1 m ρ K c 2 g2 _ (by first | rfl | (subst hv395; rfl))) $$ [H2]
  · isplitr; · iexact HP
    iexact H2
  iintro H2
  iapply (tr_ENQ2 m ρ K c 2 g2 14 (by decide) _ (Chains.dev15_eq_dimOf c)) $$ [HG H2]
  · isplitr; · iexact HP
    isplitl [HG]; · iexact HG
    iexact H2
  iintro ⟨HG, H2⟩
  iapply (tr_WAITR1 m ρ K c 3 g3 15 (by decide)) $$ [HG H3]
  · isplitr; · iexact HP
    isplitl [HG]; · iexact HG
    iexact H3
  iintro ⟨HG, H3⟩
  iapply (tr_LOADm1 m ρ K c 3 g3) $$ [H3]
  · isplitr; · iexact HP
    iexact H3
  iintro H3
  iapply (tr_LOADr1 m ρ K c 3 g3) $$ [H3]
  · isplitr; · iexact HP
    iexact H3
  iintro H3
  iapply (tr_LOADd1 m ρ K c 3 g3) $$ [H3]
  · isplitr; · iexact HP
    iexact H3
  iintro H3
  iapply (tr_STORE1 m ρ K c 3 g3 _ (by first | rfl | (subst hv395; rfl))) $$ [H3]
  · isplitr; · iexact HP
    iexact H3
  iintro H3
  iapply (tr_ENQ2 m ρ K c 3 g3 15 (by decide) _ (Chains.dev16_eq_dimOf c)) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

theorem part14_spec (K : Dev nD × CellK → ℕ) (c : Dev nD) (g0 g1 g2 g3 : Buf (Elt F) (((c : Dev nD) : Thread nD τ).loc cc0_stg1_0)) (v129 : BitVec 32) (v161 : BitVec 32) (v253 : BitVec 32)  :
    iprop(□ Pers m ρ K c ∗ GSt c 16 ∗ StreamSt7 m ρ c 0 ∗ StreamSt7 m ρ c 1 ∗ StreamSt7 m ρ c 2 ∗ StreamSt7 m ρ c 3)
      ⊢ wpC c (k0_part14 (Memref.whole cc0_stg0_0) (Memref.isWhole_whole _) (Memref.whole cc0_stg1_0) (Memref.isWhole_whole _) (Memref.whole cc0_scratch0) (Memref.isWhole_whole _) cc0_scratch1 cc0_scratch2 c v129 v161 v253) (fun r => iprop(GSt c 17 ∗ StreamSt11 m ρ c 0 ∗ StreamSt7 m ρ c 1 ∗ StreamSt7 m ρ c 2 ∗ StreamSt7 m ρ c 3)) := by
  rw [k0_part14_eq_skeleton]; unfold k0_part14_skel
  simp only [Prog.lift, Prog.bind_op, Prog.bind_ret, Prog.pure_eq_ret]
  iintro ⟨#HP, HG, H0, H1, H2, H3⟩
  iapply (tr_WAITS2 m ρ K c 0 g0 16) $$ [HG H0]
  · isplitr; · iexact HP
    isplitl [HG]; · iexact HG
    iexact H0
  iintro ⟨HG, H0⟩
  iapply (tr_WAITR2 m ρ K c 0 g0 16 (by decide)) $$ [HG H0]
  · isplitr; · iexact HP
    isplitl [HG]; · iexact HG
    iexact H0
  iintro ⟨HG, H0⟩
  iapply (tr_LOADm2 m ρ K c 0 g0) $$ [H0]
  · isplitr; · iexact HP
    iexact H0
  iintro H0
  iapply (tr_LOADr2 m ρ K c 0 g0) $$ [H0]
  · isplitr; · iexact HP
    iexact H0
  iintro H0
  iapply (tr_LOADd2 m ρ K c 0 g0) $$ [H0]
  · isplitr; · iexact HP
    iexact H0
  iintro H0
  iapply (tr_STORE2 m ρ K c 0 g0 _ rfl) $$ [H0]
  · isplitr; · iexact HP
    iexact H0
  iintro H0
  iapply (tr_ENQ3 m ρ K c 0 g0 16 (by decide) _ (Chains.dev17_eq_dimOf c)) $$ [HG H0]
  · isplitr; · iexact HP
    isplitl [HG]; · iexact HG
    iexact H0
  iintro ⟨HG, H0⟩
  simp only [wp_ret]; imodintro
  isplitl [HG]; · iexact HG
  isplitl [H0]; · iexact H0
  isplitl [H1]; · iexact H1
  isplitl [H2]; · iexact H2
  iexact H3

theorem part15_spec (K : Dev nD × CellK → ℕ) (c : Dev nD) (g0 g1 g2 g3 : Buf (Elt F) (((c : Dev nD) : Thread nD τ).loc cc0_stg1_0)) (v129 : BitVec 32) (v161 : BitVec 32) (v280 : BitVec 32)  :
    iprop(□ Pers m ρ K c ∗ GSt c 17 ∗ StreamSt11 m ρ c 0 ∗ StreamSt7 m ρ c 1 ∗ StreamSt7 m ρ c 2 ∗ StreamSt7 m ρ c 3)
      ⊢ wpC c (k0_part15 (Memref.whole cc0_stg0_0) (Memref.isWhole_whole _) (Memref.whole cc0_stg1_0) (Memref.isWhole_whole _) (Memref.whole cc0_scratch0) (Memref.isWhole_whole _) cc0_scratch1 cc0_scratch2 c v129 v161 v280) (fun r => iprop(GSt c 18 ∗ StreamSt11 m ρ c 0 ∗ StreamSt11 m ρ c 1 ∗ StreamSt8 m ρ c 2 ∗ StreamSt7 m ρ c 3)) := by
  rw [k0_part15_eq_skeleton]; unfold k0_part15_skel
  simp only [Prog.lift, Prog.bind_op, Prog.bind_ret, Prog.pure_eq_ret]
  iintro ⟨#HP, HG, H0, H1, H2, H3⟩
  iapply (tr_WAITS2 m ρ K c 1 g1 17) $$ [HG H1]
  · isplitr; · iexact HP
    isplitl [HG]; · iexact HG
    iexact H1
  iintro ⟨HG, H1⟩
  iapply (tr_WAITR2 m ρ K c 1 g1 17 (by decide)) $$ [HG H1]
  · isplitr; · iexact HP
    isplitl [HG]; · iexact HG
    iexact H1
  iintro ⟨HG, H1⟩
  iapply (tr_LOADm2 m ρ K c 1 g1) $$ [H1]
  · isplitr; · iexact HP
    iexact H1
  iintro H1
  iapply (tr_LOADr2 m ρ K c 1 g1) $$ [H1]
  · isplitr; · iexact HP
    iexact H1
  iintro H1
  iapply (tr_LOADd2 m ρ K c 1 g1) $$ [H1]
  · isplitr; · iexact HP
    iexact H1
  iintro H1
  iapply (tr_STORE2 m ρ K c 1 g1 _ rfl) $$ [H1]
  · isplitr; · iexact HP
    iexact H1
  iintro H1
  iapply (tr_ENQ3 m ρ K c 1 g1 17 (by decide) _ (Chains.dev18_eq_dimOf c)) $$ [HG H1]
  · isplitr; · iexact HP
    isplitl [HG]; · iexact HG
    iexact H1
  iintro ⟨HG, H1⟩
  iapply (tr_WAITS2 m ρ K c 2 g2 18) $$ [HG H2]
  · isplitr; · iexact HP
    isplitl [HG]; · iexact HG
    iexact H2
  iintro ⟨HG, H2⟩
  simp only [wp_ret]; imodintro
  isplitl [HG]; · iexact HG
  isplitl [H0]; · iexact H0
  isplitl [H1]; · iexact H1
  isplitl [H2]; · iexact H2
  iexact H3

/-- info: 'Cert.KernelIdeal.Proto.part15_spec' depends on axioms: [propext, Classical.choice, Quot.sound] -/
#guard_msgs in #print axioms part15_spec

end Cert.KernelIdeal.Proto

end
-- ==== Proof.PartsC.lean ====
/-
  The printed parts 16–20 of the body, each run from the four streams' phases before it to their phases after it:
  every effect of a part is one transition of the stream it belongs to (or a load, which leaves the phase alone).
-/
import proofs.«900484_g7700000000000485_dist_treered_v7x_i16_m512_n512_f32_1_alg».proof.Proof.TransEnq
import proofs.«900484_g7700000000000485_dist_treered_v7x_i16_m512_n512_f32_1_alg».proof.Proof.TransEnq23
import proofs.«900484_g7700000000000485_dist_treered_v7x_i16_m512_n512_f32_1_alg».proof.Proof.TransEnq45
import proofs.«900484_g7700000000000485_dist_treered_v7x_i16_m512_n512_f32_1_alg».proof.Proof.TransWait
import proofs.«900484_g7700000000000485_dist_treered_v7x_i16_m512_n512_f32_1_alg».proof.Proof.TransWaitR45
import proofs.«900484_g7700000000000485_dist_treered_v7x_i16_m512_n512_f32_1_alg».proof.Proof.TransWaitS
import proofs.«900484_g7700000000000485_dist_treered_v7x_i16_m512_n512_f32_1_alg».proof.Proof.TransAdd
import proofs.«900484_g7700000000000485_dist_treered_v7x_i16_m512_n512_f32_1_alg».proof.Proof.PartsDefs
import proofs.«900484_g7700000000000485_dist_treered_v7x_i16_m512_n512_f32_1_alg».proof.Proof.Chains
import proofs.«900484_g7700000000000485_dist_treered_v7x_i16_m512_n512_f32_1_alg».proof.Proof.Gen.KernelIdeal.Skeleton

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Chains

theorem part16_spec (K : Dev nD × CellK → ℕ) (c : Dev nD) (g0 g1 g2 g3 : Buf (Elt F) (((c : Dev nD) : Thread nD τ).loc cc0_stg1_0)) (v65 : BitVec 32) (v97 : BitVec 32) (v307 : BitVec 32) (c1_i32_334 : BitVec 32)  :
    iprop(□ Pers m ρ K c ∗ GSt c 18 ∗ StreamSt11 m ρ c 0 ∗ StreamSt11 m ρ c 1 ∗ StreamSt8 m ρ c 2 ∗ StreamSt7 m ρ c 3)
      ⊢ wpC c (k0_part16 (Memref.whole cc0_stg0_0) (Memref.isWhole_whole _) (Memref.whole cc0_stg1_0) (Memref.isWhole_whole _) (Memref.whole cc0_scratch0) (Memref.isWhole_whole _) cc0_scratch1 cc0_scratch2 c v65 v97 v307 c1_i32_334) (fun r => iprop(GSt c 19 ∗ StreamSt11 m ρ c 0 ∗ StreamSt11 m ρ c 1 ∗ StreamSt11 m ρ c 2 ∗ StreamSt8 m ρ c 3)) := by
  rw [k0_part16_eq_skeleton]; unfold k0_part16_skel
  simp only [Prog.lift, Prog.bind_op, Prog.bind_ret, Prog.pure_eq_ret]
  iintro ⟨#HP, HG, H0, H1, H2, H3⟩
  iapply (tr_WAITR2 m ρ K c 2 g2 18 (by decide)) $$ [HG H2]
  · isplitr; · iexact HP
    isplitl [HG]; · iexact HG
    iexact H2
  iintro ⟨HG, H2⟩
  iapply (tr_LOADm2 m ρ K c 2 g2) $$ [H2]
  · isplitr; · iexact HP
    iexact H2
  iintro H2
  iapply (tr_LOADr2 m ρ K c 2 g2) $$ [H2]
  · isplitr; · iexact HP
    iexact H2
  iintro H2
  iapply (tr_LOADd2 m ρ K c 2 g2) $$ [H2]
  · isplitr; · iexact HP
    iexact H2
  iintro H2
  iapply (tr_STORE2 m ρ K c 2 g2 _ rfl) $$ [H2]
  · isplitr; · iexact HP
    iexact H2
  iintro H2
  iapply (tr_ENQ3 m ρ K c 2 g2 18 (by decide) _ (Chains.dev19_eq_dimOf c)) $$ [HG H2]
  · isplitr; · iexact HP
    isplitl [HG]; · iexact HG
    iexact H2
  iintro ⟨HG, H2⟩
  iapply (tr_WAITS2 m ρ K c 3 g3 19) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

theorem part17_spec (K : Dev nD × CellK → ℕ) (c : Dev nD) (g0 g1 g2 g3 : Buf (Elt F) (((c : Dev nD) : Thread nD τ).loc cc0_stg1_0)) (v65 : BitVec 32) (v161 : BitVec 32) (v253 : BitVec 32) (v334 : BitVec 32)  :
    iprop(□ Pers m ρ K c ∗ GSt c 19 ∗ StreamSt11 m ρ c 0 ∗ StreamSt11 m ρ c 1 ∗ StreamSt11 m ρ c 2 ∗ StreamSt8 m ρ c 3)
      ⊢ wpC c (k0_part17 (Memref.whole cc0_stg0_0) (Memref.isWhole_whole _) (Memref.whole cc0_stg1_0) (Memref.isWhole_whole _) (Memref.whole cc0_scratch0) (Memref.isWhole_whole _) cc0_scratch1 cc0_scratch2 c v65 v161 v253 v334) (fun r => iprop(⌜r = ldM m ρ c 0 3⌝ ∗ GSt c 20 ∗ StreamSt13 m ρ c 0 ∗ StreamSt11 m ρ c 1 ∗ StreamSt11 m ρ c 2 ∗ StreamSt11 m ρ c 3)) := by
  rw [k0_part17_eq_skeleton]; unfold k0_part17_skel
  simp only [Prog.lift, Prog.bind_op, Prog.bind_ret, Prog.pure_eq_ret]
  iintro ⟨#HP, HG, H0, H1, H2, H3⟩
  iapply (tr_WAITR2 m ρ K c 3 g3 19 (by decide)) $$ [HG H3]
  · isplitr; · iexact HP
    isplitl [HG]; · iexact HG
    iexact H3
  iintro ⟨HG, H3⟩
  iapply (tr_LOADm2 m ρ K c 3 g3) $$ [H3]
  · isplitr; · iexact HP
    iexact H3
  iintro H3
  iapply (tr_LOADr2 m ρ K c 3 g3) $$ [H3]
  · isplitr; · iexact HP
    iexact H3
  iintro H3
  iapply (tr_LOADd2 m ρ K c 3 g3) $$ [H3]
  · isplitr; · iexact HP
    iexact H3
  iintro H3
  iapply (tr_STORE2 m ρ K c 3 g3 _ rfl) $$ [H3]
  · isplitr; · iexact HP
    iexact H3
  iintro H3
  iapply (tr_ENQ3 m ρ K c 3 g3 19 (by decide) _ (Chains.dev20_eq_dimOf c)) $$ [HG H3]
  · isplitr; · iexact HP
    isplitl [HG]; · iexact HG
    iexact H3
  iintro ⟨HG, H3⟩
  iapply (tr_WAITS3 m ρ K c 0 g0 20) $$ [HG H0]
  · isplitr; · iexact HP
    isplitl [HG]; · iexact HG
    iexact H0
  iintro ⟨HG, H0⟩
  iapply (tr_WAITR3 m ρ K c 0 g0 20 (by decide)) $$ [HG H0]
  · isplitr; · iexact HP
    isplitl [HG]; · iexact HG
    iexact H0
  iintro ⟨HG, H0⟩
  iapply (tr_LOADm3 m ρ K c 0 g0) $$ [H0]
  · isplitr; · iexact HP
    iexact H0
  iintro H0
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part18_spec (K : Dev nD × CellK → ℕ) (c : Dev nD) (g0 g1 g2 g3 : Buf (Elt F) (((c : Dev nD) : Thread nD τ).loc cc0_stg1_0)) (v97 : BitVec 32) (v129 : BitVec 32) (v253 : BitVec 32) (v280 : BitVec 32) (v538 : Vec F S32x512 .f32) (hv538 : v538 = ldM m ρ c 0 3) :
    iprop(□ Pers m ρ K c ∗ GSt c 20 ∗ StreamSt13 m ρ c 0 ∗ StreamSt11 m ρ c 1 ∗ StreamSt11 m ρ c 2 ∗ StreamSt11 m ρ c 3)
      ⊢ wpC c (k0_part18 (Memref.whole cc0_stg0_0) (Memref.isWhole_whole _) (Memref.whole cc0_stg1_0) (Memref.isWhole_whole _) (Memref.whole cc0_scratch0) (Memref.isWhole_whole _) cc0_scratch1 cc0_scratch2 c v97 v129 v253 v280 v538) (fun r => iprop(⌜r = k0_pay14 (ldM m ρ c 1 3) (ldR m ρ c 1 3 (.inr (.inr rfl)))⌝ ∗ GSt c 21 ∗ StreamSt15 m ρ c 0 ∗ StreamSt13 m ρ c 1 ∗ StreamSt11 m ρ c 2 ∗ StreamSt11 m ρ c 3)) := by
  rw [k0_part18_eq_skeleton]; unfold k0_part18_skel
  simp only [Prog.lift, Prog.bind_op, Prog.bind_ret, Prog.pure_eq_ret]
  iintro ⟨#HP, HG, H0, H1, H2, H3⟩
  iapply (tr_LOADr3 m ρ K c 0 g0) $$ [H0]
  · isplitr; · iexact HP
    iexact H0
  iintro H0
  iapply (tr_LOADd3 m ρ K c 0 g0) $$ [H0]
  · isplitr; · iexact HP
    iexact H0
  iintro H0
  iapply (tr_STORE3 m ρ K c 0 g0 _ (by first | rfl | (subst hv538; rfl))) $$ [H0]
  · isplitr; · iexact HP
    iexact H0
  iintro H0
  iapply (tr_ENQ4 m ρ K c 0 g0 20 (by decide) _ (Chains.dev21_eq_dimOf c)) $$ [HG H0]
  · isplitr; · iexact HP
    isplitl [HG]; · iexact HG
    iexact H0
  iintro ⟨HG, H0⟩
  iapply (tr_WAITS3 m ρ K c 1 g1 21) $$ [HG H1]
  · isplitr; · iexact HP
    isplitl [HG]; · iexact HG
    iexact H1
  iintro ⟨HG, H1⟩
  iapply (tr_WAITR3 m ρ K c 1 g1 21 (by decide)) $$ [HG H1]
  · isplitr; · iexact HP
    isplitl [HG]; · iexact HG
    iexact H1
  iintro ⟨HG, H1⟩
  iapply (tr_LOADm3 m ρ K c 1 g1) $$ [H1]
  · isplitr; · iexact HP
    iexact H1
  iintro H1
  iapply (tr_LOADr3 m ρ K c 1 g1) $$ [H1]
  · isplitr; · iexact HP
    iexact H1
  iintro H1
  iapply (tr_LOADd3 m ρ K c 1 g1) $$ [H1]
  · isplitr; · iexact HP
    iexact H1
  iintro H1
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part19_spec (K : Dev nD × CellK → ℕ) (c : Dev nD) (g0 g1 g2 g3 : Buf (Elt F) (((c : Dev nD) : Thread nD τ).loc cc0_stg1_0)) (v65 : BitVec 32) (v97 : BitVec 32) (v161 : BitVec 32) (v307 : BitVec 32) (v566 : FVec F S32x512 .f32) (hv566 : v566 = k0_pay14 (ldM m ρ c 1 3) (ldR m ρ c 1 3 (.inr (.inr rfl)))) :
    iprop(□ Pers m ρ K c ∗ GSt c 21 ∗ StreamSt15 m ρ c 0 ∗ StreamSt13 m ρ c 1 ∗ StreamSt11 m ρ c 2 ∗ StreamSt11 m ρ c 3)
      ⊢ wpC c (k0_part19 (Memref.whole cc0_stg0_0) (Memref.isWhole_whole _) (Memref.whole cc0_stg1_0) (Memref.isWhole_whole _) (Memref.whole cc0_scratch0) (Memref.isWhole_whole _) cc0_scratch1 cc0_scratch2 c v65 v97 v161 v307 v566) (fun r => iprop(GSt c 22 ∗ StreamSt15 m ρ c 0 ∗ StreamSt15 m ρ c 1 ∗ StreamSt14 m ρ c 2 ∗ StreamSt11 m ρ c 3)) := by
  rw [k0_part19_eq_skeleton]; unfold k0_part19_skel
  simp only [Prog.lift, Prog.bind_op, Prog.bind_ret, Prog.pure_eq_ret]
  iintro ⟨#HP, HG, H0, H1, H2, H3⟩
  iapply (tr_STORE3 m ρ K c 1 g1 _ (by first | rfl | (subst hv566; rfl))) $$ [H1]
  · isplitr; · iexact HP
    iexact H1
  iintro H1
  iapply (tr_ENQ4 m ρ K c 1 g1 21 (by decide) _ (Chains.dev22_eq_dimOf c)) $$ [HG H1]
  · isplitr; · iexact HP
    isplitl [HG]; · iexact HG
    iexact H1
  iintro ⟨HG, H1⟩
  iapply (tr_WAITS3 m ρ K c 2 g2 22) $$ [HG H2]
  · isplitr; · iexact HP
    isplitl [HG]; · iexact HG
    iexact H2
  iintro ⟨HG, H2⟩
  iapply (tr_WAITR3 m ρ K c 2 g2 22 (by decide)) $$ [HG H2]
  · isplitr; · iexact HP
    isplitl [HG]; · iexact HG
    iexact H2
  iintro ⟨HG, H2⟩
  iapply (tr_LOADm3 m ρ K c 2 g2) $$ [H2]
  · isplitr; · iexact HP
    iexact H2
  iintro H2
  iapply (tr_LOADr3 m ρ K c 2 g2) $$ [H2]
  · isplitr; · iexact HP
    iexact H2
  iintro H2
  iapply (tr_LOADd3 m ρ K c 2 g2) $$ [H2]
  · isplitr; · iexact HP
    iexact H2
  iintro H2
  iapply (tr_STORE3 m ρ K c 2 g2 _ (by first | rfl | (subst hv566; rfl))) $$ [H2]
  · isplitr; · iexact HP
    iexact H2
  iintro H2
  simp only [wp_ret]; imodintro
  isplitl [HG]; · iexact HG
  isplitl [H0]; · iexact H0
  isplitl [H1]; · iexact H1
  isplitl [H2]; · iexact H2
  iexact H3

theorem part20_spec (K : Dev nD × CellK → ℕ) (c : Dev nD) (g0 g1 g2 g3 : Buf (Elt F) (((c : Dev nD) : Thread nD τ).loc cc0_stg1_0)) (v65 : BitVec 32) (v129 : BitVec 32) (v334 : BitVec 32)  :
    iprop(□ Pers m ρ K c ∗ GSt c 22 ∗ StreamSt15 m ρ c 0 ∗ StreamSt15 m ρ c 1 ∗ StreamSt14 m ρ c 2 ∗ StreamSt11 m ρ c 3)
      ⊢ wpC c (k0_part20 (Memref.whole cc0_stg0_0) (Memref.isWhole_whole _) (Memref.whole cc0_stg1_0) (Memref.isWhole_whole _) (Memref.whole cc0_scratch0) (Memref.isWhole_whole _) cc0_scratch1 cc0_scratch2 c v65 v129 v334) (fun r => iprop(GSt c 24 ∗ StreamSt15 m ρ c 0 ∗ StreamSt15 m ρ c 1 ∗ StreamSt15 m ρ c 2 ∗ StreamSt15 m ρ c 3)) := by
  rw [k0_part20_eq_skeleton]; unfold k0_part20_skel
  simp only [Prog.lift, Prog.bind_op, Prog.bind_ret, Prog.pure_eq_ret]
  iintro ⟨#HP, HG, H0, H1, H2, H3⟩
  iapply (tr_ENQ4 m ρ K c 2 g2 22 (by decide) _ (Chains.dev23_eq_dimOf c)) $$ [HG H2]
  · isplitr; · iexact HP
    isplitl [HG]; · iexact HG
    iexact H2
  iintro ⟨HG, H2⟩
  iapply (tr_WAITS3 m ρ K c 3 g3 23) $$ [HG H3]
  · isplitr; · iexact HP
    isplitl [HG]; · iexact HG
    iexact H3
  iintro ⟨HG, H3⟩
  iapply (tr_WAITR3 m ρ K c 3 g3 23 (by decide)) $$ [HG H3]
  · isplitr; · iexact HP
    isplitl [HG]; · iexact HG
    iexact H3
  iintro ⟨HG, H3⟩
  iapply (tr_LOADm3 m ρ K c 3 g3) $$ [H3]
  · isplitr; · iexact HP
    iexact H3
  iintro H3
  iapply (tr_LOADr3 m ρ K c 3 g3) $$ [H3]
  · isplitr; · iexact HP
    iexact H3
  iintro H3
  iapply (tr_LOADd3 m ρ K c 3 g3) $$ [H3]
  · isplitr; · iexact HP
    iexact H3
  iintro H3
  iapply (tr_STORE3 m ρ K c 3 g3 _ rfl) $$ [H3]
  · isplitr; · iexact HP
    iexact H3
  iintro H3
  iapply (tr_ENQ4 m ρ K c 3 g3 23 (by decide) _ (Chains.dev24_eq_dimOf c)) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

/-- info: 'Cert.KernelIdeal.Proto.part20_spec' depends on axioms: [propext, Classical.choice, Quot.sound] -/
#guard_msgs in #print axioms part20_spec

end Cert.KernelIdeal.Proto

end
-- ==== Proof.PartsD.lean ====
/-
  The printed parts 21–25 of the body, each run from the four streams' phases before it to their phases after it:
  every effect of a part is one transition of the stream it belongs to (or a load, which leaves the phase alone).
-/
import proofs.«900484_g7700000000000485_dist_treered_v7x_i16_m512_n512_f32_1_alg».proof.Proof.TransEnq
import proofs.«900484_g7700000000000485_dist_treered_v7x_i16_m512_n512_f32_1_alg».proof.Proof.TransEnq23
import proofs.«900484_g7700000000000485_dist_treered_v7x_i16_m512_n512_f32_1_alg».proof.Proof.TransEnq45
import proofs.«900484_g7700000000000485_dist_treered_v7x_i16_m512_n512_f32_1_alg».proof.Proof.TransWait
import proofs.«900484_g7700000000000485_dist_treered_v7x_i16_m512_n512_f32_1_alg».proof.Proof.TransWaitR45
import proofs.«900484_g7700000000000485_dist_treered_v7x_i16_m512_n512_f32_1_alg».proof.Proof.TransWaitS
import proofs.«900484_g7700000000000485_dist_treered_v7x_i16_m512_n512_f32_1_alg».proof.Proof.TransAdd
import proofs.«900484_g7700000000000485_dist_treered_v7x_i16_m512_n512_f32_1_alg».proof.Proof.PartsDefs
import proofs.«900484_g7700000000000485_dist_treered_v7x_i16_m512_n512_f32_1_alg».proof.Proof.Chains
import proofs.«900484_g7700000000000485_dist_treered_v7x_i16_m512_n512_f32_1_alg».proof.Proof.Gen.KernelIdeal.Skeleton

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Chains

theorem part21_spec (K : Dev nD × CellK → ℕ) (c : Dev nD) (g0 g1 g2 g3 : Buf (Elt F) (((c : Dev nD) : Thread nD τ).loc cc0_stg1_0)) (v65 : BitVec 32) (v97 : BitVec 32) (v163 : BitVec 32) (v165 : BitVec 32) (v253 : BitVec 32) (v280 : BitVec 32)  :
    iprop(□ Pers m ρ K c ∗ GSt c 24 ∗ StreamSt15 m ρ c 0 ∗ StreamSt15 m ρ c 1 ∗ StreamSt15 m ρ c 2 ∗ StreamSt15 m ρ c 3)
      ⊢ wpC c (k0_part21 (Memref.whole cc0_stg0_0) (Memref.isWhole_whole _) (Memref.whole cc0_stg1_0) (Memref.isWhole_whole _) (Memref.whole cc0_scratch0) (Memref.isWhole_whole _) cc0_scratch1 cc0_scratch2 c v65 v97 v163 v165 v253 v280) (fun r => iprop(GSt c 25 ∗ StreamSt17 m ρ c 0 ∗ StreamSt16 m ρ c 1 ∗ StreamSt15 m ρ c 2 ∗ StreamSt15 m ρ c 3)) := by
  rw [k0_part21_eq_skeleton]; unfold k0_part21_skel
  simp only [Prog.lift, Prog.bind_op, Prog.bind_ret, Prog.pure_eq_ret]
  iintro ⟨#HP, HG, H0, H1, H2, H3⟩
  iapply (tr_WAITR4 m ρ K c 0 g0 24 (by decide)) $$ [HG H0]
  · isplitr; · iexact HP
    isplitl [HG]; · iexact HG
    iexact H0
  iintro ⟨HG, H0⟩
  iapply (tr_ENQ5 m ρ K c 0 g0 24 (by decide) _ (Chains.dev25_eq_dimOf c)) $$ [HG H0]
  · isplitr; · iexact HP
    isplitl [HG]; · iexact HG
    iexact H0
  iintro ⟨HG, H0⟩
  iapply (tr_WAITR4 m ρ K c 1 g1 25 (by decide)) $$ [HG H1]
  · isplitr; · iexact HP
    isplitl [HG]; · iexact HG
    iexact H1
  iintro ⟨HG, H1⟩
  simp only [wp_ret]; imodintro
  isplitl [HG]; · iexact HG
  isplitl [H0]; · iexact H0
  isplitl [H1]; · iexact H1
  isplitl [H2]; · iexact H2
  iexact H3

theorem part22_spec (K : Dev nD × CellK → ℕ) (c : Dev nD) (g0 g1 g2 g3 : Buf (Elt F) (((c : Dev nD) : Thread nD τ).loc cc0_stg1_0)) (v129 : BitVec 32) (v161 : BitVec 32) (v167 : BitVec 32) (v169 : BitVec 32) (v307 : BitVec 32) (v334 : BitVec 32)  :
    iprop(□ Pers m ρ K c ∗ GSt c 25 ∗ StreamSt17 m ρ c 0 ∗ StreamSt16 m ρ c 1 ∗ StreamSt15 m ρ c 2 ∗ StreamSt15 m ρ c 3)
      ⊢ wpC c (k0_part22 (Memref.whole cc0_stg0_0) (Memref.isWhole_whole _) (Memref.whole cc0_stg1_0) (Memref.isWhole_whole _) (Memref.whole cc0_scratch0) (Memref.isWhole_whole _) cc0_scratch1 cc0_scratch2 c v129 v161 v167 v169 v307 v334) (fun r => iprop(GSt c 27 ∗ StreamSt17 m ρ c 0 ∗ StreamSt17 m ρ c 1 ∗ StreamSt17 m ρ c 2 ∗ StreamSt16 m ρ c 3)) := by
  rw [k0_part22_eq_skeleton]; unfold k0_part22_skel
  simp only [Prog.lift, Prog.bind_op, Prog.bind_ret, Prog.pure_eq_ret]
  iintro ⟨#HP, HG, H0, H1, H2, H3⟩
  iapply (tr_ENQ5 m ρ K c 1 g1 25 (by decide) _ (Chains.dev26_eq_dimOf c)) $$ [HG H1]
  · isplitr; · iexact HP
    isplitl [HG]; · iexact HG
    iexact H1
  iintro ⟨HG, H1⟩
  iapply (tr_WAITR4 m ρ K c 2 g2 26 (by decide)) $$ [HG H2]
  · isplitr; · iexact HP
    isplitl [HG]; · iexact HG
    iexact H2
  iintro ⟨HG, H2⟩
  iapply (tr_ENQ5 m ρ K c 2 g2 26 (by decide) _ (Chains.dev27_eq_dimOf c)) $$ [HG H2]
  · isplitr; · iexact HP
    isplitl [HG]; · iexact HG
    iexact H2
  iintro ⟨HG, H2⟩
  iapply (tr_WAITR4 m ρ K c 3 g3 27 (by decide)) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

theorem part23_spec (K : Dev nD × CellK → ℕ) (c : Dev nD) (g0 g1 g2 g3 : Buf (Elt F) (((c : Dev nD) : Thread nD τ).loc cc0_stg1_0)) (v65 : BitVec 32) (v97 : BitVec 32) (v129 : BitVec 32) (v161 : BitVec 32)  :
    iprop(□ Pers m ρ K c ∗ GSt c 27 ∗ StreamSt17 m ρ c 0 ∗ StreamSt17 m ρ c 1 ∗ StreamSt17 m ρ c 2 ∗ StreamSt16 m ρ c 3)
      ⊢ wpC c (k0_part23 (Memref.whole cc0_stg0_0) (Memref.isWhole_whole _) (Memref.whole cc0_stg1_0) (Memref.isWhole_whole _) (Memref.whole cc0_scratch0) (Memref.isWhole_whole _) cc0_scratch1 cc0_scratch2 c v65 v97 v129 v161) (fun r => iprop(GSt c 28 ∗ StreamSt18 m ρ c 0 ∗ StreamSt18 m ρ c 1 ∗ StreamSt18 m ρ c 2 ∗ StreamSt18 m ρ c 3)) := by
  rw [k0_part23_eq_skeleton]; unfold k0_part23_skel
  simp only [Prog.lift, Prog.bind_op, Prog.bind_ret, Prog.pure_eq_ret]
  iintro ⟨#HP, HG, H0, H1, H2, H3⟩
  iapply (tr_ENQ5 m ρ K c 3 g3 27 (by decide) _ (Chains.dev28_eq_dimOf c)) $$ [HG H3]
  · isplitr; · iexact HP
    isplitl [HG]; · iexact HG
    iexact H3
  iintro ⟨HG, H3⟩
  iapply (tr_WAITR5 m ρ K c 0 g0 28 (by decide)) $$ [HG H0]
  · isplitr; · iexact HP
    isplitl [HG]; · iexact HG
    iexact H0
  iintro ⟨HG, H0⟩
  iapply (tr_WAITR5 m ρ K c 1 g1 28 (by decide)) $$ [HG H1]
  · isplitr; · iexact HP
    isplitl [HG]; · iexact HG
    iexact H1
  iintro ⟨HG, H1⟩
  iapply (tr_WAITR5 m ρ K c 2 g2 28 (by decide)) $$ [HG H2]
  · isplitr; · iexact HP
    isplitl [HG]; · iexact HG
    iexact H2
  iintro ⟨HG, H2⟩
  iapply (tr_WAITR5 m ρ K c 3 g3 28 (by decide)) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

theorem part24_spec (K : Dev nD × CellK → ℕ) (c : Dev nD) (g0 g1 g2 g3 : Buf (Elt F) (((c : Dev nD) : Thread nD τ).loc cc0_stg1_0))   :
    iprop(□ Pers m ρ K c ∗ GSt c 28 ∗ StreamSt18 m ρ c 0 ∗ StreamSt18 m ρ c 1 ∗ StreamSt18 m ρ c 2 ∗ StreamSt18 m ρ c 3)
      ⊢ wpC c (k0_part24 (Memref.whole cc0_stg0_0) (Memref.isWhole_whole _) (Memref.whole cc0_stg1_0) (Memref.isWhole_whole _) (Memref.whole cc0_scratch0) (Memref.isWhole_whole _) cc0_scratch1 cc0_scratch2 c) (fun r => iprop(GSt c 28 ∗ StreamSt20 m ρ c 0 ∗ StreamSt19 m ρ c 1 ∗ StreamSt19 m ρ c 2 ∗ StreamSt19 m ρ c 3)) := by
  rw [k0_part24_eq_skeleton]; unfold k0_part24_skel
  simp only [Prog.lift, Prog.bind_op, Prog.bind_ret, Prog.pure_eq_ret]
  iintro ⟨#HP, HG, H0, H1, H2, H3⟩
  iapply (tr_WAITS0 m ρ K c 0 g0 28) $$ [HG H0]
  · isplitr; · iexact HP
    isplitl [HG]; · iexact HG
    iexact H0
  iintro ⟨HG, H0⟩
  iapply (tr_WAITS0 m ρ K c 1 g1 28) $$ [HG H1]
  · isplitr; · iexact HP
    isplitl [HG]; · iexact HG
    iexact H1
  iintro ⟨HG, H1⟩
  iapply (tr_WAITS0 m ρ K c 2 g2 28) $$ [HG H2]
  · isplitr; · iexact HP
    isplitl [HG]; · iexact HG
    iexact H2
  iintro ⟨HG, H2⟩
  iapply (tr_WAITS0 m ρ K c 3 g3 28) $$ [HG H3]
  · isplitr; · iexact HP
    isplitl [HG]; · iexact HG
    iexact H3
  iintro ⟨HG, H3⟩
  iapply (tr_WAITS1 m ρ K c 0 g0 28) $$ [HG H0]
  · isplitr; · iexact HP
    isplitl [HG]; · iexact HG
    iexact H0
  iintro ⟨HG, H0⟩
  simp only [wp_ret]; imodintro
  isplitl [HG]; · iexact HG
  isplitl [H0]; · iexact H0
  isplitl [H1]; · iexact H1
  isplitl [H2]; · iexact H2
  iexact H3

theorem part25_spec (K : Dev nD × CellK → ℕ) (c : Dev nD) (g0 g1 g2 g3 : Buf (Elt F) (((c : Dev nD) : Thread nD τ).loc cc0_stg1_0))   :
    iprop(□ Pers m ρ K c ∗ GSt c 28 ∗ StreamSt20 m ρ c 0 ∗ StreamSt19 m ρ c 1 ∗ StreamSt19 m ρ c 2 ∗ StreamSt19 m ρ c 3)
      ⊢ wpC c (k0_part25 (Memref.whole cc0_stg0_0) (Memref.isWhole_whole _) (Memref.whole cc0_stg1_0) (Memref.isWhole_whole _) (Memref.whole cc0_scratch0) (Memref.isWhole_whole _) cc0_scratch1 cc0_scratch2 c) (fun r => iprop(GSt c 28 ∗ StreamSt21 m ρ c 0 ∗ StreamSt21 m ρ c 1 ∗ StreamSt20 m ρ c 2 ∗ StreamSt20 m ρ c 3)) := by
  rw [k0_part25_eq_skeleton]; unfold k0_part25_skel
  simp only [Prog.lift, Prog.bind_op, Prog.bind_ret, Prog.pure_eq_ret]
  iintro ⟨#HP, HG, H0, H1, H2, H3⟩
  iapply (tr_WAITS1 m ρ K c 1 g1 28) $$ [HG H1]
  · isplitr; · iexact HP
    isplitl [HG]; · iexact HG
    iexact H1
  iintro ⟨HG, H1⟩
  iapply (tr_WAITS1 m ρ K c 2 g2 28) $$ [HG H2]
  · isplitr; · iexact HP
    isplitl [HG]; · iexact HG
    iexact H2
  iintro ⟨HG, H2⟩
  iapply (tr_WAITS1 m ρ K c 3 g3 28) $$ [HG H3]
  · isplitr; · iexact HP
    isplitl [HG]; · iexact HG
    iexact H3
  iintro ⟨HG, H3⟩
  iapply (tr_WAITS4 m ρ K c 0 g0 28) $$ [HG H0]
  · isplitr; · iexact HP
    isplitl [HG]; · iexact HG
    iexact H0
  iintro ⟨HG, H0⟩
  iapply (tr_WAITS4 m ρ K c 1 g1 28) $$ [HG H1]
  · isplitr; · iexact HP
    isplitl [HG]; · iexact HG
    iexact H1
  iintro ⟨HG, H1⟩
  simp only [wp_ret]; imodintro
  isplitl [HG]; · iexact HG
  isplitl [H0]; · iexact H0
  isplitl [H1]; · iexact H1
  isplitl [H2]; · iexact H2
  iexact H3

/-- info: 'Cert.KernelIdeal.Proto.part25_spec' depends on axioms: [propext, Classical.choice, Quot.sound] -/
#guard_msgs in #print axioms part25_spec

end Cert.KernelIdeal.Proto

end
-- ==== Proof.EntryPart.lean ====
/-
  The entry of a device's body, up to and including the barrier.

  The body starts from the launch's ghost state, what the device owes in full, and its three buffers. It signals the
  barrier cell of each of its four partners, handing the partner along dimension `b` the rows that partner will
  write: of the receive buffer the rows of the four slots that go along `b`, of `out` the half of stream `b`'s rows
  the device does not keep. Then it waits for the four units its partners pay and receives the same of theirs.
  Regrouped by stream, that is what each stream's first phase lists.
-/
import proofs.«900484_g7700000000000485_dist_treered_v7x_i16_m512_n512_f32_1_alg».proof.Proof.Entry
import proofs.«900484_g7700000000000485_dist_treered_v7x_i16_m512_n512_f32_1_alg».proof.Proof.PartsDefs
import proofs.«900484_g7700000000000485_dist_treered_v7x_i16_m512_n512_f32_1_alg».proof.Proof.Gen.KernelIdeal.Skeleton
import proofs.«900484_g7700000000000485_dist_treered_v7x_i16_m512_n512_f32_1_alg».proof.Proof.Chains
import proofs.«900484_g7700000000000485_dist_treered_v7x_i16_m512_n512_f32_1_alg».proof.Proof.StepsSync
import proofs.«900484_g7700000000000485_dist_treered_v7x_i16_m512_n512_f32_1_alg».proof.Proof.Regions

noncomputable section

namespace Cert.KernelIdeal.Proto

open Cert.KernelIdeal
open Cert.KernelIdeal.Gen
open Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body holds at entry -/

/-- What the device holds when its body starts, with the persistent part set aside: what it owes in full, the barrier's
    duty tokens, position and launch credit, each stream's thirty atoms, and the three buffers whole. -/
def EntrySt (c : Dev nD) (g : Buf (Elt F) (((c : Dev nD) : Thread nD τ).loc cc0_stg1_0))
    (f : Buf (Elt F) (((c : Dev nD) : Thread nD τ).loc cc0_scratch0)) : sProp 𝕄 :=
  iprop(GSt c 0
    ∗ (dutyTok ER (barCell (partner 0 c)) 0 (0 : Fin 4) ∗ dutyTok ER (barCell (partner 1 c)) 0 (1 : Fin 4)
        ∗ dutyTok ER (barCell (partner 2 c)) 0 (2 : Fin 4) ∗ dutyTok ER (barCell (partner 3 c)) 0 (3 : Fin 4))
    ∗ atPos ER (barCell c) 0 ∅ 0 ∗ cred (tallyAt (barCell c) () 4)
    ∗ slotAtoms c 0 ∗ slotAtoms c 1 ∗ slotAtoms c 2 ∗ slotAtoms c 3
    ∗ (((c : Thread nD τ).loc cc0_stg0_0) ↦{fullShare} xstg m ρ c)
    ∗ (((c : Thread nD τ).loc cc0_stg1_0) ↦{fullShare} g)
    ∗ (((c : Thread nD τ).loc cc0_scratch0) ↦{fullShare} f))

/-- From what the body obligation hands the body: `x` is staged at the device's block, `out` and the receive buffer
    hold whatever they hold. -/
theorem body_entry (c : Dev nD) : bodyPre m ρ c ⊢ iprop(∃ K g f, □ Pers m ρ K c ∗ EntrySt m ρ c g f) := by
  unfold bodyPre Φ₀
  iintro ⟨⟨Hstart, %f, Hscr⟩, Ho, ⟨%d0, %g0, %hg0, Hx⟩, ⟨%d1, %g1, %hg1, Hout⟩⟩
  have hx : g0 = xstg m ρ c := by rw [hg0]; unfold Dat.before; rw [if_pos (fetch0_0 t₀)]; rfl
  subst hx
  ihave Hs := (start_split m ρ c) $$ Hstart
  icases Hs with ⟨%K, #HP, Htb, Hpb, Hcb, S0, S1, S2, S3⟩
  unfold Dat.owesAt Pipeline.owesWithin
  icases Ho with ⟨%W, %hW, HO⟩
  iexists K, g1, f
  isplitr
  · imodintro; iexact HP
  unfold EntrySt
  isplitl [HO]; · iexists W; iexact HO
  isplitl [Htb]; · iexact Htb
  isplitl [Hpb]; · iexact Hpb
  isplitl [Hcb]; · iexact Hcb
  isplitl [S0]; · iexact S0
  isplitl [S1]; · iexact S1
  isplitl [S2]; · iexact S2
  isplitl [S3]; · iexact S3
  isplitl [Hx]; · iexact Hx
  isplitl [Hout]; · iexact Hout
  iexact Hscr

/-! ## The entry of the body: the barrier -/

/-- The four barrier signals and the barrier wait. The device hands each partner the rows of its receive buffer and of
    `out` that partner will write, and gets from each partner the same of theirs; after the wait every stream holds
    what its first phase lists. -/
theorem part5_spec (K : Dev nD × CellK → ℕ) (c : Dev nD) (g : Buf (Elt F) (((c : Dev nD) : Thread nD τ).loc cc0_stg1_0))
    (f : Buf (Elt F) (((c : Dev nD) : Thread nD τ).loc cc0_scratch0)) (v33 v65 v97 v129 v140 v158 : BitVec 32) :
    iprop(□ Pers m ρ K c ∗ EntrySt m ρ c g f)
      ⊢ wpC c (k0_part5 (Memref.whole cc0_stg0_0) (Memref.isWhole_whole _) (Memref.whole cc0_stg1_0) (Memref.isWhole_whole _)
          (Memref.whole cc0_scratch0) (Memref.isWhole_whole _) cc0_scratch1 cc0_scratch2 c v33 v65 v97 v129 v140 v158)
        (fun _ => iprop(GSt c 4 ∗ StreamSt0 m ρ c 0 g ∗ StreamSt0 m ρ c 1 g ∗ StreamSt0 m ρ c 2 g ∗ StreamSt0 m ρ c 3 g)) := by
  rw [k0_part5_eq_skeleton]; unfold k0_part5_skel
  simp only [semSignalWord, semWaitWord, Prog.lift, Prog.bind_op, Prog.bind_ret, Prog.pure_eq_ret]
  unfold EntrySt
  iintro ⟨#HP, ⟨%W, HO⟩, ⟨Ht0, Ht1, Ht2, Ht3⟩, Hpb, Hcb, S0, S1, S2, S3, Hx, Hout, Hscr⟩
  icases HP with ⟨#Hinv, #Hmarks, #Hlev⟩
  ihave HB := (entry_barPays c f g) $$ [Hscr Hout]
  · isplitl [Hscr]; · iexact Hscr
    iexact Hout
  icases HB with ⟨B0, B1, B2, B3, OH0, OH1, OH2, OH3⟩
  ihave HX := (Entails.of_eq (x_entry m ρ c)) $$ Hx
  icases HX with ⟨⟨XG0, XK0⟩, ⟨XG1, XK1⟩, ⟨XG2, XK2⟩, ⟨XG3, XK3⟩⟩
  iapply (step_signal m ρ K c 0 _ (Chains.dev1_eq c) (owedFrom_0 c)) $$ [HO Ht0 B0]
  · isplitr; · iapply (invs_bar m ρ K c 0); iexact Hinv
    isplitr; · iapply (marks_bar c 0); iexact Hmarks
    isplitl [HO]; · iexact HO
    isplitl [Ht0]; · iexact Ht0
    iexact B0
  iintro HO
  iapply (step_signal m ρ K c 1 _ (Chains.dev2_eq c) (owedFrom_1 c)) $$ [HO Ht1 B1]
  · isplitr; · iapply (invs_bar m ρ K c 1); iexact Hinv
    isplitr; · iapply (marks_bar c 1); iexact Hmarks
    isplitl [HO]; · iexact HO
    isplitl [Ht1]; · iexact Ht1
    iexact B1
  iintro HO
  iapply (step_signal m ρ K c 2 _ (Chains.dev3_eq c) (owedFrom_2 c)) $$ [HO Ht2 B2]
  · isplitr; · iapply (invs_bar m ρ K c 2); iexact Hinv
    isplitr; · iapply (marks_bar c 2); iexact Hmarks
    isplitl [HO]; · iexact HO
    isplitl [Ht2]; · iexact Ht2
    iexact B2
  iintro HO
  iapply (step_signal m ρ K c 3 _ (Chains.dev4_eq c) (owedFrom_3 c)) $$ [HO Ht3 B3]
  · isplitr; · iapply (invs_bar m ρ K c 3); iexact Hinv
    isplitr; · iapply (marks_bar c 3); iexact Hmarks
    isplitl [HO]; · iexact HO
    isplitl [Ht3]; · iexact Ht3
    iexact B3
  iintro HO
  iapply (step_wait_bar m ρ K c) $$ [Hcb Hpb HO]
  · isplitr; · iapply (invs_own m ρ K c .bar); iexact Hinv
    isplitr; · iapply (mayWait_bar c); iexact Hlev
    isplitl [Hcb]; · iexact Hcb
    isplitl [Hpb]; · iexact Hpb
    iexact HO
  iintro ⟨HO, -, -, P0, P1, P2, P3⟩
  ihave HR := (barPays_elim (F := F) c) $$ [P0 P1 P2 P3]
  · isplitl [P0]; · iexact P0
    isplitl [P1]; · iexact P1
    isplitl [P2]; · iexact P2
    iexact P3
  icases HR with ⟨⟨R00, R01, R02, R03, Q0⟩, ⟨R10, R11, R12, R13, Q1⟩, ⟨R20, R21, R22, R23, Q2⟩, ⟨R30, R31, R32, R33, Q3⟩⟩
  dsimp only [wpC]
  rw [wp_ret]
  imodintro
  isplitl [HO]; · iexists _; iexact HO
  isplitl [S0 XG0 XK0 OH0 R00 R01 R02 R03 Q0]
  · iapply (streamSt0_intro m ρ c 0 g)
    rw [own_oHalf']
    isplitl [S0]; · iexact S0
    isplitl [XG0]; · iexact XG0
    isplitl [XK0]; · iexact XK0
    isplitl [OH0]; · iexact OH0
    isplitl [R00]; · iexact R00
    isplitl [R01]; · iexact R01
    isplitl [R02]; · iexact R02
    isplitl [R03]; · iexact R03
    iexact Q0
  isplitl [S1 XG1 XK1 OH1 R10 R11 R12 R13 Q1]
  · iapply (streamSt0_intro m ρ c 1 g)
    rw [own_oHalf']
    isplitl [S1]; · iexact S1
    isplitl [XG1]; · iexact XG1
    isplitl [XK1]; · iexact XK1
    isplitl [OH1]; · iexact OH1
    isplitl [R10]; · iexact R10
    isplitl [R11]; · iexact R11
    isplitl [R12]; · iexact R12
    isplitl [R13]; · iexact R13
    iexact Q1
  isplitl [S2 XG2 XK2 OH2 R20 R21 R22 R23 Q2]
  · iapply (streamSt0_intro m ρ c 2 g)
    rw [own_oHalf']
    isplitl [S2]; · iexact S2
    isplitl [XG2]; · iexact XG2
    isplitl [XK2]; · iexact XK2
    isplitl [OH2]; · iexact OH2
    isplitl [R20]; · iexact R20
    isplitl [R21]; · iexact R21
    isplitl [R22]; · iexact R22
    isplitl [R23]; · iexact R23
    iexact Q2
  iapply (streamSt0_intro m ρ c 3 g)
  rw [own_oHalf']
  isplitl [S3]; · iexact S3
  isplitl [XG3]; · iexact XG3
  isplitl [XK3]; · iexact XK3
  isplitl [OH3]; · iexact OH3
  isplitl [R30]; · iexact R30
  isplitl [R31]; · iexact R31
  isplitl [R32]; · iexact R32
  isplitl [R33]; · iexact R33
  iexact Q3

/-- info: 'Cert.KernelIdeal.Proto.part5_spec' depends on axioms: [propext, Classical.choice, Quot.sound] -/
#guard_msgs in #print axioms part5_spec

/-- info: 'Cert.KernelIdeal.Proto.body_entry' depends on axioms: [propext, Classical.choice, Quot.sound] -/
#guard_msgs in #print axioms body_entry

end Cert.KernelIdeal.Proto

end
-- ==== Proof.Exit.lean ====
/-
  Leaving the exchange.

  When a stream's last step is done the device stands, on each of the stream's twelve own cells, at round 1 with
  nothing taken and nothing consumed; no later round has a duty, so each cell closes and hands back its counter at
  zero. What the device then holds of `out` for the stream, two halves of the share of the kept half and the other
  share of its two quarters, is the kept half whole. The four streams' pieces make up the three buffers whole.
-/
import proofs.«900484_g7700000000000485_dist_treered_v7x_i16_m512_n512_f32_1_alg».proof.Proof.Stream
import proofs.«900484_g7700000000000485_dist_treered_v7x_i16_m512_n512_f32_1_alg».proof.Proof.Tables
import proofs.«900484_g7700000000000485_dist_treered_v7x_i16_m512_n512_f32_1_alg».proof.Proof.Regions

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's own cells close -/

/-- The invariant of one of the device's own send cells, out of the invariants it holds. -/
theorem exit_inv_send (K : Dev nD × CellK → ℕ) (c : Dev nD) (s : Fin 4) (t : Fin 6) :
    invs m ρ K c ⊢ cellInv ER (cubeRd m ρ) (K (c, .send s t)) (sendCell c s t) := by
  unfold invs
  exact (BI.sep_and.trans BI.and_elimL).trans (bigSep_elim (Finset.mem_univ (CellK.send s t)))

/-- The invariant of one of its own receive cells. -/
theorem exit_inv_recv (K : Dev nD × CellK → ℕ) (c : Dev nD) (s : Fin 4) (t : Fin 6) :
    invs m ρ K c ⊢ cellInv ER (cubeRd m ρ) (K (c, .recv s t)) (recvCell c s t) := by
  unfold invs
  exact (BI.sep_and.trans BI.and_elimL).trans (bigSep_elim (Finset.mem_univ (CellK.recv s t)))

/-- A send cell at round 1, nothing taken: no round from 1 on has a duty, the cell closes, its counter reads zero. -/
theorem exit_close_send (K : Dev nD × CellK → ℕ) (c : Dev nD) (s : Fin 4) (t : Fin 6) :
    iprop(invs m ρ K c ∗ atPos ER (sendCell c s t) (0 + 1) ∅ 0) ⊢ (|={Set.univ}=> semVal (sendCell c s t) 0 : sProp 𝕄) :=
  (sep_mono (exit_inv_send m ρ K c s t) .rfl).trans
    (Rounds.cell_close ER (cubeRd m ρ) (Set.mem_univ (K (c, .send s t))) (fun h => h) (R := 0 + 1) (duties_later m ρ (sendCell c s t)))

/-- The same for a receive cell. -/
theorem exit_close_recv (K : Dev nD × CellK → ℕ) (c : Dev nD) (s : Fin 4) (t : Fin 6) :
    iprop(invs m ρ K c ∗ atPos ER (recvCell c s t) (0 + 1) ∅ 0) ⊢ (|={Set.univ}=> semVal (recvCell c s t) 0 : sProp 𝕄) :=
  (sep_mono (exit_inv_recv m ρ K c s t) .rfl).trans
    (Rounds.cell_close ER (cubeRd m ρ) (Set.mem_univ (K (c, .recv s t))) (fun h => h) (R := 0 + 1) (duties_later m ρ (recvCell c s t)))

/-! ## A stream's exit -/

/-- What a device holds of stream `s` when the stream's cells are closed. -/
def StreamEnd (c : Dev nD) (s : Fin 4) : sProp 𝕄 :=
  iprop((semVal (sendCell c s 0) 0 ∗ semVal (recvCell c s 0) 0 ∗ semVal (sendCell c s 1) 0 ∗ semVal (recvCell c s 1) 0
      ∗ semVal (sendCell c s 2) 0 ∗ semVal (recvCell c s 2) 0 ∗ semVal (sendCell c s 3) 0 ∗ semVal (recvCell c s 3) 0
      ∗ semVal (sendCell c s 4) 0 ∗ semVal (recvCell c s 4) 0 ∗ semVal (sendCell c s 5) 0 ∗ semVal (recvCell c s 5) 0)
    ∗ XG m ρ c s ∗ XK m ρ c s ∗ RV0 m ρ c s ∗ RV m ρ c s 1 (.inl rfl) ∗ RV m ρ c s 2 (.inr (.inl rfl)) ∗ RV m ρ c s 3 (.inr (.inr rfl))
    ∗ own (oHalf c s) c fullShare (outFinal m ρ c) ∗ own (oHalf (peer s 5 c) s) c fullShare (outFinal m ρ c))

/-- The stream's twelve cells close one after the other under the update; the pieces of the kept half of `out` are joined by
    `hjoin`. -/
theorem stream_exit_of (K : Dev nD × CellK → ℕ) (c : Dev nD) (s : Fin 4)
    (hjoin : iprop(own (oHalf c s) c fullShare.left.left (outFinal m ρ c) ∗ own (oHalf c s) c fullShare.left.right (outFinal m ρ c)
        ∗ own (oKeep c s) c fullShare.right (outFinal m ρ c) ∗ own (oGive c s) c fullShare.right (outFinal m ρ c))
      ⊢ (own (oHalf c s) c fullShare (outFinal m ρ c) : sProp 𝕄)) :
    iprop(□ (invs m ρ K c ∗ marks c ∗ levAts L lv) ∗ StreamSt22 m ρ c s) ⊢ (|={Set.univ}=> StreamEnd m ρ c s : sProp 𝕄) := by
  unfold StreamSt22 StreamEnd
  iintro ⟨#⟨Hinv, -, -⟩, HXK, Hr0, HRV0, Hr1, HRV1, Hs2, Hr2, HRV2, Hs3, Hr3, HRV3, Hr4, HoLL, HoG, Hr5, HoP, Hs0, HXG, Hs1, Hs4, HoK, Hs5, HoLR⟩
  imod (exit_close_send m ρ K c s 0) $$ [Hs0] with Zs0
  · isplitr; · iexact Hinv
    iexact Hs0
  imod (exit_close_recv m ρ K c s 0) $$ [Hr0] with Zr0
  · isplitr; · iexact Hinv
    iexact Hr0
  imod (exit_close_send m ρ K c s 1) $$ [Hs1] with Zs1
  · isplitr; · iexact Hinv
    iexact Hs1
  imod (exit_close_recv m ρ K c s 1) $$ [Hr1] with Zr1
  · isplitr; · iexact Hinv
    iexact Hr1
  imod (exit_close_send m ρ K c s 2) $$ [Hs2] with Zs2
  · isplitr; · iexact Hinv
    iexact Hs2
  imod (exit_close_recv m ρ K c s 2) $$ [Hr2] with Zr2
  · isplitr; · iexact Hinv
    iexact Hr2
  imod (exit_close_send m ρ K c s 3) $$ [Hs3] with Zs3
  · isplitr; · iexact Hinv
    iexact Hs3
  imod (exit_close_recv m ρ K c s 3) $$ [Hr3] with Zr3
  · isplitr; · iexact Hinv
    iexact Hr3
  imod (exit_close_send m ρ K c s 4) $$ [Hs4] with Zs4
  · isplitr; · iexact Hinv
    iexact Hs4
  imod (exit_close_recv m ρ K c s 4) $$ [Hr4] with Zr4
  · isplitr; · iexact Hinv
    iexact Hr4
  imod (exit_close_send m ρ K c s 5) $$ [Hs5] with Zs5
  · isplitr; · iexact Hinv
    iexact Hs5
  imod (exit_close_recv m ρ K c s 5) $$ [Hr5] with Zr5
  · isplitr; · iexact Hinv
    iexact Hr5
  ihave Hout := hjoin $$ [HoLL HoLR HoK HoG]
  · isplitl [HoLL]; · iexact HoLL
    isplitl [HoLR]; · iexact HoLR
    isplitl [HoK]; · iexact HoK
    iexact HoG
  imodintro
  iframe

/-! ## The body's exit -/

/-- The twenty-four slots, stream by stream. -/
theorem exit_bigSep_slot (Φ : Slot → sProp 𝕄) :
    bigSep Finset.univ Φ = iprop(Φ (0,0) ∗ Φ (0,1) ∗ Φ (0,2) ∗ Φ (0,3) ∗ Φ (0,4) ∗ Φ (0,5) ∗ Φ (1,0) ∗ Φ (1,1) ∗ Φ (1,2) ∗ Φ (1,3) ∗ Φ (1,4) ∗ Φ (1,5) ∗ Φ (2,0) ∗ Φ (2,1) ∗ Φ (2,2) ∗ Φ (2,3) ∗ Φ (2,4) ∗ Φ (2,5) ∗ Φ (3,0) ∗ Φ (3,1) ∗ Φ (3,2) ∗ Φ (3,3) ∗ Φ (3,4) ∗ Φ (3,5)) :=
  bigSep_univ_eq_bigSepL [(0,0), (0,1), (0,2), (0,3), (0,4), (0,5), (1,0), (1,1), (1,2), (1,3), (1,4), (1,5), (2,0), (2,1), (2,2), (2,3), (2,4), (2,5), (3,0), (3,1), (3,2), (3,3), (3,4), (3,5)] (by decide) (by decide) Φ

/-- The four streams' ends make up what the body returns: the forty-eight counters at zero slot by slot, and each of
    the three buffers whole, joined from the streams' pieces by `hx`, `hout`, `hrecv`. -/
theorem body_exit_of (c : Dev nD)
    (hx : iprop((XG m ρ c 0 ∗ XK m ρ c 0) ∗ (XG m ρ c 1 ∗ XK m ρ c 1) ∗ (XG m ρ c 2 ∗ XK m ρ c 2) ∗ (XG m ρ c 3 ∗ XK m ρ c 3))
      ⊢ ((((c : Thread nD τ).loc cc0_stg0_0) ↦{fullShare} xstg m ρ c) : sProp 𝕄))
    (hout : iprop((own (oHalf c 0) c fullShare (outFinal m ρ c) ∗ own (oHalf (peer 0 5 c) 0) c fullShare (outFinal m ρ c))
        ∗ (own (oHalf c 1) c fullShare (outFinal m ρ c) ∗ own (oHalf (peer 1 5 c) 1) c fullShare (outFinal m ρ c))
        ∗ (own (oHalf c 2) c fullShare (outFinal m ρ c) ∗ own (oHalf (peer 2 5 c) 2) c fullShare (outFinal m ρ c))
        ∗ (own (oHalf c 3) c fullShare (outFinal m ρ c) ∗ own (oHalf (peer 3 5 c) 3) c fullShare (outFinal m ρ c)))
      ⊢ ((((c : Thread nD τ).loc cc0_stg1_0) ↦{fullShare} outFinal m ρ c) : sProp 𝕄))
    (hrecv : iprop((RV0 m ρ c 0 ∗ RV m ρ c 0 1 (.inl rfl) ∗ RV m ρ c 0 2 (.inr (.inl rfl)) ∗ RV m ρ c 0 3 (.inr (.inr rfl)))
        ∗ (RV0 m ρ c 1 ∗ RV m ρ c 1 1 (.inl rfl) ∗ RV m ρ c 1 2 (.inr (.inl rfl)) ∗ RV m ρ c 1 3 (.inr (.inr rfl)))
        ∗ (RV0 m ρ c 2 ∗ RV m ρ c 2 1 (.inl rfl) ∗ RV m ρ c 2 2 (.inr (.inl rfl)) ∗ RV m ρ c 2 3 (.inr (.inr rfl)))
        ∗ (RV0 m ρ c 3 ∗ RV m ρ c 3 1 (.inl rfl) ∗ RV m ρ c 3 2 (.inr (.inl rfl)) ∗ RV m ρ c 3 3 (.inr (.inr rfl))))
      ⊢ ((((c : Thread nD τ).loc cc0_scratch0) ↦{fullShare} recvFinal m ρ c) : sProp 𝕄)) :
    iprop(StreamEnd m ρ c 0 ∗ StreamEnd m ρ c 1 ∗ StreamEnd m ρ c 2 ∗ StreamEnd m ρ c 3)
      ⊢ iprop(Φ₁ m ρ c ∗ (((c : Thread nD τ).loc cc0_stg0_0) ↦{fullShare} xstg m ρ c)
          ∗ (((c : Thread nD τ).loc cc0_stg1_0) ↦{fullShare} outFinal m ρ c)) := by
  unfold StreamEnd Φ₁
  rw [exit_bigSep_slot]
  iintro ⟨⟨⟨Zs00, Zr00, Zs01, Zr01, Zs02, Zr02, Zs03, Zr03, Zs04, Zr04, Zs05, Zr05⟩, HXG0, HXK0, HRa0, HRb0, HRc0, HRd0, HoH0, HoP0⟩, ⟨⟨Zs10, Zr10, Zs11, Zr11, Zs12, Zr12, Zs13, Zr13, Zs14, Zr14, Zs15, Zr15⟩, HXG1, HXK1, HRa1, HRb1, HRc1, HRd1, HoH1, HoP1⟩, ⟨⟨Zs20, Zr20, Zs21, Zr21, Zs22, Zr22, Zs23, Zr23, Zs24, Zr24, Zs25, Zr25⟩, HXG2, HXK2, HRa2, HRb2, HRc2, HRd2, HoH2, HoP2⟩, ⟨⟨Zs30, Zr30, Zs31, Zr31, Zs32, Zr32, Zs33, Zr33, Zs34, Zr34, Zs35, Zr35⟩, HXG3, HXK3, HRa3, HRb3, HRc3, HRd3, HoH3, HoP3⟩⟩
  ihave Hx := hx $$ [HXG0 HXK0 HXG1 HXK1 HXG2 HXK2 HXG3 HXK3]
  · iframe
  ihave Ho := hout $$ [HoH0 HoP0 HoH1 HoP1 HoH2 HoP2 HoH3 HoP3]
  · iframe
  ihave Hr := hrecv $$ [HRa0 HRb0 HRc0 HRd0 HRa1 HRb1 HRc1 HRd1 HRa2 HRb2 HRc2 HRd2 HRa3 HRb3 HRc3 HRd3]
  · iframe
  iframe

/-! ## With the buffers' cuts -/

theorem stream_exit (K : Dev nD × CellK → ℕ) (c : Dev nD) (s : Fin 4) :
    iprop(□ (invs m ρ K c ∗ marks c ∗ levAts L lv) ∗ StreamSt22 m ρ c s) ⊢ (|={Set.univ}=> StreamEnd m ρ c s : sProp 𝕄) :=
  stream_exit_of m ρ K c s (Entails.of_eq (oHalf_rejoin c c s fullShare (outFinal m ρ c)))

theorem body_exit (c : Dev nD) :
    iprop(StreamEnd m ρ c 0 ∗ StreamEnd m ρ c 1 ∗ StreamEnd m ρ c 2 ∗ StreamEnd m ρ c 3)
      ⊢ iprop(Φ₁ m ρ c ∗ (((c : Thread nD τ).loc cc0_stg0_0) ↦{fullShare} xstg m ρ c)
          ∗ (((c : Thread nD τ).loc cc0_stg1_0) ↦{fullShare} outFinal m ρ c)) :=
  body_exit_of m ρ c (x_exit m ρ c) (out_exit m ρ c) (recv_exit m ρ c)

/-- info: 'Cert.KernelIdeal.Proto.stream_exit' depends on axioms: [propext, Classical.choice, Quot.sound] -/
#guard_msgs in #print axioms stream_exit

/-- info: 'Cert.KernelIdeal.Proto.body_exit' depends on axioms: [propext, Classical.choice, Quot.sound] -/
#guard_msgs in #print axioms body_exit

end Cert.KernelIdeal.Proto

end
-- ==== Proof.Body.lean ====
/-
  The body of the kernel on one device, from what the pipeline hands it to what it must return.

  The printed body is 26 parts in sequence and two more send waits. Part 1 reads the device id, parts 2–4 compute
  words, part 5 is the barrier; from there every effect belongs to one of the four streams and moves that stream
  one step along its phases (PartsA–PartsD). At the end each stream's twelve cells stand consumed and are closed,
  and the pieces of the three buffers are joined again: `x` as staged, `out` at the tree sum, the receive buffer at
  what landed.
-/
import proofs.«900484_g7700000000000485_dist_treered_v7x_i16_m512_n512_f32_1_alg».proof.Proof.PartsA
import proofs.«900484_g7700000000000485_dist_treered_v7x_i16_m512_n512_f32_1_alg».proof.Proof.PartsB
import proofs.«900484_g7700000000000485_dist_treered_v7x_i16_m512_n512_f32_1_alg».proof.Proof.PartsC
import proofs.«900484_g7700000000000485_dist_treered_v7x_i16_m512_n512_f32_1_alg».proof.Proof.PartsD
import proofs.«900484_g7700000000000485_dist_treered_v7x_i16_m512_n512_f32_1_alg».proof.Proof.EntryPart
import proofs.«900484_g7700000000000485_dist_treered_v7x_i16_m512_n512_f32_1_alg».proof.Proof.Exit
import proofs.«900484_g7700000000000485_dist_treered_v7x_i16_m512_n512_f32_1_alg».proof.Proof.Waits

noncomputable section

namespace Cert.KernelIdeal.Proto

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.KernelIdeal.Chains

/-- Sequencing: a part's specification, then the rest of the program from the part's post. -/
theorem wp_seq {c : Dev nD} {α : Type} {p : Prog (TpuEff nD τ sig (Elt F) Λ₀ .tc) α} {P : sProp 𝕄} {Q : α → sProp 𝕄} {Q' : α → sProp 𝕄}
    (h : P ⊢ wpC c p Q) : iprop(P ∗ (∀ a, Q a -∗ Q' a)) ⊢ wpC c p Q' :=
  (sep_mono_left h).trans (wp_wand_r _ _ _)

/-- The first part reads the device id and computes words: it changes nothing, and names the device. -/
theorem part1_spec (c : Dev nD) (P : sProp 𝕄) :
    P ⊢ wpC c (k0_part1 (Memref.whole cc0_stg0_0) (Memref.isWhole_whole _) (Memref.whole cc0_stg1_0) (Memref.isWhole_whole _) (Memref.whole cc0_scratch0) (Memref.isWhole_whole _) cc0_scratch1 cc0_scratch2) (fun r => iprop(⌜r.1 = c⌝ ∗ P)) := by
  rw [k0_part1_eq_skeleton]; unfold k0_part1_skel
  simp only [Prog.lift, Prog.bind_op, Prog.bind_ret, Prog.pure_eq_ret, wp_deviceId, wp_ret]
  iintro H; imodintro
  isplitr; · ipureintro; trivial
  iexact H

/-- Part 2 only computes words. -/
theorem part2_spec (c : Dev nD) (P : sProp 𝕄) (v33 : BitVec 32) (v34 : BitVec 32) (v36 : BitVec 32) (v37 : BitVec 32) :
    P ⊢ wpC c (k0_part2 (Memref.whole cc0_stg0_0) (Memref.isWhole_whole _) (Memref.whole cc0_stg1_0) (Memref.isWhole_whole _) (Memref.whole cc0_scratch0) (Memref.isWhole_whole _) cc0_scratch1 cc0_scratch2 v33 v34 v36 v37) (fun _ => P) := by
  rw [k0_part2_eq_skeleton]; unfold k0_part2_skel
  simp only [Prog.lift, Prog.bind_op, Prog.bind_ret, Prog.pure_eq_ret, wp_ret]
  iintro H; imodintro; iexact H

/-- Part 3 only computes words. -/
theorem part3_spec (c : Dev nD) (P : sProp 𝕄) (v33 : BitVec 32) (v66 : BitVec 32) (v76 : BitVec 32) (c4_i32_35 : BitVec 32) (v77 : BitVec 32) :
    P ⊢ wpC c (k0_part3 (Memref.whole cc0_stg0_0) (Memref.isWhole_whole _) (Memref.whole cc0_stg1_0) (Memref.isWhole_whole _) (Memref.whole cc0_scratch0) (Memref.isWhole_whole _) cc0_scratch1 cc0_scratch2 v33 v66 v76 c4_i32_35 v77) (fun _ => P) := by
  rw [k0_part3_eq_skeleton]; unfold k0_part3_skel
  simp only [Prog.lift, Prog.bind_op, Prog.bind_ret, Prog.pure_eq_ret, wp_ret]
  iintro H; imodintro; iexact H

/-- Part 4 only computes words. -/
theorem part4_spec (c : Dev nD) (P : sProp 𝕄) (v33 : BitVec 32) (v98 : BitVec 32) (v108 : BitVec 32) (c4_i32_51 : BitVec 32) (v109 : BitVec 32) (v114 : BitVec 32) (v116 : BitVec 32) (v117 : BitVec 1) :
    P ⊢ wpC c (k0_part4 (Memref.whole cc0_stg0_0) (Memref.isWhole_whole _) (Memref.whole cc0_stg1_0) (Memref.isWhole_whole _) (Memref.whole cc0_scratch0) (Memref.isWhole_whole _) cc0_scratch1 cc0_scratch2 v33 v98 v108 c4_i32_51 v109 v114 v116 v117) (fun _ => P) := by
  rw [k0_part4_eq_skeleton]; unfold k0_part4_skel
  simp only [Prog.lift, Prog.bind_op, Prog.bind_ret, Prog.pure_eq_ret, wp_ret]
  iintro H; imodintro; iexact H

/-- The first 25 parts and the four send waits that follow them: from the entry state to every stream's last
    phases but for the two send waits of the root. -/
theorem part26_spec (K : Dev nD × CellK → ℕ) (c : Dev nD) (g : Buf (Elt F) (((c : Dev nD) : Thread nD τ).loc cc0_stg1_0)) (f : Buf (Elt F) (((c : Dev nD) : Thread nD τ).loc cc0_scratch0)) :
    iprop(□ Pers m ρ K c ∗ EntrySt m ρ c g f)
      ⊢ wpC c (k0_part26 (Memref.whole cc0_stg0_0) (Memref.isWhole_whole _) (Memref.whole cc0_stg1_0) (Memref.isWhole_whole _) (Memref.whole cc0_scratch0) (Memref.isWhole_whole _) cc0_scratch1 cc0_scratch2) (fun d0 => iprop(⌜d0 = c⌝ ∗ GSt c 28 ∗ StreamSt22 m ρ c 0 ∗ StreamSt22 m ρ c 1 ∗ StreamSt21 m ρ c 2 ∗ StreamSt21 m ρ c 3)) := by
  rw [k0_part26_eq_skeleton]; unfold k0_part26_skel
  simp only [wp_bind]
  iintro ⟨#HP, HE⟩
  iapply (wp_seq (part1_spec c (EntrySt m ρ c g f)))
  isplitl [HE]; · iexact HE
  iintro %a1 ⟨%h1, HE⟩
  obtain ⟨d0, v33, v34, v36, v37⟩ := a1
  simp only at h1; subst h1
  iapply (wp_seq (part2_spec d0 (EntrySt m ρ d0 g f) _ _ _ _))
  isplitl [HE]; · iexact HE
  iintro %a2 HE
  iapply (wp_seq (part3_spec d0 (EntrySt m ρ d0 g f) _ _ _ _ _))
  isplitl [HE]; · iexact HE
  iintro %a3 HE
  iapply (wp_seq (part4_spec d0 (EntrySt m ρ d0 g f) _ _ _ _ _ _ _ _))
  isplitl [HE]; · iexact HE
  iintro %a4 HE
  iapply (wp_seq (part5_spec m ρ K d0 g f _ _ _ _ _ _))
  isplitl [HE]
  · isplitr; · iexact HP
    iexact HE
  iintro %a5 ⟨HG, H0, H1, H2, H3⟩
  iapply (wp_seq (part6_spec m ρ K d0 g g g g _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a6 ⟨HG, H0, H1, H2, H3⟩
  iapply (wp_seq (part7_spec m ρ K d0 g g g g _ _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a7 ⟨%h7, HG, H0, H1, H2, H3⟩
  iapply (wp_seq (part8_spec m ρ K d0 g g g g _ _ _ _ _ h7))
  isplitl [HG H0 H1 H2 H3]
  · isplitr; · iexact HP
    isplitl [HG]; · iexact HG
    isplitl [H0]; · iexact H0
    isplitl [H1]; · iexact H1
    isplitl [H2]; · iexact H2
    iexact H3
  iintro %a8 ⟨%h8, HG, H0, H1, H2, H3⟩
  iapply (wp_seq (part9_spec m ρ K d0 g g g g _ _ _ _ _ _ _ h8))
  isplitl [HG H0 H1 H2 H3]
  · isplitr; · iexact HP
    isplitl [HG]; · iexact HG
    isplitl [H0]; · iexact H0
    isplitl [H1]; · iexact H1
    isplitl [H2]; · iexact H2
    iexact H3
  iintro %a9 ⟨HG, H0, H1, H2, H3⟩
  iapply (wp_seq (part10_spec m ρ K d0 g g g g _ _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a10 ⟨HG, H0, H1, H2, H3⟩
  iapply (wp_seq (part11_spec m ρ K d0 g g g g _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a11 ⟨HG, H0, H1, H2, H3⟩
  iapply (wp_seq (part12_spec m ρ K d0 g g g g _ _ _))
  isplitl [HG H0 H1 H2 H3]
  · isplitr; · iexact HP
    isplitl [HG]; · iexact HG
    isplitl [H0]; · iexact H0
    isplitl [H1]; · iexact H1
    isplitl [H2]; · iexact H2
    iexact H3
  iintro %a12 ⟨%h12, HG, H0, H1, H2, H3⟩
  iapply (wp_seq (part13_spec m ρ K d0 g g g g _ _ _ _ _ h12))
  isplitl [HG H0 H1 H2 H3]
  · isplitr; · iexact HP
    isplitl [HG]; · iexact HG
    isplitl [H0]; · iexact H0
    isplitl [H1]; · iexact H1
    isplitl [H2]; · iexact H2
    iexact H3
  iintro %a13 ⟨HG, H0, H1, H2, H3⟩
  iapply (wp_seq (part14_spec m ρ K d0 g g g g _ _ _))
  isplitl [HG H0 H1 H2 H3]
  · isplitr; · iexact HP
    isplitl [HG]; · iexact HG
    isplitl [H0]; · iexact H0
    isplitl [H1]; · iexact H1
    isplitl [H2]; · iexact H2
    iexact H3
  iintro %a14 ⟨HG, H0, H1, H2, H3⟩
  iapply (wp_seq (part15_spec m ρ K d0 g g g g _ _ _))
  isplitl [HG H0 H1 H2 H3]
  · isplitr; · iexact HP
    isplitl [HG]; · iexact HG
    isplitl [H0]; · iexact H0
    isplitl [H1]; · iexact H1
    isplitl [H2]; · iexact H2
    iexact H3
  iintro %a15 ⟨HG, H0, H1, H2, H3⟩
  iapply (wp_seq (part16_spec m ρ K d0 g g g g _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a16 ⟨HG, H0, H1, H2, H3⟩
  iapply (wp_seq (part17_spec m ρ K d0 g g g g _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a17 ⟨%h17, HG, H0, H1, H2, H3⟩
  iapply (wp_seq (part18_spec m ρ K d0 g g g g _ _ _ _ _ h17))
  isplitl [HG H0 H1 H2 H3]
  · isplitr; · iexact HP
    isplitl [HG]; · iexact HG
    isplitl [H0]; · iexact H0
    isplitl [H1]; · iexact H1
    isplitl [H2]; · iexact H2
    iexact H3
  iintro %a18 ⟨%h18, HG, H0, H1, H2, H3⟩
  iapply (wp_seq (part19_spec m ρ K d0 g g g g _ _ _ _ _ h18))
  isplitl [HG H0 H1 H2 H3]
  · isplitr; · iexact HP
    isplitl [HG]; · iexact HG
    isplitl [H0]; · iexact H0
    isplitl [H1]; · iexact H1
    isplitl [H2]; · iexact H2
    iexact H3
  iintro %a19 ⟨HG, H0, H1, H2, H3⟩
  iapply (wp_seq (part20_spec m ρ K d0 g g g g _ _ _))
  isplitl [HG H0 H1 H2 H3]
  · isplitr; · iexact HP
    isplitl [HG]; · iexact HG
    isplitl [H0]; · iexact H0
    isplitl [H1]; · iexact H1
    isplitl [H2]; · iexact H2
    iexact H3
  iintro %a20 ⟨HG, H0, H1, H2, H3⟩
  iapply (wp_seq (part21_spec m ρ K d0 g g g g _ _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a21 ⟨HG, H0, H1, H2, H3⟩
  iapply (wp_seq (part22_spec m ρ K d0 g g g g _ _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a22 ⟨HG, H0, H1, H2, H3⟩
  iapply (wp_seq (part23_spec m ρ K d0 g g g g _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a23 ⟨HG, H0, H1, H2, H3⟩
  iapply (wp_seq (part24_spec m ρ K d0 g g g g ))
  isplitl [HG H0 H1 H2 H3]
  · isplitr; · iexact HP
    isplitl [HG]; · iexact HG
    isplitl [H0]; · iexact H0
    isplitl [H1]; · iexact H1
    isplitl [H2]; · iexact H2
    iexact H3
  iintro %a24 ⟨HG, H0, H1, H2, H3⟩
  iapply (wp_seq (part25_spec m ρ K d0 g g g g ))
  isplitl [HG H0 H1 H2 H3]
  · isplitr; · iexact HP
    isplitl [HG]; · iexact HG
    isplitl [H0]; · iexact H0
    isplitl [H1]; · iexact H1
    isplitl [H2]; · iexact H2
    iexact H3
  iintro %a25 ⟨HG, H0, H1, H2, H3⟩
  try simp only [Prog.lift]
  iapply (tr_WAITS4 m ρ K d0 2 g 28) $$ [HG H2]
  · isplitr; · iexact HP
    isplitl [HG]; · iexact HG
    iexact H2
  iintro ⟨HG, H2⟩
  simp only [wp_ret]; imodintro
  try simp only [Prog.lift]
  iapply (tr_WAITS4 m ρ K d0 3 g 28) $$ [HG H3]
  · isplitr; · iexact HP
    isplitl [HG]; · iexact HG
    iexact H3
  iintro ⟨HG, H3⟩
  simp only [wp_ret]; imodintro
  try simp only [Prog.lift]
  iapply (tr_WAITS5 m ρ K d0 0 g 28) $$ [HG H0]
  · isplitr; · iexact HP
    isplitl [HG]; · iexact HG
    iexact H0
  iintro ⟨HG, H0⟩
  simp only [wp_ret]; imodintro
  try simp only [Prog.lift]
  iapply (tr_WAITS5 m ρ K d0 1 g 28) $$ [HG H1]
  · isplitr; · iexact HP
    isplitl [HG]; · iexact HG
    iexact H1
  iintro ⟨HG, H1⟩
  simp only [wp_ret]; imodintro
  simp only [Prog.pure_eq_ret, wp_ret]; imodintro
  isplitr; · ipureintro; trivial
  isplitl [HG]; · iexact HG
  isplitl [H0]; · iexact H0
  isplitl [H1]; · iexact H1
  isplitl [H2]; · iexact H2
  iexact H3

/-- The whole body from the entry state: the 26 parts, the last two send waits, then the four streams' cells
    closed and the three buffers rejoined. -/
theorem body_run (K : Dev nD × CellK → ℕ) (c : Dev nD) (g : Buf (Elt F) (((c : Dev nD) : Thread nD τ).loc cc0_stg1_0)) (f : Buf (Elt F) (((c : Dev nD) : Thread nD τ).loc cc0_scratch0)) :
    iprop(□ Pers m ρ K c ∗ EntrySt m ρ c g f)
      ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c) := by
  rw [cc0_body_eq_skeleton]; unfold cc0_body_skel
  simp only [wp_bind]
  iintro ⟨#HP, HE⟩
  iapply (wp_seq (part26_spec m ρ K c g f))
  isplitl [HE]
  · isplitr; · iexact HP
    iexact HE
  iintro %d0 ⟨%hd, HG, H0, H1, H2, H3⟩
  subst hd
  try simp only [Prog.lift]
  iapply (tr_WAITS5 m ρ K d0 2 g 28) $$ [HG H2]
  · isplitr; · iexact HP
    isplitl [HG]; · iexact HG
    iexact H2
  iintro ⟨HG, H2⟩
  simp only [wp_ret]; imodintro
  try simp only [Prog.lift]
  iapply (tr_WAITS5 m ρ K d0 3 g 28) $$ [HG H3]
  · isplitr; · iexact HP
    isplitl [HG]; · iexact HG
    iexact H3
  iintro ⟨HG, H3⟩
  simp only [wp_ret]; imodintro
  simp only [Prog.pure_eq_ret, wp_ret]
  imod (stream_exit m ρ K d0 0) $$ [H0] with E0
  · isplitr; · iexact HP
    iexact H0
  imod (stream_exit m ρ K d0 1) $$ [H1] with E1
  · isplitr; · iexact HP
    iexact H1
  imod (stream_exit m ρ K d0 2) $$ [H2] with E2
  · isplitr; · iexact HP
    iexact H2
  imod (stream_exit m ρ K d0 3) $$ [H3] with E3
  · isplitr; · iexact HP
    iexact H3
  imodintro
  ihave HX := (body_exit m ρ d0) $$ [E0 E1 E2 E3]
  · isplitl [E0]; · iexact E0
    isplitl [E1]; · iexact E1
    isplitl [E2]; · iexact E2
    iexact E3
  icases HX with ⟨HΦ, Hx, Hout⟩
  unfold bodyPost Dat.owesAt Pipeline.owesWithin
  rw [show (dats m ρ 0 d0).owed t₀.succ = 0 from rfl]
  isplitl [HΦ]; · iexact HΦ
  isplitl [HG]
  · icases HG with ⟨%W, HO⟩
    rw [owedFrom_28]
    iexists W
    isplitr; · ipureintro; exact fun _ _ => Or.inl trivial
    iexact HO
  isplitl [Hx]
  · iexists _; isplitr; · (ipureintro; rfl)
    iexact Hx
  iexists _; isplitr; · (ipureintro; rfl)
  iexact Hout

/-- The body obligation's run: from what the pipeline hands the body to what it must return. -/
theorem sound_body (c : Dev nD) :
    bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c) := by
  refine (body_entry m ρ c).trans ?_
  iintro ⟨%K, %g, %f, HPE⟩
  iapply (body_run m ρ K c g f)
  iexact HPE

/-- info: 'Cert.KernelIdeal.Proto.sound_body' depends on axioms: [propext, Classical.choice, Quot.sound] -/
#guard_msgs in #print axioms sound_body

end Cert.KernelIdeal.Proto

end
-- ==== Proof.Bits.Sched.lean ====
/-
  The exchange protocol of the tree reduction, as a schedule of the rounds discipline.

  Sixteen devices, a four-dimensional hypercube (Cube.lean). Stream `s` (rows `128 s ..`) runs six slots; slot `t`
  goes along dimension `dimOf s (slotDim t)` with `slotDim = 0, 1, 2, 3, 1, 0`:
    slot 0  sends the half of the stream's rows of `x` the device does not keep into the partner's receive buffer,
            and the device adds what it receives to the half it keeps (into `out`);
    slot 1  the same with quarters, out of `out`; the source rows travel to the partner WITH the landing, because
            slot 4 of the partner overwrites them before the sender has waited for its own send;
    slots 2, 3  exchange the kept quarter whole and add;
    slot 4  sends the kept quarter into the partner's `out` (the rows the partner gave away in slot 1);
    slot 5  sends the kept half into the partner's `out` (the rows the partner never touched).
  Every semaphore cell has one round. A device's barrier cell has four duties, one per dimension, paid by the
  partner along it; duty `b` hands over what the device will write into on that partner: the partner's receive
  rows of the slots that go along `b`, and the half of the partner's `out` rows slot 5 fills.
  A send or receive cell `(s, t)` has the one duty `0`.
-/
import proofs.«900484_g7700000000000485_dist_treered_v7x_i16_m512_n512_f32_1_alg».proof.Proof.Gen.Kernel.Frame
import proofs.«900484_g7700000000000485_dist_treered_v7x_i16_m512_n512_f32_1_alg».proof.Proof.Cube
import Idealize.ShloMosaic.Lib.Pipeline.Launch
import Idealize.ShloMosaic.Lib.Pipeline.Kit
import Idealize.ShloMosaic.Lib.Tactic
import Idealize.ShloMosaic.Lib.ValueIdx
import Idealize.ShloMosaic.Lib.Pipeline.Value

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Slots, cells -/

/-- The dimension position slot `t` uses: 0, 1, 2, 3, 1, 0. -/
def slotDim (t : Fin 6) : Fin 4 := match t with | 0 => 0 | 1 => 1 | 2 => 2 | 3 => 3 | 4 => 1 | 5 => 0
/-- The dimension slot `t` of stream `s` goes along. -/
def dimAt (s : Fin 4) (t : Fin 6) : Fin 4 := dimOf s (slotDim t)
/-- The device slot `t` of stream `s` exchanges with. -/
def peer (s : Fin 4) (t : Fin 6) (c : Dev nD) : Dev nD := partner (dimAt s t) c

abbrev xM : Memref sig .tc .vmem S1x512x512 .f32 := Memref.whole cc0_stg0_0
abbrev oM : Memref sig .tc .vmem S512x512 .f32 := Memref.whole cc0_stg1_0
abbrev rM : Memref sig .tc .vmem S640x512 .f32 := Memref.whole cc0_scratch0

/-- The runtime's barrier semaphore of collective id 0 (unscoped). -/
abbrev barS : Sem sig := (SemArray.scalar (sig.barrier 0 rfl) : Sems sig S_).sem
/-- Send and receive DMA semaphores of slot `t` of stream `s`: entries `6 s + t` of the two scratch arrays. -/
def sendQ (s : Fin 4) (t : Fin 6) : DmaSem sig := ⟨2 + (6 * s.val + t.val), by have := s.isLt; have := t.isLt; show _ < 50; omega⟩
def recvQ (s : Fin 4) (t : Fin 6) : DmaSem sig := ⟨26 + (6 * s.val + t.val), by have := s.isLt; have := t.isLt; show _ < 50; omega⟩

abbrev barCell (c : Dev nD) : GSem nD τ sig := ((c : Thread nD τ), .reg barS)
abbrev sendCell (c : Dev nD) (s : Fin 4) (t : Fin 6) : GSem nD τ sig := ((c : Thread nD τ), .dma (sendQ s t))
abbrev recvCell (c : Dev nD) (s : Fin 4) (t : Fin 6) : GSem nD τ sig := ((c : Thread nD τ), .dma (recvQ s t))

/-- What a semaphore is to the protocol. -/
inductive Kind
  | bar
  | send (s : Fin 4) (t : Fin 6)
  | recv (s : Fin 4) (t : Fin 6)
  | other
  deriving DecidableEq

def kindOf : SemLoc sig → Kind
  | .reg _ => .bar
  | .dma q =>
      if h : 2 ≤ q.val ∧ q.val < 26 then .send ⟨(q.val - 2) / 6, by omega⟩ ⟨(q.val - 2) % 6, Nat.mod_lt _ (by decide)⟩
      else if h' : 26 ≤ q.val ∧ q.val < 50 then .recv ⟨(q.val - 26) / 6, by omega⟩ ⟨(q.val - 26) % 6, Nat.mod_lt _ (by decide)⟩
      else .other

theorem kindOf_send : ∀ (s : Fin 4) (t : Fin 6), kindOf (.dma (sendQ s t)) = .send s t := by decide
theorem kindOf_recv : ∀ (s : Fin 4) (t : Fin 6), kindOf (.dma (recvQ s t)) = .recv s t := by decide
theorem kindOf_bar (q : Sem sig) : kindOf (.reg q) = .bar := rfl

/-! ## Contents -/

/-- Device `d`'s block of `x` as its staging buffer holds it. -/
def xstg (d : Dev nD) : (cc0_stg0_0 : Ref sig .tc).ty.Contents (Elt F) :=
  (win0_0.blk (0 : Fin 1)).view.read (Elt F) ((s₀ m ρ).mem ((d : Thread nD τ).loc main_arg0))

/-- Entry `(R, l)` on device `d` after `k` exchange steps of the stream row `R` belongs to. -/
def lvl (k : Nat) (d : Dev nD) (R : Fin 512) (l : Fin 512) : Elt F (.f32 : EltTy) :=
  acc (fun a b => FloatOps.addf (F := F) a b) (fun d' => xstg m ρ d' (ValueIdx.ix3 (0 : Fin 1) R l))
    ⟨R.val / 128, by have := R.isLt; omega⟩ k d

/-- The whole `out`-shaped array of level `k` of device `d`. -/
def outLvl (k : Nat) (d : Dev nD) : (cc0_stg1_0 : Ref sig .tc).ty.Contents (Elt F) := fun i => lvl m ρ k d (i 0) (i 1)

/-! ## The rows a slot moves, as views of the three buffers

Stated through the printed offset functions of the device (`k0_offJ c` at stream `s`'s literal arguments), so that
each unrolled transfer of the body is an instance by unfolding. -/

section Views
variable (c : Dev nD) (s : Fin 4)

/-- The half of stream `s`'s rows of `x` device `c` gives away in slot 0 (64 rows). -/
abbrev xGive : Memref sig .tc .vmem S64x512 .f32 :=
  ((xM.slice (Rect.unit (s := S1x512x512) (k0_off1 c (k0_off1_at s).1 (k0_off1_at s).2) S1x64x512.size (k0_off1_inb c s)) (fun _ => rfl)).squeeze S64x512 squeezes_S1x64x512_S64x512)
/-- The half it keeps, in `out` (64 rows: the rows slot 0 stores, slot 5 sends). -/
abbrev oHalf : Memref sig .tc .vmem S64x512 .f32 :=
  oM.slice (Rect.unit (s := S512x512) (k0_off7 c (k0_off7_at s).1 (k0_off7_at s).2.1 (k0_off7_at s).2.2) S64x512.size (k0_off7_inb c s)) (fun _ => rfl)
/-- The quarter of `out` it gives away in slot 1 (32 rows). -/
abbrev oGive : Memref sig .tc .vmem S32x512 .f32 :=
  oM.slice (Rect.unit (s := S512x512) (k0_off4 c (k0_off4_at s).1 (k0_off4_at s).2.1 (k0_off4_at s).2.2) S32x512.size (k0_off4_inb c s)) (fun _ => rfl)
/-- The quarter it keeps (32 rows: slots 2, 3, 4 send it). -/
abbrev oKeep : Memref sig .tc .vmem S32x512 .f32 :=
  oM.slice (Rect.unit (s := S512x512) (k0_off6 c (k0_off6_at s).1 (k0_off6_at s).2.1 (k0_off6_at s).2.2) S32x512.size (k0_off6_inb c s)) (fun _ => rfl)

end Views

/-- The first receive row of slot `t` (`t < 4`) of stream `s`: 160 s + 0, 64, 96, 128. -/
def rRow (s : Fin 4) (t : Fin 6) : Nat := 160 * s.val + (match t with | 0 => 0 | 1 => 64 | 2 => 96 | 3 => 128 | _ => 0)

theorem rRow64_inb (s : Fin 4) : ∀ a, (![rRow s 0, 0] : Fin 2 → Nat) a + S64x512.size a ≤ S640x512.size a := by
  revert s; decide
theorem rRow32_inb (s : Fin 4) (t : Fin 6) (ht : t = 1 ∨ t = 2 ∨ t = 3) : ∀ a, (![rRow s t, 0] : Fin 2 → Nat) a + S32x512.size a ≤ S640x512.size a := by
  revert s t; decide

/-- The receive rows of slot 0 (64 rows) and of slots 1, 2, 3 (32 rows). -/
abbrev rSlot0 (s : Fin 4) : Memref sig .tc .vmem S64x512 .f32 :=
  rM.slice (Rect.unit (s := S640x512) ![rRow s 0, 0] S64x512.size (rRow64_inb s)) (fun _ => rfl)
abbrev rSlot (s : Fin 4) (t : Fin 6) (ht : t = 1 ∨ t = 2 ∨ t = 3) : Memref sig .tc .vmem S32x512 .f32 :=
  rM.slice (Rect.unit (s := S640x512) ![rRow s t, 0] S32x512.size (rRow32_inb s t ht)) (fun _ => rfl)

/-- What the receive buffer of device `c` holds in the end: slot `t` of stream `s` holds the level-`t` rows of the
    partner along the slot's dimension, at the rows `c` keeps. -/
def recvFinal (c : Dev nD) : (cc0_scratch0 : Ref sig .tc).ty.Contents (Elt F) := fun i =>
  let ρr : Nat := (i 0).val
  let s : Fin 4 := ⟨ρr / 160, by have h640 : (i 0).val < 640 := (i 0).isLt; omega⟩
  let o : Nat := ρr % 160
  let t : Fin 6 := if o < 64 then 0 else if o < 96 then 1 else if o < 128 then 2 else 3
  let R : Nat := 128 * s.val + 64 * lbit (dimOf s 0) c + (if o < 64 then o else 32 * lbit (dimOf s 1) c + (o - 64) % 32)
  if h : R < 512 then lvl m ρ t.val (peer s t c) ⟨R, h⟩ (i 1) else lvl m ρ 0 c ⟨0, by decide⟩ (i 1)

/-- The amount a transfer of `n` rows credits: the view's own count. -/
abbrev N64 : ℕ := (rSlot0 0).view.dmaCredit
abbrev N32 : ℕ := (rSlot 0 1 (.inl rfl)).view.dmaCredit
theorem N64_pos : 0 < N64 := View.dmaCredit_pos _ (by decide)
theorem N32_pos : 0 < N32 := View.dmaCredit_pos _ (by decide)

/-- The credit of slot `t`: slots 0 and 5 move 64 rows, the others 32. -/
def slotN (t : Fin 6) : ℕ := if t = 0 ∨ t = 5 then N64 else N32
theorem slotN_pos (t : Fin 6) : 0 < slotN t := by unfold slotN; split; exact N64_pos; exact N32_pos

/-- What `out` of device `c` holds in the end: every row at level 4 of the device of `c`'s square that kept it. -/
def outFinal (c : Dev nD) : (cc0_stg1_0 : Ref sig .tc).ty.Contents (Elt F) := fun i =>
  lvl m ρ 4 (owner ⟨(i 0).val / 128, by have h512 : (i 0).val < 512 := (i 0).isLt; omega⟩ c ((i 0).val % 128)) (i 0) (i 1)

/-! ## The payloads

`own M c q f`: device `c` holds the rows of view `M` of its buffer at share `q` with contents `f`. -/

abbrev own {sh : Shape} (M : Memref sig .tc .vmem sh .f32) (c : Dev nD) (q : PosShare TreeShare)
    (f : Buf (Elt F) (M.view.loc (c : Thread nD τ))) : sProp 𝕄 :=
  M.view.loc (c : Thread nD τ) ↦[M.view.set]{q} f

/-- What landing of slot `t` of stream `s` hands device `c` (the owner of the receive cell): the rows written, at their
    final contents; in slot 1 also the rows of the SENDER's `out` the transfer read (they come back with the landing). -/
def recvPay (c : Dev nD) (s : Fin 4) (t : Fin 6) : sProp 𝕄 :=
  match t with
  | 0 => own (rSlot0 s) c fullShare (recvFinal m ρ c)
  | 1 => iprop(own (rSlot s 1 (.inl rfl)) c fullShare (recvFinal m ρ c)
               ∗ own (oGive (peer s 1 c) s) (peer s 1 c) fullShare (outLvl m ρ 1 (peer s 1 c)))
  | 2 => own (rSlot s 2 (.inr (.inl rfl))) c fullShare (recvFinal m ρ c)
  | 3 => own (rSlot s 3 (.inr (.inr rfl))) c fullShare (recvFinal m ρ c)
  | 4 => own (oKeep (peer s 4 c) s) c fullShare (outFinal m ρ c)
  | 5 => own (oHalf (peer s 5 c) s) c fullShare (outFinal m ρ c)

/-- What the send cell of slot `t` hands back to its own device: the source rows (nothing in slot 1). Slots 4 and 5
    read overlapping rows while both are pending, so they lend halves of shares. -/
def sendPay (c : Dev nD) (s : Fin 4) (t : Fin 6) : sProp 𝕄 :=
  match t with
  | 0 => own (xGive c s) c fullShare (xstg m ρ c)
  | 1 => iprop(emp)
  | 2 => own (oKeep c s) c fullShare (outLvl m ρ 2 c)
  | 3 => own (oKeep c s) c fullShare (outLvl m ρ 3 c)
  | 4 => own (oKeep c s) c fullShare.right (outFinal m ρ c)
  | 5 => own (oHalf c s) c fullShare.left.right (outFinal m ρ c)

/-- What the partner `p` along dimension `b` hands device `c` at the barrier: the rows of `p`'s buffers `c` will write
    — the receive rows of the four slots that go along `b` (slot `k` of stream `dimOf b k`) and the half of stream `b`'s
    rows of `p`'s `out` that slot 5 fills —, at whatever they hold. -/
def barPay (c : Dev nD) (b : Fin 4) : sProp 𝕄 :=
  iprop((∃ f, own (rSlot0 (dimOf b 0)) (partner b c) fullShare f)
      ∗ (∃ f, own (rSlot (dimOf b 1) 1 (.inl rfl)) (partner b c) fullShare f)
      ∗ (∃ f, own (rSlot (dimOf b 2) 2 (.inr (.inl rfl))) (partner b c) fullShare f)
      ∗ (∃ f, own (rSlot (dimOf b 3) 3 (.inr (.inr rfl))) (partner b c) fullShare f)
      ∗ (∃ f, own (oHalf c b) (partner b c) fullShare f))

/-! ## The schedule: one round per cell -/

def cubeRd : Rounds.Schedule (GSem nD τ sig) (Fin 4) 𝕄 where
  duties g r := if r = 0 ∧ g.1.2 = .tc then
      (match kindOf g.2 with | .bar => Finset.univ | .send _ _ => {0} | .recv _ _ => {0} | .other => ∅) else ∅
  unitless _ := False
  amount g _ _ := match kindOf g.2 with | .bar => 1 | .send _ t => slotN t | .recv _ t => slotN t | .other => 1
  payload g _ d := match kindOf g.2 with
    | .bar => barPay g.1.1 d
    | .send s t => sendPay m ρ g.1.1 s t
    | .recv s t => recvPay m ρ g.1.1 s t
    | .other => iprop(emp)
  amount_pos g _ _ _ := by
    cases kindOf g.2 with
    | bar => exact Nat.one_pos
    | send _ t => exact slotN_pos t
    | recv _ t => exact slotN_pos t
    | other => exact Nat.one_pos

end Cert.Kernel.Proto

end
-- ==== Proof.Bits.Data.lean ====
/-
  The proof data of the exchange: what each device holds when its body starts and ends, what it owes in the order
  it pays, and the levels that order the waits.

  A device pays, in program order: one unit to each partner's barrier cell (dimensions 0, 1, 2, 3), then one
  transfer per slot, slots in the order (0, s) for s = 0..3, then (1, s), …, (5, s), each to the receive cell of the
  same slot on the partner along the slot's dimension. A barrier cell sits at level 1, the receive cell of slot
  `t` of stream `s` at level `2 + 4 t + s`: when a device waits on a receive cell it has issued every transfer of
  a lower level, so a wait is always below what the waiter still owes.
-/
import proofs.«900484_g7700000000000485_dist_treered_v7x_i16_m512_n512_f32_1_alg».proof.Proof.Bits.Sched
import Mathlib.Tactic.DeriveFintype

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells, indexed -/

/-- A device's 49 cells: its barrier cell, and a send and a receive cell per slot. -/
inductive CellK
  | bar
  | send (s : Fin 4) (t : Fin 6)
  | recv (s : Fin 4) (t : Fin 6)
  deriving DecidableEq, Fintype

def csem : CellK → SemLoc sig
  | .bar => .reg barS
  | .send s t => .dma (sendQ s t)
  | .recv s t => .dma (recvQ s t)

abbrev kcell (ck : Dev nD × CellK) : GSem nD τ sig := ((ck.1 : Thread nD τ), csem ck.2)

/-- A slot: stream and position. -/
abbrev Slot : Type := Fin 4 × Fin 6

/-! ## What a device owes, in the order it pays -/

/-- The slots in the order their transfers are issued. -/
def slotOrder : List Slot :=
  [(0,0),(1,0),(2,0),(3,0), (0,1),(1,1),(2,1),(3,1), (0,2),(1,2),(2,2),(3,2),
   (0,3),(1,3),(2,3),(3,3), (0,4),(1,4),(2,4),(3,4), (0,5),(1,5),(2,5),(3,5)]

/-- Device `c`'s payments in program order: the cell paid and the amount. -/
def pays (c : Dev nD) : List (GSem nD τ sig × ℕ) :=
  [(barCell (partner 0 c), 1), (barCell (partner 1 c), 1), (barCell (partner 2 c), 1), (barCell (partner 3 c), 1)]
    ++ slotOrder.map fun st => (recvCell (peer st.1 st.2 c) st.1 st.2, slotN st.2)

/-- What device `c` still owes when it has made its first `k` payments. -/
def owedFrom (c : Dev nD) (k : ℕ) : CellTallies nD τ sig Unit :=
  ((pays c).drop k).foldr (fun p acc => acc + tallyAt p.1 () p.2) 0

/-- What it owes at launch. -/
def O₀ (c : Dev nD) : CellTallies nD τ sig Unit := owedFrom c 0

def L (g : GSem nD τ sig) : Finset Unit := if g.1.2 = .tc then {()} else ∅
/-- Barrier cells at 1, the receive cell of slot `t` of stream `s` at `2 + 4 t + s`, everything else at 0. -/
def lv (g : GSem nD τ sig) (_ : Unit) : ℕ :=
  match kindOf g.2 with | .bar => 1 | .recv s t => 2 + 4 * t.val + s.val | _ => 0

/-! ## The ghost state a device's body starts from -/

/-- The invariants of the cells device `c`'s body opens, at the names `K`: its own 49, its four partners' barrier
    cells, and the receive cell of each slot on the slot's partner. -/
def invs (K : Dev nD × CellK → ℕ) (c : Dev nD) : sProp 𝕄 :=
  iprop((bigSep Finset.univ fun k : CellK => cellInv ER (cubeRd m ρ) (K (c, k)) (kcell (c, k)))
    ∗ (bigSep Finset.univ fun b : Fin 4 => cellInv ER (cubeRd m ρ) (K (partner b c, .bar)) (barCell (partner b c)))
    ∗ (bigSep Finset.univ fun st : Slot => cellInv ER (cubeRd m ρ) (K (peer st.1 st.2 c, .recv st.1 st.2)) (recvCell (peer st.1 st.2 c) st.1 st.2)))

instance invs_persistent (K : Dev nD × CellK → ℕ) (c : Dev nD) : BI.Persistent (invs m ρ K c) := by unfold invs; infer_instance

/-- That every cell the device pays, and each of its own, is at round 0. -/
def marks (c : Dev nD) : sProp 𝕄 :=
  iprop((bigSep Finset.univ fun k : CellK => reached ER (kcell (c, k)) 0)
    ∗ (bigSep Finset.univ fun b : Fin 4 => reached ER (barCell (partner b c)) 0)
    ∗ (bigSep Finset.univ fun st : Slot => reached ER (recvCell (peer st.1 st.2 c) st.1 st.2) 0))

instance marks_persistent (c : Dev nD) : BI.Persistent (marks (F := F) c) := by unfold marks; infer_instance

/-- The duty tokens device `c` pays with: duty `b` of the barrier cell of its partner along `b`; the one duty of the
    receive cell of each slot on the slot's partner; the one duty of each of its own send cells. -/
def payToks (c : Dev nD) : sProp 𝕄 :=
  iprop((bigSep Finset.univ fun b : Fin 4 => dutyTok ER (barCell (partner b c)) 0 b)
    ∗ (bigSep Finset.univ fun st : Slot => dutyTok ER (recvCell (peer st.1 st.2 c) st.1 st.2) 0 (0 : Fin 4))
    ∗ (bigSep Finset.univ fun st : Slot => dutyTok ER (sendCell c st.1 st.2) 0 (0 : Fin 4)))

/-- Its positions: round 0, nothing taken, of each of its own cells. -/
def positions (c : Dev nD) : sProp 𝕄 := bigSep Finset.univ fun k : CellK => atPos ER (kcell (c, k)) 0 ∅ 0

def ghost (K : Dev nD × CellK → ℕ) (c : Dev nD) : sProp 𝕄 :=
  iprop(invs m ρ K c ∗ marks c ∗ positions c ∗ payToks c)

/-- The launch credit of its own cells that others pay: the barrier's four units and each receive cell's amount. -/
def creds (c : Dev nD) : sProp 𝕄 :=
  iprop(cred (tallyAt (barCell c) () 4) ∗ bigSep Finset.univ fun st : Slot => cred (tallyAt (recvCell c st.1 st.2) () (slotN st.2)))

/-- What the body starts from besides its buffers. -/
def start (c : Dev nD) : sProp 𝕄 := iprop((∃ K, ghost m ρ K c) ∗ creds c ∗ levAts L lv)

/-- Before the point: that, and the receive buffer whole at whatever it holds. -/
def Φ₀ (c : Dev nD) : sProp 𝕄 := iprop(start m ρ c ∗ ∃ f, (((c : Thread nD τ).loc cc0_scratch0) ↦{fullShare} f))
/-- After it: the receive buffer whole at its final contents, and the 48 own cells closed, their counters at zero. -/
def Φ₁ (c : Dev nD) : sProp 𝕄 :=
  iprop((((c : Thread nD τ).loc cc0_scratch0) ↦{fullShare} recvFinal m ρ c)
    ∗ bigSep Finset.univ fun st : Slot => iprop(semVal (sendCell c st.1 st.2) 0 ∗ semVal (recvCell c st.1 st.2) 0))

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outFinal m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands the body. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it must return. -/
def bodyPost (c : Dev nD) : sProp 𝕄 :=
  iprop(Φ₁ m ρ c ∗ (dats m ρ 0 c).owesAt () t₀.succ ∗ stg c cc0_stg0_0 (xstg m ρ c) ∗ stg c cc0_stg1_0 (outFinal m ρ c))

end Cert.Kernel.Proto

end
-- ==== Proof.Bits.Tables.lean ====
/-
  The tables of the exchange schedule, cell by cell.

  Each device has one barrier cell (four duties of one unit, one per dimension of the cube) and, for each of the
  twenty-four (stream, slot) pairs, a send cell and a receive cell (one duty, of the slot's credit). Every cell has the
  single round 0. Here: the duties, amounts, expected totals and payloads of each kind of cell as rewrite rules, the
  rest of a round no duty of which has been taken, that the semaphores of different cells differ, and the spelling of
  the forty-eight transfer semaphores as entries of the two semaphore arrays.
-/
import proofs.«900484_g7700000000000485_dist_treered_v7x_i16_m512_n512_f32_1_alg».proof.Proof.Bits.Sched

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Every payload can be stored in an invariant -/

omit [FloatOps F] in
/-- A region of a buffer held at a share with given contents can be stored, whatever the view. -/
theorem own_storable {sh : Shape} (M : Memref sig .tc .vmem sh .f32) (c : Dev nD) (q : PosShare TreeShare)
    (f : Buf (Elt F) (M.view.loc (c : Thread nD τ))) : BI.Storable (upEmb : UEmb _ 𝕄) (own M c q f) := inferInstance

omit [FloatOps F] in
/-- The same at some contents. -/
theorem ownEx_storable {sh : Shape} (M : Memref sig .tc .vmem sh .f32) (c : Dev nD) (q : PosShare TreeShare) :
    BI.Storable (upEmb : UEmb _ 𝕄) iprop(∃ f, own (F := F) M c q f) := inferInstance

omit [FloatOps F] in
theorem sep_storable {P Q : sProp 𝕄} (hP : BI.Storable (upEmb : UEmb _ 𝕄) P) (hQ : BI.Storable (upEmb : UEmb _ 𝕄) Q) :
    BI.Storable (upEmb : UEmb _ 𝕄) iprop(P ∗ Q) := inferInstance

omit [FloatOps F] in
instance barPay_storable (c : Dev nD) (b : Fin 4) : BI.Storable (upEmb : UEmb _ 𝕄) (barPay (F := F) c b) := by
  unfold barPay
  exact sep_storable (ownEx_storable _ _ _) (sep_storable (ownEx_storable _ _ _) (sep_storable (ownEx_storable _ _ _)
    (sep_storable (ownEx_storable _ _ _) (ownEx_storable _ _ _))))

instance sendPay_storable (c : Dev nD) (s : Fin 4) (t : Fin 6) : BI.Storable (upEmb : UEmb _ 𝕄) (sendPay (F := F) m ρ c s t) := by
  unfold sendPay
  split
  · exact own_storable _ _ _ _
  · infer_instance
  · exact own_storable _ _ _ _
  · exact own_storable _ _ _ _
  · exact own_storable _ _ _ _
  · exact own_storable _ _ _ _

instance recvPay_storable (c : Dev nD) (s : Fin 4) (t : Fin 6) : BI.Storable (upEmb : UEmb _ 𝕄) (recvPay (F := F) m ρ c s t) := by
  unfold recvPay
  split
  · exact own_storable _ _ _ _
  · exact sep_storable (own_storable _ _ _ _) (own_storable _ _ _ _)
  · exact own_storable _ _ _ _
  · exact own_storable _ _ _ _
  · exact own_storable _ _ _ _
  · exact own_storable _ _ _ _

instance payload_storable (g : GSem nD τ sig) (r : ℕ) (d : Fin 4) :
    BI.Storable (upEmb : UEmb _ 𝕄) ((cubeRd (F := F) m ρ).payload g r d) := by
  show BI.Storable upEmb (match kindOf g.2 with
    | .bar => barPay g.1.1 d
    | .send s t => sendPay m ρ g.1.1 s t
    | .recv s t => recvPay m ρ g.1.1 s t
    | .other => iprop(emp))
  split
  · exact barPay_storable _ _
  · exact sendPay_storable m ρ _ _ _
  · exact recvPay_storable m ρ _ _ _
  · infer_instance

/-! ## The semaphores of different cells differ -/

theorem send_ne_recv (s : Fin 4) (t : Fin 6) (s' : Fin 4) (t' : Fin 6) : (SemLoc.dma (sendQ s t) : SemLoc sig) ≠ .dma (recvQ s' t') := by
  revert s t s' t'; decide
theorem recv_ne_send (s : Fin 4) (t : Fin 6) (s' : Fin 4) (t' : Fin 6) : (SemLoc.dma (recvQ s t) : SemLoc sig) ≠ .dma (sendQ s' t') := by
  revert s t s' t'; decide
theorem sendQ_inj (s : Fin 4) (t : Fin 6) (s' : Fin 4) (t' : Fin 6) : sendQ s t = sendQ s' t' → s = s' ∧ t = t' := by
  revert s t s' t'; decide
theorem recvQ_inj (s : Fin 4) (t : Fin 6) (s' : Fin 4) (t' : Fin 6) : recvQ s t = recvQ s' t' → s = s' ∧ t = t' := by
  revert s t s' t'; decide
theorem dma_ne_bar (q : DmaSem sig) : (SemLoc.dma q : SemLoc sig) ≠ .reg barS := fun h => by cases h

/-! ## Duties -/

section Sched

theorem duties_bar (c : Dev nD) : (cubeRd (F := F) m ρ).duties (barCell c) 0 = Finset.univ := by
  dsimp only [cubeRd]; exact if_pos ⟨rfl, rfl⟩
theorem duties_send (c : Dev nD) (s : Fin 4) (t : Fin 6) : (cubeRd (F := F) m ρ).duties (sendCell c s t) 0 = {0} := by
  dsimp only [cubeRd]; rw [kindOf_send]; exact if_pos ⟨rfl, rfl⟩
theorem duties_recv (c : Dev nD) (s : Fin 4) (t : Fin 6) : (cubeRd (F := F) m ρ).duties (recvCell c s t) 0 = {0} := by
  dsimp only [cubeRd]; rw [kindOf_recv]; exact if_pos ⟨rfl, rfl⟩
theorem duties_later (g : GSem nD τ sig) : ∀ r, 1 ≤ r → (cubeRd (F := F) m ρ).duties g r = ∅ :=
  fun r hr => by dsimp only [cubeRd]; rw [if_neg fun h => by omega]

/-! ## Amounts and expected totals -/

theorem amount_bar (c : Dev nD) (d : Fin 4) : (cubeRd (F := F) m ρ).amount (barCell c) 0 d = 1 := rfl
theorem amount_send (c : Dev nD) (s : Fin 4) (t : Fin 6) (d : Fin 4) : (cubeRd (F := F) m ρ).amount (sendCell c s t) 0 d = slotN t := by
  dsimp only [cubeRd]; rw [kindOf_send]
theorem amount_recv (c : Dev nD) (s : Fin 4) (t : Fin 6) (d : Fin 4) : (cubeRd (F := F) m ρ).amount (recvCell c s t) 0 d = slotN t := by
  dsimp only [cubeRd]; rw [kindOf_recv]

theorem expect_bar (c : Dev nD) : (cubeRd (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_send (c : Dev nD) (s : Fin 4) (t : Fin 6) : (cubeRd (F := F) m ρ).expect (sendCell c s t) 0 = slotN t := by
  unfold Schedule.expect Schedule.amountOf; rw [duties_send, Finset.sum_singleton, amount_send]
theorem expect_recv (c : Dev nD) (s : Fin 4) (t : Fin 6) : (cubeRd (F := F) m ρ).expect (recvCell c s t) 0 = slotN t := by
  unfold Schedule.expect Schedule.amountOf; rw [duties_recv, Finset.sum_singleton, amount_recv]

/-! ## Payloads -/

theorem payload_bar (c : Dev nD) (d : Fin 4) : (cubeRd (F := F) m ρ).payload (barCell c) 0 d = barPay c d := rfl
theorem payload_send (c : Dev nD) (s : Fin 4) (t : Fin 6) (d : Fin 4) : (cubeRd (F := F) m ρ).payload (sendCell c s t) 0 d = sendPay m ρ c s t := by
  dsimp only [cubeRd]; rw [kindOf_send]
theorem payload_recv (c : Dev nD) (s : Fin 4) (t : Fin 6) (d : Fin 4) : (cubeRd (F := F) m ρ).payload (recvCell c s t) 0 d = recvPay m ρ c s t := by
  dsimp only [cubeRd]; rw [kindOf_recv]

/-! ## The rest of a round of which no duty has been taken -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The barrier cell's round, no duty taken: the four partners' payloads. -/
theorem rest_bar (c : Dev nD) : bigSep ((cubeRd (F := F) m ρ).duties (barCell c) 0 \ ∅) (fun d => (cubeRd (F := F) m ρ).payload (barCell c) 0 d)
    = iprop(barPay c 0 ∗ barPay c 1 ∗ barPay c 2 ∗ barPay c 3) := by
  rw [Finset.sdiff_empty, duties_bar, bigSep_fin4]
  rfl
theorem rest_send (c : Dev nD) (s : Fin 4) (t : Fin 6) : bigSep ((cubeRd (F := F) m ρ).duties (sendCell c s t) 0 \ ∅) (fun d => (cubeRd (F := F) m ρ).payload (sendCell c s t) 0 d)
    = sendPay m ρ c s t := by
  rw [Finset.sdiff_empty, duties_send, bigSep_singleton, payload_send]
theorem rest_recv (c : Dev nD) (s : Fin 4) (t : Fin 6) : bigSep ((cubeRd (F := F) m ρ).duties (recvCell c s t) 0 \ ∅) (fun d => (cubeRd (F := F) m ρ).payload (recvCell c s t) 0 d)
    = recvPay m ρ c s t := by
  rw [Finset.sdiff_empty, duties_recv, bigSep_singleton, payload_recv]

end Sched

/-! ## The transfer semaphores as the body spells them

Entry `6 s + t` of the first semaphore array is the send semaphore of slot `t` of stream `s`, the same entry of the
second array the receive semaphore. The extent of the one-entry slice is written out (`![1]`, the size of the shape
of one entry); with the shape's size named instead it is the same term up to unfolding. -/

theorem sendSem_eq_0 : ((cc0_scratch1.slice (Rect.unit (s := S24) ![0] ![1] inb_S24_S1_0)).squeeze S_ squeezes_S1_S_).sem = sendQ 0 0 := by decide
theorem sendSem_eq_1 : ((cc0_scratch1.slice (Rect.unit (s := S24) ![1] ![1] inb_S24_S1_1)).squeeze S_ squeezes_S1_S_).sem = sendQ 0 1 := by decide
theorem sendSem_eq_2 : ((cc0_scratch1.slice (Rect.unit (s := S24) ![2] ![1] inb_S24_S1_2)).squeeze S_ squeezes_S1_S_).sem = sendQ 0 2 := by decide
theorem sendSem_eq_3 : ((cc0_scratch1.slice (Rect.unit (s := S24) ![3] ![1] inb_S24_S1_3)).squeeze S_ squeezes_S1_S_).sem = sendQ 0 3 := by decide
theorem sendSem_eq_4 : ((cc0_scratch1.slice (Rect.unit (s := S24) ![4] ![1] inb_S24_S1_4)).squeeze S_ squeezes_S1_S_).sem = sendQ 0 4 := by decide
theorem sendSem_eq_5 : ((cc0_scratch1.slice (Rect.unit (s := S24) ![5] ![1] inb_S24_S1_5)).squeeze S_ squeezes_S1_S_).sem = sendQ 0 5 := by decide
theorem sendSem_eq_6 : ((cc0_scratch1.slice (Rect.unit (s := S24) ![6] ![1] inb_S24_S1_6)).squeeze S_ squeezes_S1_S_).sem = sendQ 1 0 := by decide
theorem sendSem_eq_7 : ((cc0_scratch1.slice (Rect.unit (s := S24) ![7] ![1] inb_S24_S1_7)).squeeze S_ squeezes_S1_S_).sem = sendQ 1 1 := by decide
theorem sendSem_eq_8 : ((cc0_scratch1.slice (Rect.unit (s := S24) ![8] ![1] inb_S24_S1_8)).squeeze S_ squeezes_S1_S_).sem = sendQ 1 2 := by decide
theorem sendSem_eq_9 : ((cc0_scratch1.slice (Rect.unit (s := S24) ![9] ![1] inb_S24_S1_9)).squeeze S_ squeezes_S1_S_).sem = sendQ 1 3 := by decide
theorem sendSem_eq_10 : ((cc0_scratch1.slice (Rect.unit (s := S24) ![10] ![1] inb_S24_S1_10)).squeeze S_ squeezes_S1_S_).sem = sendQ 1 4 := by decide
theorem sendSem_eq_11 : ((cc0_scratch1.slice (Rect.unit (s := S24) ![11] ![1] inb_S24_S1_11)).squeeze S_ squeezes_S1_S_).sem = sendQ 1 5 := by decide
theorem sendSem_eq_12 : ((cc0_scratch1.slice (Rect.unit (s := S24) ![12] ![1] inb_S24_S1_12)).squeeze S_ squeezes_S1_S_).sem = sendQ 2 0 := by decide
theorem sendSem_eq_13 : ((cc0_scratch1.slice (Rect.unit (s := S24) ![13] ![1] inb_S24_S1_13)).squeeze S_ squeezes_S1_S_).sem = sendQ 2 1 := by decide
theorem sendSem_eq_14 : ((cc0_scratch1.slice (Rect.unit (s := S24) ![14] ![1] inb_S24_S1_14)).squeeze S_ squeezes_S1_S_).sem = sendQ 2 2 := by decide
theorem sendSem_eq_15 : ((cc0_scratch1.slice (Rect.unit (s := S24) ![15] ![1] inb_S24_S1_15)).squeeze S_ squeezes_S1_S_).sem = sendQ 2 3 := by decide
theorem sendSem_eq_16 : ((cc0_scratch1.slice (Rect.unit (s := S24) ![16] ![1] inb_S24_S1_16)).squeeze S_ squeezes_S1_S_).sem = sendQ 2 4 := by decide
theorem sendSem_eq_17 : ((cc0_scratch1.slice (Rect.unit (s := S24) ![17] ![1] inb_S24_S1_17)).squeeze S_ squeezes_S1_S_).sem = sendQ 2 5 := by decide
theorem sendSem_eq_18 : ((cc0_scratch1.slice (Rect.unit (s := S24) ![18] ![1] inb_S24_S1_18)).squeeze S_ squeezes_S1_S_).sem = sendQ 3 0 := by decide
theorem sendSem_eq_19 : ((cc0_scratch1.slice (Rect.unit (s := S24) ![19] ![1] inb_S24_S1_19)).squeeze S_ squeezes_S1_S_).sem = sendQ 3 1 := by decide
theorem sendSem_eq_20 : ((cc0_scratch1.slice (Rect.unit (s := S24) ![20] ![1] inb_S24_S1_20)).squeeze S_ squeezes_S1_S_).sem = sendQ 3 2 := by decide
theorem sendSem_eq_21 : ((cc0_scratch1.slice (Rect.unit (s := S24) ![21] ![1] inb_S24_S1_21)).squeeze S_ squeezes_S1_S_).sem = sendQ 3 3 := by decide
theorem sendSem_eq_22 : ((cc0_scratch1.slice (Rect.unit (s := S24) ![22] ![1] inb_S24_S1_22)).squeeze S_ squeezes_S1_S_).sem = sendQ 3 4 := by decide
theorem sendSem_eq_23 : ((cc0_scratch1.slice (Rect.unit (s := S24) ![23] ![1] inb_S24_S1_23)).squeeze S_ squeezes_S1_S_).sem = sendQ 3 5 := by decide

theorem recvSem_eq_0 : ((cc0_scratch2.slice (Rect.unit (s := S24) ![0] ![1] inb_S24_S1_0)).squeeze S_ squeezes_S1_S_).sem = recvQ 0 0 := by decide
theorem recvSem_eq_1 : ((cc0_scratch2.slice (Rect.unit (s := S24) ![1] ![1] inb_S24_S1_1)).squeeze S_ squeezes_S1_S_).sem = recvQ 0 1 := by decide
theorem recvSem_eq_2 : ((cc0_scratch2.slice (Rect.unit (s := S24) ![2] ![1] inb_S24_S1_2)).squeeze S_ squeezes_S1_S_).sem = recvQ 0 2 := by decide
theorem recvSem_eq_3 : ((cc0_scratch2.slice (Rect.unit (s := S24) ![3] ![1] inb_S24_S1_3)).squeeze S_ squeezes_S1_S_).sem = recvQ 0 3 := by decide
theorem recvSem_eq_4 : ((cc0_scratch2.slice (Rect.unit (s := S24) ![4] ![1] inb_S24_S1_4)).squeeze S_ squeezes_S1_S_).sem = recvQ 0 4 := by decide
theorem recvSem_eq_5 : ((cc0_scratch2.slice (Rect.unit (s := S24) ![5] ![1] inb_S24_S1_5)).squeeze S_ squeezes_S1_S_).sem = recvQ 0 5 := by decide
theorem recvSem_eq_6 : ((cc0_scratch2.slice (Rect.unit (s := S24) ![6] ![1] inb_S24_S1_6)).squeeze S_ squeezes_S1_S_).sem = recvQ 1 0 := by decide
theorem recvSem_eq_7 : ((cc0_scratch2.slice (Rect.unit (s := S24) ![7] ![1] inb_S24_S1_7)).squeeze S_ squeezes_S1_S_).sem = recvQ 1 1 := by decide
theorem recvSem_eq_8 : ((cc0_scratch2.slice (Rect.unit (s := S24) ![8] ![1] inb_S24_S1_8)).squeeze S_ squeezes_S1_S_).sem = recvQ 1 2 := by decide
theorem recvSem_eq_9 : ((cc0_scratch2.slice (Rect.unit (s := S24) ![9] ![1] inb_S24_S1_9)).squeeze S_ squeezes_S1_S_).sem = recvQ 1 3 := by decide
theorem recvSem_eq_10 : ((cc0_scratch2.slice (Rect.unit (s := S24) ![10] ![1] inb_S24_S1_10)).squeeze S_ squeezes_S1_S_).sem = recvQ 1 4 := by decide
theorem recvSem_eq_11 : ((cc0_scratch2.slice (Rect.unit (s := S24) ![11] ![1] inb_S24_S1_11)).squeeze S_ squeezes_S1_S_).sem = recvQ 1 5 := by decide
theorem recvSem_eq_12 : ((cc0_scratch2.slice (Rect.unit (s := S24) ![12] ![1] inb_S24_S1_12)).squeeze S_ squeezes_S1_S_).sem = recvQ 2 0 := by decide
theorem recvSem_eq_13 : ((cc0_scratch2.slice (Rect.unit (s := S24) ![13] ![1] inb_S24_S1_13)).squeeze S_ squeezes_S1_S_).sem = recvQ 2 1 := by decide
theorem recvSem_eq_14 : ((cc0_scratch2.slice (Rect.unit (s := S24) ![14] ![1] inb_S24_S1_14)).squeeze S_ squeezes_S1_S_).sem = recvQ 2 2 := by decide
theorem recvSem_eq_15 : ((cc0_scratch2.slice (Rect.unit (s := S24) ![15] ![1] inb_S24_S1_15)).squeeze S_ squeezes_S1_S_).sem = recvQ 2 3 := by decide
theorem recvSem_eq_16 : ((cc0_scratch2.slice (Rect.unit (s := S24) ![16] ![1] inb_S24_S1_16)).squeeze S_ squeezes_S1_S_).sem = recvQ 2 4 := by decide
theorem recvSem_eq_17 : ((cc0_scratch2.slice (Rect.unit (s := S24) ![17] ![1] inb_S24_S1_17)).squeeze S_ squeezes_S1_S_).sem = recvQ 2 5 := by decide
theorem recvSem_eq_18 : ((cc0_scratch2.slice (Rect.unit (s := S24) ![18] ![1] inb_S24_S1_18)).squeeze S_ squeezes_S1_S_).sem = recvQ 3 0 := by decide
theorem recvSem_eq_19 : ((cc0_scratch2.slice (Rect.unit (s := S24) ![19] ![1] inb_S24_S1_19)).squeeze S_ squeezes_S1_S_).sem = recvQ 3 1 := by decide
theorem recvSem_eq_20 : ((cc0_scratch2.slice (Rect.unit (s := S24) ![20] ![1] inb_S24_S1_20)).squeeze S_ squeezes_S1_S_).sem = recvQ 3 2 := by decide
theorem recvSem_eq_21 : ((cc0_scratch2.slice (Rect.unit (s := S24) ![21] ![1] inb_S24_S1_21)).squeeze S_ squeezes_S1_S_).sem = recvQ 3 3 := by decide
theorem recvSem_eq_22 : ((cc0_scratch2.slice (Rect.unit (s := S24) ![22] ![1] inb_S24_S1_22)).squeeze S_ squeezes_S1_S_).sem = recvQ 3 4 := by decide
theorem recvSem_eq_23 : ((cc0_scratch2.slice (Rect.unit (s := S24) ![23] ![1] inb_S24_S1_23)).squeeze S_ squeezes_S1_S_).sem = recvQ 3 5 := by decide

/-- info: 'Cert.Kernel.Proto.payload_storable' depends on axioms: [propext, Classical.choice, Quot.sound] -/
#guard_msgs in #print axioms payload_storable

/-- info: 'Cert.Kernel.Proto.rest_bar' depends on axioms: [propext, Classical.choice, Quot.sound] -/
#guard_msgs in #print axioms rest_bar

end Cert.Kernel.Proto

end
-- ==== Proof.Bits.Launch.lean ====
/-
  The launch of the exchange: from the body obligation of every device to the run of the whole program.

  The launch element funds, for each of the sixteen devices, its forty-nine cells (the barrier cell, a send and a
  receive cell per slot) at round 0 and one token per duty: four for the barrier cell, one for each send and each
  receive cell. A token is held by the device that PAYS the duty: duty `b` of a barrier cell by the partner along
  `b`, the duty of the receive cell of slot `t` of stream `s` by the partner along the slot's dimension, the duty of
  a send cell by its own device. Both maps are involutions of the devices, so dealing the tokens is a reindexing.
  The launch credit of a cell is what all devices together owe it: four units at a barrier cell (one from each
  partner), the slot's amount at a receive cell (from the slot's partner alone).
-/
import proofs.«900484_g7700000000000485_dist_treered_v7x_i16_m512_n512_f32_1_alg».proof.Proof.Bits.Data
import proofs.«900484_g7700000000000485_dist_treered_v7x_i16_m512_n512_f32_1_alg».proof.Proof.Bits.Tables

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! Everything up to the run is set-up of the launch; it lives in its own namespace. -/
namespace LaunchSetup

/-! ## The kernel's own semaphores, and the cells indexed -/

/-- The scoped semaphores the body names besides the staging ones: a send and a receive semaphore per slot. -/
abbrev osem : Slot ⊕ Slot → SemLoc sig :=
  Sum.elim (fun st => .dma (sendQ st.1 st.2)) (fun st => .dma (recvQ st.1 st.2))

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CellK → SemLoc sig) := by
  intro k k' h
  cases k with
  | bar =>
    cases k' with
    | bar => rfl
    | send s' t' => exact absurd h.symm (dma_ne_bar _)
    | recv s' t' => exact absurd h.symm (dma_ne_bar _)
  | send s t =>
    cases k' with
    | bar => exact absurd h (dma_ne_bar _)
    | send s' t' => obtain ⟨rfl, rfl⟩ := sendQ_inj s t s' t' (SemLoc.dma.inj h); rfl
    | recv s' t' => exact absurd h (send_ne_recv s t s' t')
  | recv s t =>
    cases k' with
    | bar => exact absurd h (dma_ne_bar _)
    | send s' t' => exact absurd h (recv_ne_send s t s' t')
    | recv s' t' => obtain ⟨rfl, rfl⟩ := recvQ_inj s t s' t' (SemLoc.dma.inj h); rfl

theorem kcell_injective : Function.Injective (kcell : Dev nD × CellK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's forty-nine cells. -/
def cubeCells : Finset (GSem nD τ sig) := Finset.univ.map ⟨kcell, kcell_injective⟩

/-- The cells of one device as a sum: the barrier cell, the send cells, the receive cells. -/
def cellEquiv : Unit ⊕ (Slot ⊕ Slot) ≃ CellK where
  toFun := fun
    | .inl _ => .bar
    | .inr (.inl st) => .send st.1 st.2
    | .inr (.inr st) => .recv st.1 st.2
  invFun := fun
    | .bar => .inl ()
    | .send s t => .inr (.inl (s, t))
    | .recv s t => .inr (.inr (s, t))
  left_inv := by rintro (_ | _ | _) <;> rfl
  right_inv := by rintro (_ | _ | _) <;> rfl

omit [FloatOps F] in
/-- A conjunction over a device's cells, kind by kind. -/
theorem bigSep_cellK (Φ : CellK → sProp 𝕄) :
    bigSep Finset.univ Φ = iprop(Φ .bar ∗ (bigSep Finset.univ fun st : Slot => Φ (.send st.1 st.2))
      ∗ (bigSep Finset.univ fun st : Slot => Φ (.recv st.1 st.2))) := by
  rw [bigSep_univ_equiv cellEquiv Φ, bigSep_univ_sum, bigSep_univ_sum, bigSep_univ_of_subsingleton ()]
  rfl

/-! ## The duty tokens as minted -/

/-- The duties of one device's cells: the barrier cell's four, one per send cell, one per receive cell. -/
abbrev TokK : Type := Fin 4 ⊕ (Slot ⊕ Slot)

abbrev tokOf (cj : Dev nD × TokK) : GSem nD τ sig × ℕ × Fin 4 := match cj.2 with
  | .inl b => (barCell cj.1, 0, b)
  | .inr (.inl st) => (sendCell cj.1 st.1 st.2, 0, 0)
  | .inr (.inr st) => (recvCell cj.1 st.1 st.2, 0, 0)

theorem tokOf_injective : Function.Injective (tokOf : Dev nD × TokK → GSem nD τ sig × ℕ × Fin 4) := by
  rintro ⟨c, j⟩ ⟨c', j'⟩ h
  have h1 : c = c' := by
    have := congrArg (fun x : GSem nD τ sig × ℕ × Fin 4 => x.1.1.1) h
    rcases j with b | st | st <;> rcases j' with b' | st' | st' <;> exact this
  subst h1
  have hs := congrArg (fun x : GSem nD τ sig × ℕ × Fin 4 => x.1.2) h
  have hd := congrArg (fun x : GSem nD τ sig × ℕ × Fin 4 => x.2.2) h
  rcases j with b | st | st <;> rcases j' with b' | st' | st'
  · have hb : b = b' := hd
    subst hb; rfl
  · exact absurd hs.symm (dma_ne_bar _)
  · exact absurd hs.symm (dma_ne_bar _)
  · exact absurd hs (dma_ne_bar _)
  · have hq := sendQ_inj st.1 st.2 st'.1 st'.2 (SemLoc.dma.inj hs)
    have hst : st = st' := Prod.ext hq.1 hq.2
    subst hst; rfl
  · exact absurd hs (send_ne_recv _ _ _ _)
  · exact absurd hs (dma_ne_bar _)
  · exact absurd hs (recv_ne_send _ _ _ _)
  · have hq := recvQ_inj st.1 st.2 st'.1 st'.2 (SemLoc.dma.inj hs)
    have hst : st = st' := Prod.ext hq.1 hq.2
    subst hst; rfl

def cubeToks : Finset (GSem nD τ sig × ℕ × Fin 4) := Finset.univ.map ⟨tokOf, tokOf_injective⟩

/-- The launch element: the pipeline's own beside the protocol's. -/
def u₀ : UU :=
  (initOf (Pipeline.cells cfgs cellOf_inj) (Pipeline.launchToks cfgs cellOf_inj), initOf cubeCells cubeToks)

/-- The duty tokens of device `c`'s own cells. -/
def toks (c : Dev nD) : sProp 𝕄 :=
  iprop((bigSep Finset.univ fun b : Fin 4 => dutyTok ER (barCell c) 0 b)
    ∗ (bigSep Finset.univ fun st : Slot => dutyTok ER (sendCell c st.1 st.2) 0 (0 : Fin 4))
    ∗ (bigSep Finset.univ fun st : Slot => dutyTok ER (recvCell c st.1 st.2) 0 (0 : Fin 4)))

/-- What the launch element deals device `c`. -/
def G (c : Dev nD) : sProp 𝕄 :=
  iprop((bigSep Finset.univ fun k : CellK => roundState ER (cubeRd m ρ) (kcell (c, k)) 0)
    ∗ (bigSep Finset.univ fun k : CellK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_cube : BI.own (ER (initOf cubeCells cubeToks)) ⊢ (|==> bigSep Finset.univ (G m ρ) : sProp 𝕄) := by
  have hX (Φ : GSem nD τ sig → sProp 𝕄) : bigSep cubeCells Φ = bigSep Finset.univ fun c : Dev nD => bigSep Finset.univ fun k : CellK => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum, bigSep_univ_sum]; rfl
  iintro HX
  imod (Rounds.fund ER (cubeRd m ρ) cubeCells cubeToks) $$ HX with ⟨Hst, Hr, Hat, Htok⟩
  imodintro
  ihave Hst' := (Entails.of_eq (hX fun g => roundState ER (cubeRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the cells' invariants allocated, the tokens dealt to the devices that pay -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun st : Slot => semVal (sendCell c st.1 st.2) 0) ∗ (bigSep Finset.univ fun st : Slot => semVal (recvCell c st.1 st.2) 0)) := by
  unfold Pipeline.ownSems0; rw [bigSep_univ_sum]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellK => semVal (kcell (c, k)) 0 : sProp 𝕄) := by
  rw [ownSems0_eq, unscopedSems0_eq, bigSep_cellK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellK => iprop(∃ κ : ℕ, cellInv ER (cubeRd m ρ) κ (kcell (c, k))))
          ∗ (bigSep Finset.univ fun k : CellK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellK => semVal (kcell (c, k)) 0) ∗ bigSep Finset.univ fun k : CellK => roundState ER (cubeRd m ρ) (kcell (c, k)) 0)
      ⊢ (|={Set.univ}=> bigSep Finset.univ fun k : CellK => iprop(∃ κ : ℕ, cellInv ER (cubeRd m ρ) κ (kcell (c, k))) : sProp 𝕄) from by
        rw [← bigSep_sep']
        exact (bigSep_mono fun k _ => (Rounds.body_intro ER (cubeRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all the cells at the names `K`, and that each is at round 0. -/
def records (K : Dev nD × CellK → ℕ) : sProp 𝕄 :=
  iprop((bigSep Finset.univ fun ck : Dev nD × CellK => cellInv ER (cubeRd m ρ) (K ck) (kcell ck))
    ∗ bigSep Finset.univ fun ck : Dev nD × CellK => reached ER (kcell ck) 0)

instance records_persistent (K : Dev nD × CellK → ℕ) : BI.Persistent (records m ρ K) := by unfold records; infer_instance

theorem inv_at (K : Dev nD × CellK → ℕ) (ck : Dev nD × CellK) :
    (bigSep Finset.univ fun ck : Dev nD × CellK => (cellInv ER (cubeRd m ρ) (K ck) (kcell ck) : sProp 𝕄)) ⊢ cellInv ER (cubeRd m ρ) (K ck) (kcell ck) :=
  bigSep_elim (Finset.mem_univ ck)
omit [FloatOps F] in
theorem reached_at (ck : Dev nD × CellK) :
    (bigSep Finset.univ fun ck : Dev nD × CellK => (reached ER (kcell ck) 0 : sProp 𝕄)) ⊢ reached ER (kcell ck) 0 :=
  bigSep_elim (Finset.mem_univ ck)

/-- Every invariant a device's body opens is one of the records. -/
theorem invs_intro (K : Dev nD × CellK → ℕ) (c : Dev nD) :
    (bigSep Finset.univ fun ck : Dev nD × CellK => (cellInv ER (cubeRd m ρ) (K ck) (kcell ck) : sProp 𝕄)) ⊢ invs m ρ K c := by
  unfold invs
  iintro #HI
  isplitr
  · iapply (show (bigSep Finset.univ fun ck : Dev nD × CellK => (cellInv ER (cubeRd m ρ) (K ck) (kcell ck) : sProp 𝕄))
        ⊢ bigSep Finset.univ fun k : CellK => cellInv ER (cubeRd m ρ) (K (c, k)) (kcell (c, k))
      from BI.bigSep_intro_persistent fun k _ => inv_at m ρ K (c, k))
    iexact HI
  isplitr
  · iapply (show (bigSep Finset.univ fun ck : Dev nD × CellK => (cellInv ER (cubeRd m ρ) (K ck) (kcell ck) : sProp 𝕄))
        ⊢ bigSep Finset.univ fun b : Fin 4 => cellInv ER (cubeRd m ρ) (K (partner b c, .bar)) (barCell (partner b c))
      from BI.bigSep_intro_persistent fun b _ => inv_at m ρ K (partner b c, .bar))
    iexact HI
  · iapply (show (bigSep Finset.univ fun ck : Dev nD × CellK => (cellInv ER (cubeRd m ρ) (K ck) (kcell ck) : sProp 𝕄))
        ⊢ bigSep Finset.univ fun st : Slot => cellInv ER (cubeRd m ρ) (K (peer st.1 st.2 c, .recv st.1 st.2)) (recvCell (peer st.1 st.2 c) st.1 st.2)
      from BI.bigSep_intro_persistent fun st _ => inv_at m ρ K (peer st.1 st.2 c, .recv st.1 st.2))
    iexact HI

omit [FloatOps F] in
/-- Likewise the round-0 marks. -/
theorem marks_intro (c : Dev nD) :
    (bigSep Finset.univ fun ck : Dev nD × CellK => (reached ER (kcell ck) 0 : sProp 𝕄)) ⊢ marks c := by
  unfold marks
  iintro #HR
  isplitr
  · iapply (show (bigSep Finset.univ fun ck : Dev nD × CellK => (reached ER (kcell ck) 0 : sProp 𝕄))
        ⊢ bigSep Finset.univ fun k : CellK => reached ER (kcell (c, k)) 0
      from BI.bigSep_intro_persistent fun k _ => reached_at (F := F) (c, k))
    iexact HR
  isplitr
  · iapply (show (bigSep Finset.univ fun ck : Dev nD × CellK => (reached ER (kcell ck) 0 : sProp 𝕄))
        ⊢ bigSep Finset.univ fun b : Fin 4 => reached ER (barCell (partner b c)) 0
      from BI.bigSep_intro_persistent fun b _ => reached_at (F := F) (partner b c, .bar))
    iexact HR
  · iapply (show (bigSep Finset.univ fun ck : Dev nD × CellK => (reached ER (kcell ck) 0 : sProp 𝕄))
        ⊢ bigSep Finset.univ fun st : Slot => reached ER (recvCell (peer st.1 st.2 c) st.1 st.2) 0
      from BI.bigSep_intro_persistent fun st _ => reached_at (F := F) (peer st.1 st.2 c, .recv st.1 st.2))
    iexact HR

/-- What stays with device `c`: its positions, and the tokens of the duties it pays. -/
abbrev linear (c : Dev nD) : sProp 𝕄 := iprop(positions c ∗ payToks c)

theorem ghost_intro (K : Dev nD × CellK → ℕ) (c : Dev nD) : iprop(records m ρ K ∗ linear c) ⊢ G' m ρ c := by
  unfold records G' ghost
  iintro ⟨⟨#HI, #HR⟩, Hpos, Htok⟩
  iexists K
  isplitr; · iapply (invs_intro m ρ K c); iexact HI
  isplitr; · iapply (marks_intro (F := F) c); iexact HR
  isplitl [Hpos]; · iexact Hpos
  iexact Htok

omit [FloatOps F] in
/-- Duty `b` of every barrier cell goes to the cell's partner along `b`: a reindexing of the devices per dimension. -/
theorem bar_around :
    (bigSep Finset.univ fun c : Dev nD => bigSep Finset.univ fun b : Fin 4 => (dutyTok ER (barCell c) 0 b : sProp 𝕄))
      = bigSep Finset.univ fun c : Dev nD => bigSep Finset.univ fun b : Fin 4 => dutyTok ER (barCell (partner b c)) 0 b :=
  (bigSep_univ_comm (fun (c : Dev nD) (b : Fin 4) => (dutyTok ER (barCell c) 0 b : sProp 𝕄))).trans
    ((bigSep_congr fun b _ => bigSep_univ_equiv (partnerEquiv b) fun c : Dev nD => (dutyTok ER (barCell c) 0 b : sProp 𝕄)).trans
      (bigSep_univ_comm (fun (c : Dev nD) (b : Fin 4) => (dutyTok ER (barCell (partner b c)) 0 b : sProp 𝕄))).symm)

omit [FloatOps F] in
/-- The duty of every receive cell goes to the slot's partner of the cell's device: a reindexing per slot. -/
theorem recv_around :
    (bigSep Finset.univ fun c : Dev nD => bigSep Finset.univ fun st : Slot => (dutyTok ER (recvCell c st.1 st.2) 0 (0 : Fin 4) : sProp 𝕄))
      = bigSep Finset.univ fun c : Dev nD => bigSep Finset.univ fun st : Slot => dutyTok ER (recvCell (peer st.1 st.2 c) st.1 st.2) 0 (0 : Fin 4) :=
  (bigSep_univ_comm (fun (c : Dev nD) (st : Slot) => (dutyTok ER (recvCell c st.1 st.2) 0 (0 : Fin 4) : sProp 𝕄))).trans
    ((bigSep_congr fun st _ => bigSep_univ_equiv (partnerEquiv (dimAt st.1 st.2)) fun c : Dev nD => (dutyTok ER (recvCell c st.1 st.2) 0 (0 : Fin 4) : sProp 𝕄)).trans
      (bigSep_univ_comm (fun (c : Dev nD) (st : Slot) => (dutyTok ER (recvCell (peer st.1 st.2 c) st.1 st.2) 0 (0 : Fin 4) : sProp 𝕄))).symm)

omit [FloatOps F] in
/-- The tokens dealt to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, recv_around]
  iintro ⟨H1, H2, H3⟩
  isplitl [H1]; · iexact H1
  isplitl [H3]; · iexact H3
  iexact H2

theorem regroup :
    (bigSep Finset.univ fun c : Dev nD => iprop((bigSep Finset.univ fun k : CellK => iprop(∃ κ : ℕ, cellInv ER (cubeRd m ρ) κ (kcell (c, k))))
          ∗ (bigSep Finset.univ fun k : CellK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellK => iprop(∃ κ : ℕ, cellInv ER (cubeRd m ρ) κ (kcell ck))),
    bigSep_congr (s := Finset.univ) (fun (c : Dev nD) _ => bigSep_sep' Finset.univ (fun k : CellK => (atPos ER (kcell (c, k)) 0 ∅ 0 : sProp 𝕄)) (fun k => reached ER (kcell (c, k)) 0)),
    bigSep_sep', ← bigSep_univ_prod (fun ck : Dev nD × CellK => (reached ER (kcell ck) 0 : sProp 𝕄))]
  iintro ⟨HI, ⟨Hat, #HR⟩, Htok⟩
  ihave HK := (BI.bigSep_exists_pi Finset.univ (fun (ck : Dev nD × CellK) (κ : ℕ) => (cellInv ER (cubeRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {s s' : Fin 4} {t t' : Fin 6} : Iff (recvCell a s t = recvCell b s' t') (a = b ∧ s = s' ∧ t = t') :=
  ⟨fun h => ⟨Fin.ext (congrArg (fun g : GSem nD τ sig => g.1.1.val) h), recvQ_inj s t s' t' (SemLoc.dma.inj (congrArg Prod.snd h))⟩,
    fun ⟨h1, h2, h3⟩ => by subst h1 h2 h3; rfl⟩
theorem recv_ne_barCell (a b : Dev nD) (s : Fin 4) (t : Fin 6) : recvCell a s t ≠ barCell b := fun h => dma_ne_bar _ (congrArg Prod.snd h)
theorem bar_eq_recv_iff {a b : Dev nD} {s : Fin 4} {t : Fin 6} : Iff (barCell b = recvCell a s t) False :=
  ⟨fun h => recv_ne_barCell a b s t h.symm, False.elim⟩

theorem peer_peer (s : Fin 4) (t : Fin 6) (c : Dev nD) : peer s t (peer s t c) = c := partner_partner _ c
theorem eq_partner_iff (b : Fin 4) (d c : Dev nD) : Iff (partner b d = c) (d = partner b c) :=
  ⟨fun h => by rw [← h, partner_partner], fun h => by rw [h, partner_partner]⟩

/-- A tally summed up payment by payment, read at one cell: the amounts of the payments to that cell. -/
theorem foldr_tally_apply (l : List (GSem nD τ sig × ℕ)) (g : GSem nD τ sig) :
    (l.foldr (fun p acc => acc + tallyAt p.1 () p.2) (0 : CellTallies nD τ sig Unit)) g () = (l.map fun p => if p.1 = g then p.2 else 0).sum := by
  induction l with
  | nil => rfl
  | cons p l ih =>
    rw [List.foldr_cons, Pi.add_apply, Finsupp.add_apply, ih, tallyAt_apply, List.map_cons, List.sum_cons, Nat.add_comm]
    congr 1
    by_cases h : p.1 = g
    · rw [if_pos h, if_pos ⟨h.symm, rfl⟩]
    · rw [if_neg h, if_neg fun h' => h h'.1.symm]

/-- It is positive only at a cell some payment goes to. -/
theorem foldr_tally_pos {l : List (GSem nD τ sig × ℕ)} {g : GSem nD τ sig} {u : Unit}
    (h : 0 < (l.foldr (fun p acc => acc + tallyAt p.1 () p.2) (0 : CellTallies nD τ sig Unit)) g u) : ∃ p ∈ l, g = p.1 := by
  induction l with
  | nil => exact absurd h (Nat.lt_irrefl 0)
  | cons p l ih =>
    rw [List.foldr_cons] at h
    rcases Pipeline.add_pos_cases h with h' | h'
    · obtain ⟨q, hq, rfl⟩ := ih h'; exact ⟨q, List.mem_cons_of_mem _ hq, rfl⟩
    · exact ⟨p, List.mem_cons_self, (Pipeline.tallyAt_pos h').1⟩

theorem owed_eq (d : Dev nD) (g : GSem nD τ sig) : O₀ d g () = ((pays d).map fun p => if p.1 = g then p.2 else 0).sum := by
  unfold O₀ owedFrom; rw [List.drop_zero]; exact foldr_tally_apply _ g

theorem slotOrder_nodup : slotOrder.Nodup := by decide
theorem slotOrder_univ : slotOrder.toFinset = Finset.univ := by decide
theorem sum_slotOrder (f : Slot → ℕ) : (slotOrder.map f).sum = ∑ st : Slot, f st := by
  rw [← List.sum_toFinset f slotOrder_nodup, slotOrder_univ]

/-- What device `d` owes device `c`'s barrier cell: a unit for each dimension along which it is `c`'s partner. -/
theorem owed_bar (d c : Dev nD) : O₀ d (barCell c) () = ∑ b : Fin 4, if d = partner b c then 1 else 0 := by
  have hz : ((slotOrder.map fun st : Slot => ((recvCell (peer st.1 st.2 d) st.1 st.2, slotN st.2) : GSem nD τ sig × ℕ)).map
      fun p : GSem nD τ sig × ℕ => if p.1 = barCell c then p.2 else 0).sum = 0 := by
    refine List.sum_eq_zero fun x hx => ?_
    obtain ⟨p, hp, rfl⟩ := List.mem_map.mp hx
    obtain ⟨st, -, rfl⟩ := List.mem_map.mp hp
    exact if_neg (recv_ne_barCell _ _ _ _)
  rw [owed_eq]; unfold pays
  rw [List.map_append, List.sum_append, hz, Nat.add_zero, Fin.sum_univ_four]
  simp only [List.map_cons, List.map_nil, List.sum_cons, List.sum_nil, Nat.add_zero, bar_eq_iff, eq_partner_iff, Nat.add_assoc]

/-- What it owes the receive cell of slot `t` of stream `s` of device `c`: the slot's amount if it is the slot's partner of `c`. -/
theorem owed_recv (d c : Dev nD) (s : Fin 4) (t : Fin 6) : O₀ d (recvCell c s t) () = if d = peer s t c then slotN t else 0 := by
  have h4 : (([(barCell (partner 0 d), 1), (barCell (partner 1 d), 1), (barCell (partner 2 d), 1), (barCell (partner 3 d), 1)] : List (GSem nD τ sig × ℕ)).map
      fun p => if p.1 = recvCell c s t then p.2 else 0).sum = 0 := by
    simp only [List.map_cons, List.map_nil, List.sum_cons, List.sum_nil, bar_eq_recv_iff, if_false, Nat.add_zero]
  have hterm : ∀ st : Slot, ((fun p : GSem nD τ sig × ℕ => if p.1 = recvCell c s t then p.2 else 0) ∘
        fun st : Slot => ((recvCell (peer st.1 st.2 d) st.1 st.2, slotN st.2) : GSem nD τ sig × ℕ)) st
      = if st = (s, t) then (if d = peer s t c then slotN t else 0) else 0 := by
    rintro ⟨s', t'⟩
    show (if recvCell (peer s' t' d) s' t' = recvCell c s t then slotN t' else 0) = _
    by_cases hst : (s', t') = (s, t)
    · obtain ⟨rfl, rfl⟩ := Prod.mk.inj hst
      rw [if_pos rfl]
      by_cases hd : d = peer s' t' c
      · rw [if_pos hd, if_pos (by rw [hd, peer_peer])]
      · rw [if_neg hd, if_neg fun h => hd (by rw [← (recv_eq_iff.mp h).1, peer_peer])]
    · rw [if_neg hst, if_neg fun h => hst (by obtain ⟨-, h2, h3⟩ := recv_eq_iff.mp h; rw [h2, h3])]
  rw [owed_eq]; unfold pays
  rw [List.map_append, List.sum_append, h4, Nat.zero_add, List.map_map, sum_slotOrder, Finset.sum_congr rfl fun st _ => hterm st,
    Finset.sum_ite_eq' Finset.univ (s, t) fun _ => if d = peer s t c then slotN t else 0, if_pos (Finset.mem_univ _)]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  simp only [Finset.sum_ite_eq', Finset.mem_univ, if_true, Finset.sum_const, Finset.card_univ, Fintype.card_fin, smul_eq_mul, Nat.mul_one]

theorem launch_recv (c : Dev nD) (s : Fin 4) (t : Fin 6) :
    tallyOn (recvCell c s t) (launchCredit (Pipeline.owing O₀) 0 (recvCell c s t)) = (tallyAt (recvCell c s t) () (slotN t) : CellTallies nD τ sig Unit) := by
  unfold tallyAt; refine congrArg _ (Finsupp.ext fun u => ?_); cases u
  rw [Pipeline.launchCredit_owing, Finsupp.single_eq_same, Finset.sum_congr rfl fun d _ => owed_recv d c s t,
    Finset.sum_ite_eq' Finset.univ (peer s t c) fun _ => slotN t, if_pos (Finset.mem_univ _)]

/-- The receive semaphores among a core's semaphores. -/
def recvEmb : Slot ↪ SemLoc sig :=
  ⟨fun st => .dma (recvQ st.1 st.2), fun a b h => Prod.ext (recvQ_inj _ _ _ _ (SemLoc.dma.inj h)).1 (recvQ_inj _ _ _ _ (SemLoc.dma.inj h)).2⟩

omit [FloatOps F] in
/-- A device's launch credit holds the credit of its barrier cell and of each of its receive cells. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) fun sm h => ?_).trans ?_
  · obtain ⟨st, -, rfl⟩ := Finset.mem_map.mp h
    exact Finset.mem_erase.mpr ⟨dma_ne_bar _, Finset.mem_univ _⟩
  · rw [bigSep_map]
    exact bigSep_mono fun st _ => Entails.of_eq (congrArg cred (launch_recv c st.1 st.2))

/-! ## The levels: every wait of the pipeline is below what the device owes -/

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (s : Fin 4) (t : Fin 6) : lv (recvCell c s t) () = 2 + 4 * t.val + s.val := by
  simp only [lv, kindOf_recv]

theorem O₀_pos {c : Dev nD} {g : GSem nD τ sig} {u : Unit} (h : 0 < O₀ c g u) :
    (∃ b : Fin 4, g = barCell (partner b c)) ∨ ∃ st : Slot, g = recvCell (peer st.1 st.2 c) st.1 st.2 := by
  unfold O₀ owedFrom at h; rw [List.drop_zero] at h
  obtain ⟨p, hp, rfl⟩ := foldr_tally_pos h
  unfold pays at hp
  rcases List.mem_append.mp hp with hp | hp
  · simp only [List.mem_cons, List.not_mem_nil, or_false] at hp
    rcases hp with rfl | rfl | rfl | rfl
    exacts [.inl ⟨0, rfl⟩, .inl ⟨1, rfl⟩, .inl ⟨2, rfl⟩, .inl ⟨3, rfl⟩]
  · obtain ⟨st, -, rfl⟩ := List.mem_map.mp hp
    exact .inr ⟨st, rfl⟩

theorem lv_other (c : Dev nD) (q : DmaSem sig) (hq : kindOf (SemLoc.dma q : SemLoc sig) = Kind.other) : lv ((c : Thread nD τ), .dma q) () = 0 := by
  simp only [lv, hq]

omit [FloatOps F] in
/-- A wait on a cell of level 0 is below everything a device owes at launch. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨b, rfl⟩ | ⟨st, rfl⟩ <;> exact Finset.mem_singleton_self _)
      (fun p hp => by rw [Finset.mem_singleton.mp hp]; exact Nat.le_of_eq hq)
      (fun g u hg => by
        cases u
        rcases O₀_pos hg with ⟨b, rfl⟩ | ⟨st, rfl⟩
        · exact Nat.one_pos
        · rw [lv_recv]; omega)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_other c _ (by fin_cases w <;> fin_cases s <;> decide)) _ (by
      rcases t with ⟨_ | _, ht⟩
      · exact Or.inl rfl
      · exact Or.inr rfl)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  rw [bigSep_sep']
  iintro ⟨Hr, HzS, HzV⟩
  isplitr; · iempintro
  isplitl [HzS HzV]
  · isplitl [HzS]; · iexact HzS
    iexact HzV
  iexists (recvFinal m ρ c); iexact Hr

end LaunchSetup

open LaunchSetup

/-! ## The run -/

/-- What every window's array holds on device `c` in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, given the body
    obligation of every device: every weakly fair execution of the program — the sixteen kernels meeting at the barrier,
    then exchanging along the four dimensions of the cube — terminates, and every final state has each device's
    arrays at the contents the proof data names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cube m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array holds in the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array holds in the end what the body leaves in its staging buffer: the one write-back writes the whole array. -/
theorem finalA_out (c : Dev nD) : finalA m ρ c (1 : Fin 2) = outFinal m ρ c := by
  unfold finalA
  rw [show cfg0.N = (t₀ : Fin cfg0.N).val + 1 from rfl, Dat.arrAt_succ, if_pos (flush0_1 _)]
  exact Memref.write_access_unit_zero_univ (Elt F) main_v1 (funext fun a => Nat.zero_mul _) _ _ _

/-- info: 'Cert.Kernel.Proto.finalA_x' depends on axioms: [propext, Classical.choice, Quot.sound] -/
#guard_msgs in #print axioms finalA_x

/-- info: 'Cert.Kernel.Proto.finalA_out' depends on axioms: [propext, Classical.choice, Quot.sound] -/
#guard_msgs in #print axioms finalA_out

/-- info: 'Cert.Kernel.Proto.run_main' depends on axioms: [propext, Classical.choice, Quot.sound] -/
#guard_msgs in #print axioms run_main

end Cert.Kernel.Proto

end
-- ==== Proof.Bits.Res.lean ====
/-
  The pieces of the three buffers a stream's slots pass around, under one spelling each.

  Stream `s` of device `c` works on 128 rows of `x` and of `out` and on 160 rows of the receive buffer:
    x    : the given half (slot 0 sends it) and the kept half (slot 0 loads it);
    out  : the kept half = kept quarter + given quarter; the other half of the stream's rows belongs, from the
           barrier on, to the partner along the stream's first dimension, and comes back filled by slot 5;
    recv : one block of rows per slot 0..3, each written once by the slot's partner.
-/
import proofs.«900484_g7700000000000485_dist_treered_v7x_i16_m512_n512_f32_1_alg».proof.Proof.Bits.Data

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Pieces
variable (c : Dev nD) (s : Fin 4)

/-- The kept half of stream `s`'s rows of `x` (64 rows, rank 3 as slot 0 loads it). -/
abbrev xKeep : Memref sig .tc .vmem S1x64x512 .f32 :=
  xM.slice (Rect.unit (s := S1x512x512) (k0_off2 c (k0_off2_at s).1 (k0_off2_at s).2) S1x64x512.size (k0_off2_inb c s)) (fun _ => rfl)
/-- The kept half of `out` as slot 0 loads and stores it (the rows of `oHalf`, through the other printed offset). -/
abbrev oHalf' : Memref sig .tc .vmem S64x512 .f32 :=
  oM.slice (Rect.unit (s := S512x512) (k0_off3 c (k0_off3_at s).1 (k0_off3_at s).2) S64x512.size (k0_off3_inb c s)) (fun _ => rfl)
/-- The kept quarter of `out` as slots 1, 2, 3 load and store it (the rows of `oKeep`, through the other printed offset). -/
abbrev oKeep' : Memref sig .tc .vmem S32x512 .f32 :=
  oM.slice (Rect.unit (s := S512x512) (k0_off5 c (k0_off5_at s).1 (k0_off5_at s).2.1 (k0_off5_at s).2.2) S32x512.size (k0_off5_inb c s)) (fun _ => rfl)

/-- `x`: the given half and the kept half, as staged. -/
abbrev XG : sProp 𝕄 := own (xGive c s) c fullShare (xstg m ρ c)
abbrev XK : sProp 𝕄 := own (xKeep c s) c fullShare (xstg m ρ c)
/-- `out`: the kept half, the kept quarter, the given quarter of device `c`, at a share and contents. -/
abbrev OH (q : PosShare TreeShare) (f : Buf (Elt F) (((c : Dev nD) : Thread nD τ).loc cc0_stg1_0)) : sProp 𝕄 := own (oHalf c s) c q f
abbrev OK (q : PosShare TreeShare) (f : Buf (Elt F) (((c : Dev nD) : Thread nD τ).loc cc0_stg1_0)) : sProp 𝕄 := own (oKeep c s) c q f
abbrev OG (q : PosShare TreeShare) (f : Buf (Elt F) (((c : Dev nD) : Thread nD τ).loc cc0_stg1_0)) : sProp 𝕄 := own (oGive c s) c q f
/-- The receive rows of slot `t` on device `c`, landed: at the final contents. -/
abbrev RV0 : sProp 𝕄 := own (rSlot0 s) c fullShare (recvFinal m ρ c)
abbrev RV (t : Fin 6) (ht : t = 1 ∨ t = 2 ∨ t = 3) : sProp 𝕄 := own (rSlot s t ht) c fullShare (recvFinal m ρ c)
/-- The receive rows of slot `t` on the slot's partner, as the barrier handed them over: at whatever they hold. -/
abbrev RP0 : sProp 𝕄 := iprop(∃ f, own (rSlot0 s) (peer s 0 c) fullShare f)
abbrev RP (t : Fin 6) (ht : t = 1 ∨ t = 2 ∨ t = 3) : sProp 𝕄 := iprop(∃ f, own (rSlot s t ht) (peer s t c) fullShare f)
/-- The half of the partner's `out` slot 5 fills, as the barrier handed it over. -/
abbrev OP5 : sProp 𝕄 := iprop(∃ f, own (oHalf c s) (peer s 5 c) fullShare f)

/-- The linear ghost state of slot `t`: the two duty tokens the device pays with, its two positions, and the launch
    credit of its receive cell. -/
def slotGhost (t : Fin 6) : sProp 𝕄 :=
  iprop(dutyTok ER (recvCell (peer s t c) s t) 0 (0 : Fin 4) ∗ dutyTok ER (sendCell c s t) 0 (0 : Fin 4)
    ∗ atPos ER (sendCell c s t) 0 ∅ 0 ∗ atPos ER (recvCell c s t) 0 ∅ 0 ∗ cred (tallyAt (recvCell c s t) () (slotN t)))

end Pieces

/-- The program's monad context of device `c`'s body. -/
abbrev wpC (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.Kernel.Proto

end
-- ==== Proof.Bits.Wrap.lean ====
/-
  From the body's run on one device to the run of the whole program, with its values.

  The pipeline asks, of every device, that the kernel's body — called on the two whole staging buffers, the receive
  buffer and the two semaphore arrays — runs from what the proof data says the device then holds to what it says the
  body leaves. Given that, the launch runs the program: every device's result array ends holding what the protocol
  leaves in the result's staging buffer, and its argument array what it held.
-/
import proofs.«900484_g7700000000000485_dist_treered_v7x_i16_m512_n512_f32_1_alg».proof.Proof.Bits.Launch
import proofs.«900484_g7700000000000485_dist_treered_v7x_i16_m512_n512_f32_1_alg».proof.Proof.Bits.Res

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace LaunchSetup

omit [FloatOps F] in
/-- A whole buffer held at given contents: at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end LaunchSetup

open LaunchSetup

set_option maxRecDepth 20000 in
/-- The pipeline's body obligation on device `c`, from the body's run there. -/
theorem body_obligation (m : (ℓ : Loc nD τ sig) → Buf (Elt F) ℓ) (ρ : Dev nD → PrngReg)
    (hsound : ∀ c : Dev nD, bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c))
    (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c)
  exact hsound c

/-- THE RUN WITH ITS VALUES, at any float instance: from any memory with zero counters, if the body runs on every
    device from what it is handed to what it must return, every weakly fair execution of the program terminates, and
    in every final state each device's result array holds what the protocol leaves in the result's staging buffer
    and its argument array what it held. -/
theorem run_values
    (hsound : ∀ (m : (ℓ : Loc nD τ sig) → Buf (Elt F) ℓ) (ρ : Dev nD → PrngReg) (c : Dev nD), bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outFinal m ρ c
      ∧ r.2.mem ((c.tc : Thread nD τ).loc main_arg0) = m ((c.tc : Thread nD τ).loc main_arg0)) :=
  (θ_run defs _ _).mono (fun _ h c => ⟨(h c 1).trans (finalA_out m ρ c), (h c 0).trans (finalA_x m ρ c)⟩)
    (run_main m ρ (body_obligation m ρ (hsound m ρ)))

/-- The frame: the program runs and every device's argument array ends as it was. -/
theorem frame_of_sound
    (hsound : ∀ (m : (ℓ : Loc nD τ sig) → Buf (Elt F) ℓ) (ρ : Dev nD → PrngReg) (c : Dev nD), bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_values hsound m ρ)

/-- info: 'Cert.Kernel.Proto.body_obligation' depends on axioms: [propext, Classical.choice, Quot.sound] -/
#guard_msgs in #print axioms body_obligation

/-- info: 'Cert.Kernel.Proto.run_values' depends on axioms: [propext, Classical.choice, Quot.sound] -/
#guard_msgs in #print axioms run_values

/-- info: 'Cert.Kernel.Proto.frame_of_sound' depends on axioms: [propext, Classical.choice, Quot.sound] -/
#guard_msgs in #print axioms frame_of_sound

end Cert.Kernel.Proto

end
-- ==== Proof.Bits.Stream.lean ====
/-
  A stream's progress as a sequence of phases.

  Stream `s` of device `c` passes through 22 resource-changing steps (in its own order: the six transfers, their
  receive waits, the four stores, the send waits); `StreamSt c s g p` is what the device holds of the stream after
  the first `p` of them — duty tokens not yet spent, positions, credits, and the pieces of the three buffers with
  their contents. `g` is what `out` held at entry.
-/
import proofs.«900484_g7700000000000485_dist_treered_v7x_i16_m512_n512_f32_1_alg».proof.Proof.Bits.Res

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Phases
variable (c : Dev nD) (s : Fin 4) (g : Buf (Elt F) (((c : Dev nD) : Thread nD τ).loc cc0_stg1_0))

/-- After the barrier, before the stream's first transfer. -/
def StreamSt0 : sProp 𝕄 :=
  iprop(dutyTok ER (recvCell (peer s 0 c) s 0) 0 (0 : Fin 4)
    ∗ dutyTok ER (sendCell c s 0) 0 (0 : Fin 4)
    ∗ atPos ER (sendCell c s 0) 0 ∅ 0
    ∗ atPos ER (recvCell c s 0) 0 ∅ 0
    ∗ cred (tallyAt (recvCell c s 0) () (slotN 0))
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XG m ρ c s
    ∗ XK m ρ c s
    ∗ own (oHalf' c s) c fullShare g
    ∗ RP0 c s
    ∗ RP c s 1 (.inl rfl)
    ∗ RP c s 2 (.inr (.inl rfl))
    ∗ RP c s 3 (.inr (.inr rfl))
    ∗ OP5 c s)

/-- After step 1 (ENQ0). -/
def StreamSt1 : sProp 𝕄 :=
  iprop(atPos ER (sendCell c s 0) 0 ∅ 0
    ∗ atPos ER (recvCell c s 0) 0 ∅ 0
    ∗ cred (tallyAt (recvCell c s 0) () (slotN 0))
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ own (oHalf' c s) c fullShare g
    ∗ RP c s 1 (.inl rfl)
    ∗ RP c s 2 (.inr (.inl rfl))
    ∗ RP c s 3 (.inr (.inr rfl))
    ∗ OP5 c s
    ∗ cred (tallyAt (sendCell c s 0) () (slotN 0)))

/-- After step 2 (WAITR0). -/
def StreamSt2 : sProp 𝕄 :=
  iprop(atPos ER (sendCell c s 0) 0 ∅ 0
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ own (oHalf' c s) c fullShare g
    ∗ RP c s 1 (.inl rfl)
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s)

/-- After step 3 (STORE0). -/
def StreamSt3 : sProp 𝕄 :=
  iprop(atPos ER (sendCell c s 0) 0 ∅ 0
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 1 (.inl rfl)
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ own (oHalf' c s) c fullShare (outLvl m ρ 1 c))

/-- After step 4 (ENQ1). -/
def StreamSt4 : sProp 𝕄 :=
  iprop(atPos ER (sendCell c s 0) 0 ∅ 0
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ own (oKeep' c s) c fullShare (outLvl m ρ 1 c))

/-- After step 5 (WAITR1). -/
def StreamSt5 : sProp 𝕄 :=
  iprop(atPos ER (sendCell c s 0) 0 ∅ 0
    ∗ atPos ER (sendCell c s 1) 0 ∅ 0
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ own (oKeep' c s) c fullShare (outLvl m ρ 1 c)
    ∗ atPos ER (recvCell c s 1) (0 + 1) ∅ 0
    ∗ RV m ρ c s 1 (.inl rfl)
    ∗ own (oGive (peer s 1 c) s) (peer s 1 c) fullShare (outLvl m ρ 1 (peer s 1 c)))

/-- After step 6 (STORE1). -/
def StreamSt6 : sProp 𝕄 :=
  iprop(atPos ER (sendCell c s 0) 0 ∅ 0
    ∗ atPos ER (sendCell c s 1) 0 ∅ 0
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 2 (.inr (.inl rfl))
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ own (oKeep' c s) c fullShare (outLvl m ρ 2 c))

/-- After step 7 (ENQ2). -/
def StreamSt7 : sProp 𝕄 :=
  iprop(atPos ER (sendCell c s 0) 0 ∅ 0
    ∗ atPos ER (sendCell c s 1) 0 ∅ 0
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ cred (tallyAt (sendCell c s 2) () (slotN 2)))

/-- After step 8 (WAITS2). -/
def StreamSt8 : sProp 𝕄 :=
  iprop(atPos ER (sendCell c s 0) 0 ∅ 0
    ∗ atPos ER (sendCell c s 1) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ own (oKeep' c s) c fullShare (outLvl m ρ 2 c))

/-- After step 9 (WAITR2). -/
def StreamSt9 : sProp 𝕄 :=
  iprop(atPos ER (sendCell c s 0) 0 ∅ 0
    ∗ atPos ER (sendCell c s 1) 0 ∅ 0
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ own (oKeep' c s) c fullShare (outLvl m ρ 2 c)
    ∗ atPos ER (recvCell c s 2) (0 + 1) ∅ 0
    ∗ RV m ρ c s 2 (.inr (.inl rfl)))

/-- After step 10 (STORE2). -/
def StreamSt10 : sProp 𝕄 :=
  iprop(atPos ER (sendCell c s 0) 0 ∅ 0
    ∗ atPos ER (sendCell c s 1) 0 ∅ 0
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ RP c s 3 (.inr (.inr rfl))
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ own (oKeep' c s) c fullShare (outLvl m ρ 3 c))

/-- After step 11 (ENQ3). -/
def StreamSt11 : sProp 𝕄 :=
  iprop(atPos ER (sendCell c s 0) 0 ∅ 0
    ∗ atPos ER (sendCell c s 1) 0 ∅ 0
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ cred (tallyAt (sendCell c s 3) () (slotN 3)))

/-- After step 12 (WAITS3). -/
def StreamSt12 : sProp 𝕄 :=
  iprop(atPos ER (sendCell c s 0) 0 ∅ 0
    ∗ atPos ER (sendCell c s 1) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ own (oKeep' c s) c fullShare (outLvl m ρ 3 c))

/-- After step 13 (WAITR3). -/
def StreamSt13 : sProp 𝕄 :=
  iprop(atPos ER (sendCell c s 0) 0 ∅ 0
    ∗ atPos ER (sendCell c s 1) 0 ∅ 0
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ own (oKeep' c s) c fullShare (outLvl m ρ 3 c)
    ∗ atPos ER (recvCell c s 3) (0 + 1) ∅ 0
    ∗ RV m ρ c s 3 (.inr (.inr rfl)))

/-- After step 14 (STORE3). -/
def StreamSt14 : sProp 𝕄 :=
  iprop(atPos ER (sendCell c s 0) 0 ∅ 0
    ∗ atPos ER (sendCell c s 1) 0 ∅ 0
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ own (oGive (peer s 1 c) s) (peer s 1 c) fullShare (outLvl m ρ 1 (peer s 1 c))
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ own (oKeep' c s) c fullShare (outLvl m ρ 4 c))

/-- After step 15 (ENQ4). -/
def StreamSt15 : sProp 𝕄 :=
  iprop(atPos ER (sendCell c s 0) 0 ∅ 0
    ∗ atPos ER (sendCell c s 1) 0 ∅ 0
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ own (oKeep c s) c fullShare.left (outFinal m ρ c))

/-- After step 16 (WAITR4). -/
def StreamSt16 : sProp 𝕄 :=
  iprop(atPos ER (sendCell c s 0) 0 ∅ 0
    ∗ atPos ER (sendCell c s 1) 0 ∅ 0
    ∗ atPos ER (sendCell c s 4) 0 ∅ 0
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5))
    ∗ XK m ρ c s
    ∗ OP5 c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ own (oKeep c s) c fullShare.left (outFinal m ρ c)
    ∗ atPos ER (recvCell c s 4) (0 + 1) ∅ 0
    ∗ own (oGive c s) c fullShare (outFinal m ρ c))

/-- After step 17 (ENQ5). -/
def StreamSt17 : sProp 𝕄 :=
  iprop(atPos ER (sendCell c s 0) 0 ∅ 0
    ∗ atPos ER (sendCell c s 1) 0 ∅ 0
    ∗ atPos ER (sendCell c s 4) 0 ∅ 0
    ∗ atPos ER (sendCell c s 5) 0 ∅ 0
    ∗ atPos ER (recvCell c s 5) 0 ∅ 0
    ∗ cred (tallyAt (recvCell c s 5) () (slotN 5))
    ∗ XK m ρ c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c))

/-- After step 18 (WAITR5). -/
def StreamSt18 : sProp 𝕄 :=
  iprop(atPos ER (sendCell c s 0) 0 ∅ 0
    ∗ atPos ER (sendCell c s 1) 0 ∅ 0
    ∗ atPos ER (sendCell c s 4) 0 ∅ 0
    ∗ atPos ER (sendCell c s 5) 0 ∅ 0
    ∗ XK m ρ c s
    ∗ cred (tallyAt (sendCell c s 0) () (slotN 0))
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c))

/-- After step 19 (WAITS0). -/
def StreamSt19 : sProp 𝕄 :=
  iprop(atPos ER (sendCell c s 1) 0 ∅ 0
    ∗ atPos ER (sendCell c s 4) 0 ∅ 0
    ∗ atPos ER (sendCell c s 5) 0 ∅ 0
    ∗ XK m ρ c s
    ∗ atPos ER (recvCell c s 0) (0 + 1) ∅ 0
    ∗ RV0 m ρ c s
    ∗ cred (tallyAt (sendCell c s 1) () (slotN 1))
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c)
    ∗ atPos ER (sendCell c s 0) (0 + 1) ∅ 0
    ∗ XG m ρ c s)

/-- After step 20 (WAITS1). -/
def StreamSt20 : sProp 𝕄 :=
  iprop(atPos ER (sendCell c s 4) 0 ∅ 0
    ∗ atPos ER (sendCell c s 5) 0 ∅ 0
    ∗ XK m ρ c s
    ∗ atPos ER (recvCell c s 0) (0 + 1) ∅ 0
    ∗ RV0 m ρ c s
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ cred (tallyAt (sendCell c s 4) () (slotN 4))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c)
    ∗ atPos ER (sendCell c s 0) (0 + 1) ∅ 0
    ∗ XG m ρ c s
    ∗ atPos ER (sendCell c s 1) (0 + 1) ∅ 0)

/-- After step 21 (WAITS4). -/
def StreamSt21 : sProp 𝕄 :=
  iprop(atPos ER (sendCell c s 5) 0 ∅ 0
    ∗ XK m ρ c s
    ∗ atPos ER (recvCell c s 0) (0 + 1) ∅ 0
    ∗ RV0 m ρ c s
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ atPos ER (recvCell c s 4) (0 + 1) ∅ 0
    ∗ cred (tallyAt (sendCell c s 5) () (slotN 5))
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c)
    ∗ atPos ER (sendCell c s 0) (0 + 1) ∅ 0
    ∗ XG m ρ c s
    ∗ atPos ER (sendCell c s 1) (0 + 1) ∅ 0
    ∗ atPos ER (sendCell c s 4) (0 + 1) ∅ 0
    ∗ own (oKeep c s) c fullShare.right (outFinal m ρ c))

/-- After step 22 (WAITS5). -/
def StreamSt22 : sProp 𝕄 :=
  iprop(XK m ρ c s
    ∗ atPos ER (recvCell c s 0) (0 + 1) ∅ 0
    ∗ RV0 m ρ c s
    ∗ atPos ER (recvCell c s 1) (0 + 1) ∅ 0
    ∗ RV m ρ c s 1 (.inl rfl)
    ∗ atPos ER (sendCell c s 2) (0 + 1) ∅ 0
    ∗ atPos ER (recvCell c s 2) (0 + 1) ∅ 0
    ∗ RV m ρ c s 2 (.inr (.inl rfl))
    ∗ atPos ER (sendCell c s 3) (0 + 1) ∅ 0
    ∗ atPos ER (recvCell c s 3) (0 + 1) ∅ 0
    ∗ RV m ρ c s 3 (.inr (.inr rfl))
    ∗ atPos ER (recvCell c s 4) (0 + 1) ∅ 0
    ∗ own (oHalf c s) c fullShare.left.left (outFinal m ρ c)
    ∗ own (oGive c s) c fullShare.right (outFinal m ρ c)
    ∗ atPos ER (recvCell c s 5) (0 + 1) ∅ 0
    ∗ own (oHalf (peer s 5 c) s) c fullShare (outFinal m ρ c)
    ∗ atPos ER (sendCell c s 0) (0 + 1) ∅ 0
    ∗ XG m ρ c s
    ∗ atPos ER (sendCell c s 1) (0 + 1) ∅ 0
    ∗ atPos ER (sendCell c s 4) (0 + 1) ∅ 0
    ∗ own (oKeep c s) c fullShare.right (outFinal m ρ c)
    ∗ atPos ER (sendCell c s 5) (0 + 1) ∅ 0
    ∗ own (oHalf c s) c fullShare.left.right (outFinal m ρ c))

end Phases

end Cert.Kernel.Proto

end
-- ==== Proof.Bits.PartsDefs.lean ====
/-
  What stays fixed, and what is shared by the four streams, between the printed parts of the body.
-/
import proofs.«900484_g7700000000000485_dist_treered_v7x_i16_m512_n512_f32_1_alg».proof.Proof.Bits.Stream

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The persistent part of a device's ghost state: the invariants, the reached marks, the levels. -/
abbrev Pers (K : Dev nD × CellK → ℕ) (c : Dev nD) : sProp 𝕄 := iprop(invs m ρ K c ∗ marks c ∗ levAts L lv)

/-- What the device still owes after its first `k` payments, with whatever waits it has recorded. -/
abbrev GSt (c : Dev nD) (k : ℕ) : sProp 𝕄 := iprop(∃ W, owes (c : Thread nD τ) (owedFrom c k) W)

end Cert.Kernel.Proto

end
-- ==== Proof.Bits.Chains.lean ====
/-
  Closed forms of the device chains and of the row offsets the program computes.

  Each device a signal or a copy addresses is computed by the program as a chain of 32-bit integer operations on
  the device's own number: its label (group of four kept, place in the group Gray-coded), one bit of the label
  flipped, and the label read back as a device number. Over the sixteen devices each chain is the hypercube partner
  along one dimension: the four barrier signals go along dimensions 0, 1, 2, 3, and the copy of slot `t` of stream
  `s` goes along dimension `s xor k` with `k = 0, 1, 2, 3, 1, 0` for `t = 0, …, 5`.

  Each row offset is likewise a chain ending in `lo + 64 * b₀ + 32 * b₁`-like sums, `lo = 128 * s` the stream's first
  row, `b₀`, `b₁` the label's bits along the stream's first and second dimension: the half given away and the half
  kept at the first step, the quarter given away and the quarter kept at the second, and the kept half again when
  the quarters are gathered back.

  Everything is decided by evaluation over the sixteen devices (and the four streams).
-/
import proofs.«900484_g7700000000000485_dist_treered_v7x_i16_m512_n512_f32_1_alg».proof.Proof.Gen.Kernel
import proofs.«900484_g7700000000000485_dist_treered_v7x_i16_m512_n512_f32_1_alg».proof.Proof.Cube

set_option Elab.async false

namespace Cert.Kernel.Chains

open Cert.Kernel
open Cert.Kernel.Gen
open Cert.Cube Idealize.ShloMosaic

/-! ## The devices addressed

`k0_dev1 … k0_dev4` are the barrier signals, one per dimension; `k0_dev(5 + 4 t + s)` is the copy of slot `t`
(`t = 0 … 5`) of stream `s` (`s = 0 … 3`). -/

/-- The barrier signal along dimension 0. -/
theorem k0_dev1_eq : ∀ c : Dev nD, k0_dev1 c = (partner 0 c).val := by decide +kernel
/-- The barrier signal along dimension 1. -/
theorem k0_dev2_eq : ∀ c : Dev nD, k0_dev2 c = (partner 1 c).val := by decide +kernel
/-- The barrier signal along dimension 2. -/
theorem k0_dev3_eq : ∀ c : Dev nD, k0_dev3 c = (partner 2 c).val := by decide +kernel
/-- The barrier signal along dimension 3. -/
theorem k0_dev4_eq : ∀ c : Dev nD, k0_dev4 c = (partner 3 c).val := by decide +kernel
/-- Slot 0, stream 0: dimension 0 xor 0 = 0. -/
theorem k0_dev5_eq : ∀ c : Dev nD, k0_dev5 c = (partner 0 c).val := by decide +kernel
/-- Slot 0, stream 1: dimension 1 xor 0 = 1. -/
theorem k0_dev6_eq : ∀ c : Dev nD, k0_dev6 c = (partner 1 c).val := by decide +kernel
/-- Slot 0, stream 2: dimension 2 xor 0 = 2. -/
theorem k0_dev7_eq : ∀ c : Dev nD, k0_dev7 c = (partner 2 c).val := by decide +kernel
/-- Slot 0, stream 3: dimension 3 xor 0 = 3. -/
theorem k0_dev8_eq : ∀ c : Dev nD, k0_dev8 c = (partner 3 c).val := by decide +kernel
/-- Slot 1, stream 0: dimension 0 xor 1 = 1. -/
theorem k0_dev9_eq : ∀ c : Dev nD, k0_dev9 c = (partner 1 c).val := by decide +kernel
/-- Slot 1, stream 1: dimension 1 xor 1 = 0. -/
theorem k0_dev10_eq : ∀ c : Dev nD, k0_dev10 c = (partner 0 c).val := by decide +kernel
/-- Slot 1, stream 2: dimension 2 xor 1 = 3. -/
theorem k0_dev11_eq : ∀ c : Dev nD, k0_dev11 c = (partner 3 c).val := by decide +kernel
/-- Slot 1, stream 3: dimension 3 xor 1 = 2. -/
theorem k0_dev12_eq : ∀ c : Dev nD, k0_dev12 c = (partner 2 c).val := by decide +kernel
/-- Slot 2, stream 0: dimension 0 xor 2 = 2. -/
theorem k0_dev13_eq : ∀ c : Dev nD, k0_dev13 c = (partner 2 c).val := by decide +kernel
/-- Slot 2, stream 1: dimension 1 xor 2 = 3. -/
theorem k0_dev14_eq : ∀ c : Dev nD, k0_dev14 c = (partner 3 c).val := by decide +kernel
/-- Slot 2, stream 2: dimension 2 xor 2 = 0. -/
theorem k0_dev15_eq : ∀ c : Dev nD, k0_dev15 c = (partner 0 c).val := by decide +kernel
/-- Slot 2, stream 3: dimension 3 xor 2 = 1. -/
theorem k0_dev16_eq : ∀ c : Dev nD, k0_dev16 c = (partner 1 c).val := by decide +kernel
/-- Slot 3, stream 0: dimension 0 xor 3 = 3. -/
theorem k0_dev17_eq : ∀ c : Dev nD, k0_dev17 c = (partner 3 c).val := by decide +kernel
/-- Slot 3, stream 1: dimension 1 xor 3 = 2. -/
theorem k0_dev18_eq : ∀ c : Dev nD, k0_dev18 c = (partner 2 c).val := by decide +kernel
/-- Slot 3, stream 2: dimension 2 xor 3 = 1. -/
theorem k0_dev19_eq : ∀ c : Dev nD, k0_dev19 c = (partner 1 c).val := by decide +kernel
/-- Slot 3, stream 3: dimension 3 xor 3 = 0. -/
theorem k0_dev20_eq : ∀ c : Dev nD, k0_dev20 c = (partner 0 c).val := by decide +kernel
/-- Slot 4, stream 0: dimension 0 xor 1 = 1. -/
theorem k0_dev21_eq : ∀ c : Dev nD, k0_dev21 c = (partner 1 c).val := by decide +kernel
/-- Slot 4, stream 1: dimension 1 xor 1 = 0. -/
theorem k0_dev22_eq : ∀ c : Dev nD, k0_dev22 c = (partner 0 c).val := by decide +kernel
/-- Slot 4, stream 2: dimension 2 xor 1 = 3. -/
theorem k0_dev23_eq : ∀ c : Dev nD, k0_dev23 c = (partner 3 c).val := by decide +kernel
/-- Slot 4, stream 3: dimension 3 xor 1 = 2. -/
theorem k0_dev24_eq : ∀ c : Dev nD, k0_dev24 c = (partner 2 c).val := by decide +kernel
/-- Slot 5, stream 0: dimension 0 xor 0 = 0. -/
theorem k0_dev25_eq : ∀ c : Dev nD, k0_dev25 c = (partner 0 c).val := by decide +kernel
/-- Slot 5, stream 1: dimension 1 xor 0 = 1. -/
theorem k0_dev26_eq : ∀ c : Dev nD, k0_dev26 c = (partner 1 c).val := by decide +kernel
/-- Slot 5, stream 2: dimension 2 xor 0 = 2. -/
theorem k0_dev27_eq : ∀ c : Dev nD, k0_dev27 c = (partner 2 c).val := by decide +kernel
/-- Slot 5, stream 3: dimension 3 xor 0 = 3. -/
theorem k0_dev28_eq : ∀ c : Dev nD, k0_dev28 c = (partner 3 c).val := by decide +kernel

/-! The same as equations between devices: the device the program builds from its chain and the bound on it is
the partner. -/

theorem dev1_eq (c : Dev nD) : (⟨k0_dev1 c, k0_dev1_lt c⟩ : Dev nD) = partner 0 c := Fin.ext (k0_dev1_eq c)
theorem dev2_eq (c : Dev nD) : (⟨k0_dev2 c, k0_dev2_lt c⟩ : Dev nD) = partner 1 c := Fin.ext (k0_dev2_eq c)
theorem dev3_eq (c : Dev nD) : (⟨k0_dev3 c, k0_dev3_lt c⟩ : Dev nD) = partner 2 c := Fin.ext (k0_dev3_eq c)
theorem dev4_eq (c : Dev nD) : (⟨k0_dev4 c, k0_dev4_lt c⟩ : Dev nD) = partner 3 c := Fin.ext (k0_dev4_eq c)
theorem dev5_eq (c : Dev nD) : (⟨k0_dev5 c, k0_dev5_lt c⟩ : Dev nD) = partner 0 c := Fin.ext (k0_dev5_eq c)
theorem dev6_eq (c : Dev nD) : (⟨k0_dev6 c, k0_dev6_lt c⟩ : Dev nD) = partner 1 c := Fin.ext (k0_dev6_eq c)
theorem dev7_eq (c : Dev nD) : (⟨k0_dev7 c, k0_dev7_lt c⟩ : Dev nD) = partner 2 c := Fin.ext (k0_dev7_eq c)
theorem dev8_eq (c : Dev nD) : (⟨k0_dev8 c, k0_dev8_lt c⟩ : Dev nD) = partner 3 c := Fin.ext (k0_dev8_eq c)
theorem dev9_eq (c : Dev nD) : (⟨k0_dev9 c, k0_dev9_lt c⟩ : Dev nD) = partner 1 c := Fin.ext (k0_dev9_eq c)
theorem dev10_eq (c : Dev nD) : (⟨k0_dev10 c, k0_dev10_lt c⟩ : Dev nD) = partner 0 c := Fin.ext (k0_dev10_eq c)
theorem dev11_eq (c : Dev nD) : (⟨k0_dev11 c, k0_dev11_lt c⟩ : Dev nD) = partner 3 c := Fin.ext (k0_dev11_eq c)
theorem dev12_eq (c : Dev nD) : (⟨k0_dev12 c, k0_dev12_lt c⟩ : Dev nD) = partner 2 c := Fin.ext (k0_dev12_eq c)
theorem dev13_eq (c : Dev nD) : (⟨k0_dev13 c, k0_dev13_lt c⟩ : Dev nD) = partner 2 c := Fin.ext (k0_dev13_eq c)
theorem dev14_eq (c : Dev nD) : (⟨k0_dev14 c, k0_dev14_lt c⟩ : Dev nD) = partner 3 c := Fin.ext (k0_dev14_eq c)
theorem dev15_eq (c : Dev nD) : (⟨k0_dev15 c, k0_dev15_lt c⟩ : Dev nD) = partner 0 c := Fin.ext (k0_dev15_eq c)
theorem dev16_eq (c : Dev nD) : (⟨k0_dev16 c, k0_dev16_lt c⟩ : Dev nD) = partner 1 c := Fin.ext (k0_dev16_eq c)
theorem dev17_eq (c : Dev nD) : (⟨k0_dev17 c, k0_dev17_lt c⟩ : Dev nD) = partner 3 c := Fin.ext (k0_dev17_eq c)
theorem dev18_eq (c : Dev nD) : (⟨k0_dev18 c, k0_dev18_lt c⟩ : Dev nD) = partner 2 c := Fin.ext (k0_dev18_eq c)
theorem dev19_eq (c : Dev nD) : (⟨k0_dev19 c, k0_dev19_lt c⟩ : Dev nD) = partner 1 c := Fin.ext (k0_dev19_eq c)
theorem dev20_eq (c : Dev nD) : (⟨k0_dev20 c, k0_dev20_lt c⟩ : Dev nD) = partner 0 c := Fin.ext (k0_dev20_eq c)
theorem dev21_eq (c : Dev nD) : (⟨k0_dev21 c, k0_dev21_lt c⟩ : Dev nD) = partner 1 c := Fin.ext (k0_dev21_eq c)
theorem dev22_eq (c : Dev nD) : (⟨k0_dev22 c, k0_dev22_lt c⟩ : Dev nD) = partner 0 c := Fin.ext (k0_dev22_eq c)
theorem dev23_eq (c : Dev nD) : (⟨k0_dev23 c, k0_dev23_lt c⟩ : Dev nD) = partner 3 c := Fin.ext (k0_dev23_eq c)
theorem dev24_eq (c : Dev nD) : (⟨k0_dev24 c, k0_dev24_lt c⟩ : Dev nD) = partner 2 c := Fin.ext (k0_dev24_eq c)
theorem dev25_eq (c : Dev nD) : (⟨k0_dev25 c, k0_dev25_lt c⟩ : Dev nD) = partner 0 c := Fin.ext (k0_dev25_eq c)
theorem dev26_eq (c : Dev nD) : (⟨k0_dev26 c, k0_dev26_lt c⟩ : Dev nD) = partner 1 c := Fin.ext (k0_dev26_eq c)
theorem dev27_eq (c : Dev nD) : (⟨k0_dev27 c, k0_dev27_lt c⟩ : Dev nD) = partner 2 c := Fin.ext (k0_dev27_eq c)
theorem dev28_eq (c : Dev nD) : (⟨k0_dev28 c, k0_dev28_lt c⟩ : Dev nD) = partner 3 c := Fin.ext (k0_dev28_eq c)

/-! And with the dimension written as the stream's `k`-th: `dimOf s k = s xor k`. -/

theorem dev5_eq_dimOf (c : Dev nD) : (⟨k0_dev5 c, k0_dev5_lt c⟩ : Dev nD) = partner (dimOf 0 0) c := dev5_eq c
theorem dev6_eq_dimOf (c : Dev nD) : (⟨k0_dev6 c, k0_dev6_lt c⟩ : Dev nD) = partner (dimOf 1 0) c := dev6_eq c
theorem dev7_eq_dimOf (c : Dev nD) : (⟨k0_dev7 c, k0_dev7_lt c⟩ : Dev nD) = partner (dimOf 2 0) c := dev7_eq c
theorem dev8_eq_dimOf (c : Dev nD) : (⟨k0_dev8 c, k0_dev8_lt c⟩ : Dev nD) = partner (dimOf 3 0) c := dev8_eq c
theorem dev9_eq_dimOf (c : Dev nD) : (⟨k0_dev9 c, k0_dev9_lt c⟩ : Dev nD) = partner (dimOf 0 1) c := dev9_eq c
theorem dev10_eq_dimOf (c : Dev nD) : (⟨k0_dev10 c, k0_dev10_lt c⟩ : Dev nD) = partner (dimOf 1 1) c := dev10_eq c
theorem dev11_eq_dimOf (c : Dev nD) : (⟨k0_dev11 c, k0_dev11_lt c⟩ : Dev nD) = partner (dimOf 2 1) c := dev11_eq c
theorem dev12_eq_dimOf (c : Dev nD) : (⟨k0_dev12 c, k0_dev12_lt c⟩ : Dev nD) = partner (dimOf 3 1) c := dev12_eq c
theorem dev13_eq_dimOf (c : Dev nD) : (⟨k0_dev13 c, k0_dev13_lt c⟩ : Dev nD) = partner (dimOf 0 2) c := dev13_eq c
theorem dev14_eq_dimOf (c : Dev nD) : (⟨k0_dev14 c, k0_dev14_lt c⟩ : Dev nD) = partner (dimOf 1 2) c := dev14_eq c
theorem dev15_eq_dimOf (c : Dev nD) : (⟨k0_dev15 c, k0_dev15_lt c⟩ : Dev nD) = partner (dimOf 2 2) c := dev15_eq c
theorem dev16_eq_dimOf (c : Dev nD) : (⟨k0_dev16 c, k0_dev16_lt c⟩ : Dev nD) = partner (dimOf 3 2) c := dev16_eq c
theorem dev17_eq_dimOf (c : Dev nD) : (⟨k0_dev17 c, k0_dev17_lt c⟩ : Dev nD) = partner (dimOf 0 3) c := dev17_eq c
theorem dev18_eq_dimOf (c : Dev nD) : (⟨k0_dev18 c, k0_dev18_lt c⟩ : Dev nD) = partner (dimOf 1 3) c := dev18_eq c
theorem dev19_eq_dimOf (c : Dev nD) : (⟨k0_dev19 c, k0_dev19_lt c⟩ : Dev nD) = partner (dimOf 2 3) c := dev19_eq c
theorem dev20_eq_dimOf (c : Dev nD) : (⟨k0_dev20 c, k0_dev20_lt c⟩ : Dev nD) = partner (dimOf 3 3) c := dev20_eq c
theorem dev21_eq_dimOf (c : Dev nD) : (⟨k0_dev21 c, k0_dev21_lt c⟩ : Dev nD) = partner (dimOf 0 1) c := dev21_eq c
theorem dev22_eq_dimOf (c : Dev nD) : (⟨k0_dev22 c, k0_dev22_lt c⟩ : Dev nD) = partner (dimOf 1 1) c := dev22_eq c
theorem dev23_eq_dimOf (c : Dev nD) : (⟨k0_dev23 c, k0_dev23_lt c⟩ : Dev nD) = partner (dimOf 2 1) c := dev23_eq c
theorem dev24_eq_dimOf (c : Dev nD) : (⟨k0_dev24 c, k0_dev24_lt c⟩ : Dev nD) = partner (dimOf 3 1) c := dev24_eq c
theorem dev25_eq_dimOf (c : Dev nD) : (⟨k0_dev25 c, k0_dev25_lt c⟩ : Dev nD) = partner (dimOf 0 0) c := dev25_eq c
theorem dev26_eq_dimOf (c : Dev nD) : (⟨k0_dev26 c, k0_dev26_lt c⟩ : Dev nD) = partner (dimOf 1 0) c := dev26_eq c
theorem dev27_eq_dimOf (c : Dev nD) : (⟨k0_dev27 c, k0_dev27_lt c⟩ : Dev nD) = partner (dimOf 2 0) c := dev27_eq c
theorem dev28_eq_dimOf (c : Dev nD) : (⟨k0_dev28 c, k0_dev28_lt c⟩ : Dev nD) = partner (dimOf 3 0) c := dev28_eq c

/-! ## The row offsets

Stream `r` owns rows `128 r … 128 r + 127`; `k0_offJ_at r` lists the constants the `r`-th access passes: the stream's
first row and its first (and second) dimension. -/

/-- The first step's source in the device's block: the half of the stream's 128 rows given away, the one the device's bit along the stream's first dimension does NOT select. -/
theorem k0_off1_eq : ∀ (c : Dev nD) (r : Fin 4), k0_off1 c (k0_off1_at r).1 (k0_off1_at r).2 = ![0, 128 * r.val + 64 * (1 - lbit (dimOf r 0) c), 0] := by decide +kernel
/-- The half kept at the first step, read from the device's block. -/
theorem k0_off2_eq : ∀ (c : Dev nD) (r : Fin 4), k0_off2 c (k0_off2_at r).1 (k0_off2_at r).2 = ![0, 128 * r.val + 64 * lbit (dimOf r 0) c, 0] := by decide +kernel
/-- The half kept at the first step, in the result. -/
theorem k0_off3_eq : ∀ (c : Dev nD) (r : Fin 4), k0_off3 c (k0_off3_at r).1 (k0_off3_at r).2 = ![128 * r.val + 64 * lbit (dimOf r 0) c, 0] := by decide +kernel
/-- The second step's source: of the kept half, the quarter given away. -/
theorem k0_off4_eq : ∀ (c : Dev nD) (r : Fin 4), k0_off4 c (k0_off4_at r).1 (k0_off4_at r).2.1 (k0_off4_at r).2.2 = ![128 * r.val + 64 * lbit (dimOf r 0) c + 32 * (1 - lbit (dimOf r 1) c), 0] := by decide +kernel
/-- The quarter kept at the second step (as the loads and stores index it). -/
theorem k0_off5_eq : ∀ (c : Dev nD) (r : Fin 4), k0_off5 c (k0_off5_at r).1 (k0_off5_at r).2.1 (k0_off5_at r).2.2 = ![128 * r.val + 64 * lbit (dimOf r 0) c + 32 * lbit (dimOf r 1) c, 0] := by decide +kernel
/-- The kept quarter again (as the slices of the later copies take it): the same rows as `k0_off5`. -/
theorem k0_off6_eq : ∀ (c : Dev nD) (r : Fin 4), k0_off6 c (k0_off6_at r).1 (k0_off6_at r).2.1 (k0_off6_at r).2.2 = ![128 * r.val + 64 * lbit (dimOf r 0) c + 32 * lbit (dimOf r 1) c, 0] := by decide +kernel
/-- The kept half again, once the quarters are gathered back: the last step's source and destination. -/
theorem k0_off7_eq : ∀ (c : Dev nD) (r : Fin 4), k0_off7 c (k0_off7_at r).1 (k0_off7_at r).2.1 (k0_off7_at r).2.2 = ![128 * r.val + 64 * lbit (dimOf r 0) c, 0] := by decide +kernel

/-! The same at each stream, with the constants as the program writes them. -/

theorem k0_off1_eq_s0 (c : Dev nD) : k0_off1 c 0#32 0#32 = ![0, 128 * (0 : Fin 4).val + 64 * (1 - lbit (dimOf (0 : Fin 4) 0) c), 0] := k0_off1_eq c 0
theorem k0_off1_eq_s1 (c : Dev nD) : k0_off1 c 128#32 1#32 = ![0, 128 * (1 : Fin 4).val + 64 * (1 - lbit (dimOf (1 : Fin 4) 0) c), 0] := k0_off1_eq c 1
theorem k0_off1_eq_s2 (c : Dev nD) : k0_off1 c 256#32 2#32 = ![0, 128 * (2 : Fin 4).val + 64 * (1 - lbit (dimOf (2 : Fin 4) 0) c), 0] := k0_off1_eq c 2
theorem k0_off1_eq_s3 (c : Dev nD) : k0_off1 c 384#32 3#32 = ![0, 128 * (3 : Fin 4).val + 64 * (1 - lbit (dimOf (3 : Fin 4) 0) c), 0] := k0_off1_eq c 3
theorem k0_off2_eq_s0 (c : Dev nD) : k0_off2 c 0#32 0#32 = ![0, 128 * (0 : Fin 4).val + 64 * lbit (dimOf (0 : Fin 4) 0) c, 0] := k0_off2_eq c 0
theorem k0_off2_eq_s1 (c : Dev nD) : k0_off2 c 128#32 1#32 = ![0, 128 * (1 : Fin 4).val + 64 * lbit (dimOf (1 : Fin 4) 0) c, 0] := k0_off2_eq c 1
theorem k0_off2_eq_s2 (c : Dev nD) : k0_off2 c 256#32 2#32 = ![0, 128 * (2 : Fin 4).val + 64 * lbit (dimOf (2 : Fin 4) 0) c, 0] := k0_off2_eq c 2
theorem k0_off2_eq_s3 (c : Dev nD) : k0_off2 c 384#32 3#32 = ![0, 128 * (3 : Fin 4).val + 64 * lbit (dimOf (3 : Fin 4) 0) c, 0] := k0_off2_eq c 3
theorem k0_off3_eq_s0 (c : Dev nD) : k0_off3 c 0#32 0#32 = ![128 * (0 : Fin 4).val + 64 * lbit (dimOf (0 : Fin 4) 0) c, 0] := k0_off3_eq c 0
theorem k0_off3_eq_s1 (c : Dev nD) : k0_off3 c 128#32 1#32 = ![128 * (1 : Fin 4).val + 64 * lbit (dimOf (1 : Fin 4) 0) c, 0] := k0_off3_eq c 1
theorem k0_off3_eq_s2 (c : Dev nD) : k0_off3 c 256#32 2#32 = ![128 * (2 : Fin 4).val + 64 * lbit (dimOf (2 : Fin 4) 0) c, 0] := k0_off3_eq c 2
theorem k0_off3_eq_s3 (c : Dev nD) : k0_off3 c 384#32 3#32 = ![128 * (3 : Fin 4).val + 64 * lbit (dimOf (3 : Fin 4) 0) c, 0] := k0_off3_eq c 3
theorem k0_off4_eq_s0 (c : Dev nD) : k0_off4 c 0#32 0#32 1#32 = ![128 * (0 : Fin 4).val + 64 * lbit (dimOf (0 : Fin 4) 0) c + 32 * (1 - lbit (dimOf (0 : Fin 4) 1) c), 0] := k0_off4_eq c 0
theorem k0_off4_eq_s1 (c : Dev nD) : k0_off4 c 128#32 1#32 0#32 = ![128 * (1 : Fin 4).val + 64 * lbit (dimOf (1 : Fin 4) 0) c + 32 * (1 - lbit (dimOf (1 : Fin 4) 1) c), 0] := k0_off4_eq c 1
theorem k0_off4_eq_s2 (c : Dev nD) : k0_off4 c 256#32 2#32 3#32 = ![128 * (2 : Fin 4).val + 64 * lbit (dimOf (2 : Fin 4) 0) c + 32 * (1 - lbit (dimOf (2 : Fin 4) 1) c), 0] := k0_off4_eq c 2
theorem k0_off4_eq_s3 (c : Dev nD) : k0_off4 c 384#32 3#32 2#32 = ![128 * (3 : Fin 4).val + 64 * lbit (dimOf (3 : Fin 4) 0) c + 32 * (1 - lbit (dimOf (3 : Fin 4) 1) c), 0] := k0_off4_eq c 3
theorem k0_off5_eq_s0 (c : Dev nD) : k0_off5 c 0#32 0#32 1#32 = ![128 * (0 : Fin 4).val + 64 * lbit (dimOf (0 : Fin 4) 0) c + 32 * lbit (dimOf (0 : Fin 4) 1) c, 0] := k0_off5_eq c 0
theorem k0_off5_eq_s1 (c : Dev nD) : k0_off5 c 128#32 1#32 0#32 = ![128 * (1 : Fin 4).val + 64 * lbit (dimOf (1 : Fin 4) 0) c + 32 * lbit (dimOf (1 : Fin 4) 1) c, 0] := k0_off5_eq c 1
theorem k0_off5_eq_s2 (c : Dev nD) : k0_off5 c 256#32 2#32 3#32 = ![128 * (2 : Fin 4).val + 64 * lbit (dimOf (2 : Fin 4) 0) c + 32 * lbit (dimOf (2 : Fin 4) 1) c, 0] := k0_off5_eq c 2
theorem k0_off5_eq_s3 (c : Dev nD) : k0_off5 c 384#32 3#32 2#32 = ![128 * (3 : Fin 4).val + 64 * lbit (dimOf (3 : Fin 4) 0) c + 32 * lbit (dimOf (3 : Fin 4) 1) c, 0] := k0_off5_eq c 3
theorem k0_off6_eq_s0 (c : Dev nD) : k0_off6 c 0#32 0#32 1#32 = ![128 * (0 : Fin 4).val + 64 * lbit (dimOf (0 : Fin 4) 0) c + 32 * lbit (dimOf (0 : Fin 4) 1) c, 0] := k0_off6_eq c 0
theorem k0_off6_eq_s1 (c : Dev nD) : k0_off6 c 128#32 1#32 0#32 = ![128 * (1 : Fin 4).val + 64 * lbit (dimOf (1 : Fin 4) 0) c + 32 * lbit (dimOf (1 : Fin 4) 1) c, 0] := k0_off6_eq c 1
theorem k0_off6_eq_s2 (c : Dev nD) : k0_off6 c 256#32 2#32 3#32 = ![128 * (2 : Fin 4).val + 64 * lbit (dimOf (2 : Fin 4) 0) c + 32 * lbit (dimOf (2 : Fin 4) 1) c, 0] := k0_off6_eq c 2
theorem k0_off6_eq_s3 (c : Dev nD) : k0_off6 c 384#32 3#32 2#32 = ![128 * (3 : Fin 4).val + 64 * lbit (dimOf (3 : Fin 4) 0) c + 32 * lbit (dimOf (3 : Fin 4) 1) c, 0] := k0_off6_eq c 3
theorem k0_off7_eq_s0 (c : Dev nD) : k0_off7 c 0#32 0#32 1#32 = ![128 * (0 : Fin 4).val + 64 * lbit (dimOf (0 : Fin 4) 0) c, 0] := k0_off7_eq c 0
theorem k0_off7_eq_s1 (c : Dev nD) : k0_off7 c 128#32 1#32 0#32 = ![128 * (1 : Fin 4).val + 64 * lbit (dimOf (1 : Fin 4) 0) c, 0] := k0_off7_eq c 1
theorem k0_off7_eq_s2 (c : Dev nD) : k0_off7 c 256#32 2#32 3#32 = ![128 * (2 : Fin 4).val + 64 * lbit (dimOf (2 : Fin 4) 0) c, 0] := k0_off7_eq c 2
theorem k0_off7_eq_s3 (c : Dev nD) : k0_off7 c 384#32 3#32 2#32 = ![128 * (3 : Fin 4).val + 64 * lbit (dimOf (3 : Fin 4) 0) c, 0] := k0_off7_eq c 3

/-! ## The rows, through `keepRow` and the partner

The kept quarter starts `keepRow r c` rows into the stream; what a device gives away at a step is what its partner
along that step's dimension keeps. -/

theorem k0_off5_row : ∀ (c : Dev nD) (r : Fin 4), k0_off5 c (k0_off5_at r).1 (k0_off5_at r).2.1 (k0_off5_at r).2.2 0 = 128 * r.val + keepRow r c := by decide +kernel
theorem k0_off6_row : ∀ (c : Dev nD) (r : Fin 4), k0_off6 c (k0_off6_at r).1 (k0_off6_at r).2.1 (k0_off6_at r).2.2 0 = 128 * r.val + keepRow r c := by decide +kernel
theorem k0_off6_eq_off5 : ∀ (c : Dev nD) (r : Fin 4), k0_off6 c (k0_off6_at r).1 (k0_off6_at r).2.1 (k0_off6_at r).2.2 = k0_off5 c (k0_off5_at r).1 (k0_off5_at r).2.1 (k0_off5_at r).2.2 := by decide +kernel
theorem k0_off7_eq_off3 : ∀ (c : Dev nD) (r : Fin 4), k0_off7 c (k0_off7_at r).1 (k0_off7_at r).2.1 (k0_off7_at r).2.2 = k0_off3 c (k0_off3_at r).1 (k0_off3_at r).2 := by decide +kernel
/-- The half a device gives away at the first step is the half its partner along the stream's first dimension keeps. -/
theorem k0_off1_eq_partner : ∀ (c : Dev nD) (r : Fin 4), k0_off1 c (k0_off1_at r).1 (k0_off1_at r).2 = k0_off2 (partner (dimOf r 0) c) (k0_off2_at r).1 (k0_off2_at r).2 := by decide +kernel
/-- The quarter a device gives away at the second step is the quarter its partner along the stream's second dimension keeps. -/
theorem k0_off4_eq_partner : ∀ (c : Dev nD) (r : Fin 4), k0_off4 c (k0_off4_at r).1 (k0_off4_at r).2.1 (k0_off4_at r).2.2 = k0_off5 (partner (dimOf r 1) c) (k0_off5_at r).1 (k0_off5_at r).2.1 (k0_off5_at r).2.2 := by decide +kernel
/-- Along the stream's third and fourth dimension the partner keeps the same quarter. -/
theorem k0_off6_partner_far : ∀ (c : Dev nD) (r k : Fin 4), 2 ≤ k.val → k0_off6 (partner (dimOf r k) c) (k0_off6_at r).1 (k0_off6_at r).2.1 (k0_off6_at r).2.2 = k0_off6 c (k0_off6_at r).1 (k0_off6_at r).2.1 (k0_off6_at r).2.2 := by decide +kernel
/-- Along the stream's second dimension the partner keeps the other quarter of the same half. -/
theorem k0_off7_partner_second : ∀ (c : Dev nD) (r : Fin 4), k0_off7 (partner (dimOf r 1) c) (k0_off7_at r).1 (k0_off7_at r).2.1 (k0_off7_at r).2.2 = k0_off7 c (k0_off7_at r).1 (k0_off7_at r).2.1 (k0_off7_at r).2.2 := by decide +kernel

/-- info: 'Cert.Kernel.Chains.k0_off7_partner_second' depends on axioms: [propext, Classical.choice, Quot.sound] -/
#guard_msgs in #print axioms k0_off7_partner_second

end Cert.Kernel.Chains
-- ==== Proof.Bits.Regions.lean ====
/-
  Splitting and rejoining the three buffers of a device.

  Every piece a slot passes around is a band of consecutive rows, whole in the other coordinates: of `x` and of
  `out` stream `s` owns rows `128 s .. 128 s + 127`, cut into the half the device keeps (`64` rows from
  `128 s + 64 b₀`, `b₀` the bit of the device's label along the stream's first dimension) and the other half; the
  kept half of `out` is cut again into the kept quarter (`32` rows from `+ 32 b₁`) and the given quarter. Of the
  receive buffer stream `s` owns rows `160 s .. 160 s + 159`: `64` rows for slot 0 and `32` for each of slots 1, 2, 3.
  Here: the same rows under their different spellings, each piece's element set as a band, and the equations that
  cut a buffer into its pieces and put it back, along rows and along shares.

  An equation `P = Q` between assertions is used in either direction (`Entails.of_eq`), or rewritten with.
-/
import proofs.«900484_g7700000000000485_dist_treered_v7x_i16_m512_n512_f32_1_alg».proof.Proof.Bits.Res
import proofs.«900484_g7700000000000485_dist_treered_v7x_i16_m512_n512_f32_1_alg».proof.Proof.Bits.Chains

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The same rows, other spellings -/

/-- Two unit-stride slices of one memref at equal offsets are one memref. -/
theorem slice_unit_congr {sh : Shape} (M : Memref sig .tc .vmem sh .f32) {off off' : Fin sh.rank → Nat} (size : Fin sh.rank → Nat)
    (h : off = off') (inb : ∀ a, off a + size a ≤ sh.size a) (inb' : ∀ a, off' a + size a ≤ sh.size a) :
    M.slice (Rect.unit off size inb) (fun _ => rfl) = M.slice (Rect.unit off' size inb') (fun _ => rfl) := by
  subst h; rfl

theorem dimOf_zero : ∀ b : Fin 4, dimOf b 0 = b := by decide
theorem dimOf_dimOf : ∀ b k : Fin 4, dimOf (dimOf b k) k = b := by decide

/-- The partner of slots 0 and 5 of stream `s` is the one along the stream's first dimension, of slots 1 and 4 along its second. -/
theorem peer0_eq (s : Fin 4) (c : Dev nD) : peer s 0 c = partner (dimOf s 0) c := rfl
theorem peer1_eq (s : Fin 4) (c : Dev nD) : peer s 1 c = partner (dimOf s 1) c := rfl
theorem peer2_eq (s : Fin 4) (c : Dev nD) : peer s 2 c = partner (dimOf s 2) c := rfl
theorem peer3_eq (s : Fin 4) (c : Dev nD) : peer s 3 c = partner (dimOf s 3) c := rfl
theorem peer4_eq (s : Fin 4) (c : Dev nD) : peer s 4 c = partner (dimOf s 1) c := rfl
theorem peer5_eq (s : Fin 4) (c : Dev nD) : peer s 5 c = partner (dimOf s 0) c := rfl
/-- Along dimension `b` the partner of slot 5 of stream `b` is the partner along `b`. -/
theorem peer5_self (b : Fin 4) (c : Dev nD) : peer b 5 c = partner b c := by rw [peer5_eq, dimOf_zero]
theorem peer_peer (s : Fin 4) (t : Fin 6) (c : Dev nD) : peer s t (peer s t c) = c := partner_partner _ c

/-- The kept half of `out` under its two printed offsets. -/
theorem oHalf'_eq (c : Dev nD) (s : Fin 4) : oHalf' c s = oHalf c s :=
  slice_unit_congr oM S64x512.size (Chains.k0_off7_eq_off3 c s).symm _ _
/-- The kept quarter of `out` under its two printed offsets. -/
theorem oKeep'_eq (c : Dev nD) (s : Fin 4) : oKeep' c s = oKeep c s :=
  slice_unit_congr oM S32x512.size (Chains.k0_off6_eq_off5 c s).symm _ _
/-- What the partner of slot 1 gives away is what the device keeps. -/
theorem oGive_peer1_eq (c : Dev nD) (s : Fin 4) : oGive (peer s 1 c) s = oKeep c s :=
  slice_unit_congr oM S32x512.size
    (by rw [peer1_eq, Chains.k0_off4_eq_partner, partner_partner, Chains.k0_off6_eq_off5]) _ _
/-- What the partner of slot 4 keeps is what the device gave away in slot 1. -/
theorem oKeep_peer4_eq (c : Dev nD) (s : Fin 4) : oKeep (peer s 4 c) s = oGive c s :=
  slice_unit_congr oM S32x512.size
    (by rw [peer4_eq, Chains.k0_off6_eq_off5, Chains.k0_off4_eq_partner]) _ _
/-- The partners of slots 2 and 3 keep the same quarter. -/
theorem oKeep_peer2_eq (c : Dev nD) (s : Fin 4) : oKeep (peer s 2 c) s = oKeep c s :=
  slice_unit_congr oM S32x512.size (by rw [peer2_eq]; exact Chains.k0_off6_partner_far c s 2 (by decide)) _ _
theorem oKeep_peer3_eq (c : Dev nD) (s : Fin 4) : oKeep (peer s 3 c) s = oKeep c s :=
  slice_unit_congr oM S32x512.size (by rw [peer3_eq]; exact Chains.k0_off6_partner_far c s 3 (by decide)) _ _
/-- The partners of slots 1 and 4 keep the same half. -/
theorem oHalf_peer1_eq (c : Dev nD) (s : Fin 4) : oHalf (peer s 1 c) s = oHalf c s :=
  slice_unit_congr oM S64x512.size (by rw [peer1_eq]; exact Chains.k0_off7_partner_second c s) _ _
theorem oHalf_peer4_eq (c : Dev nD) (s : Fin 4) : oHalf (peer s 4 c) s = oHalf c s :=
  slice_unit_congr oM S64x512.size (by rw [peer4_eq]; exact Chains.k0_off7_partner_second c s) _ _

/-! ## Bands of rows -/

/-- The elements of a shape whose coordinate on axis `ax` lies in `a ≤ · < b`. -/
def band (sh : Shape) (ax : Fin sh.rank) (a b : Nat) : Finset sh.Idx :=
  Finset.univ.filter fun i => a ≤ (i ax : Nat) ∧ (i ax : Nat) < b

theorem mem_band {sh : Shape} {ax : Fin sh.rank} {a b : Nat} {i : sh.Idx} :
    i ∈ band sh ax a b ↔ a ≤ (i ax : Nat) ∧ (i ax : Nat) < b := by
  simp only [band, Finset.mem_filter, Finset.mem_univ, true_and]

theorem band_union {sh : Shape} {ax : Fin sh.rank} {a b d : Nat} (hab : a ≤ b) (hbd : b ≤ d) :
    band sh ax a b ∪ band sh ax b d = band sh ax a d := by
  ext i; simp only [Finset.mem_union, mem_band]; omega

theorem band_disjoint {sh : Shape} {ax : Fin sh.rank} {a b b' d : Nat} (h : b ≤ b') :
    Disjoint (band sh ax a b) (band sh ax b' d) := by
  rw [Finset.disjoint_left]; intro i hi hj; rw [mem_band] at hi hj; omega

theorem band_univ (sh : Shape) (ax : Fin sh.rank) : band sh ax 0 (sh.size ax) = Finset.univ := by
  ext i; simp only [mem_band, Finset.mem_univ, iff_true]; exact ⟨Nat.zero_le _, (i ax).isLt⟩

/-- A unit-stride rectangle that is whole on every axis but `ax` is a band. -/
theorem set_unit_band {sh : Shape} (ax : Fin sh.rank) (off size : Fin sh.rank → Nat) (inb : ∀ a, off a + size a ≤ sh.size a)
    (h : ∀ a, a ≠ ax → off a = 0 ∧ size a = sh.size a) :
    (Rect.unit (s := sh) off size inb).set = band sh ax (off ax) (off ax + size ax) := by
  ext i
  rw [Rect.mem_set_unit, mem_band]
  constructor
  · intro hi; exact hi ax
  · intro hi a
    by_cases ha : a = ax
    · subst ha; exact hi
    · obtain ⟨h0, h1⟩ := h a ha
      rw [h0, h1]; exact ⟨Nat.zero_le _, by have := (i a).isLt; omega⟩

/-- The same for a slice of a whole buffer. -/
theorem set_slice_band (b : Ref sig .tc) (ax : Fin b.ty.shape.rank) (off size : Fin b.ty.shape.rank → Nat)
    (inb : ∀ a, off a + size a ≤ b.ty.shape.size a) (h : ∀ a, a ≠ ax → off a = 0 ∧ size a = b.ty.shape.size a) :
    ((Memref.whole b).slice (Rect.unit off size inb) (fun _ => rfl)).view.set = band b.ty.shape ax (off ax) (off ax + size ax) := by
  exact (View.set_slice_whole b _).trans (set_unit_band ax off size inb h)

/-! ## Each piece's elements -/

theorem band_congr {sh : Shape} {ax : Fin sh.rank} {a a' b b' : Nat} (ha : a = a') (hb : b = b') :
    band sh ax a b = band sh ax a' b' := by rw [ha, hb]

theorem set_oHalf (c : Dev nD) (s : Fin 4) : (oHalf c s).view.set
    = band S512x512 0 (128 * s.val + 64 * lbit (dimOf s 0) c) (128 * s.val + 64 * lbit (dimOf s 0) c + 64) := by
  refine (set_slice_band cc0_stg1_0 0 _ _ _ ?_).trans ?_
  · intro a ha; rw [Chains.k0_off7_eq]; fin_cases a
    · exact absurd rfl ha
    · exact ⟨rfl, rfl⟩
  · rw [Chains.k0_off7_eq]; rfl

theorem set_oKeep (c : Dev nD) (s : Fin 4) : (oKeep c s).view.set
    = band S512x512 0 (128 * s.val + 64 * lbit (dimOf s 0) c + 32 * lbit (dimOf s 1) c)
        (128 * s.val + 64 * lbit (dimOf s 0) c + 32 * lbit (dimOf s 1) c + 32) := by
  refine (set_slice_band cc0_stg1_0 0 _ _ _ ?_).trans ?_
  · intro a ha; rw [Chains.k0_off6_eq]; fin_cases a
    · exact absurd rfl ha
    · exact ⟨rfl, rfl⟩
  · rw [Chains.k0_off6_eq]; rfl

theorem set_oGive (c : Dev nD) (s : Fin 4) : (oGive c s).view.set
    = band S512x512 0 (128 * s.val + 64 * lbit (dimOf s 0) c + 32 * (1 - lbit (dimOf s 1) c))
        (128 * s.val + 64 * lbit (dimOf s 0) c + 32 * (1 - lbit (dimOf s 1) c) + 32) := by
  refine (set_slice_band cc0_stg1_0 0 _ _ _ ?_).trans ?_
  · intro a ha; rw [Chains.k0_off4_eq]; fin_cases a
    · exact absurd rfl ha
    · exact ⟨rfl, rfl⟩
  · rw [Chains.k0_off4_eq]; rfl

/-- The half of stream `s`'s rows of `out` the device does NOT keep: the rows its partner along the stream's first
    dimension keeps. -/
theorem set_oHalf_peer5 (c : Dev nD) (s : Fin 4) : (oHalf (peer s 5 c) s).view.set
    = band S512x512 0 (128 * s.val + 64 * (1 - lbit (dimOf s 0) c)) (128 * s.val + 64 * (1 - lbit (dimOf s 0) c) + 64) := by
  rw [set_oHalf (peer s 5 c) s, peer5_eq, lbit_partner_self]

theorem set_xGive (c : Dev nD) (s : Fin 4) : (xGive c s).view.set
    = band S1x512x512 1 (128 * s.val + 64 * (1 - lbit (dimOf s 0) c)) (128 * s.val + 64 * (1 - lbit (dimOf s 0) c) + 64) := by
  refine (View.set_reshape _ _).trans ?_
  refine (set_slice_band cc0_stg0_0 1 _ _ _ ?_).trans ?_
  · intro a ha; rw [Chains.k0_off1_eq]; fin_cases a
    · exact ⟨rfl, rfl⟩
    · exact absurd rfl ha
    · exact ⟨rfl, rfl⟩
  · rw [Chains.k0_off1_eq]; rfl

theorem set_xKeep (c : Dev nD) (s : Fin 4) : (xKeep c s).view.set
    = band S1x512x512 1 (128 * s.val + 64 * lbit (dimOf s 0) c) (128 * s.val + 64 * lbit (dimOf s 0) c + 64) := by
  refine (set_slice_band cc0_stg0_0 1 _ _ _ ?_).trans ?_
  · intro a ha; rw [Chains.k0_off2_eq]; fin_cases a
    · exact ⟨rfl, rfl⟩
    · exact absurd rfl ha
    · exact ⟨rfl, rfl⟩
  · rw [Chains.k0_off2_eq]; rfl

theorem set_rSlot0 (s : Fin 4) : (rSlot0 s).view.set = band S640x512 0 (160 * s.val) (160 * s.val + 64) := by
  refine (set_slice_band cc0_scratch0 0 _ _ _ ?_).trans rfl
  intro a ha; fin_cases a
  · exact absurd rfl ha
  · exact ⟨rfl, rfl⟩

theorem set_rSlot1 (s : Fin 4) : (rSlot s 1 (.inl rfl)).view.set = band S640x512 0 (160 * s.val + 64) (160 * s.val + 96) := by
  refine (set_slice_band cc0_scratch0 0 _ _ _ ?_).trans (band_congr rfl (by show 160 * s.val + 64 + 32 = _; omega))
  intro a ha; fin_cases a
  · exact absurd rfl ha
  · exact ⟨rfl, rfl⟩

theorem set_rSlot2 (s : Fin 4) : (rSlot s 2 (.inr (.inl rfl))).view.set = band S640x512 0 (160 * s.val + 96) (160 * s.val + 128) := by
  refine (set_slice_band cc0_scratch0 0 _ _ _ ?_).trans (band_congr rfl (by show 160 * s.val + 96 + 32 = _; omega))
  intro a ha; fin_cases a
  · exact absurd rfl ha
  · exact ⟨rfl, rfl⟩

theorem set_rSlot3 (s : Fin 4) : (rSlot s 3 (.inr (.inr rfl))).view.set = band S640x512 0 (160 * s.val + 128) (160 * s.val + 160) := by
  refine (set_slice_band cc0_scratch0 0 _ _ _ ?_).trans (band_congr rfl (by show 160 * s.val + 128 + 32 = _; omega))
  intro a ha; fin_cases a
  · exact absurd rfl ha
  · exact ⟨rfl, rfl⟩

/-! ## Cutting a band of a buffer -/

/-- Two assertions that entail each other are equal. -/
theorem eq_of_bi {F : FTy → Type} [FloatOps F] {P Q : sProp (MT nD τ sig Unit (Elt F) ℕ UU ℕ)} (h : P ⊣⊢ Q) : P = Q :=
  BI.equiv_iff.mp ⟨h.1, h.2⟩

theorem sep_comm_eq {F : FTy → Type} [FloatOps F] (P Q : sProp (MT nD τ sig Unit (Elt F) ℕ UU ℕ)) : iprop(P ∗ Q) = iprop(Q ∗ P) :=
  eq_of_bi sep_comm

theorem sep_assoc_eq {F : FTy → Type} [FloatOps F] (P Q R : sProp (MT nD τ sig Unit (Elt F) ℕ UU ℕ)) : iprop((P ∗ Q) ∗ R) = iprop(P ∗ Q ∗ R) :=
  eq_of_bi sep_assoc

/-- A band cut at a row. -/
theorem pt_band_split {F : FTy → Type} [FloatOps F] {ℓ : Loc nD τ sig} (ax : Fin ℓ.ty.shape.rank) {a b d : Nat}
    (hab : a ≤ b) (hbd : b ≤ d) (q : PosShare TreeShare) (f : Buf (Elt F) ℓ) :
    (ℓ ↦[band ℓ.ty.shape ax a d]{q} f : sProp (MT nD τ sig Unit (Elt F) ℕ UU ℕ))
      = iprop((ℓ ↦[band ℓ.ty.shape ax a b]{q} f) ∗ ℓ ↦[band ℓ.ty.shape ax b d]{q} f) := by
  rw [← band_union hab hbd]; exact eq_of_bi (pointsTo_union (band_disjoint (Nat.le_refl b)))

/-- A band cut into two adjacent bands named in either order. -/
theorem pt_band_two {F : FTy → Type} [FloatOps F] {ℓ : Loc nD τ sig} (ax : Fin ℓ.ty.shape.rank) {a d a₁ d₁ a₂ d₂ : Nat}
    (h : (a₁ = a ∧ d₁ = a₂ ∧ d₂ = d ∧ a ≤ d₁ ∧ d₁ ≤ d) ∨ (a₂ = a ∧ d₂ = a₁ ∧ d₁ = d ∧ a ≤ d₂ ∧ d₂ ≤ d))
    (q : PosShare TreeShare) (f : Buf (Elt F) ℓ) :
    (ℓ ↦[band ℓ.ty.shape ax a d]{q} f : sProp (MT nD τ sig Unit (Elt F) ℕ UU ℕ))
      = iprop((ℓ ↦[band ℓ.ty.shape ax a₁ d₁]{q} f) ∗ ℓ ↦[band ℓ.ty.shape ax a₂ d₂]{q} f) := by
  rcases h with ⟨h1, h2, h3, h4, h5⟩ | ⟨h1, h2, h3, h4, h5⟩
  · subst h1 h2 h3; exact pt_band_split ax h4 h5 q f
  · subst h1 h2 h3; rw [pt_band_split ax h4 h5 q f]; exact sep_comm_eq _ _

/-- A band cut into four adjacent bands. -/
theorem pt_band_four {F : FTy → Type} [FloatOps F] {ℓ : Loc nD τ sig} (ax : Fin ℓ.ty.shape.rank) {a₀ a₁ a₂ a₃ a₄ : Nat}
    (h01 : a₀ ≤ a₁) (h12 : a₁ ≤ a₂) (h23 : a₂ ≤ a₃) (h34 : a₃ ≤ a₄) (q : PosShare TreeShare) (f : Buf (Elt F) ℓ) :
    (ℓ ↦[band ℓ.ty.shape ax a₀ a₄]{q} f : sProp (MT nD τ sig Unit (Elt F) ℕ UU ℕ))
      = iprop((ℓ ↦[band ℓ.ty.shape ax a₀ a₁]{q} f) ∗ (ℓ ↦[band ℓ.ty.shape ax a₁ a₂]{q} f)
          ∗ (ℓ ↦[band ℓ.ty.shape ax a₂ a₃]{q} f) ∗ ℓ ↦[band ℓ.ty.shape ax a₃ a₄]{q} f) := by
  rw [pt_band_split ax h01 (h12.trans (h23.trans h34)) q f, pt_band_split ax h12 (h23.trans h34) q f,
    pt_band_split ax h23 h34 q f]

/-- A piece at a share is its two half shares. -/
theorem own_halves {F : FTy → Type} [FloatOps F] {sh : Shape} (M : Memref sig .tc .vmem sh .f32) (d : Dev nD)
    (q : PosShare TreeShare) (f : Buf (Elt F) (M.view.loc (d : Thread nD τ))) :
    own M d q f = iprop(own M d q.left f ∗ own M d q.right f) :=
  eq_of_bi (pointsTo_share (PosShare.mem_left_op_right q))

/-! ## Each piece, on any device's buffer, as a band of that buffer -/

theorem own_oHalf {F : FTy → Type} [FloatOps F] (c d : Dev nD) (s : Fin 4) (q : PosShare TreeShare)
    (f : Buf (Elt F) ((d : Thread nD τ).loc cc0_stg1_0)) :
    own (oHalf c s) d q f = (((d : Thread nD τ).loc cc0_stg1_0)
      ↦[band S512x512 0 (128 * s.val + 64 * lbit (dimOf s 0) c) (128 * s.val + 64 * lbit (dimOf s 0) c + 64)]{q} f) :=
  congrArg (fun I => pointsTo ((d : Thread nD τ).loc cc0_stg1_0) I q f) (set_oHalf c s)

theorem own_oKeep {F : FTy → Type} [FloatOps F] (c d : Dev nD) (s : Fin 4) (q : PosShare TreeShare)
    (f : Buf (Elt F) ((d : Thread nD τ).loc cc0_stg1_0)) :
    own (oKeep c s) d q f = (((d : Thread nD τ).loc cc0_stg1_0)
      ↦[band S512x512 0 (128 * s.val + 64 * lbit (dimOf s 0) c + 32 * lbit (dimOf s 1) c)
          (128 * s.val + 64 * lbit (dimOf s 0) c + 32 * lbit (dimOf s 1) c + 32)]{q} f) :=
  congrArg (fun I => pointsTo ((d : Thread nD τ).loc cc0_stg1_0) I q f) (set_oKeep c s)

theorem own_oGive {F : FTy → Type} [FloatOps F] (c d : Dev nD) (s : Fin 4) (q : PosShare TreeShare)
    (f : Buf (Elt F) ((d : Thread nD τ).loc cc0_stg1_0)) :
    own (oGive c s) d q f = (((d : Thread nD τ).loc cc0_stg1_0)
      ↦[band S512x512 0 (128 * s.val + 64 * lbit (dimOf s 0) c + 32 * (1 - lbit (dimOf s 1) c))
          (128 * s.val + 64 * lbit (dimOf s 0) c + 32 * (1 - lbit (dimOf s 1) c) + 32)]{q} f) :=
  congrArg (fun I => pointsTo ((d : Thread nD τ).loc cc0_stg1_0) I q f) (set_oGive c s)

theorem own_oHalf_peer5 {F : FTy → Type} [FloatOps F] (c d : Dev nD) (s : Fin 4) (q : PosShare TreeShare)
    (f : Buf (Elt F) ((d : Thread nD τ).loc cc0_stg1_0)) :
    own (oHalf (peer s 5 c) s) d q f = (((d : Thread nD τ).loc cc0_stg1_0)
      ↦[band S512x512 0 (128 * s.val + 64 * (1 - lbit (dimOf s 0) c)) (128 * s.val + 64 * (1 - lbit (dimOf s 0) c) + 64)]{q} f) :=
  congrArg (fun I => pointsTo ((d : Thread nD τ).loc cc0_stg1_0) I q f) (set_oHalf_peer5 c s)

theorem own_xGive {F : FTy → Type} [FloatOps F] (c d : Dev nD) (s : Fin 4) (q : PosShare TreeShare)
    (f : Buf (Elt F) ((d : Thread nD τ).loc cc0_stg0_0)) :
    own (xGive c s) d q f = (((d : Thread nD τ).loc cc0_stg0_0)
      ↦[band S1x512x512 1 (128 * s.val + 64 * (1 - lbit (dimOf s 0) c)) (128 * s.val + 64 * (1 - lbit (dimOf s 0) c) + 64)]{q} f) :=
  congrArg (fun I => pointsTo ((d : Thread nD τ).loc cc0_stg0_0) I q f) (set_xGive c s)

theorem own_xKeep {F : FTy → Type} [FloatOps F] (c d : Dev nD) (s : Fin 4) (q : PosShare TreeShare)
    (f : Buf (Elt F) ((d : Thread nD τ).loc cc0_stg0_0)) :
    own (xKeep c s) d q f = (((d : Thread nD τ).loc cc0_stg0_0)
      ↦[band S1x512x512 1 (128 * s.val + 64 * lbit (dimOf s 0) c) (128 * s.val + 64 * lbit (dimOf s 0) c + 64)]{q} f) :=
  congrArg (fun I => pointsTo ((d : Thread nD τ).loc cc0_stg0_0) I q f) (set_xKeep c s)

theorem own_rSlot0 {F : FTy → Type} [FloatOps F] (d : Dev nD) (s : Fin 4) (q : PosShare TreeShare)
    (f : Buf (Elt F) ((d : Thread nD τ).loc cc0_scratch0)) :
    own (rSlot0 s) d q f = (((d : Thread nD τ).loc cc0_scratch0) ↦[band S640x512 0 (160 * s.val) (160 * s.val + 64)]{q} f) :=
  congrArg (fun I => pointsTo ((d : Thread nD τ).loc cc0_scratch0) I q f) (set_rSlot0 s)

theorem own_rSlot1 {F : FTy → Type} [FloatOps F] (d : Dev nD) (s : Fin 4) (q : PosShare TreeShare)
    (f : Buf (Elt F) ((d : Thread nD τ).loc cc0_scratch0)) :
    own (rSlot s 1 (.inl rfl)) d q f = (((d : Thread nD τ).loc cc0_scratch0) ↦[band S640x512 0 (160 * s.val + 64) (160 * s.val + 96)]{q} f) :=
  congrArg (fun I => pointsTo ((d : Thread nD τ).loc cc0_scratch0) I q f) (set_rSlot1 s)

theorem own_rSlot2 {F : FTy → Type} [FloatOps F] (d : Dev nD) (s : Fin 4) (q : PosShare TreeShare)
    (f : Buf (Elt F) ((d : Thread nD τ).loc cc0_scratch0)) :
    own (rSlot s 2 (.inr (.inl rfl))) d q f = (((d : Thread nD τ).loc cc0_scratch0) ↦[band S640x512 0 (160 * s.val + 96) (160 * s.val + 128)]{q} f) :=
  congrArg (fun I => pointsTo ((d : Thread nD τ).loc cc0_scratch0) I q f) (set_rSlot2 s)

theorem own_rSlot3 {F : FTy → Type} [FloatOps F] (d : Dev nD) (s : Fin 4) (q : PosShare TreeShare)
    (f : Buf (Elt F) ((d : Thread nD τ).loc cc0_scratch0)) :
    own (rSlot s 3 (.inr (.inr rfl))) d q f = (((d : Thread nD τ).loc cc0_scratch0) ↦[band S640x512 0 (160 * s.val + 128) (160 * s.val + 160)]{q} f) :=
  congrArg (fun I => pointsTo ((d : Thread nD τ).loc cc0_scratch0) I q f) (set_rSlot3 s)

/-! ## One stream's rows into its pieces -/

/-- Stream `s`'s 128 rows of `x`: the half given away and the half kept. -/
theorem x_stream {F : FTy → Type} [FloatOps F] (c d : Dev nD) (s : Fin 4) (q : PosShare TreeShare)
    (f : Buf (Elt F) ((d : Thread nD τ).loc cc0_stg0_0)) (A B : Nat) (hA : A = 128 * s.val) (hB : B = 128 * s.val + 128) :
    (((d : Thread nD τ).loc cc0_stg0_0) ↦[band S1x512x512 1 A B]{q} f)
      = iprop(own (xGive c s) d q f ∗ own (xKeep c s) d q f) := by
  rw [own_xGive, own_xKeep]
  exact pt_band_two (ℓ := (d : Thread nD τ).loc cc0_stg0_0) 1 (by have := lbit_le (dimOf s 0) c; omega) q f

/-- Stream `s`'s 128 rows of `out`: the half the device keeps and the half its partner along the stream's first
    dimension keeps. -/
theorem out_stream {F : FTy → Type} [FloatOps F] (c d : Dev nD) (s : Fin 4) (q : PosShare TreeShare)
    (f : Buf (Elt F) ((d : Thread nD τ).loc cc0_stg1_0)) (A B : Nat) (hA : A = 128 * s.val) (hB : B = 128 * s.val + 128) :
    (((d : Thread nD τ).loc cc0_stg1_0) ↦[band S512x512 0 A B]{q} f)
      = iprop(own (oHalf c s) d q f ∗ own (oHalf (peer s 5 c) s) d q f) := by
  rw [own_oHalf, own_oHalf_peer5]
  exact pt_band_two (ℓ := (d : Thread nD τ).loc cc0_stg1_0) 0 (by have := lbit_le (dimOf s 0) c; omega) q f

/-- Stream `s`'s 160 rows of the receive buffer: the rows of slots 0, 1, 2, 3. -/
theorem recv_stream {F : FTy → Type} [FloatOps F] (d : Dev nD) (s : Fin 4) (q : PosShare TreeShare)
    (f : Buf (Elt F) ((d : Thread nD τ).loc cc0_scratch0)) (A B : Nat) (hA : A = 160 * s.val) (hB : B = 160 * s.val + 160) :
    (((d : Thread nD τ).loc cc0_scratch0) ↦[band S640x512 0 A B]{q} f)
      = iprop(own (rSlot0 s) d q f ∗ own (rSlot s 1 (.inl rfl)) d q f ∗ own (rSlot s 2 (.inr (.inl rfl))) d q f
          ∗ own (rSlot s 3 (.inr (.inr rfl))) d q f) := by
  rw [own_rSlot0, own_rSlot1, own_rSlot2, own_rSlot3, hA, hB]
  exact pt_band_four (ℓ := (d : Thread nD τ).loc cc0_scratch0) 0 (by omega) (by omega) (by omega) (by omega) q f

/-- The kept half of `out`: the kept quarter and the given quarter. -/
theorem oHalf_quarters {F : FTy → Type} [FloatOps F] (c d : Dev nD) (s : Fin 4) (q : PosShare TreeShare)
    (f : Buf (Elt F) ((d : Thread nD τ).loc cc0_stg1_0)) :
    own (oHalf c s) d q f = iprop(own (oKeep c s) d q f ∗ own (oGive c s) d q f) := by
  rw [own_oHalf, own_oKeep, own_oGive]
  exact pt_band_two (ℓ := (d : Thread nD τ).loc cc0_stg1_0) 0 (by have := lbit_le (dimOf s 1) c; omega) q f

/-! ## A whole buffer into the pieces of its four streams -/

/-- `x` of device `d`, whole: per stream the half `c` gives away and the half it keeps. -/
theorem x_pieces {F : FTy → Type} [FloatOps F] (c d : Dev nD) (q : PosShare TreeShare)
    (f : Buf (Elt F) ((d : Thread nD τ).loc cc0_stg0_0)) :
    (((d : Thread nD τ).loc cc0_stg0_0) ↦{q} f)
      = iprop((own (xGive c 0) d q f ∗ own (xKeep c 0) d q f) ∗ (own (xGive c 1) d q f ∗ own (xKeep c 1) d q f)
          ∗ (own (xGive c 2) d q f ∗ own (xKeep c 2) d q f) ∗ (own (xGive c 3) d q f ∗ own (xKeep c 3) d q f)) := by
  rw [← x_stream c d 0 q f 0 128 rfl rfl, ← x_stream c d 1 q f 128 256 rfl rfl, ← x_stream c d 2 q f 256 384 rfl rfl,
    ← x_stream c d 3 q f 384 512 rfl rfl]
  refine Eq.trans ?_ (pt_band_four (ℓ := (d : Thread nD τ).loc cc0_stg0_0) 1 (a₀ := 0) (a₁ := 128) (a₂ := 256) (a₃ := 384) (a₄ := 512)
    (by omega) (by omega) (by omega) (by omega) q f)
  exact congrArg (fun I => pointsTo ((d : Thread nD τ).loc cc0_stg0_0) I q f) (band_univ S1x512x512 1).symm

/-- `out` of device `d`, whole: per stream the half `c` keeps and the half its partner along the stream's first
    dimension keeps. -/
theorem out_pieces {F : FTy → Type} [FloatOps F] (c d : Dev nD) (q : PosShare TreeShare)
    (f : Buf (Elt F) ((d : Thread nD τ).loc cc0_stg1_0)) :
    (((d : Thread nD τ).loc cc0_stg1_0) ↦{q} f)
      = iprop((own (oHalf c 0) d q f ∗ own (oHalf (peer 0 5 c) 0) d q f) ∗ (own (oHalf c 1) d q f ∗ own (oHalf (peer 1 5 c) 1) d q f)
          ∗ (own (oHalf c 2) d q f ∗ own (oHalf (peer 2 5 c) 2) d q f) ∗ (own (oHalf c 3) d q f ∗ own (oHalf (peer 3 5 c) 3) d q f)) := by
  rw [← out_stream c d 0 q f 0 128 rfl rfl, ← out_stream c d 1 q f 128 256 rfl rfl, ← out_stream c d 2 q f 256 384 rfl rfl,
    ← out_stream c d 3 q f 384 512 rfl rfl]
  refine Eq.trans ?_ (pt_band_four (ℓ := (d : Thread nD τ).loc cc0_stg1_0) 0 (a₀ := 0) (a₁ := 128) (a₂ := 256) (a₃ := 384) (a₄ := 512)
    (by omega) (by omega) (by omega) (by omega) q f)
  exact congrArg (fun I => pointsTo ((d : Thread nD τ).loc cc0_stg1_0) I q f) (band_univ S512x512 0).symm

/-- The receive buffer of device `d`, whole: per stream the rows of slots 0, 1, 2, 3. -/
theorem recv_pieces {F : FTy → Type} [FloatOps F] (d : Dev nD) (q : PosShare TreeShare)
    (f : Buf (Elt F) ((d : Thread nD τ).loc cc0_scratch0)) :
    (((d : Thread nD τ).loc cc0_scratch0) ↦{q} f)
      = iprop((own (rSlot0 0) d q f ∗ own (rSlot 0 1 (.inl rfl)) d q f ∗ own (rSlot 0 2 (.inr (.inl rfl))) d q f ∗ own (rSlot 0 3 (.inr (.inr rfl))) d q f)
          ∗ (own (rSlot0 1) d q f ∗ own (rSlot 1 1 (.inl rfl)) d q f ∗ own (rSlot 1 2 (.inr (.inl rfl))) d q f ∗ own (rSlot 1 3 (.inr (.inr rfl))) d q f)
          ∗ (own (rSlot0 2) d q f ∗ own (rSlot 2 1 (.inl rfl)) d q f ∗ own (rSlot 2 2 (.inr (.inl rfl))) d q f ∗ own (rSlot 2 3 (.inr (.inr rfl))) d q f)
          ∗ (own (rSlot0 3) d q f ∗ own (rSlot 3 1 (.inl rfl)) d q f ∗ own (rSlot 3 2 (.inr (.inl rfl))) d q f ∗ own (rSlot 3 3 (.inr (.inr rfl))) d q f)) := by
  rw [← recv_stream d 0 q f 0 160 rfl rfl, ← recv_stream d 1 q f 160 320 rfl rfl, ← recv_stream d 2 q f 320 480 rfl rfl,
    ← recv_stream d 3 q f 480 640 rfl rfl]
  refine Eq.trans ?_ (pt_band_four (ℓ := (d : Thread nD τ).loc cc0_scratch0) 0 (a₀ := 0) (a₁ := 160) (a₂ := 320) (a₃ := 480) (a₄ := 640)
    (by omega) (by omega) (by omega) (by omega) q f)
  exact congrArg (fun I => pointsTo ((d : Thread nD τ).loc cc0_scratch0) I q f) (band_univ S640x512 0).symm

/-- The separating conjunction over the four streams, written out. -/
theorem bigSep_fin_four {F : FTy → Type} [FloatOps F] (Φ : Fin 4 → sProp (MT nD τ sig Unit (Elt F) ℕ UU ℕ)) :
    bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

/-- The three buffers over the streams. -/
theorem x_pieces_big {F : FTy → Type} [FloatOps F] (c d : Dev nD) (q : PosShare TreeShare)
    (f : Buf (Elt F) ((d : Thread nD τ).loc cc0_stg0_0)) :
    (((d : Thread nD τ).loc cc0_stg0_0) ↦{q} f)
      = bigSep Finset.univ fun s : Fin 4 => iprop(own (xGive c s) d q f ∗ own (xKeep c s) d q f) := by
  rw [bigSep_fin_four]; exact x_pieces c d q f

theorem out_pieces_big {F : FTy → Type} [FloatOps F] (c d : Dev nD) (q : PosShare TreeShare)
    (f : Buf (Elt F) ((d : Thread nD τ).loc cc0_stg1_0)) :
    (((d : Thread nD τ).loc cc0_stg1_0) ↦{q} f)
      = bigSep Finset.univ fun s : Fin 4 => iprop(own (oHalf c s) d q f ∗ own (oHalf (peer s 5 c) s) d q f) := by
  rw [bigSep_fin_four]; exact out_pieces c d q f

theorem recv_pieces_big {F : FTy → Type} [FloatOps F] (d : Dev nD) (q : PosShare TreeShare)
    (f : Buf (Elt F) ((d : Thread nD τ).loc cc0_scratch0)) :
    (((d : Thread nD τ).loc cc0_scratch0) ↦{q} f)
      = bigSep Finset.univ fun s : Fin 4 => iprop(own (rSlot0 s) d q f ∗ own (rSlot s 1 (.inl rfl)) d q f
          ∗ own (rSlot s 2 (.inr (.inl rfl))) d q f ∗ own (rSlot s 3 (.inr (.inr rfl))) d q f) := by
  rw [bigSep_fin_four]; exact recv_pieces d q f

/-! ## What a device hands its partner at the barrier -/

/-- Device `c` pays duty `b` of its partner's barrier cell with five of its own pieces: the receive rows of the four
    slots that go along `b` and, of `out`, the half of stream `b`'s rows it does not keep. -/
theorem barPay_intro {F : FTy → Type} [FloatOps F] (c : Dev nD) (b : Fin 4)
    (f₀ f₁ f₂ f₃ : Buf (Elt F) ((c : Thread nD τ).loc cc0_scratch0)) (g : Buf (Elt F) ((c : Thread nD τ).loc cc0_stg1_0)) :
    iprop(own (rSlot0 (dimOf b 0)) c fullShare f₀ ∗ own (rSlot (dimOf b 1) 1 (.inl rfl)) c fullShare f₁
        ∗ own (rSlot (dimOf b 2) 2 (.inr (.inl rfl))) c fullShare f₂ ∗ own (rSlot (dimOf b 3) 3 (.inr (.inr rfl))) c fullShare f₃
        ∗ own (oHalf (peer b 5 c) b) c fullShare g)
      ⊢ barPay (F := F) (partner b c) b := by
  unfold barPay
  rw [partner_partner, peer5_self]
  iintro ⟨H0, H1, H2, H3, H4⟩
  isplitl [H0]; · iexists f₀; iexact H0
  isplitl [H1]; · iexists f₁; iexact H1
  isplitl [H2]; · iexists f₂; iexact H2
  isplitl [H3]; · iexists f₃; iexact H3
  iexists g; iexact H4

/-! ## Quarters and shares of the kept half -/

/-- Before slot 5 is issued: the kept quarter's kept half share and the given quarter (come back whole from slot 4's
    landing) make the kept half at a half share, and leave a half share of the given quarter. -/
theorem oHalf_lend {F : FTy → Type} [FloatOps F] (c d : Dev nD) (s : Fin 4) (q : PosShare TreeShare)
    (f : Buf (Elt F) ((d : Thread nD τ).loc cc0_stg1_0)) :
    iprop(own (oKeep c s) d q.left f ∗ own (oGive c s) d q f)
      = iprop(own (oHalf c s) d q.left f ∗ own (oGive c s) d q.right f) := by
  rw [own_halves (oGive c s) d q f, oHalf_quarters c d s q.left f, sep_assoc_eq]

/-- At the end: the two quarter shares of the kept half, the other half share of the kept quarter and of the given
    quarter are the kept half whole. -/
theorem oHalf_rejoin {F : FTy → Type} [FloatOps F] (c d : Dev nD) (s : Fin 4) (q : PosShare TreeShare)
    (f : Buf (Elt F) ((d : Thread nD τ).loc cc0_stg1_0)) :
    iprop(own (oHalf c s) d q.left.left f ∗ own (oHalf c s) d q.left.right f ∗ own (oKeep c s) d q.right f ∗ own (oGive c s) d q.right f)
      = own (oHalf c s) d q f := by
  rw [← oHalf_quarters c d s q.right f, ← sep_assoc_eq, ← own_halves (oHalf c s) d q.left f, ← own_halves (oHalf c s) d q f]

/-! ## The buffers at the contents the body starts from and ends with -/

/-- `x` as staged, into the eight pieces the slots use. -/
theorem x_entry {F : FTy → Type} [FloatOps F] (m : (ℓ : Loc nD τ sig) → Buf (Elt F) ℓ) (ρ : Dev nD → PrngReg) (c : Dev nD) :
    (((c : Thread nD τ).loc cc0_stg0_0) ↦{fullShare} xstg m ρ c)
      = iprop((XG m ρ c 0 ∗ XK m ρ c 0) ∗ (XG m ρ c 1 ∗ XK m ρ c 1) ∗ (XG m ρ c 2 ∗ XK m ρ c 2) ∗ (XG m ρ c 3 ∗ XK m ρ c 3)) :=
  x_pieces c c fullShare (xstg m ρ c)

/-- The eight pieces of `x`, come back, are `x` whole as staged. -/
theorem x_exit {F : FTy → Type} [FloatOps F] (m : (ℓ : Loc nD τ sig) → Buf (Elt F) ℓ) (ρ : Dev nD → PrngReg) (c : Dev nD) :
    iprop((XG m ρ c 0 ∗ XK m ρ c 0) ∗ (XG m ρ c 1 ∗ XK m ρ c 1) ∗ (XG m ρ c 2 ∗ XK m ρ c 2) ∗ (XG m ρ c 3 ∗ XK m ρ c 3))
      ⊢ (((c : Thread nD τ).loc cc0_stg0_0) ↦{fullShare} xstg m ρ c) :=
  Entails.of_eq (x_entry m ρ c).symm

/-- `out` at its final contents from, per stream, the kept half and the half slot 5 filled. -/
theorem out_exit {F : FTy → Type} [FloatOps F] (m : (ℓ : Loc nD τ sig) → Buf (Elt F) ℓ) (ρ : Dev nD → PrngReg) (c : Dev nD) :
    iprop((own (oHalf c 0) c fullShare (outFinal m ρ c) ∗ own (oHalf (peer 0 5 c) 0) c fullShare (outFinal m ρ c))
        ∗ (own (oHalf c 1) c fullShare (outFinal m ρ c) ∗ own (oHalf (peer 1 5 c) 1) c fullShare (outFinal m ρ c))
        ∗ (own (oHalf c 2) c fullShare (outFinal m ρ c) ∗ own (oHalf (peer 2 5 c) 2) c fullShare (outFinal m ρ c))
        ∗ (own (oHalf c 3) c fullShare (outFinal m ρ c) ∗ own (oHalf (peer 3 5 c) 3) c fullShare (outFinal m ρ c)))
      ⊢ (((c : Thread nD τ).loc cc0_stg1_0) ↦{fullShare} outFinal m ρ c) :=
  Entails.of_eq (out_pieces c c fullShare (outFinal m ρ c)).symm

/-- The receive buffer at its final contents from its sixteen landed slots. -/
theorem recv_exit {F : FTy → Type} [FloatOps F] (m : (ℓ : Loc nD τ sig) → Buf (Elt F) ℓ) (ρ : Dev nD → PrngReg) (c : Dev nD) :
    iprop((RV0 m ρ c 0 ∗ RV m ρ c 0 1 (.inl rfl) ∗ RV m ρ c 0 2 (.inr (.inl rfl)) ∗ RV m ρ c 0 3 (.inr (.inr rfl)))
        ∗ (RV0 m ρ c 1 ∗ RV m ρ c 1 1 (.inl rfl) ∗ RV m ρ c 1 2 (.inr (.inl rfl)) ∗ RV m ρ c 1 3 (.inr (.inr rfl)))
        ∗ (RV0 m ρ c 2 ∗ RV m ρ c 2 1 (.inl rfl) ∗ RV m ρ c 2 2 (.inr (.inl rfl)) ∗ RV m ρ c 2 3 (.inr (.inr rfl)))
        ∗ (RV0 m ρ c 3 ∗ RV m ρ c 3 1 (.inl rfl) ∗ RV m ρ c 3 2 (.inr (.inl rfl)) ∗ RV m ρ c 3 3 (.inr (.inr rfl))))
      ⊢ (((c : Thread nD τ).loc cc0_scratch0) ↦{fullShare} recvFinal m ρ c) :=
  Entails.of_eq (recv_pieces c fullShare (recvFinal m ρ c)).symm

/-! ## The barrier, all four duties at once -/

/-- The duties written out at each dimension (stream `b xor k` for slot `k`). -/
theorem barPay_intro0 {F : FTy → Type} [FloatOps F] (c : Dev nD)
    (f₀ f₁ f₂ f₃ : Buf (Elt F) ((c : Thread nD τ).loc cc0_scratch0)) (g : Buf (Elt F) ((c : Thread nD τ).loc cc0_stg1_0)) :
    iprop(own (rSlot0 0) c fullShare f₀ ∗ own (rSlot 1 1 (.inl rfl)) c fullShare f₁
        ∗ own (rSlot 2 2 (.inr (.inl rfl))) c fullShare f₂ ∗ own (rSlot 3 3 (.inr (.inr rfl))) c fullShare f₃
        ∗ own (oHalf (peer 0 5 c) 0) c fullShare g)
      ⊢ barPay (F := F) (partner 0 c) 0 := barPay_intro c 0 f₀ f₁ f₂ f₃ g
theorem barPay_intro1 {F : FTy → Type} [FloatOps F] (c : Dev nD)
    (f₀ f₁ f₂ f₃ : Buf (Elt F) ((c : Thread nD τ).loc cc0_scratch0)) (g : Buf (Elt F) ((c : Thread nD τ).loc cc0_stg1_0)) :
    iprop(own (rSlot0 1) c fullShare f₀ ∗ own (rSlot 0 1 (.inl rfl)) c fullShare f₁
        ∗ own (rSlot 3 2 (.inr (.inl rfl))) c fullShare f₂ ∗ own (rSlot 2 3 (.inr (.inr rfl))) c fullShare f₃
        ∗ own (oHalf (peer 1 5 c) 1) c fullShare g)
      ⊢ barPay (F := F) (partner 1 c) 1 := barPay_intro c 1 f₀ f₁ f₂ f₃ g
theorem barPay_intro2 {F : FTy → Type} [FloatOps F] (c : Dev nD)
    (f₀ f₁ f₂ f₃ : Buf (Elt F) ((c : Thread nD τ).loc cc0_scratch0)) (g : Buf (Elt F) ((c : Thread nD τ).loc cc0_stg1_0)) :
    iprop(own (rSlot0 2) c fullShare f₀ ∗ own (rSlot 3 1 (.inl rfl)) c fullShare f₁
        ∗ own (rSlot 0 2 (.inr (.inl rfl))) c fullShare f₂ ∗ own (rSlot 1 3 (.inr (.inr rfl))) c fullShare f₃
        ∗ own (oHalf (peer 2 5 c) 2) c fullShare g)
      ⊢ barPay (F := F) (partner 2 c) 2 := barPay_intro c 2 f₀ f₁ f₂ f₃ g
theorem barPay_intro3 {F : FTy → Type} [FloatOps F] (c : Dev nD)
    (f₀ f₁ f₂ f₃ : Buf (Elt F) ((c : Thread nD τ).loc cc0_scratch0)) (g : Buf (Elt F) ((c : Thread nD τ).loc cc0_stg1_0)) :
    iprop(own (rSlot0 3) c fullShare f₀ ∗ own (rSlot 2 1 (.inl rfl)) c fullShare f₁
        ∗ own (rSlot 1 2 (.inr (.inl rfl))) c fullShare f₂ ∗ own (rSlot 0 3 (.inr (.inr rfl))) c fullShare f₃
        ∗ own (oHalf (peer 3 5 c) 3) c fullShare g)
      ⊢ barPay (F := F) (partner 3 c) 3 := barPay_intro c 3 f₀ f₁ f₂ f₃ g

/-- At entry: the receive buffer and `out`, whole, are what the device hands its four partners at the barrier and
    the four halves of `out` it keeps. -/
theorem entry_barPays {F : FTy → Type} [FloatOps F] (c : Dev nD)
    (f : Buf (Elt F) ((c : Thread nD τ).loc cc0_scratch0)) (g : Buf (Elt F) ((c : Thread nD τ).loc cc0_stg1_0)) :
    iprop((((c : Thread nD τ).loc cc0_scratch0) ↦{fullShare} f) ∗ (((c : Thread nD τ).loc cc0_stg1_0) ↦{fullShare} g))
      ⊢ iprop(barPay (F := F) (partner 0 c) 0 ∗ barPay (F := F) (partner 1 c) 1 ∗ barPay (F := F) (partner 2 c) 2
          ∗ barPay (F := F) (partner 3 c) 3
          ∗ own (oHalf c 0) c fullShare g ∗ own (oHalf c 1) c fullShare g ∗ own (oHalf c 2) c fullShare g ∗ own (oHalf c 3) c fullShare g) := by
  rw [recv_pieces c fullShare f, out_pieces c c fullShare g]
  iintro ⟨⟨⟨R00, R01, R02, R03⟩, ⟨R10, R11, R12, R13⟩, ⟨R20, R21, R22, R23⟩, ⟨R30, R31, R32, R33⟩⟩, ⟨⟨H0, P0⟩, ⟨H1, P1⟩, ⟨H2, P2⟩, ⟨H3, P3⟩⟩⟩
  isplitl [R00 R11 R22 R33 P0]
  · iapply (barPay_intro0 c f f f f g)
    isplitl [R00]; · iexact R00
    isplitl [R11]; · iexact R11
    isplitl [R22]; · iexact R22
    isplitl [R33]; · iexact R33
    iexact P0
  isplitl [R10 R01 R32 R23 P1]
  · iapply (barPay_intro1 c f f f f g)
    isplitl [R10]; · iexact R10
    isplitl [R01]; · iexact R01
    isplitl [R32]; · iexact R32
    isplitl [R23]; · iexact R23
    iexact P1
  isplitl [R20 R31 R02 R13 P2]
  · iapply (barPay_intro2 c f f f f g)
    isplitl [R20]; · iexact R20
    isplitl [R31]; · iexact R31
    isplitl [R02]; · iexact R02
    isplitl [R13]; · iexact R13
    iexact P2
  isplitl [R30 R21 R12 R03 P3]
  · iapply (barPay_intro3 c f f f f g)
    isplitl [R30]; · iexact R30
    isplitl [R21]; · iexact R21
    isplitl [R12]; · iexact R12
    isplitl [R03]; · iexact R03
    iexact P3
  isplitl [H0]; · iexact H0
  isplitl [H1]; · iexact H1
  isplitl [H2]; · iexact H2
  iexact H3

/-- What a device's barrier cell hands it, duty by duty, written out with the streams and partners evaluated. -/
theorem barPay_eq0 {F : FTy → Type} [FloatOps F] (c : Dev nD) :
    barPay (F := F) c 0 = iprop(RP0 (F := F) c 0 ∗ RP (F := F) c 1 1 (.inl rfl) ∗ RP (F := F) c 2 2 (.inr (.inl rfl))
      ∗ RP (F := F) c 3 3 (.inr (.inr rfl)) ∗ OP5 (F := F) c 0) := rfl
theorem barPay_eq1 {F : FTy → Type} [FloatOps F] (c : Dev nD) :
    barPay (F := F) c 1 = iprop(RP0 (F := F) c 1 ∗ RP (F := F) c 0 1 (.inl rfl) ∗ RP (F := F) c 3 2 (.inr (.inl rfl))
      ∗ RP (F := F) c 2 3 (.inr (.inr rfl)) ∗ OP5 (F := F) c 1) := rfl
theorem barPay_eq2 {F : FTy → Type} [FloatOps F] (c : Dev nD) :
    barPay (F := F) c 2 = iprop(RP0 (F := F) c 2 ∗ RP (F := F) c 3 1 (.inl rfl) ∗ RP (F := F) c 0 2 (.inr (.inl rfl))
      ∗ RP (F := F) c 1 3 (.inr (.inr rfl)) ∗ OP5 (F := F) c 2) := rfl
theorem barPay_eq3 {F : FTy → Type} [FloatOps F] (c : Dev nD) :
    barPay (F := F) c 3 = iprop(RP0 (F := F) c 3 ∗ RP (F := F) c 2 1 (.inl rfl) ∗ RP (F := F) c 1 2 (.inr (.inl rfl))
      ∗ RP (F := F) c 0 3 (.inr (.inr rfl)) ∗ OP5 (F := F) c 3) := rfl

/-- After the barrier wait: the four duties' payloads, regrouped by stream: per stream the receive rows of slots
    0, 1, 2, 3 on the slot's partner and the half of the partner's `out` slot 5 fills. -/
theorem barPays_elim {F : FTy → Type} [FloatOps F] (c : Dev nD) :
    iprop(barPay (F := F) c 0 ∗ barPay (F := F) c 1 ∗ barPay (F := F) c 2 ∗ barPay (F := F) c 3)
      ⊢ iprop((RP0 (F := F) c 0 ∗ RP (F := F) c 0 1 (.inl rfl) ∗ RP (F := F) c 0 2 (.inr (.inl rfl)) ∗ RP (F := F) c 0 3 (.inr (.inr rfl)) ∗ OP5 (F := F) c 0)
          ∗ (RP0 (F := F) c 1 ∗ RP (F := F) c 1 1 (.inl rfl) ∗ RP (F := F) c 1 2 (.inr (.inl rfl)) ∗ RP (F := F) c 1 3 (.inr (.inr rfl)) ∗ OP5 (F := F) c 1)
          ∗ (RP0 (F := F) c 2 ∗ RP (F := F) c 2 1 (.inl rfl) ∗ RP (F := F) c 2 2 (.inr (.inl rfl)) ∗ RP (F := F) c 2 3 (.inr (.inr rfl)) ∗ OP5 (F := F) c 2)
          ∗ (RP0 (F := F) c 3 ∗ RP (F := F) c 3 1 (.inl rfl) ∗ RP (F := F) c 3 2 (.inr (.inl rfl)) ∗ RP (F := F) c 3 3 (.inr (.inr rfl)) ∗ OP5 (F := F) c 3)) := by
  rw [barPay_eq0, barPay_eq1, barPay_eq2, barPay_eq3]
  iintro ⟨⟨A00, A11, A22, A33, Q0⟩, ⟨A10, A01, A32, A23, Q1⟩, ⟨A20, A31, A02, A13, Q2⟩, ⟨A30, A21, A12, A03, Q3⟩⟩
  isplitl [A00 A01 A02 A03 Q0]
  · isplitl [A00]; · iexact A00
    isplitl [A01]; · iexact A01
    isplitl [A02]; · iexact A02
    isplitl [A03]; · iexact A03
    iexact Q0
  isplitl [A10 A11 A12 A13 Q1]
  · isplitl [A10]; · iexact A10
    isplitl [A11]; · iexact A11
    isplitl [A12]; · iexact A12
    isplitl [A13]; · iexact A13
    iexact Q1
  isplitl [A20 A21 A22 A23 Q2]
  · isplitl [A20]; · iexact A20
    isplitl [A21]; · iexact A21
    isplitl [A22]; · iexact A22
    isplitl [A23]; · iexact A23
    iexact Q2
  isplitl [A30]; · iexact A30
  isplitl [A31]; · iexact A31
  isplitl [A32]; · iexact A32
  isplitl [A33]; · iexact A33
  iexact Q3

/-! ## Named instances of the share equations -/

/-- The kept quarter whole is its two half shares (slot 4 lends the right one). -/
theorem oKeep_halves {F : FTy → Type} [FloatOps F] (c d : Dev nD) (s : Fin 4) (f : Buf (Elt F) ((d : Thread nD τ).loc cc0_stg1_0)) :
    own (oKeep c s) d fullShare f = iprop(own (oKeep c s) d fullShare.left f ∗ own (oKeep c s) d fullShare.right f) :=
  own_halves (oKeep c s) d fullShare f
/-- The kept half at the left half share is its two quarter shares (slot 5 lends the right one). -/
theorem oHalf_left_halves {F : FTy → Type} [FloatOps F] (c d : Dev nD) (s : Fin 4) (f : Buf (Elt F) ((d : Thread nD τ).loc cc0_stg1_0)) :
    own (oHalf c s) d fullShare.left f = iprop(own (oHalf c s) d fullShare.left.left f ∗ own (oHalf c s) d fullShare.left.right f) :=
  own_halves (oHalf c s) d fullShare.left f

/-- The rows of `x` a device gives away in slot 0 are the rows its partner keeps. -/
theorem set_xGive_eq_xKeep_peer (c : Dev nD) (s : Fin 4) : (xGive c s).view.set = (xKeep (peer s 0 c) s).view.set := by
  rw [set_xGive, set_xKeep, peer0_eq, lbit_partner_self]

/-! ## The spellings, at the level of the pieces -/

/-- Two unit-stride slices of one buffer at equal offsets are one piece, on any device. -/
theorem own_slice_congr {F : FTy → Type} [FloatOps F] (b : Ref sig .tc) {off off' : Fin b.ty.shape.rank → Nat}
    (size : Fin b.ty.shape.rank → Nat) (h : off = off') (inb : ∀ a, off a + size a ≤ b.ty.shape.size a)
    (inb' : ∀ a, off' a + size a ≤ b.ty.shape.size a) (d : Dev nD) (q : PosShare TreeShare)
    (f : Buf (Elt F) ((d : Thread nD τ).loc b)) :
    (((d : Thread nD τ).loc b) ↦[((Memref.whole b).slice (Rect.unit off size inb) (fun _ => rfl)).view.set]{q} f
        : sProp (MT nD τ sig Unit (Elt F) ℕ UU ℕ))
      = (((d : Thread nD τ).loc b) ↦[((Memref.whole b).slice (Rect.unit off' size inb') (fun _ => rfl)).view.set]{q} f) := by
  subst h; rfl

theorem own_oHalf' {F : FTy → Type} [FloatOps F] (c d : Dev nD) (s : Fin 4) (q : PosShare TreeShare)
    (f : Buf (Elt F) ((d : Thread nD τ).loc cc0_stg1_0)) : own (oHalf' c s) d q f = own (oHalf c s) d q f :=
  own_slice_congr cc0_stg1_0 S64x512.size (Chains.k0_off7_eq_off3 c s).symm _ _ d q f
theorem own_oKeep' {F : FTy → Type} [FloatOps F] (c d : Dev nD) (s : Fin 4) (q : PosShare TreeShare)
    (f : Buf (Elt F) ((d : Thread nD τ).loc cc0_stg1_0)) : own (oKeep' c s) d q f = own (oKeep c s) d q f :=
  own_slice_congr cc0_stg1_0 S32x512.size (Chains.k0_off6_eq_off5 c s).symm _ _ d q f
/-- The source rows of the partner's slot 1, on any device: the rows the device keeps. -/
theorem own_oGive_peer1 {F : FTy → Type} [FloatOps F] (c d : Dev nD) (s : Fin 4) (q : PosShare TreeShare)
    (f : Buf (Elt F) ((d : Thread nD τ).loc cc0_stg1_0)) : own (oGive (peer s 1 c) s) d q f = own (oKeep c s) d q f :=
  own_slice_congr cc0_stg1_0 S32x512.size
    (by rw [peer1_eq, Chains.k0_off4_eq_partner, partner_partner, Chains.k0_off6_eq_off5]) _ _ d q f
/-- The rows slot 4 lands on: the quarter the device gave away in slot 1. -/
theorem own_oKeep_peer4 {F : FTy → Type} [FloatOps F] (c d : Dev nD) (s : Fin 4) (q : PosShare TreeShare)
    (f : Buf (Elt F) ((d : Thread nD τ).loc cc0_stg1_0)) : own (oKeep (peer s 4 c) s) d q f = own (oGive c s) d q f :=
  own_slice_congr cc0_stg1_0 S32x512.size
    (by rw [peer4_eq, Chains.k0_off6_eq_off5, Chains.k0_off4_eq_partner]) _ _ d q f
theorem own_oKeep_peer2 {F : FTy → Type} [FloatOps F] (c d : Dev nD) (s : Fin 4) (q : PosShare TreeShare)
    (f : Buf (Elt F) ((d : Thread nD τ).loc cc0_stg1_0)) : own (oKeep (peer s 2 c) s) d q f = own (oKeep c s) d q f :=
  own_slice_congr cc0_stg1_0 S32x512.size (by rw [peer2_eq]; exact Chains.k0_off6_partner_far c s 2 (by decide)) _ _ d q f
theorem own_oKeep_peer3 {F : FTy → Type} [FloatOps F] (c d : Dev nD) (s : Fin 4) (q : PosShare TreeShare)
    (f : Buf (Elt F) ((d : Thread nD τ).loc cc0_stg1_0)) : own (oKeep (peer s 3 c) s) d q f = own (oKeep c s) d q f :=
  own_slice_congr cc0_stg1_0 S32x512.size (by rw [peer3_eq]; exact Chains.k0_off6_partner_far c s 3 (by decide)) _ _ d q f
theorem own_oHalf_peer1 {F : FTy → Type} [FloatOps F] (c d : Dev nD) (s : Fin 4) (q : PosShare TreeShare)
    (f : Buf (Elt F) ((d : Thread nD τ).loc cc0_stg1_0)) : own (oHalf (peer s 1 c) s) d q f = own (oHalf c s) d q f :=
  own_slice_congr cc0_stg1_0 S64x512.size (by rw [peer1_eq]; exact Chains.k0_off7_partner_second c s) _ _ d q f
theorem own_oHalf_peer4 {F : FTy → Type} [FloatOps F] (c d : Dev nD) (s : Fin 4) (q : PosShare TreeShare)
    (f : Buf (Elt F) ((d : Thread nD τ).loc cc0_stg1_0)) : own (oHalf (peer s 4 c) s) d q f = own (oHalf c s) d q f :=
  own_slice_congr cc0_stg1_0 S64x512.size (by rw [peer4_eq]; exact Chains.k0_off7_partner_second c s) _ _ d q f

/-! ## The same equations under the spellings `OH`, `OK`, `OG` (a device's own pieces) -/

theorem OH_quarters {F : FTy → Type} [FloatOps F] (c : Dev nD) (s : Fin 4) (q : PosShare TreeShare)
    (f : Buf (Elt F) ((c : Thread nD τ).loc cc0_stg1_0)) : OH c s q f = iprop(OK c s q f ∗ OG c s q f) :=
  oHalf_quarters c c s q f
theorem OH_halves {F : FTy → Type} [FloatOps F] (c : Dev nD) (s : Fin 4) (q : PosShare TreeShare)
    (f : Buf (Elt F) ((c : Thread nD τ).loc cc0_stg1_0)) : OH c s q f = iprop(OH c s q.left f ∗ OH c s q.right f) :=
  own_halves (oHalf c s) c q f
theorem OK_halves {F : FTy → Type} [FloatOps F] (c : Dev nD) (s : Fin 4) (q : PosShare TreeShare)
    (f : Buf (Elt F) ((c : Thread nD τ).loc cc0_stg1_0)) : OK c s q f = iprop(OK c s q.left f ∗ OK c s q.right f) :=
  own_halves (oKeep c s) c q f
theorem OG_halves {F : FTy → Type} [FloatOps F] (c : Dev nD) (s : Fin 4) (q : PosShare TreeShare)
    (f : Buf (Elt F) ((c : Thread nD τ).loc cc0_stg1_0)) : OG c s q f = iprop(OG c s q.left f ∗ OG c s q.right f) :=
  own_halves (oGive c s) c q f
theorem OH_lend {F : FTy → Type} [FloatOps F] (c : Dev nD) (s : Fin 4) (q : PosShare TreeShare)
    (f : Buf (Elt F) ((c : Thread nD τ).loc cc0_stg1_0)) :
    iprop(OK c s q.left f ∗ OG c s q f) = iprop(OH c s q.left f ∗ OG c s q.right f) := oHalf_lend c c s q f
theorem OH_rejoin {F : FTy → Type} [FloatOps F] (c : Dev nD) (s : Fin 4) (q : PosShare TreeShare)
    (f : Buf (Elt F) ((c : Thread nD τ).loc cc0_stg1_0)) :
    iprop(OH c s q.left.left f ∗ OH c s q.left.right f ∗ OK c s q.right f ∗ OG c s q.right f) = OH c s q f :=
  oHalf_rejoin c c s q f
/-- info: 'Cert.Kernel.Proto.barPay_intro' depends on axioms: [propext, Classical.choice, Quot.sound] -/
#guard_msgs in #print axioms barPay_intro

/-- info: 'Cert.Kernel.Proto.oHalf_rejoin' depends on axioms: [propext, Classical.choice, Quot.sound] -/
#guard_msgs in #print axioms oHalf_rejoin

/-- info: 'Cert.Kernel.Proto.out_exit' depends on axioms: [propext, Classical.choice, Quot.sound] -/
#guard_msgs in #print axioms out_exit

/-- info: 'Cert.Kernel.Proto.recv_exit' depends on axioms: [propext, Classical.choice, Quot.sound] -/
#guard_msgs in #print axioms recv_exit

/-- info: 'Cert.Kernel.Proto.entry_barPays' depends on axioms: [propext, Classical.choice, Quot.sound] -/
#guard_msgs in #print axioms entry_barPays

/-- info: 'Cert.Kernel.Proto.barPays_elim' depends on axioms: [propext, Classical.choice, Quot.sound] -/
#guard_msgs in #print axioms barPays_elim

/-- info: 'Cert.Kernel.Proto.own_oKeep_peer4' depends on axioms: [propext, Classical.choice, Quot.sound] -/
#guard_msgs in #print axioms own_oKeep_peer4

/-- info: 'Cert.Kernel.Proto.OH_rejoin' depends on axioms: [propext, Classical.choice, Quot.sound] -/
#guard_msgs in #print axioms OH_rejoin

end Cert.Kernel.Proto

end
-- ==== Proof.Bits.StepsEnq.lean ====
/-
  The six remote copies of a stream, each as one step of the device's program.

  Slot `t` of stream `s` is one copy from device `c` to its partner along the slot's dimension: it pays the one duty of
  `c`'s own send cell and the one duty of the partner's receive cell, each with the slot's credit. The rows written
  go to the partner at the contents the partner ends with — that what lands IS those contents is the arithmetic of
  the rows: the half (quarter) a device gives away is the half (quarter) its partner keeps, the receive buffer files
  what arrives in slot `t` under the partner's level-`t` rows, and on the rows a device keeps the level-4 rows are
  final, for the device and for the partners that receive them in slots 4 and 5.
-/
import proofs.«900484_g7700000000000485_dist_treered_v7x_i16_m512_n512_f32_1_alg».proof.Proof.Bits.Res
import proofs.«900484_g7700000000000485_dist_treered_v7x_i16_m512_n512_f32_1_alg».proof.Proof.Bits.Tables
import proofs.«900484_g7700000000000485_dist_treered_v7x_i16_m512_n512_f32_1_alg».proof.Proof.Bits.Chains
import proofs.«900484_g7700000000000485_dist_treered_v7x_i16_m512_n512_f32_1_alg».proof.Proof.Bits.Regions

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The transfer of a slot, over any source and destination rows -/

/-- Slot `t` of stream `s`: device `c` copies rows `src` of its own, held at share `q` with contents `fs`, into rows
    `dst` of its partner's, which it holds whole; the source rows come back with the send cell's credit, the rows written
    go to the partner with the landing. -/
theorem step_enq (m : (ℓ : Loc nD τ sig) → Buf (Elt F) ℓ) (ρ : Dev nD → PrngReg)
    (K : Dev nD × CellK → ℕ) (c : Dev nD) (s : Fin 4) (t : Fin 6) {sh : Shape}
    (src dst : Memref sig .tc .vmem sh .f32) (q : PosShare TreeShare)
    (fs : Buf (Elt F) (src.view.loc ((c : Dev nD) : Thread nD τ)))
    (fd : Buf (Elt F) (dst.view.loc ((peer s t c : Dev nD) : Thread nD τ)))
    (hN : dst.view.dmaCredit = slotN t)
    {O' : CellTallies nD τ sig Unit} (O : CellTallies nD τ sig Unit) {W : Waits sig Unit}
    (hO : O' = O + tallyAt (recvCell (peer s t c) s t) () (slotN t))
    (hpay₁ : own src c q fs ⊢ sendPay m ρ c s t)
    (hpay₂ : own dst (peer s t c) fullShare (dst.view.write (Elt F) fd (src.view.read (Elt F) fs) Finset.univ)
      ⊢ recvPay m ρ (peer s t c) s t)
    {hsc : dst.view.ref.isScScratch = false} {hsrc : src.view.WordExact} {hdst : dst.view.WordExact}
    {hsem : (DmaTarget.remote (Dev.tc (peer s t c)) dst (.dma (sendQ s t)) hsc : DmaTarget nD τ sig .tc .vmem sh .f32).Typed .vmem (.dma (recvQ s t))}
    {α : Type} {Q : α → sProp 𝕄} {k : PUnit → Prog (TpuEff nD τ sig (Elt F) Λ₀ .tc) α} :
    iprop(cellInv ER (cubeRd m ρ) (K (c, .send s t)) (sendCell c s t)
        ∗ cellInv ER (cubeRd m ρ) (K (peer s t c, .recv s t)) (recvCell (peer s t c) s t)
        ∗ reached ER (sendCell c s t) 0 ∗ reached ER (recvCell (peer s t c) s t) 0
        ∗ own src c q fs ∗ own dst (peer s t c) fullShare fd ∗ owes (c : Thread nD τ) O' W
        ∗ dutyTok ER (sendCell c s t) 0 (0 : Fin 4) ∗ dutyTok ER (recvCell (peer s t c) s t) 0 (0 : Fin 4))
    ⊢ iprop(((cred (tallyAt (sendCell c s t) () (slotN t)) ∗ owes (c : Thread nD τ) O W) -∗ wpC c (k ⟨⟩) Q)
        -∗ wpC c (.op (.enqueueDma src (.remote (Dev.tc (peer s t c)) dst (.dma (sendQ s t)) hsc) (.dma (recvQ s t)) hsrc hdst hsem) k) Q) := by
  iintro ⟨Hg₁, Hg₂, Hr₁, Hr₂, Hsrc, Hdst, HL, Htok₁, Htok₂⟩ Hk
  have h := Rounds.wp_send_pointsTo (Γ := .empty) (defs := defs₀ (F := F)) 𝒱₀ ER (cubeRd m ρ) (c : Thread nD τ) none
    (hsc := hsc) (hsrc := hsrc) (hdst := hdst) (hsem := hsem) (Es := Set.univ) (Q := Q)
    (src := src) (dst := dst) (c' := ((peer s t c : Dev nD) : Thread nD τ))
    (sS := .dma (sendQ s t)) (sem := .dma (recvQ s t)) (k := k) (q := q) (fs := fs) (fd := fd) (W := W)
    (r₁ := 0) (r₂ := 0) (d₁ := (0 : Fin 4)) (d₂ := (0 : Fin 4)) (κ₁ := K (c, .send s t)) (κ₂ := K (peer s t c, .recv s t))
    (by rw [duties_send]; exact Finset.mem_singleton_self _) (by rw [duties_recv]; exact Finset.mem_singleton_self _)
    () () (slotN t) hN (amount_send m ρ c s t 0) (amount_recv m ρ (peer s t c) s t 0)
    (O₀ := O') O hO
    (by rw [payload_send]; exact hpay₁)
    (by rw [payload_recv]; exact hpay₂)
  iapply h $$ [Hg₁ Hg₂ Hsrc Hdst HL Htok₁ Hr₁ Htok₂ Hr₂]
  · isplitl [Hg₁]; · iexact Hg₁
    isplitl [Hg₂]; · iexact Hg₂
    isplitl [Hsrc]; · iexact Hsrc
    isplitl [Hdst]; · iexact Hdst
    isplitl [HL]; · iexact HL
    isplitl [Htok₁]; · iexact Htok₁
    isplitl [Hr₁]; · iexact Hr₁
    isplitl [Htok₂]; · iexact Htok₂
    iexact Hr₂
  iexact Hk

/-- The same when the source rows travel to the partner with the landing (slot 1): the send cell hands back nothing. -/
theorem step_enq_landing (m : (ℓ : Loc nD τ sig) → Buf (Elt F) ℓ) (ρ : Dev nD → PrngReg)
    (K : Dev nD × CellK → ℕ) (c : Dev nD) (s : Fin 4) (t : Fin 6) {sh : Shape}
    (src dst : Memref sig .tc .vmem sh .f32) (q : PosShare TreeShare)
    (fs : Buf (Elt F) (src.view.loc ((c : Dev nD) : Thread nD τ)))
    (fd : Buf (Elt F) (dst.view.loc ((peer s t c : Dev nD) : Thread nD τ)))
    (hN : dst.view.dmaCredit = slotN t)
    {O' : CellTallies nD τ sig Unit} (O : CellTallies nD τ sig Unit) {W : Waits sig Unit}
    (hO : O' = O + tallyAt (recvCell (peer s t c) s t) () (slotN t))
    (hpay₁ : (emp : sProp 𝕄) ⊢ sendPay m ρ c s t)
    (hpay₂ : iprop(own dst (peer s t c) fullShare (dst.view.write (Elt F) fd (src.view.read (Elt F) fs) Finset.univ) ∗ own src c q fs)
      ⊢ recvPay m ρ (peer s t c) s t)
    {hsc : dst.view.ref.isScScratch = false} {hsrc : src.view.WordExact} {hdst : dst.view.WordExact}
    {hsem : (DmaTarget.remote (Dev.tc (peer s t c)) dst (.dma (sendQ s t)) hsc : DmaTarget nD τ sig .tc .vmem sh .f32).Typed .vmem (.dma (recvQ s t))}
    {α : Type} {Q : α → sProp 𝕄} {k : PUnit → Prog (TpuEff nD τ sig (Elt F) Λ₀ .tc) α} :
    iprop(cellInv ER (cubeRd m ρ) (K (c, .send s t)) (sendCell c s t)
        ∗ cellInv ER (cubeRd m ρ) (K (peer s t c, .recv s t)) (recvCell (peer s t c) s t)
        ∗ reached ER (sendCell c s t) 0 ∗ reached ER (recvCell (peer s t c) s t) 0
        ∗ own src c q fs ∗ own dst (peer s t c) fullShare fd ∗ owes (c : Thread nD τ) O' W
        ∗ dutyTok ER (sendCell c s t) 0 (0 : Fin 4) ∗ dutyTok ER (recvCell (peer s t c) s t) 0 (0 : Fin 4))
    ⊢ iprop(((cred (tallyAt (sendCell c s t) () (slotN t)) ∗ owes (c : Thread nD τ) O W) -∗ wpC c (k ⟨⟩) Q)
        -∗ wpC c (.op (.enqueueDma src (.remote (Dev.tc (peer s t c)) dst (.dma (sendQ s t)) hsc) (.dma (recvQ s t)) hsrc hdst hsem) k) Q) := by
  iintro ⟨Hg₁, Hg₂, Hr₁, Hr₂, Hsrc, Hdst, HL, Htok₁, Htok₂⟩ Hk
  have h := Rounds.wp_send_landing_pointsTo (Γ := .empty) (defs := defs₀ (F := F)) 𝒱₀ ER (cubeRd m ρ) (c : Thread nD τ) none
    (hsc := hsc) (hsrc := hsrc) (hdst := hdst) (hsem := hsem) (Es := Set.univ) (Q := Q)
    (src := src) (dst := dst) (c' := ((peer s t c : Dev nD) : Thread nD τ))
    (sS := .dma (sendQ s t)) (sem := .dma (recvQ s t)) (k := k) (q := q) (fs := fs) (fd := fd) (W := W)
    (r₁ := 0) (r₂ := 0) (d₁ := (0 : Fin 4)) (d₂ := (0 : Fin 4)) (κ₁ := K (c, .send s t)) (κ₂ := K (peer s t c, .recv s t))
    (by rw [duties_send]; exact Finset.mem_singleton_self _) (by rw [duties_recv]; exact Finset.mem_singleton_self _)
    () () (slotN t) hN (amount_send m ρ c s t 0) (amount_recv m ρ (peer s t c) s t 0)
    (O₀ := O') O hO
    (by rw [payload_send]; exact hpay₁)
    (by rw [payload_recv]; exact hpay₂)
  iapply h $$ [Hg₁ Hg₂ Hsrc Hdst HL Htok₁ Hr₁ Htok₂ Hr₂]
  · isplitl [Hg₁]; · iexact Hg₁
    isplitl [Hg₂]; · iexact Hg₂
    isplitl [Hsrc]; · iexact Hsrc
    isplitl [Hdst]; · iexact Hdst
    isplitl [HL]; · iexact HL
    isplitl [Htok₁]; · iexact Htok₁
    isplitl [Hr₁]; · iexact Hr₁
    isplitl [Htok₂]; · iexact Htok₂
    iexact Hr₂
  iexact Hk

variable (m : (ℓ : Loc nD τ sig) → Buf (Elt F) ℓ) (ρ : Dev nD → PrngReg)

/-! ## The final contents at a row -/

/-- The final receive buffer at a row: stream, slot and source row given by arithmetic on the row. -/
theorem recvFinal_at (c' : Dev nD) (i : S640x512.Idx) (s : Fin 4) (t : Fin 6) (R : Fin 512)
    (hs : (i 0).val / 160 = s.val)
    (ht : t = if (i 0).val % 160 < 64 then 0 else if (i 0).val % 160 < 96 then 1 else if (i 0).val % 160 < 128 then 2 else 3)
    (hR : R.val = 128 * s.val + 64 * lbit (dimOf s 0) c'
      + (if (i 0).val % 160 < 64 then (i 0).val % 160 else 32 * lbit (dimOf s 1) c' + ((i 0).val % 160 - 64) % 32)) :
    recvFinal m ρ c' i = lvl m ρ t.val (peer s t c') R (i 1) := by
  have hb : (i 0).val / 160 < 4 := by clear hs hR ht; have h640 : (i 0).val < 640 := (i 0).isLt; omega
  obtain rfl : s = ⟨(i 0).val / 160, hb⟩ := Fin.ext hs.symm
  subst ht
  unfold recvFinal
  dsimp only
  refine (dif_pos ?_).trans ?_
  · have := R.isLt; rw [hR] at this; exact this
  · congr 1; exact Fin.ext hR.symm

/-- The first receive block of stream `s` (64 rows from `160 s`) holds the partner's own rows. -/
theorem recvFinal_slot0 (p : Dev nD) (s : Fin 4) (i : S640x512.Idx) (r : Nat) (hr : r < 64) (hi : (i 0).val = 160 * s.val + r)
    (R : Fin 512) (hR : R.val = 128 * s.val + 64 * lbit (dimOf s 0) p + r) :
    recvFinal m ρ p i = lvl m ρ 0 (peer s 0 p) R (i 1) :=
  recvFinal_at m ρ p i s 0 R (by rw [hi]; have := s.isLt; omega) (by rw [hi, if_pos (by omega)])
    (by rw [hi, if_pos (by omega), hR]; omega)

/-- The later receive blocks (32 rows from `160 s + 64, + 96, + 128`) hold the partner's rows of level 1, 2, 3. -/
theorem recvFinal_slot (p : Dev nD) (s : Fin 4) (t : Fin 6) (ht : t = 1 ∨ t = 2 ∨ t = 3) (i : S640x512.Idx) (r : Nat) (hr : r < 32)
    (hi : (i 0).val = 160 * s.val + 32 * (t.val + 1) + r)
    (R : Fin 512) (hR : R.val = 128 * s.val + 64 * lbit (dimOf s 0) p + 32 * lbit (dimOf s 1) p + r) :
    recvFinal m ρ p i = lvl m ρ t.val (peer s t p) R (i 1) := by
  rcases ht with rfl | rfl | rfl
  · exact recvFinal_at m ρ p i s 1 R (by rw [hi]; show (160 * s.val + 32 * (1 + 1) + r) / 160 = _; have := s.isLt; omega)
      (by rw [hi]; show _ = if (160 * s.val + 32 * (1 + 1) + r) % 160 < 64 then _ else _
          rw [if_neg (by omega), if_pos (by omega)])
      (by rw [hi]; show _ = _ + if (160 * s.val + 32 * (1 + 1) + r) % 160 < 64 then _ else _
          rw [if_neg (by omega), hR]; omega)
  · exact recvFinal_at m ρ p i s 2 R (by rw [hi]; show (160 * s.val + 32 * (2 + 1) + r) / 160 = _; have := s.isLt; omega)
      (by rw [hi]; show _ = if (160 * s.val + 32 * (2 + 1) + r) % 160 < 64 then _ else _
          rw [if_neg (by omega), if_neg (by omega), if_pos (by omega)])
      (by rw [hi]; show _ = _ + if (160 * s.val + 32 * (2 + 1) + r) % 160 < 64 then _ else _
          rw [if_neg (by omega), hR]; omega)
  · exact recvFinal_at m ρ p i s 3 R (by rw [hi]; show (160 * s.val + 32 * (3 + 1) + r) / 160 = _; have := s.isLt; omega)
      (by rw [hi]; show _ = if (160 * s.val + 32 * (3 + 1) + r) % 160 < 64 then _ else _
          rw [if_neg (by omega), if_neg (by omega), if_neg (by omega)])
      (by rw [hi]; show _ = _ + if (160 * s.val + 32 * (3 + 1) + r) % 160 < 64 then _ else _
          rw [if_neg (by omega), hR]; omega)

/-- The final result at a row of stream `s`. -/
theorem outFinal_at (c' : Dev nD) (i : S512x512.Idx) (s : Fin 4) (hs : (i 0).val / 128 = s.val) :
    outFinal m ρ c' i = lvl m ρ 4 (owner s c' ((i 0).val % 128)) (i 0) (i 1) := by
  have hb : (i 0).val / 128 < 4 := by clear hs; have := ValueIdx.idx2_lt0 i; omega
  obtain rfl : s = ⟨(i 0).val / 128, hb⟩ := Fin.ext hs.symm
  rfl

/-! ## Where the rows of each piece lie -/

omit [FloatOps F] in
/-- A unit-stride slice of a whole buffer places its indices at the offsets. -/
theorem slice_emb_val (b : Ref sig .tc) (off size : Fin b.ty.shape.rank → Nat) (inb : ∀ a, off a + size a ≤ b.ty.shape.size a)
    (y : (⟨b.ty.shape.rank, size⟩ : Shape).Idx) (a : Fin b.ty.shape.rank) :
    ((((Memref.whole b).slice (Rect.unit off size inb) (fun _ => rfl)).view.emb y) a).val = off a + (y a).val := by
  show off a + 1 * (y a).val = _; omega

omit [FloatOps F] in
theorem rSlot0_emb (s : Fin 4) (y : S64x512.Idx) :
    ((rSlot0 s).view.emb y (0 : Fin 2)).val = 160 * s.val + (y 0).val ∧ ((rSlot0 s).view.emb y (1 : Fin 2)).val = (y 1).val := by
  constructor
  · refine (slice_emb_val cc0_scratch0 _ _ _ y (0 : Fin 2)).trans ?_
    show rRow s 0 + (y 0).val = _; unfold rRow; simp
  · refine (slice_emb_val cc0_scratch0 _ _ _ y (1 : Fin 2)).trans ?_
    show 0 + (y 1).val = _; omega

omit [FloatOps F] in
theorem rSlot_emb (s : Fin 4) (t : Fin 6) (ht : t = 1 ∨ t = 2 ∨ t = 3) (y : S32x512.Idx) :
    ((rSlot s t ht).view.emb y (0 : Fin 2)).val = 160 * s.val + 32 * (t.val + 1) + (y 0).val
      ∧ ((rSlot s t ht).view.emb y (1 : Fin 2)).val = (y 1).val := by
  constructor
  · refine (slice_emb_val cc0_scratch0 _ _ _ y (0 : Fin 2)).trans ?_
    show rRow s t + (y 0).val = _
    rcases ht with rfl | rfl | rfl <;> (unfold rRow; simp)
  · refine (slice_emb_val cc0_scratch0 _ _ _ y (1 : Fin 2)).trans ?_
    show 0 + (y 1).val = _; omega

omit [FloatOps F] in
theorem oGive_emb (c : Dev nD) (s : Fin 4) (y : S32x512.Idx) :
    ((oGive c s).view.emb y (0 : Fin 2)).val = 128 * s.val + 64 * lbit (dimOf s 0) c + 32 * (1 - lbit (dimOf s 1) c) + (y 0).val
      ∧ ((oGive c s).view.emb y (1 : Fin 2)).val = (y 1).val := by
  constructor
  · refine (slice_emb_val cc0_stg1_0 _ _ _ y (0 : Fin 2)).trans ?_
    rw [Chains.k0_off4_eq]; rfl
  · refine (slice_emb_val cc0_stg1_0 _ _ _ y (1 : Fin 2)).trans ?_
    rw [Chains.k0_off4_eq]; show 0 + (y 1).val = _; omega

omit [FloatOps F] in
theorem oKeep_emb (c : Dev nD) (s : Fin 4) (y : S32x512.Idx) :
    ((oKeep c s).view.emb y (0 : Fin 2)).val = 128 * s.val + 64 * lbit (dimOf s 0) c + 32 * lbit (dimOf s 1) c + (y 0).val
      ∧ ((oKeep c s).view.emb y (1 : Fin 2)).val = (y 1).val := by
  constructor
  · refine (slice_emb_val cc0_stg1_0 _ _ _ y (0 : Fin 2)).trans ?_
    rw [Chains.k0_off6_eq]; rfl
  · refine (slice_emb_val cc0_stg1_0 _ _ _ y (1 : Fin 2)).trans ?_
    rw [Chains.k0_off6_eq]; show 0 + (y 1).val = _; omega

omit [FloatOps F] in
theorem oHalf_emb (c : Dev nD) (s : Fin 4) (y : S64x512.Idx) :
    ((oHalf c s).view.emb y (0 : Fin 2)).val = 128 * s.val + 64 * lbit (dimOf s 0) c + (y 0).val
      ∧ ((oHalf c s).view.emb y (1 : Fin 2)).val = (y 1).val := by
  constructor
  · refine (slice_emb_val cc0_stg1_0 _ _ _ y (0 : Fin 2)).trans ?_
    rw [Chains.k0_off7_eq]; rfl
  · refine (slice_emb_val cc0_stg1_0 _ _ _ y (1 : Fin 2)).trans ?_
    rw [Chains.k0_off7_eq]; show 0 + (y 1).val = _; omega

omit [FloatOps F] in
/-- Where the rows of the given half of `x` lie. -/
theorem xGive_emb (c : Dev nD) (s : Fin 4) (y : S64x512.Idx) :
    (xGive c s).view.emb y = ValueIdx.ix3 (0 : Fin 1)
      (⟨128 * s.val + 64 * (1 - lbit (dimOf s 0) c) + (y 0).val, by
        have := lbit_le (dimOf s 0) c; have := s.isLt; have := ValueIdx.idx2_lt0 y; omega⟩ : Fin 512) (y 1 : Fin 512) := by
  have hq : Shape.reshapeEquiv (Shape.Squeezes.numel_eq squeezes_S1x64x512_S64x512) y
      = (ValueIdx.ix3 (0 : Fin 1) (y 0 : Fin 64) (y 1 : Fin 512) : S1x64x512.Idx) :=
    Shape.reshapeEquiv_eq_of_rowMajor _ (by
      rw [Shape.rowMajor_val_three, Shape.rowMajor_val_two]
      show (0 * 64 + (y 0).val) * 512 + (y 1).val = (y 0).val * 512 + (y 1).val
      omega)
  funext a
  refine Fin.ext ?_
  simp only [Memref.view_squeeze, Memref.view_slice, Memref.view_whole, View.emb_reshape, View.emb_slice, View.emb_whole,
    Function.Embedding.trans_apply, Function.Embedding.refl_apply, Equiv.coe_toEmbedding, Rect.emb_apply]
  rw [hq]
  show (k0_off1 c (k0_off1_at s).1 (k0_off1_at s).2) a + 1 * (ValueIdx.ix3 (0 : Fin 1) (y 0 : Fin 64) (y 1 : Fin 512) a).val = _
  have hk := Chains.k0_off1_eq c s
  have hk0 : k0_off1 c (k0_off1_at s).1 (k0_off1_at s).2 0 = 0 := by rw [hk]; rfl
  have hk1 : k0_off1 c (k0_off1_at s).1 (k0_off1_at s).2 1 = 128 * s.val + 64 * (1 - lbit (dimOf s 0) c) := by rw [hk]; rfl
  have hk2 : k0_off1 c (k0_off1_at s).1 (k0_off1_at s).2 2 = 0 := by rw [hk]; rfl
  match a with
  | ⟨0, _⟩ => show k0_off1 c (k0_off1_at s).1 (k0_off1_at s).2 0 + 1 * 0 = 0; omega
  | ⟨1, _⟩ => show k0_off1 c (k0_off1_at s).1 (k0_off1_at s).2 1 + 1 * (y 0).val = 128 * s.val + 64 * (1 - lbit (dimOf s 0) c) + (y 0).val; omega
  | ⟨2, _⟩ => show k0_off1 c (k0_off1_at s).1 (k0_off1_at s).2 2 + 1 * (y 1).val = (y 1).val; omega

/-! ## The label bits of the partners, and who keeps a row -/

theorem lb0_p0 : ∀ (s : Fin 4) (c : Fin 16), lbit (dimOf s 0) (partner (dimOf s 0) c) = 1 - lbit (dimOf s 0) c := by decide
theorem lb0_p1 : ∀ (s : Fin 4) (c : Fin 16), lbit (dimOf s 0) (partner (dimOf s 1) c) = lbit (dimOf s 0) c := by decide
theorem lb1_p1 : ∀ (s : Fin 4) (c : Fin 16), lbit (dimOf s 1) (partner (dimOf s 1) c) = 1 - lbit (dimOf s 1) c := by decide
theorem lb0_p2 : ∀ (s : Fin 4) (c : Fin 16), lbit (dimOf s 0) (partner (dimOf s 2) c) = lbit (dimOf s 0) c := by decide
theorem lb1_p2 : ∀ (s : Fin 4) (c : Fin 16), lbit (dimOf s 1) (partner (dimOf s 2) c) = lbit (dimOf s 1) c := by decide
theorem lb0_p3 : ∀ (s : Fin 4) (c : Fin 16), lbit (dimOf s 0) (partner (dimOf s 3) c) = lbit (dimOf s 0) c := by decide
theorem lb1_p3 : ∀ (s : Fin 4) (c : Fin 16), lbit (dimOf s 1) (partner (dimOf s 3) c) = lbit (dimOf s 1) c := by decide

/-- A device keeps the rows of its own kept quarter, -/
theorem owner_self : ∀ (s : Fin 4) (c : Fin 16) (r : Fin 128), r.val / 64 % 2 = lbit (dimOf s 0) c → r.val / 32 % 2 = lbit (dimOf s 1) c →
    owner s c r.val = c := by decide +kernel
/-- its partner along the stream's second dimension finds them kept by the device, -/
theorem owner_p1 : ∀ (s : Fin 4) (c : Fin 16) (r : Fin 128), r.val / 64 % 2 = lbit (dimOf s 0) c → r.val / 32 % 2 = lbit (dimOf s 1) c →
    owner s (partner (dimOf s 1) c) r.val = c := by decide +kernel
/-- and for the rows of the device's kept half, its partner along the first dimension finds what the device finds. -/
theorem owner_p0 : ∀ (s : Fin 4) (c : Fin 16) (r : Fin 128), r.val / 64 % 2 = lbit (dimOf s 0) c →
    owner s (partner (dimOf s 0) c) r.val = owner s c r.val := by decide +kernel

/-! ## What lands is the partner's final contents -/

/-- Slot 0: the given half of `x` is the partner's first receive block. -/
theorem landed0_eq (c : Dev nD) (s : Fin 4) (fd : Buf (Elt F) ((rSlot0 s).view.loc ((peer s 0 c : Dev nD) : Thread nD τ))) :
    ∀ i ∈ (rSlot0 s).view.set, (rSlot0 s).view.write (Elt F) fd ((xGive c s).view.read (Elt F) (xstg m ρ c)) Finset.univ i
        = recvFinal m ρ (peer s 0 c) i := by
  intro i hi
  obtain ⟨y, rfl⟩ := View.exists_emb_of_mem_set _ hi
  rw [View.write_emb_of_mem _ _ (Finset.mem_univ y)]
  obtain ⟨h0, h1⟩ := rSlot0_emb s y
  have hy := ValueIdx.idx2_lt0 y
  have hle := lbit_le (dimOf s 0) c
  rw [recvFinal_slot0 m ρ (peer s 0 c) s _ (y 0).val hy h0
    ⟨128 * s.val + 64 * (1 - lbit (dimOf s 0) c) + (y 0).val, by have := s.isLt; omega⟩
    (by show _ = 128 * s.val + 64 * lbit (dimOf s 0) (partner (dimOf s 0) c) + _; rw [lb0_p0])]
  rw [peer_peer]
  show xstg m ρ c ((xGive c s).view.emb y) = xstg m ρ c _
  rw [xGive_emb]
  exact congrArg (xstg m ρ c) (funext fun a => by
    match a with
    | ⟨0, _⟩ => rfl
    | ⟨1, _⟩ => rfl
    | ⟨2, _⟩ => exact Fin.ext h1.symm)

/-- Slot 1: the given quarter at level 1 is the partner's second receive block. -/
theorem landed1_eq (c : Dev nD) (s : Fin 4) (fd : Buf (Elt F) ((rSlot s 1 (.inl rfl)).view.loc ((peer s 1 c : Dev nD) : Thread nD τ))) :
    ∀ i ∈ (rSlot s 1 (.inl rfl)).view.set,
      (rSlot s 1 (.inl rfl)).view.write (Elt F) fd ((oGive c s).view.read (Elt F) (outLvl m ρ 1 c)) Finset.univ i
        = recvFinal m ρ (peer s 1 c) i := by
  intro i hi
  obtain ⟨y, rfl⟩ := View.exists_emb_of_mem_set _ hi
  rw [View.write_emb_of_mem _ _ (Finset.mem_univ y)]
  obtain ⟨h0, h1⟩ := rSlot_emb s 1 (.inl rfl) y
  obtain ⟨g0, g1⟩ := oGive_emb c s y
  have hy := ValueIdx.idx2_lt0 y
  rw [recvFinal_slot m ρ (peer s 1 c) s 1 (.inl rfl) _ (y 0).val hy h0 ((oGive c s).view.emb y (0 : Fin 2))
    (by rw [g0]; show _ = 128 * s.val + 64 * lbit (dimOf s 0) (partner (dimOf s 1) c) + 32 * lbit (dimOf s 1) (partner (dimOf s 1) c) + _
        rw [lb0_p1, lb1_p1])]
  rw [peer_peer]
  show lvl m ρ 1 c ((oGive c s).view.emb y (0 : Fin 2)) ((oGive c s).view.emb y (1 : Fin 2)) = _
  exact congrArg (lvl m ρ 1 c _) (Fin.ext (g1.trans h1.symm))

/-- Slot 2: the kept quarter at level 2 is the partner's third receive block. -/
theorem landed2_eq (c : Dev nD) (s : Fin 4) (fd : Buf (Elt F) ((rSlot s 2 (.inr (.inl rfl))).view.loc ((peer s 2 c : Dev nD) : Thread nD τ))) :
    ∀ i ∈ (rSlot s 2 (.inr (.inl rfl))).view.set,
      (rSlot s 2 (.inr (.inl rfl))).view.write (Elt F) fd ((oKeep c s).view.read (Elt F) (outLvl m ρ 2 c)) Finset.univ i
        = recvFinal m ρ (peer s 2 c) i := by
  intro i hi
  obtain ⟨y, rfl⟩ := View.exists_emb_of_mem_set _ hi
  rw [View.write_emb_of_mem _ _ (Finset.mem_univ y)]
  obtain ⟨h0, h1⟩ := rSlot_emb s 2 (.inr (.inl rfl)) y
  obtain ⟨g0, g1⟩ := oKeep_emb c s y
  have hy := ValueIdx.idx2_lt0 y
  rw [recvFinal_slot m ρ (peer s 2 c) s 2 (.inr (.inl rfl)) _ (y 0).val hy h0 ((oKeep c s).view.emb y (0 : Fin 2))
    (by rw [g0]; show _ = 128 * s.val + 64 * lbit (dimOf s 0) (partner (dimOf s 2) c) + 32 * lbit (dimOf s 1) (partner (dimOf s 2) c) + _
        rw [lb0_p2, lb1_p2])]
  rw [peer_peer]
  show lvl m ρ 2 c ((oKeep c s).view.emb y (0 : Fin 2)) ((oKeep c s).view.emb y (1 : Fin 2)) = _
  exact congrArg (lvl m ρ 2 c _) (Fin.ext (g1.trans h1.symm))

/-- Slot 3: the kept quarter at level 3 is the partner's fourth receive block. -/
theorem landed3_eq (c : Dev nD) (s : Fin 4) (fd : Buf (Elt F) ((rSlot s 3 (.inr (.inr rfl))).view.loc ((peer s 3 c : Dev nD) : Thread nD τ))) :
    ∀ i ∈ (rSlot s 3 (.inr (.inr rfl))).view.set,
      (rSlot s 3 (.inr (.inr rfl))).view.write (Elt F) fd ((oKeep c s).view.read (Elt F) (outLvl m ρ 3 c)) Finset.univ i
        = recvFinal m ρ (peer s 3 c) i := by
  intro i hi
  obtain ⟨y, rfl⟩ := View.exists_emb_of_mem_set _ hi
  rw [View.write_emb_of_mem _ _ (Finset.mem_univ y)]
  obtain ⟨h0, h1⟩ := rSlot_emb s 3 (.inr (.inr rfl)) y
  obtain ⟨g0, g1⟩ := oKeep_emb c s y
  have hy := ValueIdx.idx2_lt0 y
  rw [recvFinal_slot m ρ (peer s 3 c) s 3 (.inr (.inr rfl)) _ (y 0).val hy h0 ((oKeep c s).view.emb y (0 : Fin 2))
    (by rw [g0]; show _ = 128 * s.val + 64 * lbit (dimOf s 0) (partner (dimOf s 3) c) + 32 * lbit (dimOf s 1) (partner (dimOf s 3) c) + _
        rw [lb0_p3, lb1_p3])]
  rw [peer_peer]
  show lvl m ρ 3 c ((oKeep c s).view.emb y (0 : Fin 2)) ((oKeep c s).view.emb y (1 : Fin 2)) = _
  exact congrArg (lvl m ρ 3 c _) (Fin.ext (g1.trans h1.symm))

/-- On a device's kept quarter the level-4 rows are the final rows. -/
theorem outLvl4_eq_outFinal (c : Dev nD) (s : Fin 4) : ∀ i ∈ (oKeep c s).view.set, outLvl m ρ 4 c i = outFinal m ρ c i := by
  intro i hi
  obtain ⟨y, rfl⟩ := View.exists_emb_of_mem_set _ hi
  obtain ⟨k0, k1⟩ := oKeep_emb c s y
  have hy := ValueIdx.idx2_lt0 y
  have hl0 := lbit_le (dimOf s 0) c
  have hl1 := lbit_le (dimOf s 1) c
  have hs : ((oKeep c s).view.emb y (0 : Fin 2)).val / 128 = s.val := by rw [k0]; have := s.isLt; omega
  rw [outFinal_at m ρ c _ s hs]
  have e := owner_self s c ⟨((oKeep c s).view.emb y (0 : Fin 2)).val % 128, Nat.mod_lt _ (by decide)⟩
    (by show _ % 128 / 64 % 2 = _; rw [k0]; omega) (by show _ % 128 / 32 % 2 = _; rw [k0]; omega)
  exact (congrArg (fun d => lvl m ρ 4 d ((oKeep c s).view.emb y (0 : Fin 2)) ((oKeep c s).view.emb y (1 : Fin 2))) e).symm

/-- Slot 4: the kept quarter at its final contents is final on the partner too. -/
theorem landed4_eq (c : Dev nD) (s : Fin 4) (fd : Buf (Elt F) ((oKeep c s).view.loc ((peer s 4 c : Dev nD) : Thread nD τ))) :
    ∀ i ∈ (oKeep c s).view.set, (oKeep c s).view.write (Elt F) fd ((oKeep c s).view.read (Elt F) (outFinal m ρ c)) Finset.univ i
        = outFinal m ρ (peer s 4 c) i := by
  intro i hi
  obtain ⟨y, rfl⟩ := View.exists_emb_of_mem_set _ hi
  rw [View.write_emb_of_mem _ _ (Finset.mem_univ y)]
  obtain ⟨k0, k1⟩ := oKeep_emb c s y
  have hy := ValueIdx.idx2_lt0 y
  have hl0 := lbit_le (dimOf s 0) c
  have hl1 := lbit_le (dimOf s 1) c
  show outFinal m ρ c ((oKeep c s).view.emb y) = _
  have hs : ((oKeep c s).view.emb y (0 : Fin 2)).val / 128 = s.val := by rw [k0]; have := s.isLt; omega
  rw [outFinal_at m ρ c _ s hs, outFinal_at m ρ (peer s 4 c) _ s hs]
  have e := owner_self s c ⟨((oKeep c s).view.emb y (0 : Fin 2)).val % 128, Nat.mod_lt _ (by decide)⟩
    (by show _ % 128 / 64 % 2 = _; rw [k0]; omega) (by show _ % 128 / 32 % 2 = _; rw [k0]; omega)
  have e' := owner_p1 s c ⟨((oKeep c s).view.emb y (0 : Fin 2)).val % 128, Nat.mod_lt _ (by decide)⟩
    (by show _ % 128 / 64 % 2 = _; rw [k0]; omega) (by show _ % 128 / 32 % 2 = _; rw [k0]; omega)
  exact (congrArg (fun d => lvl m ρ 4 d ((oKeep c s).view.emb y (0 : Fin 2)) ((oKeep c s).view.emb y (1 : Fin 2))) e).trans
    (congrArg (fun d => lvl m ρ 4 d ((oKeep c s).view.emb y (0 : Fin 2)) ((oKeep c s).view.emb y (1 : Fin 2))) e').symm

/-- Slot 5: the kept half at its final contents is final on the partner too. -/
theorem landed5_eq (c : Dev nD) (s : Fin 4) (fd : Buf (Elt F) ((oHalf c s).view.loc ((peer s 5 c : Dev nD) : Thread nD τ))) :
    ∀ i ∈ (oHalf c s).view.set, (oHalf c s).view.write (Elt F) fd ((oHalf c s).view.read (Elt F) (outFinal m ρ c)) Finset.univ i
        = outFinal m ρ (peer s 5 c) i := by
  intro i hi
  obtain ⟨y, rfl⟩ := View.exists_emb_of_mem_set _ hi
  rw [View.write_emb_of_mem _ _ (Finset.mem_univ y)]
  obtain ⟨k0, k1⟩ := oHalf_emb c s y
  have hy := ValueIdx.idx2_lt0 y
  have hl0 := lbit_le (dimOf s 0) c
  show outFinal m ρ c ((oHalf c s).view.emb y) = _
  have hs : ((oHalf c s).view.emb y (0 : Fin 2)).val / 128 = s.val := by rw [k0]; have := s.isLt; omega
  rw [outFinal_at m ρ c _ s hs, outFinal_at m ρ (peer s 5 c) _ s hs]
  have e := owner_p0 s c ⟨((oHalf c s).view.emb y (0 : Fin 2)).val % 128, Nat.mod_lt _ (by decide)⟩
    (by show _ % 128 / 64 % 2 = _; rw [k0]; omega)
  exact (congrArg (fun d => lvl m ρ 4 d ((oHalf c s).view.emb y (0 : Fin 2)) ((oHalf c s).view.emb y (1 : Fin 2))) e).symm

/-! ## The six transfers of a stream -/

section Six
variable (K : Dev nD × CellK → ℕ) (c : Dev nD) (s : Fin 4)

/-- Slot 0: the given half of `x` into the partner's first receive block. -/
theorem step_enq0 (fd : Buf (Elt F) ((rSlot0 s).view.loc ((peer s 0 c : Dev nD) : Thread nD τ)))
    {O' : CellTallies nD τ sig Unit} (O : CellTallies nD τ sig Unit) {W : Waits sig Unit}
    (hO : O' = O + tallyAt (recvCell (peer s 0 c) s 0) () (slotN 0))
    {hsc : (rSlot0 s).view.ref.isScScratch = false} {hsrc : (xGive c s).view.WordExact} {hdst : (rSlot0 s).view.WordExact}
    {hsem : (DmaTarget.remote (Dev.tc (peer s 0 c)) (rSlot0 s) (.dma (sendQ s 0)) hsc : DmaTarget nD τ sig .tc .vmem S64x512 .f32).Typed .vmem (.dma (recvQ s 0))}
    {α : Type} {Q : α → sProp 𝕄} {k : PUnit → Prog (TpuEff nD τ sig (Elt F) Λ₀ .tc) α} :
    iprop(cellInv ER (cubeRd m ρ) (K (c, .send s 0)) (sendCell c s 0)
        ∗ cellInv ER (cubeRd m ρ) (K (peer s 0 c, .recv s 0)) (recvCell (peer s 0 c) s 0)
        ∗ reached ER (sendCell c s 0) 0 ∗ reached ER (recvCell (peer s 0 c) s 0) 0
        ∗ XG m ρ c s ∗ own (rSlot0 s) (peer s 0 c) fullShare fd ∗ owes (c : Thread nD τ) O' W
        ∗ dutyTok ER (sendCell c s 0) 0 (0 : Fin 4) ∗ dutyTok ER (recvCell (peer s 0 c) s 0) 0 (0 : Fin 4))
    ⊢ iprop(((cred (tallyAt (sendCell c s 0) () (slotN 0)) ∗ owes (c : Thread nD τ) O W) -∗ wpC c (k ⟨⟩) Q)
        -∗ wpC c (.op (.enqueueDma (xGive c s) (.remote (Dev.tc (peer s 0 c)) (rSlot0 s) (.dma (sendQ s 0)) hsc) (.dma (recvQ s 0)) hsrc hdst hsem) k) Q) :=
  step_enq m ρ K c s 0 (xGive c s) (rSlot0 s) fullShare (xstg m ρ c) fd rfl O hO BIBase.Entails.rfl
    (BIBase.Entails.of_eq (pointsTo_congr (landed0_eq m ρ c s fd)))

/-- Slot 1: the given quarter of `out` into the partner's second receive block; the source rows go with the landing. -/
theorem step_enq1 (fd : Buf (Elt F) ((rSlot s 1 (.inl rfl)).view.loc ((peer s 1 c : Dev nD) : Thread nD τ)))
    {O' : CellTallies nD τ sig Unit} (O : CellTallies nD τ sig Unit) {W : Waits sig Unit}
    (hO : O' = O + tallyAt (recvCell (peer s 1 c) s 1) () (slotN 1))
    {hsc : (rSlot s 1 (.inl rfl)).view.ref.isScScratch = false} {hsrc : (oGive c s).view.WordExact} {hdst : (rSlot s 1 (.inl rfl)).view.WordExact}
    {hsem : (DmaTarget.remote (Dev.tc (peer s 1 c)) (rSlot s 1 (.inl rfl)) (.dma (sendQ s 1)) hsc : DmaTarget nD τ sig .tc .vmem S32x512 .f32).Typed .vmem (.dma (recvQ s 1))}
    {α : Type} {Q : α → sProp 𝕄} {k : PUnit → Prog (TpuEff nD τ sig (Elt F) Λ₀ .tc) α} :
    iprop(cellInv ER (cubeRd m ρ) (K (c, .send s 1)) (sendCell c s 1)
        ∗ cellInv ER (cubeRd m ρ) (K (peer s 1 c, .recv s 1)) (recvCell (peer s 1 c) s 1)
        ∗ reached ER (sendCell c s 1) 0 ∗ reached ER (recvCell (peer s 1 c) s 1) 0
        ∗ own (oGive c s) c fullShare (outLvl m ρ 1 c) ∗ own (rSlot s 1 (.inl rfl)) (peer s 1 c) fullShare fd ∗ owes (c : Thread nD τ) O' W
        ∗ dutyTok ER (sendCell c s 1) 0 (0 : Fin 4) ∗ dutyTok ER (recvCell (peer s 1 c) s 1) 0 (0 : Fin 4))
    ⊢ iprop(((cred (tallyAt (sendCell c s 1) () (slotN 1)) ∗ owes (c : Thread nD τ) O W) -∗ wpC c (k ⟨⟩) Q)
        -∗ wpC c (.op (.enqueueDma (oGive c s) (.remote (Dev.tc (peer s 1 c)) (rSlot s 1 (.inl rfl)) (.dma (sendQ s 1)) hsc) (.dma (recvQ s 1)) hsrc hdst hsem) k) Q) :=
  step_enq_landing m ρ K c s 1 (oGive c s) (rSlot s 1 (.inl rfl)) fullShare (outLvl m ρ 1 c) fd rfl O hO BIBase.Entails.rfl
    (by
      show iprop(_ ∗ _) ⊢ iprop(own (rSlot s 1 (.inl rfl)) (peer s 1 c) fullShare (recvFinal m ρ (peer s 1 c))
        ∗ own (oGive (peer s 1 (peer s 1 c)) s) (peer s 1 (peer s 1 c)) fullShare (outLvl m ρ 1 (peer s 1 (peer s 1 c))))
      rw [peer_peer]
      exact sep_mono_left (BIBase.Entails.of_eq (pointsTo_congr (landed1_eq m ρ c s fd))))

/-- Slot 2: the kept quarter at level 2 into the partner's third receive block. -/
theorem step_enq2 (fd : Buf (Elt F) ((rSlot s 2 (.inr (.inl rfl))).view.loc ((peer s 2 c : Dev nD) : Thread nD τ)))
    {O' : CellTallies nD τ sig Unit} (O : CellTallies nD τ sig Unit) {W : Waits sig Unit}
    (hO : O' = O + tallyAt (recvCell (peer s 2 c) s 2) () (slotN 2))
    {hsc : (rSlot s 2 (.inr (.inl rfl))).view.ref.isScScratch = false} {hsrc : (oKeep c s).view.WordExact} {hdst : (rSlot s 2 (.inr (.inl rfl))).view.WordExact}
    {hsem : (DmaTarget.remote (Dev.tc (peer s 2 c)) (rSlot s 2 (.inr (.inl rfl))) (.dma (sendQ s 2)) hsc : DmaTarget nD τ sig .tc .vmem S32x512 .f32).Typed .vmem (.dma (recvQ s 2))}
    {α : Type} {Q : α → sProp 𝕄} {k : PUnit → Prog (TpuEff nD τ sig (Elt F) Λ₀ .tc) α} :
    iprop(cellInv ER (cubeRd m ρ) (K (c, .send s 2)) (sendCell c s 2)
        ∗ cellInv ER (cubeRd m ρ) (K (peer s 2 c, .recv s 2)) (recvCell (peer s 2 c) s 2)
        ∗ reached ER (sendCell c s 2) 0 ∗ reached ER (recvCell (peer s 2 c) s 2) 0
        ∗ own (oKeep c s) c fullShare (outLvl m ρ 2 c) ∗ own (rSlot s 2 (.inr (.inl rfl))) (peer s 2 c) fullShare fd ∗ owes (c : Thread nD τ) O' W
        ∗ dutyTok ER (sendCell c s 2) 0 (0 : Fin 4) ∗ dutyTok ER (recvCell (peer s 2 c) s 2) 0 (0 : Fin 4))
    ⊢ iprop(((cred (tallyAt (sendCell c s 2) () (slotN 2)) ∗ owes (c : Thread nD τ) O W) -∗ wpC c (k ⟨⟩) Q)
        -∗ wpC c (.op (.enqueueDma (oKeep c s) (.remote (Dev.tc (peer s 2 c)) (rSlot s 2 (.inr (.inl rfl))) (.dma (sendQ s 2)) hsc) (.dma (recvQ s 2)) hsrc hdst hsem) k) Q) :=
  step_enq m ρ K c s 2 (oKeep c s) (rSlot s 2 (.inr (.inl rfl))) fullShare (outLvl m ρ 2 c) fd rfl O hO BIBase.Entails.rfl
    (BIBase.Entails.of_eq (pointsTo_congr (landed2_eq m ρ c s fd)))

/-- Slot 3: the kept quarter at level 3 into the partner's fourth receive block. -/
theorem step_enq3 (fd : Buf (Elt F) ((rSlot s 3 (.inr (.inr rfl))).view.loc ((peer s 3 c : Dev nD) : Thread nD τ)))
    {O' : CellTallies nD τ sig Unit} (O : CellTallies nD τ sig Unit) {W : Waits sig Unit}
    (hO : O' = O + tallyAt (recvCell (peer s 3 c) s 3) () (slotN 3))
    {hsc : (rSlot s 3 (.inr (.inr rfl))).view.ref.isScScratch = false} {hsrc : (oKeep c s).view.WordExact} {hdst : (rSlot s 3 (.inr (.inr rfl))).view.WordExact}
    {hsem : (DmaTarget.remote (Dev.tc (peer s 3 c)) (rSlot s 3 (.inr (.inr rfl))) (.dma (sendQ s 3)) hsc : DmaTarget nD τ sig .tc .vmem S32x512 .f32).Typed .vmem (.dma (recvQ s 3))}
    {α : Type} {Q : α → sProp 𝕄} {k : PUnit → Prog (TpuEff nD τ sig (Elt F) Λ₀ .tc) α} :
    iprop(cellInv ER (cubeRd m ρ) (K (c, .send s 3)) (sendCell c s 3)
        ∗ cellInv ER (cubeRd m ρ) (K (peer s 3 c, .recv s 3)) (recvCell (peer s 3 c) s 3)
        ∗ reached ER (sendCell c s 3) 0 ∗ reached ER (recvCell (peer s 3 c) s 3) 0
        ∗ own (oKeep c s) c fullShare (outLvl m ρ 3 c) ∗ own (rSlot s 3 (.inr (.inr rfl))) (peer s 3 c) fullShare fd ∗ owes (c : Thread nD τ) O' W
        ∗ dutyTok ER (sendCell c s 3) 0 (0 : Fin 4) ∗ dutyTok ER (recvCell (peer s 3 c) s 3) 0 (0 : Fin 4))
    ⊢ iprop(((cred (tallyAt (sendCell c s 3) () (slotN 3)) ∗ owes (c : Thread nD τ) O W) -∗ wpC c (k ⟨⟩) Q)
        -∗ wpC c (.op (.enqueueDma (oKeep c s) (.remote (Dev.tc (peer s 3 c)) (rSlot s 3 (.inr (.inr rfl))) (.dma (sendQ s 3)) hsc) (.dma (recvQ s 3)) hsrc hdst hsem) k) Q) :=
  step_enq m ρ K c s 3 (oKeep c s) (rSlot s 3 (.inr (.inr rfl))) fullShare (outLvl m ρ 3 c) fd rfl O hO BIBase.Entails.rfl
    (BIBase.Entails.of_eq (pointsTo_congr (landed3_eq m ρ c s fd)))

/-- Slot 4: the kept quarter, final, into the same rows of the partner's `out`; a half share of the source is lent. -/
theorem step_enq4 (fd : Buf (Elt F) ((oKeep c s).view.loc ((peer s 4 c : Dev nD) : Thread nD τ)))
    {O' : CellTallies nD τ sig Unit} (O : CellTallies nD τ sig Unit) {W : Waits sig Unit}
    (hO : O' = O + tallyAt (recvCell (peer s 4 c) s 4) () (slotN 4))
    {hsc : (oKeep c s).view.ref.isScScratch = false} {hsrc : (oKeep c s).view.WordExact} {hdst : (oKeep c s).view.WordExact}
    {hsem : (DmaTarget.remote (Dev.tc (peer s 4 c)) (oKeep c s) (.dma (sendQ s 4)) hsc : DmaTarget nD τ sig .tc .vmem S32x512 .f32).Typed .vmem (.dma (recvQ s 4))}
    {α : Type} {Q : α → sProp 𝕄} {k : PUnit → Prog (TpuEff nD τ sig (Elt F) Λ₀ .tc) α} :
    iprop(cellInv ER (cubeRd m ρ) (K (c, .send s 4)) (sendCell c s 4)
        ∗ cellInv ER (cubeRd m ρ) (K (peer s 4 c, .recv s 4)) (recvCell (peer s 4 c) s 4)
        ∗ reached ER (sendCell c s 4) 0 ∗ reached ER (recvCell (peer s 4 c) s 4) 0
        ∗ own (oKeep c s) c fullShare.right (outFinal m ρ c) ∗ own (oKeep c s) (peer s 4 c) fullShare fd ∗ owes (c : Thread nD τ) O' W
        ∗ dutyTok ER (sendCell c s 4) 0 (0 : Fin 4) ∗ dutyTok ER (recvCell (peer s 4 c) s 4) 0 (0 : Fin 4))
    ⊢ iprop(((cred (tallyAt (sendCell c s 4) () (slotN 4)) ∗ owes (c : Thread nD τ) O W) -∗ wpC c (k ⟨⟩) Q)
        -∗ wpC c (.op (.enqueueDma (oKeep c s) (.remote (Dev.tc (peer s 4 c)) (oKeep c s) (.dma (sendQ s 4)) hsc) (.dma (recvQ s 4)) hsrc hdst hsem) k) Q) :=
  step_enq m ρ K c s 4 (oKeep c s) (oKeep c s) fullShare.right (outFinal m ρ c) fd rfl O hO BIBase.Entails.rfl
    (by
      show _ ⊢ own (oKeep (peer s 4 (peer s 4 c)) s) (peer s 4 c) fullShare (outFinal m ρ (peer s 4 c))
      rw [peer_peer]
      exact BIBase.Entails.of_eq (pointsTo_congr (landed4_eq m ρ c s fd)))

/-- Slot 5: the kept half, final, into the same rows of the partner's `out`; a quarter share of the source is lent. -/
theorem step_enq5 (fd : Buf (Elt F) ((oHalf c s).view.loc ((peer s 5 c : Dev nD) : Thread nD τ)))
    {O' : CellTallies nD τ sig Unit} (O : CellTallies nD τ sig Unit) {W : Waits sig Unit}
    (hO : O' = O + tallyAt (recvCell (peer s 5 c) s 5) () (slotN 5))
    {hsc : (oHalf c s).view.ref.isScScratch = false} {hsrc : (oHalf c s).view.WordExact} {hdst : (oHalf c s).view.WordExact}
    {hsem : (DmaTarget.remote (Dev.tc (peer s 5 c)) (oHalf c s) (.dma (sendQ s 5)) hsc : DmaTarget nD τ sig .tc .vmem S64x512 .f32).Typed .vmem (.dma (recvQ s 5))}
    {α : Type} {Q : α → sProp 𝕄} {k : PUnit → Prog (TpuEff nD τ sig (Elt F) Λ₀ .tc) α} :
    iprop(cellInv ER (cubeRd m ρ) (K (c, .send s 5)) (sendCell c s 5)
        ∗ cellInv ER (cubeRd m ρ) (K (peer s 5 c, .recv s 5)) (recvCell (peer s 5 c) s 5)
        ∗ reached ER (sendCell c s 5) 0 ∗ reached ER (recvCell (peer s 5 c) s 5) 0
        ∗ own (oHalf c s) c fullShare.left.right (outFinal m ρ c) ∗ own (oHalf c s) (peer s 5 c) fullShare fd ∗ owes (c : Thread nD τ) O' W
        ∗ dutyTok ER (sendCell c s 5) 0 (0 : Fin 4) ∗ dutyTok ER (recvCell (peer s 5 c) s 5) 0 (0 : Fin 4))
    ⊢ iprop(((cred (tallyAt (sendCell c s 5) () (slotN 5)) ∗ owes (c : Thread nD τ) O W) -∗ wpC c (k ⟨⟩) Q)
        -∗ wpC c (.op (.enqueueDma (oHalf c s) (.remote (Dev.tc (peer s 5 c)) (oHalf c s) (.dma (sendQ s 5)) hsc) (.dma (recvQ s 5)) hsrc hdst hsem) k) Q) :=
  step_enq m ρ K c s 5 (oHalf c s) (oHalf c s) fullShare.left.right (outFinal m ρ c) fd rfl O hO BIBase.Entails.rfl
    (by
      show _ ⊢ own (oHalf (peer s 5 (peer s 5 c)) s) (peer s 5 c) fullShare (outFinal m ρ (peer s 5 c))
      rw [peer_peer]
      exact BIBase.Entails.of_eq (pointsTo_congr (landed5_eq m ρ c s fd)))

end Six

/-- info: 'Cert.Kernel.Proto.step_enq5' depends on axioms: [propext, Classical.choice, Quot.sound] -/
#guard_msgs in #print axioms step_enq5

end Cert.Kernel.Proto
end
-- ==== Proof.Bits.Waits.lean ====
/-
  The order of a device's payments, and why each of its waits is allowed.

  A device pays twenty-eight times, in program order: one unit to the barrier cell of each of its four partners,
  then one transfer per slot to the receive cell of that slot on the slot's partner. What it still owes after its
  first `k` payments is the sum over the remaining ones; each payment peels one summand.

  Levels order the waits: a barrier cell sits at 1, the receive cell of slot `t` of stream `s` at `2 + 4 t + s`,
  every other cell at 0. Payment `j` goes to a cell of level 1 for `j < 4` and of level `j - 2` from then on, so the
  levels of the payments still to be made never fall below that of the next one. A device waits on its barrier cell
  when only transfers are left to pay, on the receive cell of a slot when every transfer up to that slot's own has
  been issued, and on a send cell at any time: each time the cell waited on lies strictly below everything owed.
-/
import proofs.«900484_g7700000000000485_dist_treered_v7x_i16_m512_n512_f32_1_alg».proof.Proof.Bits.Data
import proofs.«900484_g7700000000000485_dist_treered_v7x_i16_m512_n512_f32_1_alg».proof.Proof.Bits.Chains

noncomputable section

namespace Cert.Kernel.Proto

open Cert.Kernel
open Cert.Kernel.Gen
open Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## One payment at a time

`owedFrom c k` is the sum over the payments from the `k`-th on; the `k`-th is its last summand. -/

theorem owedFrom_0 (c : Dev nD) : owedFrom c 0 = owedFrom c 1 + tallyAt (barCell (partner 0 c)) () 1 := rfl
theorem owedFrom_1 (c : Dev nD) : owedFrom c 1 = owedFrom c 2 + tallyAt (barCell (partner 1 c)) () 1 := rfl
theorem owedFrom_2 (c : Dev nD) : owedFrom c 2 = owedFrom c 3 + tallyAt (barCell (partner 2 c)) () 1 := rfl
theorem owedFrom_3 (c : Dev nD) : owedFrom c 3 = owedFrom c 4 + tallyAt (barCell (partner 3 c)) () 1 := rfl
theorem owedFrom_4 (c : Dev nD) : owedFrom c 4 = owedFrom c 5 + tallyAt (recvCell (peer 0 0 c) 0 0) () (slotN 0) := rfl
theorem owedFrom_5 (c : Dev nD) : owedFrom c 5 = owedFrom c 6 + tallyAt (recvCell (peer 1 0 c) 1 0) () (slotN 0) := rfl
theorem owedFrom_6 (c : Dev nD) : owedFrom c 6 = owedFrom c 7 + tallyAt (recvCell (peer 2 0 c) 2 0) () (slotN 0) := rfl
theorem owedFrom_7 (c : Dev nD) : owedFrom c 7 = owedFrom c 8 + tallyAt (recvCell (peer 3 0 c) 3 0) () (slotN 0) := rfl
theorem owedFrom_8 (c : Dev nD) : owedFrom c 8 = owedFrom c 9 + tallyAt (recvCell (peer 0 1 c) 0 1) () (slotN 1) := rfl
theorem owedFrom_9 (c : Dev nD) : owedFrom c 9 = owedFrom c 10 + tallyAt (recvCell (peer 1 1 c) 1 1) () (slotN 1) := rfl
theorem owedFrom_10 (c : Dev nD) : owedFrom c 10 = owedFrom c 11 + tallyAt (recvCell (peer 2 1 c) 2 1) () (slotN 1) := rfl
theorem owedFrom_11 (c : Dev nD) : owedFrom c 11 = owedFrom c 12 + tallyAt (recvCell (peer 3 1 c) 3 1) () (slotN 1) := rfl
theorem owedFrom_12 (c : Dev nD) : owedFrom c 12 = owedFrom c 13 + tallyAt (recvCell (peer 0 2 c) 0 2) () (slotN 2) := rfl
theorem owedFrom_13 (c : Dev nD) : owedFrom c 13 = owedFrom c 14 + tallyAt (recvCell (peer 1 2 c) 1 2) () (slotN 2) := rfl
theorem owedFrom_14 (c : Dev nD) : owedFrom c 14 = owedFrom c 15 + tallyAt (recvCell (peer 2 2 c) 2 2) () (slotN 2) := rfl
theorem owedFrom_15 (c : Dev nD) : owedFrom c 15 = owedFrom c 16 + tallyAt (recvCell (peer 3 2 c) 3 2) () (slotN 2) := rfl
theorem owedFrom_16 (c : Dev nD) : owedFrom c 16 = owedFrom c 17 + tallyAt (recvCell (peer 0 3 c) 0 3) () (slotN 3) := rfl
theorem owedFrom_17 (c : Dev nD) : owedFrom c 17 = owedFrom c 18 + tallyAt (recvCell (peer 1 3 c) 1 3) () (slotN 3) := rfl
theorem owedFrom_18 (c : Dev nD) : owedFrom c 18 = owedFrom c 19 + tallyAt (recvCell (peer 2 3 c) 2 3) () (slotN 3) := rfl
theorem owedFrom_19 (c : Dev nD) : owedFrom c 19 = owedFrom c 20 + tallyAt (recvCell (peer 3 3 c) 3 3) () (slotN 3) := rfl
theorem owedFrom_20 (c : Dev nD) : owedFrom c 20 = owedFrom c 21 + tallyAt (recvCell (peer 0 4 c) 0 4) () (slotN 4) := rfl
theorem owedFrom_21 (c : Dev nD) : owedFrom c 21 = owedFrom c 22 + tallyAt (recvCell (peer 1 4 c) 1 4) () (slotN 4) := rfl
theorem owedFrom_22 (c : Dev nD) : owedFrom c 22 = owedFrom c 23 + tallyAt (recvCell (peer 2 4 c) 2 4) () (slotN 4) := rfl
theorem owedFrom_23 (c : Dev nD) : owedFrom c 23 = owedFrom c 24 + tallyAt (recvCell (peer 3 4 c) 3 4) () (slotN 4) := rfl
theorem owedFrom_24 (c : Dev nD) : owedFrom c 24 = owedFrom c 25 + tallyAt (recvCell (peer 0 5 c) 0 5) () (slotN 5) := rfl
theorem owedFrom_25 (c : Dev nD) : owedFrom c 25 = owedFrom c 26 + tallyAt (recvCell (peer 1 5 c) 1 5) () (slotN 5) := rfl
theorem owedFrom_26 (c : Dev nD) : owedFrom c 26 = owedFrom c 27 + tallyAt (recvCell (peer 2 5 c) 2 5) () (slotN 5) := rfl
theorem owedFrom_27 (c : Dev nD) : owedFrom c 27 = owedFrom c 28 + tallyAt (recvCell (peer 3 5 c) 3 5) () (slotN 5) := rfl
theorem owedFrom_28 (c : Dev nD) : owedFrom c 28 = 0 := rfl

/-! ## Where the payments go -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv ((c : Thread nD τ), .reg barS) () = 1 := rfl
theorem lv_recv (c : Dev nD) (s : Fin 4) (t : Fin 6) : lv ((c : Thread nD τ), .dma (recvQ s t)) () = 2 + 4 * t.val + s.val := by
  simp only [lv, kindOf_recv]
theorem lv_send (c : Dev nD) (s : Fin 4) (t : Fin 6) : lv ((c : Thread nD τ), .dma (sendQ s t)) () = 0 := by
  simp only [lv, kindOf_send]

/-- The level of the cell the `j`-th payment goes to. -/
def payLv (j : ℕ) : ℕ := if j < 4 then 1 else j - 2

theorem payLv_mono {j k : ℕ} (h : j ≤ k) : payLv j ≤ payLv k := by
  unfold payLv; split_ifs <;> omega

theorem pays_length (c : Dev nD) : (pays c).length = 28 := rfl

/-- The `j`-th payment goes to a cell of a TensorCore thread, at level `payLv j`. -/
theorem pays_getElem (c : Dev nD) (j : ℕ) (hj : j < (pays c).length) :
    ((pays c)[j]).1.1.2 = .tc ∧ lv ((pays c)[j]).1 () = payLv j := by
  have hj' : j < 28 := hj
  interval_cases j <;> exact ⟨rfl, rfl⟩

/-- A sum of tallies is positive only at a cell of one of its summands. -/
theorem foldr_tally_pos {l : List (GSem nD τ sig × ℕ)} {g : GSem nD τ sig} {u : Unit}
    (h : 0 < (l.foldr (fun p acc => acc + tallyAt p.1 () p.2) (0 : CellTallies nD τ sig Unit)) g u) : ∃ p ∈ l, g = p.1 := by
  induction l with
  | nil => exact absurd h (Nat.lt_irrefl 0)
  | cons p l ih =>
    simp only [List.foldr_cons, Pi.add_apply, Finsupp.add_apply] at h
    rw [tallyAt_apply] at h
    by_cases hg : g = p.1 ∧ u = ()
    · exact ⟨p, List.mem_cons_self, hg.1⟩
    · rw [if_neg hg, Nat.add_zero] at h
      obtain ⟨q, hq, e⟩ := ih h
      exact ⟨q, List.mem_cons_of_mem _ hq, e⟩

/-- What a device still owes after `k` payments it owes to the cell of a payment from the `k`-th on. -/
theorem owedFrom_pos {c : Dev nD} {k : ℕ} {g : GSem nD τ sig} {u : Unit} (h : 0 < owedFrom c k g u) :
    ∃ (j : ℕ) (hj : j < (pays c).length), k ≤ j ∧ g = ((pays c)[j]).1 := by
  unfold owedFrom at h
  obtain ⟨p, hp, rfl⟩ := foldr_tally_pos h
  obtain ⟨i, hi, rfl⟩ := List.mem_drop_iff_getElem.mp hp
  exact ⟨k + i, by omega, Nat.le_add_right _ _, rfl⟩

/-- … so to a TensorCore thread's cell, at a level no lower than the `k`-th payment's. -/
theorem owedFrom_pos_lv {c : Dev nD} {k : ℕ} {g : GSem nD τ sig} {u : Unit} (h : 0 < owedFrom c k g u) :
    u ∈ L g ∧ payLv k ≤ lv g u := by
  obtain ⟨j, hj, hkj, rfl⟩ := owedFrom_pos h
  obtain ⟨h1, h2⟩ := pays_getElem c j hj
  cases u
  refine ⟨?_, ?_⟩
  · rw [L, if_pos h1]; exact Finset.mem_singleton_self _
  · rw [h2]; exact payLv_mono hkj

/-! ## The waits -/

/-- At its barrier wait a device has paid the four barrier units: everything it still owes is a transfer, to a
    receive cell, above every barrier cell. -/
theorem mayWait_bar {F : FTy → Type} (c : Dev nD) :
    (levAts L lv : sProp (MT nD τ sig Unit (Elt F) ℕ UU ℕ)) ⊢ MayWait (c : Thread nD τ) (.reg barS) () (owedFrom c 4) :=
  MayOwe.of_cut (L := L) (lev := lv) 1
    (fun p hp => by rw [Finset.mem_singleton.mp hp, L_tc]; exact Finset.mem_singleton_self _)
    (fun g u hg => (owedFrom_pos_lv hg).1)
    (fun p hp => by rw [Finset.mem_singleton.mp hp]; exact (lv_bar c).le)
    (fun g u hg => lt_of_lt_of_le (by decide : 1 < payLv 4) (owedFrom_pos_lv hg).2)

/-- At the wait for slot `t` of stream `s` a device has issued that slot's own transfer (payment `4 + 4 t + s`) and
    every earlier one: what it still owes goes to receive cells of later slots, at higher levels. -/
theorem mayWait_recv {F : FTy → Type} (c : Dev nD) (s : Fin 4) (t : Fin 6) (k : ℕ) (hk : 4 + 4 * t.val + s.val < k) :
    (levAts L lv : sProp (MT nD τ sig Unit (Elt F) ℕ UU ℕ)) ⊢ MayWait (c : Thread nD τ) (.dma (recvQ s t)) () (owedFrom c k) :=
  MayOwe.of_cut (L := L) (lev := lv) (2 + 4 * t.val + s.val)
    (fun p hp => by rw [Finset.mem_singleton.mp hp, L_tc]; exact Finset.mem_singleton_self _)
    (fun g u hg => (owedFrom_pos_lv hg).1)
    (fun p hp => by rw [Finset.mem_singleton.mp hp]; exact (lv_recv c s t).le)
    (fun g u hg => lt_of_lt_of_le (by unfold payLv; split_ifs <;> omega) (owedFrom_pos_lv hg).2)

/-- A send cell sits at level 0, below every cell a device ever owes. -/
theorem mayWait_send {F : FTy → Type} (c : Dev nD) (s : Fin 4) (t : Fin 6) (k : ℕ) :
    (levAts L lv : sProp (MT nD τ sig Unit (Elt F) ℕ UU ℕ)) ⊢ MayWait (c : Thread nD τ) (.dma (sendQ s t)) () (owedFrom c k) :=
  MayOwe.of_cut (L := L) (lev := lv) 0
    (fun p hp => by rw [Finset.mem_singleton.mp hp, L_tc]; exact Finset.mem_singleton_self _)
    (fun g u hg => (owedFrom_pos_lv hg).1)
    (fun p hp => by rw [Finset.mem_singleton.mp hp]; exact (lv_send c s t).le)
    (fun g u hg => lt_of_lt_of_le (by unfold payLv; split_ifs <;> omega) (owedFrom_pos_lv hg).2)

/-- info: 'Cert.Kernel.Proto.mayWait_recv' depends on axioms: [propext, Classical.choice, Quot.sound] -/
#guard_msgs in #print axioms mayWait_recv

end Cert.Kernel.Proto

end
-- ==== Proof.Bits.Entry.lean ====
/-
  What a device's body starts from, taken apart.

  At entry a device holds, besides its buffers: the invariants of the cells it touches and the facts that they are at
  round 0 (persistent), the levels (persistent), and linearly its duty tokens, its positions and the launch credit of
  its own cells. The big conjunctions over the twenty-four slots, the forty-nine cells and the four dimensions are
  written out as chains and regrouped by stream: the barrier's part, and for each stream the thirty atoms of its six
  slots in the order the stream's first phase lists them.
-/
import proofs.«900484_g7700000000000485_dist_treered_v7x_i16_m512_n512_f32_1_alg».proof.Proof.Bits.Stream
import proofs.«900484_g7700000000000485_dist_treered_v7x_i16_m512_n512_f32_1_alg».proof.Proof.Bits.Waits

noncomputable section

namespace Cert.Kernel.Proto

open Cert.Kernel
open Cert.Kernel.Gen
open Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## One payment, by slot -/

/-- The transfer of slot `t` of stream `s` is payment `4 + 4 t + s`. -/
theorem owedFrom_slot (c : Dev nD) (s : Fin 4) (t : Fin 6) :
    owedFrom c (4 + 4 * t.val + s.val) = owedFrom c (4 + 4 * t.val + s.val + 1) + tallyAt (recvCell (peer s t c) s t) () (slotN t) := by
  fin_cases s <;> fin_cases t <;> rfl

/-! ## Conjunctions over the index types, written out -/

omit [FloatOps F] in
theorem sep_assoc_chain (P Q R : sProp 𝕄) : iprop((P ∗ Q) ∗ R) = iprop(P ∗ Q ∗ R) :=
  equiv_iff.mp ⟨Idealize.SL.BI.sep_assoc, Idealize.SL.BI.sep_assoc'⟩

omit [FloatOps F] in
/-- Two conjunctions over one index set, joined. -/
theorem bigSep_sep_eq {I : Type} (S : Finset I) (Φ Ψ : I → sProp 𝕄) :
    iprop(bigSep S Φ ∗ bigSep S Ψ) = bigSep S fun i => iprop(Φ i ∗ Ψ i) := (bigSep_sep S Φ Ψ).symm

omit [FloatOps F] in
/-- Over the four dimensions. -/
theorem bigSep_dim4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Over the twenty-four slots, stream by stream. -/
theorem bigSep_slot (Φ : Slot → sProp 𝕄) :
    bigSep Finset.univ Φ = iprop(Φ (0,0) ∗ Φ (0,1) ∗ Φ (0,2) ∗ Φ (0,3) ∗ Φ (0,4) ∗ Φ (0,5) ∗ Φ (1,0) ∗ Φ (1,1) ∗ Φ (1,2) ∗ Φ (1,3) ∗ Φ (1,4) ∗ Φ (1,5) ∗ Φ (2,0) ∗ Φ (2,1) ∗ Φ (2,2) ∗ Φ (2,3) ∗ Φ (2,4) ∗ Φ (2,5) ∗ Φ (3,0) ∗ Φ (3,1) ∗ Φ (3,2) ∗ Φ (3,3) ∗ Φ (3,4) ∗ Φ (3,5)) :=
  bigSep_univ_eq_bigSepL [(0,0), (0,1), (0,2), (0,3), (0,4), (0,5), (1,0), (1,1), (1,2), (1,3), (1,4), (1,5), (2,0), (2,1), (2,2), (2,3), (2,4), (2,5), (3,0), (3,1), (3,2), (3,3), (3,4), (3,5)] (by decide) (by decide) Φ

omit [FloatOps F] in
/-- Over a device's forty-nine cells: the barrier cell, the send cells, the receive cells. -/
theorem bigSep_cellK_kinds (Φ : CellK → sProp 𝕄) :
    bigSep Finset.univ Φ = iprop(Φ .bar ∗ (bigSep Finset.univ fun st : Slot => Φ (.send st.1 st.2))
      ∗ (bigSep Finset.univ fun st : Slot => Φ (.recv st.1 st.2))) := by
  rw [bigSep_univ_eq_bigSepL ([CellK.bar] ++ [CellK.send 0 0, CellK.send 0 1, CellK.send 0 2, CellK.send 0 3, CellK.send 0 4, CellK.send 0 5, CellK.send 1 0, CellK.send 1 1, CellK.send 1 2, CellK.send 1 3, CellK.send 1 4, CellK.send 1 5, CellK.send 2 0, CellK.send 2 1, CellK.send 2 2, CellK.send 2 3, CellK.send 2 4, CellK.send 2 5, CellK.send 3 0, CellK.send 3 1, CellK.send 3 2, CellK.send 3 3, CellK.send 3 4, CellK.send 3 5] ++ [CellK.recv 0 0, CellK.recv 0 1, CellK.recv 0 2, CellK.recv 0 3, CellK.recv 0 4, CellK.recv 0 5, CellK.recv 1 0, CellK.recv 1 1, CellK.recv 1 2, CellK.recv 1 3, CellK.recv 1 4, CellK.recv 1 5, CellK.recv 2 0, CellK.recv 2 1, CellK.recv 2 2, CellK.recv 2 3, CellK.recv 2 4, CellK.recv 2 5, CellK.recv 3 0, CellK.recv 3 1, CellK.recv 3 2, CellK.recv 3 3, CellK.recv 3 4, CellK.recv 3 5]) (by decide) (by decide) Φ, bigSep_slot, bigSep_slot]
  simp only [List.cons_append, List.nil_append, bigSepL_cons_cons, bigSepL_singleton, sep_assoc_chain]
  rfl

/-! ## A stream's share of the linear ghost state -/

/-- The thirty atoms of stream `s`: for each slot the two duty tokens the device pays with, its two positions, and the
    launch credit of its receive cell. -/
def slotAtoms (c : Dev nD) (s : Fin 4) : sProp 𝕄 :=
  iprop(dutyTok ER (recvCell (peer s 0 c) s 0) 0 (0 : Fin 4)
    ∗ dutyTok ER (sendCell c s 0) 0 (0 : Fin 4)
    ∗ atPos ER (sendCell c s 0) 0 ∅ 0
    ∗ atPos ER (recvCell c s 0) 0 ∅ 0
    ∗ cred (tallyAt (recvCell c s 0) () (slotN 0))
    ∗ dutyTok ER (recvCell (peer s 1 c) s 1) 0 (0 : Fin 4)
    ∗ dutyTok ER (sendCell c s 1) 0 (0 : Fin 4)
    ∗ atPos ER (sendCell c s 1) 0 ∅ 0
    ∗ atPos ER (recvCell c s 1) 0 ∅ 0
    ∗ cred (tallyAt (recvCell c s 1) () (slotN 1))
    ∗ dutyTok ER (recvCell (peer s 2 c) s 2) 0 (0 : Fin 4)
    ∗ dutyTok ER (sendCell c s 2) 0 (0 : Fin 4)
    ∗ atPos ER (sendCell c s 2) 0 ∅ 0
    ∗ atPos ER (recvCell c s 2) 0 ∅ 0
    ∗ cred (tallyAt (recvCell c s 2) () (slotN 2))
    ∗ dutyTok ER (recvCell (peer s 3 c) s 3) 0 (0 : Fin 4)
    ∗ dutyTok ER (sendCell c s 3) 0 (0 : Fin 4)
    ∗ atPos ER (sendCell c s 3) 0 ∅ 0
    ∗ atPos ER (recvCell c s 3) 0 ∅ 0
    ∗ cred (tallyAt (recvCell c s 3) () (slotN 3))
    ∗ dutyTok ER (recvCell (peer s 4 c) s 4) 0 (0 : Fin 4)
    ∗ dutyTok ER (sendCell c s 4) 0 (0 : Fin 4)
    ∗ atPos ER (sendCell c s 4) 0 ∅ 0
    ∗ atPos ER (recvCell c s 4) 0 ∅ 0
    ∗ cred (tallyAt (recvCell c s 4) () (slotN 4))
    ∗ dutyTok ER (recvCell (peer s 5 c) s 5) 0 (0 : Fin 4)
    ∗ dutyTok ER (sendCell c s 5) 0 (0 : Fin 4)
    ∗ atPos ER (sendCell c s 5) 0 ∅ 0
    ∗ atPos ER (recvCell c s 5) 0 ∅ 0
    ∗ cred (tallyAt (recvCell c s 5) () (slotN 5)))

omit [FloatOps F] in
/-- The five conjunctions over the slots, regrouped by stream. -/
theorem slots_regroup (c : Dev nD) :
    (iprop((bigSep Finset.univ fun st : Slot => dutyTok ER (recvCell (peer st.1 st.2 c) st.1 st.2) 0 (0 : Fin 4))
      ∗ (bigSep Finset.univ fun st : Slot => dutyTok ER (sendCell c st.1 st.2) 0 (0 : Fin 4))
      ∗ (bigSep Finset.univ fun st : Slot => atPos ER (sendCell c st.1 st.2) 0 ∅ 0)
      ∗ (bigSep Finset.univ fun st : Slot => atPos ER (recvCell c st.1 st.2) 0 ∅ 0)
      ∗ (bigSep Finset.univ fun st : Slot => cred (tallyAt (recvCell c st.1 st.2) () (slotN st.2)))) : sProp 𝕄)
    = iprop(slotAtoms c 0 ∗ slotAtoms c 1 ∗ slotAtoms c 2 ∗ slotAtoms c 3) := by
  rw [bigSep_sep_eq, bigSep_sep_eq, bigSep_sep_eq, bigSep_sep_eq, bigSep_slot]
  unfold slotAtoms
  simp only [sep_assoc_chain]

/-! ## The entry split -/

/-- What the body starts from: the persistent part (invariants, round marks, levels), the barrier's linear part
    (the four duty tokens, the position, the four units of launch credit), and each stream's thirty atoms. -/
theorem start_split (c : Dev nD) :
    start m ρ c ⊢ iprop(∃ K, (□ (invs m ρ K c ∗ marks c ∗ levAts L lv))
      ∗ (dutyTok ER (barCell (partner 0 c)) 0 (0 : Fin 4) ∗ dutyTok ER (barCell (partner 1 c)) 0 (1 : Fin 4)
          ∗ dutyTok ER (barCell (partner 2 c)) 0 (2 : Fin 4) ∗ dutyTok ER (barCell (partner 3 c)) 0 (3 : Fin 4))
      ∗ atPos ER (barCell c) 0 ∅ 0 ∗ cred (tallyAt (barCell c) () 4)
      ∗ slotAtoms c 0 ∗ slotAtoms c 1 ∗ slotAtoms c 2 ∗ slotAtoms c 3) := by
  unfold start ghost payToks positions creds
  rw [bigSep_cellK_kinds, bigSep_dim4, ← slots_regroup c]
  iintro ⟨⟨%K, #Hinv, #Hmarks, ⟨Hpb, Hps, Hpr⟩, ⟨Htb0, Htb1, Htb2, Htb3⟩, Htr, Hts⟩, ⟨Hcb, Hcr⟩, #Hlev⟩
  iexists K
  isplitr
  · imodintro
    isplitr; · iexact Hinv
    isplitr; · iexact Hmarks
    iexact Hlev
  isplitl [Htb0 Htb1 Htb2 Htb3]
  · isplitl [Htb0]; · iexact Htb0
    isplitl [Htb1]; · iexact Htb1
    isplitl [Htb2]; · iexact Htb2
    iexact Htb3
  isplitl [Hpb]; · iexact Hpb
  isplitl [Hcb]; · iexact Hcb
  isplitl [Htr]; · iexact Htr
  isplitl [Hts]; · iexact Hts
  isplitl [Hps]; · iexact Hps
  isplitl [Hpr]; · iexact Hpr
  iexact Hcr

/-! ## Out of the persistent part -/

omit [FloatOps F] in
/-- One conjunct out of a conjunction over a whole index type. -/
theorem bigSep_pick {I : Type} [Fintype I] [DecidableEq I] (Φ : I → sProp 𝕄) (i : I) : bigSep Finset.univ Φ ⊢ Φ i :=
  bigSep_elim (Finset.mem_univ i)

theorem invs_own (K : Dev nD × CellK → ℕ) (c : Dev nD) (k : CellK) :
    invs m ρ K c ⊢ cellInv ER (cubeRd m ρ) (K (c, k)) (kcell (c, k)) := by
  unfold invs
  iintro ⟨H, -, -⟩
  iapply (bigSep_pick (fun k : CellK => cellInv ER (cubeRd m ρ) (K (c, k)) (kcell (c, k))) k)
  iexact H

theorem invs_bar (K : Dev nD × CellK → ℕ) (c : Dev nD) (b : Fin 4) :
    invs m ρ K c ⊢ cellInv ER (cubeRd m ρ) (K (partner b c, .bar)) (barCell (partner b c)) := by
  unfold invs
  iintro ⟨-, H, -⟩
  iapply (bigSep_pick (fun b : Fin 4 => cellInv ER (cubeRd m ρ) (K (partner b c, .bar)) (barCell (partner b c))) b)
  iexact H

theorem invs_recv (K : Dev nD × CellK → ℕ) (c : Dev nD) (s : Fin 4) (t : Fin 6) :
    invs m ρ K c ⊢ cellInv ER (cubeRd m ρ) (K (peer s t c, .recv s t)) (recvCell (peer s t c) s t) := by
  unfold invs
  iintro ⟨-, -, H⟩
  iapply (bigSep_pick (fun st : Slot => cellInv ER (cubeRd m ρ) (K (peer st.1 st.2 c, .recv st.1 st.2)) (recvCell (peer st.1 st.2 c) st.1 st.2)) (s, t))
  iexact H

omit [FloatOps F] in
theorem marks_own (c : Dev nD) (k : CellK) : (marks c : sProp 𝕄) ⊢ reached ER (kcell (c, k)) 0 := by
  unfold marks
  iintro ⟨H, -, -⟩
  iapply (bigSep_pick (fun k : CellK => reached ER (kcell (c, k)) 0) k)
  iexact H

omit [FloatOps F] in
theorem marks_bar (c : Dev nD) (b : Fin 4) : (marks c : sProp 𝕄) ⊢ reached ER (barCell (partner b c)) 0 := by
  unfold marks
  iintro ⟨-, H, -⟩
  iapply (bigSep_pick (fun b : Fin 4 => reached ER (barCell (partner b c)) 0) b)
  iexact H

omit [FloatOps F] in
theorem marks_recv (c : Dev nD) (s : Fin 4) (t : Fin 6) : (marks c : sProp 𝕄) ⊢ reached ER (recvCell (peer s t c) s t) 0 := by
  unfold marks
  iintro ⟨-, -, H⟩
  iapply (bigSep_pick (fun st : Slot => reached ER (recvCell (peer st.1 st.2 c) st.1 st.2) 0) (s, t))
  iexact H

/-! ## Into a stream's first phase -/

theorem streamSt0_intro (c : Dev nD) (s : Fin 4) (g : Buf (Elt F) (((c : Dev nD) : Thread nD τ).loc cc0_stg1_0)) :
    iprop(slotAtoms c s ∗ XG m ρ c s ∗ XK m ρ c s ∗ own (oHalf' c s) c fullShare g ∗ RP0 c s ∗ RP c s 1 (.inl rfl)
      ∗ RP c s 2 (.inr (.inl rfl)) ∗ RP c s 3 (.inr (.inr rfl)) ∗ OP5 c s) ⊢ StreamSt0 m ρ c s g := by
  unfold StreamSt0 slotAtoms
  simp only [sep_assoc_chain]
  exact .rfl

/-- info: 'Cert.Kernel.Proto.start_split' depends on axioms: [propext, Classical.choice, Quot.sound] -/
#guard_msgs in #print axioms start_split

end Cert.Kernel.Proto

end
-- ==== Proof.Bits.TransEnq.lean ====
/-
  The first two transfers of a stream as transitions between its phases.

  The transfer of slot 0 spends the slot's two duty tokens, the given half of `x` and the partner's first receive
  block, and leaves the send cell's credit. The transfer of slot 1 first cuts the kept half of `out` (at level 1) into
  the kept quarter, which stays, and the given quarter, which is the source and travels to the partner with the
  landing.
-/
import proofs.«900484_g7700000000000485_dist_treered_v7x_i16_m512_n512_f32_1_alg».proof.Proof.Bits.PartsDefs
import proofs.«900484_g7700000000000485_dist_treered_v7x_i16_m512_n512_f32_1_alg».proof.Proof.Bits.StepsEnq
import proofs.«900484_g7700000000000485_dist_treered_v7x_i16_m512_n512_f32_1_alg».proof.Proof.Bits.Entry
import proofs.«900484_g7700000000000485_dist_treered_v7x_i16_m512_n512_f32_1_alg».proof.Proof.Bits.Regions
import proofs.«900484_g7700000000000485_dist_treered_v7x_i16_m512_n512_f32_1_alg».proof.Proof.Bits.Waits

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem tr_ENQ0 (K : Dev nD × CellK → ℕ) (c : Dev nD) (s : Fin 4) (g : Buf (Elt F) (((c : Dev nD) : Thread nD τ).loc cc0_stg1_0)) (k : ℕ) (hk : k = 4 + 4 * 0 + s.val) (d : Dev nD) (hd : d = peer s 0 c)
    {hsc : ((rSlot0 s : Memref sig (Dev.tc d : Thread nD τ).2.kind .vmem S64x512 .f32)).view.ref.isScScratch = false}
    {hsrc : (xGive c s).view.WordExact} {hdst : (rSlot0 s).view.WordExact}
    {hsem : DmaTarget.Typed .vmem (.dma (recvQ s 0)) (.remote (Dev.tc d : Thread nD τ) (rSlot0 s) (.dma (sendQ s 0)) hsc)} {α : Type} {Q : α → sProp 𝕄} {kont : PUnit → Prog (TpuEff nD τ sig (Elt F) Λ₀ .tc) α} :
    iprop(□ Pers m ρ K c ∗ GSt c k ∗ StreamSt0 m ρ c s g)
      ⊢ iprop(((GSt c (k + 1) ∗ StreamSt1 m ρ c s g) -∗ wpC c (kont ⟨⟩) Q)
          -∗ wpC c (.op (.enqueueDma (xGive c s) (.remote (Dev.tc d : Thread nD τ) (rSlot0 s) (.dma (sendQ s 0)) hsc) (.dma (recvQ s 0)) hsrc hdst hsem) kont) Q) := by
  subst hk hd
  unfold StreamSt0 StreamSt1
  iintro ⟨#⟨Hinv, Hmarks, -⟩, ⟨%W, HO⟩, A1, A2, A3, A4, A5, A6, A7, A8, A9, A10, A11, A12, A13, A14, A15, A16, A17, A18, A19, A20, A21, A22, A23, A24, A25, A26, A27, A28, A29, A30, A31, A32, A33, A34, A35, A36, A37, A38⟩ Hk
  have hg1 : invs m ρ K c ⊢ cellInv ER (cubeRd m ρ) (K (c, .send s 0)) (sendCell c s 0) := invs_own m ρ K c (.send s 0)
  have hg2 : invs m ρ K c ⊢ cellInv ER (cubeRd m ρ) (K (peer s 0 c, .recv s 0)) (recvCell (peer s 0 c) s 0) := invs_recv m ρ K c s 0
  have hr1 : (marks c : sProp 𝕄) ⊢ reached ER (sendCell c s 0) 0 := marks_own c (.send s 0)
  have hr2 : (marks c : sProp 𝕄) ⊢ reached ER (recvCell (peer s 0 c) s 0) 0 := marks_recv c s 0
  ihave Hg1 := hg1 $$ Hinv
  ihave Hg2 := hg2 $$ Hinv
  ihave Hr1 := hr1 $$ Hmarks
  ihave Hr2 := hr2 $$ Hmarks
  icases A34 with ⟨%fd, A34⟩
  iapply (step_enq0 m ρ K c s fd (owedFrom c (4 + 4 * 0 + s.val + 1)) (owedFrom_slot c s 0)) $$ [Hg1 Hg2 Hr1 Hr2 A31 A34 HO A2 A1]
  · isplitl [Hg1]; · iexact Hg1
    isplitl [Hg2]; · iexact Hg2
    isplitl [Hr1]; · iexact Hr1
    isplitl [Hr2]; · iexact Hr2
    isplitl [A31]; · iexact A31
    isplitl [A34]; · iexact A34
    isplitl [HO]; · iexact HO
    isplitl [A2]; · iexact A2
    iexact A1
  iintro ⟨Hcred, HO⟩
  iapply Hk
  isplitl [HO]; · iexists W; iexact HO
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A32]; · iexact A32
  isplitl [A33]; · iexact A33
  isplitl [A35]; · iexact A35
  isplitl [A36]; · iexact A36
  isplitl [A37]; · iexact A37
  isplitl [A38]; · iexact A38
  iexact Hcred

theorem tr_ENQ1 (K : Dev nD × CellK → ℕ) (c : Dev nD) (s : Fin 4) (g : Buf (Elt F) (((c : Dev nD) : Thread nD τ).loc cc0_stg1_0)) (k : ℕ) (hk : k = 4 + 4 * 1 + s.val) (d : Dev nD) (hd : d = peer s 1 c)
    {hsc : ((rSlot s 1 (.inl rfl) : Memref sig (Dev.tc d : Thread nD τ).2.kind .vmem S32x512 .f32)).view.ref.isScScratch = false}
    {hsrc : (oGive c s).view.WordExact} {hdst : (rSlot s 1 (.inl rfl)).view.WordExact}
    {hsem : DmaTarget.Typed .vmem (.dma (recvQ s 1)) (.remote (Dev.tc d : Thread nD τ) (rSlot s 1 (.inl rfl)) (.dma (sendQ s 1)) hsc)} {α : Type} {Q : α → sProp 𝕄} {kont : PUnit → Prog (TpuEff nD τ sig (Elt F) Λ₀ .tc) α} :
    iprop(□ Pers m ρ K c ∗ GSt c k ∗ StreamSt3 m ρ c s)
      ⊢ iprop(((GSt c (k + 1) ∗ StreamSt4 m ρ c s) -∗ wpC c (kont ⟨⟩) Q)
          -∗ wpC c (.op (.enqueueDma (oGive c s) (.remote (Dev.tc d : Thread nD τ) (rSlot s 1 (.inl rfl)) (.dma (sendQ s 1)) hsc) (.dma (recvQ s 1)) hsrc hdst hsem) kont) Q) := by
  subst hk hd
  unfold StreamSt3 StreamSt4
  iintro ⟨#⟨Hinv, Hmarks, -⟩, ⟨%W, HO⟩, A1, A2, A3, A4, A5, A6, A7, A8, A9, A10, A11, A12, A13, A14, A15, A16, A17, A18, A19, A20, A21, A22, A23, A24, A25, A26, A27, A28, A29, A30, A31, A32, A33, A34, A35⟩ Hk
  have hg1 : invs m ρ K c ⊢ cellInv ER (cubeRd m ρ) (K (c, .send s 1)) (sendCell c s 1) := invs_own m ρ K c (.send s 1)
  have hg2 : invs m ρ K c ⊢ cellInv ER (cubeRd m ρ) (K (peer s 1 c, .recv s 1)) (recvCell (peer s 1 c) s 1) := invs_recv m ρ K c s 1
  have hr1 : (marks c : sProp 𝕄) ⊢ reached ER (sendCell c s 1) 0 := marks_own c (.send s 1)
  have hr2 : (marks c : sProp 𝕄) ⊢ reached ER (recvCell (peer s 1 c) s 1) 0 := marks_recv c s 1
  ihave Hg1 := hg1 $$ Hinv
  ihave Hg2 := hg2 $$ Hinv
  ihave Hr1 := hr1 $$ Hmarks
  ihave Hr2 := hr2 $$ Hmarks
  icases A28 with ⟨%fd, A28⟩
  have hsplit : own (oHalf' c s) c fullShare (outLvl m ρ 1 c) ⊢ iprop(own (oKeep' c s) c fullShare (outLvl m ρ 1 c) ∗ own (oGive c s) c fullShare (outLvl m ρ 1 c)) := by
    rw [own_oHalf', own_oKeep', oHalf_quarters]
  ihave AH := hsplit $$ A35
  icases AH with ⟨AK, AG⟩
  iapply (step_enq1 m ρ K c s fd (owedFrom c (4 + 4 * 1 + s.val + 1)) (owedFrom_slot c s 1)) $$ [Hg1 Hg2 Hr1 Hr2 AG A28 HO A3 A2]
  · isplitl [Hg1]; · iexact Hg1
    isplitl [Hg2]; · iexact Hg2
    isplitl [Hr1]; · iexact Hr1
    isplitl [Hr2]; · iexact Hr2
    isplitl [AG]; · iexact AG
    isplitl [A28]; · iexact A28
    isplitl [HO]; · iexact HO
    isplitl [A3]; · iexact A3
    iexact A2
  iintro ⟨Hcred, HO⟩
  iapply Hk
  isplitl [HO]; · iexists W; iexact HO
  isplitl [A1]; · iexact A1
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A29]; · iexact A29
  isplitl [A30]; · iexact A30
  isplitl [A31]; · iexact A31
  isplitl [A32]; · iexact A32
  isplitl [A33]; · iexact A33
  isplitl [A34]; · iexact A34
  isplitl [Hcred]; · iexact Hcred
  iexact AK

/-- info: 'Cert.Kernel.Proto.tr_ENQ1' depends on axioms: [propext, Classical.choice, Quot.sound] -/
#guard_msgs in #print axioms tr_ENQ1

end Cert.Kernel.Proto
end
-- ==== Proof.Bits.TransEnq23.lean ====
/-
  The transfers of slots 2 and 3 of a stream, as phase transitions.

  Slot 2 (slot 3) sends the quarter of `out` the device keeps, at level 2 (3), into the third (fourth) block of the
  receive rows of its partner along the stream's third (fourth) dimension. The transfer spends the device's two duty
  tokens of the slot — the one of its own send cell and the one of the partner's receive cell —, takes the kept quarter
  and the partner's receive rows (handed over at the barrier), and leaves the credit of the send cell; the device then
  owes one payment less.
-/
import proofs.«900484_g7700000000000485_dist_treered_v7x_i16_m512_n512_f32_1_alg».proof.Proof.Bits.PartsDefs
import proofs.«900484_g7700000000000485_dist_treered_v7x_i16_m512_n512_f32_1_alg».proof.Proof.Bits.StepsEnq
import proofs.«900484_g7700000000000485_dist_treered_v7x_i16_m512_n512_f32_1_alg».proof.Proof.Bits.Regions
import proofs.«900484_g7700000000000485_dist_treered_v7x_i16_m512_n512_f32_1_alg».proof.Proof.Bits.Waits
import proofs.«900484_g7700000000000485_dist_treered_v7x_i16_m512_n512_f32_1_alg».proof.Proof.Bits.Entry

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The transfer of slot 2 on the resources it touches: the two duty tokens, the kept quarter (under the offset the
    stores use) at level 2 and the partner's receive rows go in; the send cell's credit comes out, and the device owes one
    payment less. -/
theorem enq23_core2 (K : Dev nD × CellK → ℕ) (c : Dev nD) (s : Fin 4) (k : ℕ) (hk : k = 4 + 4 * 2 + s.val) (d : Dev nD) (hd : d = peer s 2 c)
    {hsc : ((rSlot s 2 (.inr (.inl rfl)) : Memref sig (Dev.tc d : Thread nD τ).2.kind .vmem S32x512 .f32)).view.ref.isScScratch = false}
    {hsrc : (oKeep c s).view.WordExact} {hdst : (rSlot s 2 (.inr (.inl rfl))).view.WordExact}
    {hsem : DmaTarget.Typed .vmem (.dma (recvQ s 2)) (.remote (Dev.tc d : Thread nD τ) (rSlot s 2 (.inr (.inl rfl))) (.dma (sendQ s 2)) hsc)} {α : Type} {Q : α → sProp 𝕄} {kont : PUnit → Prog (TpuEff nD τ sig (Elt F) Λ₀ .tc) α} :
    iprop(□ Pers m ρ K c ∗ GSt c k ∗ dutyTok ER (recvCell (peer s 2 c) s 2) 0 (0 : Fin 4) ∗ dutyTok ER (sendCell c s 2) 0 (0 : Fin 4)
        ∗ RP c s 2 (.inr (.inl rfl)) ∗ own (oKeep' c s) c fullShare (outLvl m ρ 2 c))
      ⊢ iprop(((GSt c (k + 1) ∗ cred (tallyAt (sendCell c s 2) () (slotN 2))) -∗ wpC c (kont ⟨⟩) Q)
          -∗ wpC c (.op (.enqueueDma (oKeep c s) (.remote (Dev.tc d : Thread nD τ) (rSlot s 2 (.inr (.inl rfl))) (.dma (sendQ s 2)) hsc) (.dma (recvQ s 2)) hsrc hdst hsem) kont) Q) := by
  subst hd hk
  iintro ⟨#HP, ⟨%W, HO⟩, Ht₂, Ht₁, ⟨%fd, Hd⟩, Hs⟩ Hk
  icases HP with ⟨#HI, #HM, #HL⟩
  iapply (step_enq2 m ρ K c s fd (owedFrom c (4 + 4 * 2 + s.val + 1)) (owedFrom_slot c s 2) (W := W)) $$ [HO Ht₁ Ht₂ Hd Hs]
  · isplitr; · iapply (invs_own m ρ K c (.send s 2)); iexact HI
    isplitr; · iapply (invs_recv m ρ K c s 2); iexact HI
    isplitr; · iapply (marks_own c (.send s 2)); iexact HM
    isplitr; · iapply (marks_recv c s 2); iexact HM
    isplitl [Hs]; · iapply (Entails.of_eq (own_oKeep' c c s fullShare (outLvl m ρ 2 c))); iexact Hs
    isplitl [Hd]; · iexact Hd
    isplitl [HO]; · iexact HO
    isplitl [Ht₁]; · iexact Ht₁
    iexact Ht₂
  iintro ⟨Hc, HO⟩
  iapply Hk
  isplitl [HO]; · iexists _; iexact HO
  iexact Hc

theorem tr_ENQ2 (K : Dev nD × CellK → ℕ) (c : Dev nD) (s : Fin 4) (g : Buf (Elt F) (((c : Dev nD) : Thread nD τ).loc cc0_stg1_0)) (k : ℕ) (hk : k = 4 + 4 * 2 + s.val) (d : Dev nD) (hd : d = peer s 2 c)
    {hsc : ((rSlot s 2 (.inr (.inl rfl)) : Memref sig (Dev.tc d : Thread nD τ).2.kind .vmem S32x512 .f32)).view.ref.isScScratch = false}
    {hsrc : (oKeep c s).view.WordExact} {hdst : (rSlot s 2 (.inr (.inl rfl))).view.WordExact}
    {hsem : DmaTarget.Typed .vmem (.dma (recvQ s 2)) (.remote (Dev.tc d : Thread nD τ) (rSlot s 2 (.inr (.inl rfl))) (.dma (sendQ s 2)) hsc)} {α : Type} {Q : α → sProp 𝕄} {kont : PUnit → Prog (TpuEff nD τ sig (Elt F) Λ₀ .tc) α} :
    iprop(□ Pers m ρ K c ∗ GSt c k ∗ StreamSt6 m ρ c s)
      ⊢ iprop(((GSt c (k + 1) ∗ StreamSt7 m ρ c s) -∗ wpC c (kont ⟨⟩) Q)
          -∗ wpC c (.op (.enqueueDma (oKeep c s) (.remote (Dev.tc d : Thread nD τ) (rSlot s 2 (.inr (.inl rfl))) (.dma (sendQ s 2)) hsc) (.dma (recvQ s 2)) hsrc hdst hsem) kont) Q) := by
  unfold StreamSt6 StreamSt7
  iintro ⟨#HP, HG, A1, A2, A3, A4, A5, A6, A7, A8, A9, A10, A11, A12, A13, A14, A15, A16, A17, A18, A19, A20, A21, A22, A23, A24, A25, A26, A27, A28, A29, A30, A31, A32, A33, A34⟩ Hk
  iapply (enq23_core2 m ρ K c s k hk d hd) $$ [HG A3 A4 A24 A34]
  · isplitr; · iexact HP
    isplitl [HG]; · iexact HG
    isplitl [A3]; · iexact A3
    isplitl [A4]; · iexact A4
    isplitl [A24]; · iexact A24
    iexact A34
  iintro ⟨HG, Hc⟩
  iapply Hk
  isplitl [HG]; · iexact HG
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact Hc

/-- The transfer of slot 3 on the resources it touches: the two duty tokens, the kept quarter (under the offset the
    stores use) at level 3 and the partner's receive rows go in; the send cell's credit comes out, and the device owes one
    payment less. -/
theorem enq23_core3 (K : Dev nD × CellK → ℕ) (c : Dev nD) (s : Fin 4) (k : ℕ) (hk : k = 4 + 4 * 3 + s.val) (d : Dev nD) (hd : d = peer s 3 c)
    {hsc : ((rSlot s 3 (.inr (.inr rfl)) : Memref sig (Dev.tc d : Thread nD τ).2.kind .vmem S32x512 .f32)).view.ref.isScScratch = false}
    {hsrc : (oKeep c s).view.WordExact} {hdst : (rSlot s 3 (.inr (.inr rfl))).view.WordExact}
    {hsem : DmaTarget.Typed .vmem (.dma (recvQ s 3)) (.remote (Dev.tc d : Thread nD τ) (rSlot s 3 (.inr (.inr rfl))) (.dma (sendQ s 3)) hsc)} {α : Type} {Q : α → sProp 𝕄} {kont : PUnit → Prog (TpuEff nD τ sig (Elt F) Λ₀ .tc) α} :
    iprop(□ Pers m ρ K c ∗ GSt c k ∗ dutyTok ER (recvCell (peer s 3 c) s 3) 0 (0 : Fin 4) ∗ dutyTok ER (sendCell c s 3) 0 (0 : Fin 4)
        ∗ RP c s 3 (.inr (.inr rfl)) ∗ own (oKeep' c s) c fullShare (outLvl m ρ 3 c))
      ⊢ iprop(((GSt c (k + 1) ∗ cred (tallyAt (sendCell c s 3) () (slotN 3))) -∗ wpC c (kont ⟨⟩) Q)
          -∗ wpC c (.op (.enqueueDma (oKeep c s) (.remote (Dev.tc d : Thread nD τ) (rSlot s 3 (.inr (.inr rfl))) (.dma (sendQ s 3)) hsc) (.dma (recvQ s 3)) hsrc hdst hsem) kont) Q) := by
  subst hd hk
  iintro ⟨#HP, ⟨%W, HO⟩, Ht₂, Ht₁, ⟨%fd, Hd⟩, Hs⟩ Hk
  icases HP with ⟨#HI, #HM, #HL⟩
  iapply (step_enq3 m ρ K c s fd (owedFrom c (4 + 4 * 3 + s.val + 1)) (owedFrom_slot c s 3) (W := W)) $$ [HO Ht₁ Ht₂ Hd Hs]
  · isplitr; · iapply (invs_own m ρ K c (.send s 3)); iexact HI
    isplitr; · iapply (invs_recv m ρ K c s 3); iexact HI
    isplitr; · iapply (marks_own c (.send s 3)); iexact HM
    isplitr; · iapply (marks_recv c s 3); iexact HM
    isplitl [Hs]; · iapply (Entails.of_eq (own_oKeep' c c s fullShare (outLvl m ρ 3 c))); iexact Hs
    isplitl [Hd]; · iexact Hd
    isplitl [HO]; · iexact HO
    isplitl [Ht₁]; · iexact Ht₁
    iexact Ht₂
  iintro ⟨Hc, HO⟩
  iapply Hk
  isplitl [HO]; · iexists _; iexact HO
  iexact Hc

theorem tr_ENQ3 (K : Dev nD × CellK → ℕ) (c : Dev nD) (s : Fin 4) (g : Buf (Elt F) (((c : Dev nD) : Thread nD τ).loc cc0_stg1_0)) (k : ℕ) (hk : k = 4 + 4 * 3 + s.val) (d : Dev nD) (hd : d = peer s 3 c)
    {hsc : ((rSlot s 3 (.inr (.inr rfl)) : Memref sig (Dev.tc d : Thread nD τ).2.kind .vmem S32x512 .f32)).view.ref.isScScratch = false}
    {hsrc : (oKeep c s).view.WordExact} {hdst : (rSlot s 3 (.inr (.inr rfl))).view.WordExact}
    {hsem : DmaTarget.Typed .vmem (.dma (recvQ s 3)) (.remote (Dev.tc d : Thread nD τ) (rSlot s 3 (.inr (.inr rfl))) (.dma (sendQ s 3)) hsc)} {α : Type} {Q : α → sProp 𝕄} {kont : PUnit → Prog (TpuEff nD τ sig (Elt F) Λ₀ .tc) α} :
    iprop(□ Pers m ρ K c ∗ GSt c k ∗ StreamSt10 m ρ c s)
      ⊢ iprop(((GSt c (k + 1) ∗ StreamSt11 m ρ c s) -∗ wpC c (kont ⟨⟩) Q)
          -∗ wpC c (.op (.enqueueDma (oKeep c s) (.remote (Dev.tc d : Thread nD τ) (rSlot s 3 (.inr (.inr rfl))) (.dma (sendQ s 3)) hsc) (.dma (recvQ s 3)) hsrc hdst hsem) kont) Q) := by
  unfold StreamSt10 StreamSt11
  iintro ⟨#HP, HG, A1, A2, A3, A4, A5, A6, A7, A8, A9, A10, A11, A12, A13, A14, A15, A16, A17, A18, A19, A20, A21, A22, A23, A24, A25, A26, A27, A28, A29, A30, A31⟩ Hk
  iapply (enq23_core3 m ρ K c s k hk d hd) $$ [HG A3 A4 A19 A31]
  · isplitr; · iexact HP
    isplitl [HG]; · iexact HG
    isplitl [A3]; · iexact A3
    isplitl [A4]; · iexact A4
    isplitl [A19]; · iexact A19
    iexact A31
  iintro ⟨HG, Hc⟩
  iapply Hk
  isplitl [HG]; · iexact HG
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact Hc

/-- info: 'Cert.Kernel.Proto.tr_ENQ2' depends on axioms: [propext, Classical.choice, Quot.sound] -/
#guard_msgs in #print axioms tr_ENQ2

/-- info: 'Cert.Kernel.Proto.tr_ENQ3' depends on axioms: [propext, Classical.choice, Quot.sound] -/
#guard_msgs in #print axioms tr_ENQ3

end Cert.Kernel.Proto

end
-- ==== Proof.Bits.TransEnq45.lean ====
/-
  The two last transfers of a stream.

  Slot 4 sends the quarter of `out` the device keeps, by now at its final contents, into the same rows of the partner
  along the stream's second dimension (the quarter that partner gave away in slot 1, whose rows came to the device with
  slot 1's landing); slot 5 sends the kept half into the same rows of the partner along the stream's first dimension
  (rows that partner never touched and handed over at the barrier). Both sources are read while the device goes on
  reading them itself, so only a share is lent: of the kept quarter its right half share, of the kept half the right
  half of its left half share. Each transfer pays the one duty of its own send cell and the one duty of the partner's
  receive cell, and takes its amount off what the device owes.
-/
import proofs.«900484_g7700000000000485_dist_treered_v7x_i16_m512_n512_f32_1_alg».proof.Proof.Bits.Stream
import proofs.«900484_g7700000000000485_dist_treered_v7x_i16_m512_n512_f32_1_alg».proof.Proof.Bits.PartsDefs
import proofs.«900484_g7700000000000485_dist_treered_v7x_i16_m512_n512_f32_1_alg».proof.Proof.Bits.Entry
import proofs.«900484_g7700000000000485_dist_treered_v7x_i16_m512_n512_f32_1_alg».proof.Proof.Bits.Tables
import proofs.«900484_g7700000000000485_dist_treered_v7x_i16_m512_n512_f32_1_alg».proof.Proof.Bits.Waits
import proofs.«900484_g7700000000000485_dist_treered_v7x_i16_m512_n512_f32_1_alg».proof.Proof.Bits.Regions
import proofs.«900484_g7700000000000485_dist_treered_v7x_i16_m512_n512_f32_1_alg».proof.Proof.Bits.Chains
import proofs.«900484_g7700000000000485_dist_treered_v7x_i16_m512_n512_f32_1_alg».proof.Proof.Bits.StepsEnq

noncomputable section

namespace Cert.Kernel.Proto

open Cert.Kernel
open Cert.Kernel.Gen
open Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slot 4: the kept quarter, final, into the partner's `out` -/

theorem tr_ENQ4 (K : Dev nD × CellK → ℕ) (c : Dev nD) (s : Fin 4) (g : Buf (Elt F) (((c : Dev nD) : Thread nD τ).loc cc0_stg1_0)) (k : ℕ) (hk : k = 4 + 4 * 4 + s.val) (d : Dev nD) (hd : d = peer s 4 c)
    {hsc : ((oKeep c s : Memref sig (Dev.tc d : Thread nD τ).2.kind .vmem S32x512 .f32)).view.ref.isScScratch = false}
    {hsrc : (oKeep c s).view.WordExact} {hdst : (oKeep c s).view.WordExact}
    {hsem : DmaTarget.Typed .vmem (.dma (recvQ s 4)) (.remote (Dev.tc d : Thread nD τ) (oKeep c s) (.dma (sendQ s 4)) hsc)} {α : Type} {Q : α → sProp 𝕄} {kont : PUnit → Prog (TpuEff nD τ sig (Elt F) Λ₀ .tc) α} :
    iprop(□ Pers m ρ K c ∗ GSt c k ∗ StreamSt14 m ρ c s)
      ⊢ iprop(((GSt c (k + 1) ∗ StreamSt15 m ρ c s) -∗ wpC c (kont ⟨⟩) Q)
          -∗ wpC c (.op (.enqueueDma (oKeep c s) (.remote (Dev.tc d : Thread nD τ) (oKeep c s) (.dma (sendQ s 4)) hsc) (.dma (recvQ s 4)) hsrc hdst hsem) kont) Q) := by
  subst hd; subst hk
  unfold StreamSt14 StreamSt15
  iintro ⟨#HP, ⟨%W, HO⟩, A0, A1, T4r, T4s, P4s, P4r, C4r, T5r, T5s, P5s, P5r, C5r, HXK, HOP5, C0s, P0r, HRV0, C1s, P1r, HRV1, HPG, P2s, P2r, HRV2, P3s, P3r, HRV3, HK⟩ Hk
  icases HP with ⟨#Hinv, #Hmarks, #Hlev⟩
  -- the source: the kept quarter under its other spelling, at its final contents, in two half shares
  ihave HK1 := (Entails.of_eq (own_oKeep' c c s fullShare (outLvl m ρ 4 c))) $$ HK
  ihave HK2 := (Entails.of_eq (pointsTo_congr (outLvl4_eq_outFinal m ρ c s))) $$ HK1
  ihave HK3 := (Entails.of_eq (oKeep_halves c c s (outFinal m ρ c))) $$ HK2
  icases HK3 with ⟨HKl, HKr⟩
  -- the destination: the partner's rows that came with slot 1's landing are the same rows
  ihave HD := (Entails.of_eq (own_oGive_peer1 c (peer s 1 c) s fullShare (outLvl m ρ 1 (peer s 1 c)))) $$ HPG
  iapply (step_enq4 m ρ K c s (outLvl m ρ 1 (peer s 1 c)) (owedFrom c (4 + 4 * 4 + s.val + 1)) (owedFrom_slot c s 4)) $$ [HKr HD HO T4s T4r]
  · isplitr; · iapply (invs_own m ρ K c (.send s 4)); iexact Hinv
    isplitr; · iapply (invs_recv m ρ K c s 4); iexact Hinv
    isplitr; · iapply (marks_own c (.send s 4)); iexact Hmarks
    isplitr; · iapply (marks_recv c s 4); iexact Hmarks
    isplitl [HKr]; · iexact HKr
    isplitl [HD]; · iexact HD
    isplitl [HO]; · iexact HO
    isplitl [T4s]; · iexact T4s
    iexact T4r
  iintro ⟨C4s, HO⟩
  iapply Hk
  isplitl [HO]; · iexists W; iexact HO
  isplitl [A0]; · iexact A0
  isplitl [A1]; · iexact A1
  isplitl [P4s]; · iexact P4s
  isplitl [P4r]; · iexact P4r
  isplitl [C4r]; · iexact C4r
  isplitl [T5r]; · iexact T5r
  isplitl [T5s]; · iexact T5s
  isplitl [P5s]; · iexact P5s
  isplitl [P5r]; · iexact P5r
  isplitl [C5r]; · iexact C5r
  isplitl [HXK]; · iexact HXK
  isplitl [HOP5]; · iexact HOP5
  isplitl [C0s]; · iexact C0s
  isplitl [P0r]; · iexact P0r
  isplitl [HRV0]; · iexact HRV0
  isplitl [C1s]; · iexact C1s
  isplitl [P1r]; · iexact P1r
  isplitl [HRV1]; · iexact HRV1
  isplitl [P2s]; · iexact P2s
  isplitl [P2r]; · iexact P2r
  isplitl [HRV2]; · iexact HRV2
  isplitl [P3s]; · iexact P3s
  isplitl [P3r]; · iexact P3r
  isplitl [HRV3]; · iexact HRV3
  isplitl [C4s]; · iexact C4s
  iexact HKl

/-! ## Slot 5: the kept half, final, into the partner's `out` -/

theorem tr_ENQ5 (K : Dev nD × CellK → ℕ) (c : Dev nD) (s : Fin 4) (g : Buf (Elt F) (((c : Dev nD) : Thread nD τ).loc cc0_stg1_0)) (k : ℕ) (hk : k = 4 + 4 * 5 + s.val) (d : Dev nD) (hd : d = peer s 5 c)
    {hsc : ((oHalf c s : Memref sig (Dev.tc d : Thread nD τ).2.kind .vmem S64x512 .f32)).view.ref.isScScratch = false}
    {hsrc : (oHalf c s).view.WordExact} {hdst : (oHalf c s).view.WordExact}
    {hsem : DmaTarget.Typed .vmem (.dma (recvQ s 5)) (.remote (Dev.tc d : Thread nD τ) (oHalf c s) (.dma (sendQ s 5)) hsc)} {α : Type} {Q : α → sProp 𝕄} {kont : PUnit → Prog (TpuEff nD τ sig (Elt F) Λ₀ .tc) α} :
    iprop(□ Pers m ρ K c ∗ GSt c k ∗ StreamSt16 m ρ c s)
      ⊢ iprop(((GSt c (k + 1) ∗ StreamSt17 m ρ c s) -∗ wpC c (kont ⟨⟩) Q)
          -∗ wpC c (.op (.enqueueDma (oHalf c s) (.remote (Dev.tc d : Thread nD τ) (oHalf c s) (.dma (sendQ s 5)) hsc) (.dma (recvQ s 5)) hsrc hdst hsem) kont) Q) := by
  subst hd; subst hk
  unfold StreamSt16 StreamSt17
  iintro ⟨#HP, ⟨%W, HO⟩, A0, A1, P4s, T5r, T5s, P5s, P5r, C5r, HXK, HOP5, C0s, P0r, HRV0, C1s, P1r, HRV1, P2s, P2r, HRV2, P3s, P3r, HRV3, C4s, HKl, P4r, HG⟩ Hk
  icases HP with ⟨#Hinv, #Hmarks, #Hlev⟩
  -- the source: kept quarter (left share) and given quarter (whole) are the kept half (left share) and the given
  -- quarter's right share; of the kept half's left share the right half is lent
  ihave HH := (Entails.of_eq (oHalf_lend c c s fullShare (outFinal m ρ c))) $$ [HKl HG]
  · isplitl [HKl]; · iexact HKl
    iexact HG
  icases HH with ⟨HHl, HGr⟩
  ihave HH2 := (Entails.of_eq (oHalf_left_halves c c s (outFinal m ρ c))) $$ HHl
  icases HH2 with ⟨HHll, HHlr⟩
  icases HOP5 with ⟨%fd, HD⟩
  iapply (step_enq5 m ρ K c s fd (owedFrom c (4 + 4 * 5 + s.val + 1)) (owedFrom_slot c s 5)) $$ [HHlr HD HO T5s T5r]
  · isplitr; · iapply (invs_own m ρ K c (.send s 5)); iexact Hinv
    isplitr; · iapply (invs_recv m ρ K c s 5); iexact Hinv
    isplitr; · iapply (marks_own c (.send s 5)); iexact Hmarks
    isplitr; · iapply (marks_recv c s 5); iexact Hmarks
    isplitl [HHlr]; · iexact HHlr
    isplitl [HD]; · iexact HD
    isplitl [HO]; · iexact HO
    isplitl [T5s]; · iexact T5s
    iexact T5r
  iintro ⟨C5s, HO⟩
  iapply Hk
  isplitl [HO]; · iexists W; iexact HO
  isplitl [A0]; · iexact A0
  isplitl [A1]; · iexact A1
  isplitl [P4s]; · iexact P4s
  isplitl [P5s]; · iexact P5s
  isplitl [P5r]; · iexact P5r
  isplitl [C5r]; · iexact C5r
  isplitl [HXK]; · iexact HXK
  isplitl [C0s]; · iexact C0s
  isplitl [P0r]; · iexact P0r
  isplitl [HRV0]; · iexact HRV0
  isplitl [C1s]; · iexact C1s
  isplitl [P1r]; · iexact P1r
  isplitl [HRV1]; · iexact HRV1
  isplitl [P2s]; · iexact P2s
  isplitl [P2r]; · iexact P2r
  isplitl [HRV2]; · iexact HRV2
  isplitl [P3s]; · iexact P3s
  isplitl [P3r]; · iexact P3r
  isplitl [HRV3]; · iexact HRV3
  isplitl [C4s]; · iexact C4s
  isplitl [P4r]; · iexact P4r
  isplitl [C5s]; · iexact C5s
  isplitl [HHll]; · iexact HHll
  iexact HGr

/-- info: 'Cert.Kernel.Proto.tr_ENQ4' depends on axioms: [propext, Classical.choice, Quot.sound] -/
#guard_msgs in #print axioms tr_ENQ4

/-- info: 'Cert.Kernel.Proto.tr_ENQ5' depends on axioms: [propext, Classical.choice, Quot.sound] -/
#guard_msgs in #print axioms tr_ENQ5

end Cert.Kernel.Proto

end
-- ==== Proof.Bits.StepsSync.lean ====
/-
  The synchronisation steps of a device's body: the four barrier signals and the barrier wait, the waits of a
  slot for its landing and for its own transfer to have left, and the closing of a cell.

  Each step is one effect of the program against the exchange schedule: a signal pays one duty of a partner's
  barrier cell with one unit of what the device owes; a wait takes the whole of the one round of one of the device's
  own cells, covered by credit for the round's total and by the evidence that the cell lies below everything still
  owed, and returns the round's payloads; a cell whose one round has been taken is closed with its counter at zero.
  A wait on a transfer semaphore takes the credit of the destination view it names and nothing else of its two
  views, so one statement covers every spelling of the views.
-/
import proofs.«900484_g7700000000000485_dist_treered_v7x_i16_m512_n512_f32_1_alg».proof.Proof.Bits.Res
import proofs.«900484_g7700000000000485_dist_treered_v7x_i16_m512_n512_f32_1_alg».proof.Proof.Bits.Tables

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

attribute [local sl_rounds] duties_bar duties_send duties_recv amount_bar amount_send amount_recv expect_bar expect_send expect_recv
  payload_bar payload_send payload_recv

/-! ## The barrier: four signals, one wait -/

/-- The signal along dimension `b`: pays duty `b` of the partner's barrier cell, one unit off what the device owes,
    handing over the rows the partner will write into. -/
theorem step_signal (m : (ℓ : Loc nD τ sig) → Buf (Elt F) ℓ) (ρ : Dev nD → PrngReg) (K : Dev nD × CellK → ℕ) (c : Dev nD) (b : Fin 4) (d : Dev nD) (hd : d = partner b c)
    {O' O : CellTallies nD τ sig Unit} {W : Waits sig Unit} (hO : O' = O + tallyAt (barCell (partner b c)) () 1)
    {α : Type} {Q : α → sProp 𝕄} {k : PUnit → Prog (TpuEff nD τ sig (Elt F) Λ₀ .tc) α} :
    iprop(cellInv ER (cubeRd m ρ) (K (partner b c, .bar)) (barCell (partner b c)) ∗ reached ER (barCell (partner b c)) 0
        ∗ owes (c : Thread nD τ) O' W ∗ dutyTok ER (barCell (partner b c)) 0 b ∗ barPay (F := F) (partner b c) b)
      ⊢ iprop((owes (c : Thread nD τ) O W -∗ wpC c (k ⟨⟩) Q) -∗ wpC c (.op (.semSignal (d : Thread nD τ) barS 1) k) Q) := by
  subst hO
  iintro ⟨#HI, #Hr, HO, Htok, Hpay⟩ Hk
  dsimp only [wpC]
  sl_exec
  iapply Hk
  iexact HO

/-- The barrier wait: the four units the partners pay, for the four partners' rows. -/
theorem step_wait_bar (m : (ℓ : Loc nD τ sig) → Buf (Elt F) ℓ) (ρ : Dev nD → PrngReg) (K : Dev nD × CellK → ℕ) (c : Dev nD)
    {O : CellTallies nD τ sig Unit} {W : Waits sig Unit}
    {α : Type} {Q : α → sProp 𝕄} {k : PUnit → Prog (TpuEff nD τ sig (Elt F) Λ₀ .tc) α} :
    iprop(cellInv ER (cubeRd m ρ) (K (c, .bar)) (barCell c) ∗ MayWait (c : Thread nD τ) (.reg barS) () O
        ∗ cred (tallyAt (barCell c) () 4) ∗ atPos ER (barCell c) 0 ∅ 0 ∗ owes (c : Thread nD τ) O W)
      ⊢ iprop(((owes (c : Thread nD τ) O (insert (.reg barS, ()) W) ∗ atPos ER (barCell c) 1 ∅ 0 ∗ reached ER (barCell c) 1
              ∗ barPay (F := F) c 0 ∗ barPay (F := F) c 1 ∗ barPay (F := F) c 2 ∗ barPay (F := F) c 3) -∗ wpC c (k ⟨⟩) Q)
          -∗ wpC c (.op (.semWait barS 4) k) Q) := by
  iintro ⟨#HI, #HM, Hc, Hat, HO⟩ Hk
  dsimp only [wpC]
  sl_exec
  iapply Hk
  isplitl [HO]; · iexact HO
  isplitl [Hat]; · iexact Hat
  isplitl [Hat_reached]; · iexact Hat_reached
  iapply (Entails.of_eq (bigSep_fin4 (fun d => barPay (F := F) c d)))
  iexact Hat_pay1

/-! ## The payloads of the slots, spelled out -/

theorem recvPay_0 (m : (ℓ : Loc nD τ sig) → Buf (Elt F) ℓ) (ρ : Dev nD → PrngReg) (c : Dev nD) (s : Fin 4) :
    recvPay m ρ c s 0 = own (rSlot0 s) c fullShare (recvFinal m ρ c) := rfl
theorem recvPay_1 (m : (ℓ : Loc nD τ sig) → Buf (Elt F) ℓ) (ρ : Dev nD → PrngReg) (c : Dev nD) (s : Fin 4) :
    recvPay m ρ c s 1 = iprop(own (rSlot s 1 (.inl rfl)) c fullShare (recvFinal m ρ c)
      ∗ own (oGive (peer s 1 c) s) (peer s 1 c) fullShare (outLvl m ρ 1 (peer s 1 c))) := rfl
theorem recvPay_2 (m : (ℓ : Loc nD τ sig) → Buf (Elt F) ℓ) (ρ : Dev nD → PrngReg) (c : Dev nD) (s : Fin 4) :
    recvPay m ρ c s 2 = own (rSlot s 2 (.inr (.inl rfl))) c fullShare (recvFinal m ρ c) := rfl
theorem recvPay_3 (m : (ℓ : Loc nD τ sig) → Buf (Elt F) ℓ) (ρ : Dev nD → PrngReg) (c : Dev nD) (s : Fin 4) :
    recvPay m ρ c s 3 = own (rSlot s 3 (.inr (.inr rfl))) c fullShare (recvFinal m ρ c) := rfl
theorem recvPay_4 (m : (ℓ : Loc nD τ sig) → Buf (Elt F) ℓ) (ρ : Dev nD → PrngReg) (c : Dev nD) (s : Fin 4) :
    recvPay m ρ c s 4 = own (oKeep (peer s 4 c) s) c fullShare (outFinal m ρ c) := rfl
theorem recvPay_5 (m : (ℓ : Loc nD τ sig) → Buf (Elt F) ℓ) (ρ : Dev nD → PrngReg) (c : Dev nD) (s : Fin 4) :
    recvPay m ρ c s 5 = own (oHalf (peer s 5 c) s) c fullShare (outFinal m ρ c) := rfl

theorem sendPay_0 (m : (ℓ : Loc nD τ sig) → Buf (Elt F) ℓ) (ρ : Dev nD → PrngReg) (c : Dev nD) (s : Fin 4) :
    sendPay m ρ c s 0 = own (xGive c s) c fullShare (xstg m ρ c) := rfl
theorem sendPay_1 (m : (ℓ : Loc nD τ sig) → Buf (Elt F) ℓ) (ρ : Dev nD → PrngReg) (c : Dev nD) (s : Fin 4) :
    sendPay m ρ c s 1 = iprop(emp) := rfl
theorem sendPay_2 (m : (ℓ : Loc nD τ sig) → Buf (Elt F) ℓ) (ρ : Dev nD → PrngReg) (c : Dev nD) (s : Fin 4) :
    sendPay m ρ c s 2 = own (oKeep c s) c fullShare (outLvl m ρ 2 c) := rfl
theorem sendPay_3 (m : (ℓ : Loc nD τ sig) → Buf (Elt F) ℓ) (ρ : Dev nD → PrngReg) (c : Dev nD) (s : Fin 4) :
    sendPay m ρ c s 3 = own (oKeep c s) c fullShare (outLvl m ρ 3 c) := rfl
theorem sendPay_4 (m : (ℓ : Loc nD τ sig) → Buf (Elt F) ℓ) (ρ : Dev nD → PrngReg) (c : Dev nD) (s : Fin 4) :
    sendPay m ρ c s 4 = own (oKeep c s) c fullShare.right (outFinal m ρ c) := rfl
theorem sendPay_5 (m : (ℓ : Loc nD τ sig) → Buf (Elt F) ℓ) (ρ : Dev nD → PrngReg) (c : Dev nD) (s : Fin 4) :
    sendPay m ρ c s 5 = own (oHalf c s) c fullShare.left.right (outFinal m ρ c) := rfl

/-! ## The credit of a slot's views

Slots 0 and 5 move 64 rows, the others 32; a view's credit depends on its buffer's kind, its shape and its element
type only, so every 64-row (32-row) view of the three buffers has the credit of the 64-row (32-row) receive view. -/

theorem slotN_0 : slotN 0 = N64 := if_pos (Or.inl rfl)
theorem slotN_1 : slotN 1 = N32 := if_neg (by decide)
theorem slotN_2 : slotN 2 = N32 := if_neg (by decide)
theorem slotN_3 : slotN 3 = N32 := if_neg (by decide)
theorem slotN_4 : slotN 4 = N32 := if_neg (by decide)
theorem slotN_5 : slotN 5 = N64 := if_pos (Or.inr rfl)

theorem credit_rSlot0 (s : Fin 4) : (rSlot0 s).view.dmaCredit = N64 := rfl
theorem credit_rSlot (s : Fin 4) (t : Fin 6) (ht : t = 1 ∨ t = 2 ∨ t = 3) : (rSlot s t ht).view.dmaCredit = N32 := rfl
theorem credit_xGive (c : Dev nD) (s : Fin 4) : (xGive c s).view.dmaCredit = N64 := rfl
theorem credit_oHalf (c : Dev nD) (s : Fin 4) : (oHalf c s).view.dmaCredit = N64 := rfl
theorem credit_oKeep (c : Dev nD) (s : Fin 4) : (oKeep c s).view.dmaCredit = N32 := rfl
theorem credit_oGive (c : Dev nD) (s : Fin 4) : (oGive c s).view.dmaCredit = N32 := rfl

/-- The destination view of the receive wait of slot `t` has the slot's credit. -/
theorem credR_0 (s : Fin 4) : (rSlot0 s).view.dmaCredit = slotN 0 := (credit_rSlot0 s).trans slotN_0.symm
theorem credR_1 (s : Fin 4) : (rSlot s 1 (.inl rfl)).view.dmaCredit = slotN 1 := (credit_rSlot s 1 _).trans slotN_1.symm
theorem credR_2 (s : Fin 4) : (rSlot s 2 (.inr (.inl rfl))).view.dmaCredit = slotN 2 := (credit_rSlot s 2 _).trans slotN_2.symm
theorem credR_3 (s : Fin 4) : (rSlot s 3 (.inr (.inr rfl))).view.dmaCredit = slotN 3 := (credit_rSlot s 3 _).trans slotN_3.symm
theorem credR_4 (c : Dev nD) (s : Fin 4) : (oKeep c s).view.dmaCredit = slotN 4 := (credit_oKeep c s).trans slotN_4.symm
theorem credR_5 (c : Dev nD) (s : Fin 4) : (oHalf c s).view.dmaCredit = slotN 5 := (credit_oHalf c s).trans slotN_5.symm
/-- The destination view of the send wait of slot `t` (the transfer's source rows) has the slot's credit. -/
theorem credS_0 (c : Dev nD) (s : Fin 4) : (xGive c s).view.dmaCredit = slotN 0 := (credit_xGive c s).trans slotN_0.symm
theorem credS_1 (c : Dev nD) (s : Fin 4) : (oGive c s).view.dmaCredit = slotN 1 := (credit_oGive c s).trans slotN_1.symm
theorem credS_2 (c : Dev nD) (s : Fin 4) : (oKeep c s).view.dmaCredit = slotN 2 := (credit_oKeep c s).trans slotN_2.symm
theorem credS_3 (c : Dev nD) (s : Fin 4) : (oKeep c s).view.dmaCredit = slotN 3 := (credit_oKeep c s).trans slotN_3.symm
theorem credS_4 (c : Dev nD) (s : Fin 4) : (oKeep c s).view.dmaCredit = slotN 4 := (credit_oKeep c s).trans slotN_4.symm
theorem credS_5 (c : Dev nD) (s : Fin 4) : (oHalf c s).view.dmaCredit = slotN 5 := (credit_oHalf c s).trans slotN_5.symm

/-! ## The waits of a slot -/

/-- The wait for the landing of slot `t` of stream `s`: whatever views the statement names, it takes the credit of its
    destination view off the receive cell. -/
theorem step_wait_recv (m : (ℓ : Loc nD τ sig) → Buf (Elt F) ℓ) (ρ : Dev nD → PrngReg) (K : Dev nD × CellK → ℕ) (c : Dev nD) (s : Fin 4) (t : Fin 6)
    {sp sp' : Space} {sh sh' : Shape} {e e' : EltTy} {κ' : Idealize.ShloMosaic.Kind} (q : DmaSem sig) (hq : q = recvQ s t)
    {src : Memref sig .tc sp' sh' e'} {dst : Memref sig κ' sp sh e} {hsrc : src.view.WordExact} {hdst : dst.view.WordExact}
    (hcred : dst.view.dmaCredit = slotN t)
    {O : CellTallies nD τ sig Unit} {W : Waits sig Unit}
    {α : Type} {Q : α → sProp 𝕄} {k : PUnit → Prog (TpuEff nD τ sig (Elt F) Λ₀ .tc) α} :
    iprop(cellInv ER (cubeRd m ρ) (K (c, .recv s t)) (recvCell c s t) ∗ MayWait (c : Thread nD τ) (.dma (recvQ s t)) () O
        ∗ cred (tallyAt (recvCell c s t) () (slotN t)) ∗ atPos ER (recvCell c s t) 0 ∅ 0 ∗ owes (c : Thread nD τ) O W)
      ⊢ iprop(((owes (c : Thread nD τ) O (insert (.dma (recvQ s t), ()) W) ∗ atPos ER (recvCell c s t) 1 ∅ 0 ∗ reached ER (recvCell c s t) 1
              ∗ recvPay m ρ c s t) -∗ wpC c (k ⟨⟩) Q)
          -∗ wpC c (.op (.waitDma2 q src dst hsrc hdst) k) Q) := by
  subst hq
  rw [← hcred]
  iintro ⟨#HI, #HM, Hc, Hat, HO⟩ Hk
  dsimp only [wpC]
  sl_exec
  iapply Hk
  isplitl [HO]; · iexact HO
  isplitl [Hat]; · iexact Hat
  isplitl [Hat_reached]; · iexact Hat_reached
  iexact Hat_pay1

/-- The wait for slot `t`'s own transfer to have left: the source rows come back. -/
theorem step_wait_send (m : (ℓ : Loc nD τ sig) → Buf (Elt F) ℓ) (ρ : Dev nD → PrngReg) (K : Dev nD × CellK → ℕ) (c : Dev nD) (s : Fin 4) (t : Fin 6)
    {sp sp' : Space} {sh sh' : Shape} {e e' : EltTy} {κ' : Idealize.ShloMosaic.Kind} (q : DmaSem sig) (hq : q = sendQ s t)
    {src : Memref sig .tc sp' sh' e'} {dst : Memref sig κ' sp sh e} {hsrc : src.view.WordExact} {hdst : dst.view.WordExact}
    (hcred : dst.view.dmaCredit = slotN t)
    {O : CellTallies nD τ sig Unit} {W : Waits sig Unit}
    {α : Type} {Q : α → sProp 𝕄} {k : PUnit → Prog (TpuEff nD τ sig (Elt F) Λ₀ .tc) α} :
    iprop(cellInv ER (cubeRd m ρ) (K (c, .send s t)) (sendCell c s t) ∗ MayWait (c : Thread nD τ) (.dma (sendQ s t)) () O
        ∗ cred (tallyAt (sendCell c s t) () (slotN t)) ∗ atPos ER (sendCell c s t) 0 ∅ 0 ∗ owes (c : Thread nD τ) O W)
      ⊢ iprop(((owes (c : Thread nD τ) O (insert (.dma (sendQ s t), ()) W) ∗ atPos ER (sendCell c s t) 1 ∅ 0 ∗ reached ER (sendCell c s t) 1
              ∗ sendPay m ρ c s t) -∗ wpC c (k ⟨⟩) Q)
          -∗ wpC c (.op (.waitDma2 q src dst hsrc hdst) k) Q) := by
  subst hq
  rw [← hcred]
  iintro ⟨#HI, #HM, Hc, Hat, HO⟩ Hk
  dsimp only [wpC]
  sl_exec
  iapply Hk
  isplitl [HO]; · iexact HO
  isplitl [Hat]; · iexact Hat
  isplitl [Hat_reached]; · iexact Hat_reached
  iexact Hat_pay1

/-! ## Closing a cell

Every cell has the one round 0: from round 1 on nothing lands, and the owner, back from its wait, closes the cell
and keeps the counter at zero. -/

theorem step_close (m : (ℓ : Loc nD τ sig) → Buf (Elt F) ℓ) (ρ : Dev nD → PrngReg) (K : Dev nD × CellK → ℕ) (c : Dev nD) (k : CellK) :
    iprop(cellInv ER (cubeRd m ρ) (K (c, k)) (kcell (c, k)) ∗ atPos ER (kcell (c, k)) 1 ∅ 0)
      ⊢ iprop(|={Set.univ}=> semVal (kcell (c, k)) 0) :=
  cell_close ER (cubeRd m ρ) (Set.mem_univ _) (fun h => h) (duties_later m ρ (kcell (c, k)))

/-- info: 'Cert.Kernel.Proto.step_signal' depends on axioms: [propext, Classical.choice, Quot.sound] -/
#guard_msgs in #print axioms step_signal

/-- info: 'Cert.Kernel.Proto.step_wait_bar' depends on axioms: [propext, Classical.choice, Quot.sound] -/
#guard_msgs in #print axioms step_wait_bar

/-- info: 'Cert.Kernel.Proto.step_wait_recv' depends on axioms: [propext, Classical.choice, Quot.sound] -/
#guard_msgs in #print axioms step_wait_recv

/-- info: 'Cert.Kernel.Proto.step_wait_send' depends on axioms: [propext, Classical.choice, Quot.sound] -/
#guard_msgs in #print axioms step_wait_send

/-- info: 'Cert.Kernel.Proto.step_close' depends on axioms: [propext, Classical.choice, Quot.sound] -/
#guard_msgs in #print axioms step_close

end Cert.Kernel.Proto

end
-- ==== Proof.Bits.TransWait.lean ====
/-
  The receive waits of slots 0 to 3 as steps between a stream's phases.

  Waiting for the landing of slot `t` takes the receive cell's position at round 0 and its launch credit out of the
  phase and puts back the position at round 1 and the rows landed, at their final contents; in slot 1 the rows the
  partner's transfer read come with them. What the device owes is unchanged; the wait is allowed because every
  transfer up to the slot's own has been issued.
-/
import proofs.«900484_g7700000000000485_dist_treered_v7x_i16_m512_n512_f32_1_alg».proof.Proof.Bits.PartsDefs
import proofs.«900484_g7700000000000485_dist_treered_v7x_i16_m512_n512_f32_1_alg».proof.Proof.Bits.StepsSync
import proofs.«900484_g7700000000000485_dist_treered_v7x_i16_m512_n512_f32_1_alg».proof.Proof.Bits.Entry

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem tr_WAITR0 (K : Dev nD × CellK → ℕ) (c : Dev nD) (s : Fin 4) (g : Buf (Elt F) (((c : Dev nD) : Thread nD τ).loc cc0_stg1_0)) (k : ℕ) (hk : 4 + 4 * 0 + s.val < k) {hsrc : (xGive c s).view.WordExact} {hdst : (rSlot0 s).view.WordExact} {α : Type} {Q : α → sProp 𝕄} {kont : PUnit → Prog (TpuEff nD τ sig (Elt F) Λ₀ .tc) α} :
    iprop(□ Pers m ρ K c ∗ GSt c k ∗ StreamSt1 m ρ c s g)
      ⊢ iprop(((GSt c k ∗ StreamSt2 m ρ c s g) -∗ wpC c (kont ⟨⟩) Q)
          -∗ wpC c (.op (.waitDma2 (recvQ s 0) (xGive c s) (rSlot0 s) hsrc hdst) kont) Q) := by
  unfold StreamSt1 StreamSt2
  iintro ⟨#HP, ⟨%W, HO⟩, A1, A2, A3, A4, A5, A6, A7, A8, A9, A10, A11, A12, A13, A14, A15, A16, A17, A18, A19, A20, A21, A22, A23, A24, A25, A26, A27, A28, A29, A30, A31, A32, A33, A34, A35⟩ Hk
  icases HP with ⟨#Hinv, -, #Hlev⟩
  ihave #HI := (invs_own m ρ K c (.recv s 0)) $$ Hinv
  ihave #HM := (mayWait_recv (F := F) c s 0 k hk) $$ Hlev
  iapply (step_wait_recv m ρ K c s 0 (recvQ s 0) rfl (credR_0 s) (O := owedFrom c k) (W := W)) $$ [HO A2 A3]
  · isplitr; · iexact HI
    isplitr; · iexact HM
    isplitl [A3]; · iexact A3
    isplitl [A2]; · iexact A2
    iexact HO
  iintro ⟨HO, Hat, -, Hpay⟩
  ihave Hp := (Entails.of_eq (recvPay_0 m ρ c s)) $$ Hpay
  iapply Hk
  isplitl [HO]; · iexists _; iexact HO
  isplitl [A1]; · iexact A1
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [A34]; · iexact A34
  isplitl [A35]; · iexact A35
  isplitl [Hat]; · iexact Hat
  iexact Hp

theorem tr_WAITR1 (K : Dev nD × CellK → ℕ) (c : Dev nD) (s : Fin 4) (g : Buf (Elt F) (((c : Dev nD) : Thread nD τ).loc cc0_stg1_0)) (k : ℕ) (hk : 4 + 4 * 1 + s.val < k) {hsrc : (oGive c s).view.WordExact} {hdst : (rSlot s 1 (.inl rfl)).view.WordExact} {α : Type} {Q : α → sProp 𝕄} {kont : PUnit → Prog (TpuEff nD τ sig (Elt F) Λ₀ .tc) α} :
    iprop(□ Pers m ρ K c ∗ GSt c k ∗ StreamSt4 m ρ c s)
      ⊢ iprop(((GSt c k ∗ StreamSt5 m ρ c s) -∗ wpC c (kont ⟨⟩) Q)
          -∗ wpC c (.op (.waitDma2 (recvQ s 1) (oGive c s) (rSlot s 1 (.inl rfl)) hsrc hdst) kont) Q) := by
  unfold StreamSt4 StreamSt5
  iintro ⟨#HP, ⟨%W, HO⟩, A1, A2, A3, A4, A5, A6, A7, A8, A9, A10, A11, A12, A13, A14, A15, A16, A17, A18, A19, A20, A21, A22, A23, A24, A25, A26, A27, A28, A29, A30, A31, A32, A33⟩ Hk
  icases HP with ⟨#Hinv, -, #Hlev⟩
  ihave #HI := (invs_own m ρ K c (.recv s 1)) $$ Hinv
  ihave #HM := (mayWait_recv (F := F) c s 1 k hk) $$ Hlev
  iapply (step_wait_recv m ρ K c s 1 (recvQ s 1) rfl (credR_1 s) (O := owedFrom c k) (W := W)) $$ [HO A3 A4]
  · isplitr; · iexact HI
    isplitr; · iexact HM
    isplitl [A4]; · iexact A4
    isplitl [A3]; · iexact A3
    iexact HO
  iintro ⟨HO, Hat, -, Hpay⟩
  ihave Hp := (Entails.of_eq (recvPay_1 m ρ c s)) $$ Hpay
  icases Hp with ⟨Hp1, Hp2⟩
  iapply Hk
  isplitl [HO]; · iexists _; iexact HO
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [Hat]; · iexact Hat
  isplitl [Hp1]; · iexact Hp1
  iexact Hp2

theorem tr_WAITR2 (K : Dev nD × CellK → ℕ) (c : Dev nD) (s : Fin 4) (g : Buf (Elt F) (((c : Dev nD) : Thread nD τ).loc cc0_stg1_0)) (k : ℕ) (hk : 4 + 4 * 2 + s.val < k) {hsrc : (oKeep c s).view.WordExact} {hdst : (rSlot s 2 (.inr (.inl rfl))).view.WordExact} {α : Type} {Q : α → sProp 𝕄} {kont : PUnit → Prog (TpuEff nD τ sig (Elt F) Λ₀ .tc) α} :
    iprop(□ Pers m ρ K c ∗ GSt c k ∗ StreamSt8 m ρ c s)
      ⊢ iprop(((GSt c k ∗ StreamSt9 m ρ c s) -∗ wpC c (kont ⟨⟩) Q)
          -∗ wpC c (.op (.waitDma2 (recvQ s 2) (oKeep c s) (rSlot s 2 (.inr (.inl rfl))) hsrc hdst) kont) Q) := by
  unfold StreamSt8 StreamSt9
  iintro ⟨#HP, ⟨%W, HO⟩, A1, A2, A3, A4, A5, A6, A7, A8, A9, A10, A11, A12, A13, A14, A15, A16, A17, A18, A19, A20, A21, A22, A23, A24, A25, A26, A27, A28, A29, A30, A31⟩ Hk
  icases HP with ⟨#Hinv, -, #Hlev⟩
  ihave #HI := (invs_own m ρ K c (.recv s 2)) $$ Hinv
  ihave #HM := (mayWait_recv (F := F) c s 2 k hk) $$ Hlev
  iapply (step_wait_recv m ρ K c s 2 (recvQ s 2) rfl (credR_2 s) (O := owedFrom c k) (W := W)) $$ [HO A3 A4]
  · isplitr; · iexact HI
    isplitr; · iexact HM
    isplitl [A4]; · iexact A4
    isplitl [A3]; · iexact A3
    iexact HO
  iintro ⟨HO, Hat, -, Hpay⟩
  ihave Hp := (Entails.of_eq (recvPay_2 m ρ c s)) $$ Hpay
  iapply Hk
  isplitl [HO]; · iexists _; iexact HO
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [Hat]; · iexact Hat
  iexact Hp

theorem tr_WAITR3 (K : Dev nD × CellK → ℕ) (c : Dev nD) (s : Fin 4) (g : Buf (Elt F) (((c : Dev nD) : Thread nD τ).loc cc0_stg1_0)) (k : ℕ) (hk : 4 + 4 * 3 + s.val < k) {hsrc : (oKeep c s).view.WordExact} {hdst : (rSlot s 3 (.inr (.inr rfl))).view.WordExact} {α : Type} {Q : α → sProp 𝕄} {kont : PUnit → Prog (TpuEff nD τ sig (Elt F) Λ₀ .tc) α} :
    iprop(□ Pers m ρ K c ∗ GSt c k ∗ StreamSt12 m ρ c s)
      ⊢ iprop(((GSt c k ∗ StreamSt13 m ρ c s) -∗ wpC c (kont ⟨⟩) Q)
          -∗ wpC c (.op (.waitDma2 (recvQ s 3) (oKeep c s) (rSlot s 3 (.inr (.inr rfl))) hsrc hdst) kont) Q) := by
  unfold StreamSt12 StreamSt13
  iintro ⟨#HP, ⟨%W, HO⟩, A1, A2, A3, A4, A5, A6, A7, A8, A9, A10, A11, A12, A13, A14, A15, A16, A17, A18, A19, A20, A21, A22, A23, A24, A25, A26, A27, A28⟩ Hk
  icases HP with ⟨#Hinv, -, #Hlev⟩
  ihave #HI := (invs_own m ρ K c (.recv s 3)) $$ Hinv
  ihave #HM := (mayWait_recv (F := F) c s 3 k hk) $$ Hlev
  iapply (step_wait_recv m ρ K c s 3 (recvQ s 3) rfl (credR_3 s) (O := owedFrom c k) (W := W)) $$ [HO A3 A4]
  · isplitr; · iexact HI
    isplitr; · iexact HM
    isplitl [A4]; · iexact A4
    isplitl [A3]; · iexact A3
    iexact HO
  iintro ⟨HO, Hat, -, Hpay⟩
  ihave Hp := (Entails.of_eq (recvPay_3 m ρ c s)) $$ Hpay
  iapply Hk
  isplitl [HO]; · iexists _; iexact HO
  isplitl [A1]; · iexact A1
  isplitl [A2]; · iexact A2
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [Hat]; · iexact Hat
  iexact Hp

/-- info: 'Cert.Kernel.Proto.tr_WAITR0' depends on axioms: [propext, Classical.choice, Quot.sound] -/
#guard_msgs in #print axioms tr_WAITR0

/-- info: 'Cert.Kernel.Proto.tr_WAITR1' depends on axioms: [propext, Classical.choice, Quot.sound] -/
#guard_msgs in #print axioms tr_WAITR1

/-- info: 'Cert.Kernel.Proto.tr_WAITR2' depends on axioms: [propext, Classical.choice, Quot.sound] -/
#guard_msgs in #print axioms tr_WAITR2

/-- info: 'Cert.Kernel.Proto.tr_WAITR3' depends on axioms: [propext, Classical.choice, Quot.sound] -/
#guard_msgs in #print axioms tr_WAITR3

end Cert.Kernel.Proto

end
-- ==== Proof.Bits.TransWaitR45.lean ====
/-
  The receive waits of slots 4 and 5 as steps between a stream's phases.

  Slots 4 and 5 land in `out`: slot 4 fills the quarter the device gave away in slot 1 (the rows its partner of
  that dimension keeps), slot 5 the half it never touched. Waiting for either takes the receive cell's position at
  round 0 and its launch credit out of the phase and puts back the position at round 1 and the rows landed, at
  the final contents of `out`. What the device owes is unchanged.
-/
import proofs.«900484_g7700000000000485_dist_treered_v7x_i16_m512_n512_f32_1_alg».proof.Proof.Bits.PartsDefs
import proofs.«900484_g7700000000000485_dist_treered_v7x_i16_m512_n512_f32_1_alg».proof.Proof.Bits.StepsSync
import proofs.«900484_g7700000000000485_dist_treered_v7x_i16_m512_n512_f32_1_alg».proof.Proof.Bits.Entry
import proofs.«900484_g7700000000000485_dist_treered_v7x_i16_m512_n512_f32_1_alg».proof.Proof.Bits.Regions

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem tr_WAITR4 (K : Dev nD × CellK → ℕ) (c : Dev nD) (s : Fin 4) (g : Buf (Elt F) (((c : Dev nD) : Thread nD τ).loc cc0_stg1_0)) (k : ℕ) (hk : 4 + 4 * 4 + s.val < k) {hsrc : (oKeep c s).view.WordExact} {hdst : (oKeep c s).view.WordExact} {α : Type} {Q : α → sProp 𝕄} {kont : PUnit → Prog (TpuEff nD τ sig (Elt F) Λ₀ .tc) α} :
    iprop(□ Pers m ρ K c ∗ GSt c k ∗ StreamSt15 m ρ c s)
      ⊢ iprop(((GSt c k ∗ StreamSt16 m ρ c s) -∗ wpC c (kont ⟨⟩) Q)
          -∗ wpC c (.op (.waitDma2 (recvQ s 4) (oKeep c s) (oKeep c s) hsrc hdst) kont) Q) := by
  unfold StreamSt15 StreamSt16
  iintro ⟨#HP, ⟨%W, HO⟩, A1, A2, A3, A4, A5, A6, A7, A8, A9, A10, A11, A12, A13, A14, A15, A16, A17, A18, A19, A20, A21, A22, A23, A24, A25, A26⟩ Hk
  icases HP with ⟨#Hinv, -, #Hlev⟩
  ihave #HI := (invs_own m ρ K c (.recv s 4)) $$ Hinv
  ihave #HM := (mayWait_recv (F := F) c s 4 k hk) $$ Hlev
  iapply (step_wait_recv m ρ K c s 4 (recvQ s 4) rfl (credR_4 c s) (O := owedFrom c k) (W := W)) $$ [HO A4 A5]
  · isplitr; · iexact HI
    isplitr; · iexact HM
    isplitl [A5]; · iexact A5
    isplitl [A4]; · iexact A4
    iexact HO
  iintro ⟨HO, Hat, -, Hpay⟩
  ihave Hp := (Entails.of_eq (recvPay_4 m ρ c s)) $$ Hpay
  ihave Hq := (Entails.of_eq (own_oKeep_peer4 c c s fullShare (outFinal m ρ c))) $$ Hp
  iapply Hk
  isplitl [HO]; · iexists _; iexact HO
  isplitl [A1]; · iexact A1
  isplitl [A2]; · iexact A2
  isplitl [A3]; · iexact A3
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [Hat]; · iexact Hat
  iexact Hq

theorem tr_WAITR5 (K : Dev nD × CellK → ℕ) (c : Dev nD) (s : Fin 4) (g : Buf (Elt F) (((c : Dev nD) : Thread nD τ).loc cc0_stg1_0)) (k : ℕ) (hk : 4 + 4 * 5 + s.val < k) {hsrc : (oHalf c s).view.WordExact} {hdst : (oHalf c s).view.WordExact} {α : Type} {Q : α → sProp 𝕄} {kont : PUnit → Prog (TpuEff nD τ sig (Elt F) Λ₀ .tc) α} :
    iprop(□ Pers m ρ K c ∗ GSt c k ∗ StreamSt17 m ρ c s)
      ⊢ iprop(((GSt c k ∗ StreamSt18 m ρ c s) -∗ wpC c (kont ⟨⟩) Q)
          -∗ wpC c (.op (.waitDma2 (recvQ s 5) (oHalf c s) (oHalf c s) hsrc hdst) kont) Q) := by
  unfold StreamSt17 StreamSt18
  iintro ⟨#HP, ⟨%W, HO⟩, A1, A2, A3, A4, A5, A6, A7, A8, A9, A10, A11, A12, A13, A14, A15, A16, A17, A18, A19, A20, A21, A22, A23, A24⟩ Hk
  icases HP with ⟨#Hinv, -, #Hlev⟩
  ihave #HI := (invs_own m ρ K c (.recv s 5)) $$ Hinv
  ihave #HM := (mayWait_recv (F := F) c s 5 k hk) $$ Hlev
  iapply (step_wait_recv m ρ K c s 5 (recvQ s 5) rfl (credR_5 c s) (O := owedFrom c k) (W := W)) $$ [HO A5 A6]
  · isplitr; · iexact HI
    isplitr; · iexact HM
    isplitl [A6]; · iexact A6
    isplitl [A5]; · iexact A5
    iexact HO
  iintro ⟨HO, Hat, -, Hpay⟩
  ihave Hp := (Entails.of_eq (recvPay_5 m ρ c s)) $$ Hpay
  iapply Hk
  isplitl [HO]; · iexists _; iexact HO
  isplitl [A1]; · iexact A1
  isplitl [A2]; · iexact A2
  isplitl [A3]; · iexact A3
  isplitl [A4]; · iexact A4
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [Hat]; · iexact Hat
  iexact Hp

/-- info: 'Cert.Kernel.Proto.tr_WAITR4' depends on axioms: [propext, Classical.choice, Quot.sound] -/
#guard_msgs in #print axioms tr_WAITR4

/-- info: 'Cert.Kernel.Proto.tr_WAITR5' depends on axioms: [propext, Classical.choice, Quot.sound] -/
#guard_msgs in #print axioms tr_WAITR5

end Cert.Kernel.Proto

end
-- ==== Proof.Bits.TransWaitS.lean ====
/-
  The six waits of a stream for its own transfers to have left, as phase transitions.

  The wait on the send cell of slot `t` takes the cell's one round whole: it is covered by the credit the transfer
  left for it and lies below everything the device still owes (a send cell is at level 0). It moves the device's
  position in the cell to round 1 and returns the round's one payload — the source rows of the transfer, at the
  share and contents they were lent at (nothing for slot 1, whose source rows travelled with the landing).
-/
import proofs.«900484_g7700000000000485_dist_treered_v7x_i16_m512_n512_f32_1_alg».proof.Proof.Bits.PartsDefs
import proofs.«900484_g7700000000000485_dist_treered_v7x_i16_m512_n512_f32_1_alg».proof.Proof.Bits.StepsSync
import proofs.«900484_g7700000000000485_dist_treered_v7x_i16_m512_n512_f32_1_alg».proof.Proof.Bits.Regions
import proofs.«900484_g7700000000000485_dist_treered_v7x_i16_m512_n512_f32_1_alg».proof.Proof.Bits.Waits
import proofs.«900484_g7700000000000485_dist_treered_v7x_i16_m512_n512_f32_1_alg».proof.Proof.Bits.Entry

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The wait on the send cell of slot `t`, on the resources it touches: from the position at round 0 and the credit of
    the round, to the position at round 1 and the round's payload; what the device owes is unchanged. The two views
    the wait names matter only through the credit of the second. -/
theorem waitS_core (K : Dev nD × CellK → ℕ) (c : Dev nD) (s : Fin 4) (t : Fin 6) (k : ℕ)
    {sp sp' : Space} {sh sh' : Shape} {e e' : EltTy} {κ' : Idealize.ShloMosaic.Kind}
    {src : Memref sig .tc sp' sh' e'} {dst : Memref sig κ' sp sh e} {hsrc : src.view.WordExact} {hdst : dst.view.WordExact}
    (hcred : dst.view.dmaCredit = slotN t)
    {α : Type} {Q : α → sProp 𝕄} {kont : PUnit → Prog (TpuEff nD τ sig (Elt F) Λ₀ .tc) α} :
    iprop(□ Pers m ρ K c ∗ GSt c k ∗ atPos ER (sendCell c s t) 0 ∅ 0 ∗ cred (tallyAt (sendCell c s t) () (slotN t)))
      ⊢ iprop(((GSt c k ∗ atPos ER (sendCell c s t) (0 + 1) ∅ 0 ∗ sendPay m ρ c s t) -∗ wpC c (kont ⟨⟩) Q)
          -∗ wpC c (.op (.waitDma2 (sendQ s t) src dst hsrc hdst) kont) Q) := by
  iintro ⟨#HP, ⟨%W, HO⟩, Hat, Hc⟩ Hk
  icases HP with ⟨#HI, #HM, #HL⟩
  iapply (step_wait_send m ρ K c s t (sendQ s t) rfl hcred (O := owedFrom c k) (W := W)) $$ [HO Hat Hc]
  · isplitr; · iapply (invs_own m ρ K c (.send s t)); iexact HI
    isplitr; · iapply (mayWait_send (F := F) c s t k); iexact HL
    isplitl [Hc]; · iexact Hc
    isplitl [Hat]; · iexact Hat
    iexact HO
  iintro ⟨HO, Hat, -, Hpay⟩
  iapply Hk
  isplitl [HO]; · iexists _; iexact HO
  isplitl [Hat]; · iexact Hat
  iexact Hpay

theorem tr_WAITS2 (K : Dev nD × CellK → ℕ) (c : Dev nD) (s : Fin 4) (g : Buf (Elt F) (((c : Dev nD) : Thread nD τ).loc cc0_stg1_0)) (k : ℕ) {hsrc : (rSlot s 2 (.inr (.inl rfl))).view.WordExact} {hdst : (oKeep c s).view.WordExact} {α : Type} {Q : α → sProp 𝕄} {kont : PUnit → Prog (TpuEff nD τ sig (Elt F) Λ₀ .tc) α} :
    iprop(□ Pers m ρ K c ∗ GSt c k ∗ StreamSt7 m ρ c s)
      ⊢ iprop(((GSt c k ∗ StreamSt8 m ρ c s) -∗ wpC c (kont ⟨⟩) Q)
          -∗ wpC c (.op (.waitDma2 (sendQ s 2) (rSlot s 2 (.inr (.inl rfl))) (oKeep c s) hsrc hdst) kont) Q) := by
  unfold StreamSt7 StreamSt8
  iintro ⟨#HP, HG, A1, A2, A3, A4, A5, A6, A7, A8, A9, A10, A11, A12, A13, A14, A15, A16, A17, A18, A19, A20, A21, A22, A23, A24, A25, A26, A27, A28, A29, A30, A31⟩ Hk
  iapply (waitS_core m ρ K c s 2 k (credS_2 c s)) $$ [HG A3 A31]
  · isplitr; · iexact HP
    isplitl [HG]; · iexact HG
    isplitl [A3]; · iexact A3
    iexact A31
  iintro ⟨HG, Hat, Hpay⟩
  iapply Hk
  isplitl [HG]; · iexact HG
  isplitl [A1]; · iexact A1
  isplitl [A2]; · iexact A2
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [Hat]; · iexact Hat
  iapply (Entails.of_eq (own_oKeep' c c s fullShare (outLvl m ρ 2 c)).symm); iapply (Entails.of_eq (sendPay_2 m ρ c s)); iexact Hpay

theorem tr_WAITS3 (K : Dev nD × CellK → ℕ) (c : Dev nD) (s : Fin 4) (g : Buf (Elt F) (((c : Dev nD) : Thread nD τ).loc cc0_stg1_0)) (k : ℕ) {hsrc : (rSlot s 3 (.inr (.inr rfl))).view.WordExact} {hdst : (oKeep c s).view.WordExact} {α : Type} {Q : α → sProp 𝕄} {kont : PUnit → Prog (TpuEff nD τ sig (Elt F) Λ₀ .tc) α} :
    iprop(□ Pers m ρ K c ∗ GSt c k ∗ StreamSt11 m ρ c s)
      ⊢ iprop(((GSt c k ∗ StreamSt12 m ρ c s) -∗ wpC c (kont ⟨⟩) Q)
          -∗ wpC c (.op (.waitDma2 (sendQ s 3) (rSlot s 3 (.inr (.inr rfl))) (oKeep c s) hsrc hdst) kont) Q) := by
  unfold StreamSt11 StreamSt12
  iintro ⟨#HP, HG, A1, A2, A3, A4, A5, A6, A7, A8, A9, A10, A11, A12, A13, A14, A15, A16, A17, A18, A19, A20, A21, A22, A23, A24, A25, A26, A27, A28⟩ Hk
  iapply (waitS_core m ρ K c s 3 k (credS_3 c s)) $$ [HG A3 A28]
  · isplitr; · iexact HP
    isplitl [HG]; · iexact HG
    isplitl [A3]; · iexact A3
    iexact A28
  iintro ⟨HG, Hat, Hpay⟩
  iapply Hk
  isplitl [HG]; · iexact HG
  isplitl [A1]; · iexact A1
  isplitl [A2]; · iexact A2
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [Hat]; · iexact Hat
  iapply (Entails.of_eq (own_oKeep' c c s fullShare (outLvl m ρ 3 c)).symm); iapply (Entails.of_eq (sendPay_3 m ρ c s)); iexact Hpay

theorem tr_WAITS0 (K : Dev nD × CellK → ℕ) (c : Dev nD) (s : Fin 4) (g : Buf (Elt F) (((c : Dev nD) : Thread nD τ).loc cc0_stg1_0)) (k : ℕ) {hsrc : (rSlot0 s).view.WordExact} {hdst : (xGive c s).view.WordExact} {α : Type} {Q : α → sProp 𝕄} {kont : PUnit → Prog (TpuEff nD τ sig (Elt F) Λ₀ .tc) α} :
    iprop(□ Pers m ρ K c ∗ GSt c k ∗ StreamSt18 m ρ c s)
      ⊢ iprop(((GSt c k ∗ StreamSt19 m ρ c s) -∗ wpC c (kont ⟨⟩) Q)
          -∗ wpC c (.op (.waitDma2 (sendQ s 0) (rSlot0 s) (xGive c s) hsrc hdst) kont) Q) := by
  unfold StreamSt18 StreamSt19
  iintro ⟨#HP, HG, A1, A2, A3, A4, A5, A6, A7, A8, A9, A10, A11, A12, A13, A14, A15, A16, A17, A18, A19, A20, A21, A22, A23, A24⟩ Hk
  iapply (waitS_core m ρ K c s 0 k (credS_0 c s)) $$ [HG A1 A6]
  · isplitr; · iexact HP
    isplitl [HG]; · iexact HG
    isplitl [A1]; · iexact A1
    iexact A6
  iintro ⟨HG, Hat, Hpay⟩
  iapply Hk
  isplitl [HG]; · iexact HG
  isplitl [A2]; · iexact A2
  isplitl [A3]; · iexact A3
  isplitl [A4]; · iexact A4
  isplitl [A5]; · iexact A5
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [Hat]; · iexact Hat
  iapply (Entails.of_eq (sendPay_0 m ρ c s)); iexact Hpay

theorem tr_WAITS1 (K : Dev nD × CellK → ℕ) (c : Dev nD) (s : Fin 4) (g : Buf (Elt F) (((c : Dev nD) : Thread nD τ).loc cc0_stg1_0)) (k : ℕ) {hsrc : (rSlot s 1 (.inl rfl)).view.WordExact} {hdst : (oGive c s).view.WordExact} {α : Type} {Q : α → sProp 𝕄} {kont : PUnit → Prog (TpuEff nD τ sig (Elt F) Λ₀ .tc) α} :
    iprop(□ Pers m ρ K c ∗ GSt c k ∗ StreamSt19 m ρ c s)
      ⊢ iprop(((GSt c k ∗ StreamSt20 m ρ c s) -∗ wpC c (kont ⟨⟩) Q)
          -∗ wpC c (.op (.waitDma2 (sendQ s 1) (rSlot s 1 (.inl rfl)) (oGive c s) hsrc hdst) kont) Q) := by
  unfold StreamSt19 StreamSt20
  iintro ⟨#HP, HG, A1, A2, A3, A4, A5, A6, A7, A8, A9, A10, A11, A12, A13, A14, A15, A16, A17, A18, A19, A20, A21, A22, A23, A24⟩ Hk
  iapply (waitS_core m ρ K c s 1 k (credS_1 c s)) $$ [HG A1 A7]
  · isplitr; · iexact HP
    isplitl [HG]; · iexact HG
    isplitl [A1]; · iexact A1
    iexact A7
  iintro ⟨HG, Hat, -⟩
  iapply Hk
  isplitl [HG]; · iexact HG
  isplitl [A2]; · iexact A2
  isplitl [A3]; · iexact A3
  isplitl [A4]; · iexact A4
  isplitl [A5]; · iexact A5
  isplitl [A6]; · iexact A6
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  iexact Hat

theorem tr_WAITS4 (K : Dev nD × CellK → ℕ) (c : Dev nD) (s : Fin 4) (g : Buf (Elt F) (((c : Dev nD) : Thread nD τ).loc cc0_stg1_0)) (k : ℕ) {hsrc : (oKeep c s).view.WordExact} {hdst : (oKeep c s).view.WordExact} {α : Type} {Q : α → sProp 𝕄} {kont : PUnit → Prog (TpuEff nD τ sig (Elt F) Λ₀ .tc) α} :
    iprop(□ Pers m ρ K c ∗ GSt c k ∗ StreamSt20 m ρ c s)
      ⊢ iprop(((GSt c k ∗ StreamSt21 m ρ c s) -∗ wpC c (kont ⟨⟩) Q)
          -∗ wpC c (.op (.waitDma2 (sendQ s 4) (oKeep c s) (oKeep c s) hsrc hdst) kont) Q) := by
  unfold StreamSt20 StreamSt21
  iintro ⟨#HP, HG, A1, A2, A3, A4, A5, A6, A7, A8, A9, A10, A11, A12, A13, A14, A15, A16, A17, A18, A19, A20, A21, A22, A23⟩ Hk
  iapply (waitS_core m ρ K c s 4 k (credS_4 c s)) $$ [HG A1 A14]
  · isplitr; · iexact HP
    isplitl [HG]; · iexact HG
    isplitl [A1]; · iexact A1
    iexact A14
  iintro ⟨HG, Hat, Hpay⟩
  iapply Hk
  isplitl [HG]; · iexact HG
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [Hat]; · iexact Hat
  iapply (Entails.of_eq (sendPay_4 m ρ c s)); iexact Hpay

theorem tr_WAITS5 (K : Dev nD × CellK → ℕ) (c : Dev nD) (s : Fin 4) (g : Buf (Elt F) (((c : Dev nD) : Thread nD τ).loc cc0_stg1_0)) (k : ℕ) {hsrc : (oHalf c s).view.WordExact} {hdst : (oHalf c s).view.WordExact} {α : Type} {Q : α → sProp 𝕄} {kont : PUnit → Prog (TpuEff nD τ sig (Elt F) Λ₀ .tc) α} :
    iprop(□ Pers m ρ K c ∗ GSt c k ∗ StreamSt21 m ρ c s)
      ⊢ iprop(((GSt c k ∗ StreamSt22 m ρ c s) -∗ wpC c (kont ⟨⟩) Q)
          -∗ wpC c (.op (.waitDma2 (sendQ s 5) (oHalf c s) (oHalf c s) hsrc hdst) kont) Q) := by
  unfold StreamSt21 StreamSt22
  iintro ⟨#HP, HG, A1, A2, A3, A4, A5, A6, A7, A8, A9, A10, A11, A12, A13, A14, A15, A16, A17, A18, A19, A20, A21, A22, A23⟩ Hk
  iapply (waitS_core m ρ K c s 5 k (credS_5 c s)) $$ [HG A1 A14]
  · isplitr; · iexact HP
    isplitl [HG]; · iexact HG
    isplitl [A1]; · iexact A1
    iexact A14
  iintro ⟨HG, Hat, Hpay⟩
  iapply Hk
  isplitl [HG]; · iexact HG
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [Hat]; · iexact Hat
  iapply (Entails.of_eq (sendPay_5 m ρ c s)); iexact Hpay

/-- info: 'Cert.Kernel.Proto.tr_WAITS5' depends on axioms: [propext, Classical.choice, Quot.sound] -/
#guard_msgs in #print axioms tr_WAITS5

end Cert.Kernel.Proto

end
-- ==== Proof.Bits.StepsAdd.lean ====
/-
  The add steps of the exchange: after the receive wait of slot `t < 4` of stream `s` the device loads the rows it
  keeps ("mine"), loads the rows received, loads once more the rows it is about to overwrite (a value the program
  never uses) and stores the sum of the first two.

    slot 0      mine = the kept half of the stream's rows of `x` (64 rows, rank 3), received = the 64 receive rows of
                slot 0, the store goes to the kept half of `out`;
    slots 1–3   mine = the kept quarter of `out` (32 rows), received = the 32 receive rows of slot `t`, the store goes
                back to the kept quarter.

  Each load gives its rows back as they were and continues at what they hold; each store needs its rows in full
  and leaves them holding what was stored. The value lemmas say what was stored: with the kept rows at level `t` and
  the received rows at the partner's level `t`, the sum is level `t + 1`.
-/
import proofs.«900484_g7700000000000485_dist_treered_v7x_i16_m512_n512_f32_1_alg».proof.Proof.Bits.Res
import proofs.«900484_g7700000000000485_dist_treered_v7x_i16_m512_n512_f32_1_alg».proof.Proof.Bits.Chains
import Idealize.ShloMosaic.Lib.ValueLayout

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The four effects of slot 0 and the three of slots 1, 2, 3 -/

/-- Slot 0, first load: the kept half of the stream's rows of `x`, read through the whole staging buffer. The rows
    come back as they were; the program continues at what they hold. -/
theorem step_load_x0 (c : Dev nD) (s : Fin 4) (q : PosShare TreeShare)
    (f : Buf (Elt F) ((xKeep c s).view.loc (c : Thread nD τ)))
    {α : Type} {Q : α → sProp 𝕄} {k : Vec F S1x64x512 .f32 → Prog (TpuEff nD τ sig (Elt F) Λ₀ .tc) α} :
    own (xKeep c s) c q f
      ⊢ iprop((own (xKeep c s) c q f -∗ wpC c (k ((xKeep c s).view.read (Elt F) f)) Q)
        -∗ wpC c (.op (.load (Memref.whole cc0_stg0_0) (Rect.unit (s := S1x512x512) (k0_off2 c (k0_off2_at s).1 (k0_off2_at s).2) S1x64x512.size (k0_off2_inb c s)).toLoadRect (View.loadsAt_vmem h_S1x64x512)) k) Q) := by
  iintro HV Hk
  unfold wpC
  have hS : ((Memref.whole cc0_stg0_0).access (Rect.unit (s := S1x512x512) (k0_off2 c (k0_off2_at s).1 (k0_off2_at s).2) S1x64x512.size (k0_off2_inb c s)) : View sig .tc .vmem _ _).set ⊆ (xKeep c s).view.set :=
    Finset.Subset.refl _
  sl_exec
  iapply Hk $$ HV

/-- Slot 0, second load: the 64 receive rows of slot 0. -/
theorem step_load_r0 (c : Dev nD) (s : Fin 4) (q : PosShare TreeShare)
    (f : Buf (Elt F) ((rSlot0 s).view.loc (c : Thread nD τ)))
    {α : Type} {Q : α → sProp 𝕄} {k : Vec F S64x512 .f32 → Prog (TpuEff nD τ sig (Elt F) Λ₀ .tc) α} :
    own (rSlot0 s) c q f
      ⊢ iprop((own (rSlot0 s) c q f -∗ wpC c (k ((rSlot0 s).view.read (Elt F) f)) Q)
        -∗ wpC c (.op (.load (Memref.whole cc0_scratch0) (Rect.unit (s := S640x512) ![rRow s 0, 0] S64x512.size (rRow64_inb s)).toLoadRect (View.loadsAt_vmem h_S64x512)) k) Q) := by
  iintro HV Hk
  unfold wpC
  have hS : ((Memref.whole cc0_scratch0).access (Rect.unit (s := S640x512) ![rRow s 0, 0] S64x512.size (rRow64_inb s)) : View sig .tc .vmem _ _).set ⊆ (rSlot0 s).view.set :=
    Finset.Subset.refl _
  sl_exec
  iapply Hk $$ HV

/-- Slot 0, third load: the kept half of `out` (its value is not used by the program). -/
theorem step_load_o0 (c : Dev nD) (s : Fin 4) (q : PosShare TreeShare)
    (f : Buf (Elt F) ((oHalf' c s).view.loc (c : Thread nD τ)))
    {α : Type} {Q : α → sProp 𝕄} {k : Vec F S64x512 .f32 → Prog (TpuEff nD τ sig (Elt F) Λ₀ .tc) α} :
    own (oHalf' c s) c q f
      ⊢ iprop((own (oHalf' c s) c q f -∗ wpC c (k ((oHalf' c s).view.read (Elt F) f)) Q)
        -∗ wpC c (.op (.load (Memref.whole cc0_stg1_0) (Rect.unit (s := S512x512) (k0_off3 c (k0_off3_at s).1 (k0_off3_at s).2) S64x512.size (k0_off3_inb c s)).toLoadRect (View.loadsAt_vmem h_S64x512)) k) Q) := by
  iintro HV Hk
  unfold wpC
  have hS : ((Memref.whole cc0_stg1_0).access (Rect.unit (s := S512x512) (k0_off3 c (k0_off3_at s).1 (k0_off3_at s).2) S64x512.size (k0_off3_inb c s)) : View sig .tc .vmem _ _).set ⊆ (oHalf' c s).view.set :=
    Finset.Subset.refl _
  sl_exec
  iapply Hk $$ HV

/-- Slot 0, the store: the kept half of `out`, held in full, ends holding what is stored. -/
theorem step_store0 (c : Dev nD) (s : Fin 4)
    (g : Buf (Elt F) ((oHalf' c s).view.loc (c : Thread nD τ))) (w : FVec F S64x512 .f32)
    {α : Type} {Q : α → sProp 𝕄} {k : PUnit → Prog (TpuEff nD τ sig (Elt F) Λ₀ .tc) α} :
    own (oHalf' c s) c fullShare g
      ⊢ iprop((own (oHalf' c s) c fullShare ((oHalf' c s).view.write (Elt F) g w Finset.univ) -∗ wpC c (k ⟨⟩) Q)
        -∗ wpC c (.op (.store (Memref.whole cc0_stg1_0) (Rect.unit (s := S512x512) (k0_off3 c (k0_off3_at s).1 (k0_off3_at s).2) S64x512.size (k0_off3_inb c s)) w Finset.univ (View.stores_vmem_bits_univ h_S64x512 rfl) (.inl rfl)) k) Q) := by
  iintro HV Hk
  unfold wpC
  have hS : ((Memref.whole cc0_stg1_0).access (Rect.unit (s := S512x512) (k0_off3 c (k0_off3_at s).1 (k0_off3_at s).2) S64x512.size (k0_off3_inb c s)) : View sig .tc .vmem _ _).setOn Finset.univ ⊆ (oHalf' c s).view.set :=
    Finset.Subset.refl _
  sl_exec
  iapply Hk
  iexact HV

/-- Slots 1, 2, 3, first and third load: the kept quarter of `out`. -/
theorem step_load_m (c : Dev nD) (s : Fin 4) (q : PosShare TreeShare)
    (f : Buf (Elt F) ((oKeep' c s).view.loc (c : Thread nD τ)))
    {α : Type} {Q : α → sProp 𝕄} {k : Vec F S32x512 .f32 → Prog (TpuEff nD τ sig (Elt F) Λ₀ .tc) α} :
    own (oKeep' c s) c q f
      ⊢ iprop((own (oKeep' c s) c q f -∗ wpC c (k ((oKeep' c s).view.read (Elt F) f)) Q)
        -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) k) Q) := by
  iintro HV Hk
  unfold wpC
  have hS : ((Memref.whole cc0_stg1_0).access (Rect.unit (s := S512x512) (k0_off5 c (k0_off5_at s).1 (k0_off5_at s).2.1 (k0_off5_at s).2.2) S32x512.size (k0_off5_inb c s)) : View sig .tc .vmem _ _).set ⊆ (oKeep' c s).view.set :=
    Finset.Subset.refl _
  sl_exec
  iapply Hk $$ HV

/-- Slots 1, 2, 3, second load: the 32 receive rows of slot `t`. -/
theorem step_load_r (c : Dev nD) (s : Fin 4) (t : Fin 6) (ht : t = 1 ∨ t = 2 ∨ t = 3) (q : PosShare TreeShare)
    (f : Buf (Elt F) ((rSlot s t ht).view.loc (c : Thread nD τ)))
    {α : Type} {Q : α → sProp 𝕄} {k : Vec F S32x512 .f32 → Prog (TpuEff nD τ sig (Elt F) Λ₀ .tc) α} :
    own (rSlot s t ht) c q f
      ⊢ iprop((own (rSlot s t ht) c q f -∗ wpC c (k ((rSlot s t ht).view.read (Elt F) f)) Q)
        -∗ wpC c (.op (.load (Memref.whole cc0_scratch0) (Rect.unit (s := S640x512) ![rRow s t, 0] S32x512.size (rRow32_inb s t ht)).toLoadRect (View.loadsAt_vmem h_S32x512)) k) Q) := by
  iintro HV Hk
  unfold wpC
  have hS : ((Memref.whole cc0_scratch0).access (Rect.unit (s := S640x512) ![rRow s t, 0] S32x512.size (rRow32_inb s t ht)) : View sig .tc .vmem _ _).set ⊆ (rSlot s t ht).view.set :=
    Finset.Subset.refl _
  sl_exec
  iapply Hk $$ HV

/-- Slots 1, 2, 3, the store: the kept quarter of `out`, held in full, ends holding what is stored. -/
theorem step_store (c : Dev nD) (s : Fin 4)
    (g : Buf (Elt F) ((oKeep' c s).view.loc (c : Thread nD τ))) (w : FVec F S32x512 .f32)
    {α : Type} {Q : α → sProp 𝕄} {k : PUnit → Prog (TpuEff nD τ sig (Elt F) Λ₀ .tc) α} :
    own (oKeep' c s) c fullShare g
      ⊢ iprop((own (oKeep' c s) c fullShare ((oKeep' c s).view.write (Elt F) g w Finset.univ) -∗ wpC c (k ⟨⟩) Q)
        -∗ wpC c (.op (.store (Memref.whole cc0_stg1_0) (Rect.unit (s := S512x512) (k0_off5 c (k0_off5_at s).1 (k0_off5_at s).2.1 (k0_off5_at s).2.2) S32x512.size (k0_off5_inb c s)) w Finset.univ (View.stores_vmem_bits_univ h_S32x512 rfl) (.inl rfl)) k) Q) := by
  iintro HV Hk
  unfold wpC
  have hS : ((Memref.whole cc0_stg1_0).access (Rect.unit (s := S512x512) (k0_off5 c (k0_off5_at s).1 (k0_off5_at s).2.1 (k0_off5_at s).2.2) S32x512.size (k0_off5_inb c s)) : View sig .tc .vmem _ _).setOn Finset.univ ⊆ (oKeep' c s).view.set :=
    Finset.Subset.refl _
  sl_exec
  iapply Hk
  iexact HV

variable (m : (ℓ : Loc nD τ sig) → Buf (Elt F) ℓ) (ρ : Dev nD → PrngReg)

/-! ## What the loads read -/

/-- Slot 0, "mine": the kept half of the stream's rows of `x`, as staged. -/
def ldX (c : Dev nD) (s : Fin 4) : Vec F S1x64x512 .f32 := (xKeep c s).view.read (Elt F) (xstg m ρ c)
/-- Slot 0, "received": the receive rows of slot 0 at their final contents. -/
def ldR0 (c : Dev nD) (s : Fin 4) : Vec F S64x512 .f32 := (rSlot0 s).view.read (Elt F) (recvFinal m ρ c)
/-- Slot 0, the third load: the kept half of `out` at whatever it holds. -/
def ldD0 (m : (ℓ : Loc nD τ sig) → Buf (Elt F) ℓ) (ρ : Dev nD → PrngReg) (c : Dev nD) (s : Fin 4)
    (g : Buf (Elt F) (((c : Dev nD) : Thread nD τ).loc cc0_stg1_0)) : Vec F S64x512 .f32 :=
  (oHalf' c s).view.read (Elt F) g
/-- Slot `t ≥ 1`, "mine": the kept quarter of `out` at level `t`. -/
def ldM (c : Dev nD) (s : Fin 4) (t : Fin 6) : Vec F S32x512 .f32 := (oKeep' c s).view.read (Elt F) (outLvl m ρ t.val c)
/-- Slot `t ≥ 1`, "received": the receive rows of slot `t` at their final contents. -/
def ldR (c : Dev nD) (s : Fin 4) (t : Fin 6) (ht : t = 1 ∨ t = 2 ∨ t = 3) : Vec F S32x512 .f32 :=
  (rSlot s t ht).view.read (Elt F) (recvFinal m ρ c)
/-- Slot `t ≥ 1`, the third load: the kept quarter again. -/
def ldD (c : Dev nD) (s : Fin 4) (t : Fin 6) : Vec F S32x512 .f32 := ldM m ρ c s t

namespace Add

/-! ## Levels, one step at a time -/

theorem lvl_zero (m : (ℓ : Loc nD τ sig) → Buf (Elt F) ℓ) (ρ : Dev nD → PrngReg) (d : Dev nD) (R l : Fin 512) :
    lvl m ρ 0 d R l = xstg m ρ d (ValueIdx.ix3 (0 : Fin 1) R l) := rfl

/-- Level `k + 1` of a device is its level `k` plus the level `k` of its partner along the `k`-th dimension of the row's
    stream. -/
theorem lvl_succ (m : (ℓ : Loc nD τ sig) → Buf (Elt F) ℓ) (ρ : Dev nD → PrngReg) (k : ℕ) (d : Dev nD) (R l : Fin 512)
    (s kk : Fin 4) (hs : R.val / 128 = s.val) (hk : k % 4 = kk.val) :
    lvl m ρ (k + 1) d R l = FloatOps.addf (lvl m ρ k d R l) (lvl m ρ k (partner (dimOf s kk) d) R l) := by
  have hb : R.val / 128 < 4 := by have := R.isLt; clear hs hk; omega
  obtain rfl : s = ⟨R.val / 128, hb⟩ := Fin.ext hs.symm
  obtain rfl : kk = ⟨k % 4, Nat.mod_lt _ (by decide)⟩ := Fin.ext hk.symm
  rfl

/-- The receive buffer's final contents at a row of stream `s`, slot `t`: the partner's level `t` at the row `R` the device
    keeps. -/
theorem recvFinal_eq (m : (ℓ : Loc nD τ sig) → Buf (Elt F) ℓ) (ρ : Dev nD → PrngReg) (c : Dev nD) (i : S640x512.Idx)
    (s : Fin 4) (t : Fin 6) (R : Fin 512)
    (hs : (i 0).val / 160 = s.val)
    (ht : (if (i 0).val % 160 < 64 then (0 : Fin 6) else if (i 0).val % 160 < 96 then 1 else if (i 0).val % 160 < 128 then 2 else 3) = t)
    (hR : 128 * s.val + 64 * lbit (dimOf s 0) c
        + (if (i 0).val % 160 < 64 then (i 0).val % 160 else 32 * lbit (dimOf s 1) c + ((i 0).val % 160 - 64) % 32) = R.val) :
    recvFinal m ρ c i = lvl m ρ t.val (peer s t c) R (i 1) := by
  have hb : (i 0).val / 160 < 4 := by have h640 : (i 0).val < 640 := (i 0).isLt; clear hs ht hR; omega
  obtain rfl : s = ⟨(i 0).val / 160, hb⟩ := Fin.ext hs.symm
  subst ht
  have hlt := R.isLt
  rw [← hR] at hlt
  obtain rfl : R = ⟨_, hlt⟩ := Fin.ext hR.symm
  unfold recvFinal
  exact dif_pos hlt

/-! ## Where the rows sit -/

/-- The first row of the half of stream `s` device `c` keeps, and of the quarter. -/
def row0 (c : Dev nD) (s : Fin 4) : ℕ := 128 * s.val + 64 * lbit (dimOf s 0) c
def rowK (c : Dev nD) (s : Fin 4) : ℕ := 128 * s.val + 64 * lbit (dimOf s 0) c + 32 * lbit (dimOf s 1) c

theorem row0_add_lt (c : Dev nD) (s : Fin 4) (a : ℕ) (ha : a < 64) : row0 c s + a < 512 := by
  have h0 := lbit_le (dimOf s 0) c; have := s.isLt; unfold row0; omega
theorem rowK_add_lt (c : Dev nD) (s : Fin 4) (a : ℕ) (ha : a < 32) : rowK c s + a < 512 := by
  have h0 := lbit_le (dimOf s 0) c; have h1 := lbit_le (dimOf s 1) c; have := s.isLt; unfold rowK; omega
theorem row0_div (c : Dev nD) (s : Fin 4) (a : ℕ) (ha : a < 64) : (row0 c s + a) / 128 = s.val := by
  have h0 := lbit_le (dimOf s 0) c; unfold row0; omega
theorem rowK_div (c : Dev nD) (s : Fin 4) (a : ℕ) (ha : a < 32) : (rowK c s + a) / 128 = s.val := by
  have h0 := lbit_le (dimOf s 0) c; have h1 := lbit_le (dimOf s 1) c; unfold rowK; omega

/-- An entry of the kept half of `out` sits at row `row0 + ` its row, same lane. -/
theorem oHalf'_emb (c : Dev nD) (s : Fin 4) (x : S64x512.Idx) :
    (((oHalf' c s).view.emb x) 0).val = row0 c s + (x 0).val ∧ (((oHalf' c s).view.emb x) 1).val = (x 1).val := by
  have h := Chains.k0_off3_eq c s
  constructor
  · show k0_off3 c (k0_off3_at s).1 (k0_off3_at s).2 0 + 1 * (x 0).val = _
    rw [h]; show 128 * s.val + 64 * lbit (dimOf s 0) c + 1 * (x 0).val = _; unfold row0; omega
  · show k0_off3 c (k0_off3_at s).1 (k0_off3_at s).2 1 + 1 * (x 1).val = _
    rw [h]; show 0 + 1 * (x 1).val = _; omega

theorem oKeep'_emb (c : Dev nD) (s : Fin 4) (x : S32x512.Idx) :
    (((oKeep' c s).view.emb x) 0).val = rowK c s + (x 0).val ∧ (((oKeep' c s).view.emb x) 1).val = (x 1).val := by
  have h := Chains.k0_off5_eq c s
  constructor
  · show k0_off5 c (k0_off5_at s).1 (k0_off5_at s).2.1 (k0_off5_at s).2.2 0 + 1 * (x 0).val = _
    rw [h]; show 128 * s.val + 64 * lbit (dimOf s 0) c + 32 * lbit (dimOf s 1) c + 1 * (x 0).val = _; unfold rowK; omega
  · show k0_off5 c (k0_off5_at s).1 (k0_off5_at s).2.1 (k0_off5_at s).2.2 1 + 1 * (x 1).val = _
    rw [h]; show 0 + 1 * (x 1).val = _; omega

theorem xKeep_emb (c : Dev nD) (s : Fin 4) (y : S1x64x512.Idx) :
    (((xKeep c s).view.emb y) 0).val = 0 ∧ (((xKeep c s).view.emb y) 1).val = row0 c s + (y 1).val
      ∧ (((xKeep c s).view.emb y) 2).val = (y 2).val := by
  have h := Chains.k0_off2_eq c s
  have hy0 : (y 0).val < 1 := (y 0).isLt
  refine ⟨?_, ?_, ?_⟩
  · show k0_off2 c (k0_off2_at s).1 (k0_off2_at s).2 0 + 1 * (y 0).val = _
    rw [h]; show 0 + 1 * (y 0).val = _; omega
  · show k0_off2 c (k0_off2_at s).1 (k0_off2_at s).2 1 + 1 * (y 1).val = _
    rw [h]; show 128 * s.val + 64 * lbit (dimOf s 0) c + 1 * (y 1).val = _; unfold row0; omega
  · show k0_off2 c (k0_off2_at s).1 (k0_off2_at s).2 2 + 1 * (y 2).val = _
    rw [h]; show 0 + 1 * (y 2).val = _; omega

theorem rSlot0_emb (s : Fin 4) (x : S64x512.Idx) :
    (((rSlot0 s).view.emb x) 0).val = 160 * s.val + (x 0).val ∧ (((rSlot0 s).view.emb x) 1).val = (x 1).val := by
  constructor
  · show rRow s 0 + 1 * (x 0).val = _; unfold rRow; simp only []; omega
  · show 0 + 1 * (x 1).val = _; omega

theorem rRow_one (s : Fin 4) : rRow s 1 = 160 * s.val + 64 := rfl
theorem rRow_two (s : Fin 4) : rRow s 2 = 160 * s.val + 96 := rfl
theorem rRow_three (s : Fin 4) : rRow s 3 = 160 * s.val + 128 := rfl

theorem rSlot_emb (s : Fin 4) (t : Fin 6) (ht : t = 1 ∨ t = 2 ∨ t = 3) (x : S32x512.Idx) :
    (((rSlot s t ht).view.emb x) 0).val = rRow s t + (x 0).val ∧ (((rSlot s t ht).view.emb x) 1).val = (x 1).val := by
  constructor
  · show rRow s t + 1 * (x 0).val = _; omega
  · show 0 + 1 * (x 1).val = _; omega

/-! ## What the loads read, entry by entry -/

theorem ldX_apply (m : (ℓ : Loc nD τ sig) → Buf (Elt F) ℓ) (ρ : Dev nD → PrngReg) (c : Dev nD) (s : Fin 4)
    (i : Fin 64) (j : Fin 512) (h : row0 c s + i.val < 512) :
    ldX m ρ c s (ValueIdx.ix3 (0 : Fin 1) i j) = lvl m ρ 0 c ⟨row0 c s + i.val, h⟩ j := by
  obtain ⟨e0, e1, e2⟩ := xKeep_emb c s (ValueIdx.ix3 (0 : Fin 1) i j)
  unfold ldX
  rw [View.read_apply, lvl_zero]
  show xstg m ρ c ((xKeep c s).view.emb (ValueIdx.ix3 (0 : Fin 1) i j)) = _
  congr 1
  funext a
  match a with
  | ⟨0, _⟩ => exact Fin.ext e0
  | ⟨1, _⟩ => exact Fin.ext e1
  | ⟨2, _⟩ => exact Fin.ext e2

theorem ldR0_apply (m : (ℓ : Loc nD τ sig) → Buf (Elt F) ℓ) (ρ : Dev nD → PrngReg) (c : Dev nD) (s : Fin 4)
    (x : S64x512.Idx) (h : row0 c s + (x 0).val < 512) :
    ldR0 m ρ c s x = lvl m ρ 0 (peer s 0 c) ⟨row0 c s + (x 0).val, h⟩ (x 1) := by
  obtain ⟨e0, e1⟩ := rSlot0_emb s x
  have hx0 : (x 0).val < 64 := (x 0).isLt
  have hm : (160 * s.val + (x 0).val) % 160 = (x 0).val := by omega
  unfold ldR0
  rw [View.read_apply]
  show recvFinal m ρ c ((rSlot0 s).view.emb x) = _
  rw [recvFinal_eq m ρ c ((rSlot0 s).view.emb x) s 0 ⟨row0 c s + (x 0).val, h⟩
    (by rw [e0]; omega) (by rw [e0, hm, if_pos hx0]) (by rw [e0, hm, if_pos hx0]; rfl)]
  exact congrArg (lvl m ρ 0 (peer s 0 c) ⟨row0 c s + (x 0).val, h⟩) (Fin.ext e1)

theorem ldM_apply (m : (ℓ : Loc nD τ sig) → Buf (Elt F) ℓ) (ρ : Dev nD → PrngReg) (c : Dev nD) (s : Fin 4) (t : Fin 6)
    (x : S32x512.Idx) (h : rowK c s + (x 0).val < 512) :
    ldM m ρ c s t x = lvl m ρ t.val c ⟨rowK c s + (x 0).val, h⟩ (x 1) := by
  obtain ⟨e0, e1⟩ := oKeep'_emb c s x
  unfold ldM
  rw [View.read_apply]
  show lvl m ρ t.val c (((oKeep' c s).view.emb x) 0) (((oKeep' c s).view.emb x) 1) = _
  exact congrArg₂ (lvl m ρ t.val c) (Fin.ext e0) (Fin.ext e1)

theorem ldR_apply (m : (ℓ : Loc nD τ sig) → Buf (Elt F) ℓ) (ρ : Dev nD → PrngReg) (c : Dev nD) (s : Fin 4) (t : Fin 6)
    (ht : t = 1 ∨ t = 2 ∨ t = 3) (x : S32x512.Idx) (h : rowK c s + (x 0).val < 512) :
    ldR m ρ c s t ht x = lvl m ρ t.val (peer s t c) ⟨rowK c s + (x 0).val, h⟩ (x 1) := by
  obtain ⟨e0, e1⟩ := rSlot_emb s t ht x
  have hx0 : (x 0).val < 32 := (x 0).isLt
  unfold ldR
  rw [View.read_apply]
  show recvFinal m ρ c ((rSlot s t ht).view.emb x) = _
  have key : recvFinal m ρ c ((rSlot s t ht).view.emb x)
      = lvl m ρ t.val (peer s t c) ⟨rowK c s + (x 0).val, h⟩ (((rSlot s t ht).view.emb x) 1) := by
    rcases ht with rfl | rfl | rfl
    · rw [rRow_one] at e0
      have hm : (160 * s.val + 64 + (x 0).val) % 160 = 64 + (x 0).val := by omega
      exact recvFinal_eq m ρ c _ s 1 _ (by rw [e0]; omega)
        (by rw [e0, hm, if_neg (by omega), if_pos (by omega)])
        (by rw [e0, hm, if_neg (by omega)]; show _ = rowK c s + (x 0).val; unfold rowK; omega)
    · rw [rRow_two] at e0
      have hm : (160 * s.val + 96 + (x 0).val) % 160 = 96 + (x 0).val := by omega
      exact recvFinal_eq m ρ c _ s 2 _ (by rw [e0]; omega)
        (by rw [e0, hm, if_neg (by omega), if_neg (by omega), if_pos (by omega)])
        (by rw [e0, hm, if_neg (by omega)]; show _ = rowK c s + (x 0).val; unfold rowK; omega)
    · rw [rRow_three] at e0
      have hm : (160 * s.val + 128 + (x 0).val) % 160 = 128 + (x 0).val := by omega
      exact recvFinal_eq m ρ c _ s 3 _ (by rw [e0]; omega)
        (by rw [e0, hm, if_neg (by omega), if_neg (by omega), if_neg (by omega)])
        (by rw [e0, hm, if_neg (by omega)]; show _ = rowK c s + (x 0).val; unfold rowK; omega)
  rw [key]
  exact congrArg (lvl m ρ t.val (peer s t c) ⟨rowK c s + (x 0).val, h⟩) (Fin.ext e1)

/-! ## What the stores leave

On the rows stored, the sum of the kept rows at level `t` and the received rows — the partner's level `t` — is the
device's level `t + 1`. -/

theorem add0_value (m : (ℓ : Loc nD τ sig) → Buf (Elt F) ℓ) (ρ : Dev nD → PrngReg) (c : Dev nD) (s : Fin 4)
    (g : Buf (Elt F) (((c : Dev nD) : Thread nD τ).loc cc0_stg1_0)) (w : FVec F S64x512 .f32)
    (hw : w = addf (shapeCast S64x512 (ldX m ρ c s) shapeCasts_S1x64x512_S64x512) (ldR0 m ρ c s)) :
    ∀ i ∈ (oHalf' c s).view.set, (oHalf' c s).view.write (Elt F) g w Finset.univ i = outLvl m ρ 1 c i := by
  intro i hi
  obtain ⟨x, rfl⟩ := View.exists_emb_of_mem_set _ hi
  subst hw
  obtain ⟨e0, e1⟩ := oHalf'_emb c s x
  have hx0 : (x 0).val < 64 := (x 0).isLt
  have hlt : row0 c s + (x 0).val < 512 := row0_add_lt c s _ hx0
  have hR : ((oHalf' c s).view.emb x) 0 = ⟨row0 c s + (x 0).val, hlt⟩ := Fin.ext e0
  have hL : ((oHalf' c s).view.emb x) 1 = x 1 := Fin.ext e1
  have h1 : shapeCast S64x512 (ldX m ρ c s) shapeCasts_S1x64x512_S64x512 x = lvl m ρ 0 c ⟨row0 c s + (x 0).val, hlt⟩ (x 1) :=
    ((congrArg (shapeCast S64x512 (ldX m ρ c s) shapeCasts_S1x64x512_S64x512) (ValueIdx.eq_ix2 x)).trans
      (ValueIdx.shapeCast_1ab_ab_apply (ldX m ρ c s) shapeCasts_S1x64x512_S64x512 (x 0) (x 1))).trans
      (ldX_apply m ρ c s (x 0) (x 1) hlt)
  have h2 := ldR0_apply m ρ c s x hlt
  have h3 := lvl_succ m ρ 0 c ⟨row0 c s + (x 0).val, hlt⟩ (x 1) s 0 (row0_div c s _ hx0) rfl
  rw [View.write_emb_of_mem _ _ (Finset.mem_univ x)]
  show FloatOps.addf (shapeCast S64x512 (ldX m ρ c s) shapeCasts_S1x64x512_S64x512 x) (ldR0 m ρ c s x)
      = lvl m ρ 1 c (((oHalf' c s).view.emb x) 0) (((oHalf' c s).view.emb x) 1)
  rw [h1, h2, hR, hL]
  exact h3.symm

theorem add_value (m : (ℓ : Loc nD τ sig) → Buf (Elt F) ℓ) (ρ : Dev nD → PrngReg) (c : Dev nD) (s : Fin 4) (t : Fin 6)
    (ht : t = 1 ∨ t = 2 ∨ t = 3)
    (g : Buf (Elt F) (((c : Dev nD) : Thread nD τ).loc cc0_stg1_0)) (w : FVec F S32x512 .f32)
    (hw : w = addf (shapeCast S32x512 (ldM m ρ c s t) shapeCasts_S32x512_S32x512) (ldR m ρ c s t ht)) :
    ∀ i ∈ (oKeep' c s).view.set, (oKeep' c s).view.write (Elt F) g w Finset.univ i = outLvl m ρ (t.val + 1) c i := by
  intro i hi
  obtain ⟨x, rfl⟩ := View.exists_emb_of_mem_set _ hi
  subst hw
  obtain ⟨e0, e1⟩ := oKeep'_emb c s x
  have hx0 : (x 0).val < 32 := (x 0).isLt
  have hlt : rowK c s + (x 0).val < 512 := rowK_add_lt c s _ hx0
  have hR : ((oKeep' c s).view.emb x) 0 = ⟨rowK c s + (x 0).val, hlt⟩ := Fin.ext e0
  have hL : ((oKeep' c s).view.emb x) 1 = x 1 := Fin.ext e1
  have h1 : shapeCast S32x512 (ldM m ρ c s t) shapeCasts_S32x512_S32x512 x = lvl m ρ t.val c ⟨rowK c s + (x 0).val, hlt⟩ (x 1) := by
    rw [shapeCast_self]; exact ldM_apply m ρ c s t x hlt
  have h2 := ldR_apply m ρ c s t ht x hlt
  have h3 := lvl_succ m ρ t.val c ⟨rowK c s + (x 0).val, hlt⟩ (x 1) s ⟨t.val % 4, Nat.mod_lt _ (by decide)⟩ (rowK_div c s _ hx0) rfl
  rw [View.write_emb_of_mem _ _ (Finset.mem_univ x)]
  show FloatOps.addf (shapeCast S32x512 (ldM m ρ c s t) shapeCasts_S32x512_S32x512 x) (ldR m ρ c s t ht x)
      = lvl m ρ (t.val + 1) c (((oKeep' c s).view.emb x) 0) (((oKeep' c s).view.emb x) 1)
  rw [h1, h2, hR, hL]
  refine Eq.trans ?_ h3.symm
  rcases ht with rfl | rfl | rfl <;> rfl

end Add

/-! ## The rows stored, restated at their level -/

/-- Slot 0: the kept half of `out` after the store holds level 1. -/
theorem add0_restate (m : (ℓ : Loc nD τ sig) → Buf (Elt F) ℓ) (ρ : Dev nD → PrngReg) (c : Dev nD) (s : Fin 4)
    (g : Buf (Elt F) (((c : Dev nD) : Thread nD τ).loc cc0_stg1_0)) (w : FVec F S64x512 .f32)
    (hw : w = addf (shapeCast S64x512 (ldX m ρ c s) shapeCasts_S1x64x512_S64x512) (ldR0 m ρ c s)) :
    (own (oHalf' c s) c fullShare ((oHalf' c s).view.write (Elt F) g w Finset.univ) : sProp 𝕄)
      = own (oHalf' c s) c fullShare (outLvl m ρ 1 c) :=
  BI.Region.is_congr (Add.add0_value m ρ c s g w hw)

/-- Slots 1, 2, 3: the kept quarter of `out` after the store of slot `t` holds level `t + 1`. -/
theorem add_restate (m : (ℓ : Loc nD τ sig) → Buf (Elt F) ℓ) (ρ : Dev nD → PrngReg) (c : Dev nD) (s : Fin 4) (t : Fin 6)
    (ht : t = 1 ∨ t = 2 ∨ t = 3)
    (g : Buf (Elt F) (((c : Dev nD) : Thread nD τ).loc cc0_stg1_0)) (w : FVec F S32x512 .f32)
    (hw : w = addf (shapeCast S32x512 (ldM m ρ c s t) shapeCasts_S32x512_S32x512) (ldR m ρ c s t ht)) :
    (own (oKeep' c s) c fullShare ((oKeep' c s).view.write (Elt F) g w Finset.univ) : sProp 𝕄)
      = own (oKeep' c s) c fullShare (outLvl m ρ (t.val + 1) c) :=
  BI.Region.is_congr (Add.add_value m ρ c s t ht g w hw)

/-- info: 'Cert.Kernel.Proto.step_load_x0' depends on axioms: [propext, Classical.choice, Quot.sound] -/
#guard_msgs in #print axioms step_load_x0
/-- info: 'Cert.Kernel.Proto.step_load_r0' depends on axioms: [propext, Classical.choice, Quot.sound] -/
#guard_msgs in #print axioms step_load_r0
/-- info: 'Cert.Kernel.Proto.step_load_o0' depends on axioms: [propext, Classical.choice, Quot.sound] -/
#guard_msgs in #print axioms step_load_o0
/-- info: 'Cert.Kernel.Proto.step_store0' depends on axioms: [propext, Classical.choice, Quot.sound] -/
#guard_msgs in #print axioms step_store0
/-- info: 'Cert.Kernel.Proto.step_load_m' depends on axioms: [propext, Classical.choice, Quot.sound] -/
#guard_msgs in #print axioms step_load_m
/-- info: 'Cert.Kernel.Proto.step_load_r' depends on axioms: [propext, Classical.choice, Quot.sound] -/
#guard_msgs in #print axioms step_load_r
/-- info: 'Cert.Kernel.Proto.step_store' depends on axioms: [propext, Classical.choice, Quot.sound] -/
#guard_msgs in #print axioms step_store
/-- info: 'Cert.Kernel.Proto.add0_restate' depends on axioms: [propext, Classical.choice, Quot.sound] -/
#guard_msgs in #print axioms add0_restate
/-- info: 'Cert.Kernel.Proto.add_restate' depends on axioms: [propext, Classical.choice, Quot.sound] -/
#guard_msgs in #print axioms add_restate

end Cert.Kernel.Proto

end
-- ==== Proof.Bits.TransAdd.lean ====
/-
  The add steps as phase transitions of a stream: in the phase after the receive wait of slot `t < 4` the three loads
  leave the phase as it is and continue at what they read; the store replaces the kept rows of `out` by the next
  level and moves the stream to the next phase.
-/
import proofs.«900484_g7700000000000485_dist_treered_v7x_i16_m512_n512_f32_1_alg».proof.Proof.Bits.PartsDefs
import proofs.«900484_g7700000000000485_dist_treered_v7x_i16_m512_n512_f32_1_alg».proof.Proof.Bits.StepsAdd

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem tr_LOADx0 (K : Dev nD × CellK → ℕ) (c : Dev nD) (s : Fin 4) (g : Buf (Elt F) (((c : Dev nD) : Thread nD τ).loc cc0_stg1_0)) {α : Type} {Q : α → sProp 𝕄} {kont : Vec F S1x64x512 .f32 → Prog (TpuEff nD τ sig (Elt F) Λ₀ .tc) α} :
    iprop(□ Pers m ρ K c ∗ StreamSt2 m ρ c s g)
      ⊢ iprop((StreamSt2 m ρ c s g -∗ wpC c (kont (ldX m ρ c s)) Q)
          -∗ wpC c (.op (.load (Memref.whole cc0_stg0_0) (Rect.unit (s := S1x512x512) (k0_off2 c (k0_off2_at s).1 (k0_off2_at s).2) S1x64x512.size (k0_off2_inb c s)).toLoadRect (View.loadsAt_vmem h_S1x64x512)) kont) Q) := by
  unfold StreamSt2 ldX
  iintro ⟨#HP, A1, A2, A3, A4, A5, A6, A7, A8, A9, A10, A11, A12, A13, A14, A15, A16, A17, A18, A19, A20, A21, A22, A23, A24, A25, A26, A27, A28, A29, A30, A31, A32, A33, A34, A35⟩ Hk
  iapply (step_load_x0 c s fullShare (xstg m ρ c)) $$ A27
  iintro A27
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [A34]; · iexact A34
  iexact A35

theorem tr_LOADr0 (K : Dev nD × CellK → ℕ) (c : Dev nD) (s : Fin 4) (g : Buf (Elt F) (((c : Dev nD) : Thread nD τ).loc cc0_stg1_0)) {α : Type} {Q : α → sProp 𝕄} {kont : Vec F S64x512 .f32 → Prog (TpuEff nD τ sig (Elt F) Λ₀ .tc) α} :
    iprop(□ Pers m ρ K c ∗ StreamSt2 m ρ c s g)
      ⊢ iprop((StreamSt2 m ρ c s g -∗ wpC c (kont (ldR0 m ρ c s)) Q)
          -∗ wpC c (.op (.load (Memref.whole cc0_scratch0) (Rect.unit (s := S640x512) ![rRow s 0, 0] S64x512.size (rRow64_inb s)).toLoadRect (View.loadsAt_vmem h_S64x512)) kont) Q) := by
  unfold StreamSt2 ldR0
  iintro ⟨#HP, A1, A2, A3, A4, A5, A6, A7, A8, A9, A10, A11, A12, A13, A14, A15, A16, A17, A18, A19, A20, A21, A22, A23, A24, A25, A26, A27, A28, A29, A30, A31, A32, A33, A34, A35⟩ Hk
  iapply (step_load_r0 c s fullShare (recvFinal m ρ c)) $$ A35
  iintro A35
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [A34]; · iexact A34
  iexact A35

theorem tr_LOADo0 (K : Dev nD × CellK → ℕ) (c : Dev nD) (s : Fin 4) (g : Buf (Elt F) (((c : Dev nD) : Thread nD τ).loc cc0_stg1_0)) {α : Type} {Q : α → sProp 𝕄} {kont : Vec F S64x512 .f32 → Prog (TpuEff nD τ sig (Elt F) Λ₀ .tc) α} :
    iprop(□ Pers m ρ K c ∗ StreamSt2 m ρ c s g)
      ⊢ iprop((StreamSt2 m ρ c s g -∗ wpC c (kont (ldD0 m ρ c s g)) Q)
          -∗ wpC c (.op (.load (Memref.whole cc0_stg1_0) (Rect.unit (s := S512x512) (k0_off3 c (k0_off3_at s).1 (k0_off3_at s).2) S64x512.size (k0_off3_inb c s)).toLoadRect (View.loadsAt_vmem h_S64x512)) kont) Q) := by
  unfold StreamSt2 ldD0
  iintro ⟨#HP, A1, A2, A3, A4, A5, A6, A7, A8, A9, A10, A11, A12, A13, A14, A15, A16, A17, A18, A19, A20, A21, A22, A23, A24, A25, A26, A27, A28, A29, A30, A31, A32, A33, A34, A35⟩ Hk
  iapply (step_load_o0 c s fullShare g) $$ A28
  iintro A28
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  isplitl [A34]; · iexact A34
  iexact A35

theorem tr_LOADm1 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt5 m ρ c s)
      ⊢ iprop((StreamSt5 m ρ c s -∗ wpC c (kont (ldM m ρ c s 1)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt5 ldM
  iintro ⟨#HP, A1, A2, A3, A4, A5, A6, A7, A8, A9, A10, A11, A12, A13, A14, A15, A16, A17, A18, A19, A20, A21, A22, A23, A24, A25, A26, A27, A28, A29, A30, A31, A32, A33, A34⟩ Hk
  iapply (step_load_m c s fullShare (outLvl m ρ 1 c)) $$ A31
  iintro A31
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact A34

theorem tr_LOADr1 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt5 m ρ c s)
      ⊢ iprop((StreamSt5 m ρ c s -∗ wpC c (kont (ldR m ρ c s 1 (.inl rfl))) Q)
          -∗ wpC c (.op (.load (Memref.whole cc0_scratch0) (Rect.unit (s := S640x512) ![rRow s 1, 0] S32x512.size (rRow32_inb s 1 (.inl rfl))).toLoadRect (View.loadsAt_vmem h_S32x512)) kont) Q) := by
  unfold StreamSt5 ldR
  iintro ⟨#HP, A1, A2, A3, A4, A5, A6, A7, A8, A9, A10, A11, A12, A13, A14, A15, A16, A17, A18, A19, A20, A21, A22, A23, A24, A25, A26, A27, A28, A29, A30, A31, A32, A33, A34⟩ Hk
  iapply (step_load_r c s 1 (.inl rfl) fullShare (recvFinal m ρ c)) $$ A33
  iintro A33
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact A34

theorem tr_LOADd1 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt5 m ρ c s)
      ⊢ iprop((StreamSt5 m ρ c s -∗ wpC c (kont (ldM m ρ c s 1)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt5 ldM
  iintro ⟨#HP, A1, A2, A3, A4, A5, A6, A7, A8, A9, A10, A11, A12, A13, A14, A15, A16, A17, A18, A19, A20, A21, A22, A23, A24, A25, A26, A27, A28, A29, A30, A31, A32, A33, A34⟩ Hk
  iapply (step_load_m c s fullShare (outLvl m ρ 1 c)) $$ A31
  iintro A31
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [A32]; · iexact A32
  isplitl [A33]; · iexact A33
  iexact A34

theorem tr_LOADm2 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt9 m ρ c s)
      ⊢ iprop((StreamSt9 m ρ c s -∗ wpC c (kont (ldM m ρ c s 2)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt9 ldM
  iintro ⟨#HP, A1, A2, A3, A4, A5, A6, A7, A8, A9, A10, A11, A12, A13, A14, A15, A16, A17, A18, A19, A20, A21, A22, A23, A24, A25, A26, A27, A28, A29, A30, A31⟩ Hk
  iapply (step_load_m c s fullShare (outLvl m ρ 2 c)) $$ A29
  iintro A29
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

theorem tr_LOADr2 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt9 m ρ c s)
      ⊢ iprop((StreamSt9 m ρ c s -∗ wpC c (kont (ldR m ρ c s 2 (.inr (.inl rfl)))) Q)
          -∗ wpC c (.op (.load (Memref.whole cc0_scratch0) (Rect.unit (s := S640x512) ![rRow s 2, 0] S32x512.size (rRow32_inb s 2 (.inr (.inl rfl)))).toLoadRect (View.loadsAt_vmem h_S32x512)) kont) Q) := by
  unfold StreamSt9 ldR
  iintro ⟨#HP, A1, A2, A3, A4, A5, A6, A7, A8, A9, A10, A11, A12, A13, A14, A15, A16, A17, A18, A19, A20, A21, A22, A23, A24, A25, A26, A27, A28, A29, A30, A31⟩ Hk
  iapply (step_load_r c s 2 (.inr (.inl rfl)) fullShare (recvFinal m ρ c)) $$ A31
  iintro A31
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

theorem tr_LOADd2 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt9 m ρ c s)
      ⊢ iprop((StreamSt9 m ρ c s -∗ wpC c (kont (ldM m ρ c s 2)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt9 ldM
  iintro ⟨#HP, A1, A2, A3, A4, A5, A6, A7, A8, A9, A10, A11, A12, A13, A14, A15, A16, A17, A18, A19, A20, A21, A22, A23, A24, A25, A26, A27, A28, A29, A30, A31⟩ Hk
  iapply (step_load_m c s fullShare (outLvl m ρ 2 c)) $$ A29
  iintro A29
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

theorem tr_LOADm3 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt13 m ρ c s)
      ⊢ iprop((StreamSt13 m ρ c s -∗ wpC c (kont (ldM m ρ c s 3)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt13 ldM
  iintro ⟨#HP, A1, A2, A3, A4, A5, A6, A7, A8, A9, A10, A11, A12, A13, A14, A15, A16, A17, A18, A19, A20, A21, A22, A23, A24, A25, A26, A27, A28⟩ Hk
  iapply (step_load_m c s fullShare (outLvl m ρ 3 c)) $$ A26
  iintro A26
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  iexact A28

theorem tr_LOADr3 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt13 m ρ c s)
      ⊢ iprop((StreamSt13 m ρ c s -∗ wpC c (kont (ldR m ρ c s 3 (.inr (.inr rfl)))) Q)
          -∗ wpC c (.op (.load (Memref.whole cc0_scratch0) (Rect.unit (s := S640x512) ![rRow s 3, 0] S32x512.size (rRow32_inb s 3 (.inr (.inr rfl)))).toLoadRect (View.loadsAt_vmem h_S32x512)) kont) Q) := by
  unfold StreamSt13 ldR
  iintro ⟨#HP, A1, A2, A3, A4, A5, A6, A7, A8, A9, A10, A11, A12, A13, A14, A15, A16, A17, A18, A19, A20, A21, A22, A23, A24, A25, A26, A27, A28⟩ Hk
  iapply (step_load_r c s 3 (.inr (.inr rfl)) fullShare (recvFinal m ρ c)) $$ A28
  iintro A28
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  iexact A28

theorem tr_LOADd3 (K : Dev nD × CellK → ℕ) (c : Dev nD) (s : Fin 4) (g : Buf (Elt F) (((c : Dev nD) : Thread nD τ).loc cc0_stg1_0)) {α : Type} {Q : α → sProp 𝕄} {kont : Vec F S32x512 .f32 → Prog (TpuEff nD τ sig (Elt F) Λ₀ .tc) α} :
    iprop(□ Pers m ρ K c ∗ StreamSt13 m ρ c s)
      ⊢ iprop((StreamSt13 m ρ c s -∗ wpC c (kont (ldM m ρ c s 3)) Q)
          -∗ wpC c (.op (.load (Memref.whole cc0_stg1_0) (Rect.unit (s := S512x512) (k0_off5 c (k0_off5_at s).1 (k0_off5_at s).2.1 (k0_off5_at s).2.2) S32x512.size (k0_off5_inb c s)).toLoadRect (View.loadsAt_vmem h_S32x512)) kont) Q) := by
  unfold StreamSt13 ldM
  iintro ⟨#HP, A1, A2, A3, A4, A5, A6, A7, A8, A9, A10, A11, A12, A13, A14, A15, A16, A17, A18, A19, A20, A21, A22, A23, A24, A25, A26, A27, A28⟩ Hk
  iapply (step_load_m c s fullShare (outLvl m ρ 3 c)) $$ A26
  iintro A26
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  iexact A28

theorem tr_STORE0 (K : Dev nD × CellK → ℕ) (c : Dev nD) (s : Fin 4) (g : Buf (Elt F) (((c : Dev nD) : Thread nD τ).loc cc0_stg1_0)) (w : FVec F S64x512 .f32) (hw : w = addf (shapeCast S64x512 (ldX m ρ c s) shapeCasts_S1x64x512_S64x512) (ldR0 m ρ c s)) {α : Type} {Q : α → sProp 𝕄} {kont : PUnit → Prog (TpuEff nD τ sig (Elt F) Λ₀ .tc) α} :
    iprop(□ Pers m ρ K c ∗ StreamSt2 m ρ c s g)
      ⊢ iprop((StreamSt3 m ρ c s -∗ wpC c (kont ⟨⟩) Q)
          -∗ wpC c (.op (.store (Memref.whole cc0_stg1_0) (Rect.unit (s := S512x512) (k0_off3 c (k0_off3_at s).1 (k0_off3_at s).2) S64x512.size (k0_off3_inb c s)) w Finset.univ (View.stores_vmem_bits_univ h_S64x512 rfl) (.inl rfl)) kont) Q) := by
  unfold StreamSt2 StreamSt3
  iintro ⟨#HP, A1, A2, A3, A4, A5, A6, A7, A8, A9, A10, A11, A12, A13, A14, A15, A16, A17, A18, A19, A20, A21, A22, A23, A24, A25, A26, A27, A28, A29, A30, A31, A32, A33, A34, A35⟩ Hk
  iapply (step_store0 c s g w) $$ A28
  rw [add0_restate m ρ c s g w hw]
  iintro A28
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A29]; · iexact A29
  isplitl [A30]; · iexact A30
  isplitl [A31]; · iexact A31
  isplitl [A32]; · iexact A32
  isplitl [A33]; · iexact A33
  isplitl [A34]; · iexact A34
  isplitl [A35]; · iexact A35
  iexact A28

theorem tr_STORE1 (K : Dev nD × CellK → ℕ) (c : Dev nD) (s : Fin 4) (g : Buf (Elt F) (((c : Dev nD) : Thread nD τ).loc cc0_stg1_0)) (w : FVec F S32x512 .f32) (hw : w = addf (shapeCast S32x512 (ldM m ρ c s 1) shapeCasts_S32x512_S32x512) (ldR m ρ c s 1 (.inl rfl))) {α : Type} {Q : α → sProp 𝕄} {kont : PUnit → Prog (TpuEff nD τ sig (Elt F) Λ₀ .tc) α} :
    iprop(□ Pers m ρ K c ∗ StreamSt5 m ρ c s)
      ⊢ iprop((StreamSt6 m ρ c s -∗ wpC c (kont ⟨⟩) Q)
          -∗ wpC c (.op (.store (Memref.whole cc0_stg1_0) (Rect.unit (s := S512x512) (k0_off5 c (k0_off5_at s).1 (k0_off5_at s).2.1 (k0_off5_at s).2.2) S32x512.size (k0_off5_inb c s)) w Finset.univ (View.stores_vmem_bits_univ h_S32x512 rfl) (.inl rfl)) kont) Q) := by
  unfold StreamSt5 StreamSt6
  iintro ⟨#HP, A1, A2, A3, A4, A5, A6, A7, A8, A9, A10, A11, A12, A13, A14, A15, A16, A17, A18, A19, A20, A21, A22, A23, A24, A25, A26, A27, A28, A29, A30, A31, A32, A33, A34⟩ Hk
  iapply (step_store c s (outLvl m ρ 1 c) w) $$ A31
  rw [add_restate m ρ c s 1 (.inl rfl) (outLvl m ρ 1 c) w hw]
  iintro A31
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A32]; · iexact A32
  isplitl [A33]; · iexact A33
  isplitl [A34]; · iexact A34
  iexact A31

theorem tr_STORE2 (K : Dev nD × CellK → ℕ) (c : Dev nD) (s : Fin 4) (g : Buf (Elt F) (((c : Dev nD) : Thread nD τ).loc cc0_stg1_0)) (w : FVec F S32x512 .f32) (hw : w = addf (shapeCast S32x512 (ldM m ρ c s 2) shapeCasts_S32x512_S32x512) (ldR m ρ c s 2 (.inr (.inl rfl)))) {α : Type} {Q : α → sProp 𝕄} {kont : PUnit → Prog (TpuEff nD τ sig (Elt F) Λ₀ .tc) α} :
    iprop(□ Pers m ρ K c ∗ StreamSt9 m ρ c s)
      ⊢ iprop((StreamSt10 m ρ c s -∗ wpC c (kont ⟨⟩) Q)
          -∗ wpC c (.op (.store (Memref.whole cc0_stg1_0) (Rect.unit (s := S512x512) (k0_off5 c (k0_off5_at s).1 (k0_off5_at s).2.1 (k0_off5_at s).2.2) S32x512.size (k0_off5_inb c s)) w Finset.univ (View.stores_vmem_bits_univ h_S32x512 rfl) (.inl rfl)) kont) Q) := by
  unfold StreamSt9 StreamSt10
  iintro ⟨#HP, A1, A2, A3, A4, A5, A6, A7, A8, A9, A10, A11, A12, A13, A14, A15, A16, A17, A18, A19, A20, A21, A22, A23, A24, A25, A26, A27, A28, A29, A30, A31⟩ Hk
  iapply (step_store c s (outLvl m ρ 2 c) w) $$ A29
  rw [add_restate m ρ c s 2 (.inr (.inl rfl)) (outLvl m ρ 2 c) w hw]
  iintro A29
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A30]; · iexact A30
  isplitl [A31]; · iexact A31
  iexact A29

theorem tr_STORE3 (K : Dev nD × CellK → ℕ) (c : Dev nD) (s : Fin 4) (g : Buf (Elt F) (((c : Dev nD) : Thread nD τ).loc cc0_stg1_0)) (w : FVec F S32x512 .f32) (hw : w = addf (shapeCast S32x512 (ldM m ρ c s 3) shapeCasts_S32x512_S32x512) (ldR m ρ c s 3 (.inr (.inr rfl)))) {α : Type} {Q : α → sProp 𝕄} {kont : PUnit → Prog (TpuEff nD τ sig (Elt F) Λ₀ .tc) α} :
    iprop(□ Pers m ρ K c ∗ StreamSt13 m ρ c s)
      ⊢ iprop((StreamSt14 m ρ c s -∗ wpC c (kont ⟨⟩) Q)
          -∗ wpC c (.op (.store (Memref.whole cc0_stg1_0) (Rect.unit (s := S512x512) (k0_off5 c (k0_off5_at s).1 (k0_off5_at s).2.1 (k0_off5_at s).2.2) S32x512.size (k0_off5_inb c s)) w Finset.univ (View.stores_vmem_bits_univ h_S32x512 rfl) (.inl rfl)) kont) Q) := by
  unfold StreamSt13 StreamSt14
  iintro ⟨#HP, A1, A2, A3, A4, A5, A6, A7, A8, A9, A10, A11, A12, A13, A14, A15, A16, A17, A18, A19, A20, A21, A22, A23, A24, A25, A26, A27, A28⟩ Hk
  iapply (step_store c s (outLvl m ρ 3 c) w) $$ A26
  rw [add_restate m ρ c s 3 (.inr (.inr rfl)) (outLvl m ρ 3 c) w hw]
  iintro A26
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A27]; · iexact A27
  isplitl [A28]; · iexact A28
  iexact A26

/-- info: 'Cert.Kernel.Proto.tr_STORE3' depends on axioms: [propext, Classical.choice, Quot.sound] -/
#guard_msgs in #print axioms tr_STORE3

end Cert.Kernel.Proto

end
-- ==== Proof.Bits.PartsA.lean ====
/-
  The printed parts 6–10 of the body, each run from the four streams' phases before it to their phases after it:
  every effect of a part is one transition of the stream it belongs to (or a load, which leaves the phase alone).
-/
import proofs.«900484_g7700000000000485_dist_treered_v7x_i16_m512_n512_f32_1_alg».proof.Proof.Bits.TransEnq
import proofs.«900484_g7700000000000485_dist_treered_v7x_i16_m512_n512_f32_1_alg».proof.Proof.Bits.TransEnq23
import proofs.«900484_g7700000000000485_dist_treered_v7x_i16_m512_n512_f32_1_alg».proof.Proof.Bits.TransEnq45
import proofs.«900484_g7700000000000485_dist_treered_v7x_i16_m512_n512_f32_1_alg».proof.Proof.Bits.TransWait
import proofs.«900484_g7700000000000485_dist_treered_v7x_i16_m512_n512_f32_1_alg».proof.Proof.Bits.TransWaitR45
import proofs.«900484_g7700000000000485_dist_treered_v7x_i16_m512_n512_f32_1_alg».proof.Proof.Bits.TransWaitS
import proofs.«900484_g7700000000000485_dist_treered_v7x_i16_m512_n512_f32_1_alg».proof.Proof.Bits.TransAdd
import proofs.«900484_g7700000000000485_dist_treered_v7x_i16_m512_n512_f32_1_alg».proof.Proof.Bits.PartsDefs
import proofs.«900484_g7700000000000485_dist_treered_v7x_i16_m512_n512_f32_1_alg».proof.Proof.Bits.Chains
import proofs.«900484_g7700000000000485_dist_treered_v7x_i16_m512_n512_f32_1_alg».proof.Proof.Gen.Kernel.Skeleton

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Chains

theorem part6_spec (K : Dev nD × CellK → ℕ) (c : Dev nD) (g0 g1 g2 g3 : Buf (Elt F) (((c : Dev nD) : Thread nD τ).loc cc0_stg1_0)) (v65 : BitVec 32) (v97 : BitVec 32) (v129 : BitVec 32) (v165 : BitVec 32) (v167 : BitVec 32)  :
    iprop(□ Pers m ρ K c ∗ GSt c 4 ∗ StreamSt0 m ρ c 0 g0 ∗ StreamSt0 m ρ c 1 g1 ∗ StreamSt0 m ρ c 2 g2 ∗ StreamSt0 m ρ c 3 g3)
      ⊢ wpC c (k0_part6 (Memref.whole cc0_stg0_0) (Memref.isWhole_whole _) (Memref.whole cc0_stg1_0) (Memref.isWhole_whole _) (Memref.whole cc0_scratch0) (Memref.isWhole_whole _) cc0_scratch1 cc0_scratch2 c v65 v97 v129 v165 v167) (fun r => iprop(GSt c 6 ∗ StreamSt1 m ρ c 0 g0 ∗ StreamSt1 m ρ c 1 g1 ∗ StreamSt0 m ρ c 2 g2 ∗ StreamSt0 m ρ c 3 g3)) := by
  rw [k0_part6_eq_skeleton]; unfold k0_part6_skel
  simp only [Prog.lift, Prog.bind_op, Prog.bind_ret, Prog.pure_eq_ret]
  iintro ⟨#HP, HG, H0, H1, H2, H3⟩
  iapply (tr_ENQ0 m ρ K c 0 g0 4 (by decide) _ (Chains.dev5_eq_dimOf c)) $$ [HG H0]
  · isplitr; · iexact HP
    isplitl [HG]; · iexact HG
    iexact H0
  iintro ⟨HG, H0⟩
  iapply (tr_ENQ0 m ρ K c 1 g1 5 (by decide) _ (Chains.dev6_eq_dimOf c)) $$ [HG H1]
  · isplitr; · iexact HP
    isplitl [HG]; · iexact HG
    iexact H1
  iintro ⟨HG, H1⟩
  simp only [wp_ret]; imodintro
  isplitl [HG]; · iexact HG
  isplitl [H0]; · iexact H0
  isplitl [H1]; · iexact H1
  isplitl [H2]; · iexact H2
  iexact H3

theorem part7_spec (K : Dev nD × CellK → ℕ) (c : Dev nD) (g0 g1 g2 g3 : Buf (Elt F) (((c : Dev nD) : Thread nD τ).loc cc0_stg1_0)) (v65 : BitVec 32) (v161 : BitVec 32) (v169 : BitVec 32) (v183 : BitVec 32) (v212 : BitVec 32) (c0_i32_124 : BitVec 32)  :
    iprop(□ Pers m ρ K c ∗ GSt c 6 ∗ StreamSt1 m ρ c 0 g0 ∗ StreamSt1 m ρ c 1 g1 ∗ StreamSt0 m ρ c 2 g2 ∗ StreamSt0 m ρ c 3 g3)
      ⊢ wpC c (k0_part7 (Memref.whole cc0_stg0_0) (Memref.isWhole_whole _) (Memref.whole cc0_stg1_0) (Memref.isWhole_whole _) (Memref.whole cc0_scratch0) (Memref.isWhole_whole _) cc0_scratch1 cc0_scratch2 c v65 v161 v169 v183 v212 c0_i32_124) (fun r => iprop(⌜r.2 = ldX m ρ c 0⌝ ∗ GSt c 8 ∗ StreamSt2 m ρ c 0 g0 ∗ StreamSt1 m ρ c 1 g1 ∗ StreamSt1 m ρ c 2 g2 ∗ StreamSt1 m ρ c 3 g3)) := by
  rw [k0_part7_eq_skeleton]; unfold k0_part7_skel
  simp only [Prog.lift, Prog.bind_op, Prog.bind_ret, Prog.pure_eq_ret]
  iintro ⟨#HP, HG, H0, H1, H2, H3⟩
  iapply (tr_ENQ0 m ρ K c 2 g2 6 (by decide) _ (Chains.dev7_eq_dimOf c)) $$ [HG H2]
  · isplitr; · iexact HP
    isplitl [HG]; · iexact HG
    iexact H2
  iintro ⟨HG, H2⟩
  iapply (tr_ENQ0 m ρ K c 3 g3 7 (by decide) _ (Chains.dev8_eq_dimOf c)) $$ [HG H3]
  · isplitr; · iexact HP
    isplitl [HG]; · iexact HG
    iexact H3
  iintro ⟨HG, H3⟩
  iapply (tr_WAITR0 m ρ K c 0 g0 8 (by decide)) $$ [HG H0]
  · isplitr; · iexact HP
    isplitl [HG]; · iexact HG
    iexact H0
  iintro ⟨HG, H0⟩
  iapply (tr_LOADx0 m ρ K c 0 g0) $$ [H0]
  · isplitr; · iexact HP
    iexact H0
  iintro H0
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part8_spec (K : Dev nD × CellK → ℕ) (c : Dev nD) (g0 g1 g2 g3 : Buf (Elt F) (((c : Dev nD) : Thread nD τ).loc cc0_stg1_0)) (v97 : BitVec 32) (v165 : BitVec 32) (v183 : BitVec 32) (v197 : BitVec 32) (v243 : Vec F S1x64x512 .f32) (hv243 : v243 = ldX m ρ c 0) :
    iprop(□ Pers m ρ K c ∗ GSt c 8 ∗ StreamSt2 m ρ c 0 g0 ∗ StreamSt1 m ρ c 1 g1 ∗ StreamSt1 m ρ c 2 g2 ∗ StreamSt1 m ρ c 3 g3)
      ⊢ wpC c (k0_part8 (Memref.whole cc0_stg0_0) (Memref.isWhole_whole _) (Memref.whole cc0_stg1_0) (Memref.isWhole_whole _) (Memref.whole cc0_scratch0) (Memref.isWhole_whole _) cc0_scratch1 cc0_scratch2 c v97 v165 v183 v197 v243) (fun r => iprop(⌜r.2 = k0_pay2 (ldX m ρ c 1) (ldR0 m ρ c 1)⌝ ∗ GSt c 9 ∗ StreamSt4 m ρ c 0 ∗ StreamSt2 m ρ c 1 g1 ∗ StreamSt1 m ρ c 2 g2 ∗ StreamSt1 m ρ c 3 g3)) := by
  rw [k0_part8_eq_skeleton]; unfold k0_part8_skel
  simp only [Prog.lift, Prog.bind_op, Prog.bind_ret, Prog.pure_eq_ret]
  iintro ⟨#HP, HG, H0, H1, H2, H3⟩
  iapply (tr_LOADr0 m ρ K c 0 g0) $$ [H0]
  · isplitr; · iexact HP
    iexact H0
  iintro H0
  iapply (tr_LOADo0 m ρ K c 0 g0) $$ [H0]
  · isplitr; · iexact HP
    iexact H0
  iintro H0
  iapply (tr_STORE0 m ρ K c 0 g0 _ (by first | rfl | (subst hv243; rfl))) $$ [H0]
  · isplitr; · iexact HP
    iexact H0
  iintro H0
  iapply (tr_ENQ1 m ρ K c 0 g0 8 (by decide) _ (Chains.dev9_eq_dimOf c)) $$ [HG H0]
  · isplitr; · iexact HP
    isplitl [HG]; · iexact HG
    iexact H0
  iintro ⟨HG, H0⟩
  iapply (tr_WAITR0 m ρ K c 1 g1 9 (by decide)) $$ [HG H1]
  · isplitr; · iexact HP
    isplitl [HG]; · iexact HG
    iexact H1
  iintro ⟨HG, H1⟩
  iapply (tr_LOADx0 m ρ K c 1 g1) $$ [H1]
  · isplitr; · iexact HP
    iexact H1
  iintro H1
  iapply (tr_LOADr0 m ρ K c 1 g1) $$ [H1]
  · isplitr; · iexact HP
    iexact H1
  iintro H1
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part9_spec (K : Dev nD × CellK → ℕ) (c : Dev nD) (g0 g1 g2 g3 : Buf (Elt F) (((c : Dev nD) : Thread nD τ).loc cc0_stg1_0)) (v65 : BitVec 32) (v129 : BitVec 32) (v163 : BitVec 32) (v169 : BitVec 32) (v197 : BitVec 32) (v211 : BitVec 32) (v273 : FVec F S64x512 .f32) (hv273 : v273 = k0_pay2 (ldX m ρ c 1) (ldR0 m ρ c 1)) :
    iprop(□ Pers m ρ K c ∗ GSt c 9 ∗ StreamSt4 m ρ c 0 ∗ StreamSt2 m ρ c 1 g1 ∗ StreamSt1 m ρ c 2 g2 ∗ StreamSt1 m ρ c 3 g3)
      ⊢ wpC c (k0_part9 (Memref.whole cc0_stg0_0) (Memref.isWhole_whole _) (Memref.whole cc0_stg1_0) (Memref.isWhole_whole _) (Memref.whole cc0_scratch0) (Memref.isWhole_whole _) cc0_scratch1 cc0_scratch2 c v65 v129 v163 v169 v197 v211 v273) (fun r => iprop(GSt c 10 ∗ StreamSt4 m ρ c 0 ∗ StreamSt4 m ρ c 1 ∗ StreamSt3 m ρ c 2 ∗ StreamSt1 m ρ c 3 g3)) := by
  rw [k0_part9_eq_skeleton]; unfold k0_part9_skel
  simp only [Prog.lift, Prog.bind_op, Prog.bind_ret, Prog.pure_eq_ret]
  iintro ⟨#HP, HG, H0, H1, H2, H3⟩
  iapply (tr_LOADo0 m ρ K c 1 g1) $$ [H1]
  · isplitr; · iexact HP
    iexact H1
  iintro H1
  iapply (tr_STORE0 m ρ K c 1 g1 _ (by first | rfl | (subst hv273; rfl))) $$ [H1]
  · isplitr; · iexact HP
    iexact H1
  iintro H1
  iapply (tr_ENQ1 m ρ K c 1 g1 9 (by decide) _ (Chains.dev10_eq_dimOf c)) $$ [HG H1]
  · isplitr; · iexact HP
    isplitl [HG]; · iexact HG
    iexact H1
  iintro ⟨HG, H1⟩
  iapply (tr_WAITR0 m ρ K c 2 g2 10 (by decide)) $$ [HG H2]
  · isplitr; · iexact HP
    isplitl [HG]; · iexact HG
    iexact H2
  iintro ⟨HG, H2⟩
  iapply (tr_LOADx0 m ρ K c 2 g2) $$ [H2]
  · isplitr; · iexact HP
    iexact H2
  iintro H2
  iapply (tr_LOADr0 m ρ K c 2 g2) $$ [H2]
  · isplitr; · iexact HP
    iexact H2
  iintro H2
  iapply (tr_LOADo0 m ρ K c 2 g2) $$ [H2]
  · isplitr; · iexact HP
    iexact H2
  iintro H2
  iapply (tr_STORE0 m ρ K c 2 g2 _ (by first | rfl | (subst hv273; rfl))) $$ [H2]
  · isplitr; · iexact HP
    iexact H2
  iintro H2
  simp only [wp_ret]; imodintro
  isplitl [HG]; · iexact HG
  isplitl [H0]; · iexact H0
  isplitl [H1]; · iexact H1
  isplitl [H2]; · iexact H2
  iexact H3

theorem part10_spec (K : Dev nD × CellK → ℕ) (c : Dev nD) (g0 g1 g2 g3 : Buf (Elt F) (((c : Dev nD) : Thread nD τ).loc cc0_stg1_0)) (v129 : BitVec 32) (v161 : BitVec 32) (v167 : BitVec 32) (v169 : BitVec 32) (v211 : BitVec 32) (v225 : BitVec 32)  :
    iprop(□ Pers m ρ K c ∗ GSt c 10 ∗ StreamSt4 m ρ c 0 ∗ StreamSt4 m ρ c 1 ∗ StreamSt3 m ρ c 2 ∗ StreamSt1 m ρ c 3 g3)
      ⊢ wpC c (k0_part10 (Memref.whole cc0_stg0_0) (Memref.isWhole_whole _) (Memref.whole cc0_stg1_0) (Memref.isWhole_whole _) (Memref.whole cc0_scratch0) (Memref.isWhole_whole _) cc0_scratch1 cc0_scratch2 c v129 v161 v167 v169 v211 v225) (fun r => iprop(GSt c 11 ∗ StreamSt4 m ρ c 0 ∗ StreamSt4 m ρ c 1 ∗ StreamSt4 m ρ c 2 ∗ StreamSt3 m ρ c 3)) := by
  rw [k0_part10_eq_skeleton]; unfold k0_part10_skel
  simp only [Prog.lift, Prog.bind_op, Prog.bind_ret, Prog.pure_eq_ret]
  iintro ⟨#HP, HG, H0, H1, H2, H3⟩
  iapply (tr_ENQ1 m ρ K c 2 g2 10 (by decide) _ (Chains.dev11_eq_dimOf c)) $$ [HG H2]
  · isplitr; · iexact HP
    isplitl [HG]; · iexact HG
    iexact H2
  iintro ⟨HG, H2⟩
  iapply (tr_WAITR0 m ρ K c 3 g3 11 (by decide)) $$ [HG H3]
  · isplitr; · iexact HP
    isplitl [HG]; · iexact HG
    iexact H3
  iintro ⟨HG, H3⟩
  iapply (tr_LOADx0 m ρ K c 3 g3) $$ [H3]
  · isplitr; · iexact HP
    iexact H3
  iintro H3
  iapply (tr_LOADr0 m ρ K c 3 g3) $$ [H3]
  · isplitr; · iexact HP
    iexact H3
  iintro H3
  iapply (tr_LOADo0 m ρ K c 3 g3) $$ [H3]
  · isplitr; · iexact HP
    iexact H3
  iintro H3
  iapply (tr_STORE0 m ρ K c 3 g3 _ rfl) $$ [H3]
  · isplitr; · iexact HP
    iexact H3
  iintro H3
  simp only [wp_ret]; imodintro
  isplitl [HG]; · iexact HG
  isplitl [H0]; · iexact H0
  isplitl [H1]; · iexact H1
  isplitl [H2]; · iexact H2
  iexact H3

/-- info: 'Cert.Kernel.Proto.part10_spec' depends on axioms: [propext, Classical.choice, Quot.sound] -/
#guard_msgs in #print axioms part10_spec

end Cert.Kernel.Proto

end
-- ==== Proof.Bits.PartsB.lean ====
/-
  The printed parts 11–15 of the body, each run from the four streams' phases before it to their phases after it:
  every effect of a part is one transition of the stream it belongs to (or a load, which leaves the phase alone).
-/
import proofs.«900484_g7700000000000485_dist_treered_v7x_i16_m512_n512_f32_1_alg».proof.Proof.Bits.TransEnq
import proofs.«900484_g7700000000000485_dist_treered_v7x_i16_m512_n512_f32_1_alg».proof.Proof.Bits.TransEnq23
import proofs.«900484_g7700000000000485_dist_treered_v7x_i16_m512_n512_f32_1_alg».proof.Proof.Bits.TransEnq45
import proofs.«900484_g7700000000000485_dist_treered_v7x_i16_m512_n512_f32_1_alg».proof.Proof.Bits.TransWait
import proofs.«900484_g7700000000000485_dist_treered_v7x_i16_m512_n512_f32_1_alg».proof.Proof.Bits.TransWaitR45
import proofs.«900484_g7700000000000485_dist_treered_v7x_i16_m512_n512_f32_1_alg».proof.Proof.Bits.TransWaitS
import proofs.«900484_g7700000000000485_dist_treered_v7x_i16_m512_n512_f32_1_alg».proof.Proof.Bits.TransAdd
import proofs.«900484_g7700000000000485_dist_treered_v7x_i16_m512_n512_f32_1_alg».proof.Proof.Bits.PartsDefs
import proofs.«900484_g7700000000000485_dist_treered_v7x_i16_m512_n512_f32_1_alg».proof.Proof.Bits.Chains
import proofs.«900484_g7700000000000485_dist_treered_v7x_i16_m512_n512_f32_1_alg».proof.Proof.Gen.Kernel.Skeleton

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Chains

theorem part11_spec (K : Dev nD × CellK → ℕ) (c : Dev nD) (g0 g1 g2 g3 : Buf (Elt F) (((c : Dev nD) : Thread nD τ).loc cc0_stg1_0)) (v65 : BitVec 32) (v97 : BitVec 32) (v129 : BitVec 32) (v253 : BitVec 32) (v335 : BitVec 32)  :
    iprop(□ Pers m ρ K c ∗ GSt c 11 ∗ StreamSt4 m ρ c 0 ∗ StreamSt4 m ρ c 1 ∗ StreamSt4 m ρ c 2 ∗ StreamSt3 m ρ c 3)
      ⊢ wpC c (k0_part11 (Memref.whole cc0_stg0_0) (Memref.isWhole_whole _) (Memref.whole cc0_stg1_0) (Memref.isWhole_whole _) (Memref.whole cc0_scratch0) (Memref.isWhole_whole _) cc0_scratch1 cc0_scratch2 c v65 v97 v129 v253 v335) (fun r => iprop(GSt c 13 ∗ StreamSt7 m ρ c 0 ∗ StreamSt4 m ρ c 1 ∗ StreamSt4 m ρ c 2 ∗ StreamSt4 m ρ c 3)) := by
  rw [k0_part11_eq_skeleton]; unfold k0_part11_skel
  simp only [Prog.lift, Prog.bind_op, Prog.bind_ret, Prog.pure_eq_ret]
  iintro ⟨#HP, HG, H0, H1, H2, H3⟩
  iapply (tr_ENQ1 m ρ K c 3 g3 11 (by decide) _ (Chains.dev12_eq_dimOf c)) $$ [HG H3]
  · isplitr; · iexact HP
    isplitl [HG]; · iexact HG
    iexact H3
  iintro ⟨HG, H3⟩
  iapply (tr_WAITR1 m ρ K c 0 g0 12 (by decide)) $$ [HG H0]
  · isplitr; · iexact HP
    isplitl [HG]; · iexact HG
    iexact H0
  iintro ⟨HG, H0⟩
  iapply (tr_LOADm1 m ρ K c 0 g0) $$ [H0]
  · isplitr; · iexact HP
    iexact H0
  iintro H0
  iapply (tr_LOADr1 m ρ K c 0 g0) $$ [H0]
  · isplitr; · iexact HP
    iexact H0
  iintro H0
  iapply (tr_LOADd1 m ρ K c 0 g0) $$ [H0]
  · isplitr; · iexact HP
    iexact H0
  iintro H0
  iapply (tr_STORE1 m ρ K c 0 g0 _ rfl) $$ [H0]
  · isplitr; · iexact HP
    iexact H0
  iintro H0
  iapply (tr_ENQ2 m ρ K c 0 g0 12 (by decide) _ (Chains.dev13_eq_dimOf c)) $$ [HG H0]
  · isplitr; · iexact HP
    isplitl [HG]; · iexact HG
    iexact H0
  iintro ⟨HG, H0⟩
  simp only [wp_ret]; imodintro
  isplitl [HG]; · iexact HG
  isplitl [H0]; · iexact H0
  isplitl [H1]; · iexact H1
  isplitl [H2]; · iexact H2
  iexact H3

theorem part12_spec (K : Dev nD × CellK → ℕ) (c : Dev nD) (g0 g1 g2 g3 : Buf (Elt F) (((c : Dev nD) : Thread nD τ).loc cc0_stg1_0)) (v161 : BitVec 32) (v280 : BitVec 32) (v307 : BitVec 32)  :
    iprop(□ Pers m ρ K c ∗ GSt c 13 ∗ StreamSt7 m ρ c 0 ∗ StreamSt4 m ρ c 1 ∗ StreamSt4 m ρ c 2 ∗ StreamSt4 m ρ c 3)
      ⊢ wpC c (k0_part12 (Memref.whole cc0_stg0_0) (Memref.isWhole_whole _) (Memref.whole cc0_stg1_0) (Memref.isWhole_whole _) (Memref.whole cc0_scratch0) (Memref.isWhole_whole _) cc0_scratch1 cc0_scratch2 c v161 v280 v307) (fun r => iprop(⌜r = k0_pay7 (ldM m ρ c 2 1) (ldR m ρ c 2 1 (.inl rfl))⌝ ∗ GSt c 14 ∗ StreamSt7 m ρ c 0 ∗ StreamSt7 m ρ c 1 ∗ StreamSt5 m ρ c 2 ∗ StreamSt4 m ρ c 3)) := by
  rw [k0_part12_eq_skeleton]; unfold k0_part12_skel
  simp only [Prog.lift, Prog.bind_op, Prog.bind_ret, Prog.pure_eq_ret]
  iintro ⟨#HP, HG, H0, H1, H2, H3⟩
  iapply (tr_WAITR1 m ρ K c 1 g1 13 (by decide)) $$ [HG H1]
  · isplitr; · iexact HP
    isplitl [HG]; · iexact HG
    iexact H1
  iintro ⟨HG, H1⟩
  iapply (tr_LOADm1 m ρ K c 1 g1) $$ [H1]
  · isplitr; · iexact HP
    iexact H1
  iintro H1
  iapply (tr_LOADr1 m ρ K c 1 g1) $$ [H1]
  · isplitr; · iexact HP
    iexact H1
  iintro H1
  iapply (tr_LOADd1 m ρ K c 1 g1) $$ [H1]
  · isplitr; · iexact HP
    iexact H1
  iintro H1
  iapply (tr_STORE1 m ρ K c 1 g1 _ rfl) $$ [H1]
  · isplitr; · iexact HP
    iexact H1
  iintro H1
  iapply (tr_ENQ2 m ρ K c 1 g1 13 (by decide) _ (Chains.dev14_eq_dimOf c)) $$ [HG H1]
  · isplitr; · iexact HP
    isplitl [HG]; · iexact HG
    iexact H1
  iintro ⟨HG, H1⟩
  iapply (tr_WAITR1 m ρ K c 2 g2 14 (by decide)) $$ [HG H2]
  · isplitr; · iexact HP
    isplitl [HG]; · iexact HG
    iexact H2
  iintro ⟨HG, H2⟩
  iapply (tr_LOADm1 m ρ K c 2 g2) $$ [H2]
  · isplitr; · iexact HP
    iexact H2
  iintro H2
  iapply (tr_LOADr1 m ρ K c 2 g2) $$ [H2]
  · isplitr; · iexact HP
    iexact H2
  iintro H2
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part13_spec (K : Dev nD × CellK → ℕ) (c : Dev nD) (g0 g1 g2 g3 : Buf (Elt F) (((c : Dev nD) : Thread nD τ).loc cc0_stg1_0)) (v65 : BitVec 32) (v97 : BitVec 32) (v129 : BitVec 32) (v334 : BitVec 32) (v395 : FVec F S32x512 .f32) (hv395 : v395 = k0_pay7 (ldM m ρ c 2 1) (ldR m ρ c 2 1 (.inl rfl))) :
    iprop(□ Pers m ρ K c ∗ GSt c 14 ∗ StreamSt7 m ρ c 0 ∗ StreamSt7 m ρ c 1 ∗ StreamSt5 m ρ c 2 ∗ StreamSt4 m ρ c 3)
      ⊢ wpC c (k0_part13 (Memref.whole cc0_stg0_0) (Memref.isWhole_whole _) (Memref.whole cc0_stg1_0) (Memref.isWhole_whole _) (Memref.whole cc0_scratch0) (Memref.isWhole_whole _) cc0_scratch1 cc0_scratch2 c v65 v97 v129 v334 v395) (fun r => iprop(GSt c 16 ∗ StreamSt7 m ρ c 0 ∗ StreamSt7 m ρ c 1 ∗ StreamSt7 m ρ c 2 ∗ StreamSt7 m ρ c 3)) := by
  rw [k0_part13_eq_skeleton]; unfold k0_part13_skel
  simp only [Prog.lift, Prog.bind_op, Prog.bind_ret, Prog.pure_eq_ret]
  iintro ⟨#HP, HG, H0, H1, H2, H3⟩
  iapply (tr_LOADd1 m ρ K c 2 g2) $$ [H2]
  · isplitr; · iexact HP
    iexact H2
  iintro H2
  iapply (tr_STORE1 m ρ K c 2 g2 _ (by first | rfl | (subst hv395; rfl))) $$ [H2]
  · isplitr; · iexact HP
    iexact H2
  iintro H2
  iapply (tr_ENQ2 m ρ K c 2 g2 14 (by decide) _ (Chains.dev15_eq_dimOf c)) $$ [HG H2]
  · isplitr; · iexact HP
    isplitl [HG]; · iexact HG
    iexact H2
  iintro ⟨HG, H2⟩
  iapply (tr_WAITR1 m ρ K c 3 g3 15 (by decide)) $$ [HG H3]
  · isplitr; · iexact HP
    isplitl [HG]; · iexact HG
    iexact H3
  iintro ⟨HG, H3⟩
  iapply (tr_LOADm1 m ρ K c 3 g3) $$ [H3]
  · isplitr; · iexact HP
    iexact H3
  iintro H3
  iapply (tr_LOADr1 m ρ K c 3 g3) $$ [H3]
  · isplitr; · iexact HP
    iexact H3
  iintro H3
  iapply (tr_LOADd1 m ρ K c 3 g3) $$ [H3]
  · isplitr; · iexact HP
    iexact H3
  iintro H3
  iapply (tr_STORE1 m ρ K c 3 g3 _ (by first | rfl | (subst hv395; rfl))) $$ [H3]
  · isplitr; · iexact HP
    iexact H3
  iintro H3
  iapply (tr_ENQ2 m ρ K c 3 g3 15 (by decide) _ (Chains.dev16_eq_dimOf c)) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

theorem part14_spec (K : Dev nD × CellK → ℕ) (c : Dev nD) (g0 g1 g2 g3 : Buf (Elt F) (((c : Dev nD) : Thread nD τ).loc cc0_stg1_0)) (v129 : BitVec 32) (v161 : BitVec 32) (v253 : BitVec 32)  :
    iprop(□ Pers m ρ K c ∗ GSt c 16 ∗ StreamSt7 m ρ c 0 ∗ StreamSt7 m ρ c 1 ∗ StreamSt7 m ρ c 2 ∗ StreamSt7 m ρ c 3)
      ⊢ wpC c (k0_part14 (Memref.whole cc0_stg0_0) (Memref.isWhole_whole _) (Memref.whole cc0_stg1_0) (Memref.isWhole_whole _) (Memref.whole cc0_scratch0) (Memref.isWhole_whole _) cc0_scratch1 cc0_scratch2 c v129 v161 v253) (fun r => iprop(GSt c 17 ∗ StreamSt11 m ρ c 0 ∗ StreamSt7 m ρ c 1 ∗ StreamSt7 m ρ c 2 ∗ StreamSt7 m ρ c 3)) := by
  rw [k0_part14_eq_skeleton]; unfold k0_part14_skel
  simp only [Prog.lift, Prog.bind_op, Prog.bind_ret, Prog.pure_eq_ret]
  iintro ⟨#HP, HG, H0, H1, H2, H3⟩
  iapply (tr_WAITS2 m ρ K c 0 g0 16) $$ [HG H0]
  · isplitr; · iexact HP
    isplitl [HG]; · iexact HG
    iexact H0
  iintro ⟨HG, H0⟩
  iapply (tr_WAITR2 m ρ K c 0 g0 16 (by decide)) $$ [HG H0]
  · isplitr; · iexact HP
    isplitl [HG]; · iexact HG
    iexact H0
  iintro ⟨HG, H0⟩
  iapply (tr_LOADm2 m ρ K c 0 g0) $$ [H0]
  · isplitr; · iexact HP
    iexact H0
  iintro H0
  iapply (tr_LOADr2 m ρ K c 0 g0) $$ [H0]
  · isplitr; · iexact HP
    iexact H0
  iintro H0
  iapply (tr_LOADd2 m ρ K c 0 g0) $$ [H0]
  · isplitr; · iexact HP
    iexact H0
  iintro H0
  iapply (tr_STORE2 m ρ K c 0 g0 _ rfl) $$ [H0]
  · isplitr; · iexact HP
    iexact H0
  iintro H0
  iapply (tr_ENQ3 m ρ K c 0 g0 16 (by decide) _ (Chains.dev17_eq_dimOf c)) $$ [HG H0]
  · isplitr; · iexact HP
    isplitl [HG]; · iexact HG
    iexact H0
  iintro ⟨HG, H0⟩
  simp only [wp_ret]; imodintro
  isplitl [HG]; · iexact HG
  isplitl [H0]; · iexact H0
  isplitl [H1]; · iexact H1
  isplitl [H2]; · iexact H2
  iexact H3

theorem part15_spec (K : Dev nD × CellK → ℕ) (c : Dev nD) (g0 g1 g2 g3 : Buf (Elt F) (((c : Dev nD) : Thread nD τ).loc cc0_stg1_0)) (v129 : BitVec 32) (v161 : BitVec 32) (v280 : BitVec 32)  :
    iprop(□ Pers m ρ K c ∗ GSt c 17 ∗ StreamSt11 m ρ c 0 ∗ StreamSt7 m ρ c 1 ∗ StreamSt7 m ρ c 2 ∗ StreamSt7 m ρ c 3)
      ⊢ wpC c (k0_part15 (Memref.whole cc0_stg0_0) (Memref.isWhole_whole _) (Memref.whole cc0_stg1_0) (Memref.isWhole_whole _) (Memref.whole cc0_scratch0) (Memref.isWhole_whole _) cc0_scratch1 cc0_scratch2 c v129 v161 v280) (fun r => iprop(GSt c 18 ∗ StreamSt11 m ρ c 0 ∗ StreamSt11 m ρ c 1 ∗ StreamSt8 m ρ c 2 ∗ StreamSt7 m ρ c 3)) := by
  rw [k0_part15_eq_skeleton]; unfold k0_part15_skel
  simp only [Prog.lift, Prog.bind_op, Prog.bind_ret, Prog.pure_eq_ret]
  iintro ⟨#HP, HG, H0, H1, H2, H3⟩
  iapply (tr_WAITS2 m ρ K c 1 g1 17) $$ [HG H1]
  · isplitr; · iexact HP
    isplitl [HG]; · iexact HG
    iexact H1
  iintro ⟨HG, H1⟩
  iapply (tr_WAITR2 m ρ K c 1 g1 17 (by decide)) $$ [HG H1]
  · isplitr; · iexact HP
    isplitl [HG]; · iexact HG
    iexact H1
  iintro ⟨HG, H1⟩
  iapply (tr_LOADm2 m ρ K c 1 g1) $$ [H1]
  · isplitr; · iexact HP
    iexact H1
  iintro H1
  iapply (tr_LOADr2 m ρ K c 1 g1) $$ [H1]
  · isplitr; · iexact HP
    iexact H1
  iintro H1
  iapply (tr_LOADd2 m ρ K c 1 g1) $$ [H1]
  · isplitr; · iexact HP
    iexact H1
  iintro H1
  iapply (tr_STORE2 m ρ K c 1 g1 _ rfl) $$ [H1]
  · isplitr; · iexact HP
    iexact H1
  iintro H1
  iapply (tr_ENQ3 m ρ K c 1 g1 17 (by decide) _ (Chains.dev18_eq_dimOf c)) $$ [HG H1]
  · isplitr; · iexact HP
    isplitl [HG]; · iexact HG
    iexact H1
  iintro ⟨HG, H1⟩
  iapply (tr_WAITS2 m ρ K c 2 g2 18) $$ [HG H2]
  · isplitr; · iexact HP
    isplitl [HG]; · iexact HG
    iexact H2
  iintro ⟨HG, H2⟩
  simp only [wp_ret]; imodintro
  isplitl [HG]; · iexact HG
  isplitl [H0]; · iexact H0
  isplitl [H1]; · iexact H1
  isplitl [H2]; · iexact H2
  iexact H3

/-- info: 'Cert.Kernel.Proto.part15_spec' depends on axioms: [propext, Classical.choice, Quot.sound] -/
#guard_msgs in #print axioms part15_spec

end Cert.Kernel.Proto

end
-- ==== Proof.Bits.PartsC.lean ====
/-
  The printed parts 16–20 of the body, each run from the four streams' phases before it to their phases after it:
  every effect of a part is one transition of the stream it belongs to (or a load, which leaves the phase alone).
-/
import proofs.«900484_g7700000000000485_dist_treered_v7x_i16_m512_n512_f32_1_alg».proof.Proof.Bits.TransEnq
import proofs.«900484_g7700000000000485_dist_treered_v7x_i16_m512_n512_f32_1_alg».proof.Proof.Bits.TransEnq23
import proofs.«900484_g7700000000000485_dist_treered_v7x_i16_m512_n512_f32_1_alg».proof.Proof.Bits.TransEnq45
import proofs.«900484_g7700000000000485_dist_treered_v7x_i16_m512_n512_f32_1_alg».proof.Proof.Bits.TransWait
import proofs.«900484_g7700000000000485_dist_treered_v7x_i16_m512_n512_f32_1_alg».proof.Proof.Bits.TransWaitR45
import proofs.«900484_g7700000000000485_dist_treered_v7x_i16_m512_n512_f32_1_alg».proof.Proof.Bits.TransWaitS
import proofs.«900484_g7700000000000485_dist_treered_v7x_i16_m512_n512_f32_1_alg».proof.Proof.Bits.TransAdd
import proofs.«900484_g7700000000000485_dist_treered_v7x_i16_m512_n512_f32_1_alg».proof.Proof.Bits.PartsDefs
import proofs.«900484_g7700000000000485_dist_treered_v7x_i16_m512_n512_f32_1_alg».proof.Proof.Bits.Chains
import proofs.«900484_g7700000000000485_dist_treered_v7x_i16_m512_n512_f32_1_alg».proof.Proof.Gen.Kernel.Skeleton

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Chains

theorem part16_spec (K : Dev nD × CellK → ℕ) (c : Dev nD) (g0 g1 g2 g3 : Buf (Elt F) (((c : Dev nD) : Thread nD τ).loc cc0_stg1_0)) (v65 : BitVec 32) (v97 : BitVec 32) (v307 : BitVec 32) (c1_i32_334 : BitVec 32)  :
    iprop(□ Pers m ρ K c ∗ GSt c 18 ∗ StreamSt11 m ρ c 0 ∗ StreamSt11 m ρ c 1 ∗ StreamSt8 m ρ c 2 ∗ StreamSt7 m ρ c 3)
      ⊢ wpC c (k0_part16 (Memref.whole cc0_stg0_0) (Memref.isWhole_whole _) (Memref.whole cc0_stg1_0) (Memref.isWhole_whole _) (Memref.whole cc0_scratch0) (Memref.isWhole_whole _) cc0_scratch1 cc0_scratch2 c v65 v97 v307 c1_i32_334) (fun r => iprop(GSt c 19 ∗ StreamSt11 m ρ c 0 ∗ StreamSt11 m ρ c 1 ∗ StreamSt11 m ρ c 2 ∗ StreamSt8 m ρ c 3)) := by
  rw [k0_part16_eq_skeleton]; unfold k0_part16_skel
  simp only [Prog.lift, Prog.bind_op, Prog.bind_ret, Prog.pure_eq_ret]
  iintro ⟨#HP, HG, H0, H1, H2, H3⟩
  iapply (tr_WAITR2 m ρ K c 2 g2 18 (by decide)) $$ [HG H2]
  · isplitr; · iexact HP
    isplitl [HG]; · iexact HG
    iexact H2
  iintro ⟨HG, H2⟩
  iapply (tr_LOADm2 m ρ K c 2 g2) $$ [H2]
  · isplitr; · iexact HP
    iexact H2
  iintro H2
  iapply (tr_LOADr2 m ρ K c 2 g2) $$ [H2]
  · isplitr; · iexact HP
    iexact H2
  iintro H2
  iapply (tr_LOADd2 m ρ K c 2 g2) $$ [H2]
  · isplitr; · iexact HP
    iexact H2
  iintro H2
  iapply (tr_STORE2 m ρ K c 2 g2 _ rfl) $$ [H2]
  · isplitr; · iexact HP
    iexact H2
  iintro H2
  iapply (tr_ENQ3 m ρ K c 2 g2 18 (by decide) _ (Chains.dev19_eq_dimOf c)) $$ [HG H2]
  · isplitr; · iexact HP
    isplitl [HG]; · iexact HG
    iexact H2
  iintro ⟨HG, H2⟩
  iapply (tr_WAITS2 m ρ K c 3 g3 19) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

theorem part17_spec (K : Dev nD × CellK → ℕ) (c : Dev nD) (g0 g1 g2 g3 : Buf (Elt F) (((c : Dev nD) : Thread nD τ).loc cc0_stg1_0)) (v65 : BitVec 32) (v161 : BitVec 32) (v253 : BitVec 32) (v334 : BitVec 32)  :
    iprop(□ Pers m ρ K c ∗ GSt c 19 ∗ StreamSt11 m ρ c 0 ∗ StreamSt11 m ρ c 1 ∗ StreamSt11 m ρ c 2 ∗ StreamSt8 m ρ c 3)
      ⊢ wpC c (k0_part17 (Memref.whole cc0_stg0_0) (Memref.isWhole_whole _) (Memref.whole cc0_stg1_0) (Memref.isWhole_whole _) (Memref.whole cc0_scratch0) (Memref.isWhole_whole _) cc0_scratch1 cc0_scratch2 c v65 v161 v253 v334) (fun r => iprop(⌜r = ldM m ρ c 0 3⌝ ∗ GSt c 20 ∗ StreamSt13 m ρ c 0 ∗ StreamSt11 m ρ c 1 ∗ StreamSt11 m ρ c 2 ∗ StreamSt11 m ρ c 3)) := by
  rw [k0_part17_eq_skeleton]; unfold k0_part17_skel
  simp only [Prog.lift, Prog.bind_op, Prog.bind_ret, Prog.pure_eq_ret]
  iintro ⟨#HP, HG, H0, H1, H2, H3⟩
  iapply (tr_WAITR2 m ρ K c 3 g3 19 (by decide)) $$ [HG H3]
  · isplitr; · iexact HP
    isplitl [HG]; · iexact HG
    iexact H3
  iintro ⟨HG, H3⟩
  iapply (tr_LOADm2 m ρ K c 3 g3) $$ [H3]
  · isplitr; · iexact HP
    iexact H3
  iintro H3
  iapply (tr_LOADr2 m ρ K c 3 g3) $$ [H3]
  · isplitr; · iexact HP
    iexact H3
  iintro H3
  iapply (tr_LOADd2 m ρ K c 3 g3) $$ [H3]
  · isplitr; · iexact HP
    iexact H3
  iintro H3
  iapply (tr_STORE2 m ρ K c 3 g3 _ rfl) $$ [H3]
  · isplitr; · iexact HP
    iexact H3
  iintro H3
  iapply (tr_ENQ3 m ρ K c 3 g3 19 (by decide) _ (Chains.dev20_eq_dimOf c)) $$ [HG H3]
  · isplitr; · iexact HP
    isplitl [HG]; · iexact HG
    iexact H3
  iintro ⟨HG, H3⟩
  iapply (tr_WAITS3 m ρ K c 0 g0 20) $$ [HG H0]
  · isplitr; · iexact HP
    isplitl [HG]; · iexact HG
    iexact H0
  iintro ⟨HG, H0⟩
  iapply (tr_WAITR3 m ρ K c 0 g0 20 (by decide)) $$ [HG H0]
  · isplitr; · iexact HP
    isplitl [HG]; · iexact HG
    iexact H0
  iintro ⟨HG, H0⟩
  iapply (tr_LOADm3 m ρ K c 0 g0) $$ [H0]
  · isplitr; · iexact HP
    iexact H0
  iintro H0
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part18_spec (K : Dev nD × CellK → ℕ) (c : Dev nD) (g0 g1 g2 g3 : Buf (Elt F) (((c : Dev nD) : Thread nD τ).loc cc0_stg1_0)) (v97 : BitVec 32) (v129 : BitVec 32) (v253 : BitVec 32) (v280 : BitVec 32) (v538 : Vec F S32x512 .f32) (hv538 : v538 = ldM m ρ c 0 3) :
    iprop(□ Pers m ρ K c ∗ GSt c 20 ∗ StreamSt13 m ρ c 0 ∗ StreamSt11 m ρ c 1 ∗ StreamSt11 m ρ c 2 ∗ StreamSt11 m ρ c 3)
      ⊢ wpC c (k0_part18 (Memref.whole cc0_stg0_0) (Memref.isWhole_whole _) (Memref.whole cc0_stg1_0) (Memref.isWhole_whole _) (Memref.whole cc0_scratch0) (Memref.isWhole_whole _) cc0_scratch1 cc0_scratch2 c v97 v129 v253 v280 v538) (fun r => iprop(⌜r = k0_pay14 (ldM m ρ c 1 3) (ldR m ρ c 1 3 (.inr (.inr rfl)))⌝ ∗ GSt c 21 ∗ StreamSt15 m ρ c 0 ∗ StreamSt13 m ρ c 1 ∗ StreamSt11 m ρ c 2 ∗ StreamSt11 m ρ c 3)) := by
  rw [k0_part18_eq_skeleton]; unfold k0_part18_skel
  simp only [Prog.lift, Prog.bind_op, Prog.bind_ret, Prog.pure_eq_ret]
  iintro ⟨#HP, HG, H0, H1, H2, H3⟩
  iapply (tr_LOADr3 m ρ K c 0 g0) $$ [H0]
  · isplitr; · iexact HP
    iexact H0
  iintro H0
  iapply (tr_LOADd3 m ρ K c 0 g0) $$ [H0]
  · isplitr; · iexact HP
    iexact H0
  iintro H0
  iapply (tr_STORE3 m ρ K c 0 g0 _ (by first | rfl | (subst hv538; rfl))) $$ [H0]
  · isplitr; · iexact HP
    iexact H0
  iintro H0
  iapply (tr_ENQ4 m ρ K c 0 g0 20 (by decide) _ (Chains.dev21_eq_dimOf c)) $$ [HG H0]
  · isplitr; · iexact HP
    isplitl [HG]; · iexact HG
    iexact H0
  iintro ⟨HG, H0⟩
  iapply (tr_WAITS3 m ρ K c 1 g1 21) $$ [HG H1]
  · isplitr; · iexact HP
    isplitl [HG]; · iexact HG
    iexact H1
  iintro ⟨HG, H1⟩
  iapply (tr_WAITR3 m ρ K c 1 g1 21 (by decide)) $$ [HG H1]
  · isplitr; · iexact HP
    isplitl [HG]; · iexact HG
    iexact H1
  iintro ⟨HG, H1⟩
  iapply (tr_LOADm3 m ρ K c 1 g1) $$ [H1]
  · isplitr; · iexact HP
    iexact H1
  iintro H1
  iapply (tr_LOADr3 m ρ K c 1 g1) $$ [H1]
  · isplitr; · iexact HP
    iexact H1
  iintro H1
  iapply (tr_LOADd3 m ρ K c 1 g1) $$ [H1]
  · isplitr; · iexact HP
    iexact H1
  iintro H1
  simp only [wp_ret]; imodintro
  isplitr; · ipureintro; first | trivial | rfl | (subst_vars; rfl)
  isplitl [HG]; · iexact HG
  isplitl [H0]; · iexact H0
  isplitl [H1]; · iexact H1
  isplitl [H2]; · iexact H2
  iexact H3

theorem part19_spec (K : Dev nD × CellK → ℕ) (c : Dev nD) (g0 g1 g2 g3 : Buf (Elt F) (((c : Dev nD) : Thread nD τ).loc cc0_stg1_0)) (v65 : BitVec 32) (v97 : BitVec 32) (v161 : BitVec 32) (v307 : BitVec 32) (v566 : FVec F S32x512 .f32) (hv566 : v566 = k0_pay14 (ldM m ρ c 1 3) (ldR m ρ c 1 3 (.inr (.inr rfl)))) :
    iprop(□ Pers m ρ K c ∗ GSt c 21 ∗ StreamSt15 m ρ c 0 ∗ StreamSt13 m ρ c 1 ∗ StreamSt11 m ρ c 2 ∗ StreamSt11 m ρ c 3)
      ⊢ wpC c (k0_part19 (Memref.whole cc0_stg0_0) (Memref.isWhole_whole _) (Memref.whole cc0_stg1_0) (Memref.isWhole_whole _) (Memref.whole cc0_scratch0) (Memref.isWhole_whole _) cc0_scratch1 cc0_scratch2 c v65 v97 v161 v307 v566) (fun r => iprop(GSt c 22 ∗ StreamSt15 m ρ c 0 ∗ StreamSt15 m ρ c 1 ∗ StreamSt14 m ρ c 2 ∗ StreamSt11 m ρ c 3)) := by
  rw [k0_part19_eq_skeleton]; unfold k0_part19_skel
  simp only [Prog.lift, Prog.bind_op, Prog.bind_ret, Prog.pure_eq_ret]
  iintro ⟨#HP, HG, H0, H1, H2, H3⟩
  iapply (tr_STORE3 m ρ K c 1 g1 _ (by first | rfl | (subst hv566; rfl))) $$ [H1]
  · isplitr; · iexact HP
    iexact H1
  iintro H1
  iapply (tr_ENQ4 m ρ K c 1 g1 21 (by decide) _ (Chains.dev22_eq_dimOf c)) $$ [HG H1]
  · isplitr; · iexact HP
    isplitl [HG]; · iexact HG
    iexact H1
  iintro ⟨HG, H1⟩
  iapply (tr_WAITS3 m ρ K c 2 g2 22) $$ [HG H2]
  · isplitr; · iexact HP
    isplitl [HG]; · iexact HG
    iexact H2
  iintro ⟨HG, H2⟩
  iapply (tr_WAITR3 m ρ K c 2 g2 22 (by decide)) $$ [HG H2]
  · isplitr; · iexact HP
    isplitl [HG]; · iexact HG
    iexact H2
  iintro ⟨HG, H2⟩
  iapply (tr_LOADm3 m ρ K c 2 g2) $$ [H2]
  · isplitr; · iexact HP
    iexact H2
  iintro H2
  iapply (tr_LOADr3 m ρ K c 2 g2) $$ [H2]
  · isplitr; · iexact HP
    iexact H2
  iintro H2
  iapply (tr_LOADd3 m ρ K c 2 g2) $$ [H2]
  · isplitr; · iexact HP
    iexact H2
  iintro H2
  iapply (tr_STORE3 m ρ K c 2 g2 _ (by first | rfl | (subst hv566; rfl))) $$ [H2]
  · isplitr; · iexact HP
    iexact H2
  iintro H2
  simp only [wp_ret]; imodintro
  isplitl [HG]; · iexact HG
  isplitl [H0]; · iexact H0
  isplitl [H1]; · iexact H1
  isplitl [H2]; · iexact H2
  iexact H3

theorem part20_spec (K : Dev nD × CellK → ℕ) (c : Dev nD) (g0 g1 g2 g3 : Buf (Elt F) (((c : Dev nD) : Thread nD τ).loc cc0_stg1_0)) (v65 : BitVec 32) (v129 : BitVec 32) (v334 : BitVec 32)  :
    iprop(□ Pers m ρ K c ∗ GSt c 22 ∗ StreamSt15 m ρ c 0 ∗ StreamSt15 m ρ c 1 ∗ StreamSt14 m ρ c 2 ∗ StreamSt11 m ρ c 3)
      ⊢ wpC c (k0_part20 (Memref.whole cc0_stg0_0) (Memref.isWhole_whole _) (Memref.whole cc0_stg1_0) (Memref.isWhole_whole _) (Memref.whole cc0_scratch0) (Memref.isWhole_whole _) cc0_scratch1 cc0_scratch2 c v65 v129 v334) (fun r => iprop(GSt c 24 ∗ StreamSt15 m ρ c 0 ∗ StreamSt15 m ρ c 1 ∗ StreamSt15 m ρ c 2 ∗ StreamSt15 m ρ c 3)) := by
  rw [k0_part20_eq_skeleton]; unfold k0_part20_skel
  simp only [Prog.lift, Prog.bind_op, Prog.bind_ret, Prog.pure_eq_ret]
  iintro ⟨#HP, HG, H0, H1, H2, H3⟩
  iapply (tr_ENQ4 m ρ K c 2 g2 22 (by decide) _ (Chains.dev23_eq_dimOf c)) $$ [HG H2]
  · isplitr; · iexact HP
    isplitl [HG]; · iexact HG
    iexact H2
  iintro ⟨HG, H2⟩
  iapply (tr_WAITS3 m ρ K c 3 g3 23) $$ [HG H3]
  · isplitr; · iexact HP
    isplitl [HG]; · iexact HG
    iexact H3
  iintro ⟨HG, H3⟩
  iapply (tr_WAITR3 m ρ K c 3 g3 23 (by decide)) $$ [HG H3]
  · isplitr; · iexact HP
    isplitl [HG]; · iexact HG
    iexact H3
  iintro ⟨HG, H3⟩
  iapply (tr_LOADm3 m ρ K c 3 g3) $$ [H3]
  · isplitr; · iexact HP
    iexact H3
  iintro H3
  iapply (tr_LOADr3 m ρ K c 3 g3) $$ [H3]
  · isplitr; · iexact HP
    iexact H3
  iintro H3
  iapply (tr_LOADd3 m ρ K c 3 g3) $$ [H3]
  · isplitr; · iexact HP
    iexact H3
  iintro H3
  iapply (tr_STORE3 m ρ K c 3 g3 _ rfl) $$ [H3]
  · isplitr; · iexact HP
    iexact H3
  iintro H3
  iapply (tr_ENQ4 m ρ K c 3 g3 23 (by decide) _ (Chains.dev24_eq_dimOf c)) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

/-- info: 'Cert.Kernel.Proto.part20_spec' depends on axioms: [propext, Classical.choice, Quot.sound] -/
#guard_msgs in #print axioms part20_spec

end Cert.Kernel.Proto

end
-- ==== Proof.Bits.PartsD.lean ====
/-
  The printed parts 21–25 of the body, each run from the four streams' phases before it to their phases after it:
  every effect of a part is one transition of the stream it belongs to (or a load, which leaves the phase alone).
-/
import proofs.«900484_g7700000000000485_dist_treered_v7x_i16_m512_n512_f32_1_alg».proof.Proof.Bits.TransEnq
import proofs.«900484_g7700000000000485_dist_treered_v7x_i16_m512_n512_f32_1_alg».proof.Proof.Bits.TransEnq23
import proofs.«900484_g7700000000000485_dist_treered_v7x_i16_m512_n512_f32_1_alg».proof.Proof.Bits.TransEnq45
import proofs.«900484_g7700000000000485_dist_treered_v7x_i16_m512_n512_f32_1_alg».proof.Proof.Bits.TransWait
import proofs.«900484_g7700000000000485_dist_treered_v7x_i16_m512_n512_f32_1_alg».proof.Proof.Bits.TransWaitR45
import proofs.«900484_g7700000000000485_dist_treered_v7x_i16_m512_n512_f32_1_alg».proof.Proof.Bits.TransWaitS
import proofs.«900484_g7700000000000485_dist_treered_v7x_i16_m512_n512_f32_1_alg».proof.Proof.Bits.TransAdd
import proofs.«900484_g7700000000000485_dist_treered_v7x_i16_m512_n512_f32_1_alg».proof.Proof.Bits.PartsDefs
import proofs.«900484_g7700000000000485_dist_treered_v7x_i16_m512_n512_f32_1_alg».proof.Proof.Bits.Chains
import proofs.«900484_g7700000000000485_dist_treered_v7x_i16_m512_n512_f32_1_alg».proof.Proof.Gen.Kernel.Skeleton

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Chains

theorem part21_spec (K : Dev nD × CellK → ℕ) (c : Dev nD) (g0 g1 g2 g3 : Buf (Elt F) (((c : Dev nD) : Thread nD τ).loc cc0_stg1_0)) (v65 : BitVec 32) (v97 : BitVec 32) (v163 : BitVec 32) (v165 : BitVec 32) (v253 : BitVec 32) (v280 : BitVec 32)  :
    iprop(□ Pers m ρ K c ∗ GSt c 24 ∗ StreamSt15 m ρ c 0 ∗ StreamSt15 m ρ c 1 ∗ StreamSt15 m ρ c 2 ∗ StreamSt15 m ρ c 3)
      ⊢ wpC c (k0_part21 (Memref.whole cc0_stg0_0) (Memref.isWhole_whole _) (Memref.whole cc0_stg1_0) (Memref.isWhole_whole _) (Memref.whole cc0_scratch0) (Memref.isWhole_whole _) cc0_scratch1 cc0_scratch2 c v65 v97 v163 v165 v253 v280) (fun r => iprop(GSt c 25 ∗ StreamSt17 m ρ c 0 ∗ StreamSt16 m ρ c 1 ∗ StreamSt15 m ρ c 2 ∗ StreamSt15 m ρ c 3)) := by
  rw [k0_part21_eq_skeleton]; unfold k0_part21_skel
  simp only [Prog.lift, Prog.bind_op, Prog.bind_ret, Prog.pure_eq_ret]
  iintro ⟨#HP, HG, H0, H1, H2, H3⟩
  iapply (tr_WAITR4 m ρ K c 0 g0 24 (by decide)) $$ [HG H0]
  · isplitr; · iexact HP
    isplitl [HG]; · iexact HG
    iexact H0
  iintro ⟨HG, H0⟩
  iapply (tr_ENQ5 m ρ K c 0 g0 24 (by decide) _ (Chains.dev25_eq_dimOf c)) $$ [HG H0]
  · isplitr; · iexact HP
    isplitl [HG]; · iexact HG
    iexact H0
  iintro ⟨HG, H0⟩
  iapply (tr_WAITR4 m ρ K c 1 g1 25 (by decide)) $$ [HG H1]
  · isplitr; · iexact HP
    isplitl [HG]; · iexact HG
    iexact H1
  iintro ⟨HG, H1⟩
  simp only [wp_ret]; imodintro
  isplitl [HG]; · iexact HG
  isplitl [H0]; · iexact H0
  isplitl [H1]; · iexact H1
  isplitl [H2]; · iexact H2
  iexact H3

theorem part22_spec (K : Dev nD × CellK → ℕ) (c : Dev nD) (g0 g1 g2 g3 : Buf (Elt F) (((c : Dev nD) : Thread nD τ).loc cc0_stg1_0)) (v129 : BitVec 32) (v161 : BitVec 32) (v167 : BitVec 32) (v169 : BitVec 32) (v307 : BitVec 32) (v334 : BitVec 32)  :
    iprop(□ Pers m ρ K c ∗ GSt c 25 ∗ StreamSt17 m ρ c 0 ∗ StreamSt16 m ρ c 1 ∗ StreamSt15 m ρ c 2 ∗ StreamSt15 m ρ c 3)
      ⊢ wpC c (k0_part22 (Memref.whole cc0_stg0_0) (Memref.isWhole_whole _) (Memref.whole cc0_stg1_0) (Memref.isWhole_whole _) (Memref.whole cc0_scratch0) (Memref.isWhole_whole _) cc0_scratch1 cc0_scratch2 c v129 v161 v167 v169 v307 v334) (fun r => iprop(GSt c 27 ∗ StreamSt17 m ρ c 0 ∗ StreamSt17 m ρ c 1 ∗ StreamSt17 m ρ c 2 ∗ StreamSt16 m ρ c 3)) := by
  rw [k0_part22_eq_skeleton]; unfold k0_part22_skel
  simp only [Prog.lift, Prog.bind_op, Prog.bind_ret, Prog.pure_eq_ret]
  iintro ⟨#HP, HG, H0, H1, H2, H3⟩
  iapply (tr_ENQ5 m ρ K c 1 g1 25 (by decide) _ (Chains.dev26_eq_dimOf c)) $$ [HG H1]
  · isplitr; · iexact HP
    isplitl [HG]; · iexact HG
    iexact H1
  iintro ⟨HG, H1⟩
  iapply (tr_WAITR4 m ρ K c 2 g2 26 (by decide)) $$ [HG H2]
  · isplitr; · iexact HP
    isplitl [HG]; · iexact HG
    iexact H2
  iintro ⟨HG, H2⟩
  iapply (tr_ENQ5 m ρ K c 2 g2 26 (by decide) _ (Chains.dev27_eq_dimOf c)) $$ [HG H2]
  · isplitr; · iexact HP
    isplitl [HG]; · iexact HG
    iexact H2
  iintro ⟨HG, H2⟩
  iapply (tr_WAITR4 m ρ K c 3 g3 27 (by decide)) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

theorem part23_spec (K : Dev nD × CellK → ℕ) (c : Dev nD) (g0 g1 g2 g3 : Buf (Elt F) (((c : Dev nD) : Thread nD τ).loc cc0_stg1_0)) (v65 : BitVec 32) (v97 : BitVec 32) (v129 : BitVec 32) (v161 : BitVec 32)  :
    iprop(□ Pers m ρ K c ∗ GSt c 27 ∗ StreamSt17 m ρ c 0 ∗ StreamSt17 m ρ c 1 ∗ StreamSt17 m ρ c 2 ∗ StreamSt16 m ρ c 3)
      ⊢ wpC c (k0_part23 (Memref.whole cc0_stg0_0) (Memref.isWhole_whole _) (Memref.whole cc0_stg1_0) (Memref.isWhole_whole _) (Memref.whole cc0_scratch0) (Memref.isWhole_whole _) cc0_scratch1 cc0_scratch2 c v65 v97 v129 v161) (fun r => iprop(GSt c 28 ∗ StreamSt18 m ρ c 0 ∗ StreamSt18 m ρ c 1 ∗ StreamSt18 m ρ c 2 ∗ StreamSt18 m ρ c 3)) := by
  rw [k0_part23_eq_skeleton]; unfold k0_part23_skel
  simp only [Prog.lift, Prog.bind_op, Prog.bind_ret, Prog.pure_eq_ret]
  iintro ⟨#HP, HG, H0, H1, H2, H3⟩
  iapply (tr_ENQ5 m ρ K c 3 g3 27 (by decide) _ (Chains.dev28_eq_dimOf c)) $$ [HG H3]
  · isplitr; · iexact HP
    isplitl [HG]; · iexact HG
    iexact H3
  iintro ⟨HG, H3⟩
  iapply (tr_WAITR5 m ρ K c 0 g0 28 (by decide)) $$ [HG H0]
  · isplitr; · iexact HP
    isplitl [HG]; · iexact HG
    iexact H0
  iintro ⟨HG, H0⟩
  iapply (tr_WAITR5 m ρ K c 1 g1 28 (by decide)) $$ [HG H1]
  · isplitr; · iexact HP
    isplitl [HG]; · iexact HG
    iexact H1
  iintro ⟨HG, H1⟩
  iapply (tr_WAITR5 m ρ K c 2 g2 28 (by decide)) $$ [HG H2]
  · isplitr; · iexact HP
    isplitl [HG]; · iexact HG
    iexact H2
  iintro ⟨HG, H2⟩
  iapply (tr_WAITR5 m ρ K c 3 g3 28 (by decide)) $$ [HG H3]
  · isplitr; · iexact HP
    isplitl [HG]; · iexact HG
    iexact H3
  iintro ⟨HG, H3⟩
  simp only [wp_ret]; imodintro
  isplitl [HG]; · iexact HG
  isplitl [H0]; · iexact H0
  isplitl [H1]; · iexact H1
  isplitl [H2]; · iexact H2
  iexact H3

theorem part24_spec (K : Dev nD × CellK → ℕ) (c : Dev nD) (g0 g1 g2 g3 : Buf (Elt F) (((c : Dev nD) : Thread nD τ).loc cc0_stg1_0))   :
    iprop(□ Pers m ρ K c ∗ GSt c 28 ∗ StreamSt18 m ρ c 0 ∗ StreamSt18 m ρ c 1 ∗ StreamSt18 m ρ c 2 ∗ StreamSt18 m ρ c 3)
      ⊢ wpC c (k0_part24 (Memref.whole cc0_stg0_0) (Memref.isWhole_whole _) (Memref.whole cc0_stg1_0) (Memref.isWhole_whole _) (Memref.whole cc0_scratch0) (Memref.isWhole_whole _) cc0_scratch1 cc0_scratch2 c) (fun r => iprop(GSt c 28 ∗ StreamSt20 m ρ c 0 ∗ StreamSt19 m ρ c 1 ∗ StreamSt19 m ρ c 2 ∗ StreamSt19 m ρ c 3)) := by
  rw [k0_part24_eq_skeleton]; unfold k0_part24_skel
  simp only [Prog.lift, Prog.bind_op, Prog.bind_ret, Prog.pure_eq_ret]
  iintro ⟨#HP, HG, H0, H1, H2, H3⟩
  iapply (tr_WAITS0 m ρ K c 0 g0 28) $$ [HG H0]
  · isplitr; · iexact HP
    isplitl [HG]; · iexact HG
    iexact H0
  iintro ⟨HG, H0⟩
  iapply (tr_WAITS0 m ρ K c 1 g1 28) $$ [HG H1]
  · isplitr; · iexact HP
    isplitl [HG]; · iexact HG
    iexact H1
  iintro ⟨HG, H1⟩
  iapply (tr_WAITS0 m ρ K c 2 g2 28) $$ [HG H2]
  · isplitr; · iexact HP
    isplitl [HG]; · iexact HG
    iexact H2
  iintro ⟨HG, H2⟩
  iapply (tr_WAITS0 m ρ K c 3 g3 28) $$ [HG H3]
  · isplitr; · iexact HP
    isplitl [HG]; · iexact HG
    iexact H3
  iintro ⟨HG, H3⟩
  iapply (tr_WAITS1 m ρ K c 0 g0 28) $$ [HG H0]
  · isplitr; · iexact HP
    isplitl [HG]; · iexact HG
    iexact H0
  iintro ⟨HG, H0⟩
  simp only [wp_ret]; imodintro
  isplitl [HG]; · iexact HG
  isplitl [H0]; · iexact H0
  isplitl [H1]; · iexact H1
  isplitl [H2]; · iexact H2
  iexact H3

theorem part25_spec (K : Dev nD × CellK → ℕ) (c : Dev nD) (g0 g1 g2 g3 : Buf (Elt F) (((c : Dev nD) : Thread nD τ).loc cc0_stg1_0))   :
    iprop(□ Pers m ρ K c ∗ GSt c 28 ∗ StreamSt20 m ρ c 0 ∗ StreamSt19 m ρ c 1 ∗ StreamSt19 m ρ c 2 ∗ StreamSt19 m ρ c 3)
      ⊢ wpC c (k0_part25 (Memref.whole cc0_stg0_0) (Memref.isWhole_whole _) (Memref.whole cc0_stg1_0) (Memref.isWhole_whole _) (Memref.whole cc0_scratch0) (Memref.isWhole_whole _) cc0_scratch1 cc0_scratch2 c) (fun r => iprop(GSt c 28 ∗ StreamSt21 m ρ c 0 ∗ StreamSt21 m ρ c 1 ∗ StreamSt20 m ρ c 2 ∗ StreamSt20 m ρ c 3)) := by
  rw [k0_part25_eq_skeleton]; unfold k0_part25_skel
  simp only [Prog.lift, Prog.bind_op, Prog.bind_ret, Prog.pure_eq_ret]
  iintro ⟨#HP, HG, H0, H1, H2, H3⟩
  iapply (tr_WAITS1 m ρ K c 1 g1 28) $$ [HG H1]
  · isplitr; · iexact HP
    isplitl [HG]; · iexact HG
    iexact H1
  iintro ⟨HG, H1⟩
  iapply (tr_WAITS1 m ρ K c 2 g2 28) $$ [HG H2]
  · isplitr; · iexact HP
    isplitl [HG]; · iexact HG
    iexact H2
  iintro ⟨HG, H2⟩
  iapply (tr_WAITS1 m ρ K c 3 g3 28) $$ [HG H3]
  · isplitr; · iexact HP
    isplitl [HG]; · iexact HG
    iexact H3
  iintro ⟨HG, H3⟩
  iapply (tr_WAITS4 m ρ K c 0 g0 28) $$ [HG H0]
  · isplitr; · iexact HP
    isplitl [HG]; · iexact HG
    iexact H0
  iintro ⟨HG, H0⟩
  iapply (tr_WAITS4 m ρ K c 1 g1 28) $$ [HG H1]
  · isplitr; · iexact HP
    isplitl [HG]; · iexact HG
    iexact H1
  iintro ⟨HG, H1⟩
  simp only [wp_ret]; imodintro
  isplitl [HG]; · iexact HG
  isplitl [H0]; · iexact H0
  isplitl [H1]; · iexact H1
  isplitl [H2]; · iexact H2
  iexact H3

/-- info: 'Cert.Kernel.Proto.part25_spec' depends on axioms: [propext, Classical.choice, Quot.sound] -/
#guard_msgs in #print axioms part25_spec

end Cert.Kernel.Proto

end
-- ==== Proof.Bits.EntryPart.lean ====
/-
  The entry of a device's body, up to and including the barrier.

  The body starts from the launch's ghost state, what the device owes in full, and its three buffers. It signals the
  barrier cell of each of its four partners, handing the partner along dimension `b` the rows that partner will
  write: of the receive buffer the rows of the four slots that go along `b`, of `out` the half of stream `b`'s rows
  the device does not keep. Then it waits for the four units its partners pay and receives the same of theirs.
  Regrouped by stream, that is what each stream's first phase lists.
-/
import proofs.«900484_g7700000000000485_dist_treered_v7x_i16_m512_n512_f32_1_alg».proof.Proof.Bits.Entry
import proofs.«900484_g7700000000000485_dist_treered_v7x_i16_m512_n512_f32_1_alg».proof.Proof.Bits.PartsDefs
import proofs.«900484_g7700000000000485_dist_treered_v7x_i16_m512_n512_f32_1_alg».proof.Proof.Gen.Kernel.Skeleton
import proofs.«900484_g7700000000000485_dist_treered_v7x_i16_m512_n512_f32_1_alg».proof.Proof.Bits.Chains
import proofs.«900484_g7700000000000485_dist_treered_v7x_i16_m512_n512_f32_1_alg».proof.Proof.Bits.StepsSync
import proofs.«900484_g7700000000000485_dist_treered_v7x_i16_m512_n512_f32_1_alg».proof.Proof.Bits.Regions

noncomputable section

namespace Cert.Kernel.Proto

open Cert.Kernel
open Cert.Kernel.Gen
open Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body holds at entry -/

/-- What the device holds when its body starts, with the persistent part set aside: what it owes in full, the barrier's
    duty tokens, position and launch credit, each stream's thirty atoms, and the three buffers whole. -/
def EntrySt (c : Dev nD) (g : Buf (Elt F) (((c : Dev nD) : Thread nD τ).loc cc0_stg1_0))
    (f : Buf (Elt F) (((c : Dev nD) : Thread nD τ).loc cc0_scratch0)) : sProp 𝕄 :=
  iprop(GSt c 0
    ∗ (dutyTok ER (barCell (partner 0 c)) 0 (0 : Fin 4) ∗ dutyTok ER (barCell (partner 1 c)) 0 (1 : Fin 4)
        ∗ dutyTok ER (barCell (partner 2 c)) 0 (2 : Fin 4) ∗ dutyTok ER (barCell (partner 3 c)) 0 (3 : Fin 4))
    ∗ atPos ER (barCell c) 0 ∅ 0 ∗ cred (tallyAt (barCell c) () 4)
    ∗ slotAtoms c 0 ∗ slotAtoms c 1 ∗ slotAtoms c 2 ∗ slotAtoms c 3
    ∗ (((c : Thread nD τ).loc cc0_stg0_0) ↦{fullShare} xstg m ρ c)
    ∗ (((c : Thread nD τ).loc cc0_stg1_0) ↦{fullShare} g)
    ∗ (((c : Thread nD τ).loc cc0_scratch0) ↦{fullShare} f))

/-- From what the body obligation hands the body: `x` is staged at the device's block, `out` and the receive buffer
    hold whatever they hold. -/
theorem body_entry (c : Dev nD) : bodyPre m ρ c ⊢ iprop(∃ K g f, □ Pers m ρ K c ∗ EntrySt m ρ c g f) := by
  unfold bodyPre Φ₀
  iintro ⟨⟨Hstart, %f, Hscr⟩, Ho, ⟨%d0, %g0, %hg0, Hx⟩, ⟨%d1, %g1, %hg1, Hout⟩⟩
  have hx : g0 = xstg m ρ c := by rw [hg0]; unfold Dat.before; rw [if_pos (fetch0_0 t₀)]; rfl
  subst hx
  ihave Hs := (start_split m ρ c) $$ Hstart
  icases Hs with ⟨%K, #HP, Htb, Hpb, Hcb, S0, S1, S2, S3⟩
  unfold Dat.owesAt Pipeline.owesWithin
  icases Ho with ⟨%W, %hW, HO⟩
  iexists K, g1, f
  isplitr
  · imodintro; iexact HP
  unfold EntrySt
  isplitl [HO]; · iexists W; iexact HO
  isplitl [Htb]; · iexact Htb
  isplitl [Hpb]; · iexact Hpb
  isplitl [Hcb]; · iexact Hcb
  isplitl [S0]; · iexact S0
  isplitl [S1]; · iexact S1
  isplitl [S2]; · iexact S2
  isplitl [S3]; · iexact S3
  isplitl [Hx]; · iexact Hx
  isplitl [Hout]; · iexact Hout
  iexact Hscr

/-! ## The entry of the body: the barrier -/

/-- The four barrier signals and the barrier wait. The device hands each partner the rows of its receive buffer and of
    `out` that partner will write, and gets from each partner the same of theirs; after the wait every stream holds
    what its first phase lists. -/
theorem part5_spec (K : Dev nD × CellK → ℕ) (c : Dev nD) (g : Buf (Elt F) (((c : Dev nD) : Thread nD τ).loc cc0_stg1_0))
    (f : Buf (Elt F) (((c : Dev nD) : Thread nD τ).loc cc0_scratch0)) (v33 v65 v97 v129 v140 v158 : BitVec 32) :
    iprop(□ Pers m ρ K c ∗ EntrySt m ρ c g f)
      ⊢ wpC c (k0_part5 (Memref.whole cc0_stg0_0) (Memref.isWhole_whole _) (Memref.whole cc0_stg1_0) (Memref.isWhole_whole _)
          (Memref.whole cc0_scratch0) (Memref.isWhole_whole _) cc0_scratch1 cc0_scratch2 c v33 v65 v97 v129 v140 v158)
        (fun _ => iprop(GSt c 4 ∗ StreamSt0 m ρ c 0 g ∗ StreamSt0 m ρ c 1 g ∗ StreamSt0 m ρ c 2 g ∗ StreamSt0 m ρ c 3 g)) := by
  rw [k0_part5_eq_skeleton]; unfold k0_part5_skel
  simp only [semSignalWord, semWaitWord, Prog.lift, Prog.bind_op, Prog.bind_ret, Prog.pure_eq_ret]
  unfold EntrySt
  iintro ⟨#HP, ⟨%W, HO⟩, ⟨Ht0, Ht1, Ht2, Ht3⟩, Hpb, Hcb, S0, S1, S2, S3, Hx, Hout, Hscr⟩
  icases HP with ⟨#Hinv, #Hmarks, #Hlev⟩
  ihave HB := (entry_barPays c f g) $$ [Hscr Hout]
  · isplitl [Hscr]; · iexact Hscr
    iexact Hout
  icases HB with ⟨B0, B1, B2, B3, OH0, OH1, OH2, OH3⟩
  ihave HX := (Entails.of_eq (x_entry m ρ c)) $$ Hx
  icases HX with ⟨⟨XG0, XK0⟩, ⟨XG1, XK1⟩, ⟨XG2, XK2⟩, ⟨XG3, XK3⟩⟩
  iapply (step_signal m ρ K c 0 _ (Chains.dev1_eq c) (owedFrom_0 c)) $$ [HO Ht0 B0]
  · isplitr; · iapply (invs_bar m ρ K c 0); iexact Hinv
    isplitr; · iapply (marks_bar c 0); iexact Hmarks
    isplitl [HO]; · iexact HO
    isplitl [Ht0]; · iexact Ht0
    iexact B0
  iintro HO
  iapply (step_signal m ρ K c 1 _ (Chains.dev2_eq c) (owedFrom_1 c)) $$ [HO Ht1 B1]
  · isplitr; · iapply (invs_bar m ρ K c 1); iexact Hinv
    isplitr; · iapply (marks_bar c 1); iexact Hmarks
    isplitl [HO]; · iexact HO
    isplitl [Ht1]; · iexact Ht1
    iexact B1
  iintro HO
  iapply (step_signal m ρ K c 2 _ (Chains.dev3_eq c) (owedFrom_2 c)) $$ [HO Ht2 B2]
  · isplitr; · iapply (invs_bar m ρ K c 2); iexact Hinv
    isplitr; · iapply (marks_bar c 2); iexact Hmarks
    isplitl [HO]; · iexact HO
    isplitl [Ht2]; · iexact Ht2
    iexact B2
  iintro HO
  iapply (step_signal m ρ K c 3 _ (Chains.dev4_eq c) (owedFrom_3 c)) $$ [HO Ht3 B3]
  · isplitr; · iapply (invs_bar m ρ K c 3); iexact Hinv
    isplitr; · iapply (marks_bar c 3); iexact Hmarks
    isplitl [HO]; · iexact HO
    isplitl [Ht3]; · iexact Ht3
    iexact B3
  iintro HO
  iapply (step_wait_bar m ρ K c) $$ [Hcb Hpb HO]
  · isplitr; · iapply (invs_own m ρ K c .bar); iexact Hinv
    isplitr; · iapply (mayWait_bar c); iexact Hlev
    isplitl [Hcb]; · iexact Hcb
    isplitl [Hpb]; · iexact Hpb
    iexact HO
  iintro ⟨HO, -, -, P0, P1, P2, P3⟩
  ihave HR := (barPays_elim (F := F) c) $$ [P0 P1 P2 P3]
  · isplitl [P0]; · iexact P0
    isplitl [P1]; · iexact P1
    isplitl [P2]; · iexact P2
    iexact P3
  icases HR with ⟨⟨R00, R01, R02, R03, Q0⟩, ⟨R10, R11, R12, R13, Q1⟩, ⟨R20, R21, R22, R23, Q2⟩, ⟨R30, R31, R32, R33, Q3⟩⟩
  dsimp only [wpC]
  rw [wp_ret]
  imodintro
  isplitl [HO]; · iexists _; iexact HO
  isplitl [S0 XG0 XK0 OH0 R00 R01 R02 R03 Q0]
  · iapply (streamSt0_intro m ρ c 0 g)
    rw [own_oHalf']
    isplitl [S0]; · iexact S0
    isplitl [XG0]; · iexact XG0
    isplitl [XK0]; · iexact XK0
    isplitl [OH0]; · iexact OH0
    isplitl [R00]; · iexact R00
    isplitl [R01]; · iexact R01
    isplitl [R02]; · iexact R02
    isplitl [R03]; · iexact R03
    iexact Q0
  isplitl [S1 XG1 XK1 OH1 R10 R11 R12 R13 Q1]
  · iapply (streamSt0_intro m ρ c 1 g)
    rw [own_oHalf']
    isplitl [S1]; · iexact S1
    isplitl [XG1]; · iexact XG1
    isplitl [XK1]; · iexact XK1
    isplitl [OH1]; · iexact OH1
    isplitl [R10]; · iexact R10
    isplitl [R11]; · iexact R11
    isplitl [R12]; · iexact R12
    isplitl [R13]; · iexact R13
    iexact Q1
  isplitl [S2 XG2 XK2 OH2 R20 R21 R22 R23 Q2]
  · iapply (streamSt0_intro m ρ c 2 g)
    rw [own_oHalf']
    isplitl [S2]; · iexact S2
    isplitl [XG2]; · iexact XG2
    isplitl [XK2]; · iexact XK2
    isplitl [OH2]; · iexact OH2
    isplitl [R20]; · iexact R20
    isplitl [R21]; · iexact R21
    isplitl [R22]; · iexact R22
    isplitl [R23]; · iexact R23
    iexact Q2
  iapply (streamSt0_intro m ρ c 3 g)
  rw [own_oHalf']
  isplitl [S3]; · iexact S3
  isplitl [XG3]; · iexact XG3
  isplitl [XK3]; · iexact XK3
  isplitl [OH3]; · iexact OH3
  isplitl [R30]; · iexact R30
  isplitl [R31]; · iexact R31
  isplitl [R32]; · iexact R32
  isplitl [R33]; · iexact R33
  iexact Q3

/-- info: 'Cert.Kernel.Proto.part5_spec' depends on axioms: [propext, Classical.choice, Quot.sound] -/
#guard_msgs in #print axioms part5_spec

/-- info: 'Cert.Kernel.Proto.body_entry' depends on axioms: [propext, Classical.choice, Quot.sound] -/
#guard_msgs in #print axioms body_entry

end Cert.Kernel.Proto

end
-- ==== Proof.Bits.Exit.lean ====
/-
  Leaving the exchange.

  When a stream's last step is done the device stands, on each of the stream's twelve own cells, at round 1 with
  nothing taken and nothing consumed; no later round has a duty, so each cell closes and hands back its counter at
  zero. What the device then holds of `out` for the stream, two halves of the share of the kept half and the other
  share of its two quarters, is the kept half whole. The four streams' pieces make up the three buffers whole.
-/
import proofs.«900484_g7700000000000485_dist_treered_v7x_i16_m512_n512_f32_1_alg».proof.Proof.Bits.Stream
import proofs.«900484_g7700000000000485_dist_treered_v7x_i16_m512_n512_f32_1_alg».proof.Proof.Bits.Tables
import proofs.«900484_g7700000000000485_dist_treered_v7x_i16_m512_n512_f32_1_alg».proof.Proof.Bits.Regions

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's own cells close -/

/-- The invariant of one of the device's own send cells, out of the invariants it holds. -/
theorem exit_inv_send (K : Dev nD × CellK → ℕ) (c : Dev nD) (s : Fin 4) (t : Fin 6) :
    invs m ρ K c ⊢ cellInv ER (cubeRd m ρ) (K (c, .send s t)) (sendCell c s t) := by
  unfold invs
  exact (BI.sep_and.trans BI.and_elimL).trans (bigSep_elim (Finset.mem_univ (CellK.send s t)))

/-- The invariant of one of its own receive cells. -/
theorem exit_inv_recv (K : Dev nD × CellK → ℕ) (c : Dev nD) (s : Fin 4) (t : Fin 6) :
    invs m ρ K c ⊢ cellInv ER (cubeRd m ρ) (K (c, .recv s t)) (recvCell c s t) := by
  unfold invs
  exact (BI.sep_and.trans BI.and_elimL).trans (bigSep_elim (Finset.mem_univ (CellK.recv s t)))

/-- A send cell at round 1, nothing taken: no round from 1 on has a duty, the cell closes, its counter reads zero. -/
theorem exit_close_send (K : Dev nD × CellK → ℕ) (c : Dev nD) (s : Fin 4) (t : Fin 6) :
    iprop(invs m ρ K c ∗ atPos ER (sendCell c s t) (0 + 1) ∅ 0) ⊢ (|={Set.univ}=> semVal (sendCell c s t) 0 : sProp 𝕄) :=
  (sep_mono (exit_inv_send m ρ K c s t) .rfl).trans
    (Rounds.cell_close ER (cubeRd m ρ) (Set.mem_univ (K (c, .send s t))) (fun h => h) (R := 0 + 1) (duties_later m ρ (sendCell c s t)))

/-- The same for a receive cell. -/
theorem exit_close_recv (K : Dev nD × CellK → ℕ) (c : Dev nD) (s : Fin 4) (t : Fin 6) :
    iprop(invs m ρ K c ∗ atPos ER (recvCell c s t) (0 + 1) ∅ 0) ⊢ (|={Set.univ}=> semVal (recvCell c s t) 0 : sProp 𝕄) :=
  (sep_mono (exit_inv_recv m ρ K c s t) .rfl).trans
    (Rounds.cell_close ER (cubeRd m ρ) (Set.mem_univ (K (c, .recv s t))) (fun h => h) (R := 0 + 1) (duties_later m ρ (recvCell c s t)))

/-! ## A stream's exit -/

/-- What a device holds of stream `s` when the stream's cells are closed. -/
def StreamEnd (c : Dev nD) (s : Fin 4) : sProp 𝕄 :=
  iprop((semVal (sendCell c s 0) 0 ∗ semVal (recvCell c s 0) 0 ∗ semVal (sendCell c s 1) 0 ∗ semVal (recvCell c s 1) 0
      ∗ semVal (sendCell c s 2) 0 ∗ semVal (recvCell c s 2) 0 ∗ semVal (sendCell c s 3) 0 ∗ semVal (recvCell c s 3) 0
      ∗ semVal (sendCell c s 4) 0 ∗ semVal (recvCell c s 4) 0 ∗ semVal (sendCell c s 5) 0 ∗ semVal (recvCell c s 5) 0)
    ∗ XG m ρ c s ∗ XK m ρ c s ∗ RV0 m ρ c s ∗ RV m ρ c s 1 (.inl rfl) ∗ RV m ρ c s 2 (.inr (.inl rfl)) ∗ RV m ρ c s 3 (.inr (.inr rfl))
    ∗ own (oHalf c s) c fullShare (outFinal m ρ c) ∗ own (oHalf (peer s 5 c) s) c fullShare (outFinal m ρ c))

/-- The stream's twelve cells close one after the other under the update; the pieces of the kept half of `out` are joined by
    `hjoin`. -/
theorem stream_exit_of (K : Dev nD × CellK → ℕ) (c : Dev nD) (s : Fin 4)
    (hjoin : iprop(own (oHalf c s) c fullShare.left.left (outFinal m ρ c) ∗ own (oHalf c s) c fullShare.left.right (outFinal m ρ c)
        ∗ own (oKeep c s) c fullShare.right (outFinal m ρ c) ∗ own (oGive c s) c fullShare.right (outFinal m ρ c))
      ⊢ (own (oHalf c s) c fullShare (outFinal m ρ c) : sProp 𝕄)) :
    iprop(□ (invs m ρ K c ∗ marks c ∗ levAts L lv) ∗ StreamSt22 m ρ c s) ⊢ (|={Set.univ}=> StreamEnd m ρ c s : sProp 𝕄) := by
  unfold StreamSt22 StreamEnd
  iintro ⟨#⟨Hinv, -, -⟩, HXK, Hr0, HRV0, Hr1, HRV1, Hs2, Hr2, HRV2, Hs3, Hr3, HRV3, Hr4, HoLL, HoG, Hr5, HoP, Hs0, HXG, Hs1, Hs4, HoK, Hs5, HoLR⟩
  imod (exit_close_send m ρ K c s 0) $$ [Hs0] with Zs0
  · isplitr; · iexact Hinv
    iexact Hs0
  imod (exit_close_recv m ρ K c s 0) $$ [Hr0] with Zr0
  · isplitr; · iexact Hinv
    iexact Hr0
  imod (exit_close_send m ρ K c s 1) $$ [Hs1] with Zs1
  · isplitr; · iexact Hinv
    iexact Hs1
  imod (exit_close_recv m ρ K c s 1) $$ [Hr1] with Zr1
  · isplitr; · iexact Hinv
    iexact Hr1
  imod (exit_close_send m ρ K c s 2) $$ [Hs2] with Zs2
  · isplitr; · iexact Hinv
    iexact Hs2
  imod (exit_close_recv m ρ K c s 2) $$ [Hr2] with Zr2
  · isplitr; · iexact Hinv
    iexact Hr2
  imod (exit_close_send m ρ K c s 3) $$ [Hs3] with Zs3
  · isplitr; · iexact Hinv
    iexact Hs3
  imod (exit_close_recv m ρ K c s 3) $$ [Hr3] with Zr3
  · isplitr; · iexact Hinv
    iexact Hr3
  imod (exit_close_send m ρ K c s 4) $$ [Hs4] with Zs4
  · isplitr; · iexact Hinv
    iexact Hs4
  imod (exit_close_recv m ρ K c s 4) $$ [Hr4] with Zr4
  · isplitr; · iexact Hinv
    iexact Hr4
  imod (exit_close_send m ρ K c s 5) $$ [Hs5] with Zs5
  · isplitr; · iexact Hinv
    iexact Hs5
  imod (exit_close_recv m ρ K c s 5) $$ [Hr5] with Zr5
  · isplitr; · iexact Hinv
    iexact Hr5
  ihave Hout := hjoin $$ [HoLL HoLR HoK HoG]
  · isplitl [HoLL]; · iexact HoLL
    isplitl [HoLR]; · iexact HoLR
    isplitl [HoK]; · iexact HoK
    iexact HoG
  imodintro
  iframe

/-! ## The body's exit -/

/-- The twenty-four slots, stream by stream. -/
theorem exit_bigSep_slot (Φ : Slot → sProp 𝕄) :
    bigSep Finset.univ Φ = iprop(Φ (0,0) ∗ Φ (0,1) ∗ Φ (0,2) ∗ Φ (0,3) ∗ Φ (0,4) ∗ Φ (0,5) ∗ Φ (1,0) ∗ Φ (1,1) ∗ Φ (1,2) ∗ Φ (1,3) ∗ Φ (1,4) ∗ Φ (1,5) ∗ Φ (2,0) ∗ Φ (2,1) ∗ Φ (2,2) ∗ Φ (2,3) ∗ Φ (2,4) ∗ Φ (2,5) ∗ Φ (3,0) ∗ Φ (3,1) ∗ Φ (3,2) ∗ Φ (3,3) ∗ Φ (3,4) ∗ Φ (3,5)) :=
  bigSep_univ_eq_bigSepL [(0,0), (0,1), (0,2), (0,3), (0,4), (0,5), (1,0), (1,1), (1,2), (1,3), (1,4), (1,5), (2,0), (2,1), (2,2), (2,3), (2,4), (2,5), (3,0), (3,1), (3,2), (3,3), (3,4), (3,5)] (by decide) (by decide) Φ

/-- The four streams' ends make up what the body returns: the forty-eight counters at zero slot by slot, and each of
    the three buffers whole, joined from the streams' pieces by `hx`, `hout`, `hrecv`. -/
theorem body_exit_of (c : Dev nD)
    (hx : iprop((XG m ρ c 0 ∗ XK m ρ c 0) ∗ (XG m ρ c 1 ∗ XK m ρ c 1) ∗ (XG m ρ c 2 ∗ XK m ρ c 2) ∗ (XG m ρ c 3 ∗ XK m ρ c 3))
      ⊢ ((((c : Thread nD τ).loc cc0_stg0_0) ↦{fullShare} xstg m ρ c) : sProp 𝕄))
    (hout : iprop((own (oHalf c 0) c fullShare (outFinal m ρ c) ∗ own (oHalf (peer 0 5 c) 0) c fullShare (outFinal m ρ c))
        ∗ (own (oHalf c 1) c fullShare (outFinal m ρ c) ∗ own (oHalf (peer 1 5 c) 1) c fullShare (outFinal m ρ c))
        ∗ (own (oHalf c 2) c fullShare (outFinal m ρ c) ∗ own (oHalf (peer 2 5 c) 2) c fullShare (outFinal m ρ c))
        ∗ (own (oHalf c 3) c fullShare (outFinal m ρ c) ∗ own (oHalf (peer 3 5 c) 3) c fullShare (outFinal m ρ c)))
      ⊢ ((((c : Thread nD τ).loc cc0_stg1_0) ↦{fullShare} outFinal m ρ c) : sProp 𝕄))
    (hrecv : iprop((RV0 m ρ c 0 ∗ RV m ρ c 0 1 (.inl rfl) ∗ RV m ρ c 0 2 (.inr (.inl rfl)) ∗ RV m ρ c 0 3 (.inr (.inr rfl)))
        ∗ (RV0 m ρ c 1 ∗ RV m ρ c 1 1 (.inl rfl) ∗ RV m ρ c 1 2 (.inr (.inl rfl)) ∗ RV m ρ c 1 3 (.inr (.inr rfl)))
        ∗ (RV0 m ρ c 2 ∗ RV m ρ c 2 1 (.inl rfl) ∗ RV m ρ c 2 2 (.inr (.inl rfl)) ∗ RV m ρ c 2 3 (.inr (.inr rfl)))
        ∗ (RV0 m ρ c 3 ∗ RV m ρ c 3 1 (.inl rfl) ∗ RV m ρ c 3 2 (.inr (.inl rfl)) ∗ RV m ρ c 3 3 (.inr (.inr rfl))))
      ⊢ ((((c : Thread nD τ).loc cc0_scratch0) ↦{fullShare} recvFinal m ρ c) : sProp 𝕄)) :
    iprop(StreamEnd m ρ c 0 ∗ StreamEnd m ρ c 1 ∗ StreamEnd m ρ c 2 ∗ StreamEnd m ρ c 3)
      ⊢ iprop(Φ₁ m ρ c ∗ (((c : Thread nD τ).loc cc0_stg0_0) ↦{fullShare} xstg m ρ c)
          ∗ (((c : Thread nD τ).loc cc0_stg1_0) ↦{fullShare} outFinal m ρ c)) := by
  unfold StreamEnd Φ₁
  rw [exit_bigSep_slot]
  iintro ⟨⟨⟨Zs00, Zr00, Zs01, Zr01, Zs02, Zr02, Zs03, Zr03, Zs04, Zr04, Zs05, Zr05⟩, HXG0, HXK0, HRa0, HRb0, HRc0, HRd0, HoH0, HoP0⟩, ⟨⟨Zs10, Zr10, Zs11, Zr11, Zs12, Zr12, Zs13, Zr13, Zs14, Zr14, Zs15, Zr15⟩, HXG1, HXK1, HRa1, HRb1, HRc1, HRd1, HoH1, HoP1⟩, ⟨⟨Zs20, Zr20, Zs21, Zr21, Zs22, Zr22, Zs23, Zr23, Zs24, Zr24, Zs25, Zr25⟩, HXG2, HXK2, HRa2, HRb2, HRc2, HRd2, HoH2, HoP2⟩, ⟨⟨Zs30, Zr30, Zs31, Zr31, Zs32, Zr32, Zs33, Zr33, Zs34, Zr34, Zs35, Zr35⟩, HXG3, HXK3, HRa3, HRb3, HRc3, HRd3, HoH3, HoP3⟩⟩
  ihave Hx := hx $$ [HXG0 HXK0 HXG1 HXK1 HXG2 HXK2 HXG3 HXK3]
  · iframe
  ihave Ho := hout $$ [HoH0 HoP0 HoH1 HoP1 HoH2 HoP2 HoH3 HoP3]
  · iframe
  ihave Hr := hrecv $$ [HRa0 HRb0 HRc0 HRd0 HRa1 HRb1 HRc1 HRd1 HRa2 HRb2 HRc2 HRd2 HRa3 HRb3 HRc3 HRd3]
  · iframe
  iframe

/-! ## With the buffers' cuts -/

theorem stream_exit (K : Dev nD × CellK → ℕ) (c : Dev nD) (s : Fin 4) :
    iprop(□ (invs m ρ K c ∗ marks c ∗ levAts L lv) ∗ StreamSt22 m ρ c s) ⊢ (|={Set.univ}=> StreamEnd m ρ c s : sProp 𝕄) :=
  stream_exit_of m ρ K c s (Entails.of_eq (oHalf_rejoin c c s fullShare (outFinal m ρ c)))

theorem body_exit (c : Dev nD) :
    iprop(StreamEnd m ρ c 0 ∗ StreamEnd m ρ c 1 ∗ StreamEnd m ρ c 2 ∗ StreamEnd m ρ c 3)
      ⊢ iprop(Φ₁ m ρ c ∗ (((c : Thread nD τ).loc cc0_stg0_0) ↦{fullShare} xstg m ρ c)
          ∗ (((c : Thread nD τ).loc cc0_stg1_0) ↦{fullShare} outFinal m ρ c)) :=
  body_exit_of m ρ c (x_exit m ρ c) (out_exit m ρ c) (recv_exit m ρ c)

/-- info: 'Cert.Kernel.Proto.stream_exit' depends on axioms: [propext, Classical.choice, Quot.sound] -/
#guard_msgs in #print axioms stream_exit

/-- info: 'Cert.Kernel.Proto.body_exit' depends on axioms: [propext, Classical.choice, Quot.sound] -/
#guard_msgs in #print axioms body_exit

end Cert.Kernel.Proto

end
-- ==== Proof.Bits.Body.lean ====
/-
  The body of the kernel on one device, from what the pipeline hands it to what it must return.

  The printed body is 26 parts in sequence and two more send waits. Part 1 reads the device id, parts 2–4 compute
  words, part 5 is the barrier; from there every effect belongs to one of the four streams and moves that stream
  one step along its phases (PartsA–PartsD). At the end each stream's twelve cells stand consumed and are closed,
  and the pieces of the three buffers are joined again: `x` as staged, `out` at the tree sum, the receive buffer at
  what landed.
-/
import proofs.«900484_g7700000000000485_dist_treered_v7x_i16_m512_n512_f32_1_alg».proof.Proof.Bits.PartsA
import proofs.«900484_g7700000000000485_dist_treered_v7x_i16_m512_n512_f32_1_alg».proof.Proof.Bits.PartsB
import proofs.«900484_g7700000000000485_dist_treered_v7x_i16_m512_n512_f32_1_alg».proof.Proof.Bits.PartsC
import proofs.«900484_g7700000000000485_dist_treered_v7x_i16_m512_n512_f32_1_alg».proof.Proof.Bits.PartsD
import proofs.«900484_g7700000000000485_dist_treered_v7x_i16_m512_n512_f32_1_alg».proof.Proof.Bits.EntryPart
import proofs.«900484_g7700000000000485_dist_treered_v7x_i16_m512_n512_f32_1_alg».proof.Proof.Bits.Exit
import proofs.«900484_g7700000000000485_dist_treered_v7x_i16_m512_n512_f32_1_alg».proof.Proof.Bits.Waits

noncomputable section

namespace Cert.Kernel.Proto

open Cert.Kernel Cert.Kernel.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Kernel.Chains

/-- Sequencing: a part's specification, then the rest of the program from the part's post. -/
theorem wp_seq {c : Dev nD} {α : Type} {p : Prog (TpuEff nD τ sig (Elt F) Λ₀ .tc) α} {P : sProp 𝕄} {Q : α → sProp 𝕄} {Q' : α → sProp 𝕄}
    (h : P ⊢ wpC c p Q) : iprop(P ∗ (∀ a, Q a -∗ Q' a)) ⊢ wpC c p Q' :=
  (sep_mono_left h).trans (wp_wand_r _ _ _)

/-- The first part reads the device id and computes words: it changes nothing, and names the device. -/
theorem part1_spec (c : Dev nD) (P : sProp 𝕄) :
    P ⊢ wpC c (k0_part1 (Memref.whole cc0_stg0_0) (Memref.isWhole_whole _) (Memref.whole cc0_stg1_0) (Memref.isWhole_whole _) (Memref.whole cc0_scratch0) (Memref.isWhole_whole _) cc0_scratch1 cc0_scratch2) (fun r => iprop(⌜r.1 = c⌝ ∗ P)) := by
  rw [k0_part1_eq_skeleton]; unfold k0_part1_skel
  simp only [Prog.lift, Prog.bind_op, Prog.bind_ret, Prog.pure_eq_ret, wp_deviceId, wp_ret]
  iintro H; imodintro
  isplitr; · ipureintro; trivial
  iexact H

/-- Part 2 only computes words. -/
theorem part2_spec (c : Dev nD) (P : sProp 𝕄) (v33 : BitVec 32) (v34 : BitVec 32) (v36 : BitVec 32) (v37 : BitVec 32) :
    P ⊢ wpC c (k0_part2 (Memref.whole cc0_stg0_0) (Memref.isWhole_whole _) (Memref.whole cc0_stg1_0) (Memref.isWhole_whole _) (Memref.whole cc0_scratch0) (Memref.isWhole_whole _) cc0_scratch1 cc0_scratch2 v33 v34 v36 v37) (fun _ => P) := by
  rw [k0_part2_eq_skeleton]; unfold k0_part2_skel
  simp only [Prog.lift, Prog.bind_op, Prog.bind_ret, Prog.pure_eq_ret, wp_ret]
  iintro H; imodintro; iexact H

/-- Part 3 only computes words. -/
theorem part3_spec (c : Dev nD) (P : sProp 𝕄) (v33 : BitVec 32) (v66 : BitVec 32) (v76 : BitVec 32) (c4_i32_35 : BitVec 32) (v77 : BitVec 32) :
    P ⊢ wpC c (k0_part3 (Memref.whole cc0_stg0_0) (Memref.isWhole_whole _) (Memref.whole cc0_stg1_0) (Memref.isWhole_whole _) (Memref.whole cc0_scratch0) (Memref.isWhole_whole _) cc0_scratch1 cc0_scratch2 v33 v66 v76 c4_i32_35 v77) (fun _ => P) := by
  rw [k0_part3_eq_skeleton]; unfold k0_part3_skel
  simp only [Prog.lift, Prog.bind_op, Prog.bind_ret, Prog.pure_eq_ret, wp_ret]
  iintro H; imodintro; iexact H

/-- Part 4 only computes words. -/
theorem part4_spec (c : Dev nD) (P : sProp 𝕄) (v33 : BitVec 32) (v98 : BitVec 32) (v108 : BitVec 32) (c4_i32_51 : BitVec 32) (v109 : BitVec 32) (v114 : BitVec 32) (v116 : BitVec 32) (v117 : BitVec 1) :
    P ⊢ wpC c (k0_part4 (Memref.whole cc0_stg0_0) (Memref.isWhole_whole _) (Memref.whole cc0_stg1_0) (Memref.isWhole_whole _) (Memref.whole cc0_scratch0) (Memref.isWhole_whole _) cc0_scratch1 cc0_scratch2 v33 v98 v108 c4_i32_51 v109 v114 v116 v117) (fun _ => P) := by
  rw [k0_part4_eq_skeleton]; unfold k0_part4_skel
  simp only [Prog.lift, Prog.bind_op, Prog.bind_ret, Prog.pure_eq_ret, wp_ret]
  iintro H; imodintro; iexact H

/-- The first 25 parts and the four send waits that follow them: from the entry state to every stream's last
    phases but for the two send waits of the root. -/
theorem part26_spec (K : Dev nD × CellK → ℕ) (c : Dev nD) (g : Buf (Elt F) (((c : Dev nD) : Thread nD τ).loc cc0_stg1_0)) (f : Buf (Elt F) (((c : Dev nD) : Thread nD τ).loc cc0_scratch0)) :
    iprop(□ Pers m ρ K c ∗ EntrySt m ρ c g f)
      ⊢ wpC c (k0_part26 (Memref.whole cc0_stg0_0) (Memref.isWhole_whole _) (Memref.whole cc0_stg1_0) (Memref.isWhole_whole _) (Memref.whole cc0_scratch0) (Memref.isWhole_whole _) cc0_scratch1 cc0_scratch2) (fun d0 => iprop(⌜d0 = c⌝ ∗ GSt c 28 ∗ StreamSt22 m ρ c 0 ∗ StreamSt22 m ρ c 1 ∗ StreamSt21 m ρ c 2 ∗ StreamSt21 m ρ c 3)) := by
  rw [k0_part26_eq_skeleton]; unfold k0_part26_skel
  simp only [wp_bind]
  iintro ⟨#HP, HE⟩
  iapply (wp_seq (part1_spec c (EntrySt m ρ c g f)))
  isplitl [HE]; · iexact HE
  iintro %a1 ⟨%h1, HE⟩
  obtain ⟨d0, v33, v34, v36, v37⟩ := a1
  simp only at h1; subst h1
  iapply (wp_seq (part2_spec d0 (EntrySt m ρ d0 g f) _ _ _ _))
  isplitl [HE]; · iexact HE
  iintro %a2 HE
  iapply (wp_seq (part3_spec d0 (EntrySt m ρ d0 g f) _ _ _ _ _))
  isplitl [HE]; · iexact HE
  iintro %a3 HE
  iapply (wp_seq (part4_spec d0 (EntrySt m ρ d0 g f) _ _ _ _ _ _ _ _))
  isplitl [HE]; · iexact HE
  iintro %a4 HE
  iapply (wp_seq (part5_spec m ρ K d0 g f _ _ _ _ _ _))
  isplitl [HE]
  · isplitr; · iexact HP
    iexact HE
  iintro %a5 ⟨HG, H0, H1, H2, H3⟩
  iapply (wp_seq (part6_spec m ρ K d0 g g g g _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a6 ⟨HG, H0, H1, H2, H3⟩
  iapply (wp_seq (part7_spec m ρ K d0 g g g g _ _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a7 ⟨%h7, HG, H0, H1, H2, H3⟩
  iapply (wp_seq (part8_spec m ρ K d0 g g g g _ _ _ _ _ h7))
  isplitl [HG H0 H1 H2 H3]
  · isplitr; · iexact HP
    isplitl [HG]; · iexact HG
    isplitl [H0]; · iexact H0
    isplitl [H1]; · iexact H1
    isplitl [H2]; · iexact H2
    iexact H3
  iintro %a8 ⟨%h8, HG, H0, H1, H2, H3⟩
  iapply (wp_seq (part9_spec m ρ K d0 g g g g _ _ _ _ _ _ _ h8))
  isplitl [HG H0 H1 H2 H3]
  · isplitr; · iexact HP
    isplitl [HG]; · iexact HG
    isplitl [H0]; · iexact H0
    isplitl [H1]; · iexact H1
    isplitl [H2]; · iexact H2
    iexact H3
  iintro %a9 ⟨HG, H0, H1, H2, H3⟩
  iapply (wp_seq (part10_spec m ρ K d0 g g g g _ _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a10 ⟨HG, H0, H1, H2, H3⟩
  iapply (wp_seq (part11_spec m ρ K d0 g g g g _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a11 ⟨HG, H0, H1, H2, H3⟩
  iapply (wp_seq (part12_spec m ρ K d0 g g g g _ _ _))
  isplitl [HG H0 H1 H2 H3]
  · isplitr; · iexact HP
    isplitl [HG]; · iexact HG
    isplitl [H0]; · iexact H0
    isplitl [H1]; · iexact H1
    isplitl [H2]; · iexact H2
    iexact H3
  iintro %a12 ⟨%h12, HG, H0, H1, H2, H3⟩
  iapply (wp_seq (part13_spec m ρ K d0 g g g g _ _ _ _ _ h12))
  isplitl [HG H0 H1 H2 H3]
  · isplitr; · iexact HP
    isplitl [HG]; · iexact HG
    isplitl [H0]; · iexact H0
    isplitl [H1]; · iexact H1
    isplitl [H2]; · iexact H2
    iexact H3
  iintro %a13 ⟨HG, H0, H1, H2, H3⟩
  iapply (wp_seq (part14_spec m ρ K d0 g g g g _ _ _))
  isplitl [HG H0 H1 H2 H3]
  · isplitr; · iexact HP
    isplitl [HG]; · iexact HG
    isplitl [H0]; · iexact H0
    isplitl [H1]; · iexact H1
    isplitl [H2]; · iexact H2
    iexact H3
  iintro %a14 ⟨HG, H0, H1, H2, H3⟩
  iapply (wp_seq (part15_spec m ρ K d0 g g g g _ _ _))
  isplitl [HG H0 H1 H2 H3]
  · isplitr; · iexact HP
    isplitl [HG]; · iexact HG
    isplitl [H0]; · iexact H0
    isplitl [H1]; · iexact H1
    isplitl [H2]; · iexact H2
    iexact H3
  iintro %a15 ⟨HG, H0, H1, H2, H3⟩
  iapply (wp_seq (part16_spec m ρ K d0 g g g g _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a16 ⟨HG, H0, H1, H2, H3⟩
  iapply (wp_seq (part17_spec m ρ K d0 g g g g _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a17 ⟨%h17, HG, H0, H1, H2, H3⟩
  iapply (wp_seq (part18_spec m ρ K d0 g g g g _ _ _ _ _ h17))
  isplitl [HG H0 H1 H2 H3]
  · isplitr; · iexact HP
    isplitl [HG]; · iexact HG
    isplitl [H0]; · iexact H0
    isplitl [H1]; · iexact H1
    isplitl [H2]; · iexact H2
    iexact H3
  iintro %a18 ⟨%h18, HG, H0, H1, H2, H3⟩
  iapply (wp_seq (part19_spec m ρ K d0 g g g g _ _ _ _ _ h18))
  isplitl [HG H0 H1 H2 H3]
  · isplitr; · iexact HP
    isplitl [HG]; · iexact HG
    isplitl [H0]; · iexact H0
    isplitl [H1]; · iexact H1
    isplitl [H2]; · iexact H2
    iexact H3
  iintro %a19 ⟨HG, H0, H1, H2, H3⟩
  iapply (wp_seq (part20_spec m ρ K d0 g g g g _ _ _))
  isplitl [HG H0 H1 H2 H3]
  · isplitr; · iexact HP
    isplitl [HG]; · iexact HG
    isplitl [H0]; · iexact H0
    isplitl [H1]; · iexact H1
    isplitl [H2]; · iexact H2
    iexact H3
  iintro %a20 ⟨HG, H0, H1, H2, H3⟩
  iapply (wp_seq (part21_spec m ρ K d0 g g g g _ _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a21 ⟨HG, H0, H1, H2, H3⟩
  iapply (wp_seq (part22_spec m ρ K d0 g g g g _ _ _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a22 ⟨HG, H0, H1, H2, H3⟩
  iapply (wp_seq (part23_spec m ρ K d0 g g g g _ _ _ _))
  isplitl [HG H0 H1 H2 H3]
  · isplitr; · iexact HP
    isplitl [HG]; · iexact HG
    isplitl [H0]; · iexact H0
    isplitl [H1]; · iexact H1
    isplitl [H2]; · iexact H2
    iexact H3
  iintro %a23 ⟨HG, H0, H1, H2, H3⟩
  iapply (wp_seq (part24_spec m ρ K d0 g g g g ))
  isplitl [HG H0 H1 H2 H3]
  · isplitr; · iexact HP
    isplitl [HG]; · iexact HG
    isplitl [H0]; · iexact H0
    isplitl [H1]; · iexact H1
    isplitl [H2]; · iexact H2
    iexact H3
  iintro %a24 ⟨HG, H0, H1, H2, H3⟩
  iapply (wp_seq (part25_spec m ρ K d0 g g g g ))
  isplitl [HG H0 H1 H2 H3]
  · isplitr; · iexact HP
    isplitl [HG]; · iexact HG
    isplitl [H0]; · iexact H0
    isplitl [H1]; · iexact H1
    isplitl [H2]; · iexact H2
    iexact H3
  iintro %a25 ⟨HG, H0, H1, H2, H3⟩
  try simp only [Prog.lift]
  iapply (tr_WAITS4 m ρ K d0 2 g 28) $$ [HG H2]
  · isplitr; · iexact HP
    isplitl [HG]; · iexact HG
    iexact H2
  iintro ⟨HG, H2⟩
  simp only [wp_ret]; imodintro
  try simp only [Prog.lift]
  iapply (tr_WAITS4 m ρ K d0 3 g 28) $$ [HG H3]
  · isplitr; · iexact HP
    isplitl [HG]; · iexact HG
    iexact H3
  iintro ⟨HG, H3⟩
  simp only [wp_ret]; imodintro
  try simp only [Prog.lift]
  iapply (tr_WAITS5 m ρ K d0 0 g 28) $$ [HG H0]
  · isplitr; · iexact HP
    isplitl [HG]; · iexact HG
    iexact H0
  iintro ⟨HG, H0⟩
  simp only [wp_ret]; imodintro
  try simp only [Prog.lift]
  iapply (tr_WAITS5 m ρ K d0 1 g 28) $$ [HG H1]
  · isplitr; · iexact HP
    isplitl [HG]; · iexact HG
    iexact H1
  iintro ⟨HG, H1⟩
  simp only [wp_ret]; imodintro
  simp only [Prog.pure_eq_ret, wp_ret]; imodintro
  isplitr; · ipureintro; trivial
  isplitl [HG]; · iexact HG
  isplitl [H0]; · iexact H0
  isplitl [H1]; · iexact H1
  isplitl [H2]; · iexact H2
  iexact H3

/-- The whole body from the entry state: the 26 parts, the last two send waits, then the four streams' cells
    closed and the three buffers rejoined. -/
theorem body_run (K : Dev nD × CellK → ℕ) (c : Dev nD) (g : Buf (Elt F) (((c : Dev nD) : Thread nD τ).loc cc0_stg1_0)) (f : Buf (Elt F) (((c : Dev nD) : Thread nD τ).loc cc0_scratch0)) :
    iprop(□ Pers m ρ K c ∗ EntrySt m ρ c g f)
      ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c) := by
  rw [cc0_body_eq_skeleton]; unfold cc0_body_skel
  simp only [wp_bind]
  iintro ⟨#HP, HE⟩
  iapply (wp_seq (part26_spec m ρ K c g f))
  isplitl [HE]
  · isplitr; · iexact HP
    iexact HE
  iintro %d0 ⟨%hd, HG, H0, H1, H2, H3⟩
  subst hd
  try simp only [Prog.lift]
  iapply (tr_WAITS5 m ρ K d0 2 g 28) $$ [HG H2]
  · isplitr; · iexact HP
    isplitl [HG]; · iexact HG
    iexact H2
  iintro ⟨HG, H2⟩
  simp only [wp_ret]; imodintro
  try simp only [Prog.lift]
  iapply (tr_WAITS5 m ρ K d0 3 g 28) $$ [HG H3]
  · isplitr; · iexact HP
    isplitl [HG]; · iexact HG
    iexact H3
  iintro ⟨HG, H3⟩
  simp only [wp_ret]; imodintro
  simp only [Prog.pure_eq_ret, wp_ret]
  imod (stream_exit m ρ K d0 0) $$ [H0] with E0
  · isplitr; · iexact HP
    iexact H0
  imod (stream_exit m ρ K d0 1) $$ [H1] with E1
  · isplitr; · iexact HP
    iexact H1
  imod (stream_exit m ρ K d0 2) $$ [H2] with E2
  · isplitr; · iexact HP
    iexact H2
  imod (stream_exit m ρ K d0 3) $$ [H3] with E3
  · isplitr; · iexact HP
    iexact H3
  imodintro
  ihave HX := (body_exit m ρ d0) $$ [E0 E1 E2 E3]
  · isplitl [E0]; · iexact E0
    isplitl [E1]; · iexact E1
    isplitl [E2]; · iexact E2
    iexact E3
  icases HX with ⟨HΦ, Hx, Hout⟩
  unfold bodyPost Dat.owesAt Pipeline.owesWithin
  rw [show (dats m ρ 0 d0).owed t₀.succ = 0 from rfl]
  isplitl [HΦ]; · iexact HΦ
  isplitl [HG]
  · icases HG with ⟨%W, HO⟩
    rw [owedFrom_28]
    iexists W
    isplitr; · ipureintro; exact fun _ _ => Or.inl trivial
    iexact HO
  isplitl [Hx]
  · iexists _; isplitr; · (ipureintro; rfl)
    iexact Hx
  iexists _; isplitr; · (ipureintro; rfl)
  iexact Hout

/-- The body obligation's run: from what the pipeline hands the body to what it must return. -/
theorem sound_body (c : Dev nD) :
    bodyPre m ρ c ⊢ wpC c (cc0_body (Memref.whole cc0_stg0_0) (Memref.isWhole_whole _) (Memref.whole cc0_stg1_0) (Memref.isWhole_whole _) (Memref.whole cc0_scratch0) (Memref.isWhole_whole _) cc0_scratch1 cc0_scratch2) (fun _ => bodyPost m ρ c) := by
  refine (body_entry m ρ c).trans ?_
  iintro ⟨%K, %g, %f, HPE⟩
  iapply (body_run m ρ K c g f)
  iexact HPE

/-- info: 'Cert.Kernel.Proto.sound_body' depends on axioms: [propext, Classical.choice, Quot.sound] -/
#guard_msgs in #print axioms sound_body

end Cert.Kernel.Proto

end
-- ==== Proof.lean ====
/-
  The tree all-reduce on sixteen devices against the sum over the leading axis on one.

  Device `c` holds slice `c` of `x : f32[16, 512, 512]`. The kernel cuts the 512 rows into four streams of 128 rows; each
  stream halves twice along two dimensions of the hypercube of devices (a device adds what its partner sends to the
  half, then the quarter, it keeps), exchanges the kept quarter whole along the two remaining dimensions, and gathers
  the quarters and then the halves back along the first two. Every device ends holding, at each entry, the sum of the
  sixteen devices' entries, grouped as the four exchange steps grouped it. On the extended reals addition is
  commutative and associative, so that is the reference's sum over the leading axis whatever the grouping: no
  finiteness of the inputs is used. The two frames of the kernel are the same run with the values dropped, read at the
  words and at the extended reals; the reference's frame is its run with the result dropped; the idealization
  rewrote no operation, so `preserves` is `True`.
-/
import proofs.«900484_g7700000000000485_dist_treered_v7x_i16_m512_n512_f32_1_alg».proof.Defs
import proofs.«900484_g7700000000000485_dist_treered_v7x_i16_m512_n512_f32_1_alg».proof.Proof.Gen.Kernel
import proofs.«900484_g7700000000000485_dist_treered_v7x_i16_m512_n512_f32_1_alg».proof.Proof.Gen.Kernel.Skeleton
import proofs.«900484_g7700000000000485_dist_treered_v7x_i16_m512_n512_f32_1_alg».proof.Proof.Gen.Kernel.Launch
import proofs.«900484_g7700000000000485_dist_treered_v7x_i16_m512_n512_f32_1_alg».proof.Proof.Gen.Kernel.Points
import proofs.«900484_g7700000000000485_dist_treered_v7x_i16_m512_n512_f32_1_alg».proof.Proof.Gen.Kernel.Frame
import proofs.«900484_g7700000000000485_dist_treered_v7x_i16_m512_n512_f32_1_alg».proof.Proof.Gen.KernelIdeal
import proofs.«900484_g7700000000000485_dist_treered_v7x_i16_m512_n512_f32_1_alg».proof.Proof.Gen.KernelIdeal.Skeleton
import proofs.«900484_g7700000000000485_dist_treered_v7x_i16_m512_n512_f32_1_alg».proof.Proof.Gen.KernelIdeal.Launch
import proofs.«900484_g7700000000000485_dist_treered_v7x_i16_m512_n512_f32_1_alg».proof.Proof.Gen.KernelIdeal.Points
import proofs.«900484_g7700000000000485_dist_treered_v7x_i16_m512_n512_f32_1_alg».proof.Proof.Gen.KernelIdeal.Frame
import proofs.«900484_g7700000000000485_dist_treered_v7x_i16_m512_n512_f32_1_alg».proof.Proof.Gen.ReferenceIdeal
import proofs.«900484_g7700000000000485_dist_treered_v7x_i16_m512_n512_f32_1_alg».proof.Proof.Gen.Pre_finite_inputs_Kernel
import proofs.«900484_g7700000000000485_dist_treered_v7x_i16_m512_n512_f32_1_alg».proof.Proof.Gen.Pre_finite_inputs_ReferenceIdeal
import proofs.«900484_g7700000000000485_dist_treered_v7x_i16_m512_n512_f32_1_alg».proof.Proof.Claims
import proofs.«900484_g7700000000000485_dist_treered_v7x_i16_m512_n512_f32_1_alg».proof.Proof.RefSide
import proofs.«900484_g7700000000000485_dist_treered_v7x_i16_m512_n512_f32_1_alg».proof.Proof.Wrap
import proofs.«900484_g7700000000000485_dist_treered_v7x_i16_m512_n512_f32_1_alg».proof.Proof.Body
import proofs.«900484_g7700000000000485_dist_treered_v7x_i16_m512_n512_f32_1_alg».proof.Proof.Bits.Wrap
import proofs.«900484_g7700000000000485_dist_treered_v7x_i16_m512_n512_f32_1_alg».proof.Proof.Bits.Body
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    -- the program as printed runs, its arguments unchanged: the body's run read at the words
    fun m ρ _ => Cert.Kernel.Proto.frame_of_sound (F := Bits) (fun m ρ c => Cert.Kernel.Proto.sound_body m ρ c) m ρ,
    -- the same at the extended reals
    fun m ρ _ => Cert.KernelIdeal.Proto.frame_of_sound (F := Ideal) (fun m ρ c => Cert.KernelIdeal.Proto.sound_body m ρ c) m ρ,
    -- the reference runs, its argument unchanged
    Cert.RefSide.ref_frame,
    -- the idealization rewrote nothing
    trivial,
    -- every device's result is the sum of the sixteen slices: the reference's result
    Cert.KernelIdeal.Claims.algebraic_of_sound (fun m ρ c => Cert.KernelIdeal.Proto.sound_body m ρ c)⟩

end Cert.Proof

end
